-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.truncf_extf.Statement Cert.KernelIdeal.S100x128 .f32 .bf16
  ∧ IdealRules.named_const.Statement Cert.KernelIdeal.κ "inv_100" .f32 0x3C23D70A#32 ((1 / 100 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x100x128 : Shape := ⟨3, ![100, 100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100x100x128 : S_.BroadcastsInDim S100x100x128 (![] : Fin 0 → Fin S100x100x128.rank)
  reducesTo_S100x100x128_S_d0_1_2 : S100x100x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x64 .f32) (main_arg10 : FVec F S64 .f32) (main_arg11 : FVec F S64x1 .f32) (main_arg12 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100x100x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S100x100x128 .f32 := Host.absf main_arg0
  let main_cst : FVec F S_ .f32 := constant S_ .f32 0x7F800000#32
  let main_v1 : FVec F S100x100x128 .f32 := broadcastInDim S100x100x128 ![] bcast_S_S100x100x128 main_cst
  let main_v2 : IVec S100x100x128 1 := cmpf .olt main_v0 main_v1
  let main_c : IVec S_ 1 := constantI S_ 1 1#1
  let main_v3 : IVec S_ 1 := (fun x v => Host.reduce IntOp.andi x v reducesTo_S100x100x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S100x100x128 : Shape := ⟨3, ![100, 100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100x100x1 : Shape := ⟨3, ![100, 100, 1]⟩
abbrev S100x100 : Shape := ⟨2, ![100, 100]⟩
abbrev S100x1x100 : Shape := ⟨3, ![100, 1, 100]⟩
abbrev S1x128 : Shape := ⟨2, ![1, 128]⟩
abbrev S1x64 : Shape := ⟨2, ![1, 64]⟩
abbrev S1x1 : Shape := ⟨2, ![1, 1]⟩
abbrev S100x1x128 : Shape := ⟨3, ![100, 1, 128]⟩
abbrev S50x100x128 : Shape := ⟨3, ![50, 100, 128]⟩
abbrev S50x1x100 : Shape := ⟨3, ![50, 1, 100]⟩
abbrev S50x1x128 : Shape := ⟨3, ![50, 1, 128]⟩
abbrev S50x128 : Shape := ⟨2, ![50, 128]⟩
abbrev S1x100x128 : Shape := ⟨3, ![1, 100, 128]⟩
abbrev S100x128 : Shape := ⟨2, ![100, 128]⟩
abbrev S100x1 : Shape := ⟨2, ![100, 1]⟩
abbrev S1x1x100 : Shape := ⟨3, ![1, 1, 100]⟩
abbrev S1x100 : Shape := ⟨2, ![1, 100]⟩
abbrev S100 : Shape := ⟨1, ![100]⟩
abbrev S100x256 : Shape := ⟨2, ![100, 256]⟩
abbrev S50x64 : Shape := ⟨2, ![50, 64]⟩
abbrev S50x1 : Shape := ⟨2, ![50, 1]⟩
abbrev S50x1x1 : Shape := ⟨3, ![50, 1, 1]⟩
abbrev S100x1x1 : Shape := ⟨3, ![100, 1, 1]⟩

abbrev nBuf : Space → Nat
  | .hbm => 25
  | .vmem => 19
  | .smem => 0
  | _ => 0

abbrev bufTy : (tb : Table) → Fin (tcTables nBuf tb) → BufTy
  | .hbm, ⟨0, _⟩ => ⟨S100x100x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S100x100x1, .f32⟩
  | .hbm, ⟨14, _⟩ => ⟨S100x100, .f32⟩
  | .hbm, ⟨15, _⟩ => ⟨S100x1x100, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x64, .f32⟩
  | .hbm, ⟨21, _⟩ => ⟨S1x1, .f32⟩
  | .hbm, ⟨22, _⟩ => ⟨S100x1x128, .f32⟩
  | .hbm, ⟨23, _⟩ => ⟨S100x1x1, .f32⟩
  | .hbm, ⟨24, _⟩ => ⟨S100x1, .f32⟩
  | .local _ .vmem, ⟨0, _⟩ => ⟨S50x100x128, .f32⟩
  | .local _ .vmem, ⟨1, _⟩ => ⟨S50x100x128, .f32⟩
  | .local _ .vmem, ⟨2, _⟩ => ⟨S50x1x100, .f32⟩
  | .local _ .vmem, ⟨3, _⟩ => ⟨S50x1x100, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S50x1x128, .f32⟩
  | .local _ .vmem, ⟨17, _⟩ => ⟨S50x1x128, .f32⟩
  | .local _ .vmem, ⟨18, _⟩ => ⟨S50x128, .f32⟩
  | _, _ => ⟨S100x100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50x100x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x1x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S50x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S100x100x128_S100x100x1_0_0_0 : S100x100x128.Slices ![0, 0, 0] S100x100x1
  shapeCasts_S100x100x1_S100x100 : S100x100x1.ShapeCasts S100x100
  bcast_S100x100_S100x1x100_0_2 : S100x100.BroadcastsInDim S100x1x100 (![0, 2] : Fin 2 → Fin S100x1x100.rank)
  bcast_S128_S1x128_1 : S128.BroadcastsInDim S1x128 (![1] : Fin 1 → Fin S1x128.rank)
  bcast_S64_S1x64_1 : S64.BroadcastsInDim S1x64 (![1] : Fin 1 → Fin S1x64.rank)
  bcast_S1_S1x1_1 : S1.BroadcastsInDim S1x1 (![1] : Fin 1 → Fin S1x1.rank)
  iota_S100x100_d0_w32 : S100x100.Iotas .tc 32 [0]
  iota_S100x100_d1_w32 : S100x100.Iotas .tc 32 [1]
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S50x100x128_S1x100x128_0_0_0 : ∀ a, (![0, 0, 0] : Fin 3 → Nat) a + S1x100x128.size a ≤ S50x100x128.size a
  h_S1x100x128 : 0 < S1x100x128.numel
  shapeCasts_S1x100x128_S100x128 : S1x100x128.ShapeCasts S100x128
  slices_S100x128_o0_0_S100x1 : S100x128.Slices ![0, 0] S100x1
  inb_S50x1x100_S1x1x100_0_0_0 : ∀ a, (![0, 0, 0] : Fin 3 → Nat) a + S1x1x100.size a ≤ S50x1x100.size a
  h_S1x1x100 : 0 < S1x1x100.numel
  shapeCasts_S1x1x100_S1x100 : S1x1x100.ShapeCasts S1x100
  broadcasts_S100x1_S100x100 : S100x1.Broadcasts S100x100
  broadcasts_S1x100_S100x100 : S1x100.Broadcasts S100x100
  natLt_1_32 : 1 < 32
  reduces_S100x100_S100 : S100x100.Reduces [1] S100
  shapeCasts_S100_S100x1 : S100.ShapeCasts S100x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S100x128 : S1x128.Broadcasts S100x128
  inb_S50x100x128_S1x100x128_1_0_0 : ∀ a, (![1, 0, 0] : Fin 3 → Nat) a + S1x100x128.size a ≤ S50x100x128.size a
  inb_S50x1x100_S1x1x100_1_0_0 : ∀ a, (![1, 0, 0] : Fin 3 → Nat) a + S1x1x100.size a ≤ S50x1x100.size a
  inb_S50x100x128_S1x100x128_2_0_0 : ∀ a, (![2, 0, 0] : Fin 3 → Nat) a + S1x100x128.size a ≤ S50x100x128.size a
  inb_S50x1x100_S1x1x100_2_0_0 : ∀ a, (![2, 0, 0] : Fin 3 → Nat) a + S1x1x100.size a ≤ S50x1x100.size a
  inb_S50x100x128_S1x100x128_3_0_0 : ∀ a, (![3, 0, 0] : Fin 3 → Nat) a + S1x100x128.size a ≤ S50x100x128.size a
  inb_S50x1x100_S1x1x100_3_0_0 : ∀ a, (![3, 0, 0] : Fin 3 → Nat) a + S1x1x100.size a ≤ S50x1x100.size a
  inb_S50x100x128_S1x100x128_4_0_0 : ∀ a, (![4, 0, 0] : Fin 3 → Nat) a + S1x100x128.size a ≤ S50x100x128.size a
  inb_S50x1x100_S1x1x100_4_0_0 : ∀ a, (![4, 0, 0] : Fin 3 → Nat) a + S1x1x100.size a ≤ S50x1x100.size a
  inb_S50x100x128_S1x100x128_5_0_0 : ∀ a, (![5, 0, 0] : Fin 3 → Nat) a + S1x100x128.size a ≤ S50x100x128.size a
  inb_S50x1x100_S1x1x100_5_0_0 : ∀ a, (![5, 0, 0] : Fin 3 → Nat) a + S1x1x100.size a ≤ S50x1x100.size a
  inb_S50x100x128_S1x100x128_6_0_0 : ∀ a, (![6, 0, 0] : Fin 3 → Nat) a + S1x100x128.size a ≤ S50x100x128.size a
  inb_S50x1x100_S1x1x100_6_0_0 : ∀ a, (![6, 0, 0] : Fin 3 → Nat) a + S1x1x100.size a ≤ S50x1x100.size a
  inb_S50x100x128_S1x100x128_7_0_0 : ∀ a, (![7, 0, 0] : Fin 3 → Nat) a + S1x100x128.size a ≤ S50x100x128.size a
  inb_S50x1x100_S1x1x100_7_0_0 : ∀ a, (![7, 0, 0] : Fin 3 → Nat) a + S1x1x100.size a ≤ S50x1x100.size a
  inb_S50x100x128_S1x100x128_8_0_0 : ∀ a, (![8, 0, 0] : Fin 3 → Nat) a + S1x100x128.size a ≤ S50x100x128.size a
  inb_S50x1x100_S1x1x100_8_0_0 : ∀ a, (![8, 0, 0] : Fin 3 → Nat) a + S1x1x100.size a ≤ S50x1x100.size a
  inb_S50x100x128_S1x100x128_9_0_0 : ∀ a, (![9, 0, 0] : Fin 3 → Nat) a + S1x100x128.size a ≤ S50x100x128.size a
  inb_S50x1x100_S1x1x100_9_0_0 : ∀ a, (![9, 0, 0] : Fin 3 → Nat) a + S1x1x100.size a ≤ S50x1x100.size a
  inb_S50x100x128_S1x100x128_10_0_0 : ∀ a, (![10, 0, 0] : Fin 3 → Nat) a + S1x100x128.size a ≤ S50x100x128.size a
  inb_S50x1x100_S1x1x100_10_0_0 : ∀ a, (![10, 0, 0] : Fin 3 → Nat) a + S1x1x100.size a ≤ S50x1x100.size a
  inb_S50x100x128_S1x100x128_11_0_0 : ∀ a, (![11, 0, 0] : Fin 3 → Nat) a + S1x100x128.size a ≤ S50x100x128.size a
  inb_S50x1x100_S1x1x100_11_0_0 : ∀ a, (![11, 0, 0] : Fin 3 → Nat) a + S1x1x100.size a ≤ S50x1x100.size a
  inb_S50x100x128_S1x100x128_12_0_0 : ∀ a, (![12, 0, 0] : Fin 3 → Nat) a + S1x100x128.size a ≤ S50x100x128.size a
  inb_S50x1x100_S1x1x100_12_0_0 : ∀ a, (![12, 0, 0] : Fin 3 → Nat) a + S1x1x100.size a ≤ S50x1x100.size a
  inb_S50x100x128_S1x100x128_13_0_0 : ∀ a, (![13, 0, 0] : Fin 3 → Nat) a + S1x100x128.size a ≤ S50x100x128.size a
  inb_S50x1x100_S1x1x100_13_0_0 : ∀ a, (![13, 0, 0] : Fin 3 → Nat) a + S1x1x100.size a ≤ S50x1x100.size a
  inb_S50x100x128_S1x100x128_14_0_0 : ∀ a, (![14, 0, 0] : Fin 3 → Nat) a + S1x100x128.size a ≤ S50x100x128.size a
  inb_S50x1x100_S1x1x100_14_0_0 : ∀ a, (![14, 0, 0] : Fin 3 → Nat) a + S1x1x100.size a ≤ S50x1x100.size a
  inb_S50x100x128_S1x100x128_15_0_0 : ∀ a, (![15, 0, 0] : Fin 3 → Nat) a + S1x100x128.size a ≤ S50x100x128.size a
  inb_S50x1x100_S1x1x100_15_0_0 : ∀ a, (![15, 0, 0] : Fin 3 → Nat) a + S1x1x100.size a ≤ S50x1x100.size a
  inb_S50x100x128_S1x100x128_16_0_0 : ∀ a, (![16, 0, 0] : Fin 3 → Nat) a + S1x100x128.size a ≤ S50x100x128.size a
  inb_S50x1x100_S1x1x100_16_0_0 : ∀ a, (![16, 0, 0] : Fin 3 → Nat) a + S1x1x100.size a ≤ S50x1x100.size a
  inb_S50x100x128_S1x100x128_17_0_0 : ∀ a, (![17, 0, 0] : Fin 3 → Nat) a + S1x100x128.size a ≤ S50x100x128.size a
  inb_S50x1x100_S1x1x100_17_0_0 : ∀ a, (![17, 0, 0] : Fin 3 → Nat) a + S1x1x100.size a ≤ S50x1x100.size a
  inb_S50x100x128_S1x100x128_18_0_0 : ∀ a, (![18, 0, 0] : Fin 3 → Nat) a + S1x100x128.size a ≤ S50x100x128.size a
  inb_S50x1x100_S1x1x100_18_0_0 : ∀ a, (![18, 0, 0] : Fin 3 → Nat) a + S1x1x100.size a ≤ S50x1x100.size a
  inb_S50x100x128_S1x100x128_19_0_0 : ∀ a, (![19, 0, 0] : Fin 3 → Nat) a + S1x100x128.size a ≤ S50x100x128.size a
  inb_S50x1x100_S1x1x100_19_0_0 : ∀ a, (![19, 0, 0] : Fin 3 → Nat) a + S1x1x100.size a ≤ S50x1x100.size a
  inb_S50x100x128_S1x100x128_20_0_0 : ∀ a, (![20, 0, 0] : Fin 3 → Nat) a + S1x100x128.size a ≤ S50x100x128.size a
  inb_S50x1x100_S1x1x100_20_0_0 : ∀ a, (![20, 0, 0] : Fin 3 → Nat) a + S1x1x100.size a ≤ S50x1x100.size a
  inb_S50x100x128_S1x100x128_21_0_0 : ∀ a, (![21, 0, 0] : Fin 3 → Nat) a + S1x100x128.size a ≤ S50x100x128.size a
  inb_S50x1x100_S1x1x100_21_0_0 : ∀ a, (![21, 0, 0] : Fin 3 → Nat) a + S1x1x100.size a ≤ S50x1x100.size a
  inb_S50x100x128_S1x100x128_22_0_0 : ∀ a, (![22, 0, 0] : Fin 3 → Nat) a + S1x100x128.size a ≤ S50x100x128.size a
  inb_S50x1x100_S1x1x100_22_0_0 : ∀ a, (![22, 0, 0] : Fin 3 → Nat) a + S1x1x100.size a ≤ S50x1x100.size a
  inb_S50x100x128_S1x100x128_23_0_0 : ∀ a, (![23, 0, 0] : Fin 3 → Nat) a + S1x100x128.size a ≤ S50x100x128.size a
  inb_S50x1x100_S1x1x100_23_0_0 : ∀ a, (![23, 0, 0] : Fin 3 → Nat) a + S1x1x100.size a ≤ S50x1x100.size a
  inb_S50x100x128_S1x100x128_24_0_0 : ∀ a, (![24, 0, 0] : Fin 3 → Nat) a + S1x100x128.size a ≤ S50x100x128.size a
  inb_S50x1x100_S1x1x100_24_0_0 : ∀ a, (![24, 0, 0] : Fin 3 → Nat) a + S1x1x100.size a ≤ S50x1x100.size a
  inb_S50x100x128_S1x100x128_25_0_0 : ∀ a, (![25, 0, 0] : Fin 3 → Nat) a + S1x100x128.size a ≤ S50x100x128.size a
  inb_S50x1x100_S1x1x100_25_0_0 : ∀ a, (![25, 0, 0] : Fin 3 → Nat) a + S1x1x100.size a ≤ S50x1x100.size a
  inb_S50x100x128_S1x100x128_26_0_0 : ∀ a, (![26, 0, 0] : Fin 3 → Nat) a + S1x100x128.size a ≤ S50x100x128.size a
  inb_S50x1x100_S1x1x100_26_0_0 : ∀ a, (![26, 0, 0] : Fin 3 → Nat) a + S1x1x100.size a ≤ S50x1x100.size a
  inb_S50x100x128_S1x100x128_27_0_0 : ∀ a, (![27, 0, 0] : Fin 3 → Nat) a + S1x100x128.size a ≤ S50x100x128.size a
  inb_S50x1x100_S1x1x100_27_0_0 : ∀ a, (![27, 0, 0] : Fin 3 → Nat) a + S1x1x100.size a ≤ S50x1x100.size a
  inb_S50x100x128_S1x100x128_28_0_0 : ∀ a, (![28, 0, 0] : Fin 3 → Nat) a + S1x100x128.size a ≤ S50x100x128.size a
  inb_S50x1x100_S1x1x100_28_0_0 : ∀ a, (![28, 0, 0] : Fin 3 → Nat) a + S1x1x100.size a ≤ S50x1x100.size a
  inb_S50x100x128_S1x100x128_29_0_0 : ∀ a, (![29, 0, 0] : Fin 3 → Nat) a + S1x100x128.size a ≤ S50x100x128.size a
  inb_S50x1x100_S1x1x100_29_0_0 : ∀ a, (![29, 0, 0] : Fin 3 → Nat) a + S1x1x100.size a ≤ S50x1x100.size a
  inb_S50x100x128_S1x100x128_30_0_0 : ∀ a, (![30, 0, 0] : Fin 3 → Nat) a + S1x100x128.size a ≤ S50x100x128.size a
  inb_S50x1x100_S1x1x100_30_0_0 : ∀ a, (![30, 0, 0] : Fin 3 → Nat) a + S1x1x100.size a ≤ S50x1x100.size a
  inb_S50x100x128_S1x100x128_31_0_0 : ∀ a, (![31, 0, 0] : Fin 3 → Nat) a + S1x100x128.size a ≤ S50x100x128.size a
  inb_S50x1x100_S1x1x100_31_0_0 : ∀ a, (![31, 0, 0] : Fin 3 → Nat) a + S1x1x100.size a ≤ S50x1x100.size a
  inb_S50x100x128_S1x100x128_32_0_0 : ∀ a, (![32, 0, 0] : Fin 3 → Nat) a + S1x100x128.size a ≤ S50x100x128.size a
  inb_S50x1x100_S1x1x100_32_0_0 : ∀ a, (![32, 0, 0] : Fin 3 → Nat) a + S1x1x100.size a ≤ S50x1x100.size a
  inb_S50x100x128_S1x100x128_33_0_0 : ∀ a, (![33, 0, 0] : Fin 3 → Nat) a + S1x100x128.size a ≤ S50x100x128.size a
  inb_S50x1x100_S1x1x100_33_0_0 : ∀ a, (![33, 0, 0] : Fin 3 → Nat) a + S1x1x100.size a ≤ S50x1x100.size a
  inb_S50x100x128_S1x100x128_34_0_0 : ∀ a, (![34, 0, 0] : Fin 3 → Nat) a + S1x100x128.size a ≤ S50x100x128.size a
  inb_S50x1x100_S1x1x100_34_0_0 : ∀ a, (![34, 0, 0] : Fin 3 → Nat) a + S1x1x100.size a ≤ S50x1x100.size a
  inb_S50x100x128_S1x100x128_35_0_0 : ∀ a, (![35, 0, 0] : Fin 3 → Nat) a + S1x100x128.size a ≤ S50x100x128.size a
  inb_S50x1x100_S1x1x100_35_0_0 : ∀ a, (![35, 0, 0] : Fin 3 → Nat) a + S1x1x100.size a ≤ S50x1x100.size a
  inb_S50x100x128_S1x100x128_36_0_0 : ∀ a, (![36, 0, 0] : Fin 3 → Nat) a + S1x100x128.size a ≤ S50x100x128.size a
  inb_S50x1x100_S1x1x100_36_0_0 : ∀ a, (![36, 0, 0] : Fin 3 → Nat) a + S1x1x100.size a ≤ S50x1x100.size a
  inb_S50x100x128_S1x100x128_37_0_0 : ∀ a, (![37, 0, 0] : Fin 3 → Nat) a + S1x100x128.size a ≤ S50x100x128.size a
  inb_S50x1x100_S1x1x100_37_0_0 : ∀ a, (![37, 0, 0] : Fin 3 → Nat) a + S1x1x100.size a ≤ S50x1x100.size a
  inb_S50x100x128_S1x100x128_38_0_0 : ∀ a, (![38, 0, 0] : Fin 3 → Nat) a + S1x100x128.size a ≤ S50x100x128.size a
  inb_S50x1x100_S1x1x100_38_0_0 : ∀ a, (![38, 0, 0] : Fin 3 → Nat) a + S1x1x100.size a ≤ S50x1x100.size a
  inb_S50x100x128_S1x100x128_39_0_0 : ∀ a, (![39, 0, 0] : Fin 3 → Nat) a + S1x100x128.size a ≤ S50x100x128.size a
  inb_S50x1x100_S1x1x100_39_0_0 : ∀ a, (![39, 0, 0] : Fin 3 → Nat) a + S1x1x100.size a ≤ S50x1x100.size a
  inb_S50x100x128_S1x100x128_40_0_0 : ∀ a, (![40, 0, 0] : Fin 3 → Nat) a + S1x100x128.size a ≤ S50x100x128.size a
  inb_S50x1x100_S1x1x100_40_0_0 : ∀ a, (![40, 0, 0] : Fin 3 → Nat) a + S1x1x100.size a ≤ S50x1x100.size a
  inb_S50x100x128_S1x100x128_41_0_0 : ∀ a, (![41, 0, 0] : Fin 3 → Nat) a + S1x100x128.size a ≤ S50x100x128.size a
  inb_S50x1x100_S1x1x100_41_0_0 : ∀ a, (![41, 0, 0] : Fin 3 → Nat) a + S1x1x100.size a ≤ S50x1x100.size a
  inb_S50x100x128_S1x100x128_42_0_0 : ∀ a, (![42, 0, 0] : Fin 3 → Nat) a + S1x100x128.size a ≤ S50x100x128.size a
  inb_S50x1x100_S1x1x100_42_0_0 : ∀ a, (![42, 0, 0] : Fin 3 → Nat) a + S1x1x100.size a ≤ S50x1x100.size a
  inb_S50x100x128_S1x100x128_43_0_0 : ∀ a, (![43, 0, 0] : Fin 3 → Nat) a + S1x100x128.size a ≤ S50x100x128.size a
  inb_S50x1x100_S1x1x100_43_0_0 : ∀ a, (![43, 0, 0] : Fin 3 → Nat) a + S1x1x100.size a ≤ S50x1x100.size a
  inb_S50x100x128_S1x100x128_44_0_0 : ∀ a, (![44, 0, 0] : Fin 3 → Nat) a + S1x100x128.size a ≤ S50x100x128.size a
  inb_S50x1x100_S1x1x100_44_0_0 : ∀ a, (![44, 0, 0] : Fin 3 → Nat) a + S1x1x100.size a ≤ S50x1x100.size a
  inb_S50x100x128_S1x100x128_45_0_0 : ∀ a, (![45, 0, 0] : Fin 3 → Nat) a + S1x100x128.size a ≤ S50x100x128.size a
  inb_S50x1x100_S1x1x100_45_0_0 : ∀ a, (![45, 0, 0] : Fin 3 → Nat) a + S1x1x100.size a ≤ S50x1x100.size a
  inb_S50x100x128_S1x100x128_46_0_0 : ∀ a, (![46, 0, 0] : Fin 3 → Nat) a + S1x100x128.size a ≤ S50x100x128.size a
  inb_S50x1x100_S1x1x100_46_0_0 : ∀ a, (![46, 0, 0] : Fin 3 → Nat) a + S1x1x100.size a ≤ S50x1x100.size a
  inb_S50x100x128_S1x100x128_47_0_0 : ∀ a, (![47, 0, 0] : Fin 3 → Nat) a + S1x100x128.size a ≤ S50x100x128.size a
  inb_S50x1x100_S1x1x100_47_0_0 : ∀ a, (![47, 0, 0] : Fin 3 → Nat) a + S1x1x100.size a ≤ S50x1x100.size a
  inb_S50x100x128_S1x100x128_48_0_0 : ∀ a, (![48, 0, 0] : Fin 3 → Nat) a + S1x100x128.size a ≤ S50x100x128.size a
  inb_S50x1x100_S1x1x100_48_0_0 : ∀ a, (![48, 0, 0] : Fin 3 → Nat) a + S1x1x100.size a ≤ S50x1x100.size a
  inb_S50x100x128_S1x100x128_49_0_0 : ∀ a, (![49, 0, 0] : Fin 3 → Nat) a + S1x100x128.size a ≤ S50x100x128.size a
  inb_S50x1x100_S1x1x100_49_0_0 : ∀ a, (![49, 0, 0] : Fin 3 → Nat) a + S1x1x100.size a ≤ S50x1x100.size a
  broadcasts_S100x1_S100x128 : S100x1.Broadcasts S100x128
  concatenates_S100x128_S100x128_S100x256_d1 : Shape.Concatenates [S100x128, S100x128] S100x256 1
  slices_S100x256_o0_0_S100x128 : S100x256.Slices ![0, 0] S100x128
  slices_S100x256_o0_128_S100x128 : S100x256.Slices ![0, 128] S100x128
  reduces_S100x128_S128 : S100x128.Reduces [0] S128
  shapeCasts_S128_S1x128 : S128.ShapeCasts S1x128
  inb_S50x128_S1x128_0_0 : ∀ a, (![0, 0] : Fin 2 → Nat) a + S1x128.size a ≤ S50x128.size a
  inb_S50x128_S1x128_1_0 : ∀ a, (![1, 0] : Fin 2 → Nat) a + S1x128.size a ≤ S50x128.size a
  inb_S50x128_S1x128_2_0 : ∀ a, (![2, 0] : Fin 2 → Nat) a + S1x128.size a ≤ S50x128.size a
  inb_S50x128_S1x128_3_0 : ∀ a, (![3, 0] : Fin 2 → Nat) a + S1x128.size a ≤ S50x128.size a
  inb_S50x128_S1x128_4_0 : ∀ a, (![4, 0] : Fin 2 → Nat) a + S1x128.size a ≤ S50x128.size a
  inb_S50x128_S1x128_5_0 : ∀ a, (![5, 0] : Fin 2 → Nat) a + S1x128.size a ≤ S50x128.size a
  inb_S50x128_S1x128_6_0 : ∀ a, (![6, 0] : Fin 2 → Nat) a + S1x128.size a ≤ S50x128.size a
  inb_S50x128_S1x128_7_0 : ∀ a, (![7, 0] : Fin 2 → Nat) a + S1x128.size a ≤ S50x128.size a
  inb_S50x128_S1x128_8_0 : ∀ a, (![8, 0] : Fin 2 → Nat) a + S1x128.size a ≤ S50x128.size a
  inb_S50x128_S1x128_9_0 : ∀ a, (![9, 0] : Fin 2 → Nat) a + S1x128.size a ≤ S50x128.size a
  inb_S50x128_S1x128_10_0 : ∀ a, (![10, 0] : Fin 2 → Nat) a + S1x128.size a ≤ S50x128.size a
  inb_S50x128_S1x128_11_0 : ∀ a, (![11, 0] : Fin 2 → Nat) a + S1x128.size a ≤ S50x128.size a
  inb_S50x128_S1x128_12_0 : ∀ a, (![12, 0] : Fin 2 → Nat) a + S1x128.size a ≤ S50x128.size a
  inb_S50x128_S1x128_13_0 : ∀ a, (![13, 0] : Fin 2 → Nat) a + S1x128.size a ≤ S50x128.size a
  inb_S50x128_S1x128_14_0 : ∀ a, (![14, 0] : Fin 2 → Nat) a + S1x128.size a ≤ S50x128.size a
  inb_S50x128_S1x128_15_0 : ∀ a, (![15, 0] : Fin 2 → Nat) a + S1x128.size a ≤ S50x128.size a
  inb_S50x128_S1x128_16_0 : ∀ a, (![16, 0] : Fin 2 → Nat) a + S1x128.size a ≤ S50x128.size a
  inb_S50x128_S1x128_17_0 : ∀ a, (![17, 0] : Fin 2 → Nat) a + S1x128.size a ≤ S50x128.size a
  inb_S50x128_S1x128_18_0 : ∀ a, (![18, 0] : Fin 2 → Nat) a + S1x128.size a ≤ S50x128.size a
  inb_S50x128_S1x128_19_0 : ∀ a, (![19, 0] : Fin 2 → Nat) a + S1x128.size a ≤ S50x128.size a
  inb_S50x128_S1x128_20_0 : ∀ a, (![20, 0] : Fin 2 → Nat) a + S1x128.size a ≤ S50x128.size a
  inb_S50x128_S1x128_21_0 : ∀ a, (![21, 0] : Fin 2 → Nat) a + S1x128.size a ≤ S50x128.size a
  inb_S50x128_S1x128_22_0 : ∀ a, (![22, 0] : Fin 2 → Nat) a + S1x128.size a ≤ S50x128.size a
  inb_S50x128_S1x128_23_0 : ∀ a, (![23, 0] : Fin 2 → Nat) a + S1x128.size a ≤ S50x128.size a
  inb_S50x128_S1x128_24_0 : ∀ a, (![24, 0] : Fin 2 → Nat) a + S1x128.size a ≤ S50x128.size a
  inb_S50x128_S1x128_25_0 : ∀ a, (![25, 0] : Fin 2 → Nat) a + S1x128.size a ≤ S50x128.size a
  inb_S50x128_S1x128_26_0 : ∀ a, (![26, 0] : Fin 2 → Nat) a + S1x128.size a ≤ S50x128.size a
  inb_S50x128_S1x128_27_0 : ∀ a, (![27, 0] : Fin 2 → Nat) a + S1x128.size a ≤ S50x128.size a
  inb_S50x128_S1x128_28_0 : ∀ a, (![28, 0] : Fin 2 → Nat) a + S1x128.size a ≤ S50x128.size a
  inb_S50x128_S1x128_29_0 : ∀ a, (![29, 0] : Fin 2 → Nat) a + S1x128.size a ≤ S50x128.size a
  inb_S50x128_S1x128_30_0 : ∀ a, (![30, 0] : Fin 2 → Nat) a + S1x128.size a ≤ S50x128.size a
  inb_S50x128_S1x128_31_0 : ∀ a, (![31, 0] : Fin 2 → Nat) a + S1x128.size a ≤ S50x128.size a
  inb_S50x128_S1x128_32_0 : ∀ a, (![32, 0] : Fin 2 → Nat) a + S1x128.size a ≤ S50x128.size a
  inb_S50x128_S1x128_33_0 : ∀ a, (![33, 0] : Fin 2 → Nat) a + S1x128.size a ≤ S50x128.size a
  inb_S50x128_S1x128_34_0 : ∀ a, (![34, 0] : Fin 2 → Nat) a + S1x128.size a ≤ S50x128.size a
  inb_S50x128_S1x128_35_0 : ∀ a, (![35, 0] : Fin 2 → Nat) a + S1x128.size a ≤ S50x128.size a
  inb_S50x128_S1x128_36_0 : ∀ a, (![36, 0] : Fin 2 → Nat) a + S1x128.size a ≤ S50x128.size a
  inb_S50x128_S1x128_37_0 : ∀ a, (![37, 0] : Fin 2 → Nat) a + S1x128.size a ≤ S50x128.size a
  inb_S50x128_S1x128_38_0 : ∀ a, (![38, 0] : Fin 2 → Nat) a + S1x128.size a ≤ S50x128.size a
  inb_S50x128_S1x128_39_0 : ∀ a, (![39, 0] : Fin 2 → Nat) a + S1x128.size a ≤ S50x128.size a
  inb_S50x128_S1x128_40_0 : ∀ a, (![40, 0] : Fin 2 → Nat) a + S1x128.size a ≤ S50x128.size a
  inb_S50x128_S1x128_41_0 : ∀ a, (![41, 0] : Fin 2 → Nat) a + S1x128.size a ≤ S50x128.size a
  inb_S50x128_S1x128_42_0 : ∀ a, (![42, 0] : Fin 2 → Nat) a + S1x128.size a ≤ S50x128.size a
  inb_S50x128_S1x128_43_0 : ∀ a, (![43, 0] : Fin 2 → Nat) a + S1x128.size a ≤ S50x128.size a
  inb_S50x128_S1x128_44_0 : ∀ a, (![44, 0] : Fin 2 → Nat) a + S1x128.size a ≤ S50x128.size a
  inb_S50x128_S1x128_45_0 : ∀ a, (![45, 0] : Fin 2 → Nat) a + S1x128.size a ≤ S50x128.size a
  inb_S50x128_S1x128_46_0 : ∀ a, (![46, 0] : Fin 2 → Nat) a + S1x128.size a ≤ S50x128.size a
  inb_S50x128_S1x128_47_0 : ∀ a, (![47, 0] : Fin 2 → Nat) a + S1x128.size a ≤ S50x128.size a
  inb_S50x128_S1x128_48_0 : ∀ a, (![48, 0] : Fin 2 → Nat) a + S1x128.size a ≤ S50x128.size a
  inb_S50x128_S1x128_49_0 : ∀ a, (![49, 0] : Fin 2 → Nat) a + S1x128.size a ≤ S50x128.size a
  inb_S50x128_S50x128_0_0 : ∀ a, (![0, 0] : Fin 2 → Nat) a + S50x128.size a ≤ S50x128.size a
  h_S50x128 : 0 < S50x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S50x64 : S1x64.Broadcasts S50x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S50x1 : S1x1.Broadcasts S50x1
  shapeCasts_S50x1_S50x1x1 : S50x1.ShapeCasts S50x1x1
  shapeCasts_S50x1x1_S50x1x1 : S50x1x1.ShapeCasts S50x1x1
  broadcasts_S50x1x1_S50x1x128 : S50x1x1.Broadcasts S50x1x128
  inb_S50x1x128_S50x1x128_0_0_0 : ∀ a, (![0, 0, 0] : Fin 3 → Nat) a + S50x1x128.size a ≤ S50x1x128.size a
  h_S50x1x128 : 0 < S50x1x128.numel
  slices_S100x1x128_S100x1x1_0_0_0 : S100x1x128.Slices ![0, 0, 0] S100x1x1
  shapeCasts_S100x1x1_S100x1 : S100x1x1.ShapeCasts S100x1
  dot_S100x128_S128x128_S100x128_1_0_0_1_n_n_wf : DotDims.WF S100x128 S128x128 S100x128 [1] [0] [0] [1] [] []
  dot_S100x100_S100x256_S100x256_1_0_0_1_n_n_wf : DotDims.WF S100x100 S100x256 S100x256 [1] [0] [0] [1] [] []
  dot_S100x100_S100x128_S100x128_1_0_0_1_n_n_wf : DotDims.WF S100x100 S100x128 S100x128 [1] [0] [0] [1] [] []
  dot_S50x128_S128x64_S50x64_1_0_0_1_n_n_wf : DotDims.WF S50x128 S128x64 S50x64 [1] [0] [0] [1] [] []
  dot_S50x64_S64x1_S50x1_1_0_0_1_n_n_wf : DotDims.WF S50x64 S64x1 S50x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x100x128.size a ≤ S100x100x128.size a
  hwx0_0 : ∀ i : grid0.Coords, EltTy.bits .f32 = 32 ∨ (Rect.block (s := S100x100x128) S50x100x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50x1x100.size a ≤ S100x1x100.size a
  hwx0_1 : ∀ i : grid0.Coords, EltTy.bits .f32 = 32 ∨ (Rect.block (s := S100x1x100) S50x1x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S50x1x128.size a ≤ S100x1x128.size a
  hwx0_14 : ∀ i : grid0.Coords, EltTy.bits .f32 = 32 ∨ (Rect.block (s := S100x1x128) S50x1x128.size (cc0_transform_14 i) (hinb0_14 i)).WholeWords (EltTy.packing .f32)

variable [Facts₀]

def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S100x100_S100x256_S100x256_1_0_0_1_n_n : DotDims S100x100 S100x256 S100x256 where
  lhsContracting := [1]
  rhsContracting := [0]
  lhsNonContracting := [0]
  rhsNonContracting := [1]
  lhsBatch := []
  rhsBatch := []
  wf := dot_S100x100_S100x256_S100x256_1_0_0_1_n_n_wf
def dot_S100x100_S100x128_S100x128_1_0_0_1_n_n : DotDims S100x100 S100x128 S100x128 where
  lhsContracting := [1]
  rhsContracting := [0]
  lhsNonContracting := [0]
  rhsNonContracting := [1]
  lhsBatch := []
  rhsBatch := []
  wf := dot_S100x100_S100x128_S100x128_1_0_0_1_n_n_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x1_S50x1_1_0_0_1_n_n : DotDims S50x64 S64x1 S50x1 where
  lhsContracting := [1]
  rhsContracting := [0]
  lhsNonContracting := [0]
  rhsNonContracting := [1]
  lhsBatch := []
  rhsBatch := []
  wf := dot_S50x64_S64x1_S50x1_1_0_0_1_n_n_wf

abbrev win0_0 : Pipeline.Window sig grid0 :=
  Pipeline.Window.ofSpec (Memref.whole main_arg0) S50x100x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S50x1x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S50x1x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100x100x128 : Shape := ⟨3, ![100, 100, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100x100x1 : Shape := ⟨3, ![100, 100, 1]⟩
abbrev S100x100 : Shape := ⟨2, ![100, 100]⟩
abbrev S100x1x100 : Shape := ⟨3, ![100, 1, 100]⟩
abbrev S100x100x100 : Shape := ⟨3, ![100, 100, 100]⟩
abbrev S_ : Shape := ⟨0, ![]⟩
abbrev S1x100x100 : Shape := ⟨3, ![1, 100, 100]⟩
abbrev S100 : Shape := ⟨1, ![100]⟩
abbrev S100x1x1 : Shape := ⟨3, ![100, 1, 1]⟩
abbrev S1x100x1 : Shape := ⟨3, ![1, 100, 1]⟩
abbrev S1x1x100 : Shape := ⟨3, ![1, 1, 100]⟩
abbrev S1000000 : Shape := ⟨1, ![1000000]⟩
abbrev S10000 : Shape := ⟨1, ![10000]⟩
abbrev S1010000 : Shape := ⟨1, ![1010000]⟩
abbrev S10001 : Shape := ⟨1, ![10001]⟩
abbrev S1010000x1 : Shape := ⟨2, ![1010000, 1]⟩
abbrev S10000x128 : Shape := ⟨2, ![10000, 128]⟩
abbrev S1x128 : Shape := ⟨2, ![1, 128]⟩
abbrev S1x1 : Shape := ⟨2, ![1, 1]⟩
abbrev S1010000x128 : Shape := ⟨2, ![1010000, 128]⟩
abbrev S10001x128 : Shape := ⟨2, ![10001, 128]⟩
abbrev S100x128 : Shape := ⟨2, ![100, 128]⟩
abbrev S100x64 : Shape := ⟨2, ![100, 64]⟩
abbrev S1x64 : Shape := ⟨2, ![1, 64]⟩
abbrev S100x1 : Shape := ⟨2, ![100, 1]⟩

abbrev nBuf : Space → Nat
  | .hbm => 299
  | .vmem => 0
  | .smem => 0
  | _ => 0

abbrev hbmTy0_0 (i : Nat) : BufTy := match i % 128 with
  | 0 => ⟨S100x100x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S100x100x1, .f32⟩
  | 14 => ⟨S100x100, .f32⟩
  | 15 => ⟨S100x100x1, .f32⟩
  | 16 => ⟨S100x1x100, .f32⟩
  | 17 => ⟨S100x1x100, .f32⟩
  | 18 => ⟨S100x100x100, .f32⟩
  | 19 => ⟨S100x100x100, .f32⟩
  | 20 => ⟨S100x100x100, .f32⟩
  | 21 => ⟨S100x100x100, .f32⟩
  | 22 => ⟨S100x100x100, .f32⟩
  | 23 => ⟨S100x100x100, .f32⟩
  | 24 => ⟨S100x100x100, .f32⟩
  | 25 => ⟨S100x100x100, .f32⟩
  | 26 => ⟨S100x100x100, .f32⟩
  | 27 => ⟨S100x100x100, .f32⟩
  | 28 => ⟨S100x100x100, .f32⟩
  | 29 => ⟨S100x100x100, .f32⟩
  | 30 => ⟨S_, .f32⟩
  | 31 => ⟨S100x100x100, .f32⟩
  | 32 => ⟨S100x100x100, .i1⟩
  | 33 => ⟨S100x100x100, .f32⟩
  | 34 => ⟨S100x100x100, .f32⟩
  | 35 => ⟨S_, .f32⟩
  | 36 => ⟨S100x100x100, .f32⟩
  | 37 => ⟨S100x100x100, .i1⟩
  | 38 => ⟨S_, .f32⟩
  | 39 => ⟨S100x100x100, .f32⟩
  | 40 => ⟨S100x100x100, .i1⟩
  | 41 => ⟨S_, .f32⟩
  | 42 => ⟨S100x100x100, .f32⟩
  | 43 => ⟨S100x100x100, .i1⟩
  | 44 => ⟨S100x100x100, .i1⟩
  | 45 => ⟨S100x100x100, .i1⟩
  | 46 => ⟨S_, .f32⟩
  | 47 => ⟨S100x100x100, .f32⟩
  | 48 => ⟨S100x100x100, .i1⟩
  | 49 => ⟨S100x100x100, .i1⟩
  | 50 => ⟨S_, .f32⟩
  | 51 => ⟨S100x100x100, .f32⟩
  | 52 => ⟨S100x100x100, .i1⟩
  | 53 => ⟨S_, .f32⟩
  | 54 => ⟨S100x100x100, .f32⟩
  | 55 => ⟨S100x100x100, .i1⟩
  | 56 => ⟨S100x100x100, .i1⟩
  | 57 => ⟨S100x100x100, .i1⟩
  | 58 => ⟨S100x100, .i32⟩
  | 59 => ⟨S100x100, .i32⟩
  | 60 => ⟨S_, .i32⟩
  | 61 => ⟨S100x100, .i32⟩
  | 62 => ⟨S100x100, .i32⟩
  | 63 => ⟨S100x100, .i1⟩
  | 64 => ⟨S1x100x100, .i1⟩
  | 65 => ⟨S1x100x100, .i1⟩
  | 66 => ⟨S100x100x100, .i1⟩
  | 67 => ⟨S100x100x100, .i1⟩
  | 68 => ⟨S100, .i32⟩
  | 69 => ⟨S100x1x1, .i32⟩
  | 70 => ⟨S100, .i32⟩
  | 71 => ⟨S1x100x1, .i32⟩
  | 72 => ⟨S100, .i32⟩
  | 73 => ⟨S1x1x100, .i32⟩
  | 74 => ⟨S_, .i32⟩
  | 75 => ⟨S100x1x1, .i32⟩
  | 76 => ⟨S100x1x1, .i32⟩
  | 77 => ⟨S100x100x1, .i32⟩
  | 78 => ⟨S100x100x1, .i32⟩
  | 79 => ⟨S100x100x1, .i32⟩
  | 80 => ⟨S100x100x100, .i32⟩
  | 81 => ⟨S1000000, .i32⟩
  | 82 => ⟨S_, .i32⟩
  | 83 => ⟨S100x1x1, .i32⟩
  | 84 => ⟨S100x1x1, .i32⟩
  | 85 => ⟨S100x1x100, .i32⟩
  | 86 => ⟨S100x1x100, .i32⟩
  | 87 => ⟨S100x1x100, .i32⟩
  | 88 => ⟨S_, .i32⟩
  | 89 => ⟨S100x100x100, .i32⟩
  | 90 => ⟨S100x100x100, .i32⟩
  | 91 => ⟨S100x100x100, .i32⟩
  | 92 => ⟨S1000000, .i32⟩
  | 93 => ⟨S10000, .i32⟩
  | 94 => ⟨S1010000, .i32⟩
  | 95 => ⟨S1010000, .i32⟩
  | 96 => ⟨S_, .f32⟩
  | 97 => ⟨S1010000, .f32⟩
  | 98 => ⟨S_, .f32⟩
  | 99 => ⟨S10001, .f32⟩
  | 100 => ⟨S1010000x1, .i32⟩
  | 101 => ⟨S10001, .f32⟩
  | 102 => ⟨S10001, .f32⟩
  | 103 => ⟨S_, .f32⟩
  | 104 => ⟨S10001, .f32⟩
  | 105 => ⟨S10001, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S10000x128, .f32⟩
  | 112 => ⟨S_, .i32⟩
  | 113 => ⟨S1010000, .i32⟩
  | 114 => ⟨S1010000, .i1⟩
  | 115 => ⟨S_, .i32⟩
  | 116 => ⟨S1010000, .i32⟩
  | 117 => ⟨S1010000, .i32⟩
  | 118 => ⟨S1010000, .i32⟩
  | 119 => ⟨S1010000x1, .i32⟩
  | 120 => ⟨S1010000, .f32⟩
  | 121 => ⟨S_, .i32⟩
  | 122 => ⟨S1010000, .i32⟩
  | 123 => ⟨S1010000, .i1⟩
  | 124 => ⟨S_, .i32⟩
  | 125 => ⟨S1010000, .i32⟩
  | 126 => ⟨S1010000, .i32⟩
  | 127 => ⟨S1010000, .i32⟩
  | _ => ⟨S100x100x128, .f32⟩

abbrev hbmTy0_1 (i : Nat) : BufTy := match i % 128 with
  | 0 => ⟨S1010000x1, .i32⟩
  | 1 => ⟨S1010000, .f32⟩
  | 2 => ⟨S1010000, .f32⟩
  | 3 => ⟨S_, .i32⟩
  | 4 => ⟨S1010000, .i32⟩
  | 5 => ⟨S1010000, .i1⟩
  | 6 => ⟨S_, .i32⟩
  | 7 => ⟨S1010000, .i32⟩
  | 8 => ⟨S1010000, .i32⟩
  | 9 => ⟨S1010000, .i32⟩
  | 10 => ⟨S1010000x1, .i32⟩
  | 11 => ⟨S1, .i32⟩
  | 12 => ⟨S_, .i32⟩
  | 13 => ⟨S1010000x1, .i32⟩
  | 14 => ⟨S1010000x1, .i1⟩
  | 15 => ⟨S1x1, .i32⟩
  | 16 => ⟨S1010000x1, .i32⟩
  | 17 => ⟨S1010000x1, .i1⟩
  | 18 => ⟨S1010000x1, .i1⟩
  | 19 => ⟨S_, .i1⟩
  | 20 => ⟨S1010000, .i1⟩
  | 21 => ⟨S1010000x128, .f32⟩
  | 22 => ⟨S1010000x128, .i1⟩
  | 23 => ⟨S_, .f32⟩
  | 24 => ⟨S1010000x128, .f32⟩
  | 25 => ⟨S1010000x128, .f32⟩
  | 26 => ⟨S1010000x1, .f32⟩
  | 27 => ⟨S1010000x128, .f32⟩
  | 28 => ⟨S1010000x128, .f32⟩
  | 29 => ⟨S_, .f32⟩
  | 30 => ⟨S10001x128, .f32⟩
  | 31 => ⟨S1010000x1, .i32⟩
  | 32 => ⟨S10001x128, .f32⟩
  | 33 => ⟨S10000x128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S10000x128, .f32⟩
  | 41 => ⟨S_, .i32⟩
  | 42 => ⟨S1010000, .i32⟩
  | 43 => ⟨S1010000, .i1⟩
  | 44 => ⟨S_, .i32⟩
  | 45 => ⟨S1010000, .i32⟩
  | 46 => ⟨S1010000, .i32⟩
  | 47 => ⟨S1010000, .i32⟩
  | 48 => ⟨S1010000x1, .i32⟩
  | 49 => ⟨S1010000, .f32⟩
  | 50 => ⟨S_, .i32⟩
  | 51 => ⟨S1010000, .i32⟩
  | 52 => ⟨S1010000, .i1⟩
  | 53 => ⟨S_, .i32⟩
  | 54 => ⟨S1010000, .i32⟩
  | 55 => ⟨S1010000, .i32⟩
  | 56 => ⟨S1010000, .i32⟩
  | 57 => ⟨S1010000x1, .i32⟩
  | 58 => ⟨S1010000, .f32⟩
  | 59 => ⟨S1010000, .f32⟩
  | 60 => ⟨S_, .i32⟩
  | 61 => ⟨S1010000, .i32⟩
  | 62 => ⟨S1010000, .i1⟩
  | 63 => ⟨S_, .i32⟩
  | 64 => ⟨S1010000, .i32⟩
  | 65 => ⟨S1010000, .i32⟩
  | 66 => ⟨S1010000, .i32⟩
  | 67 => ⟨S1010000x1, .i32⟩
  | 68 => ⟨S1, .i32⟩
  | 69 => ⟨S_, .i32⟩
  | 70 => ⟨S1010000x1, .i32⟩
  | 71 => ⟨S1010000x1, .i1⟩
  | 72 => ⟨S1x1, .i32⟩
  | 73 => ⟨S1010000x1, .i32⟩
  | 74 => ⟨S1010000x1, .i1⟩
  | 75 => ⟨S1010000x1, .i1⟩
  | 76 => ⟨S_, .i1⟩
  | 77 => ⟨S1010000, .i1⟩
  | 78 => ⟨S1010000x128, .f32⟩
  | 79 => ⟨S1010000x128, .i1⟩
  | 80 => ⟨S_, .f32⟩
  | 81 => ⟨S1010000x128, .f32⟩
  | 82 => ⟨S1010000x128, .f32⟩
  | 83 => ⟨S1010000x1, .f32⟩
  | 84 => ⟨S1010000x128, .f32⟩
  | 85 => ⟨S1010000x128, .f32⟩
  | 86 => ⟨S_, .f32⟩
  | 87 => ⟨S10001x128, .f32⟩
  | 88 => ⟨S1010000x1, .i32⟩
  | 89 => ⟨S10001x128, .f32⟩
  | 90 => ⟨S10000x128, .f32⟩
  | 91 => ⟨S1x128, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S10000x128, .f32⟩
  | 98 => ⟨S_, .i32⟩
  | 99 => ⟨S1010000, .i32⟩
  | 100 => ⟨S1010000, .i1⟩
  | 101 => ⟨S_, .i32⟩
  | 102 => ⟨S1010000, .i32⟩
  | 103 => ⟨S1010000, .i32⟩
  | 104 => ⟨S1010000, .i32⟩
  | 105 => ⟨S1010000x1, .i32⟩
  | 106 => ⟨S1010000, .f32⟩
  | 107 => ⟨S_, .i32⟩
  | 108 => ⟨S1010000, .i32⟩
  | 109 => ⟨S1010000, .i1⟩
  | 110 => ⟨S_, .i32⟩
  | 111 => ⟨S1010000, .i32⟩
  | 112 => ⟨S1010000, .i32⟩
  | 113 => ⟨S1010000, .i32⟩
  | 114 => ⟨S1010000x1, .i32⟩
  | 115 => ⟨S1010000, .f32⟩
  | 116 => ⟨S1010000, .f32⟩
  | 117 => ⟨S_, .i32⟩
  | 118 => ⟨S1010000, .i32⟩
  | 119 => ⟨S1010000, .i1⟩
  | 120 => ⟨S_, .i32⟩
  | 121 => ⟨S1010000, .i32⟩
  | 122 => ⟨S1010000, .i32⟩
  | 123 => ⟨S1010000, .i32⟩
  | 124 => ⟨S1010000x1, .i32⟩
  | 125 => ⟨S1, .i32⟩
  | 126 => ⟨S_, .i32⟩
  | 127 => ⟨S1010000x1, .i32⟩
  | _ => ⟨S100x100x128, .f32⟩

abbrev hbmTy0_2 (i : Nat) : BufTy := match i % 128 with
  | 0 => ⟨S1010000x1, .i1⟩
  | 1 => ⟨S1x1, .i32⟩
  | 2 => ⟨S1010000x1, .i32⟩
  | 3 => ⟨S1010000x1, .i1⟩
  | 4 => ⟨S1010000x1, .i1⟩
  | 5 => ⟨S_, .i1⟩
  | 6 => ⟨S1010000, .i1⟩
  | 7 => ⟨S1010000x128, .f32⟩
  | 8 => ⟨S1010000x128, .i1⟩
  | 9 => ⟨S_, .f32⟩
  | 10 => ⟨S1010000x128, .f32⟩
  | 11 => ⟨S1010000x128, .f32⟩
  | 12 => ⟨S1010000x1, .f32⟩
  | 13 => ⟨S1010000x128, .f32⟩
  | 14 => ⟨S1010000x128, .f32⟩
  | 15 => ⟨S_, .f32⟩
  | 16 => ⟨S10001x128, .f32⟩
  | 17 => ⟨S1010000x1, .i32⟩
  | 18 => ⟨S10001x128, .f32⟩
  | 19 => ⟨S10000x128, .f32⟩
  | 20 => ⟨S1x128, .f32⟩
  | 21 => ⟨S10000x128, .f32⟩
  | 22 => ⟨S10000x128, .f32⟩
  | 23 => ⟨S_, .f32⟩
  | 24 => ⟨S10000x128, .f32⟩
  | 25 => ⟨S10000x128, .f32⟩
  | 26 => ⟨S100x100x128, .f32⟩
  | 27 => ⟨S_, .f32⟩
  | 28 => ⟨S100x128, .f32⟩
  | 29 => ⟨S_, .f32⟩
  | 30 => ⟨S100x128, .f32⟩
  | 31 => ⟨S100x128, .f32⟩
  | 32 => ⟨S100x64, .f32⟩
  | 33 => ⟨S1x64, .f32⟩
  | 34 => ⟨S100x64, .f32⟩
  | 35 => ⟨S100x64, .f32⟩
  | 36 => ⟨S_, .f32⟩
  | 37 => ⟨S100x64, .f32⟩
  | 38 => ⟨S100x64, .f32⟩
  | 39 => ⟨S100x1, .f32⟩
  | 40 => ⟨S1x1, .f32⟩
  | 41 => ⟨S100x1, .f32⟩
  | 42 => ⟨S100x1, .f32⟩
  | _ => ⟨S100x100x128, .f32⟩

abbrev hbmTy (i : Nat) : BufTy := match i / 128 with
  | 0 => hbmTy0_0 i
  | 1 => hbmTy0_1 i
  | 2 => hbmTy0_2 i
  | _ => ⟨S100x100x128, .f32⟩

abbrev bufTy : (tb : Table) → Fin (tcTables nBuf tb) → BufTy
  | .hbm, ⟨i, _⟩ => hbmTy i
  | _, _ => ⟨S100x100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_8 : Ref sig .tc := ⟨.hbm, 88, rfl⟩
abbrev main_call1_v0 : Ref sig .tc := ⟨.hbm, 89, rfl⟩
abbrev main_call1_v1 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_c_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_14 : Ref sig .tc := ⟨.hbm, 121, rfl⟩
abbrev main_v90 : Ref sig .tc := ⟨.hbm, 122, rfl⟩
abbrev main_v91 : Ref sig .tc := ⟨.hbm, 123, rfl⟩
abbrev main_c_15 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_c : Ref sig .tc := ⟨.hbm, 131, rfl⟩
abbrev main_call2_v0 : Ref sig .tc := ⟨.hbm, 132, rfl⟩
abbrev main_call2_v1 : Ref sig .tc := ⟨.hbm, 133, rfl⟩
abbrev main_call2_c_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_c_1 : Ref sig .tc := ⟨.hbm, 139, rfl⟩
abbrev main_call2_c_2 : Ref sig .tc := ⟨.hbm, 140, rfl⟩
abbrev main_call2_v6 : Ref sig .tc := ⟨.hbm, 141, rfl⟩
abbrev main_call2_v7 : Ref sig .tc := ⟨.hbm, 142, rfl⟩
abbrev main_call2_v8 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_c_3 : Ref sig .tc := ⟨.hbm, 147, rfl⟩
abbrev main_call2_v12 : Ref sig .tc := ⟨.hbm, 148, rfl⟩
abbrev main_call2_v13 : Ref sig .tc := ⟨.hbm, 149, rfl⟩
abbrev main_call2_v14 : Ref sig .tc := ⟨.hbm, 150, rfl⟩
abbrev main_call2_cst : Ref sig .tc := ⟨.hbm, 151, rfl⟩
abbrev main_call2_v15 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_16 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_call3_cst : Ref sig .tc := ⟨.hbm, 165, rfl⟩
abbrev main_call3_v0 : Ref sig .tc := ⟨.hbm, 166, rfl⟩
abbrev main_v109 : Ref sig .tc := ⟨.hbm, 167, rfl⟩
abbrev main_v110 : Ref sig .tc := ⟨.hbm, 168, rfl⟩
abbrev main_c_17 : Ref sig .tc := ⟨.hbm, 169, rfl⟩
abbrev main_v111 : Ref sig .tc := ⟨.hbm, 170, rfl⟩
abbrev main_v112 : Ref sig .tc := ⟨.hbm, 171, rfl⟩
abbrev main_c_18 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_19 : Ref sig .tc := ⟨.hbm, 178, rfl⟩
abbrev main_v118 : Ref sig .tc := ⟨.hbm, 179, rfl⟩
abbrev main_v119 : Ref sig .tc := ⟨.hbm, 180, rfl⟩
abbrev main_c_20 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_v14 : Ref sig .tc := ⟨.hbm, 207, rfl⟩
abbrev main_call4_cst : Ref sig .tc := ⟨.hbm, 208, rfl⟩
abbrev main_call4_v15 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_cst_21 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_call5_cst : Ref sig .tc := ⟨.hbm, 222, rfl⟩
abbrev main_call5_v0 : Ref sig .tc := ⟨.hbm, 223, rfl⟩
abbrev main_v137 : Ref sig .tc := ⟨.hbm, 224, rfl⟩
abbrev main_v138 : Ref sig .tc := ⟨.hbm, 225, rfl⟩
abbrev main_c_22 : Ref sig .tc := ⟨.hbm, 226, rfl⟩
abbrev main_v139 : Ref sig .tc := ⟨.hbm, 227, rfl⟩
abbrev main_v140 : Ref sig .tc := ⟨.hbm, 228, rfl⟩
abbrev main_c_23 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_c_24 : Ref sig .tc := ⟨.hbm, 235, rfl⟩
abbrev main_v146 : Ref sig .tc := ⟨.hbm, 236, rfl⟩
abbrev main_v147 : Ref sig .tc := ⟨.hbm, 237, rfl⟩
abbrev main_c_25 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_call6_c : Ref sig .tc := ⟨.hbm, 245, rfl⟩
abbrev main_call6_v0 : Ref sig .tc := ⟨.hbm, 246, rfl⟩
abbrev main_call6_v1 : Ref sig .tc := ⟨.hbm, 247, rfl⟩
abbrev main_call6_c_0 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_call6_v5 : Ref sig .tc := ⟨.hbm, 252, rfl⟩
abbrev main_call6_c_1 : Ref sig .tc := ⟨.hbm, 253, rfl⟩
abbrev main_call6_c_2 : Ref sig .tc := ⟨.hbm, 254, rfl⟩
abbrev main_call6_v6 : Ref sig .tc := ⟨.hbm, 255, rfl⟩
abbrev main_call6_v7 : Ref sig .tc := ⟨.hbm, 256, rfl⟩
abbrev main_call6_v8 : Ref sig .tc := ⟨.hbm, 257, rfl⟩
abbrev main_call6_v9 : Ref sig .tc := ⟨.hbm, 258, rfl⟩
abbrev main_call6_v10 : Ref sig .tc := ⟨.hbm, 259, rfl⟩
abbrev main_call6_v11 : Ref sig .tc := ⟨.hbm, 260, rfl⟩
abbrev main_call6_c_3 : Ref sig .tc := ⟨.hbm, 261, rfl⟩
abbrev main_call6_v12 : Ref sig .tc := ⟨.hbm, 262, rfl⟩
abbrev main_call6_v13 : Ref sig .tc := ⟨.hbm, 263, rfl⟩
abbrev main_call6_v14 : Ref sig .tc := ⟨.hbm, 264, rfl⟩
abbrev main_call6_cst : Ref sig .tc := ⟨.hbm, 265, rfl⟩
abbrev main_call6_v15 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_v157 : Ref sig .tc := ⟨.hbm, 270, rfl⟩
abbrev main_cst_26 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_call7_cst : Ref sig .tc := ⟨.hbm, 279, rfl⟩
abbrev main_call7_v0 : Ref sig .tc := ⟨.hbm, 280, rfl⟩
abbrev main_v165 : Ref sig .tc := ⟨.hbm, 281, rfl⟩
abbrev main_v166 : Ref sig .tc := ⟨.hbm, 282, rfl⟩
abbrev main_cst_27 : Ref sig .tc := ⟨.hbm, 283, rfl⟩
abbrev main_v167 : Ref sig .tc := ⟨.hbm, 284, rfl⟩
abbrev main_cst_28 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_call8_cst : Ref sig .tc := ⟨.hbm, 292, rfl⟩
abbrev main_call8_v0 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩

abbrev nD : Nat := 1
abbrev τ : Topo := Topo.v7x

variable {F : FTy → Type} [FloatOps F]

class Facts₀ : Prop where
  slices_S100x100x128_S100x100x1_0_0_0 : S100x100x128.Slices ![0, 0, 0] S100x100x1
  shapeCasts_S100x100x1_S100x100 : S100x100x1.ShapeCasts S100x100
  bcast_S100x100_S100x100x1_0_1 : S100x100.BroadcastsInDim S100x100x1 (![0, 1] : Fin 2 → Fin S100x100x1.rank)
  bcast_S100x100_S100x1x100_0_2 : S100x100.BroadcastsInDim S100x1x100 (![0, 2] : Fin 2 → Fin S100x1x100.rank)
  bcast_S100x100x1_S100x100x100_0_1_2 : S100x100x1.BroadcastsInDim S100x100x100 (![0, 1, 2] : Fin 3 → Fin S100x100x100.rank)
  bcast_S100x1x100_S100x100x100_0_1_2 : S100x1x100.BroadcastsInDim S100x100x100 (![0, 1, 2] : Fin 3 → Fin S100x100x100.rank)
  bcast_S_S100x100x100 : S_.BroadcastsInDim S100x100x100 (![] : Fin 0 → Fin S100x100x100.rank)
  bcast_S_S100x100 : S_.BroadcastsInDim S100x100 (![] : Fin 0 → Fin S100x100.rank)
  bcast_S100x100_S1x100x100_1_2 : S100x100.BroadcastsInDim S1x100x100 (![1, 2] : Fin 2 → Fin S1x100x100.rank)
  bcast_S1x100x100_S100x100x100_0_1_2 : S1x100x100.BroadcastsInDim S100x100x100 (![0, 1, 2] : Fin 3 → Fin S100x100x100.rank)
  bcast_S100_S100x1x1_0 : S100.BroadcastsInDim S100x1x1 (![0] : Fin 1 → Fin S100x1x1.rank)
  bcast_S100_S1x100x1_1 : S100.BroadcastsInDim S1x100x1 (![1] : Fin 1 → Fin S1x100x1.rank)
  bcast_S100_S1x1x100_2 : S100.BroadcastsInDim S1x1x100 (![2] : Fin 1 → Fin S1x1x100.rank)
  bcast_S_S100x1x1 : S_.BroadcastsInDim S100x1x1 (![] : Fin 0 → Fin S100x1x1.rank)
  bcast_S100x1x1_S100x100x1_0_1_2 : S100x1x1.BroadcastsInDim S100x100x1 (![0, 1, 2] : Fin 3 → Fin S100x100x1.rank)
  bcast_S1x100x1_S100x100x1_0_1_2 : S1x100x1.BroadcastsInDim S100x100x1 (![0, 1, 2] : Fin 3 → Fin S100x100x1.rank)
  shapeCasts_S100x100x100_S1000000 : S100x100x100.ShapeCasts S1000000
  bcast_S100x1x1_S100x1x100_0_1_2 : S100x1x1.BroadcastsInDim S100x1x100 (![0, 1, 2] : Fin 3 → Fin S100x1x100.rank)
  bcast_S1x1x100_S100x1x100_0_1_2 : S1x1x100.BroadcastsInDim S100x1x100 (![0, 1, 2] : Fin 3 → Fin S100x1x100.rank)
  concatenates_S1000000_S10000_S1010000_d0 : Shape.Concatenates [S1000000, S10000] S1010000 0
  bcast_S_S1010000 : S_.BroadcastsInDim S1010000 (![] : Fin 0 → Fin S1010000.rank)
  bcast_S_S10001 : S_.BroadcastsInDim S10001 (![] : Fin 0 → Fin S10001.rank)
  bcast_S1010000_S1010000x1_0 : S1010000.BroadcastsInDim S1010000x1 (![0] : Fin 1 → Fin S1010000x1.rank)
  shapeCasts_S100x100x128_S10000x128 : S100x100x128.ShapeCasts S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S1010000x1 : S_.BroadcastsInDim S1010000x1 (![] : Fin 0 → Fin S1010000x1.rank)
  bcast_S1_S1x1_1 : S1.BroadcastsInDim S1x1 (![1] : Fin 1 → Fin S1x1.rank)
  bcast_S1x1_S1010000x1_0_1 : S1x1.BroadcastsInDim S1010000x1 (![0, 1] : Fin 2 → Fin S1010000x1.rank)
  reducesTo_S1010000x1_S1010000_d1 : S1010000x1.ReducesTo [1] S1010000
  h_S_ : 0 < S_.numel
  bcast_S1010000_S1010000x128_0 : S1010000.BroadcastsInDim S1010000x128 (![0] : Fin 1 → Fin S1010000x128.rank)
  bcast_S_S1010000x128 : S_.BroadcastsInDim S1010000x128 (![] : Fin 0 → Fin S1010000x128.rank)
  bcast_S1010000x1_S1010000x128_0_1 : S1010000x1.BroadcastsInDim S1010000x128 (![0, 1] : Fin 2 → Fin S1010000x128.rank)
  bcast_S_S10001x128 : S_.BroadcastsInDim S10001x128 (![] : Fin 0 → Fin S10001x128.rank)
  slices_S10001x128_S10000x128_0_0 : S10001x128.Slices ![0, 0] S10000x128
  bcast_S_S10000x128 : S_.BroadcastsInDim S10000x128 (![] : Fin 0 → Fin S10000x128.rank)
  shapeCasts_S10000x128_S100x100x128 : S10000x128.ShapeCasts S100x100x128
  reducesTo_S100x100x128_S100x128_d1 : S100x100x128.ReducesTo [1] S100x128
  bcast_S_S100x128 : S_.BroadcastsInDim S100x128 (![] : Fin 0 → Fin S100x128.rank)
  bcast_S64_S1x64_1 : S64.BroadcastsInDim S1x64 (![1] : Fin 1 → Fin S1x64.rank)
  bcast_S1x64_S100x64_0_1 : S1x64.BroadcastsInDim S100x64 (![0, 1] : Fin 2 → Fin S100x64.rank)
  bcast_S_S100x64 : S_.BroadcastsInDim S100x64 (![] : Fin 0 → Fin S100x64.rank)
  bcast_S1x1_S100x1_0_1 : S1x1.BroadcastsInDim S100x1 (![0, 1] : Fin 2 → Fin S100x1.rank)
  scatter_S10001_S1010000x1_S1010000_n_0_0_1_wf : ScatterDims.WF S10001 S1010000x1 S1010000 [] [0] [0] 1
  dot_S10000x128_S128x128_S10000x128_1_0_0_1_n_n_wf : DotDims.WF S10000x128 S128x128 S10000x128 [1] [0] [0] [1] [] []
  gather_S10001_S1010000x1_S1010000_n_0_n_n_0_1_1_wf : GatherDims.WF S10001 S1010000x1 S1010000 [] [0] [] [0] [] 1 ![1]
  gather_S10000x128_S1010000x1_S1010000x128_1_0_n_n_0_1_1128_wf : GatherDims.WF S10000x128 S1010000x1 S1010000x128 [1] [0] [] [0] [] 1 ![1, 128]
  scatter_S10001x128_S1010000x1_S1010000x128_1_0_0_1_wf : ScatterDims.WF S10001x128 S1010000x1 S1010000x128 [1] [0] [0] 1
  dot_S100x128_S128x64_S100x64_1_0_0_1_n_n_wf : DotDims.WF S100x128 S128x64 S100x64 [1] [0] [0] [1] [] []
  dot_S100x64_S64x1_S100x1_1_0_0_1_n_n_wf : DotDims.WF S100x64 S64x1 S100x1 [1] [0] [0] [1] [] []

variable [Facts₀]

def scatter_S10001_S1010000x1_S1010000_n_0_0_1 : ScatterDims S10001 S1010000x1 S1010000 where
  updateWindowDims := []
  insertedWindowDims := [0]
  scatterDimsToOperandDims := [0]
  indexVectorDim := 1
  wf := scatter_S10001_S1010000x1_S1010000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10001_S1010000x1_S1010000_n_0_n_n_0_1_1 : GatherDims S10001 S1010000x1 S1010000 where
  offsetDims := []
  collapsedSliceDims := [0]
  operandBatchingDims := []
  startIndicesBatchingDims := []
  startIndexMap := [0]
  indexVectorDim := 1
  sliceSizes := ![1]
  wf := gather_S10001_S1010000x1_S1010000_n_0_n_n_0_1_1_wf
def gather_S10000x128_S1010000x1_S1010000x128_1_0_n_n_0_1_1128 : GatherDims S10000x128 S1010000x1 S1010000x128 where
  offsetDims := [1]
  collapsedSliceDims := [0]
  operandBatchingDims := []
  startIndicesBatchingDims := []
  startIndexMap := [0]
  indexVectorDim := 1
  sliceSizes := ![1, 128]
  wf := gather_S10000x128_S1010000x1_S1010000x128_1_0_n_n_0_1_1128_wf
def scatter_S10001x128_S1010000x1_S1010000x128_1_0_0_1 : ScatterDims S10001x128 S1010000x1 S1010000x128 where
  updateWindowDims := [1]
  insertedWindowDims := [0]
  scatterDimsToOperandDims := [0]
  indexVectorDim := 1
  wf := scatter_S10001x128_S1010000x1_S1010000x128_1_0_0_1_wf
def dot_S100x128_S128x64_S100x64_1_0_0_1_n_n : DotDims S100x128 S128x64 S100x64 where
  lhsContracting := [1]
  rhsContracting := [0]
  lhsNonContracting := [0]
  rhsNonContracting := [1]
  lhsBatch := []
  rhsBatch := []
  wf := dot_S100x128_S128x64_S100x64_1_0_0_1_n_n_wf
def dot_S100x64_S64x1_S100x1_1_0_0_1_n_n : DotDims S100x64 S64x1 S100x1 where
  lhsContracting := [1]
  rhsContracting := [0]
  lhsNonContracting := [0]
  rhsNonContracting := [1]
  lhsBatch := []
  rhsBatch := []
  wf := dot_S100x64_S64x1_S100x1_1_0_0_1_n_n_wf

class Facts : Prop extends Facts₀ where

variable [Facts]
-- ==== Proof.Preserves.lean ====
/-
  The idealized kernel is the word-level kernel's sanctioned idealization: the ideal pass rewrote three hundred
  round trips `extf .f32 (truncf .bf16 v)` to `v` on vectors of shape [100, 128] (a change of float format is the
  identity on the extended reals) and named one constant, the mean's factor `f32(1/100)`, which the certificate's
  table reads as the rational 1/100. Each rewrite's statement is the rule's own lemma at the site's shape.
-/
import proofs.«176687_g19121194402273_cont_sun_m_853_29_alg».proof.Defs

noncomputable section

namespace Cert.Proof.Rewrites

open Idealize.ShloMosaic

/-- One conjunct per rewrite of the ideal pass, in the ledger's order: the three hundred format round trips, then the
    named reciprocal of the node count. -/
theorem preserves : Cert.preserves_Kernel_KernelIdeal := by
  unfold Cert.preserves_Kernel_KernelIdeal
  iterate 300 refine ⟨IdealRules.truncf_extf.statement _ .f32 .bf16, ?_⟩
  exact IdealRules.named_const.statement Cert.KernelIdeal.κ "inv_100" .f32 0x3C23D70A#32 ((1 / 100 : ℝ) : EReal) rfl

end Cert.Proof.Rewrites

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.PreRead.lean ====
/-
  The precondition of the certificate, read back: when the printed predicate "every element of every argument has
  absolute value below +∞" evaluates to all ones, every element of each of the thirteen argument arrays is a real
  number. The predicate is the conjunction of thirteen conjunctions over the arrays' elements; a conjunction of one-bit
  words that is 1 has every conjunct 1, and an element whose absolute value is below ⊤ is a real number.
-/
import proofs.«176687_g19121194402273_cont_sun_m_853_29_alg».proof.Pre_finite_inputs
import proofs.«176687_g19121194402273_cont_sun_m_853_29_alg».proof.Proof.LibFiniteInputs

noncomputable section

namespace Cert.Proof.PreRead

open Idealize.ShloMosaic Cert.Pre_finite_inputs

/-- The rank-0 shape has one index. -/
instance : Subsingleton S_.Idx := ⟨fun _ _ => funext fun k => k.elim0⟩

/-- A conjunction of two one-bit arrays that is 1 at an index has both conjuncts 1 there. -/
theorem and_split {s : Shape} {x y : IVec s 1} {j : s.Idx} (h : andi x y j = 1#1) : x j = 1#1 ∧ y j = 1#1 :=
  IntOp.andi_eq_one.mp h

variable [Facts]

/-- One conjunct: the conjunction over an array's elements of |v i| < (the pattern of +∞) being 1 says every element
    of v is a real number. -/
theorem fin_of {s : Shape} {axes : List (Fin s.rank)} (v : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt (Host.absf v) (broadcastInDim s ![] hb (constant S_ .f32 0x7F800000#32))) init h hu j
      = 1#1) (i : s.Idx) : ∃ r : ℝ, v i = (r : EReal) :=
  Cert.FiniteInputs.all_real_of_all_finite v _ (fun _ => Cert.FiniteInputs.ofBits_f32_inf) init h hu j e i

/-- THE PRECONDITION READ BACK: all thirteen argument arrays have real entries. -/
theorem finite_of_pre (a0 : FVec Ideal S100x100x128 .f32) (a1 : FVec Ideal S128x128 .f32) (a2 : FVec Ideal S128 .f32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x64 .f32) (a10 : FVec Ideal S64 .f32) (a11 : FVec Ideal S64x1 .f32) (a12 : FVec Ideal S1 .f32)
    (h : fn (F := Ideal) a0 a1 a2 a3 a4 a5 a6 a7 a8 a9 a10 a11 a12 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal)) := by
  have hj : fn (F := Ideal) a0 a1 a2 a3 a4 a5 a6 a7 a8 a9 a10 a11 a12 (fun k => k.elim0) = 1#1 := congrFun h _
  unfold fn fn_part1 fn_part2 fn_part3 at hj
  obtain ⟨hc12, he12⟩ := and_split hj
  obtain ⟨hc11, he11⟩ := and_split hc12
  obtain ⟨hc10, he10⟩ := and_split hc11
  obtain ⟨hc9, he9⟩ := and_split hc10
  obtain ⟨hc8, he8⟩ := and_split hc9
  obtain ⟨hc7, he7⟩ := and_split hc8
  obtain ⟨hc6, he6⟩ := and_split hc7
  obtain ⟨hc5, he5⟩ := and_split hc6
  obtain ⟨hc4, he4⟩ := and_split hc5
  obtain ⟨hc3, he3⟩ := and_split hc4
  obtain ⟨hc2, he2⟩ := and_split hc3
  obtain ⟨hc1, he1⟩ := and_split hc2
  exact ⟨fin_of a0 _ _ _ _ _ hc1,
    fin_of a1 _ _ _ _ _ he1,
    fin_of a2 _ _ _ _ _ he2,
    fin_of a3 _ _ _ _ _ he3,
    fin_of a4 _ _ _ _ _ he4,
    fin_of a5 _ _ _ _ _ he5,
    fin_of a6 _ _ _ _ _ he6,
    fin_of a7 _ _ _ _ _ he7,
    fin_of a8 _ _ _ _ _ he8,
    fin_of a9 _ _ _ _ _ he9,
    fin_of a10 _ _ _ _ _ he10,
    fin_of a11 _ _ _ _ _ he11,
    fin_of a12 _ _ _ _ _ he12⟩

end Cert.Proof.PreRead

end
-- ==== Proof.Finite.lean ====
/-
  The precondition "every input array is finite", read back on the memory the kernel's program starts from: every
  entry of every argument array is a real number, so the thirteen argument arrays are (the coercions of) thirteen real
  arrays over plain coordinates — the node features x [100, 100, 128], the input layer W_in [128, 128], b_in [128], the
  three graph layers W_g [128, 128], b_g [128], and the two output layers W_o1 [128, 64], b_o1 [64], W_o2 [64, 1], b_o2 [1].
-/
import proofs.«176687_g19121194402273_cont_sun_m_853_29_alg».proof.Defs
import proofs.«176687_g19121194402273_cont_sun_m_853_29_alg».proof.Proof.Gen.Pre_finite_inputs
import proofs.«176687_g19121194402273_cont_sun_m_853_29_alg».proof.Proof.PreRead
import Idealize.ShloMosaic.Lib.ValueIdx
import Idealize.ShloMosaic.PureOps.Ideal

noncomputable section

namespace Cert.Proof.Finite

open Idealize.ShloMosaic Idealize.ShloMosaic.ValueIdx Idealize.SL.Sem

variable [Cert.Pre_finite_inputs.Facts]

/-- On every device, every entry of each of the thirteen argument arrays is a real number. -/
theorem real_inputs (m : (ℓ : Loc Cert.KernelIdeal.nD Cert.KernelIdeal.τ Cert.KernelIdeal.sig) → Buf (Elt Ideal) ℓ) (h : Cert.Pre_KernelIdeal m)
    (c : Dev Cert.KernelIdeal.nD) :
    (∀ i, ∃ r : ℝ, (m ((c.tc : Thread Cert.KernelIdeal.nD Cert.KernelIdeal.τ).loc Cert.KernelIdeal.main_arg0) : FVec Ideal Cert.Pre_finite_inputs.S100x100x128 .f32) i = (r : EReal))
      ∧ (∀ i, ∃ r : ℝ, (m ((c.tc : Thread Cert.KernelIdeal.nD Cert.KernelIdeal.τ).loc Cert.KernelIdeal.main_arg1) : FVec Ideal Cert.Pre_finite_inputs.S128x128 .f32) i = (r : EReal))
      ∧ (∀ i, ∃ r : ℝ, (m ((c.tc : Thread Cert.KernelIdeal.nD Cert.KernelIdeal.τ).loc Cert.KernelIdeal.main_arg2) : FVec Ideal Cert.Pre_finite_inputs.S128 .f32) i = (r : EReal))
      ∧ (∀ i, ∃ r : ℝ, (m ((c.tc : Thread Cert.KernelIdeal.nD Cert.KernelIdeal.τ).loc Cert.KernelIdeal.main_arg3) : FVec Ideal Cert.Pre_finite_inputs.S128x128 .f32) i = (r : EReal))
      ∧ (∀ i, ∃ r : ℝ, (m ((c.tc : Thread Cert.KernelIdeal.nD Cert.KernelIdeal.τ).loc Cert.KernelIdeal.main_arg4) : FVec Ideal Cert.Pre_finite_inputs.S128 .f32) i = (r : EReal))
      ∧ (∀ i, ∃ r : ℝ, (m ((c.tc : Thread Cert.KernelIdeal.nD Cert.KernelIdeal.τ).loc Cert.KernelIdeal.main_arg5) : FVec Ideal Cert.Pre_finite_inputs.S128x128 .f32) i = (r : EReal))
      ∧ (∀ i, ∃ r : ℝ, (m ((c.tc : Thread Cert.KernelIdeal.nD Cert.KernelIdeal.τ).loc Cert.KernelIdeal.main_arg6) : FVec Ideal Cert.Pre_finite_inputs.S128 .f32) i = (r : EReal))
      ∧ (∀ i, ∃ r : ℝ, (m ((c.tc : Thread Cert.KernelIdeal.nD Cert.KernelIdeal.τ).loc Cert.KernelIdeal.main_arg7) : FVec Ideal Cert.Pre_finite_inputs.S128x128 .f32) i = (r : EReal))
      ∧ (∀ i, ∃ r : ℝ, (m ((c.tc : Thread Cert.KernelIdeal.nD Cert.KernelIdeal.τ).loc Cert.KernelIdeal.main_arg8) : FVec Ideal Cert.Pre_finite_inputs.S128 .f32) i = (r : EReal))
      ∧ (∀ i, ∃ r : ℝ, (m ((c.tc : Thread Cert.KernelIdeal.nD Cert.KernelIdeal.τ).loc Cert.KernelIdeal.main_arg9) : FVec Ideal Cert.Pre_finite_inputs.S128x64 .f32) i = (r : EReal))
      ∧ (∀ i, ∃ r : ℝ, (m ((c.tc : Thread Cert.KernelIdeal.nD Cert.KernelIdeal.τ).loc Cert.KernelIdeal.main_arg10) : FVec Ideal Cert.Pre_finite_inputs.S64 .f32) i = (r : EReal))
      ∧ (∀ i, ∃ r : ℝ, (m ((c.tc : Thread Cert.KernelIdeal.nD Cert.KernelIdeal.τ).loc Cert.KernelIdeal.main_arg11) : FVec Ideal Cert.Pre_finite_inputs.S64x1 .f32) i = (r : EReal))
      ∧ (∀ i, ∃ r : ℝ, (m ((c.tc : Thread Cert.KernelIdeal.nD Cert.KernelIdeal.τ).loc Cert.KernelIdeal.main_arg12) : FVec Ideal Cert.Pre_finite_inputs.S1 .f32) i = (r : EReal)) :=
  Cert.Proof.PreRead.finite_of_pre _ _ _ _ _ _ _ _ _ _ _ _ _ (h c)

/-- THE ARGUMENT ARRAYS AS REAL ARRAYS: on every device there are thirteen real arrays, over plain coordinates, whose
    coercions are the argument arrays entry by entry. -/
theorem real_arrays (m : (ℓ : Loc Cert.KernelIdeal.nD Cert.KernelIdeal.τ Cert.KernelIdeal.sig) → Buf (Elt Ideal) ℓ) (h : Cert.Pre_KernelIdeal m)
    (c : Dev Cert.KernelIdeal.nD) :
    ∃ (x : Fin 100 → Fin 100 → Fin 128 → ℝ) (Win : Fin 128 → Fin 128 → ℝ) (bin : Fin 128 → ℝ) (Wg0 : Fin 128 → Fin 128 → ℝ) (bg0 : Fin 128 → ℝ) (Wg1 : Fin 128 → Fin 128 → ℝ) (bg1 : Fin 128 → ℝ) (Wg2 : Fin 128 → Fin 128 → ℝ) (bg2 : Fin 128 → ℝ) (Wo1 : Fin 128 → Fin 64 → ℝ) (bo1 : Fin 64 → ℝ) (Wo2 : Fin 64 → Fin 1 → ℝ) (bo2 : Fin 1 → ℝ),
      (∀ (i : Fin 100) (j : Fin 100) (k : Fin 128), (m ((c.tc : Thread Cert.KernelIdeal.nD Cert.KernelIdeal.τ).loc Cert.KernelIdeal.main_arg0) : FVec Ideal Cert.Pre_finite_inputs.S100x100x128 .f32) (ix3 i j k) = ((x i j k : ℝ) : EReal))
      ∧ (∀ (i : Fin 128) (j : Fin 128), (m ((c.tc : Thread Cert.KernelIdeal.nD Cert.KernelIdeal.τ).loc Cert.KernelIdeal.main_arg1) : FVec Ideal Cert.Pre_finite_inputs.S128x128 .f32) (ix2 i j) = ((Win i j : ℝ) : EReal))
      ∧ (∀ (i : Fin 128), (m ((c.tc : Thread Cert.KernelIdeal.nD Cert.KernelIdeal.τ).loc Cert.KernelIdeal.main_arg2) : FVec Ideal Cert.Pre_finite_inputs.S128 .f32) (ix1 i) = ((bin i : ℝ) : EReal))
      ∧ (∀ (i : Fin 128) (j : Fin 128), (m ((c.tc : Thread Cert.KernelIdeal.nD Cert.KernelIdeal.τ).loc Cert.KernelIdeal.main_arg3) : FVec Ideal Cert.Pre_finite_inputs.S128x128 .f32) (ix2 i j) = ((Wg0 i j : ℝ) : EReal))
      ∧ (∀ (i : Fin 128), (m ((c.tc : Thread Cert.KernelIdeal.nD Cert.KernelIdeal.τ).loc Cert.KernelIdeal.main_arg4) : FVec Ideal Cert.Pre_finite_inputs.S128 .f32) (ix1 i) = ((bg0 i : ℝ) : EReal))
      ∧ (∀ (i : Fin 128) (j : Fin 128), (m ((c.tc : Thread Cert.KernelIdeal.nD Cert.KernelIdeal.τ).loc Cert.KernelIdeal.main_arg5) : FVec Ideal Cert.Pre_finite_inputs.S128x128 .f32) (ix2 i j) = ((Wg1 i j : ℝ) : EReal))
      ∧ (∀ (i : Fin 128), (m ((c.tc : Thread Cert.KernelIdeal.nD Cert.KernelIdeal.τ).loc Cert.KernelIdeal.main_arg6) : FVec Ideal Cert.Pre_finite_inputs.S128 .f32) (ix1 i) = ((bg1 i : ℝ) : EReal))
      ∧ (∀ (i : Fin 128) (j : Fin 128), (m ((c.tc : Thread Cert.KernelIdeal.nD Cert.KernelIdeal.τ).loc Cert.KernelIdeal.main_arg7) : FVec Ideal Cert.Pre_finite_inputs.S128x128 .f32) (ix2 i j) = ((Wg2 i j : ℝ) : EReal))
      ∧ (∀ (i : Fin 128), (m ((c.tc : Thread Cert.KernelIdeal.nD Cert.KernelIdeal.τ).loc Cert.KernelIdeal.main_arg8) : FVec Ideal Cert.Pre_finite_inputs.S128 .f32) (ix1 i) = ((bg2 i : ℝ) : EReal))
      ∧ (∀ (i : Fin 128) (j : Fin 64), (m ((c.tc : Thread Cert.KernelIdeal.nD Cert.KernelIdeal.τ).loc Cert.KernelIdeal.main_arg9) : FVec Ideal Cert.Pre_finite_inputs.S128x64 .f32) (ix2 i j) = ((Wo1 i j : ℝ) : EReal))
      ∧ (∀ (i : Fin 64), (m ((c.tc : Thread Cert.KernelIdeal.nD Cert.KernelIdeal.τ).loc Cert.KernelIdeal.main_arg10) : FVec Ideal Cert.Pre_finite_inputs.S64 .f32) (ix1 i) = ((bo1 i : ℝ) : EReal))
      ∧ (∀ (i : Fin 64) (j : Fin 1), (m ((c.tc : Thread Cert.KernelIdeal.nD Cert.KernelIdeal.τ).loc Cert.KernelIdeal.main_arg11) : FVec Ideal Cert.Pre_finite_inputs.S64x1 .f32) (ix2 i j) = ((Wo2 i j : ℝ) : EReal))
      ∧ (∀ (i : Fin 1), (m ((c.tc : Thread Cert.KernelIdeal.nD Cert.KernelIdeal.τ).loc Cert.KernelIdeal.main_arg12) : FVec Ideal Cert.Pre_finite_inputs.S1 .f32) (ix1 i) = ((bo2 i : ℝ) : EReal)) := by
  obtain ⟨h0, h1, h2, h3, h4, h5, h6, h7, h8, h9, h10, h11, h12⟩ := real_inputs m h c
  choose r0 e0 using h0
  choose r1 e1 using h1
  choose r2 e2 using h2
  choose r3 e3 using h3
  choose r4 e4 using h4
  choose r5 e5 using h5
  choose r6 e6 using h6
  choose r7 e7 using h7
  choose r8 e8 using h8
  choose r9 e9 using h9
  choose r10 e10 using h10
  choose r11 e11 using h11
  choose r12 e12 using h12
  exact ⟨fun i j k => r0 (ix3 i j k),
    fun i j => r1 (ix2 i j),
    fun i => r2 (ix1 i),
    fun i j => r3 (ix2 i j),
    fun i => r4 (ix1 i),
    fun i j => r5 (ix2 i j),
    fun i => r6 (ix1 i),
    fun i j => r7 (ix2 i j),
    fun i => r8 (ix1 i),
    fun i j => r9 (ix2 i j),
    fun i => r10 (ix1 i),
    fun i j => r11 (ix2 i j),
    fun i => r12 (ix1 i),
    fun i j k => e0 _, fun i j => e1 _, fun i => e2 _, fun i j => e3 _, fun i => e4 _, fun i j => e5 _, fun i => e6 _, fun i j => e7 _, fun i => e8 _, fun i j => e9 _, fun i => e10 _, fun i j => e11 _, fun i => e12 _⟩

end Cert.Proof.Finite

end
-- ==== Proof.KernelRun.lean ====
/-
  The idealized kernel's program, read from its result backwards. The program launches the body at the grid's two
  points; point `t` writes back rows [50 t, 50 t + 50) of the launch's result array [100, 1, 128], and the two
  blocks tile that array, so once each block is known to be the restriction of ONE function `G` of the argument
  arrays the whole array is `G`. The two host operations after the launch then keep lane 0 of each row and drop the
  unit axis: the program's result [100, 1] is `G` at (b, 0, 0).
-/
import proofs.«176687_g19121194402273_cont_sun_m_853_29_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.RunValue

open Idealize.ShloMosaic Idealize.ShloMosaic.TcCoe Idealize.ShloMosaic.Tactic Idealize.SL.Sem
open Cert.KernelIdeal Cert.KernelIdeal.Gen
open Idealize.ShloMosaic.Pipeline (Dat)

variable {F : FTy → Type} [FloatOps F] [Named F]
variable (m : (ℓ : Loc nD τ sig) → Buf (Elt F) ℓ) (ρ : Dev nD → PrngReg)

/-- The result window's block index at point `t` is `(t, 0, 0)`. -/
theorem block_index : ∀ t : Fin cfg0.N, win0_14.index t (0 : Fin 3) = t.val
    ∧ win0_14.index t (1 : Fin 3) = 0 ∧ win0_14.index t (2 : Fin 3) = 0 :=
  (by decide +kernel : ∀ t : Fin grid0.N, _)

/-- Both halves of the rows are some point's block. -/
theorem block_onto : ∀ q : Fin 2, ∃ t : Fin cfg0.N, t.val = q.val :=
  (by decide +kernel : ∀ q : Fin 2, ∃ t : Fin grid0.N, t.val = q.val)

/-- An index of the result array lies in point `t`'s block iff each coordinate lies in the block's range. -/
theorem mem_block (t : Fin cfg0.N) (i : S100x1x128.Idx) :
    i ∈ ((cfg0.win 14).blk t).view.set ↔ ∀ a : Fin 3, win0_14.index t a * S50x1x128.size a ≤ (i a).val
      ∧ (i a).val < win0_14.index t a * S50x1x128.size a + S50x1x128.size a := by
  show i ∈ ((View.whole main_v9).slice (win0_14.rect t)).set ↔ _
  rw [View.set_slice_whole, Rect.mem_set_unit]
  exact Iff.rfl

/-- Every index of the result array is in the block of the point `row / 50`. -/
theorem covered (i : S100x1x128.Idx) :
    ∃ t : Fin cfg0.N, (cfg0.win 14).flush t = true ∧ i ∈ ((cfg0.win 14).blk t).view.set := by
  have hi0 : (i 0).val < 100 := (i 0).isLt
  have hi1 : (i 1).val < 1 := (i 1).isLt
  have hi2 : (i 2).val < 128 := (i 2).isLt
  obtain ⟨t, ht⟩ := block_onto ⟨(i 0).val / 50, by omega⟩
  have ht' : t.val = (i 0).val / 50 := ht
  obtain ⟨e0, e1, e2⟩ := block_index t
  refine ⟨t, flush0_14 t, ?_⟩
  rw [mem_block]
  intro a
  match a with
  | ⟨0, _⟩ => show win0_14.index t (0 : Fin 3) * 50 ≤ (i 0).val ∧ (i 0).val < win0_14.index t (0 : Fin 3) * 50 + 50; omega
  | ⟨1, _⟩ => show win0_14.index t (1 : Fin 3) * 1 ≤ (i 1).val ∧ (i 1).val < win0_14.index t (1 : Fin 3) * 1 + 1; omega
  | ⟨2, _⟩ => show win0_14.index t (2 : Fin 3) * 128 ≤ (i 2).val ∧ (i 2).val < win0_14.index t (2 : Fin 3) * 128 + 128; omega

/-- The launch's result array after the run is `G`, when each point's written block is `G` read through that block. -/
theorem result_array (c : Dev nD) (G : S100x1x128.Idx → Elt F .f32)
    (hG : ∀ t : Fin cfg0.N, (dats m 0 c).flushed 14 t = ((cfg0.win 14).blk t).view.read (Elt F) G) :
    (dats m 0 c).arrAt 14 cfg0.N = G :=
  (dats m 0 c).arrAt_eq_of_cover 14 G (fun t _ => hG t) covered

/-- The program's result [100, 1] as the host operations after the launch compute it from the launch's result array
    `A` [100, 1, 128]: lane 0 of each row, the unit axis dropped. -/
def tail (A : S100x1x128.Idx → Elt F .f32) : S100x1.Idx → Elt F .f32 :=
  shapeCast S100x1 (extractStridedSlice S100x1x1 ![0, 0, 0] A slices_S100x1x128_S100x1x1_0_0_0) shapeCasts_S100x1x1_S100x1

/-- The program's result at graph b is the launch's result array at (b, 0, 0). -/
theorem tail_apply (A : S100x1x128.Idx → Elt F .f32) (b : Fin 100) :
    tail A (ValueIdx.ix2 b (0 : Fin 1)) = A (ValueIdx.ix3 b (0 : Fin 1) (0 : Fin 128)) := by
  unfold tail
  refine (shapeCast_apply _ _ (ValueIdx.ix2 b (0 : Fin 1)) (ValueIdx.ix3 b (0 : Fin 1) (0 : Fin 1)) ?_).trans ?_
  · rw [Shape.rowMajor_val_three, Shape.rowMajor_val_two]
    show (b.val * 1 + 0) * 1 + 0 = b.val * 1 + 0
    omega
  · refine extractStridedSlice_apply _ _ _ _ (ValueIdx.ix3 b (0 : Fin 1) (0 : Fin 128)) ?_
    intro a
    match a with
    | ⟨0, _⟩ => show b.val = 0 + b.val; omega
    | ⟨1, _⟩ => show 0 = 0 + 0; omega
    | ⟨2, _⟩ => show 0 = 0 + 0; omega

/-- What the operations after the launch leave in the program's result buffer: `tail` of the launch's result array. -/
theorem tail_eq (c : Dev nD) (G : S100x1x128.Idx → Elt F .f32)
    (hG : ∀ t : Fin cfg0.N, (dats m 0 c).flushed 14 t = ((cfg0.win 14).blk t).view.read (Elt F) G) :
    Pipeline.afterTail₀ cfgs (dats m) 0 (V0 m) [hostOps1] c main_v11 = tail G := by
  unfold Pipeline.afterTail₀
  show StableHlo.after hostOps1 _ (Proc.devRef .tc main_v11) = _
  after_results
  have hA : Pipeline.withArrays (cfgs 0).spec c (V0 m c) (fun w => (dats m 0 c).arrAt w (cfgs 0).N)
      (Proc.devRef .tc main_v9) = G :=
    (Pipeline.withArrays_arr spec0 launch0.win.arr_inj c _ _ 14).trans (result_array m c G hG)
  rw [hA]
  rfl

/-- THE KERNEL'S RUN, READ: every weakly fair execution of the idealized kernel's program terminates with its result
    buffer at `tail G` and its thirteen arguments unchanged, whenever each grid point writes back `G` read through
    its block. -/
theorem run (G : Dev nD → S100x1x128.Idx → Elt F .f32)
    (hG : ∀ (c : Dev nD) (t : Fin cfg0.N), (dats m 0 c).flushed 14 t = ((cfg0.win 14).blk t).view.read (Elt F) (G c)) :
    θ_run defs (onTc (τ := τ) (main (F := F))) ⟨m, fun _ => 0, ρ⟩ (fun r => ∀ c : Dev nD,
      r.2.mem ((c.tc : Thread nD τ).loc main_v11) = tail (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v11 (Pipeline.mem_restRefs_of main_v11 (by decide) (by decide))).trans (tail_eq m c (G c) (hG c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c)),
      ((h c).1 10).trans (((dats m 0 c).arrAt_in 10 rfl _).trans ((A_eq m c 10).trans (V_main_arg9 m c))),
      (((h c).2 main_arg10 (Pipeline.mem_restRefs_of main_arg10 (by decide) (by decide))).trans (W_main_arg10 m (dats m) c)),
      ((h c).1 12).trans (((dats m 0 c).arrAt_in 12 rfl _).trans ((A_eq m c 12).trans (V_main_arg11 m c))),
      (((h c).2 main_arg12 (Pipeline.mem_restRefs_of main_arg12 (by decide) (by decide))).trans (W_main_arg12 m (dats m) c))⟩)
    (run_main m ρ)

end Cert.KernelIdeal.RunValue

end
-- ==== Proof.KernelRow.lean ====
/-
  One graph's share of the kernel body, as a function of that graph's two loaded blocks and the shared weights: the
  body handles its fifty graphs by the same operations, so each row of the pooled scratch is this one function of the
  graph's node features [1, 100, 128] and longitudes [1, 1, 100].
-/
import proofs.«176687_g19121194402273_cont_sun_m_853_29_alg».proof.Proof.Gen.KernelIdeal.Frame

noncomputable section

namespace Cert.KernelIdeal.Row

open Idealize.ShloMosaic Idealize.ShloMosaic.TcCoe Idealize.SL.Sem
open Cert.KernelIdeal Cert.KernelIdeal.Gen

variable {F : FTy → Type} [FloatOps F] [Named F]

/-- Node features rounded and multiplied by a rounded weight matrix. -/
def hw (h : FVec F S100x128 .f32) (w : FVec F S128x128 .bf16) : FVec F S100x128 .f32 :=
  matmul dot_S100x128_S128x128_S100x128_1_0_0_1_n_n none (truncf .bf16 h bitsLt_bf16_f32) w (constant S100x128 .f32 0x00000000#32)

/-- A bias row as the body reads it. -/
def sc (b : Vec F S1x128 .f32) : FVec F S1x128 .f32 := shapeCast S1x128 b shapeCasts_S1x128_S1x128

/-- The pooled row of one graph: mask, degrees and scaled adjacency from the longitudes; the input map; three
    message-passing layers; the column sums. -/
def row (xg : Vec F S1x100x128 .f32) (lg : Vec F S1x1x100 .f32)
    (win wg0 wg1 wg2 : Vec F S128x128 .f32) (bin bg0 bg1 bg2 : Vec F S1x128 .f32) : FVec F S1x128 .f32 :=
  let hi := k0_pay12 xg lg
  let lo := k0_pay13 xg lg
  let dis := k0_pay16 k0_pay2 hi lo k0_pay14
  let a01 := k0_pay17 k0_pay2 k0_pay3 hi lo k0_pay14
  let h0 := k0_pay18 (k0_pay4 win) (k0_pay8 xg) bin
  let l0 := k0_pay866 dis a01 (hw h0 (k0_pay5 wg0)) (sc bg0)
  let l1 := k0_pay866 dis a01 (hw l0 (k0_pay6 wg1)) (sc bg1)
  let l2 := k0_pay866 dis a01 (hw l1 (k0_pay7 wg2)) (sc bg2)
  k0_pay1119 l2

variable (c : Dev nD)
  (arg1 : Memref sig .tc .vmem S50x100x128 .f32) (harg1 : arg1.IsWhole) (arg2 : Memref sig .tc .vmem S50x1x100 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S128x128 .f32) (harg7 : arg7.IsWhole) (arg8 : Memref sig .tc .vmem S1x128 .f32) (harg8 : arg8.IsWhole)
  (arg9 : Memref sig .tc .vmem S128x128 .f32) (harg9 : arg9.IsWhole) (arg10 : Memref sig .tc .vmem S1x128 .f32) (harg10 : arg10.IsWhole)
  (x0 : Vec F S50x100x128 .f32) (x1 : Vec F S50x1x100 .f32) (x2 : Vec F S128x128 .f32) (x3 : Vec F S1x128 .f32)
  (x4 : Vec F S128x128 .f32) (x5 : Vec F S1x128 .f32) (x6 : Vec F S128x128 .f32) (x7 : Vec F S1x128 .f32)
  (x8 : Vec F S128x128 .f32) (x9 : Vec F S1x128 .f32)

/-- A whole operand as the body loads it. -/
abbrev ldW (a : Memref sig .tc .vmem S128x128 .f32) (ha : a.IsWhole) (x : Vec F S128x128 .f32) : Vec F S128x128 .f32 :=
  View.readAt (Elt F) a.view (Rect.unit (s := S128x128) ![0, 0] S128x128.size inb_S128x128_S128x128_0_0).toLoadRect (ha.unread x)
abbrev ldB (a : Memref sig .tc .vmem S1x128 .f32) (ha : a.IsWhole) (x : Vec F S1x128 .f32) : Vec F S1x128 .f32 :=
  View.readAt (Elt F) a.view (Rect.unit (s := S1x128) ![0, 0] S1x128.size inb_S1x128_S1x128_0_0).toLoadRect (ha.unread x)

end Cert.KernelIdeal.Row

end
-- ==== Proof.KernelRowsA.lean ====
/- The body's pooled scratch is written one row per graph; the value stored for graph g is, by unfolding the body's
  own operations, the one function `Row.row` of graph g's loaded node features and longitudes and of the shared weights. -/
import proofs.«176687_g19121194402273_cont_sun_m_853_29_alg».proof.Proof.KernelRow

noncomputable section

namespace Cert.KernelIdeal.Row

open Idealize.ShloMosaic Idealize.ShloMosaic.TcCoe Idealize.SL.Sem
open Cert.KernelIdeal Cert.KernelIdeal.Gen

variable {F : FTy → Type} [FloatOps F] [Named F]
variable (c : Dev nD)
  (arg1 : Memref sig .tc .vmem S50x100x128 .f32) (harg1 : arg1.IsWhole) (arg2 : Memref sig .tc .vmem S50x1x100 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S128x128 .f32) (harg7 : arg7.IsWhole) (arg8 : Memref sig .tc .vmem S1x128 .f32) (harg8 : arg8.IsWhole)
  (arg9 : Memref sig .tc .vmem S128x128 .f32) (harg9 : arg9.IsWhole) (arg10 : Memref sig .tc .vmem S1x128 .f32) (harg10 : arg10.IsWhole)
  (x0 : Vec F S50x100x128 .f32) (x1 : Vec F S50x1x100 .f32) (x2 : Vec F S128x128 .f32) (x3 : Vec F S1x128 .f32)
  (x4 : Vec F S128x128 .f32) (x5 : Vec F S1x128 .f32) (x6 : Vec F S128x128 .f32) (x7 : Vec F S1x128 .f32)
  (x8 : Vec F S128x128 .f32) (x9 : Vec F S1x128 .f32)

set_option maxRecDepth 65536 in
/-- Graph 0's pooled row is `row` of its two loaded blocks. -/
theorem row_0 : k0_pay1066 (kernelRun0_A.sl.r_56 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![0, 0, 0] S1x100x128.size inb_S50x100x128_S1x100x128_0_0_0).toLoadRect (harg1.unread x0))
        (View.readAt (Elt F) arg2.view (Rect.unit (s := S50x1x100) ![0, 0, 0] S1x1x100.size inb_S50x1x100_S1x1x100_0_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 1's pooled row is `row` of its two loaded blocks. -/
theorem row_1 : k0_pay1067 (kernelRun0_A.sl.r_57 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![1, 0, 0] S1x100x128.size inb_S50x100x128_S1x100x128_1_0_0).toLoadRect (harg1.unread x0))
        (View.readAt (Elt F) arg2.view (Rect.unit (s := S50x1x100) ![1, 0, 0] S1x1x100.size inb_S50x1x100_S1x1x100_1_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 2's pooled row is `row` of its two loaded blocks. -/
theorem row_2 : k0_pay1068 (kernelRun0_A.sl.r_61 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![2, 0, 0] S1x100x128.size inb_S50x100x128_S1x100x128_2_0_0).toLoadRect (harg1.unread x0))
        (View.readAt (Elt F) arg2.view (Rect.unit (s := S50x1x100) ![2, 0, 0] S1x1x100.size inb_S50x1x100_S1x1x100_2_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 3's pooled row is `row` of its two loaded blocks. -/
theorem row_3 : k0_pay1069 (kernelRun0_A.sl.r_62 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![3, 0, 0] S1x100x128.size inb_S50x100x128_S1x100x128_3_0_0).toLoadRect (harg1.unread x0))
        (View.readAt (Elt F) arg2.view (Rect.unit (s := S50x1x100) ![3, 0, 0] S1x1x100.size inb_S50x1x100_S1x1x100_3_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 4's pooled row is `row` of its two loaded blocks. -/
theorem row_4 : k0_pay1070 (kernelRun0_A.sl.r_66 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![4, 0, 0] S1x100x128.size inb_S50x100x128_S1x100x128_4_0_0).toLoadRect (harg1.unread x0))
        (View.readAt (Elt F) arg2.view (Rect.unit (s := S50x1x100) ![4, 0, 0] S1x1x100.size inb_S50x1x100_S1x1x100_4_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 5's pooled row is `row` of its two loaded blocks. -/
theorem row_5 : k0_pay1071 (kernelRun0_A.sl.r_67 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![5, 0, 0] S1x100x128.size inb_S50x100x128_S1x100x128_5_0_0).toLoadRect (harg1.unread x0))
        (View.readAt (Elt F) arg2.view (Rect.unit (s := S50x1x100) ![5, 0, 0] S1x1x100.size inb_S50x1x100_S1x1x100_5_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 6's pooled row is `row` of its two loaded blocks. -/
theorem row_6 : k0_pay1072 (kernelRun0_A.sl.r_73 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![6, 0, 0] S1x100x128.size inb_S50x100x128_S1x100x128_6_0_0).toLoadRect (harg1.unread x0))
        (View.readAt (Elt F) arg2.view (Rect.unit (s := S50x1x100) ![6, 0, 0] S1x1x100.size inb_S50x1x100_S1x1x100_6_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 7's pooled row is `row` of its two loaded blocks. -/
theorem row_7 : k0_pay1073 (kernelRun0_A.sl.r_74 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![7, 0, 0] S1x100x128.size inb_S50x100x128_S1x100x128_7_0_0).toLoadRect (harg1.unread x0))
        (View.readAt (Elt F) arg2.view (Rect.unit (s := S50x1x100) ![7, 0, 0] S1x1x100.size inb_S50x1x100_S1x1x100_7_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 8's pooled row is `row` of its two loaded blocks. -/
theorem row_8 : k0_pay1074 (kernelRun0_A.sl.r_79 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![8, 0, 0] S1x100x128.size inb_S50x100x128_S1x100x128_8_0_0).toLoadRect (harg1.unread x0))
        (View.readAt (Elt F) arg2.view (Rect.unit (s := S50x1x100) ![8, 0, 0] S1x1x100.size inb_S50x1x100_S1x1x100_8_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 9's pooled row is `row` of its two loaded blocks. -/
theorem row_9 : k0_pay1075 (kernelRun0_A.sl.r_80 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![9, 0, 0] S1x100x128.size inb_S50x100x128_S1x100x128_9_0_0).toLoadRect (harg1.unread x0))
        (View.readAt (Elt F) arg2.view (Rect.unit (s := S50x1x100) ![9, 0, 0] S1x1x100.size inb_S50x1x100_S1x1x100_9_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 10's pooled row is `row` of its two loaded blocks. -/
theorem row_10 : k0_pay1076 (kernelRun0_A.sl.r_84 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![10, 0, 0] S1x100x128.size inb_S50x100x128_S1x100x128_10_0_0).toLoadRect (harg1.unread x0))
        (View.readAt (Elt F) arg2.view (Rect.unit (s := S50x1x100) ![10, 0, 0] S1x1x100.size inb_S50x1x100_S1x1x100_10_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 11's pooled row is `row` of its two loaded blocks. -/
theorem row_11 : k0_pay1077 (kernelRun0_A.sl.r_85 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![11, 0, 0] S1x100x128.size inb_S50x100x128_S1x100x128_11_0_0).toLoadRect (harg1.unread x0))
        (View.readAt (Elt F) arg2.view (Rect.unit (s := S50x1x100) ![11, 0, 0] S1x1x100.size inb_S50x1x100_S1x1x100_11_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 12's pooled row is `row` of its two loaded blocks. -/
theorem row_12 : k0_pay1079 (kernelRun0_A.sl.r_174 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![12, 0, 0] S1x100x128.size inb_S50x100x128_S1x100x128_12_0_0).toLoadRect (harg1.unread x0))
        (View.readAt (Elt F) arg2.view (Rect.unit (s := S50x1x100) ![12, 0, 0] S1x1x100.size inb_S50x1x100_S1x1x100_12_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 13's pooled row is `row` of its two loaded blocks. -/
theorem row_13 : k0_pay1080 (kernelRun0_A.sl.r_91 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![13, 0, 0] S1x100x128.size inb_S50x100x128_S1x100x128_13_0_0).toLoadRect (harg1.unread x0))
        (View.readAt (Elt F) arg2.view (Rect.unit (s := S50x1x100) ![13, 0, 0] S1x1x100.size inb_S50x1x100_S1x1x100_13_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 14's pooled row is `row` of its two loaded blocks. -/
theorem row_14 : k0_pay1081 (kernelRun0_A.sl.r_96 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![14, 0, 0] S1x100x128.size inb_S50x100x128_S1x100x128_14_0_0).toLoadRect (harg1.unread x0))
        (View.readAt (Elt F) arg2.view (Rect.unit (s := S50x1x100) ![14, 0, 0] S1x1x100.size inb_S50x1x100_S1x1x100_14_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 15's pooled row is `row` of its two loaded blocks. -/
theorem row_15 : k0_pay1082 (kernelRun0_A.sl.r_97 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![15, 0, 0] S1x100x128.size inb_S50x100x128_S1x100x128_15_0_0).toLoadRect (harg1.unread x0))
        (View.readAt (Elt F) arg2.view (Rect.unit (s := S50x1x100) ![15, 0, 0] S1x1x100.size inb_S50x1x100_S1x1x100_15_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 16's pooled row is `row` of its two loaded blocks. -/
theorem row_16 : k0_pay1083 (kernelRun0_A.sl.r_101 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![16, 0, 0] S1x100x128.size inb_S50x100x128_S1x100x128_16_0_0).toLoadRect (harg1.unread x0))
        (View.readAt (Elt F) arg2.view (Rect.unit (s := S50x1x100) ![16, 0, 0] S1x1x100.size inb_S50x1x100_S1x1x100_16_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 17's pooled row is `row` of its two loaded blocks. -/
theorem row_17 : k0_pay1084 (kernelRun0_A.sl.r_102 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![17, 0, 0] S1x100x128.size inb_S50x100x128_S1x100x128_17_0_0).toLoadRect (harg1.unread x0))
        (View.readAt (Elt F) arg2.view (Rect.unit (s := S50x1x100) ![17, 0, 0] S1x1x100.size inb_S50x1x100_S1x1x100_17_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 18's pooled row is `row` of its two loaded blocks. -/
theorem row_18 : k0_pay1085 (kernelRun0_A.sl.r_106 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![18, 0, 0] S1x100x128.size inb_S50x100x128_S1x100x128_18_0_0).toLoadRect (harg1.unread x0))
        (View.readAt (Elt F) arg2.view (Rect.unit (s := S50x1x100) ![18, 0, 0] S1x1x100.size inb_S50x1x100_S1x1x100_18_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 19's pooled row is `row` of its two loaded blocks. -/
theorem row_19 : k0_pay1087 (kernelRun0_A.sl.r_175 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![19, 0, 0] S1x100x128.size inb_S50x100x128_S1x100x128_19_0_0).toLoadRect (harg1.unread x0))
        (View.readAt (Elt F) arg2.view (Rect.unit (s := S50x1x100) ![19, 0, 0] S1x1x100.size inb_S50x1x100_S1x1x100_19_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 20's pooled row is `row` of its two loaded blocks. -/
theorem row_20 : k0_pay1088 (kernelRun0_A.sl.r_110 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![20, 0, 0] S1x100x128.size inb_S50x100x128_S1x100x128_20_0_0).toLoadRect (harg1.unread x0))
        (View.readAt (Elt F) arg2.view (Rect.unit (s := S50x1x100) ![20, 0, 0] S1x1x100.size inb_S50x1x100_S1x1x100_20_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 21's pooled row is `row` of its two loaded blocks. -/
theorem row_21 : k0_pay1089 (kernelRun0_A.sl.r_111 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![21, 0, 0] S1x100x128.size inb_S50x100x128_S1x100x128_21_0_0).toLoadRect (harg1.unread x0))
        (View.readAt (Elt F) arg2.view (Rect.unit (s := S50x1x100) ![21, 0, 0] S1x1x100.size inb_S50x1x100_S1x1x100_21_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 22's pooled row is `row` of its two loaded blocks. -/
theorem row_22 : k0_pay1090 (kernelRun0_A.sl.r_113 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![22, 0, 0] S1x100x128.size inb_S50x100x128_S1x100x128_22_0_0).toLoadRect (harg1.unread x0))
        (View.readAt (Elt F) arg2.view (Rect.unit (s := S50x1x100) ![22, 0, 0] S1x1x100.size inb_S50x1x100_S1x1x100_22_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 23's pooled row is `row` of its two loaded blocks. -/
theorem row_23 : k0_pay1091 (kernelRun0_A.sl.r_114 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![23, 0, 0] S1x100x128.size inb_S50x100x128_S1x100x128_23_0_0).toLoadRect (harg1.unread x0))
        (View.readAt (Elt F) arg2.view (Rect.unit (s := S50x1x100) ![23, 0, 0] S1x1x100.size inb_S50x1x100_S1x1x100_23_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 24's pooled row is `row` of its two loaded blocks. -/
theorem row_24 : k0_pay1092 (kernelRun0_A.sl.r_115 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![24, 0, 0] S1x100x128.size inb_S50x100x128_S1x100x128_24_0_0).toLoadRect (harg1.unread x0))
        (View.readAt (Elt F) arg2.view (Rect.unit (s := S50x1x100) ![24, 0, 0] S1x1x100.size inb_S50x1x100_S1x1x100_24_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

end Cert.KernelIdeal.Row

end
-- ==== Proof.KernelRowsB.lean ====
/- The body's pooled scratch is written one row per graph; the value stored for graph g is, by unfolding the body's
  own operations, the one function `Row.row` of graph g's loaded node features and longitudes and of the shared weights. -/
import proofs.«176687_g19121194402273_cont_sun_m_853_29_alg».proof.Proof.KernelRow

noncomputable section

namespace Cert.KernelIdeal.Row

open Idealize.ShloMosaic Idealize.ShloMosaic.TcCoe Idealize.SL.Sem
open Cert.KernelIdeal Cert.KernelIdeal.Gen

variable {F : FTy → Type} [FloatOps F] [Named F]
variable (c : Dev nD)
  (arg1 : Memref sig .tc .vmem S50x100x128 .f32) (harg1 : arg1.IsWhole) (arg2 : Memref sig .tc .vmem S50x1x100 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S128x128 .f32) (harg7 : arg7.IsWhole) (arg8 : Memref sig .tc .vmem S1x128 .f32) (harg8 : arg8.IsWhole)
  (arg9 : Memref sig .tc .vmem S128x128 .f32) (harg9 : arg9.IsWhole) (arg10 : Memref sig .tc .vmem S1x128 .f32) (harg10 : arg10.IsWhole)
  (x0 : Vec F S50x100x128 .f32) (x1 : Vec F S50x1x100 .f32) (x2 : Vec F S128x128 .f32) (x3 : Vec F S1x128 .f32)
  (x4 : Vec F S128x128 .f32) (x5 : Vec F S1x128 .f32) (x6 : Vec F S128x128 .f32) (x7 : Vec F S1x128 .f32)
  (x8 : Vec F S128x128 .f32) (x9 : Vec F S1x128 .f32)

set_option maxRecDepth 65536 in
/-- Graph 25's pooled row is `row` of its two loaded blocks. -/
theorem row_25 : k0_pay1093 (kernelRun0_A.sl.r_116 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![25, 0, 0] S1x100x128.size inb_S50x100x128_S1x100x128_25_0_0).toLoadRect (harg1.unread x0))
        (View.readAt (Elt F) arg2.view (Rect.unit (s := S50x1x100) ![25, 0, 0] S1x1x100.size inb_S50x1x100_S1x1x100_25_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 26's pooled row is `row` of its two loaded blocks. -/
theorem row_26 : k0_pay1094 (kernelRun0_A.sl.r_117 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![26, 0, 0] S1x100x128.size inb_S50x100x128_S1x100x128_26_0_0).toLoadRect (harg1.unread x0))
        (View.readAt (Elt F) arg2.view (Rect.unit (s := S50x1x100) ![26, 0, 0] S1x1x100.size inb_S50x1x100_S1x1x100_26_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 27's pooled row is `row` of its two loaded blocks. -/
theorem row_27 : k0_pay1095 (kernelRun0_A.sl.r_118 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![27, 0, 0] S1x100x128.size inb_S50x100x128_S1x100x128_27_0_0).toLoadRect (harg1.unread x0))
        (View.readAt (Elt F) arg2.view (Rect.unit (s := S50x1x100) ![27, 0, 0] S1x1x100.size inb_S50x1x100_S1x1x100_27_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 28's pooled row is `row` of its two loaded blocks. -/
theorem row_28 : k0_pay1096 (kernelRun0_A.sl.r_119 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![28, 0, 0] S1x100x128.size inb_S50x100x128_S1x100x128_28_0_0).toLoadRect (harg1.unread x0))
        (View.readAt (Elt F) arg2.view (Rect.unit (s := S50x1x100) ![28, 0, 0] S1x1x100.size inb_S50x1x100_S1x1x100_28_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 29's pooled row is `row` of its two loaded blocks. -/
theorem row_29 : k0_pay1097 (kernelRun0_A.sl.r_121 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![29, 0, 0] S1x100x128.size inb_S50x100x128_S1x100x128_29_0_0).toLoadRect (harg1.unread x0))
        (View.readAt (Elt F) arg2.view (Rect.unit (s := S50x1x100) ![29, 0, 0] S1x1x100.size inb_S50x1x100_S1x1x100_29_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 30's pooled row is `row` of its two loaded blocks. -/
theorem row_30 : k0_pay1098 (kernelRun0_A.sl.r_122 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![30, 0, 0] S1x100x128.size inb_S50x100x128_S1x100x128_30_0_0).toLoadRect (harg1.unread x0))
        (View.readAt (Elt F) arg2.view (Rect.unit (s := S50x1x100) ![30, 0, 0] S1x1x100.size inb_S50x1x100_S1x1x100_30_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 31's pooled row is `row` of its two loaded blocks. -/
theorem row_31 : k0_pay1099 (kernelRun0_A.sl.r_125 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![31, 0, 0] S1x100x128.size inb_S50x100x128_S1x100x128_31_0_0).toLoadRect (harg1.unread x0))
        (View.readAt (Elt F) arg2.view (Rect.unit (s := S50x1x100) ![31, 0, 0] S1x1x100.size inb_S50x1x100_S1x1x100_31_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 32's pooled row is `row` of its two loaded blocks. -/
theorem row_32 : k0_pay1101 (kernelRun0_A.sl.r_176 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![32, 0, 0] S1x100x128.size inb_S50x100x128_S1x100x128_32_0_0).toLoadRect (harg1.unread x0))
        (View.readAt (Elt F) arg2.view (Rect.unit (s := S50x1x100) ![32, 0, 0] S1x1x100.size inb_S50x1x100_S1x1x100_32_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 33's pooled row is `row` of its two loaded blocks. -/
theorem row_33 : k0_pay1102 (kernelRun0_A.sl.r_131 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![33, 0, 0] S1x100x128.size inb_S50x100x128_S1x100x128_33_0_0).toLoadRect (harg1.unread x0))
        (View.readAt (Elt F) arg2.view (Rect.unit (s := S50x1x100) ![33, 0, 0] S1x1x100.size inb_S50x1x100_S1x1x100_33_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 34's pooled row is `row` of its two loaded blocks. -/
theorem row_34 : k0_pay1103 (kernelRun0_A.sl.r_132 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![34, 0, 0] S1x100x128.size inb_S50x100x128_S1x100x128_34_0_0).toLoadRect (harg1.unread x0))
        (View.readAt (Elt F) arg2.view (Rect.unit (s := S50x1x100) ![34, 0, 0] S1x1x100.size inb_S50x1x100_S1x1x100_34_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 35's pooled row is `row` of its two loaded blocks. -/
theorem row_35 : k0_pay1104 (kernelRun0_A.sl.r_137 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![35, 0, 0] S1x100x128.size inb_S50x100x128_S1x100x128_35_0_0).toLoadRect (harg1.unread x0))
        (View.readAt (Elt F) arg2.view (Rect.unit (s := S50x1x100) ![35, 0, 0] S1x1x100.size inb_S50x1x100_S1x1x100_35_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 36's pooled row is `row` of its two loaded blocks. -/
theorem row_36 : k0_pay1105 (kernelRun0_A.sl.r_138 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![36, 0, 0] S1x100x128.size inb_S50x100x128_S1x100x128_36_0_0).toLoadRect (harg1.unread x0))
        (View.readAt (Elt F) arg2.view (Rect.unit (s := S50x1x100) ![36, 0, 0] S1x1x100.size inb_S50x1x100_S1x1x100_36_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 37's pooled row is `row` of its two loaded blocks. -/
theorem row_37 : k0_pay1106 (kernelRun0_A.sl.r_143 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![37, 0, 0] S1x100x128.size inb_S50x100x128_S1x100x128_37_0_0).toLoadRect (harg1.unread x0))
        (View.readAt (Elt F) arg2.view (Rect.unit (s := S50x1x100) ![37, 0, 0] S1x1x100.size inb_S50x1x100_S1x1x100_37_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 38's pooled row is `row` of its two loaded blocks. -/
theorem row_38 : k0_pay1107 (kernelRun0_A.sl.r_144 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![38, 0, 0] S1x100x128.size inb_S50x100x128_S1x100x128_38_0_0).toLoadRect (harg1.unread x0))
        (View.readAt (Elt F) arg2.view (Rect.unit (s := S50x1x100) ![38, 0, 0] S1x1x100.size inb_S50x1x100_S1x1x100_38_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 39's pooled row is `row` of its two loaded blocks. -/
theorem row_39 : k0_pay1109 (kernelRun0_A.sl.r_177 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![39, 0, 0] S1x100x128.size inb_S50x100x128_S1x100x128_39_0_0).toLoadRect (harg1.unread x0))
        (View.readAt (Elt F) arg2.view (Rect.unit (s := S50x1x100) ![39, 0, 0] S1x1x100.size inb_S50x1x100_S1x1x100_39_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 40's pooled row is `row` of its two loaded blocks. -/
theorem row_40 : k0_pay1110 (kernelRun0_A.sl.r_149 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![40, 0, 0] S1x100x128.size inb_S50x100x128_S1x100x128_40_0_0).toLoadRect (harg1.unread x0))
        (View.readAt (Elt F) arg2.view (Rect.unit (s := S50x1x100) ![40, 0, 0] S1x1x100.size inb_S50x1x100_S1x1x100_40_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 41's pooled row is `row` of its two loaded blocks. -/
theorem row_41 : k0_pay1111 (kernelRun0_A.sl.r_153 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![41, 0, 0] S1x100x128.size inb_S50x100x128_S1x100x128_41_0_0).toLoadRect (harg1.unread x0))
        (View.readAt (Elt F) arg2.view (Rect.unit (s := S50x1x100) ![41, 0, 0] S1x1x100.size inb_S50x1x100_S1x1x100_41_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 42's pooled row is `row` of its two loaded blocks. -/
theorem row_42 : k0_pay1112 (kernelRun0_A.sl.r_154 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![42, 0, 0] S1x100x128.size inb_S50x100x128_S1x100x128_42_0_0).toLoadRect (harg1.unread x0))
        (View.readAt (Elt F) arg2.view (Rect.unit (s := S50x1x100) ![42, 0, 0] S1x1x100.size inb_S50x1x100_S1x1x100_42_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 43's pooled row is `row` of its two loaded blocks. -/
theorem row_43 : k0_pay1113 (kernelRun0_A.sl.r_159 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![43, 0, 0] S1x100x128.size inb_S50x100x128_S1x100x128_43_0_0).toLoadRect (harg1.unread x0))
        (View.readAt (Elt F) arg2.view (Rect.unit (s := S50x1x100) ![43, 0, 0] S1x1x100.size inb_S50x1x100_S1x1x100_43_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 44's pooled row is `row` of its two loaded blocks. -/
theorem row_44 : k0_pay1114 (kernelRun0_A.sl.r_160 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![44, 0, 0] S1x100x128.size inb_S50x100x128_S1x100x128_44_0_0).toLoadRect (harg1.unread x0))
        (View.readAt (Elt F) arg2.view (Rect.unit (s := S50x1x100) ![44, 0, 0] S1x1x100.size inb_S50x1x100_S1x1x100_44_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 45's pooled row is `row` of its two loaded blocks. -/
theorem row_45 : k0_pay1115 (kernelRun0_A.sl.r_165 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![45, 0, 0] S1x100x128.size inb_S50x100x128_S1x100x128_45_0_0).toLoadRect (harg1.unread x0))
        (View.readAt (Elt F) arg2.view (Rect.unit (s := S50x1x100) ![45, 0, 0] S1x1x100.size inb_S50x1x100_S1x1x100_45_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 46's pooled row is `row` of its two loaded blocks. -/
theorem row_46 : k0_pay1116 (kernelRun0_A.sl.r_166 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![46, 0, 0] S1x100x128.size inb_S50x100x128_S1x100x128_46_0_0).toLoadRect (harg1.unread x0))
        (View.readAt (Elt F) arg2.view (Rect.unit (s := S50x1x100) ![46, 0, 0] S1x1x100.size inb_S50x1x100_S1x1x100_46_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 47's pooled row is `row` of its two loaded blocks. -/
theorem row_47 : k0_pay1117 (kernelRun0_A.sl.r_169 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![47, 0, 0] S1x100x128.size inb_S50x100x128_S1x100x128_47_0_0).toLoadRect (harg1.unread x0))
        (View.readAt (Elt F) arg2.view (Rect.unit (s := S50x1x100) ![47, 0, 0] S1x1x100.size inb_S50x1x100_S1x1x100_47_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 48's pooled row is `row` of its two loaded blocks. -/
theorem row_48 : k0_pay1118 (kernelRun0_A.sl.r_170 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![48, 0, 0] S1x100x128.size inb_S50x100x128_S1x100x128_48_0_0).toLoadRect (harg1.unread x0))
        (View.readAt (Elt F) arg2.view (Rect.unit (s := S50x1x100) ![48, 0, 0] S1x1x100.size inb_S50x1x100_S1x1x100_48_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

set_option maxRecDepth 65536 in
/-- Graph 49's pooled row is `row` of its two loaded blocks. -/
theorem row_49 : k0_pay1119 (kernelRun0_A.sl.r_173 c arg1 harg1 arg2 harg2 arg3 harg3 arg4 harg4 arg5 harg5 arg6 harg6 arg7 harg7 arg8 harg8 arg9 harg9 arg10 harg10 x0 x1 x2 x3 x4 x5 x6 x7 x8 x9)
    = row (View.readAt (Elt F) arg1.view (Rect.unit (s := S50x100x128) ![49, 0, 0] S1x100x128.size inb_S50x100x128_S1x100x128_49_0_0).toLoadRect (harg1.unread x0))
        (View.readAt (Elt F) arg2.view (Rect.unit (s := S50x1x100) ![49, 0, 0] S1x1x100.size inb_S50x1x100_S1x1x100_49_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9) := rfl

end Cert.KernelIdeal.Row

end
-- ==== Proof.KernelPool.lean ====
/- The pooled scratch [50, 128] after the body's fifty row stores, as one function of the point's blocks: row g holds
  graph g's pooled row, so a load of the whole scratch reads `row` of graph (y 0)'s blocks at column (y 1).
-/
import proofs.«176687_g19121194402273_cont_sun_m_853_29_alg».proof.Proof.KernelRowsA
import proofs.«176687_g19121194402273_cont_sun_m_853_29_alg».proof.Proof.KernelRowsB
import Idealize.ShloMosaic.Lib.Pipeline.Value
import Idealize.ShloMosaic.Lib.ValueIdx

noncomputable section

namespace Cert.KernelIdeal.Row

open Idealize.ShloMosaic Idealize.ShloMosaic.TcCoe Idealize.ShloMosaic.Tactic Idealize.SL.Sem
open Cert.KernelIdeal Cert.KernelIdeal.Gen

variable {F : FTy → Type} [FloatOps F] [Named F]
variable (c : Dev nD)
  (arg1 : Memref sig .tc .vmem S50x100x128 .f32) (harg1 : arg1.IsWhole) (arg2 : Memref sig .tc .vmem S50x1x100 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S128x128 .f32) (harg7 : arg7.IsWhole) (arg8 : Memref sig .tc .vmem S1x128 .f32) (harg8 : arg8.IsWhole)
  (arg9 : Memref sig .tc .vmem S128x128 .f32) (harg9 : arg9.IsWhole) (arg10 : Memref sig .tc .vmem S1x128 .f32) (harg10 : arg10.IsWhole)
  (x0 : Vec F S50x100x128 .f32) (x1 : Vec F S50x1x100 .f32) (x2 : Vec F S128x128 .f32) (x3 : Vec F S1x128 .f32)
  (x4 : Vec F S128x128 .f32) (x5 : Vec F S1x128 .f32) (x6 : Vec F S128x128 .f32) (x7 : Vec F S1x128 .f32)
  (x8 : Vec F S128x128 .f32) (x9 : Vec F S1x128 .f32)

theorem inbX (g : Fin 50) : ∀ a, (![g.val, 0, 0] : Fin 3 → Nat) a + S1x100x128.size a ≤ S50x100x128.size a := by
  intro a; have := g.isLt
  match a with
  | ⟨0, _⟩ => show g.val + 1 ≤ 50; omega
  | ⟨1, _⟩ => show 0 + 100 ≤ 100; omega
  | ⟨2, _⟩ => show 0 + 128 ≤ 128; omega

theorem inbL (g : Fin 50) : ∀ a, (![g.val, 0, 0] : Fin 3 → Nat) a + S1x1x100.size a ≤ S50x1x100.size a := by
  intro a; have := g.isLt
  match a with
  | ⟨0, _⟩ => show g.val + 1 ≤ 50; omega
  | ⟨1, _⟩ => show 0 + 1 ≤ 1; omega
  | ⟨2, _⟩ => show 0 + 100 ≤ 100; omega

/-- Graph g's node features as the body loads them. -/
def ldX (g : Fin 50) : Vec F S1x100x128 .f32 :=
  View.readAt (Elt F) arg1.view (Rect.unit (s := S50x100x128) ![g.val, 0, 0] S1x100x128.size (inbX g)).toLoadRect (harg1.unread x0)

/-- Graph g's longitudes as the body loads them. -/
def ldL (g : Fin 50) : Vec F S1x1x100 .f32 :=
  View.readAt (Elt F) arg2.view (Rect.unit (s := S50x1x100) ![g.val, 0, 0] S1x1x100.size (inbL g)).toLoadRect (harg2.unread x1)

/-- The pooled scratch's entry in row g, column cc. -/
def pooledRC (g : Fin 50) (cc : Fin 128) : Elt F .f32 :=
  row (ldX arg1 harg1 x0 g) (ldL arg2 harg2 x1 g)
    (ldW arg3 harg3 x2) (ldW arg5 harg5 x4) (ldW arg7 harg7 x6) (ldW arg9 harg9 x8)
    (ldB arg4 harg4 x3) (ldB arg6 harg6 x5) (ldB arg8 harg8 x7) (ldB arg10 harg10 x9) (ValueIdx.ix2 0 cc)

/-- The pooled scratch as one function of its index. -/
def pooledAt (y : S50x128.Idx) : Elt F .f32 :=
  pooledRC arg1 harg1 arg2 harg2 arg3 harg3 arg4 harg4 arg5 harg5 arg6 harg6 arg7 harg7 arg8 harg8 arg9 harg9 arg10 harg10 x0 x1 x2 x3 x4 x5 x6 x7 x8 x9 (y 0) (y 1)

theorem piece_0 (x : S1x128.Idx) : (row (View.readAt (Elt F) arg1.view (Rect.unit (s := S50x100x128) ![0, 0, 0] S1x100x128.size inb_S50x100x128_S1x100x128_0_0_0).toLoadRect (harg1.unread x0))
        (View.readAt (Elt F) arg2.view (Rect.unit (s := S50x1x100) ![0, 0, 0] S1x1x100.size inb_S50x1x100_S1x1x100_0_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![0, 0] S1x128.size inb_S50x128_S1x128_0_0).emb x) := by
  have hx0 : (x 0).val = 0 := by have h : (x 0).val < 1 := (x 0).isLt; omega
  have h0 : (((Rect.unit (s := S50x128) ![0, 0] S1x128.size inb_S50x128_S1x128_0_0).emb x) 0 : Fin 50) = ⟨0, by decide⟩ :=
    Fin.ext (by show 0 + 1 * (x 0).val = 0; omega)
  have h1 : (((Rect.unit (s := S50x128) ![0, 0] S1x128.size inb_S50x128_S1x128_0_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![0, 0, 0] S1x100x128.size inb_S50x100x128_S1x100x128_0_0_0).toLoadRect (harg1.unread x0))
        (View.readAt (Elt F) arg2.view (Rect.unit (s := S50x1x100) ![0, 0, 0] S1x1x100.size inb_S50x1x100_S1x1x100_0_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_1 (x : S1x128.Idx) : (row (View.readAt (Elt F) arg1.view (Rect.unit (s := S50x100x128) ![1, 0, 0] S1x100x128.size inb_S50x100x128_S1x100x128_1_0_0).toLoadRect (harg1.unread x0))
        (View.readAt (Elt F) arg2.view (Rect.unit (s := S50x1x100) ![1, 0, 0] S1x1x100.size inb_S50x1x100_S1x1x100_1_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![1, 0] S1x128.size inb_S50x128_S1x128_1_0).emb x) := by
  have hx0 : (x 0).val = 0 := by have h : (x 0).val < 1 := (x 0).isLt; omega
  have h0 : (((Rect.unit (s := S50x128) ![1, 0] S1x128.size inb_S50x128_S1x128_1_0).emb x) 0 : Fin 50) = ⟨1, by decide⟩ :=
    Fin.ext (by show 1 + 1 * (x 0).val = 1; omega)
  have h1 : (((Rect.unit (s := S50x128) ![1, 0] S1x128.size inb_S50x128_S1x128_1_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![1, 0, 0] S1x100x128.size inb_S50x100x128_S1x100x128_1_0_0).toLoadRect (harg1.unread x0))
        (View.readAt (Elt F) arg2.view (Rect.unit (s := S50x1x100) ![1, 0, 0] S1x1x100.size inb_S50x1x100_S1x1x100_1_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_2 (x : S1x128.Idx) : (row (View.readAt (Elt F) arg1.view (Rect.unit (s := S50x100x128) ![2, 0, 0] S1x100x128.size inb_S50x100x128_S1x100x128_2_0_0).toLoadRect (harg1.unread x0))
        (View.readAt (Elt F) arg2.view (Rect.unit (s := S50x1x100) ![2, 0, 0] S1x1x100.size inb_S50x1x100_S1x1x100_2_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![2, 0] S1x128.size inb_S50x128_S1x128_2_0).emb x) := by
  have hx0 : (x 0).val = 0 := by have h : (x 0).val < 1 := (x 0).isLt; omega
  have h0 : (((Rect.unit (s := S50x128) ![2, 0] S1x128.size inb_S50x128_S1x128_2_0).emb x) 0 : Fin 50) = ⟨2, by decide⟩ :=
    Fin.ext (by show 2 + 1 * (x 0).val = 2; omega)
  have h1 : (((Rect.unit (s := S50x128) ![2, 0] S1x128.size inb_S50x128_S1x128_2_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![2, 0, 0] S1x100x128.size inb_S50x100x128_S1x100x128_2_0_0).toLoadRect (harg1.unread x0))
        (View.readAt (Elt F) arg2.view (Rect.unit (s := S50x1x100) ![2, 0, 0] S1x1x100.size inb_S50x1x100_S1x1x100_2_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_3 (x : S1x128.Idx) : (row (View.readAt (Elt F) arg1.view (Rect.unit (s := S50x100x128) ![3, 0, 0] S1x100x128.size inb_S50x100x128_S1x100x128_3_0_0).toLoadRect (harg1.unread x0))
        (View.readAt (Elt F) arg2.view (Rect.unit (s := S50x1x100) ![3, 0, 0] S1x1x100.size inb_S50x1x100_S1x1x100_3_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![3, 0] S1x128.size inb_S50x128_S1x128_3_0).emb x) := by
  have hx0 : (x 0).val = 0 := by have h : (x 0).val < 1 := (x 0).isLt; omega
  have h0 : (((Rect.unit (s := S50x128) ![3, 0] S1x128.size inb_S50x128_S1x128_3_0).emb x) 0 : Fin 50) = ⟨3, by decide⟩ :=
    Fin.ext (by show 3 + 1 * (x 0).val = 3; omega)
  have h1 : (((Rect.unit (s := S50x128) ![3, 0] S1x128.size inb_S50x128_S1x128_3_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![3, 0, 0] S1x100x128.size inb_S50x100x128_S1x100x128_3_0_0).toLoadRect (harg1.unread x0))
        (View.readAt (Elt F) arg2.view (Rect.unit (s := S50x1x100) ![3, 0, 0] S1x1x100.size inb_S50x1x100_S1x1x100_3_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_4 (x : S1x128.Idx) : (row (View.readAt (Elt F) arg1.view (Rect.unit (s := S50x100x128) ![4, 0, 0] S1x100x128.size inb_S50x100x128_S1x100x128_4_0_0).toLoadRect (harg1.unread x0))
        (View.readAt (Elt F) arg2.view (Rect.unit (s := S50x1x100) ![4, 0, 0] S1x1x100.size inb_S50x1x100_S1x1x100_4_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![4, 0] S1x128.size inb_S50x128_S1x128_4_0).emb x) := by
  have hx0 : (x 0).val = 0 := by have h : (x 0).val < 1 := (x 0).isLt; omega
  have h0 : (((Rect.unit (s := S50x128) ![4, 0] S1x128.size inb_S50x128_S1x128_4_0).emb x) 0 : Fin 50) = ⟨4, by decide⟩ :=
    Fin.ext (by show 4 + 1 * (x 0).val = 4; omega)
  have h1 : (((Rect.unit (s := S50x128) ![4, 0] S1x128.size inb_S50x128_S1x128_4_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![4, 0, 0] S1x100x128.size inb_S50x100x128_S1x100x128_4_0_0).toLoadRect (harg1.unread x0))
        (View.readAt (Elt F) arg2.view (Rect.unit (s := S50x1x100) ![4, 0, 0] S1x1x100.size inb_S50x1x100_S1x1x100_4_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_5 (x : S1x128.Idx) : (row (View.readAt (Elt F) arg1.view (Rect.unit (s := S50x100x128) ![5, 0, 0] S1x100x128.size inb_S50x100x128_S1x100x128_5_0_0).toLoadRect (harg1.unread x0))
        (View.readAt (Elt F) arg2.view (Rect.unit (s := S50x1x100) ![5, 0, 0] S1x1x100.size inb_S50x1x100_S1x1x100_5_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![5, 0] S1x128.size inb_S50x128_S1x128_5_0).emb x) := by
  have hx0 : (x 0).val = 0 := by have h : (x 0).val < 1 := (x 0).isLt; omega
  have h0 : (((Rect.unit (s := S50x128) ![5, 0] S1x128.size inb_S50x128_S1x128_5_0).emb x) 0 : Fin 50) = ⟨5, by decide⟩ :=
    Fin.ext (by show 5 + 1 * (x 0).val = 5; omega)
  have h1 : (((Rect.unit (s := S50x128) ![5, 0] S1x128.size inb_S50x128_S1x128_5_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![5, 0, 0] S1x100x128.size inb_S50x100x128_S1x100x128_5_0_0).toLoadRect (harg1.unread x0))
        (View.readAt (Elt F) arg2.view (Rect.unit (s := S50x1x100) ![5, 0, 0] S1x1x100.size inb_S50x1x100_S1x1x100_5_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_6 (x : S1x128.Idx) : (row (View.readAt (Elt F) arg1.view (Rect.unit (s := S50x100x128) ![6, 0, 0] S1x100x128.size inb_S50x100x128_S1x100x128_6_0_0).toLoadRect (harg1.unread x0))
        (View.readAt (Elt F) arg2.view (Rect.unit (s := S50x1x100) ![6, 0, 0] S1x1x100.size inb_S50x1x100_S1x1x100_6_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![6, 0] S1x128.size inb_S50x128_S1x128_6_0).emb x) := by
  have hx0 : (x 0).val = 0 := by have h : (x 0).val < 1 := (x 0).isLt; omega
  have h0 : (((Rect.unit (s := S50x128) ![6, 0] S1x128.size inb_S50x128_S1x128_6_0).emb x) 0 : Fin 50) = ⟨6, by decide⟩ :=
    Fin.ext (by show 6 + 1 * (x 0).val = 6; omega)
  have h1 : (((Rect.unit (s := S50x128) ![6, 0] S1x128.size inb_S50x128_S1x128_6_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![6, 0, 0] S1x100x128.size inb_S50x100x128_S1x100x128_6_0_0).toLoadRect (harg1.unread x0))
        (View.readAt (Elt F) arg2.view (Rect.unit (s := S50x1x100) ![6, 0, 0] S1x1x100.size inb_S50x1x100_S1x1x100_6_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_7 (x : S1x128.Idx) : (row (View.readAt (Elt F) arg1.view (Rect.unit (s := S50x100x128) ![7, 0, 0] S1x100x128.size inb_S50x100x128_S1x100x128_7_0_0).toLoadRect (harg1.unread x0))
        (View.readAt (Elt F) arg2.view (Rect.unit (s := S50x1x100) ![7, 0, 0] S1x1x100.size inb_S50x1x100_S1x1x100_7_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![7, 0] S1x128.size inb_S50x128_S1x128_7_0).emb x) := by
  have hx0 : (x 0).val = 0 := by have h : (x 0).val < 1 := (x 0).isLt; omega
  have h0 : (((Rect.unit (s := S50x128) ![7, 0] S1x128.size inb_S50x128_S1x128_7_0).emb x) 0 : Fin 50) = ⟨7, by decide⟩ :=
    Fin.ext (by show 7 + 1 * (x 0).val = 7; omega)
  have h1 : (((Rect.unit (s := S50x128) ![7, 0] S1x128.size inb_S50x128_S1x128_7_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![7, 0, 0] S1x100x128.size inb_S50x100x128_S1x100x128_7_0_0).toLoadRect (harg1.unread x0))
        (View.readAt (Elt F) arg2.view (Rect.unit (s := S50x1x100) ![7, 0, 0] S1x1x100.size inb_S50x1x100_S1x1x100_7_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_8 (x : S1x128.Idx) : (row (View.readAt (Elt F) arg1.view (Rect.unit (s := S50x100x128) ![8, 0, 0] S1x100x128.size inb_S50x100x128_S1x100x128_8_0_0).toLoadRect (harg1.unread x0))
        (View.readAt (Elt F) arg2.view (Rect.unit (s := S50x1x100) ![8, 0, 0] S1x1x100.size inb_S50x1x100_S1x1x100_8_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![8, 0] S1x128.size inb_S50x128_S1x128_8_0).emb x) := by
  have hx0 : (x 0).val = 0 := by have h : (x 0).val < 1 := (x 0).isLt; omega
  have h0 : (((Rect.unit (s := S50x128) ![8, 0] S1x128.size inb_S50x128_S1x128_8_0).emb x) 0 : Fin 50) = ⟨8, by decide⟩ :=
    Fin.ext (by show 8 + 1 * (x 0).val = 8; omega)
  have h1 : (((Rect.unit (s := S50x128) ![8, 0] S1x128.size inb_S50x128_S1x128_8_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![8, 0, 0] S1x100x128.size inb_S50x100x128_S1x100x128_8_0_0).toLoadRect (harg1.unread x0))
        (View.readAt (Elt F) arg2.view (Rect.unit (s := S50x1x100) ![8, 0, 0] S1x1x100.size inb_S50x1x100_S1x1x100_8_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_9 (x : S1x128.Idx) : (row (View.readAt (Elt F) arg1.view (Rect.unit (s := S50x100x128) ![9, 0, 0] S1x100x128.size inb_S50x100x128_S1x100x128_9_0_0).toLoadRect (harg1.unread x0))
        (View.readAt (Elt F) arg2.view (Rect.unit (s := S50x1x100) ![9, 0, 0] S1x1x100.size inb_S50x1x100_S1x1x100_9_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![9, 0] S1x128.size inb_S50x128_S1x128_9_0).emb x) := by
  have hx0 : (x 0).val = 0 := by have h : (x 0).val < 1 := (x 0).isLt; omega
  have h0 : (((Rect.unit (s := S50x128) ![9, 0] S1x128.size inb_S50x128_S1x128_9_0).emb x) 0 : Fin 50) = ⟨9, by decide⟩ :=
    Fin.ext (by show 9 + 1 * (x 0).val = 9; omega)
  have h1 : (((Rect.unit (s := S50x128) ![9, 0] S1x128.size inb_S50x128_S1x128_9_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![9, 0, 0] S1x100x128.size inb_S50x100x128_S1x100x128_9_0_0).toLoadRect (harg1.unread x0))
        (View.readAt (Elt F) arg2.view (Rect.unit (s := S50x1x100) ![9, 0, 0] S1x1x100.size inb_S50x1x100_S1x1x100_9_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_10 (x : S1x128.Idx) : (row (View.readAt (Elt F) arg1.view (Rect.unit (s := S50x100x128) ![10, 0, 0] S1x100x128.size inb_S50x100x128_S1x100x128_10_0_0).toLoadRect (harg1.unread x0))
        (View.readAt (Elt F) arg2.view (Rect.unit (s := S50x1x100) ![10, 0, 0] S1x1x100.size inb_S50x1x100_S1x1x100_10_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![10, 0] S1x128.size inb_S50x128_S1x128_10_0).emb x) := by
  have hx0 : (x 0).val = 0 := by have h : (x 0).val < 1 := (x 0).isLt; omega
  have h0 : (((Rect.unit (s := S50x128) ![10, 0] S1x128.size inb_S50x128_S1x128_10_0).emb x) 0 : Fin 50) = ⟨10, by decide⟩ :=
    Fin.ext (by show 10 + 1 * (x 0).val = 10; omega)
  have h1 : (((Rect.unit (s := S50x128) ![10, 0] S1x128.size inb_S50x128_S1x128_10_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![10, 0, 0] S1x100x128.size inb_S50x100x128_S1x100x128_10_0_0).toLoadRect (harg1.unread x0))
        (View.readAt (Elt F) arg2.view (Rect.unit (s := S50x1x100) ![10, 0, 0] S1x1x100.size inb_S50x1x100_S1x1x100_10_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_11 (x : S1x128.Idx) : (row (View.readAt (Elt F) arg1.view (Rect.unit (s := S50x100x128) ![11, 0, 0] S1x100x128.size inb_S50x100x128_S1x100x128_11_0_0).toLoadRect (harg1.unread x0))
        (View.readAt (Elt F) arg2.view (Rect.unit (s := S50x1x100) ![11, 0, 0] S1x1x100.size inb_S50x1x100_S1x1x100_11_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![11, 0] S1x128.size inb_S50x128_S1x128_11_0).emb x) := by
  have hx0 : (x 0).val = 0 := by have h : (x 0).val < 1 := (x 0).isLt; omega
  have h0 : (((Rect.unit (s := S50x128) ![11, 0] S1x128.size inb_S50x128_S1x128_11_0).emb x) 0 : Fin 50) = ⟨11, by decide⟩ :=
    Fin.ext (by show 11 + 1 * (x 0).val = 11; omega)
  have h1 : (((Rect.unit (s := S50x128) ![11, 0] S1x128.size inb_S50x128_S1x128_11_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![11, 0, 0] S1x100x128.size inb_S50x100x128_S1x100x128_11_0_0).toLoadRect (harg1.unread x0))
        (View.readAt (Elt F) arg2.view (Rect.unit (s := S50x1x100) ![11, 0, 0] S1x1x100.size inb_S50x1x100_S1x1x100_11_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_12 (x : S1x128.Idx) : (row (View.readAt (Elt F) arg1.view (Rect.unit (s := S50x100x128) ![12, 0, 0] S1x100x128.size inb_S50x100x128_S1x100x128_12_0_0).toLoadRect (harg1.unread x0))
        (View.readAt (Elt F) arg2.view (Rect.unit (s := S50x1x100) ![12, 0, 0] S1x1x100.size inb_S50x1x100_S1x1x100_12_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![12, 0] S1x128.size inb_S50x128_S1x128_12_0).emb x) := by
  have hx0 : (x 0).val = 0 := by have h : (x 0).val < 1 := (x 0).isLt; omega
  have h0 : (((Rect.unit (s := S50x128) ![12, 0] S1x128.size inb_S50x128_S1x128_12_0).emb x) 0 : Fin 50) = ⟨12, by decide⟩ :=
    Fin.ext (by show 12 + 1 * (x 0).val = 12; omega)
  have h1 : (((Rect.unit (s := S50x128) ![12, 0] S1x128.size inb_S50x128_S1x128_12_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![12, 0, 0] S1x100x128.size inb_S50x100x128_S1x100x128_12_0_0).toLoadRect (harg1.unread x0))
        (View.readAt (Elt F) arg2.view (Rect.unit (s := S50x1x100) ![12, 0, 0] S1x1x100.size inb_S50x1x100_S1x1x100_12_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_13 (x : S1x128.Idx) : (row (View.readAt (Elt F) arg1.view (Rect.unit (s := S50x100x128) ![13, 0, 0] S1x100x128.size inb_S50x100x128_S1x100x128_13_0_0).toLoadRect (harg1.unread x0))
        (View.readAt (Elt F) arg2.view (Rect.unit (s := S50x1x100) ![13, 0, 0] S1x1x100.size inb_S50x1x100_S1x1x100_13_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![13, 0] S1x128.size inb_S50x128_S1x128_13_0).emb x) := by
  have hx0 : (x 0).val = 0 := by have h : (x 0).val < 1 := (x 0).isLt; omega
  have h0 : (((Rect.unit (s := S50x128) ![13, 0] S1x128.size inb_S50x128_S1x128_13_0).emb x) 0 : Fin 50) = ⟨13, by decide⟩ :=
    Fin.ext (by show 13 + 1 * (x 0).val = 13; omega)
  have h1 : (((Rect.unit (s := S50x128) ![13, 0] S1x128.size inb_S50x128_S1x128_13_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![13, 0, 0] S1x100x128.size inb_S50x100x128_S1x100x128_13_0_0).toLoadRect (harg1.unread x0))
        (View.readAt (Elt F) arg2.view (Rect.unit (s := S50x1x100) ![13, 0, 0] S1x1x100.size inb_S50x1x100_S1x1x100_13_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_14 (x : S1x128.Idx) : (row (View.readAt (Elt F) arg1.view (Rect.unit (s := S50x100x128) ![14, 0, 0] S1x100x128.size inb_S50x100x128_S1x100x128_14_0_0).toLoadRect (harg1.unread x0))
        (View.readAt (Elt F) arg2.view (Rect.unit (s := S50x1x100) ![14, 0, 0] S1x1x100.size inb_S50x1x100_S1x1x100_14_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![14, 0] S1x128.size inb_S50x128_S1x128_14_0).emb x) := by
  have hx0 : (x 0).val = 0 := by have h : (x 0).val < 1 := (x 0).isLt; omega
  have h0 : (((Rect.unit (s := S50x128) ![14, 0] S1x128.size inb_S50x128_S1x128_14_0).emb x) 0 : Fin 50) = ⟨14, by decide⟩ :=
    Fin.ext (by show 14 + 1 * (x 0).val = 14; omega)
  have h1 : (((Rect.unit (s := S50x128) ![14, 0] S1x128.size inb_S50x128_S1x128_14_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![14, 0, 0] S1x100x128.size inb_S50x100x128_S1x100x128_14_0_0).toLoadRect (harg1.unread x0))
        (View.readAt (Elt F) arg2.view (Rect.unit (s := S50x1x100) ![14, 0, 0] S1x1x100.size inb_S50x1x100_S1x1x100_14_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_15 (x : S1x128.Idx) : (row (View.readAt (Elt F) arg1.view (Rect.unit (s := S50x100x128) ![15, 0, 0] S1x100x128.size inb_S50x100x128_S1x100x128_15_0_0).toLoadRect (harg1.unread x0))
        (View.readAt (Elt F) arg2.view (Rect.unit (s := S50x1x100) ![15, 0, 0] S1x1x100.size inb_S50x1x100_S1x1x100_15_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![15, 0] S1x128.size inb_S50x128_S1x128_15_0).emb x) := by
  have hx0 : (x 0).val = 0 := by have h : (x 0).val < 1 := (x 0).isLt; omega
  have h0 : (((Rect.unit (s := S50x128) ![15, 0] S1x128.size inb_S50x128_S1x128_15_0).emb x) 0 : Fin 50) = ⟨15, by decide⟩ :=
    Fin.ext (by show 15 + 1 * (x 0).val = 15; omega)
  have h1 : (((Rect.unit (s := S50x128) ![15, 0] S1x128.size inb_S50x128_S1x128_15_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![15, 0, 0] S1x100x128.size inb_S50x100x128_S1x100x128_15_0_0).toLoadRect (harg1.unread x0))
        (View.readAt (Elt F) arg2.view (Rect.unit (s := S50x1x100) ![15, 0, 0] S1x1x100.size inb_S50x1x100_S1x1x100_15_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_16 (x : S1x128.Idx) : (row (View.readAt (Elt F) arg1.view (Rect.unit (s := S50x100x128) ![16, 0, 0] S1x100x128.size inb_S50x100x128_S1x100x128_16_0_0).toLoadRect (harg1.unread x0))
        (View.readAt (Elt F) arg2.view (Rect.unit (s := S50x1x100) ![16, 0, 0] S1x1x100.size inb_S50x1x100_S1x1x100_16_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![16, 0] S1x128.size inb_S50x128_S1x128_16_0).emb x) := by
  have hx0 : (x 0).val = 0 := by have h : (x 0).val < 1 := (x 0).isLt; omega
  have h0 : (((Rect.unit (s := S50x128) ![16, 0] S1x128.size inb_S50x128_S1x128_16_0).emb x) 0 : Fin 50) = ⟨16, by decide⟩ :=
    Fin.ext (by show 16 + 1 * (x 0).val = 16; omega)
  have h1 : (((Rect.unit (s := S50x128) ![16, 0] S1x128.size inb_S50x128_S1x128_16_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![16, 0, 0] S1x100x128.size inb_S50x100x128_S1x100x128_16_0_0).toLoadRect (harg1.unread x0))
        (View.readAt (Elt F) arg2.view (Rect.unit (s := S50x1x100) ![16, 0, 0] S1x1x100.size inb_S50x1x100_S1x1x100_16_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_17 (x : S1x128.Idx) : (row (View.readAt (Elt F) arg1.view (Rect.unit (s := S50x100x128) ![17, 0, 0] S1x100x128.size inb_S50x100x128_S1x100x128_17_0_0).toLoadRect (harg1.unread x0))
        (View.readAt (Elt F) arg2.view (Rect.unit (s := S50x1x100) ![17, 0, 0] S1x1x100.size inb_S50x1x100_S1x1x100_17_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![17, 0] S1x128.size inb_S50x128_S1x128_17_0).emb x) := by
  have hx0 : (x 0).val = 0 := by have h : (x 0).val < 1 := (x 0).isLt; omega
  have h0 : (((Rect.unit (s := S50x128) ![17, 0] S1x128.size inb_S50x128_S1x128_17_0).emb x) 0 : Fin 50) = ⟨17, by decide⟩ :=
    Fin.ext (by show 17 + 1 * (x 0).val = 17; omega)
  have h1 : (((Rect.unit (s := S50x128) ![17, 0] S1x128.size inb_S50x128_S1x128_17_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![17, 0, 0] S1x100x128.size inb_S50x100x128_S1x100x128_17_0_0).toLoadRect (harg1.unread x0))
        (View.readAt (Elt F) arg2.view (Rect.unit (s := S50x1x100) ![17, 0, 0] S1x1x100.size inb_S50x1x100_S1x1x100_17_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_18 (x : S1x128.Idx) : (row (View.readAt (Elt F) arg1.view (Rect.unit (s := S50x100x128) ![18, 0, 0] S1x100x128.size inb_S50x100x128_S1x100x128_18_0_0).toLoadRect (harg1.unread x0))
        (View.readAt (Elt F) arg2.view (Rect.unit (s := S50x1x100) ![18, 0, 0] S1x1x100.size inb_S50x1x100_S1x1x100_18_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![18, 0] S1x128.size inb_S50x128_S1x128_18_0).emb x) := by
  have hx0 : (x 0).val = 0 := by have h : (x 0).val < 1 := (x 0).isLt; omega
  have h0 : (((Rect.unit (s := S50x128) ![18, 0] S1x128.size inb_S50x128_S1x128_18_0).emb x) 0 : Fin 50) = ⟨18, by decide⟩ :=
    Fin.ext (by show 18 + 1 * (x 0).val = 18; omega)
  have h1 : (((Rect.unit (s := S50x128) ![18, 0] S1x128.size inb_S50x128_S1x128_18_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![18, 0, 0] S1x100x128.size inb_S50x100x128_S1x100x128_18_0_0).toLoadRect (harg1.unread x0))
        (View.readAt (Elt F) arg2.view (Rect.unit (s := S50x1x100) ![18, 0, 0] S1x1x100.size inb_S50x1x100_S1x1x100_18_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_19 (x : S1x128.Idx) : (row (View.readAt (Elt F) arg1.view (Rect.unit (s := S50x100x128) ![19, 0, 0] S1x100x128.size inb_S50x100x128_S1x100x128_19_0_0).toLoadRect (harg1.unread x0))
        (View.readAt (Elt F) arg2.view (Rect.unit (s := S50x1x100) ![19, 0, 0] S1x1x100.size inb_S50x1x100_S1x1x100_19_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![19, 0] S1x128.size inb_S50x128_S1x128_19_0).emb x) := by
  have hx0 : (x 0).val = 0 := by have h : (x 0).val < 1 := (x 0).isLt; omega
  have h0 : (((Rect.unit (s := S50x128) ![19, 0] S1x128.size inb_S50x128_S1x128_19_0).emb x) 0 : Fin 50) = ⟨19, by decide⟩ :=
    Fin.ext (by show 19 + 1 * (x 0).val = 19; omega)
  have h1 : (((Rect.unit (s := S50x128) ![19, 0] S1x128.size inb_S50x128_S1x128_19_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![19, 0, 0] S1x100x128.size inb_S50x100x128_S1x100x128_19_0_0).toLoadRect (harg1.unread x0))
        (View.readAt (Elt F) arg2.view (Rect.unit (s := S50x1x100) ![19, 0, 0] S1x1x100.size inb_S50x1x100_S1x1x100_19_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_20 (x : S1x128.Idx) : (row (View.readAt (Elt F) arg1.view (Rect.unit (s := S50x100x128) ![20, 0, 0] S1x100x128.size inb_S50x100x128_S1x100x128_20_0_0).toLoadRect (harg1.unread x0))
        (View.readAt (Elt F) arg2.view (Rect.unit (s := S50x1x100) ![20, 0, 0] S1x1x100.size inb_S50x1x100_S1x1x100_20_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![20, 0] S1x128.size inb_S50x128_S1x128_20_0).emb x) := by
  have hx0 : (x 0).val = 0 := by have h : (x 0).val < 1 := (x 0).isLt; omega
  have h0 : (((Rect.unit (s := S50x128) ![20, 0] S1x128.size inb_S50x128_S1x128_20_0).emb x) 0 : Fin 50) = ⟨20, by decide⟩ :=
    Fin.ext (by show 20 + 1 * (x 0).val = 20; omega)
  have h1 : (((Rect.unit (s := S50x128) ![20, 0] S1x128.size inb_S50x128_S1x128_20_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![20, 0, 0] S1x100x128.size inb_S50x100x128_S1x100x128_20_0_0).toLoadRect (harg1.unread x0))
        (View.readAt (Elt F) arg2.view (Rect.unit (s := S50x1x100) ![20, 0, 0] S1x1x100.size inb_S50x1x100_S1x1x100_20_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_21 (x : S1x128.Idx) : (row (View.readAt (Elt F) arg1.view (Rect.unit (s := S50x100x128) ![21, 0, 0] S1x100x128.size inb_S50x100x128_S1x100x128_21_0_0).toLoadRect (harg1.unread x0))
        (View.readAt (Elt F) arg2.view (Rect.unit (s := S50x1x100) ![21, 0, 0] S1x1x100.size inb_S50x1x100_S1x1x100_21_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![21, 0] S1x128.size inb_S50x128_S1x128_21_0).emb x) := by
  have hx0 : (x 0).val = 0 := by have h : (x 0).val < 1 := (x 0).isLt; omega
  have h0 : (((Rect.unit (s := S50x128) ![21, 0] S1x128.size inb_S50x128_S1x128_21_0).emb x) 0 : Fin 50) = ⟨21, by decide⟩ :=
    Fin.ext (by show 21 + 1 * (x 0).val = 21; omega)
  have h1 : (((Rect.unit (s := S50x128) ![21, 0] S1x128.size inb_S50x128_S1x128_21_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![21, 0, 0] S1x100x128.size inb_S50x100x128_S1x100x128_21_0_0).toLoadRect (harg1.unread x0))
        (View.readAt (Elt F) arg2.view (Rect.unit (s := S50x1x100) ![21, 0, 0] S1x1x100.size inb_S50x1x100_S1x1x100_21_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_22 (x : S1x128.Idx) : (row (View.readAt (Elt F) arg1.view (Rect.unit (s := S50x100x128) ![22, 0, 0] S1x100x128.size inb_S50x100x128_S1x100x128_22_0_0).toLoadRect (harg1.unread x0))
        (View.readAt (Elt F) arg2.view (Rect.unit (s := S50x1x100) ![22, 0, 0] S1x1x100.size inb_S50x1x100_S1x1x100_22_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![22, 0] S1x128.size inb_S50x128_S1x128_22_0).emb x) := by
  have hx0 : (x 0).val = 0 := by have h : (x 0).val < 1 := (x 0).isLt; omega
  have h0 : (((Rect.unit (s := S50x128) ![22, 0] S1x128.size inb_S50x128_S1x128_22_0).emb x) 0 : Fin 50) = ⟨22, by decide⟩ :=
    Fin.ext (by show 22 + 1 * (x 0).val = 22; omega)
  have h1 : (((Rect.unit (s := S50x128) ![22, 0] S1x128.size inb_S50x128_S1x128_22_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![22, 0, 0] S1x100x128.size inb_S50x100x128_S1x100x128_22_0_0).toLoadRect (harg1.unread x0))
        (View.readAt (Elt F) arg2.view (Rect.unit (s := S50x1x100) ![22, 0, 0] S1x1x100.size inb_S50x1x100_S1x1x100_22_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_23 (x : S1x128.Idx) : (row (View.readAt (Elt F) arg1.view (Rect.unit (s := S50x100x128) ![23, 0, 0] S1x100x128.size inb_S50x100x128_S1x100x128_23_0_0).toLoadRect (harg1.unread x0))
        (View.readAt (Elt F) arg2.view (Rect.unit (s := S50x1x100) ![23, 0, 0] S1x1x100.size inb_S50x1x100_S1x1x100_23_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![23, 0] S1x128.size inb_S50x128_S1x128_23_0).emb x) := by
  have hx0 : (x 0).val = 0 := by have h : (x 0).val < 1 := (x 0).isLt; omega
  have h0 : (((Rect.unit (s := S50x128) ![23, 0] S1x128.size inb_S50x128_S1x128_23_0).emb x) 0 : Fin 50) = ⟨23, by decide⟩ :=
    Fin.ext (by show 23 + 1 * (x 0).val = 23; omega)
  have h1 : (((Rect.unit (s := S50x128) ![23, 0] S1x128.size inb_S50x128_S1x128_23_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![23, 0, 0] S1x100x128.size inb_S50x100x128_S1x100x128_23_0_0).toLoadRect (harg1.unread x0))
        (View.readAt (Elt F) arg2.view (Rect.unit (s := S50x1x100) ![23, 0, 0] S1x1x100.size inb_S50x1x100_S1x1x100_23_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_24 (x : S1x128.Idx) : (row (View.readAt (Elt F) arg1.view (Rect.unit (s := S50x100x128) ![24, 0, 0] S1x100x128.size inb_S50x100x128_S1x100x128_24_0_0).toLoadRect (harg1.unread x0))
        (View.readAt (Elt F) arg2.view (Rect.unit (s := S50x1x100) ![24, 0, 0] S1x1x100.size inb_S50x1x100_S1x1x100_24_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![24, 0] S1x128.size inb_S50x128_S1x128_24_0).emb x) := by
  have hx0 : (x 0).val = 0 := by have h : (x 0).val < 1 := (x 0).isLt; omega
  have h0 : (((Rect.unit (s := S50x128) ![24, 0] S1x128.size inb_S50x128_S1x128_24_0).emb x) 0 : Fin 50) = ⟨24, by decide⟩ :=
    Fin.ext (by show 24 + 1 * (x 0).val = 24; omega)
  have h1 : (((Rect.unit (s := S50x128) ![24, 0] S1x128.size inb_S50x128_S1x128_24_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![24, 0, 0] S1x100x128.size inb_S50x100x128_S1x100x128_24_0_0).toLoadRect (harg1.unread x0))
        (View.readAt (Elt F) arg2.view (Rect.unit (s := S50x1x100) ![24, 0, 0] S1x1x100.size inb_S50x1x100_S1x1x100_24_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_25 (x : S1x128.Idx) : (row (View.readAt (Elt F) arg1.view (Rect.unit (s := S50x100x128) ![25, 0, 0] S1x100x128.size inb_S50x100x128_S1x100x128_25_0_0).toLoadRect (harg1.unread x0))
        (View.readAt (Elt F) arg2.view (Rect.unit (s := S50x1x100) ![25, 0, 0] S1x1x100.size inb_S50x1x100_S1x1x100_25_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![25, 0] S1x128.size inb_S50x128_S1x128_25_0).emb x) := by
  have hx0 : (x 0).val = 0 := by have h : (x 0).val < 1 := (x 0).isLt; omega
  have h0 : (((Rect.unit (s := S50x128) ![25, 0] S1x128.size inb_S50x128_S1x128_25_0).emb x) 0 : Fin 50) = ⟨25, by decide⟩ :=
    Fin.ext (by show 25 + 1 * (x 0).val = 25; omega)
  have h1 : (((Rect.unit (s := S50x128) ![25, 0] S1x128.size inb_S50x128_S1x128_25_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![25, 0, 0] S1x100x128.size inb_S50x100x128_S1x100x128_25_0_0).toLoadRect (harg1.unread x0))
        (View.readAt (Elt F) arg2.view (Rect.unit (s := S50x1x100) ![25, 0, 0] S1x1x100.size inb_S50x1x100_S1x1x100_25_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_26 (x : S1x128.Idx) : (row (View.readAt (Elt F) arg1.view (Rect.unit (s := S50x100x128) ![26, 0, 0] S1x100x128.size inb_S50x100x128_S1x100x128_26_0_0).toLoadRect (harg1.unread x0))
        (View.readAt (Elt F) arg2.view (Rect.unit (s := S50x1x100) ![26, 0, 0] S1x1x100.size inb_S50x1x100_S1x1x100_26_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![26, 0] S1x128.size inb_S50x128_S1x128_26_0).emb x) := by
  have hx0 : (x 0).val = 0 := by have h : (x 0).val < 1 := (x 0).isLt; omega
  have h0 : (((Rect.unit (s := S50x128) ![26, 0] S1x128.size inb_S50x128_S1x128_26_0).emb x) 0 : Fin 50) = ⟨26, by decide⟩ :=
    Fin.ext (by show 26 + 1 * (x 0).val = 26; omega)
  have h1 : (((Rect.unit (s := S50x128) ![26, 0] S1x128.size inb_S50x128_S1x128_26_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![26, 0, 0] S1x100x128.size inb_S50x100x128_S1x100x128_26_0_0).toLoadRect (harg1.unread x0))
        (View.readAt (Elt F) arg2.view (Rect.unit (s := S50x1x100) ![26, 0, 0] S1x1x100.size inb_S50x1x100_S1x1x100_26_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_27 (x : S1x128.Idx) : (row (View.readAt (Elt F) arg1.view (Rect.unit (s := S50x100x128) ![27, 0, 0] S1x100x128.size inb_S50x100x128_S1x100x128_27_0_0).toLoadRect (harg1.unread x0))
        (View.readAt (Elt F) arg2.view (Rect.unit (s := S50x1x100) ![27, 0, 0] S1x1x100.size inb_S50x1x100_S1x1x100_27_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![27, 0] S1x128.size inb_S50x128_S1x128_27_0).emb x) := by
  have hx0 : (x 0).val = 0 := by have h : (x 0).val < 1 := (x 0).isLt; omega
  have h0 : (((Rect.unit (s := S50x128) ![27, 0] S1x128.size inb_S50x128_S1x128_27_0).emb x) 0 : Fin 50) = ⟨27, by decide⟩ :=
    Fin.ext (by show 27 + 1 * (x 0).val = 27; omega)
  have h1 : (((Rect.unit (s := S50x128) ![27, 0] S1x128.size inb_S50x128_S1x128_27_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![27, 0, 0] S1x100x128.size inb_S50x100x128_S1x100x128_27_0_0).toLoadRect (harg1.unread x0))
        (View.readAt (Elt F) arg2.view (Rect.unit (s := S50x1x100) ![27, 0, 0] S1x1x100.size inb_S50x1x100_S1x1x100_27_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_28 (x : S1x128.Idx) : (row (View.readAt (Elt F) arg1.view (Rect.unit (s := S50x100x128) ![28, 0, 0] S1x100x128.size inb_S50x100x128_S1x100x128_28_0_0).toLoadRect (harg1.unread x0))
        (View.readAt (Elt F) arg2.view (Rect.unit (s := S50x1x100) ![28, 0, 0] S1x1x100.size inb_S50x1x100_S1x1x100_28_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![28, 0] S1x128.size inb_S50x128_S1x128_28_0).emb x) := by
  have hx0 : (x 0).val = 0 := by have h : (x 0).val < 1 := (x 0).isLt; omega
  have h0 : (((Rect.unit (s := S50x128) ![28, 0] S1x128.size inb_S50x128_S1x128_28_0).emb x) 0 : Fin 50) = ⟨28, by decide⟩ :=
    Fin.ext (by show 28 + 1 * (x 0).val = 28; omega)
  have h1 : (((Rect.unit (s := S50x128) ![28, 0] S1x128.size inb_S50x128_S1x128_28_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![28, 0, 0] S1x100x128.size inb_S50x100x128_S1x100x128_28_0_0).toLoadRect (harg1.unread x0))
        (View.readAt (Elt F) arg2.view (Rect.unit (s := S50x1x100) ![28, 0, 0] S1x1x100.size inb_S50x1x100_S1x1x100_28_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_29 (x : S1x128.Idx) : (row (View.readAt (Elt F) arg1.view (Rect.unit (s := S50x100x128) ![29, 0, 0] S1x100x128.size inb_S50x100x128_S1x100x128_29_0_0).toLoadRect (harg1.unread x0))
        (View.readAt (Elt F) arg2.view (Rect.unit (s := S50x1x100) ![29, 0, 0] S1x1x100.size inb_S50x1x100_S1x1x100_29_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![29, 0] S1x128.size inb_S50x128_S1x128_29_0).emb x) := by
  have hx0 : (x 0).val = 0 := by have h : (x 0).val < 1 := (x 0).isLt; omega
  have h0 : (((Rect.unit (s := S50x128) ![29, 0] S1x128.size inb_S50x128_S1x128_29_0).emb x) 0 : Fin 50) = ⟨29, by decide⟩ :=
    Fin.ext (by show 29 + 1 * (x 0).val = 29; omega)
  have h1 : (((Rect.unit (s := S50x128) ![29, 0] S1x128.size inb_S50x128_S1x128_29_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![29, 0, 0] S1x100x128.size inb_S50x100x128_S1x100x128_29_0_0).toLoadRect (harg1.unread x0))
        (View.readAt (Elt F) arg2.view (Rect.unit (s := S50x1x100) ![29, 0, 0] S1x1x100.size inb_S50x1x100_S1x1x100_29_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_30 (x : S1x128.Idx) : (row (View.readAt (Elt F) arg1.view (Rect.unit (s := S50x100x128) ![30, 0, 0] S1x100x128.size inb_S50x100x128_S1x100x128_30_0_0).toLoadRect (harg1.unread x0))
        (View.readAt (Elt F) arg2.view (Rect.unit (s := S50x1x100) ![30, 0, 0] S1x1x100.size inb_S50x1x100_S1x1x100_30_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![30, 0] S1x128.size inb_S50x128_S1x128_30_0).emb x) := by
  have hx0 : (x 0).val = 0 := by have h : (x 0).val < 1 := (x 0).isLt; omega
  have h0 : (((Rect.unit (s := S50x128) ![30, 0] S1x128.size inb_S50x128_S1x128_30_0).emb x) 0 : Fin 50) = ⟨30, by decide⟩ :=
    Fin.ext (by show 30 + 1 * (x 0).val = 30; omega)
  have h1 : (((Rect.unit (s := S50x128) ![30, 0] S1x128.size inb_S50x128_S1x128_30_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![30, 0, 0] S1x100x128.size inb_S50x100x128_S1x100x128_30_0_0).toLoadRect (harg1.unread x0))
        (View.readAt (Elt F) arg2.view (Rect.unit (s := S50x1x100) ![30, 0, 0] S1x1x100.size inb_S50x1x100_S1x1x100_30_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_31 (x : S1x128.Idx) : (row (View.readAt (Elt F) arg1.view (Rect.unit (s := S50x100x128) ![31, 0, 0] S1x100x128.size inb_S50x100x128_S1x100x128_31_0_0).toLoadRect (harg1.unread x0))
        (View.readAt (Elt F) arg2.view (Rect.unit (s := S50x1x100) ![31, 0, 0] S1x1x100.size inb_S50x1x100_S1x1x100_31_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![31, 0] S1x128.size inb_S50x128_S1x128_31_0).emb x) := by
  have hx0 : (x 0).val = 0 := by have h : (x 0).val < 1 := (x 0).isLt; omega
  have h0 : (((Rect.unit (s := S50x128) ![31, 0] S1x128.size inb_S50x128_S1x128_31_0).emb x) 0 : Fin 50) = ⟨31, by decide⟩ :=
    Fin.ext (by show 31 + 1 * (x 0).val = 31; omega)
  have h1 : (((Rect.unit (s := S50x128) ![31, 0] S1x128.size inb_S50x128_S1x128_31_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![31, 0, 0] S1x100x128.size inb_S50x100x128_S1x100x128_31_0_0).toLoadRect (harg1.unread x0))
        (View.readAt (Elt F) arg2.view (Rect.unit (s := S50x1x100) ![31, 0, 0] S1x1x100.size inb_S50x1x100_S1x1x100_31_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_32 (x : S1x128.Idx) : (row (View.readAt (Elt F) arg1.view (Rect.unit (s := S50x100x128) ![32, 0, 0] S1x100x128.size inb_S50x100x128_S1x100x128_32_0_0).toLoadRect (harg1.unread x0))
        (View.readAt (Elt F) arg2.view (Rect.unit (s := S50x1x100) ![32, 0, 0] S1x1x100.size inb_S50x1x100_S1x1x100_32_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![32, 0] S1x128.size inb_S50x128_S1x128_32_0).emb x) := by
  have hx0 : (x 0).val = 0 := by have h : (x 0).val < 1 := (x 0).isLt; omega
  have h0 : (((Rect.unit (s := S50x128) ![32, 0] S1x128.size inb_S50x128_S1x128_32_0).emb x) 0 : Fin 50) = ⟨32, by decide⟩ :=
    Fin.ext (by show 32 + 1 * (x 0).val = 32; omega)
  have h1 : (((Rect.unit (s := S50x128) ![32, 0] S1x128.size inb_S50x128_S1x128_32_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![32, 0, 0] S1x100x128.size inb_S50x100x128_S1x100x128_32_0_0).toLoadRect (harg1.unread x0))
        (View.readAt (Elt F) arg2.view (Rect.unit (s := S50x1x100) ![32, 0, 0] S1x1x100.size inb_S50x1x100_S1x1x100_32_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_33 (x : S1x128.Idx) : (row (View.readAt (Elt F) arg1.view (Rect.unit (s := S50x100x128) ![33, 0, 0] S1x100x128.size inb_S50x100x128_S1x100x128_33_0_0).toLoadRect (harg1.unread x0))
        (View.readAt (Elt F) arg2.view (Rect.unit (s := S50x1x100) ![33, 0, 0] S1x1x100.size inb_S50x1x100_S1x1x100_33_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![33, 0] S1x128.size inb_S50x128_S1x128_33_0).emb x) := by
  have hx0 : (x 0).val = 0 := by have h : (x 0).val < 1 := (x 0).isLt; omega
  have h0 : (((Rect.unit (s := S50x128) ![33, 0] S1x128.size inb_S50x128_S1x128_33_0).emb x) 0 : Fin 50) = ⟨33, by decide⟩ :=
    Fin.ext (by show 33 + 1 * (x 0).val = 33; omega)
  have h1 : (((Rect.unit (s := S50x128) ![33, 0] S1x128.size inb_S50x128_S1x128_33_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![33, 0, 0] S1x100x128.size inb_S50x100x128_S1x100x128_33_0_0).toLoadRect (harg1.unread x0))
        (View.readAt (Elt F) arg2.view (Rect.unit (s := S50x1x100) ![33, 0, 0] S1x1x100.size inb_S50x1x100_S1x1x100_33_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_34 (x : S1x128.Idx) : (row (View.readAt (Elt F) arg1.view (Rect.unit (s := S50x100x128) ![34, 0, 0] S1x100x128.size inb_S50x100x128_S1x100x128_34_0_0).toLoadRect (harg1.unread x0))
        (View.readAt (Elt F) arg2.view (Rect.unit (s := S50x1x100) ![34, 0, 0] S1x1x100.size inb_S50x1x100_S1x1x100_34_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![34, 0] S1x128.size inb_S50x128_S1x128_34_0).emb x) := by
  have hx0 : (x 0).val = 0 := by have h : (x 0).val < 1 := (x 0).isLt; omega
  have h0 : (((Rect.unit (s := S50x128) ![34, 0] S1x128.size inb_S50x128_S1x128_34_0).emb x) 0 : Fin 50) = ⟨34, by decide⟩ :=
    Fin.ext (by show 34 + 1 * (x 0).val = 34; omega)
  have h1 : (((Rect.unit (s := S50x128) ![34, 0] S1x128.size inb_S50x128_S1x128_34_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![34, 0, 0] S1x100x128.size inb_S50x100x128_S1x100x128_34_0_0).toLoadRect (harg1.unread x0))
        (View.readAt (Elt F) arg2.view (Rect.unit (s := S50x1x100) ![34, 0, 0] S1x1x100.size inb_S50x1x100_S1x1x100_34_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_35 (x : S1x128.Idx) : (row (View.readAt (Elt F) arg1.view (Rect.unit (s := S50x100x128) ![35, 0, 0] S1x100x128.size inb_S50x100x128_S1x100x128_35_0_0).toLoadRect (harg1.unread x0))
        (View.readAt (Elt F) arg2.view (Rect.unit (s := S50x1x100) ![35, 0, 0] S1x1x100.size inb_S50x1x100_S1x1x100_35_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![35, 0] S1x128.size inb_S50x128_S1x128_35_0).emb x) := by
  have hx0 : (x 0).val = 0 := by have h : (x 0).val < 1 := (x 0).isLt; omega
  have h0 : (((Rect.unit (s := S50x128) ![35, 0] S1x128.size inb_S50x128_S1x128_35_0).emb x) 0 : Fin 50) = ⟨35, by decide⟩ :=
    Fin.ext (by show 35 + 1 * (x 0).val = 35; omega)
  have h1 : (((Rect.unit (s := S50x128) ![35, 0] S1x128.size inb_S50x128_S1x128_35_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![35, 0, 0] S1x100x128.size inb_S50x100x128_S1x100x128_35_0_0).toLoadRect (harg1.unread x0))
        (View.readAt (Elt F) arg2.view (Rect.unit (s := S50x1x100) ![35, 0, 0] S1x1x100.size inb_S50x1x100_S1x1x100_35_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_36 (x : S1x128.Idx) : (row (View.readAt (Elt F) arg1.view (Rect.unit (s := S50x100x128) ![36, 0, 0] S1x100x128.size inb_S50x100x128_S1x100x128_36_0_0).toLoadRect (harg1.unread x0))
        (View.readAt (Elt F) arg2.view (Rect.unit (s := S50x1x100) ![36, 0, 0] S1x1x100.size inb_S50x1x100_S1x1x100_36_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![36, 0] S1x128.size inb_S50x128_S1x128_36_0).emb x) := by
  have hx0 : (x 0).val = 0 := by have h : (x 0).val < 1 := (x 0).isLt; omega
  have h0 : (((Rect.unit (s := S50x128) ![36, 0] S1x128.size inb_S50x128_S1x128_36_0).emb x) 0 : Fin 50) = ⟨36, by decide⟩ :=
    Fin.ext (by show 36 + 1 * (x 0).val = 36; omega)
  have h1 : (((Rect.unit (s := S50x128) ![36, 0] S1x128.size inb_S50x128_S1x128_36_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![36, 0, 0] S1x100x128.size inb_S50x100x128_S1x100x128_36_0_0).toLoadRect (harg1.unread x0))
        (View.readAt (Elt F) arg2.view (Rect.unit (s := S50x1x100) ![36, 0, 0] S1x1x100.size inb_S50x1x100_S1x1x100_36_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_37 (x : S1x128.Idx) : (row (View.readAt (Elt F) arg1.view (Rect.unit (s := S50x100x128) ![37, 0, 0] S1x100x128.size inb_S50x100x128_S1x100x128_37_0_0).toLoadRect (harg1.unread x0))
        (View.readAt (Elt F) arg2.view (Rect.unit (s := S50x1x100) ![37, 0, 0] S1x1x100.size inb_S50x1x100_S1x1x100_37_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![37, 0] S1x128.size inb_S50x128_S1x128_37_0).emb x) := by
  have hx0 : (x 0).val = 0 := by have h : (x 0).val < 1 := (x 0).isLt; omega
  have h0 : (((Rect.unit (s := S50x128) ![37, 0] S1x128.size inb_S50x128_S1x128_37_0).emb x) 0 : Fin 50) = ⟨37, by decide⟩ :=
    Fin.ext (by show 37 + 1 * (x 0).val = 37; omega)
  have h1 : (((Rect.unit (s := S50x128) ![37, 0] S1x128.size inb_S50x128_S1x128_37_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![37, 0, 0] S1x100x128.size inb_S50x100x128_S1x100x128_37_0_0).toLoadRect (harg1.unread x0))
        (View.readAt (Elt F) arg2.view (Rect.unit (s := S50x1x100) ![37, 0, 0] S1x1x100.size inb_S50x1x100_S1x1x100_37_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_38 (x : S1x128.Idx) : (row (View.readAt (Elt F) arg1.view (Rect.unit (s := S50x100x128) ![38, 0, 0] S1x100x128.size inb_S50x100x128_S1x100x128_38_0_0).toLoadRect (harg1.unread x0))
        (View.readAt (Elt F) arg2.view (Rect.unit (s := S50x1x100) ![38, 0, 0] S1x1x100.size inb_S50x1x100_S1x1x100_38_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![38, 0] S1x128.size inb_S50x128_S1x128_38_0).emb x) := by
  have hx0 : (x 0).val = 0 := by have h : (x 0).val < 1 := (x 0).isLt; omega
  have h0 : (((Rect.unit (s := S50x128) ![38, 0] S1x128.size inb_S50x128_S1x128_38_0).emb x) 0 : Fin 50) = ⟨38, by decide⟩ :=
    Fin.ext (by show 38 + 1 * (x 0).val = 38; omega)
  have h1 : (((Rect.unit (s := S50x128) ![38, 0] S1x128.size inb_S50x128_S1x128_38_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![38, 0, 0] S1x100x128.size inb_S50x100x128_S1x100x128_38_0_0).toLoadRect (harg1.unread x0))
        (View.readAt (Elt F) arg2.view (Rect.unit (s := S50x1x100) ![38, 0, 0] S1x1x100.size inb_S50x1x100_S1x1x100_38_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_39 (x : S1x128.Idx) : (row (View.readAt (Elt F) arg1.view (Rect.unit (s := S50x100x128) ![39, 0, 0] S1x100x128.size inb_S50x100x128_S1x100x128_39_0_0).toLoadRect (harg1.unread x0))
        (View.readAt (Elt F) arg2.view (Rect.unit (s := S50x1x100) ![39, 0, 0] S1x1x100.size inb_S50x1x100_S1x1x100_39_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![39, 0] S1x128.size inb_S50x128_S1x128_39_0).emb x) := by
  have hx0 : (x 0).val = 0 := by have h : (x 0).val < 1 := (x 0).isLt; omega
  have h0 : (((Rect.unit (s := S50x128) ![39, 0] S1x128.size inb_S50x128_S1x128_39_0).emb x) 0 : Fin 50) = ⟨39, by decide⟩ :=
    Fin.ext (by show 39 + 1 * (x 0).val = 39; omega)
  have h1 : (((Rect.unit (s := S50x128) ![39, 0] S1x128.size inb_S50x128_S1x128_39_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![39, 0, 0] S1x100x128.size inb_S50x100x128_S1x100x128_39_0_0).toLoadRect (harg1.unread x0))
        (View.readAt (Elt F) arg2.view (Rect.unit (s := S50x1x100) ![39, 0, 0] S1x1x100.size inb_S50x1x100_S1x1x100_39_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_40 (x : S1x128.Idx) : (row (View.readAt (Elt F) arg1.view (Rect.unit (s := S50x100x128) ![40, 0, 0] S1x100x128.size inb_S50x100x128_S1x100x128_40_0_0).toLoadRect (harg1.unread x0))
        (View.readAt (Elt F) arg2.view (Rect.unit (s := S50x1x100) ![40, 0, 0] S1x1x100.size inb_S50x1x100_S1x1x100_40_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![40, 0] S1x128.size inb_S50x128_S1x128_40_0).emb x) := by
  have hx0 : (x 0).val = 0 := by have h : (x 0).val < 1 := (x 0).isLt; omega
  have h0 : (((Rect.unit (s := S50x128) ![40, 0] S1x128.size inb_S50x128_S1x128_40_0).emb x) 0 : Fin 50) = ⟨40, by decide⟩ :=
    Fin.ext (by show 40 + 1 * (x 0).val = 40; omega)
  have h1 : (((Rect.unit (s := S50x128) ![40, 0] S1x128.size inb_S50x128_S1x128_40_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![40, 0, 0] S1x100x128.size inb_S50x100x128_S1x100x128_40_0_0).toLoadRect (harg1.unread x0))
        (View.readAt (Elt F) arg2.view (Rect.unit (s := S50x1x100) ![40, 0, 0] S1x1x100.size inb_S50x1x100_S1x1x100_40_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_41 (x : S1x128.Idx) : (row (View.readAt (Elt F) arg1.view (Rect.unit (s := S50x100x128) ![41, 0, 0] S1x100x128.size inb_S50x100x128_S1x100x128_41_0_0).toLoadRect (harg1.unread x0))
        (View.readAt (Elt F) arg2.view (Rect.unit (s := S50x1x100) ![41, 0, 0] S1x1x100.size inb_S50x1x100_S1x1x100_41_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![41, 0] S1x128.size inb_S50x128_S1x128_41_0).emb x) := by
  have hx0 : (x 0).val = 0 := by have h : (x 0).val < 1 := (x 0).isLt; omega
  have h0 : (((Rect.unit (s := S50x128) ![41, 0] S1x128.size inb_S50x128_S1x128_41_0).emb x) 0 : Fin 50) = ⟨41, by decide⟩ :=
    Fin.ext (by show 41 + 1 * (x 0).val = 41; omega)
  have h1 : (((Rect.unit (s := S50x128) ![41, 0] S1x128.size inb_S50x128_S1x128_41_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![41, 0, 0] S1x100x128.size inb_S50x100x128_S1x100x128_41_0_0).toLoadRect (harg1.unread x0))
        (View.readAt (Elt F) arg2.view (Rect.unit (s := S50x1x100) ![41, 0, 0] S1x1x100.size inb_S50x1x100_S1x1x100_41_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_42 (x : S1x128.Idx) : (row (View.readAt (Elt F) arg1.view (Rect.unit (s := S50x100x128) ![42, 0, 0] S1x100x128.size inb_S50x100x128_S1x100x128_42_0_0).toLoadRect (harg1.unread x0))
        (View.readAt (Elt F) arg2.view (Rect.unit (s := S50x1x100) ![42, 0, 0] S1x1x100.size inb_S50x1x100_S1x1x100_42_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![42, 0] S1x128.size inb_S50x128_S1x128_42_0).emb x) := by
  have hx0 : (x 0).val = 0 := by have h : (x 0).val < 1 := (x 0).isLt; omega
  have h0 : (((Rect.unit (s := S50x128) ![42, 0] S1x128.size inb_S50x128_S1x128_42_0).emb x) 0 : Fin 50) = ⟨42, by decide⟩ :=
    Fin.ext (by show 42 + 1 * (x 0).val = 42; omega)
  have h1 : (((Rect.unit (s := S50x128) ![42, 0] S1x128.size inb_S50x128_S1x128_42_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![42, 0, 0] S1x100x128.size inb_S50x100x128_S1x100x128_42_0_0).toLoadRect (harg1.unread x0))
        (View.readAt (Elt F) arg2.view (Rect.unit (s := S50x1x100) ![42, 0, 0] S1x1x100.size inb_S50x1x100_S1x1x100_42_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_43 (x : S1x128.Idx) : (row (View.readAt (Elt F) arg1.view (Rect.unit (s := S50x100x128) ![43, 0, 0] S1x100x128.size inb_S50x100x128_S1x100x128_43_0_0).toLoadRect (harg1.unread x0))
        (View.readAt (Elt F) arg2.view (Rect.unit (s := S50x1x100) ![43, 0, 0] S1x1x100.size inb_S50x1x100_S1x1x100_43_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![43, 0] S1x128.size inb_S50x128_S1x128_43_0).emb x) := by
  have hx0 : (x 0).val = 0 := by have h : (x 0).val < 1 := (x 0).isLt; omega
  have h0 : (((Rect.unit (s := S50x128) ![43, 0] S1x128.size inb_S50x128_S1x128_43_0).emb x) 0 : Fin 50) = ⟨43, by decide⟩ :=
    Fin.ext (by show 43 + 1 * (x 0).val = 43; omega)
  have h1 : (((Rect.unit (s := S50x128) ![43, 0] S1x128.size inb_S50x128_S1x128_43_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![43, 0, 0] S1x100x128.size inb_S50x100x128_S1x100x128_43_0_0).toLoadRect (harg1.unread x0))
        (View.readAt (Elt F) arg2.view (Rect.unit (s := S50x1x100) ![43, 0, 0] S1x1x100.size inb_S50x1x100_S1x1x100_43_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_44 (x : S1x128.Idx) : (row (View.readAt (Elt F) arg1.view (Rect.unit (s := S50x100x128) ![44, 0, 0] S1x100x128.size inb_S50x100x128_S1x100x128_44_0_0).toLoadRect (harg1.unread x0))
        (View.readAt (Elt F) arg2.view (Rect.unit (s := S50x1x100) ![44, 0, 0] S1x1x100.size inb_S50x1x100_S1x1x100_44_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![44, 0] S1x128.size inb_S50x128_S1x128_44_0).emb x) := by
  have hx0 : (x 0).val = 0 := by have h : (x 0).val < 1 := (x 0).isLt; omega
  have h0 : (((Rect.unit (s := S50x128) ![44, 0] S1x128.size inb_S50x128_S1x128_44_0).emb x) 0 : Fin 50) = ⟨44, by decide⟩ :=
    Fin.ext (by show 44 + 1 * (x 0).val = 44; omega)
  have h1 : (((Rect.unit (s := S50x128) ![44, 0] S1x128.size inb_S50x128_S1x128_44_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![44, 0, 0] S1x100x128.size inb_S50x100x128_S1x100x128_44_0_0).toLoadRect (harg1.unread x0))
        (View.readAt (Elt F) arg2.view (Rect.unit (s := S50x1x100) ![44, 0, 0] S1x1x100.size inb_S50x1x100_S1x1x100_44_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_45 (x : S1x128.Idx) : (row (View.readAt (Elt F) arg1.view (Rect.unit (s := S50x100x128) ![45, 0, 0] S1x100x128.size inb_S50x100x128_S1x100x128_45_0_0).toLoadRect (harg1.unread x0))
        (View.readAt (Elt F) arg2.view (Rect.unit (s := S50x1x100) ![45, 0, 0] S1x1x100.size inb_S50x1x100_S1x1x100_45_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![45, 0] S1x128.size inb_S50x128_S1x128_45_0).emb x) := by
  have hx0 : (x 0).val = 0 := by have h : (x 0).val < 1 := (x 0).isLt; omega
  have h0 : (((Rect.unit (s := S50x128) ![45, 0] S1x128.size inb_S50x128_S1x128_45_0).emb x) 0 : Fin 50) = ⟨45, by decide⟩ :=
    Fin.ext (by show 45 + 1 * (x 0).val = 45; omega)
  have h1 : (((Rect.unit (s := S50x128) ![45, 0] S1x128.size inb_S50x128_S1x128_45_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![45, 0, 0] S1x100x128.size inb_S50x100x128_S1x100x128_45_0_0).toLoadRect (harg1.unread x0))
        (View.readAt (Elt F) arg2.view (Rect.unit (s := S50x1x100) ![45, 0, 0] S1x1x100.size inb_S50x1x100_S1x1x100_45_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_46 (x : S1x128.Idx) : (row (View.readAt (Elt F) arg1.view (Rect.unit (s := S50x100x128) ![46, 0, 0] S1x100x128.size inb_S50x100x128_S1x100x128_46_0_0).toLoadRect (harg1.unread x0))
        (View.readAt (Elt F) arg2.view (Rect.unit (s := S50x1x100) ![46, 0, 0] S1x1x100.size inb_S50x1x100_S1x1x100_46_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![46, 0] S1x128.size inb_S50x128_S1x128_46_0).emb x) := by
  have hx0 : (x 0).val = 0 := by have h : (x 0).val < 1 := (x 0).isLt; omega
  have h0 : (((Rect.unit (s := S50x128) ![46, 0] S1x128.size inb_S50x128_S1x128_46_0).emb x) 0 : Fin 50) = ⟨46, by decide⟩ :=
    Fin.ext (by show 46 + 1 * (x 0).val = 46; omega)
  have h1 : (((Rect.unit (s := S50x128) ![46, 0] S1x128.size inb_S50x128_S1x128_46_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![46, 0, 0] S1x100x128.size inb_S50x100x128_S1x100x128_46_0_0).toLoadRect (harg1.unread x0))
        (View.readAt (Elt F) arg2.view (Rect.unit (s := S50x1x100) ![46, 0, 0] S1x1x100.size inb_S50x1x100_S1x1x100_46_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_47 (x : S1x128.Idx) : (row (View.readAt (Elt F) arg1.view (Rect.unit (s := S50x100x128) ![47, 0, 0] S1x100x128.size inb_S50x100x128_S1x100x128_47_0_0).toLoadRect (harg1.unread x0))
        (View.readAt (Elt F) arg2.view (Rect.unit (s := S50x1x100) ![47, 0, 0] S1x1x100.size inb_S50x1x100_S1x1x100_47_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![47, 0] S1x128.size inb_S50x128_S1x128_47_0).emb x) := by
  have hx0 : (x 0).val = 0 := by have h : (x 0).val < 1 := (x 0).isLt; omega
  have h0 : (((Rect.unit (s := S50x128) ![47, 0] S1x128.size inb_S50x128_S1x128_47_0).emb x) 0 : Fin 50) = ⟨47, by decide⟩ :=
    Fin.ext (by show 47 + 1 * (x 0).val = 47; omega)
  have h1 : (((Rect.unit (s := S50x128) ![47, 0] S1x128.size inb_S50x128_S1x128_47_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![47, 0, 0] S1x100x128.size inb_S50x100x128_S1x100x128_47_0_0).toLoadRect (harg1.unread x0))
        (View.readAt (Elt F) arg2.view (Rect.unit (s := S50x1x100) ![47, 0, 0] S1x1x100.size inb_S50x1x100_S1x1x100_47_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_48 (x : S1x128.Idx) : (row (View.readAt (Elt F) arg1.view (Rect.unit (s := S50x100x128) ![48, 0, 0] S1x100x128.size inb_S50x100x128_S1x100x128_48_0_0).toLoadRect (harg1.unread x0))
        (View.readAt (Elt F) arg2.view (Rect.unit (s := S50x1x100) ![48, 0, 0] S1x1x100.size inb_S50x1x100_S1x1x100_48_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![48, 0] S1x128.size inb_S50x128_S1x128_48_0).emb x) := by
  have hx0 : (x 0).val = 0 := by have h : (x 0).val < 1 := (x 0).isLt; omega
  have h0 : (((Rect.unit (s := S50x128) ![48, 0] S1x128.size inb_S50x128_S1x128_48_0).emb x) 0 : Fin 50) = ⟨48, by decide⟩ :=
    Fin.ext (by show 48 + 1 * (x 0).val = 48; omega)
  have h1 : (((Rect.unit (s := S50x128) ![48, 0] S1x128.size inb_S50x128_S1x128_48_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![48, 0, 0] S1x100x128.size inb_S50x100x128_S1x100x128_48_0_0).toLoadRect (harg1.unread x0))
        (View.readAt (Elt F) arg2.view (Rect.unit (s := S50x1x100) ![48, 0, 0] S1x1x100.size inb_S50x1x100_S1x1x100_48_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

theorem piece_49 (x : S1x128.Idx) : (row (View.readAt (Elt F) arg1.view (Rect.unit (s := S50x100x128) ![49, 0, 0] S1x100x128.size inb_S50x100x128_S1x100x128_49_0_0).toLoadRect (harg1.unread x0))
        (View.readAt (Elt F) arg2.view (Rect.unit (s := S50x1x100) ![49, 0, 0] S1x1x100.size inb_S50x1x100_S1x1x100_49_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) x
    = pooledAt arg1 harg1 arg2 harg2 arg3 harg3 arg4 harg4 arg5 harg5 arg6 harg6 arg7 harg7 arg8 harg8 arg9 harg9 arg10 harg10 x0 x1 x2 x3 x4 x5 x6 x7 x8 x9 ((Rect.unit (s := S50x128) ![49, 0] S1x128.size inb_S50x128_S1x128_49_0).emb x) := by
  have hx0 : (x 0).val = 0 := by have h : (x 0).val < 1 := (x 0).isLt; omega
  have h0 : (((Rect.unit (s := S50x128) ![49, 0] S1x128.size inb_S50x128_S1x128_49_0).emb x) 0 : Fin 50) = ⟨49, by decide⟩ :=
    Fin.ext (by show 49 + 1 * (x 0).val = 49; omega)
  have h1 : (((Rect.unit (s := S50x128) ![49, 0] S1x128.size inb_S50x128_S1x128_49_0).emb x) 1 : Fin 128) = x 1 :=
    Fin.ext (by show 0 + 1 * (x 1).val = (x 1).val; omega)
  have hx : x = ValueIdx.ix2 (0 : Fin 1) (x 1 : Fin 128) := by
    funext a
    match a with
    | ⟨0, _⟩ => exact Fin.ext hx0
    | ⟨1, _⟩ => rfl
  refine Eq.trans ?_ (congrArg₂ (pooledRC arg1 harg1 arg2 harg2 arg3 harg3 arg4 harg4 arg5 harg5 arg6 harg6 arg7 harg7 arg8 harg8 arg9 harg9 arg10 harg10 x0 x1 x2 x3 x4 x5 x6 x7 x8 x9) h0.symm h1.symm)
  refine Eq.trans (congrArg (row (View.readAt (Elt F) arg1.view (Rect.unit (s := S50x100x128) ![49, 0, 0] S1x100x128.size inb_S50x100x128_S1x100x128_49_0_0).toLoadRect (harg1.unread x0))
        (View.readAt (Elt F) arg2.view (Rect.unit (s := S50x1x100) ![49, 0, 0] S1x1x100.size inb_S50x1x100_S1x1x100_49_0_0).toLoadRect (harg2.unread x1))
        (ldW arg3 harg3 x2) (ldW arg5 harg5 x4) (ldW arg7 harg7 x6) (ldW arg9 harg9 x8)
        (ldB arg4 harg4 x3) (ldB arg6 harg6 x5) (ldB arg8 harg8 x7) (ldB arg10 harg10 x9)) hx) ?_
  rfl

/-- Every stored piece is `pooledAt` read through its rectangle. -/
theorem pool_pieces : ∀ p ∈ kernelRun0_A.sl.HS0_50 (F := F) c arg1 harg1 arg2 harg2 arg3 harg3 arg4 harg4 arg5 harg5 arg6 harg6 arg7 harg7 arg8 harg8 arg9 harg9 arg10 harg10 x0 x1 x2 x3 x4 x5 x6 x7 x8 x9, ∀ x : p.1.shape.Idx,
    p.2 x = pooledAt arg1 harg1 arg2 harg2 arg3 harg3 arg4 harg4 arg5 harg5 arg6 harg6 arg7 harg7 arg8 harg8 arg9 harg9 arg10 harg10 x0 x1 x2 x3 x4 x5 x6 x7 x8 x9 (p.1.emb x) := by
  unfold kernelRun0_A.sl.HS0_50
  intro p hp
  rw [List.mem_cons] at hp
  rcases hp with rfl | hp
  · exact fun x => (congrFun (row_49 c arg1 harg1 arg2 harg2 arg3 harg3 arg4 harg4 arg5 harg5 arg6 harg6 arg7 harg7 arg8 harg8 arg9 harg9 arg10 harg10 x0 x1 x2 x3 x4 x5 x6 x7 x8 x9) x).trans (piece_49 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_48 c arg1 harg1 arg2 harg2 arg3 harg3 arg4 harg4 arg5 harg5 arg6 harg6 arg7 harg7 arg8 harg8 arg9 harg9 arg10 harg10 x0 x1 x2 x3 x4 x5 x6 x7 x8 x9) x).trans (piece_48 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_47 c arg1 harg1 arg2 harg2 arg3 harg3 arg4 harg4 arg5 harg5 arg6 harg6 arg7 harg7 arg8 harg8 arg9 harg9 arg10 harg10 x0 x1 x2 x3 x4 x5 x6 x7 x8 x9) x).trans (piece_47 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_46 c arg1 harg1 arg2 harg2 arg3 harg3 arg4 harg4 arg5 harg5 arg6 harg6 arg7 harg7 arg8 harg8 arg9 harg9 arg10 harg10 x0 x1 x2 x3 x4 x5 x6 x7 x8 x9) x).trans (piece_46 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_45 c arg1 harg1 arg2 harg2 arg3 harg3 arg4 harg4 arg5 harg5 arg6 harg6 arg7 harg7 arg8 harg8 arg9 harg9 arg10 harg10 x0 x1 x2 x3 x4 x5 x6 x7 x8 x9) x).trans (piece_45 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_44 c arg1 harg1 arg2 harg2 arg3 harg3 arg4 harg4 arg5 harg5 arg6 harg6 arg7 harg7 arg8 harg8 arg9 harg9 arg10 harg10 x0 x1 x2 x3 x4 x5 x6 x7 x8 x9) x).trans (piece_44 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_43 c arg1 harg1 arg2 harg2 arg3 harg3 arg4 harg4 arg5 harg5 arg6 harg6 arg7 harg7 arg8 harg8 arg9 harg9 arg10 harg10 x0 x1 x2 x3 x4 x5 x6 x7 x8 x9) x).trans (piece_43 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_42 c arg1 harg1 arg2 harg2 arg3 harg3 arg4 harg4 arg5 harg5 arg6 harg6 arg7 harg7 arg8 harg8 arg9 harg9 arg10 harg10 x0 x1 x2 x3 x4 x5 x6 x7 x8 x9) x).trans (piece_42 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_41 c arg1 harg1 arg2 harg2 arg3 harg3 arg4 harg4 arg5 harg5 arg6 harg6 arg7 harg7 arg8 harg8 arg9 harg9 arg10 harg10 x0 x1 x2 x3 x4 x5 x6 x7 x8 x9) x).trans (piece_41 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_40 c arg1 harg1 arg2 harg2 arg3 harg3 arg4 harg4 arg5 harg5 arg6 harg6 arg7 harg7 arg8 harg8 arg9 harg9 arg10 harg10 x0 x1 x2 x3 x4 x5 x6 x7 x8 x9) x).trans (piece_40 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_39 c arg1 harg1 arg2 harg2 arg3 harg3 arg4 harg4 arg5 harg5 arg6 harg6 arg7 harg7 arg8 harg8 arg9 harg9 arg10 harg10 x0 x1 x2 x3 x4 x5 x6 x7 x8 x9) x).trans (piece_39 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_38 c arg1 harg1 arg2 harg2 arg3 harg3 arg4 harg4 arg5 harg5 arg6 harg6 arg7 harg7 arg8 harg8 arg9 harg9 arg10 harg10 x0 x1 x2 x3 x4 x5 x6 x7 x8 x9) x).trans (piece_38 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_37 c arg1 harg1 arg2 harg2 arg3 harg3 arg4 harg4 arg5 harg5 arg6 harg6 arg7 harg7 arg8 harg8 arg9 harg9 arg10 harg10 x0 x1 x2 x3 x4 x5 x6 x7 x8 x9) x).trans (piece_37 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_36 c arg1 harg1 arg2 harg2 arg3 harg3 arg4 harg4 arg5 harg5 arg6 harg6 arg7 harg7 arg8 harg8 arg9 harg9 arg10 harg10 x0 x1 x2 x3 x4 x5 x6 x7 x8 x9) x).trans (piece_36 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_35 c arg1 harg1 arg2 harg2 arg3 harg3 arg4 harg4 arg5 harg5 arg6 harg6 arg7 harg7 arg8 harg8 arg9 harg9 arg10 harg10 x0 x1 x2 x3 x4 x5 x6 x7 x8 x9) x).trans (piece_35 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_34 c arg1 harg1 arg2 harg2 arg3 harg3 arg4 harg4 arg5 harg5 arg6 harg6 arg7 harg7 arg8 harg8 arg9 harg9 arg10 harg10 x0 x1 x2 x3 x4 x5 x6 x7 x8 x9) x).trans (piece_34 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_33 c arg1 harg1 arg2 harg2 arg3 harg3 arg4 harg4 arg5 harg5 arg6 harg6 arg7 harg7 arg8 harg8 arg9 harg9 arg10 harg10 x0 x1 x2 x3 x4 x5 x6 x7 x8 x9) x).trans (piece_33 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_32 c arg1 harg1 arg2 harg2 arg3 harg3 arg4 harg4 arg5 harg5 arg6 harg6 arg7 harg7 arg8 harg8 arg9 harg9 arg10 harg10 x0 x1 x2 x3 x4 x5 x6 x7 x8 x9) x).trans (piece_32 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_31 c arg1 harg1 arg2 harg2 arg3 harg3 arg4 harg4 arg5 harg5 arg6 harg6 arg7 harg7 arg8 harg8 arg9 harg9 arg10 harg10 x0 x1 x2 x3 x4 x5 x6 x7 x8 x9) x).trans (piece_31 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_30 c arg1 harg1 arg2 harg2 arg3 harg3 arg4 harg4 arg5 harg5 arg6 harg6 arg7 harg7 arg8 harg8 arg9 harg9 arg10 harg10 x0 x1 x2 x3 x4 x5 x6 x7 x8 x9) x).trans (piece_30 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_29 c arg1 harg1 arg2 harg2 arg3 harg3 arg4 harg4 arg5 harg5 arg6 harg6 arg7 harg7 arg8 harg8 arg9 harg9 arg10 harg10 x0 x1 x2 x3 x4 x5 x6 x7 x8 x9) x).trans (piece_29 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_28 c arg1 harg1 arg2 harg2 arg3 harg3 arg4 harg4 arg5 harg5 arg6 harg6 arg7 harg7 arg8 harg8 arg9 harg9 arg10 harg10 x0 x1 x2 x3 x4 x5 x6 x7 x8 x9) x).trans (piece_28 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_27 c arg1 harg1 arg2 harg2 arg3 harg3 arg4 harg4 arg5 harg5 arg6 harg6 arg7 harg7 arg8 harg8 arg9 harg9 arg10 harg10 x0 x1 x2 x3 x4 x5 x6 x7 x8 x9) x).trans (piece_27 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_26 c arg1 harg1 arg2 harg2 arg3 harg3 arg4 harg4 arg5 harg5 arg6 harg6 arg7 harg7 arg8 harg8 arg9 harg9 arg10 harg10 x0 x1 x2 x3 x4 x5 x6 x7 x8 x9) x).trans (piece_26 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_25 c arg1 harg1 arg2 harg2 arg3 harg3 arg4 harg4 arg5 harg5 arg6 harg6 arg7 harg7 arg8 harg8 arg9 harg9 arg10 harg10 x0 x1 x2 x3 x4 x5 x6 x7 x8 x9) x).trans (piece_25 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_24 c arg1 harg1 arg2 harg2 arg3 harg3 arg4 harg4 arg5 harg5 arg6 harg6 arg7 harg7 arg8 harg8 arg9 harg9 arg10 harg10 x0 x1 x2 x3 x4 x5 x6 x7 x8 x9) x).trans (piece_24 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_23 c arg1 harg1 arg2 harg2 arg3 harg3 arg4 harg4 arg5 harg5 arg6 harg6 arg7 harg7 arg8 harg8 arg9 harg9 arg10 harg10 x0 x1 x2 x3 x4 x5 x6 x7 x8 x9) x).trans (piece_23 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_22 c arg1 harg1 arg2 harg2 arg3 harg3 arg4 harg4 arg5 harg5 arg6 harg6 arg7 harg7 arg8 harg8 arg9 harg9 arg10 harg10 x0 x1 x2 x3 x4 x5 x6 x7 x8 x9) x).trans (piece_22 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_21 c arg1 harg1 arg2 harg2 arg3 harg3 arg4 harg4 arg5 harg5 arg6 harg6 arg7 harg7 arg8 harg8 arg9 harg9 arg10 harg10 x0 x1 x2 x3 x4 x5 x6 x7 x8 x9) x).trans (piece_21 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_20 c arg1 harg1 arg2 harg2 arg3 harg3 arg4 harg4 arg5 harg5 arg6 harg6 arg7 harg7 arg8 harg8 arg9 harg9 arg10 harg10 x0 x1 x2 x3 x4 x5 x6 x7 x8 x9) x).trans (piece_20 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_19 c arg1 harg1 arg2 harg2 arg3 harg3 arg4 harg4 arg5 harg5 arg6 harg6 arg7 harg7 arg8 harg8 arg9 harg9 arg10 harg10 x0 x1 x2 x3 x4 x5 x6 x7 x8 x9) x).trans (piece_19 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_18 c arg1 harg1 arg2 harg2 arg3 harg3 arg4 harg4 arg5 harg5 arg6 harg6 arg7 harg7 arg8 harg8 arg9 harg9 arg10 harg10 x0 x1 x2 x3 x4 x5 x6 x7 x8 x9) x).trans (piece_18 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_17 c arg1 harg1 arg2 harg2 arg3 harg3 arg4 harg4 arg5 harg5 arg6 harg6 arg7 harg7 arg8 harg8 arg9 harg9 arg10 harg10 x0 x1 x2 x3 x4 x5 x6 x7 x8 x9) x).trans (piece_17 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_16 c arg1 harg1 arg2 harg2 arg3 harg3 arg4 harg4 arg5 harg5 arg6 harg6 arg7 harg7 arg8 harg8 arg9 harg9 arg10 harg10 x0 x1 x2 x3 x4 x5 x6 x7 x8 x9) x).trans (piece_16 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_15 c arg1 harg1 arg2 harg2 arg3 harg3 arg4 harg4 arg5 harg5 arg6 harg6 arg7 harg7 arg8 harg8 arg9 harg9 arg10 harg10 x0 x1 x2 x3 x4 x5 x6 x7 x8 x9) x).trans (piece_15 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_14 c arg1 harg1 arg2 harg2 arg3 harg3 arg4 harg4 arg5 harg5 arg6 harg6 arg7 harg7 arg8 harg8 arg9 harg9 arg10 harg10 x0 x1 x2 x3 x4 x5 x6 x7 x8 x9) x).trans (piece_14 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_13 c arg1 harg1 arg2 harg2 arg3 harg3 arg4 harg4 arg5 harg5 arg6 harg6 arg7 harg7 arg8 harg8 arg9 harg9 arg10 harg10 x0 x1 x2 x3 x4 x5 x6 x7 x8 x9) x).trans (piece_13 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_12 c arg1 harg1 arg2 harg2 arg3 harg3 arg4 harg4 arg5 harg5 arg6 harg6 arg7 harg7 arg8 harg8 arg9 harg9 arg10 harg10 x0 x1 x2 x3 x4 x5 x6 x7 x8 x9) x).trans (piece_12 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_11 c arg1 harg1 arg2 harg2 arg3 harg3 arg4 harg4 arg5 harg5 arg6 harg6 arg7 harg7 arg8 harg8 arg9 harg9 arg10 harg10 x0 x1 x2 x3 x4 x5 x6 x7 x8 x9) x).trans (piece_11 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_10 c arg1 harg1 arg2 harg2 arg3 harg3 arg4 harg4 arg5 harg5 arg6 harg6 arg7 harg7 arg8 harg8 arg9 harg9 arg10 harg10 x0 x1 x2 x3 x4 x5 x6 x7 x8 x9) x).trans (piece_10 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_9 c arg1 harg1 arg2 harg2 arg3 harg3 arg4 harg4 arg5 harg5 arg6 harg6 arg7 harg7 arg8 harg8 arg9 harg9 arg10 harg10 x0 x1 x2 x3 x4 x5 x6 x7 x8 x9) x).trans (piece_9 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_8 c arg1 harg1 arg2 harg2 arg3 harg3 arg4 harg4 arg5 harg5 arg6 harg6 arg7 harg7 arg8 harg8 arg9 harg9 arg10 harg10 x0 x1 x2 x3 x4 x5 x6 x7 x8 x9) x).trans (piece_8 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_7 c arg1 harg1 arg2 harg2 arg3 harg3 arg4 harg4 arg5 harg5 arg6 harg6 arg7 harg7 arg8 harg8 arg9 harg9 arg10 harg10 x0 x1 x2 x3 x4 x5 x6 x7 x8 x9) x).trans (piece_7 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_6 c arg1 harg1 arg2 harg2 arg3 harg3 arg4 harg4 arg5 harg5 arg6 harg6 arg7 harg7 arg8 harg8 arg9 harg9 arg10 harg10 x0 x1 x2 x3 x4 x5 x6 x7 x8 x9) x).trans (piece_6 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_5 c arg1 harg1 arg2 harg2 arg3 harg3 arg4 harg4 arg5 harg5 arg6 harg6 arg7 harg7 arg8 harg8 arg9 harg9 arg10 harg10 x0 x1 x2 x3 x4 x5 x6 x7 x8 x9) x).trans (piece_5 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_4 c arg1 harg1 arg2 harg2 arg3 harg3 arg4 harg4 arg5 harg5 arg6 harg6 arg7 harg7 arg8 harg8 arg9 harg9 arg10 harg10 x0 x1 x2 x3 x4 x5 x6 x7 x8 x9) x).trans (piece_4 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_3 c arg1 harg1 arg2 harg2 arg3 harg3 arg4 harg4 arg5 harg5 arg6 harg6 arg7 harg7 arg8 harg8 arg9 harg9 arg10 harg10 x0 x1 x2 x3 x4 x5 x6 x7 x8 x9) x).trans (piece_3 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_2 c arg1 harg1 arg2 harg2 arg3 harg3 arg4 harg4 arg5 harg5 arg6 harg6 arg7 harg7 arg8 harg8 arg9 harg9 arg10 harg10 x0 x1 x2 x3 x4 x5 x6 x7 x8 x9) x).trans (piece_2 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_1 c arg1 harg1 arg2 harg2 arg3 harg3 arg4 harg4 arg5 harg5 arg6 harg6 arg7 harg7 arg8 harg8 arg9 harg9 arg10 harg10 x0 x1 x2 x3 x4 x5 x6 x7 x8 x9) x).trans (piece_1 arg1 harg1 arg2 harg2 arg3 harg3 arg4 harg4 arg5 harg5 arg6 harg6 arg7 harg7 arg8 harg8 arg9 harg9 arg10 harg10 x0 x1 x2 x3 x4 x5 x6 x7 x8 x9 x)
  rw [List.mem_cons] at hp
  rcases hp with rfl | hp
  · exact fun x => (congrFun (row_0 c arg1 harg1 arg2 harg2 arg3 harg3 arg4 harg4 arg5 harg5 arg6 harg6 arg7 harg7 arg8 harg8 arg9 harg9 arg10 harg10 x0 x1 x2 x3 x4 x5 x6 x7 x8 x9) x).trans (piece_0 arg1 harg1 arg2 harg2 arg3 harg3 arg4 harg4 arg5 harg5 arg6 harg6 arg7 harg7 arg8 harg8 arg9 harg9 arg10 harg10 x0 x1 x2 x3 x4 x5 x6 x7 x8 x9 x)
  exact absurd hp (List.not_mem_nil)

/-- The fifty row stores tile the scratch. -/
theorem pool_cover : ∀ y : S50x128.Idx, ∃ p ∈ kernelRun0_A.sl.HS0_50 (F := F) c arg1 harg1 arg2 harg2 arg3 harg3 arg4 harg4 arg5 harg5 arg6 harg6 arg7 harg7 arg8 harg8 arg9 harg9 arg10 harg10 x0 x1 x2 x3 x4 x5 x6 x7 x8 x9, y ∈ p.1.set :=
  View.cover_of_tiledL (kernelRun0_A.sl.HS0_50 (F := F) c arg1 harg1 arg2 harg2 arg3 harg3 arg4 harg4 arg5 harg5 arg6 harg6 arg7 harg7 arg8 harg8 arg9 harg9 arg10 harg10 x0 x1 x2 x3 x4 x5 x6 x7 x8 x9) S1x128.size (by sl_kernel_rfl)

/-- A load of the whole scratch after the fifty stores reads `pooledAt`. -/
theorem pool_read (arg16 : Memref sig .tc .vmem S50x128 .f32) :
    arg16.view.readCov (kernelRun0_A.sl.HS0_50 (F := F) c arg1 harg1 arg2 harg2 arg3 harg3 arg4 harg4 arg5 harg5 arg6 harg6 arg7 harg7 arg8 harg8 arg9 harg9 arg10 harg10 x0 x1 x2 x3 x4 x5 x6 x7 x8 x9)
      (Rect.unit (s := S50x128) ![0, 0] S50x128.size inb_S50x128_S50x128_0_0).toLoadRect = pooledAt arg1 harg1 arg2 harg2 arg3 harg3 arg4 harg4 arg5 harg5 arg6 harg6 arg7 harg7 arg8 harg8 arg9 harg9 arg10 harg10 x0 x1 x2 x3 x4 x5 x6 x7 x8 x9 := by
  rw [View.readCov_eq_canon']
  funext j
  have hj : (Rect.unit (s := S50x128) ![0, 0] S50x128.size inb_S50x128_S50x128_0_0).toLoadRect.idx j = j := by
    funext a
    match a with
    | ⟨0, _⟩ => exact Fin.ext (by show 0 + 1 * (j 0).val = (j 0).val; omega)
    | ⟨1, _⟩ => exact Fin.ext (by show 0 + 1 * (j 1).val = (j 1).val; omega)
  rw [hj]
  exact View.canon_apply_of_pieces (pooledAt arg1 harg1 arg2 harg2 arg3 harg3 arg4 harg4 arg5 harg5 arg6 harg6 arg7 harg7 arg8 harg8 arg9 harg9 arg10 harg10 x0 x1 x2 x3 x4 x5 x6 x7 x8 x9) _ (pool_pieces c arg1 harg1 arg2 harg2 arg3 harg3 arg4 harg4 arg5 harg5 arg6 harg6 arg7 harg7 arg8 harg8 arg9 harg9 arg10 harg10 x0 x1 x2 x3 x4 x5 x6 x7 x8 x9) j (pool_cover c arg1 harg1 arg2 harg2 arg3 harg3 arg4 harg4 arg5 harg5 arg6 harg6 arg7 harg7 arg8 harg8 arg9 harg9 arg10 harg10 x0 x1 x2 x3 x4 x5 x6 x7 x8 x9 j)

end Cert.KernelIdeal.Row

end
-- ==== Proof.KernelBlock.lean ====
/-
  What one grid point writes back. The body's single store to the result block [50, 1, 128] is the head applied to the
  pooled scratch, so the block is `head (pooledAt …)` of the point's input blocks; and each input block is the
  argument array read fifty graphs further down per grid point.
-/
import proofs.«176687_g19121194402273_cont_sun_m_853_29_alg».proof.Proof.KernelPool

noncomputable section

namespace Cert.KernelIdeal.Row

open Idealize.ShloMosaic Idealize.ShloMosaic.TcCoe Idealize.ShloMosaic.Tactic Idealize.ShloMosaic.ValueIdx Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The head: the scratch averaged, two dense layers, the result laid along the 128 lanes. -/
def head (p : Vec F S50x128 .f32) (w1 : Vec F S128x64 .f32) (b1 : Vec F S1x64 .f32) (w2 : Vec F S64x1 .f32) (b2 : Vec F S1x1 .f32) :
    FVec F S50x1x128 .f32 :=
  k0_pay1 (k0_pay1120 p w1 b1) w2 b2

section loads
variable (arg1 : Memref sig .tc .vmem S50x100x128 .f32) (harg1 : arg1.IsWhole) (arg2 : Memref sig .tc .vmem S50x1x100 .f32) (harg2 : arg2.IsWhole)
  (x0 : Vec F S50x100x128 .f32) (x1 : Vec F S50x1x100 .f32)

/-- Graph g's loaded node features are the block's rows of graph g. -/
theorem ldX_apply (g : Fin 50) (i : Fin 100) (k : Fin 128) : ldX arg1 harg1 x0 g (ix3 0 i k) = x0 (ix3 g i k) := by
  unfold ldX
  rw [View.readAt_eq_ld, harg1.read_unread]
  show x0 _ = x0 _
  refine congrArg x0 (funext fun a => Fin.ext ?_)
  match a with
  | ⟨0, _⟩ => show g.val + 1 * 0 = g.val; omega
  | ⟨1, _⟩ => show 0 + 1 * i.val = i.val; omega
  | ⟨2, _⟩ => show 0 + 1 * k.val = k.val; omega

/-- Graph g's loaded longitudes are the block's row of graph g. -/
theorem ldL_apply (g : Fin 50) (j : Fin 100) : ldL arg2 harg2 x1 g (ix3 0 0 j) = x1 (ix3 g 0 j) := by
  unfold ldL
  rw [View.readAt_eq_ld, harg2.read_unread]
  show x1 _ = x1 _
  refine congrArg x1 (funext fun a => Fin.ext ?_)
  match a with
  | ⟨0, _⟩ => show g.val + 1 * 0 = g.val; omega
  | ⟨1, _⟩ => show 0 + 1 * 0 = 0; omega
  | ⟨2, _⟩ => show 0 + 1 * j.val = j.val; omega

theorem ldW_eq (a : Memref sig .tc .vmem S128x128 .f32) (ha : a.IsWhole) (x : Vec F S128x128 .f32) : ldW a ha x = x := by
  unfold ldW
  rw [View.readAt_eq_ld, ha.read_unread, View.ld_unit_zero (S := S128x128) hz2]

theorem ldB_eq (a : Memref sig .tc .vmem S1x128 .f32) (ha : a.IsWhole) (x : Vec F S1x128 .f32) : ldB a ha x = x := by
  unfold ldB
  rw [View.readAt_eq_ld, ha.read_unread, View.ld_unit_zero (S := S1x128) hz2]

end loads

variable (m : (ℓ : Loc nD τ sig) → Buf (Elt F) ℓ)

/-- The block point `t` writes back: the head of the pooled scratch of the point's input blocks. -/
theorem block_eq (c : Dev nD) (t : Fin cfg0.N) :
    outsAt0 m c t = head
      (pooledAt (ms0_0 t) (hs0_0 t) (ms0_1 t) (hs0_1 t) (ms0_2 t) (hs0_2 t) (ms0_3 t) (hs0_3 t) (ms0_4 t) (hs0_4 t) (ms0_5 t) (hs0_5 t)
        (ms0_6 t) (hs0_6 t) (ms0_7 t) (hs0_7 t) (ms0_8 t) (hs0_8 t) (ms0_9 t) (hs0_9 t)
        (iblk m c 0 t) (iblk m c 1 t) (iblk m c 2 t) (iblk m c 3 t) (iblk m c 4 t) (iblk m c 5 t) (iblk m c 6 t) (iblk m c 7 t) (iblk m c 8 t) (iblk m c 9 t))
      (iblk m c 10 t) (iblk m c 11 t) (iblk m c 12 t) (iblk m c 13 t) := by
  unfold outsAt0
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _)]
  unfold kernelRun0_A
  dsimp only
  rw [View.canon_unit_zero hz3]
  unfold kernelRun0_A.sl.r_178 kernelRun0_A.sl.v7114
  rw [pool_read]
  unfold head
  simp only [View.readAt_eq_ld, (hs0_10 t).read_unread, (hs0_11 t).read_unread, (hs0_12 t).read_unread, (hs0_13 t).read_unread,
    View.ld_unit_zero (S := S128x64) hz2, View.ld_unit_zero (S := S1x64) hz2, View.ld_unit_zero (S := S64x1) hz2, View.ld_unit_zero (S := S1x1) hz2]

end Cert.KernelIdeal.Row

end
-- ==== Proof.KernelInputs.lean ====
/-
  The kernel's input windows read at an index: each window's block at a grid point is the matching part of an ARGUMENT
  array of the program. Windows 0 and 1 hold fifty graphs per grid point, so graph g of the block at point t is graph
  t · 50 + g of the argument; window 1 is the row of longitudes, feature 0 of the input, which the host slices out of
  the input and lays out as a row before the launch. The weight windows are whole arrays, and each bias window is the
  bias laid out as one row by the host.
-/
import proofs.«176687_g19121194402273_cont_sun_m_853_29_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Inputs

open Idealize.ShloMosaic Idealize.ShloMosaic.TcCoe Idealize.ShloMosaic.Tactic Idealize.ShloMosaic.ValueIdx
open Idealize.SL.Sem Cert.KernelIdeal Cert.KernelIdeal.Gen

variable {F : FTy → Type} [FloatOps F] [Named F]
variable (m : (ℓ : Loc nD τ sig) → Buf (Elt F) ℓ)

/-! ## Where each window's block sits -/

/-- Window 0's block at point t is block (t, 0, 0) of the input. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 1's block at point t is block (t, 0, 0) of the row of longitudes. -/
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Window 2 is one whole block at every point. -/
theorem idx2 : ∀ t : Fin cfg0.N, win0_2.index t (0 : Fin 2) = 0 ∧ win0_2.index t (1 : Fin 2) = 0 :=
  (by decide +kernel : ∀ t : Fin grid0.N, _)

/-- Window 3 is one whole block at every point. -/
theorem idx3 : ∀ t : Fin cfg0.N, win0_3.index t (0 : Fin 2) = 0 ∧ win0_3.index t (1 : Fin 2) = 0 :=
  (by decide +kernel : ∀ t : Fin grid0.N, _)

/-- Window 4 is one whole block at every point. -/
theorem idx4 : ∀ t : Fin cfg0.N, win0_4.index t (0 : Fin 2) = 0 ∧ win0_4.index t (1 : Fin 2) = 0 :=
  (by decide +kernel : ∀ t : Fin grid0.N, _)

/-- Window 5 is one whole block at every point. -/
theorem idx5 : ∀ t : Fin cfg0.N, win0_5.index t (0 : Fin 2) = 0 ∧ win0_5.index t (1 : Fin 2) = 0 :=
  (by decide +kernel : ∀ t : Fin grid0.N, _)

/-- Window 6 is one whole block at every point. -/
theorem idx6 : ∀ t : Fin cfg0.N, win0_6.index t (0 : Fin 2) = 0 ∧ win0_6.index t (1 : Fin 2) = 0 :=
  (by decide +kernel : ∀ t : Fin grid0.N, _)

/-- Window 7 is one whole block at every point. -/
theorem idx7 : ∀ t : Fin cfg0.N, win0_7.index t (0 : Fin 2) = 0 ∧ win0_7.index t (1 : Fin 2) = 0 :=
  (by decide +kernel : ∀ t : Fin grid0.N, _)

/-- Window 8 is one whole block at every point. -/
theorem idx8 : ∀ t : Fin cfg0.N, win0_8.index t (0 : Fin 2) = 0 ∧ win0_8.index t (1 : Fin 2) = 0 :=
  (by decide +kernel : ∀ t : Fin grid0.N, _)

/-- Window 9 is one whole block at every point. -/
theorem idx9 : ∀ t : Fin cfg0.N, win0_9.index t (0 : Fin 2) = 0 ∧ win0_9.index t (1 : Fin 2) = 0 :=
  (by decide +kernel : ∀ t : Fin grid0.N, _)

/-- Window 10 is one whole block at every point. -/
theorem idx10 : ∀ t : Fin cfg0.N, win0_10.index t (0 : Fin 2) = 0 ∧ win0_10.index t (1 : Fin 2) = 0 :=
  (by decide +kernel : ∀ t : Fin grid0.N, _)

/-- Window 11 is one whole block at every point. -/
theorem idx11 : ∀ t : Fin cfg0.N, win0_11.index t (0 : Fin 2) = 0 ∧ win0_11.index t (1 : Fin 2) = 0 :=
  (by decide +kernel : ∀ t : Fin grid0.N, _)

/-- Window 12 is one whole block at every point. -/
theorem idx12 : ∀ t : Fin cfg0.N, win0_12.index t (0 : Fin 2) = 0 ∧ win0_12.index t (1 : Fin 2) = 0 :=
  (by decide +kernel : ∀ t : Fin grid0.N, _)

/-- Window 13 is one whole block at every point. -/
theorem idx13 : ∀ t : Fin cfg0.N, win0_13.index t (0 : Fin 2) = 0 ∧ win0_13.index t (1 : Fin 2) = 0 :=
  (by decide +kernel : ∀ t : Fin grid0.N, _)

/-! ## The blocks of the two per-graph windows -/

/-- Window 0: element (g, i, k) of the block at point t is element (t · 50 + g, i, k) of the input. -/
theorem blk0_apply (c : Dev nD) (t : Fin cfg0.N) (g : Fin 50) (i : Fin 100) (k : Fin 128) (h : t.val * 50 + g.val < 100) :
    iblk m c 0 t (ix3 g i k) = m ((c : Thread nD τ).loc main_arg0) (ix3 ⟨t.val * 50 + g.val, h⟩ i k) := by
  obtain ⟨e0, e1, e2⟩ := idx0 t
  rw [← V_main_arg0 m c]
  show V m c main_arg0 (((cfg0.win 0).blk t).view.emb (ix3 g i k)) = _
  refine congrArg (V m c main_arg0) (funext fun a => Fin.ext ?_)
  match a with
  | ⟨0, _⟩ => show win0_0.index t (0 : Fin 3) * 50 + 1 * g.val = t.val * 50 + g.val; omega
  | ⟨1, _⟩ => show win0_0.index t (1 : Fin 3) * 100 + 1 * i.val = i.val; omega
  | ⟨2, _⟩ => show win0_0.index t (2 : Fin 3) * 128 + 1 * k.val = k.val; omega

/-- The row of longitudes as the host lays it out before the launch: element (b, 0, j) is feature 0 of node j of
    graph b of the input. -/
theorem V_main_v2_apply (c : Dev nD) (b j : Fin 100) :
    (V m c main_v2 : S100x1x100.Idx → Elt F .f32) (ix3 b (0 : Fin 1) j)
      = m ((c : Thread nD τ).loc main_arg0) (ix3 b j (0 : Fin 128)) := by
  show StableHlo.after hostOps0 (fun b => m (c, b)) (Proc.devRef .tc main_v2) (ix3 b (0 : Fin 1) j) = _
  after_results
  refine (broadcastInDim_apply _ _ _ (ix3 b (0 : Fin 1) j) (ix2 b j) fun a => ?_).trans ?_
  · match a with
    | ⟨0, _⟩ => rfl
    | ⟨1, _⟩ => rfl
  · show shapeCast S100x100 (extractStridedSlice S100x100x1 ![0, 0, 0] (m (c, Proc.tc.devRef main_arg0))
      slices_S100x100x128_S100x100x1_0_0_0) shapeCasts_S100x100x1_S100x100 (ix2 b j) = _
    refine (shapeCast_apply _ _ (ix2 b j) (ix3 b j (0 : Fin 1)) ?_).trans ?_
    · rw [Shape.rowMajor_val_three, Shape.rowMajor_val_two]
      show (b.val * 100 + j.val) * 1 + 0 = b.val * 100 + j.val
      omega
    · refine extractStridedSlice_apply _ _ _ (ix3 b j (0 : Fin 1)) (ix3 b j (0 : Fin 128)) fun a => ?_
      match a with
      | ⟨0, _⟩ => show b.val = 0 + b.val; omega
      | ⟨1, _⟩ => show j.val = 0 + j.val; omega
      | ⟨2, _⟩ => show 0 = 0 + 0; rfl

/-- Window 1: element (g, 0, j) of the block at point t is feature 0 of node j of graph t · 50 + g of the input. -/
theorem blk1_apply (c : Dev nD) (t : Fin cfg0.N) (g : Fin 50) (j : Fin 100) (h : t.val * 50 + g.val < 100) :
    iblk m c 1 t (ix3 g (0 : Fin 1) j) = m ((c : Thread nD τ).loc main_arg0) (ix3 ⟨t.val * 50 + g.val, h⟩ j (0 : Fin 128)) := by
  obtain ⟨e0, e1, e2⟩ := idx1 t
  rw [← V_main_v2_apply m c ⟨t.val * 50 + g.val, h⟩ j]
  show V m c main_v2 (((cfg0.win 1).blk t).view.emb (ix3 g (0 : Fin 1) j)) = _
  refine congrArg (V m c main_v2) (funext fun a => Fin.ext ?_)
  match a with
  | ⟨0, _⟩ => show win0_1.index t (0 : Fin 3) * 50 + 1 * g.val = t.val * 50 + g.val; omega
  | ⟨1, _⟩ => show win0_1.index t (1 : Fin 3) * 1 + 1 * 0 = 0; omega
  | ⟨2, _⟩ => show win0_1.index t (2 : Fin 3) * 100 + 1 * j.val = j.val; omega

/-! ## The weight and bias windows -/

/-- Window 2 is the whole of the input map's weight matrix. -/
theorem blk2_apply (c : Dev nD) (t : Fin cfg0.N) (k : Fin 128) (c' : Fin 128) :
    iblk m c 2 t (ix2 k c') = m ((c : Thread nD τ).loc main_arg1) (ix2 k c') := by
  obtain ⟨e0, e1⟩ := idx2 t
  rw [← V_main_arg1 m c]
  show V m c main_arg1 (((cfg0.win 2).blk t).view.emb (ix2 k c')) = _
  refine congrArg (V m c main_arg1) (funext fun a => Fin.ext ?_)
  match a with
  | ⟨0, _⟩ => show win0_2.index t (0 : Fin 2) * 128 + 1 * k.val = k.val; omega
  | ⟨1, _⟩ => show win0_2.index t (1 : Fin 2) * 128 + 1 * c'.val = c'.val; omega

/-- The input map's bias as the host lays it out before the launch, one row: element (0, c') is element c' of the argument. -/
theorem V_main_v3_apply (c : Dev nD) (c' : Fin 128) :
    (V m c main_v3 : S1x128.Idx → Elt F .f32) (ix2 (0 : Fin 1) c') = m ((c : Thread nD τ).loc main_arg2) (ix1 c') := by
  show StableHlo.after hostOps0 (fun b => m (c, b)) (Proc.devRef .tc main_v3) (ix2 (0 : Fin 1) c') = _
  after_results
  refine broadcastInDim_apply _ _ _ (ix2 (0 : Fin 1) c') (ix1 c') fun a => ?_
  match a with
  | ⟨0, _⟩ => rfl

/-- Window 3 is that row. -/
theorem blk3_apply (c : Dev nD) (t : Fin cfg0.N) (c' : Fin 128) :
    iblk m c 3 t (ix2 (0 : Fin 1) c') = m ((c : Thread nD τ).loc main_arg2) (ix1 c') := by
  obtain ⟨e0, e1⟩ := idx3 t
  rw [← V_main_v3_apply m c c']
  show V m c main_v3 (((cfg0.win 3).blk t).view.emb (ix2 (0 : Fin 1) c')) = _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 128 + 1 * c'.val = c'.val; omega

/-- Window 4 is the whole of the first layer's weight matrix. -/
theorem blk4_apply (c : Dev nD) (t : Fin cfg0.N) (k : Fin 128) (c' : Fin 128) :
    iblk m c 4 t (ix2 k c') = m ((c : Thread nD τ).loc main_arg3) (ix2 k c') := by
  obtain ⟨e0, e1⟩ := idx4 t
  rw [← V_main_arg3 m c]
  show V m c main_arg3 (((cfg0.win 4).blk t).view.emb (ix2 k c')) = _
  refine congrArg (V m c main_arg3) (funext fun a => Fin.ext ?_)
  match a with
  | ⟨0, _⟩ => show win0_4.index t (0 : Fin 2) * 128 + 1 * k.val = k.val; omega
  | ⟨1, _⟩ => show win0_4.index t (1 : Fin 2) * 128 + 1 * c'.val = c'.val; omega

/-- The first layer's bias as the host lays it out before the launch, one row: element (0, c') is element c' of the argument. -/
theorem V_main_v4_apply (c : Dev nD) (c' : Fin 128) :
    (V m c main_v4 : S1x128.Idx → Elt F .f32) (ix2 (0 : Fin 1) c') = m ((c : Thread nD τ).loc main_arg4) (ix1 c') := by
  show StableHlo.after hostOps0 (fun b => m (c, b)) (Proc.devRef .tc main_v4) (ix2 (0 : Fin 1) c') = _
  after_results
  refine broadcastInDim_apply _ _ _ (ix2 (0 : Fin 1) c') (ix1 c') fun a => ?_
  match a with
  | ⟨0, _⟩ => rfl

/-- Window 5 is that row. -/
theorem blk5_apply (c : Dev nD) (t : Fin cfg0.N) (c' : Fin 128) :
    iblk m c 5 t (ix2 (0 : Fin 1) c') = m ((c : Thread nD τ).loc main_arg4) (ix1 c') := by
  obtain ⟨e0, e1⟩ := idx5 t
  rw [← V_main_v4_apply m c c']
  show V m c main_v4 (((cfg0.win 5).blk t).view.emb (ix2 (0 : Fin 1) c')) = _
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 128 + 1 * c'.val = c'.val; omega

/-- Window 6 is the whole of the second layer's weight matrix. -/
theorem blk6_apply (c : Dev nD) (t : Fin cfg0.N) (k : Fin 128) (c' : Fin 128) :
    iblk m c 6 t (ix2 k c') = m ((c : Thread nD τ).loc main_arg5) (ix2 k c') := by
  obtain ⟨e0, e1⟩ := idx6 t
  rw [← V_main_arg5 m c]
  show V m c main_arg5 (((cfg0.win 6).blk t).view.emb (ix2 k c')) = _
  refine congrArg (V m c main_arg5) (funext fun a => Fin.ext ?_)
  match a with
  | ⟨0, _⟩ => show win0_6.index t (0 : Fin 2) * 128 + 1 * k.val = k.val; omega
  | ⟨1, _⟩ => show win0_6.index t (1 : Fin 2) * 128 + 1 * c'.val = c'.val; omega

/-- The second layer's bias as the host lays it out before the launch, one row: element (0, c') is element c' of the argument. -/
theorem V_main_v5_apply (c : Dev nD) (c' : Fin 128) :
    (V m c main_v5 : S1x128.Idx → Elt F .f32) (ix2 (0 : Fin 1) c') = m ((c : Thread nD τ).loc main_arg6) (ix1 c') := by
  show StableHlo.after hostOps0 (fun b => m (c, b)) (Proc.devRef .tc main_v5) (ix2 (0 : Fin 1) c') = _
  after_results
  refine broadcastInDim_apply _ _ _ (ix2 (0 : Fin 1) c') (ix1 c') fun a => ?_
  match a with
  | ⟨0, _⟩ => rfl

/-- Window 7 is that row. -/
theorem blk7_apply (c : Dev nD) (t : Fin cfg0.N) (c' : Fin 128) :
    iblk m c 7 t (ix2 (0 : Fin 1) c') = m ((c : Thread nD τ).loc main_arg6) (ix1 c') := by
  obtain ⟨e0, e1⟩ := idx7 t
  rw [← V_main_v5_apply m c c']
  show V m c main_v5 (((cfg0.win 7).blk t).view.emb (ix2 (0 : Fin 1) c')) = _
  refine congrArg (V m c main_v5) (funext fun a => Fin.ext ?_)
  match a with
  | ⟨0, _⟩ => show win0_7.index t (0 : Fin 2) * 1 + 1 * 0 = 0; omega
  | ⟨1, _⟩ => show win0_7.index t (1 : Fin 2) * 128 + 1 * c'.val = c'.val; omega

/-- Window 8 is the whole of the third layer's weight matrix. -/
theorem blk8_apply (c : Dev nD) (t : Fin cfg0.N) (k : Fin 128) (c' : Fin 128) :
    iblk m c 8 t (ix2 k c') = m ((c : Thread nD τ).loc main_arg7) (ix2 k c') := by
  obtain ⟨e0, e1⟩ := idx8 t
  rw [← V_main_arg7 m c]
  show V m c main_arg7 (((cfg0.win 8).blk t).view.emb (ix2 k c')) = _
  refine congrArg (V m c main_arg7) (funext fun a => Fin.ext ?_)
  match a with
  | ⟨0, _⟩ => show win0_8.index t (0 : Fin 2) * 128 + 1 * k.val = k.val; omega
  | ⟨1, _⟩ => show win0_8.index t (1 : Fin 2) * 128 + 1 * c'.val = c'.val; omega

/-- The third layer's bias as the host lays it out before the launch, one row: element (0, c') is element c' of the argument. -/
theorem V_main_v6_apply (c : Dev nD) (c' : Fin 128) :
    (V m c main_v6 : S1x128.Idx → Elt F .f32) (ix2 (0 : Fin 1) c') = m ((c : Thread nD τ).loc main_arg8) (ix1 c') := by
  show StableHlo.after hostOps0 (fun b => m (c, b)) (Proc.devRef .tc main_v6) (ix2 (0 : Fin 1) c') = _
  after_results
  refine broadcastInDim_apply _ _ _ (ix2 (0 : Fin 1) c') (ix1 c') fun a => ?_
  match a with
  | ⟨0, _⟩ => rfl

/-- Window 9 is that row. -/
theorem blk9_apply (c : Dev nD) (t : Fin cfg0.N) (c' : Fin 128) :
    iblk m c 9 t (ix2 (0 : Fin 1) c') = m ((c : Thread nD τ).loc main_arg8) (ix1 c') := by
  obtain ⟨e0, e1⟩ := idx9 t
  rw [← V_main_v6_apply m c c']
  show V m c main_v6 (((cfg0.win 9).blk t).view.emb (ix2 (0 : Fin 1) c')) = _
  refine congrArg (V m c main_v6) (funext fun a => Fin.ext ?_)
  match a with
  | ⟨0, _⟩ => show win0_9.index t (0 : Fin 2) * 1 + 1 * 0 = 0; omega
  | ⟨1, _⟩ => show win0_9.index t (1 : Fin 2) * 128 + 1 * c'.val = c'.val; omega

/-- Window 10 is the whole of the head's first weight matrix. -/
theorem blk10_apply (c : Dev nD) (t : Fin cfg0.N) (k : Fin 128) (c' : Fin 64) :
    iblk m c 10 t (ix2 k c') = m ((c : Thread nD τ).loc main_arg9) (ix2 k c') := by
  obtain ⟨e0, e1⟩ := idx10 t
  rw [← V_main_arg9 m c]
  show V m c main_arg9 (((cfg0.win 10).blk t).view.emb (ix2 k c')) = _
  refine congrArg (V m c main_arg9) (funext fun a => Fin.ext ?_)
  match a with
  | ⟨0, _⟩ => show win0_10.index t (0 : Fin 2) * 128 + 1 * k.val = k.val; omega
  | ⟨1, _⟩ => show win0_10.index t (1 : Fin 2) * 64 + 1 * c'.val = c'.val; omega

/-- The head's first bias as the host lays it out before the launch, one row: element (0, c') is element c' of the argument. -/
theorem V_main_v7_apply (c : Dev nD) (c' : Fin 64) :
    (V m c main_v7 : S1x64.Idx → Elt F .f32) (ix2 (0 : Fin 1) c') = m ((c : Thread nD τ).loc main_arg10) (ix1 c') := by
  show StableHlo.after hostOps0 (fun b => m (c, b)) (Proc.devRef .tc main_v7) (ix2 (0 : Fin 1) c') = _
  after_results
  refine broadcastInDim_apply _ _ _ (ix2 (0 : Fin 1) c') (ix1 c') fun a => ?_
  match a with
  | ⟨0, _⟩ => rfl

/-- Window 11 is that row. -/
theorem blk11_apply (c : Dev nD) (t : Fin cfg0.N) (c' : Fin 64) :
    iblk m c 11 t (ix2 (0 : Fin 1) c') = m ((c : Thread nD τ).loc main_arg10) (ix1 c') := by
  obtain ⟨e0, e1⟩ := idx11 t
  rw [← V_main_v7_apply m c c']
  show V m c main_v7 (((cfg0.win 11).blk t).view.emb (ix2 (0 : Fin 1) c')) = _
  refine congrArg (V m c main_v7) (funext fun a => Fin.ext ?_)
  match a with
  | ⟨0, _⟩ => show win0_11.index t (0 : Fin 2) * 1 + 1 * 0 = 0; omega
  | ⟨1, _⟩ => show win0_11.index t (1 : Fin 2) * 64 + 1 * c'.val = c'.val; omega

/-- Window 12 is the whole of the head's second weight matrix. -/
theorem blk12_apply (c : Dev nD) (t : Fin cfg0.N) (k : Fin 64) (c' : Fin 1) :
    iblk m c 12 t (ix2 k c') = m ((c : Thread nD τ).loc main_arg11) (ix2 k c') := by
  obtain ⟨e0, e1⟩ := idx12 t
  rw [← V_main_arg11 m c]
  show V m c main_arg11 (((cfg0.win 12).blk t).view.emb (ix2 k c')) = _
  refine congrArg (V m c main_arg11) (funext fun a => Fin.ext ?_)
  match a with
  | ⟨0, _⟩ => show win0_12.index t (0 : Fin 2) * 64 + 1 * k.val = k.val; omega
  | ⟨1, _⟩ => show win0_12.index t (1 : Fin 2) * 1 + 1 * c'.val = c'.val; omega

/-- The head's second bias as the host lays it out before the launch, one row: element (0, c') is element c' of the argument. -/
theorem V_main_v8_apply (c : Dev nD) (c' : Fin 1) :
    (V m c main_v8 : S1x1.Idx → Elt F .f32) (ix2 (0 : Fin 1) c') = m ((c : Thread nD τ).loc main_arg12) (ix1 c') := by
  show StableHlo.after hostOps0 (fun b => m (c, b)) (Proc.devRef .tc main_v8) (ix2 (0 : Fin 1) c') = _
  after_results
  refine broadcastInDim_apply _ _ _ (ix2 (0 : Fin 1) c') (ix1 c') fun a => ?_
  match a with
  | ⟨0, _⟩ =>
    have := c'.isLt
    show c'.val = 0
    omega

/-- Window 13 is that row. -/
theorem blk13_apply (c : Dev nD) (t : Fin cfg0.N) (c' : Fin 1) :
    iblk m c 13 t (ix2 (0 : Fin 1) c') = m ((c : Thread nD τ).loc main_arg12) (ix1 c') := by
  obtain ⟨e0, e1⟩ := idx13 t
  rw [← V_main_v8_apply m c c']
  show V m c main_v8 (((cfg0.win 13).blk t).view.emb (ix2 (0 : Fin 1) c')) = _
  refine congrArg (V m c main_v8) (funext fun a => Fin.ext ?_)
  match a with
  | ⟨0, _⟩ => show win0_13.index t (0 : Fin 2) * 1 + 1 * 0 = 0; omega
  | ⟨1, _⟩ => show win0_13.index t (1 : Fin 2) * 1 + 1 * c'.val = c'.val; omega

end Cert.KernelIdeal.Inputs

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibDenseLayer.lean ====
/-
  One layer of a degree-normalised graph convolution on a SYMMETRIC adjacency, in two forms, on the extended reals with
  REAL entries.

  Nodes are the elements of a finite type; m is a symmetric relation on them (the edge test), A its 0/1 adjacency
  without the diagonal, E the identity matrix, deg(i) = (the number of neighbours of i) + 1 and dis(i) = 1 / sqrt(deg(i)).
  For a column h of node values:

  * the edge-list form adds up, for node j, the values h(i) * (dis(i) * dis(j)) over the sources i of the edges into j,
    and the self loop's h(j) * (dis(j) * dis(j));
  * the dense form scales the rows first, q(i) = h(i) * dis(i), multiplies by A + E along ROW j, and scales the result
    by dis(j); the product is computed as a sum of three matrix products, of q, of q - q and of (q - q) - (q - q), which
    is the product with q when q is real.

  The two agree because the relation is symmetric (the sources of the edges into j are the neighbours in row j), and
  because with real entries the extended reals' sums and products are the reals', where a factor moves across a finite
  sum. On the extended reals q - q is zero only for a real q (⊤ - ⊤ is not), hence the hypotheses that the entries are
  real numbers, and the closure facts that carry them from layer to layer: sums, products, maxima and finite sums of
  real numbers are real numbers, the degree is a positive real number and dis is a positive real number.
-/
import Idealize.ShloMosaic.PureOps.Ideal.Laws

noncomputable section

namespace Cert.DenseLayer

open Idealize.ShloMosaic
open scoped BigOperators

/-! ## Extended reals that are real numbers -/

/-- The extended real x is a real number. -/
abbrev IsReal (x : EReal) : Prop := ∃ r : ℝ, x = (r : EReal)

/-- A real number is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- A sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- A difference of two real numbers is a real number. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The negation of a real number is a real number. -/
theorem isReal_neg {x : EReal} (hx : IsReal x) : IsReal (-x) := by
  obtain ⟨a, rfl⟩ := hx
  exact ⟨-a, (EReal.coe_neg a).symm⟩

/-- A product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The greater of two real numbers is a real number (a rectifier's max with zero among them). -/
theorem isReal_max {x y : EReal} (hx : IsReal x) (hy : IsReal y) : IsReal (max x y) := by
  rcases max_choice x y with h | h <;> rw [h] <;> assumption

/-- A choice between two real numbers is a real number. -/
theorem isReal_ite {c : Prop} [Decidable c] {x y : EReal} (hx : IsReal x) (hy : IsReal y) :
    IsReal (if c then x else y) := by
  split <;> assumption

/-- The cast of a finite sum of real numbers is the sum of the casts. -/
theorem coe_sum {κ : Type*} (s : Finset κ) (f : κ → ℝ) : ((∑ i ∈ s, f i : ℝ) : EReal) = ∑ i ∈ s, (f i : EReal) := by
  classical
  refine Finset.induction_on s ?_ ?_
  · simp
  · intro i t hi ih
    rw [Finset.sum_insert hi, Finset.sum_insert hi, EReal.coe_add, ih]

/-- A finite sum of real numbers is a real number. -/
theorem isReal_sum {κ : Type*} (s : Finset κ) (f : κ → EReal) (hf : ∀ i ∈ s, IsReal (f i)) : IsReal (∑ i ∈ s, f i) := by
  classical
  induction s using Finset.induction_on with
  | empty => simpa using isReal_zero
  | insert i t hi ih =>
    rw [Finset.sum_insert hi]
    exact isReal_add (hf i (Finset.mem_insert_self i t)) (ih fun k hk => hf k (Finset.mem_insert_of_mem hk))

/-- A real number minus itself is zero (on the extended reals this needs the number to be real). -/
theorem sub_self_of_isReal {q : EReal} (hq : IsReal q) : q - q = 0 := by
  obtain ⟨r, rfl⟩ := hq
  rw [← EReal.coe_sub, sub_self, EReal.coe_zero]

/-! ## Square root and reciprocal at positive real numbers -/

/-- The ideal square root of a nonnegative real number is the real square root. -/
theorem sqrt_coe_of_nonneg {r : ℝ} (hr : 0 ≤ r) : Ideal.sqrt (r : EReal) = ((Real.sqrt r : ℝ) : EReal) := by
  rw [Ideal.sqrt_coe, if_neg (not_lt.mpr hr)]

/-- The ideal quotient of one by a nonzero real number is the real reciprocal. -/
theorem div_one_coe {y : ℝ} (hy : y ≠ 0) : Ideal.div 1 (y : EReal) = ((1 / y : ℝ) : EReal) := by
  rw [Ideal.div_coe hy, one_mul]

/-- One over the square root of a positive real number, with the ideal values' division and square root, is the real
    one. -/
theorem dis_coe {r : ℝ} (hr : 0 < r) : Ideal.div 1 (Ideal.sqrt (r : EReal)) = ((1 / Real.sqrt r : ℝ) : EReal) := by
  rw [sqrt_coe_of_nonneg hr.le, div_one_coe (Real.sqrt_pos.mpr hr).ne']

/-- … and it is positive. -/
theorem dis_pos {r : ℝ} (hr : 0 < r) : 0 < 1 / Real.sqrt r := one_div_pos.mpr (Real.sqrt_pos.mpr hr)

/-! ## Casts of maxima, for a rectifier -/

/-- The cast of the greater of two real numbers is the greater of the casts. -/
theorem coe_max (a b : ℝ) : ((max a b : ℝ) : EReal) = max (a : EReal) (b : EReal) :=
  EReal.coe_strictMono.monotone.map_max

/-- A rectifier at a real number: the max with zero on the extended reals is the cast of the real max with zero. -/
theorem max_coe_zero (r : ℝ) : max (r : EReal) 0 = ((max r 0 : ℝ) : EReal) := by
  rw [coe_max, EReal.coe_zero]

/-- A real number plus a real number, and times a real number, as casts (the two rewriting steps that carry a real
    expression across the cast, with coe_sum for the sums). -/
theorem coe_add_coe (a b : ℝ) : (a : EReal) + (b : EReal) = ((a + b : ℝ) : EReal) := (EReal.coe_add a b).symm

theorem coe_mul_coe (a b : ℝ) : (a : EReal) * (b : EReal) = ((a * b : ℝ) : EReal) := (EReal.coe_mul a b).symm

/-- Zero plus a real number (a product accumulated into a zero accumulator). -/
theorem zero_add_coe (a : ℝ) : (0 : EReal) + (a : EReal) = (a : EReal) := zero_add _

section Nodes

variable {ι : Type*} [Fintype ι] [DecidableEq ι]

/-! ## Degrees -/

/-- A count, as a sum of ones and zeros on the extended reals, is the cast of the same count of reals. -/
theorem count_coe (p : ι → Prop) [DecidablePred p] :
    (∑ i, if p i then (1 : EReal) else 0) = ((∑ i, if p i then (1 : ℝ) else 0 : ℝ) : EReal) := by
  rw [coe_sum]
  refine Finset.sum_congr rfl fun i _ => ?_
  split
  · exact EReal.coe_one.symm
  · exact EReal.coe_zero.symm

/-- A count is nonnegative. -/
theorem count_nonneg (p : ι → Prop) [DecidablePred p] : 0 ≤ ∑ i, if p i then (1 : ℝ) else 0 :=
  Finset.sum_nonneg fun i _ => by split <;> norm_num

/-- The degree, a count plus one, is the cast of a real number … -/
theorem deg_coe (p : ι → Prop) [DecidablePred p] :
    (∑ i, if p i then (1 : EReal) else 0) + 1 = (((∑ i, if p i then (1 : ℝ) else 0) + 1 : ℝ) : EReal) := by
  rw [count_coe, EReal.coe_add, EReal.coe_one]

/-- … which is positive. -/
theorem deg_pos (p : ι → Prop) [DecidablePred p] : 0 < (∑ i, if p i then (1 : ℝ) else 0) + 1 := by
  have := count_nonneg p
  linarith

/-- So one over the square root of the degree is a positive real number. -/
theorem dis_deg (p : ι → Prop) [DecidablePred p] :
    ∃ d : ℝ, 0 < d ∧ Ideal.div 1 (Ideal.sqrt ((∑ i, if p i then (1 : EReal) else 0) + 1)) = (d : EReal) :=
  ⟨1 / Real.sqrt ((∑ i, if p i then (1 : ℝ) else 0) + 1), dis_pos (deg_pos p), by rw [deg_coe, dis_coe (deg_pos p)]⟩

/-- DEGREE BY ROWS = DEGREE BY COLUMNS. For a symmetric relation the sum over the sources i of the edges into j (i
    related to j, i ≠ j) of a constant is the sum over the neighbours in row j (j related to i, j ≠ i). -/
theorem colsum_eq_rowsum {M : Type*} [AddCommMonoid M] (m : ι → ι → Prop) [DecidableRel m]
    (hm : ∀ i j, m i j ↔ m j i) (c : M) (j : ι) :
    (∑ i, if m i j ∧ i ≠ j then c else 0) = ∑ i, if m j i ∧ j ≠ i then c else 0 := by
  refine Finset.sum_congr rfl fun i _ => ?_
  have hiff : (m i j ∧ i ≠ j) ↔ (m j i ∧ j ≠ i) := by rw [hm i j, ne_comm]
  by_cases h : m i j ∧ i ≠ j
  · rw [if_pos h, if_pos (hiff.mp h)]
  · rw [if_neg h, if_neg fun h' => h (hiff.mpr h')]

/-! ## The three-chunk product -/

/-- THE SPLIT. A product with q computed as the sum of the products with q, with q - q and with
    (q - q) - (q - q) is the product with q, when the entries of q are real numbers (the other factor is arbitrary). -/
theorem split3 (a q : ι → EReal) (hq : ∀ i, IsReal (q i)) :
    (∑ i, a i * q i) + ((∑ i, a i * (q i - q i)) + ∑ i, a i * ((q i - q i) - (q i - q i))) = ∑ i, a i * q i := by
  have h0 : ∀ i, q i - q i = 0 := fun i => sub_self_of_isReal (hq i)
  simp only [h0, sub_zero, mul_zero, Finset.sum_const_zero, add_zero]

/-! ## The layer law -/

/-- THE LAYER LAW. m a symmetric relation, A its adjacency without the diagonal, E the identity, h and dis with
    real entries: the dense form along row j — rows scaled by dis, multiplied by A + E, the result scaled by dis j — is
    the edge-list form at j — the sum over the sources i of the edges into j of h i · (dis i · dis j), plus the self loop's
    h j · (dis j · dis j). -/
theorem layer_law (m : ι → ι → Prop) [DecidableRel m] (hm : ∀ i j, m i j ↔ m j i)
    (A E : ι → ι → EReal)
    (hA : ∀ j i, A j i = if m j i ∧ j ≠ i then 1 else 0)
    (hE : ∀ j i, E j i = if j = i then 1 else 0)
    (h dis : ι → EReal) (hh : ∀ i, IsReal (h i)) (hd : ∀ i, IsReal (dis i)) (j : ι) :
    (∑ i, (A j i + E j i) * (h i * dis i)) * dis j
      = (∑ i, if m i j ∧ i ≠ j then h i * (dis i * dis j) else 0) + h j * (dis j * dis j) := by
  choose x hx using hh
  choose d hd' using hd
  have hL : ∀ i, (A j i + E j i) * (h i * dis i)
      = (((if m j i ∧ j ≠ i then x i * d i else 0) + (if j = i then x i * d i else 0) : ℝ) : EReal) := by
    intro i
    rw [hA, hE, hx, hd']
    by_cases h1 : m j i ∧ j ≠ i
    · have h2 : ¬ j = i := h1.2
      rw [if_pos h1, if_neg h2, if_pos h1, if_neg h2, add_zero, add_zero, one_mul, EReal.coe_mul]
    · by_cases h2 : j = i
      · rw [if_neg h1, if_pos h2, if_neg h1, if_pos h2, zero_add, zero_add, one_mul, EReal.coe_mul]
      · rw [if_neg h1, if_neg h2, if_neg h1, if_neg h2, add_zero, zero_mul, add_zero, EReal.coe_zero]
  have hR : ∀ i, (if m i j ∧ i ≠ j then h i * (dis i * dis j) else 0)
      = (((if m i j ∧ i ≠ j then x i * (d i * d j) else 0) : ℝ) : EReal) := by
    intro i
    rw [hx, hd', hd']
    split
    · rw [EReal.coe_mul, EReal.coe_mul]
    · rw [EReal.coe_zero]
  rw [Finset.sum_congr rfl fun i _ => hL i, Finset.sum_congr rfl fun i _ => hR i, ← coe_sum, ← coe_sum, hx j, hd' j,
    ← EReal.coe_mul, ← EReal.coe_mul, ← EReal.coe_mul, ← EReal.coe_add]
  congr 1
  rw [Finset.sum_add_distrib, Finset.sum_ite_eq, if_pos (Finset.mem_univ _), add_mul, Finset.sum_mul]
  congr 1
  · refine Finset.sum_congr rfl fun i _ => ?_
    have hiff : (m i j ∧ i ≠ j) ↔ (m j i ∧ j ≠ i) := by rw [hm i j, ne_comm]
    by_cases h1 : m j i ∧ j ≠ i
    · rw [if_pos h1, if_pos (hiff.mpr h1)]
      ring
    · rw [if_neg h1, if_neg fun h' => h1 (hiff.mp h'), zero_mul]
  · ring

/-- THE LAYER LAW WITH THE SPLIT. The same with the product by A + E computed in three chunks, as the sum of the products
    with q, with q - q and with (q - q) - (q - q), q i = h i · dis i the scaled rows. -/
theorem layer_law_split (m : ι → ι → Prop) [DecidableRel m] (hm : ∀ i j, m i j ↔ m j i)
    (A E : ι → ι → EReal)
    (hA : ∀ j i, A j i = if m j i ∧ j ≠ i then 1 else 0)
    (hE : ∀ j i, E j i = if j = i then 1 else 0)
    (h dis : ι → EReal) (hh : ∀ i, IsReal (h i)) (hd : ∀ i, IsReal (dis i)) (j : ι) :
    ((∑ i, (A j i + E j i) * (h i * dis i))
        + ((∑ i, (A j i + E j i) * (h i * dis i - h i * dis i))
          + ∑ i, (A j i + E j i) * ((h i * dis i - h i * dis i) - (h i * dis i - h i * dis i)))) * dis j
      = (∑ i, if m i j ∧ i ≠ j then h i * (dis i * dis j) else 0) + h j * (dis j * dis j) := by
  rw [split3 (fun i => A j i + E j i) (fun i => h i * dis i) fun i => isReal_mul (hh i) (hd i)]
  exact layer_law m hm A E hA hE h dis hh hd j

/-- The result of a layer has real entries: the edge-list form at j is a real number. -/
theorem isReal_layer (m : ι → ι → Prop) [DecidableRel m] (h dis : ι → EReal) (hh : ∀ i, IsReal (h i))
    (hd : ∀ i, IsReal (dis i)) (j : ι) :
    IsReal ((∑ i, if m i j ∧ i ≠ j then h i * (dis i * dis j) else 0) + h j * (dis j * dis j)) :=
  isReal_add (isReal_sum _ _ fun i _ => isReal_ite (isReal_mul (hh i) (isReal_mul (hd i) (hd j))) isReal_zero)
    (isReal_mul (hh j) (isReal_mul (hd j) (hd j)))

end Nodes

end Cert.DenseLayer
-- ==== Proof.Spec.lean ====
/-
  The network both programs compute, over the reals. One hundred graphs `b` of one hundred nodes `i` with 128 input
  features `x b i k`; feature 0 is the node's longitude. Two nodes of a graph are joined when their circular distance
  is below 10 degrees (`near`), a node never with itself; `deg` counts a node's neighbours and itself, `dis` is
  `1 / √deg`. A layer multiplies the features by its weight matrix (`lin`), sums over the neighbourhood with the
  symmetric normalisation `dis i · dis j`, adds the bias and clamps at 0. Three layers follow the input map; the
  node features are averaged per graph, and a two-layer head maps the average to one number per graph.
-/
import Mathlib

noncomputable section

namespace Cert.GraphNet

/-- Circular closeness of two longitudes in degrees. -/
def near (a c : ℝ) : Prop := |a - c| < 10 ∨ 350 < |a - c|

theorem near_symm (a c : ℝ) : near a c ↔ near c a := by
  unfold near; rw [abs_sub_comm]

instance (a c : ℝ) : Decidable (near a c) := Classical.propDecidable _

section
variable (x : Fin 100 → Fin 100 → Fin 128 → ℝ)

/-- The adjacency of graph `b`: 1 where two distinct nodes are close, else 0. -/
def adj (b i j : Fin 100) : ℝ := if near (x b i 0) (x b j 0) ∧ i ≠ j then 1 else 0

/-- A node's degree, itself included. -/
def deg (b i : Fin 100) : ℝ := (∑ j, adj x b i j) + 1

/-- The symmetric normalisation's factor. -/
def dis (b i : Fin 100) : ℝ := 1 / Real.sqrt (deg x b i)

/-- Features times a weight matrix. -/
def lin {K N : ℕ} (h : Fin 100 → Fin 100 → Fin K → ℝ) (W : Fin K → Fin N → ℝ) (b i : Fin 100) (c : Fin N) : ℝ :=
  ∑ k, h b i k * W k c

/-- One graph-convolution layer, the neighbourhood sum written densely over the graph's nodes. -/
def layer (h : Fin 100 → Fin 100 → Fin 128 → ℝ) (W : Fin 128 → Fin 128 → ℝ) (bias : Fin 128 → ℝ)
    (b i : Fin 100) (c : Fin 128) : ℝ :=
  max ((∑ j, (adj x b i j + if i = j then 1 else 0) * (lin h W b j c * dis x b j)) * dis x b i + bias c) 0

variable (Win : Fin 128 → Fin 128 → ℝ) (bin : Fin 128 → ℝ)
  (Wg0 : Fin 128 → Fin 128 → ℝ) (bg0 : Fin 128 → ℝ) (Wg1 : Fin 128 → Fin 128 → ℝ) (bg1 : Fin 128 → ℝ)
  (Wg2 : Fin 128 → Fin 128 → ℝ) (bg2 : Fin 128 → ℝ)
  (Wo1 : Fin 128 → Fin 64 → ℝ) (bo1 : Fin 64 → ℝ) (Wo2 : Fin 64 → Fin 1 → ℝ) (bo2 : Fin 1 → ℝ)

/-- The input map. -/
def h0 (b i : Fin 100) (c : Fin 128) : ℝ := lin x Win b i c + bin c

/-- The node features after the three layers. -/
def h3 : Fin 100 → Fin 100 → Fin 128 → ℝ :=
  layer x (layer x (layer x (h0 x Win bin) Wg0 bg0) Wg1 bg1) Wg2 bg2

/-- The per-graph average of the node features. -/
def pooled (b : Fin 100) (c : Fin 128) : ℝ := (∑ i, h3 x Win bin Wg0 bg0 Wg1 bg1 Wg2 bg2 b i c) * (1 / 100)

/-- The head's hidden layer. -/
def hidden (b : Fin 100) (d : Fin 64) : ℝ :=
  max ((∑ c, pooled x Win bin Wg0 bg0 Wg1 bg1 Wg2 bg2 b c * Wo1 c d) + bo1 d) 0

/-- The network's output, one number per graph. -/
def out (b : Fin 100) : ℝ :=
  (∑ d, hidden x Win bin Wg0 bg0 Wg1 bg1 Wg2 bg2 Wo1 bo1 b d * Wo2 d 0) + bo2 0

end

end Cert.GraphNet

end
-- ==== Proof.KernelLayer.lean ====
/-
  One message-passing layer of the body read at an index. The layer scales the rows of its input q by the column dis,
  multiplies by the matrix a01 (adjacency plus identity) in three chunks — the product with the scaled rows q1, with
  q1 - q1 and with (q1 - q1) - (q1 - q1), the first two as one product with the two blocks laid side by side —, adds the
  three, scales row i by dis i, adds the bias row and clamps at 0. With real entries the two correction chunks are zero,
  and the value at (i, c) is the cast of max ((sum over j of a01 i j * (q j c * dis j)) * dis i + bias c) 0: the
  specification's layer when a01, q, dis and bias are the specification's.
-/
import proofs.«176687_g19121194402273_cont_sun_m_853_29_alg».proof.Proof.KernelRow
import proofs.«176687_g19121194402273_cont_sun_m_853_29_alg».proof.Proof.LibDenseRows
import proofs.«176687_g19121194402273_cont_sun_m_853_29_alg».proof.Proof.LibColumnLayout
import proofs.«176687_g19121194402273_cont_sun_m_853_29_alg».proof.Proof.LibDenseLayer
import proofs.«176687_g19121194402273_cont_sun_m_853_29_alg».proof.Proof.Spec

noncomputable section

namespace Cert.KernelIdeal.Layer

open Idealize.ShloMosaic Idealize.ShloMosaic.ValueIdx Cert.KernelIdeal Cert.KernelIdeal.Gen
open scoped BigOperators

/-! ## The two matrix products at an index -/

/-- The left operand's row coordinate is the result's, for the product [100,100] · [100,256]. -/
theorem mm256_lhs0 (j : S100x256.Idx) (k : dot_S100x100_S100x256_S100x256_1_0_0_1_n_n.contr.Idx) :
    (dot_S100x100_S100x256_S100x256_1_0_0_1_n_n.lhsIdx j k (0 : Fin 2)).val = (j (0 : Fin 2)).val := by
  unfold DotDims.lhsIdx
  rw [dif_neg (show ¬(0 : Fin S100x100.rank) ∈ dot_S100x100_S100x256_S100x256_1_0_0_1_n_n.lhsBatch by decide),
    dif_pos (show (0 : Fin S100x100.rank) ∈ dot_S100x100_S100x256_S100x256_1_0_0_1_n_n.lhsNonContracting by decide)]
  rfl

/-- The right operand's column coordinate is the result's, for the product [100,100] · [100,256]. -/
theorem mm256_rhs1 (j : S100x256.Idx) (k : dot_S100x100_S100x256_S100x256_1_0_0_1_n_n.contr.Idx) :
    (dot_S100x100_S100x256_S100x256_1_0_0_1_n_n.rhsIdx j k (1 : Fin 2)).val = (j (1 : Fin 2)).val := by
  unfold DotDims.rhsIdx
  rw [dif_neg (show ¬(1 : Fin S100x256.rank) ∈ dot_S100x100_S100x256_S100x256_1_0_0_1_n_n.rhsBatch by decide),
    dif_pos (show (1 : Fin S100x256.rank) ∈ dot_S100x100_S100x256_S100x256_1_0_0_1_n_n.rhsNonContracting by decide)]
  rfl

/-- The product [100,100] · [100,256] into a zero accumulator, at (i, k): the sum over j of a i j * x j k. -/
theorem mm256_apply (a : FVec Ideal S100x100 .bf16) (x : FVec Ideal S100x256 .bf16) (i : Fin 100) (k : Fin 256) :
    matmul dot_S100x100_S100x256_S100x256_1_0_0_1_n_n none a x (constant (F := Ideal) S100x256 .f32 0x00000000#32) (ix2 i k)
      = ∑ j : Fin 100, a (ix2 i j) * x (ix2 j k) :=
  Cert.DenseRows.matmul_zero_plain_apply dot_S100x100_S100x256_S100x256_1_0_0_1_n_n rfl rfl rfl rfl mm256_lhs0 mm256_rhs1 a x i k

/-- The left operand's row coordinate is the result's, for the product [100,100] · [100,128]. -/
theorem mm128_lhs0 (j : S100x128.Idx) (k : dot_S100x100_S100x128_S100x128_1_0_0_1_n_n.contr.Idx) :
    (dot_S100x100_S100x128_S100x128_1_0_0_1_n_n.lhsIdx j k (0 : Fin 2)).val = (j (0 : Fin 2)).val := by
  unfold DotDims.lhsIdx
  rw [dif_neg (show ¬(0 : Fin S100x100.rank) ∈ dot_S100x100_S100x128_S100x128_1_0_0_1_n_n.lhsBatch by decide),
    dif_pos (show (0 : Fin S100x100.rank) ∈ dot_S100x100_S100x128_S100x128_1_0_0_1_n_n.lhsNonContracting by decide)]
  rfl

/-- The right operand's column coordinate is the result's, for the product [100,100] · [100,128]. -/
theorem mm128_rhs1 (j : S100x128.Idx) (k : dot_S100x100_S100x128_S100x128_1_0_0_1_n_n.contr.Idx) :
    (dot_S100x100_S100x128_S100x128_1_0_0_1_n_n.rhsIdx j k (1 : Fin 2)).val = (j (1 : Fin 2)).val := by
  unfold DotDims.rhsIdx
  rw [dif_neg (show ¬(1 : Fin S100x128.rank) ∈ dot_S100x100_S100x128_S100x128_1_0_0_1_n_n.rhsBatch by decide),
    dif_pos (show (1 : Fin S100x128.rank) ∈ dot_S100x100_S100x128_S100x128_1_0_0_1_n_n.rhsNonContracting by decide)]
  rfl

/-- The product [100,100] · [100,128] into a zero accumulator, at (i, c): the sum over j of a i j * x j c. -/
theorem mm128_apply (a : FVec Ideal S100x100 .bf16) (x : FVec Ideal S100x128 .bf16) (i : Fin 100) (c : Fin 128) :
    matmul dot_S100x100_S100x128_S100x128_1_0_0_1_n_n none a x (constant (F := Ideal) S100x128 .f32 0x00000000#32) (ix2 i c)
      = ∑ j : Fin 100, a (ix2 i j) * x (ix2 j c) :=
  Cert.DenseRows.matmul_zero_plain_apply dot_S100x100_S100x128_S100x128_1_0_0_1_n_n rfl rfl rfl rfl mm128_lhs0 mm128_rhs1 a x i c

/-! ## The two column halves of [100,256] -/

variable {α : Type}

/-- The slice of the first 128 columns reads, at (i, c), the operand at (i, c). -/
theorem sliceL_apply (y : S100x256.Idx → α) (h : S100x256.Slices ![0, 0] S100x128) (i : Fin 100) (c : Fin 128) :
    extractStridedSlice S100x128 ![0, 0] y h (ix2 i c) = y (ix2 i (Fin.castLE (by decide : 128 ≤ 256) c)) :=
  extractStridedSlice_apply ![0, 0] y h (ix2 i c) (ix2 i (Fin.castLE (by decide : 128 ≤ 256) c)) fun a => by
    match a with
    | ⟨0, _⟩ => exact (Nat.zero_add _).symm
    | ⟨1, _⟩ => exact (Nat.zero_add _).symm

/-- The slice of the last 128 columns reads, at (i, c), the operand at (i, 128 + c). -/
theorem sliceR_apply (y : S100x256.Idx → α) (h : S100x256.Slices ![0, 128] S100x128) (i : Fin 100) (c : Fin 128) :
    extractStridedSlice S100x128 ![0, 128] y h (ix2 i c) = y (ix2 i (Fin.natAdd 128 c)) :=
  extractStridedSlice_apply ![0, 128] y h (ix2 i c) (ix2 i (Fin.natAdd 128 c)) fun a => by
    match a with
    | ⟨0, _⟩ => exact (Nat.zero_add _).symm
    | ⟨1, _⟩ => rfl

/-- Two blocks [100,128] side by side: a column of the first half reads the first block. -/
theorem concatL_apply (x y : S100x128.Idx → α) (h : Shape.Concatenates [S100x128, S100x128] S100x256 1) (j : Fin 100) (c : Fin 128) :
    concatenate S100x256 1 [⟨S100x128, x⟩, ⟨S100x128, y⟩] h (ix2 j (Fin.castLE (by decide : 128 ≤ 256) c)) = x (ix2 j c) :=
  Cert.DenseRows.concat_cols_left x y h j (Fin.castLE (by decide : 128 ≤ 256) c) c.isLt

/-- … and a column of the second half reads the second block. -/
theorem concatR_apply (x y : S100x128.Idx → α) (h : Shape.Concatenates [S100x128, S100x128] S100x256 1) (j : Fin 100) (c : Fin 128) :
    concatenate S100x256 1 [⟨S100x128, x⟩, ⟨S100x128, y⟩] h (ix2 j (Fin.natAdd 128 c)) = y (ix2 j c) :=
  (Cert.DenseRows.concat_cols_right x y h j (Fin.natAdd 128 c) (Nat.le_add_right 128 c.val)
    (by show 128 + c.val - 128 < 128; have := c.isLt; omega)).trans
    (congrArg y (congrArg (ix2 j) (Fin.ext (by show 128 + c.val - 128 = c.val; omega))))

/-! ## The layer at an index -/

section
variable (dis : FVec Ideal S100x1 .f32) (a01 : FVec Ideal S100x100 .bf16) (q : FVec Ideal S100x128 .f32)
  (bias : FVec Ideal S1x128 .f32)

/-- ONE LAYER AT AN INDEX. With real entries d of the column dis, A of the matrix, qr of the input and br of the bias
    row, the layer's value at (i, c) is the cast of max ((∑ j, A i j * (qr j c * d j)) * d i + br c) 0: the scaled rows
    qr j c * d j are real, so the two correction chunks of the three-chunk product vanish. -/
theorem mp_apply (d : Fin 100 → ℝ) (A : Fin 100 → Fin 100 → ℝ) (qr : Fin 100 → Fin 128 → ℝ) (br : Fin 128 → ℝ)
    (hd : ∀ i, dis (ix2 i 0) = ((d i : ℝ) : EReal)) (hA : ∀ i j, a01 (ix2 i j) = ((A i j : ℝ) : EReal))
    (hq : ∀ i c, q (ix2 i c) = ((qr i c : ℝ) : EReal)) (hb : ∀ c, bias (ix2 0 c) = ((br c : ℝ) : EReal))
    (i : Fin 100) (c : Fin 128) :
    k0_pay866 (F := Ideal) dis a01 q bias (ix2 i c)
      = ((max ((∑ j, A i j * (qr j c * d j)) * d i + br c) 0 : ℝ) : EReal) := by
  unfold k0_pay866
  simp only [maximumf_apply, addf_apply, mulf_apply, broadcast_apply, sliceL_apply, sliceR_apply, mm256_apply, mm128_apply,
    concatL_apply, concatR_apply, truncf_apply, subf_apply, Cert.ColumnLayout.broadcastTo_a1_ab_apply, broadcastTo_1b_ab_apply]
  rw [Cert.DenseLayer.split3 (fun x => a01 (ix2 i x)) (fun x => q (ix2 x c) * dis (ix2 x 0))
    (fun x => ⟨qr x c * d x, by rw [hq, hd, EReal.coe_mul]⟩)]
  have hsum : (∑ x, a01 (ix2 i x) * (q (ix2 x c) * dis (ix2 x 0))) = ((∑ j, A i j * (qr j c * d j) : ℝ) : EReal) := by
    rw [Cert.DenseLayer.coe_sum]
    refine Finset.sum_congr rfl fun x _ => ?_
    rw [hA, hq, hd, EReal.coe_mul, EReal.coe_mul]
  rw [hsum, hd, hb, Ideal.ofBits_def, Ideal.ofBits_zero_f32, ← EReal.coe_mul, ← EReal.coe_add, Cert.DenseLayer.max_coe_zero]

/-- THE SPECIFICATION'S LAYER. When the column is the specification's dis of graph b, the matrix its adjacency plus the
    identity, the input the features times the weight matrix and the bias row the bias, the layer's value at (i, c) is the
    cast of the specification's layer. -/
theorem layer_apply (x h : Fin 100 → Fin 100 → Fin 128 → ℝ) (W : Fin 128 → Fin 128 → ℝ) (bs : Fin 128 → ℝ) (b : Fin 100)
    (hd : ∀ i, dis (ix2 i 0) = ((Cert.GraphNet.dis x b i : ℝ) : EReal))
    (hA : ∀ i j, a01 (ix2 i j) = ((Cert.GraphNet.adj x b i j + (if i = j then 1 else 0) : ℝ) : EReal))
    (hq : ∀ i c, q (ix2 i c) = ((Cert.GraphNet.lin h W b i c : ℝ) : EReal))
    (hb : ∀ c, bias (ix2 0 c) = ((bs c : ℝ) : EReal)) (i : Fin 100) (c : Fin 128) :
    k0_pay866 (F := Ideal) dis a01 q bias (ix2 i c) = ((Cert.GraphNet.layer x h W bs b i c : ℝ) : EReal) := by
  rw [mp_apply dis a01 q bias (Cert.GraphNet.dis x b) (fun i j => Cert.GraphNet.adj x b i j + (if i = j then 1 else 0))
    (Cert.GraphNet.lin h W b) bs hd hA hq hb i c]
  rfl

end

end Cert.KernelIdeal.Layer

end
-- ==== Proof.LibDenseLayerReal.lean ====
/-
  The layer law of a degree-normalised graph convolution on a symmetric adjacency, in a commutative semiring (the real
  numbers among them): the dense form along row j equals the edge-list form at j.

  m is a symmetric relation on a finite type of nodes, L a column of node values and d a column of node factors. The
  dense form scales the rows, L i · d i, multiplies by the adjacency without the diagonal plus the identity along row
  j, and scales the result by d j. The edge-list form adds L i · (d i · d j) over the sources i of the edges into j (i
  related to j, i ≠ j) and the self loop's L j · (d j · d j). A factor moves across a finite sum, the identity's row
  picks out the self loop, and by symmetry the neighbours in row j are the sources of the edges into j.
-/
import Mathlib.Algebra.BigOperators.Ring.Finset
import Mathlib.Tactic.Ring

namespace Cert.DenseLayerReal

open scoped BigOperators

variable {ι : Type*} [Fintype ι] [DecidableEq ι] {R : Type*} [CommSemiring R]

/-- For a symmetric relation, "i is a source of an edge into j" is "i is a neighbour in row j". -/
theorem edge_iff (m : ι → ι → Prop) (hm : ∀ i j, m i j ↔ m j i) (i j : ι) : (m i j ∧ i ≠ j) ↔ (m j i ∧ j ≠ i) := by
  rw [hm i j, ne_comm]

/-- Degree by columns = degree by rows, for a symmetric relation: the sum of a constant over the sources of the edges
    into j is its sum over the neighbours in row j. -/
theorem colsum_eq_rowsum {M : Type*} [AddCommMonoid M] (m : ι → ι → Prop) [DecidableRel m]
    (hm : ∀ i j, m i j ↔ m j i) (c : M) (j : ι) :
    (∑ i, if m i j ∧ i ≠ j then c else 0) = ∑ i, if m j i ∧ j ≠ i then c else 0 := by
  refine Finset.sum_congr rfl fun i _ => ?_
  by_cases h : m i j ∧ i ≠ j
  · rw [if_pos h, if_pos ((edge_iff m hm i j).mp h)]
  · rw [if_neg h, if_neg fun h' => h ((edge_iff m hm i j).mpr h')]

/-- THE LAYER LAW in a commutative semiring: dense form along row j = edge-list form at j. -/
theorem layer_law (m : ι → ι → Prop) [DecidableRel m] (hm : ∀ i j, m i j ↔ m j i) (L d : ι → R) (j : ι) :
    (∑ i, ((if m j i ∧ j ≠ i then (1 : R) else 0) + (if j = i then 1 else 0)) * (L i * d i)) * d j
      = (∑ i, if m i j ∧ i ≠ j then L i * (d i * d j) else 0) + L j * (d j * d j) := by
  have hL : ∀ i, ((if m j i ∧ j ≠ i then (1 : R) else 0) + (if j = i then 1 else 0)) * (L i * d i)
      = (if m j i ∧ j ≠ i then L i * d i else 0) + (if j = i then L i * d i else 0) := by
    intro i
    rw [add_mul, ite_mul, ite_mul, one_mul, zero_mul]
  rw [Finset.sum_congr rfl fun i _ => hL i, Finset.sum_add_distrib, Finset.sum_ite_eq, if_pos (Finset.mem_univ _),
    add_mul, Finset.sum_mul]
  congr 1
  · refine Finset.sum_congr rfl fun i _ => ?_
    by_cases h1 : m j i ∧ j ≠ i
    · rw [if_pos h1, if_pos ((edge_iff m hm i j).mpr h1)]
      ring
    · rw [if_neg h1, if_neg fun h' => h1 ((edge_iff m hm i j).mp h'), zero_mul]
  · ring

end Cert.DenseLayerReal
-- ==== Proof.SpecRef.lean ====
/-
  The edge-list arrangement of a graph-convolution layer over the reals, its agreement with the dense arrangement of
  the specification, and both arrangements as they are computed on the extended reals from real entries.

  The specification writes a layer densely along the row of the adjacency: rows scaled by dis, multiplied by the
  adjacency plus the identity, the result scaled by dis and the bias added, clamped at 0. The edge-list arrangement
  sums, for node j, over the sources i close to j the row of i scaled by dis i · dis j, adds the self loop's row of j
  scaled by dis j · dis j, then the bias, and clamps at 0. Closeness of longitudes is symmetric, so the sources of the
  edges into j are the neighbours in row j, and the two agree; likewise a node's degree counted by incoming edges is
  its degree counted along the row.

  On the extended reals, computed from the casts of real entries with the extended reals' own sums, products and
  maxima, each arrangement is the cast of the real layer; the dense one also when its product is computed in three
  chunks, of q, of q - q and of (q - q) - (q - q), q the scaled rows.
-/
import proofs.«176687_g19121194402273_cont_sun_m_853_29_alg».proof.Proof.Spec
import proofs.«176687_g19121194402273_cont_sun_m_853_29_alg».proof.Proof.LibDenseLayerReal
import proofs.«176687_g19121194402273_cont_sun_m_853_29_alg».proof.Proof.LibDenseLayer

noncomputable section

namespace Cert.GraphNet

open scoped BigOperators
open Idealize.ShloMosaic

section
variable (x : Fin 100 → Fin 100 → Fin 128 → ℝ)

/-! ## The edge-list arrangement over the reals -/

/-- A node's degree counted by the edges INTO it: the sources i close to j, and j itself. -/
def refDeg (b j : Fin 100) : ℝ := (∑ i, if near (x b i 0) (x b j 0) ∧ i ≠ j then (1 : ℝ) else 0) + 1

/-- Closeness is symmetric, so the degree by incoming edges is the degree by the row of the adjacency. -/
theorem refDeg_eq_deg (b j : Fin 100) : refDeg x b j = deg x b j := by
  unfold refDeg deg adj
  rw [Cert.DenseLayerReal.colsum_eq_rowsum (fun i j => near (x b i 0) (x b j 0)) (fun i j => near_symm _ _) (1 : ℝ) j]

/-- One graph-convolution layer, the neighbourhood sum written over the edges into node j: every source i close to j
    contributes its row scaled by dis i · dis j, and the self loop contributes j's own row scaled by dis j · dis j. -/
def refLayer (h : Fin 100 → Fin 100 → Fin 128 → ℝ) (W : Fin 128 → Fin 128 → ℝ) (bias : Fin 128 → ℝ)
    (b j : Fin 100) (c : Fin 128) : ℝ :=
  max (((∑ i, if near (x b i 0) (x b j 0) ∧ i ≠ j then lin h W b i c * (dis x b i * dis x b j) else 0)
    + lin h W b j c * (dis x b j * dis x b j)) + bias c) 0

/-- THE TWO ARRANGEMENTS AGREE: by the symmetry of closeness the sources of the edges into j are the neighbours in
    row j of the adjacency, and the factor dis j moves across the finite sum. -/
theorem refLayer_eq_layer (h : Fin 100 → Fin 100 → Fin 128 → ℝ) (W : Fin 128 → Fin 128 → ℝ) (bias : Fin 128 → ℝ)
    (b j : Fin 100) (c : Fin 128) : refLayer x h W bias b j c = layer x h W bias b j c := by
  unfold refLayer layer adj
  rw [Cert.DenseLayerReal.layer_law (fun i j => near (x b i 0) (x b j 0)) (fun i j => near_symm _ _)
    (fun i => lin h W b i c) (fun i => dis x b i) j]

/-- As functions. -/
theorem refLayer_eq_layer' (h : Fin 100 → Fin 100 → Fin 128 → ℝ) (W : Fin 128 → Fin 128 → ℝ) (bias : Fin 128 → ℝ) :
    refLayer x h W bias = layer x h W bias := by
  funext b j c
  exact refLayer_eq_layer x h W bias b j c

/-! ## Signs -/

/-- An adjacency entry is nonnegative. -/
theorem adj_nonneg (b i j : Fin 100) : 0 ≤ adj x b i j := by
  unfold adj
  split <;> norm_num

/-- A degree is positive. -/
theorem deg_pos (b i : Fin 100) : 0 < deg x b i := by
  unfold deg
  have := Finset.sum_nonneg fun j (_ : j ∈ Finset.univ) => adj_nonneg x b i j
  linarith

/-- The normalisation's factor is positive. -/
theorem dis_pos (b i : Fin 100) : 0 < dis x b i := Cert.DenseLayer.dis_pos (deg_pos x b i)

/-! ## The same quantities on the extended reals -/

/-- An adjacency entry as an extended real. -/
theorem coe_adj (b i j : Fin 100) :
    ((adj x b i j : ℝ) : EReal) = if near (x b i 0) (x b j 0) ∧ i ≠ j then 1 else 0 := by
  unfold adj
  split
  · exact EReal.coe_one
  · exact EReal.coe_zero

/-- A degree as an extended real: the count along the row, plus one. -/
theorem coe_deg (b i : Fin 100) :
    ((deg x b i : ℝ) : EReal) = (∑ j, if near (x b i 0) (x b j 0) ∧ i ≠ j then (1 : EReal) else 0) + 1 := by
  unfold deg
  rw [EReal.coe_add, Cert.DenseLayer.coe_sum, EReal.coe_one]
  congr 1
  exact Finset.sum_congr rfl fun j _ => coe_adj x b i j

/-- … and the count along the column, plus one (the degree a segment sum of ones over the edge list computes). -/
theorem coe_deg_col (b j : Fin 100) :
    ((deg x b j : ℝ) : EReal) = (∑ i, if near (x b i 0) (x b j 0) ∧ i ≠ j then (1 : EReal) else 0) + 1 := by
  rw [coe_deg, Cert.DenseLayerReal.colsum_eq_rowsum (fun i j => near (x b i 0) (x b j 0)) (fun i j => near_symm _ _)
    (1 : EReal) j]

/-- The normalisation's factor as the ideal values compute it, 1 / sqrt(deg), is the real one. -/
theorem coe_dis (b i : Fin 100) : Ideal.div 1 (Ideal.sqrt ((deg x b i : ℝ) : EReal)) = ((dis x b i : ℝ) : EReal) := by
  unfold dis
  exact Cert.DenseLayer.dis_coe (deg_pos x b i)

/-- Features times a weight matrix, as an extended real. -/
theorem coe_lin {K N : ℕ} (h : Fin 100 → Fin 100 → Fin K → ℝ) (W : Fin K → Fin N → ℝ) (b i : Fin 100) (c : Fin N) :
    ((lin h W b i c : ℝ) : EReal) = ∑ k, (h b i k : EReal) * (W k c : EReal) := by
  unfold lin
  rw [Cert.DenseLayer.coe_sum]
  exact Finset.sum_congr rfl fun k _ => EReal.coe_mul _ _

/-- THE DENSE ARRANGEMENT ON THE EXTENDED REALS: computed with the extended reals' sums and products from the casts of
    the adjacency, the identity, the scaled rows and the bias, the layer is the cast of the real layer. -/
theorem coe_layer (h : Fin 100 → Fin 100 → Fin 128 → ℝ) (W : Fin 128 → Fin 128 → ℝ) (bias : Fin 128 → ℝ)
    (b i : Fin 100) (c : Fin 128) :
    max ((∑ j, (((adj x b i j : ℝ) : EReal) + (if i = j then (1 : EReal) else 0))
        * (((lin h W b j c : ℝ) : EReal) * ((dis x b j : ℝ) : EReal))) * ((dis x b i : ℝ) : EReal)
      + ((bias c : ℝ) : EReal)) 0 = ((layer x h W bias b i c : ℝ) : EReal) := by
  have hE : ∀ j : Fin 100, (if i = j then (1 : EReal) else 0) = (((if i = j then (1 : ℝ) else 0) : ℝ) : EReal) := by
    intro j
    split
    · exact EReal.coe_one.symm
    · exact EReal.coe_zero.symm
  simp only [hE, ← EReal.coe_add, ← EReal.coe_mul, ← Cert.DenseLayer.coe_sum, Cert.DenseLayer.max_coe_zero]
  rfl

/-- THE SAME WITH THE PRODUCT IN THREE CHUNKS, q, q - q and (q - q) - (q - q), q the scaled rows. -/
theorem coe_layer_split (h : Fin 100 → Fin 100 → Fin 128 → ℝ) (W : Fin 128 → Fin 128 → ℝ) (bias : Fin 128 → ℝ)
    (b i : Fin 100) (c : Fin 128) :
    max (((∑ j, (((adj x b i j : ℝ) : EReal) + (if i = j then (1 : EReal) else 0))
          * (((lin h W b j c : ℝ) : EReal) * ((dis x b j : ℝ) : EReal)))
        + ((∑ j, (((adj x b i j : ℝ) : EReal) + (if i = j then (1 : EReal) else 0))
            * (((lin h W b j c : ℝ) : EReal) * ((dis x b j : ℝ) : EReal)
              - ((lin h W b j c : ℝ) : EReal) * ((dis x b j : ℝ) : EReal)))
          + ∑ j, (((adj x b i j : ℝ) : EReal) + (if i = j then (1 : EReal) else 0))
            * ((((lin h W b j c : ℝ) : EReal) * ((dis x b j : ℝ) : EReal)
                - ((lin h W b j c : ℝ) : EReal) * ((dis x b j : ℝ) : EReal))
              - (((lin h W b j c : ℝ) : EReal) * ((dis x b j : ℝ) : EReal)
                - ((lin h W b j c : ℝ) : EReal) * ((dis x b j : ℝ) : EReal))))) * ((dis x b i : ℝ) : EReal)
      + ((bias c : ℝ) : EReal)) 0 = ((layer x h W bias b i c : ℝ) : EReal) := by
  rw [Cert.DenseLayer.split3 (fun j => ((adj x b i j : ℝ) : EReal) + (if i = j then (1 : EReal) else 0))
    (fun j => ((lin h W b j c : ℝ) : EReal) * ((dis x b j : ℝ) : EReal))
    fun j => Cert.DenseLayer.isReal_mul (Cert.DenseLayer.isReal_coe _) (Cert.DenseLayer.isReal_coe _)]
  exact coe_layer x h W bias b i c

/-- THE EDGE-LIST ARRANGEMENT ON THE EXTENDED REALS: likewise the cast of the real edge-list layer, hence of the layer. -/
theorem coe_refLayer (h : Fin 100 → Fin 100 → Fin 128 → ℝ) (W : Fin 128 → Fin 128 → ℝ) (bias : Fin 128 → ℝ)
    (b j : Fin 100) (c : Fin 128) :
    max (((∑ i, if near (x b i 0) (x b j 0) ∧ i ≠ j
          then ((lin h W b i c : ℝ) : EReal) * (((dis x b i : ℝ) : EReal) * ((dis x b j : ℝ) : EReal)) else 0)
        + ((lin h W b j c : ℝ) : EReal) * (((dis x b j : ℝ) : EReal) * ((dis x b j : ℝ) : EReal)))
      + ((bias c : ℝ) : EReal)) 0 = ((layer x h W bias b j c : ℝ) : EReal) := by
  have hI : ∀ i : Fin 100, (if near (x b i 0) (x b j 0) ∧ i ≠ j
        then ((lin h W b i c : ℝ) : EReal) * (((dis x b i : ℝ) : EReal) * ((dis x b j : ℝ) : EReal)) else 0)
      = (((if near (x b i 0) (x b j 0) ∧ i ≠ j then lin h W b i c * (dis x b i * dis x b j) else 0 : ℝ)) : EReal) := by
    intro i
    split
    · rw [EReal.coe_mul, EReal.coe_mul]
    · exact EReal.coe_zero.symm
  rw [Finset.sum_congr rfl fun i _ => hI i]
  simp only [← EReal.coe_add, ← EReal.coe_mul, ← Cert.DenseLayer.coe_sum, Cert.DenseLayer.max_coe_zero]
  rw [← refLayer_eq_layer]
  rfl

end

end Cert.GraphNet

end
-- ==== Proof.LibTwoSumMask.lean ====
/-
  The exact two-sum edge test of two longitudes, read on the extended reals at REAL arguments.

  For extended reals A and NB put s = A + NB, t = s - A and e = (A - (s - t)) + (NB - t) (the error term of the
  two-sum of A and NB), hi = max s (-s) (the absolute value of s) and lo = e with the sign of s (-e where s < 0).
  The edge test is

      hi < T  or  (hi = T and lo < 0)  or  hi > T'  or  (hi = T' and lo > 0).

  When A and NB are real numbers every operation above is the exact one of the reals, so e = 0 (the two-sum of exact
  numbers has no error), hence lo = 0, the two tie-breaking clauses are false, and the test is hi < T or hi > T' with
  hi = |a + nb|. With nb = -c the quantity |a - c| is unchanged when a and c are exchanged, so the test is symmetric.

  The comparisons are the ones of the ideal float values (the comparison of extended reals as a one-bit word), the
  conjunctions and disjunctions are the bitwise ones on one-bit words, and the choice by the sign of s is the select on
  a one-bit condition; the negation is spelt either as -x or as z - x with z = 0, the two spellings that occur.
-/
import Idealize.ShloMosaic.PureOps.Ideal.Laws

noncomputable section

namespace Cert.TwoSumMask

open Idealize.ShloMosaic

/-! ## The error term of the two-sum is zero at real arguments -/

/-- The two-sum error term of two real numbers, computed with the extended reals' own sum and difference, is zero. -/
theorem twoSum_err_coe (a nb : ℝ) :
    ((a : EReal) - (((a : EReal) + (nb : EReal)) - (((a : EReal) + (nb : EReal)) - (a : EReal))))
      + ((nb : EReal) - (((a : EReal) + (nb : EReal)) - (a : EReal))) = 0 := by
  rw [← EReal.coe_add, ← EReal.coe_sub, ← EReal.coe_sub, ← EReal.coe_sub, ← EReal.coe_sub, ← EReal.coe_add,
    ← EReal.coe_zero]
  congr 1
  ring

/-- The same for extended reals known to be real numbers. -/
theorem twoSum_err_of_real {A NB : EReal} (hA : ∃ r : ℝ, A = (r : EReal)) (hNB : ∃ r : ℝ, NB = (r : EReal)) :
    (A - ((A + NB) - ((A + NB) - A))) + (NB - ((A + NB) - A)) = 0 := by
  obtain ⟨a, rfl⟩ := hA
  obtain ⟨nb, rfl⟩ := hNB
  exact twoSum_err_coe a nb

/-- The negation of a real number, in either spelling, is a real number: -x, and z - x with z = 0. -/
theorem neg_real {X : EReal} (hX : ∃ r : ℝ, X = (r : EReal)) : ∃ r : ℝ, -X = (r : EReal) := by
  obtain ⟨x, rfl⟩ := hX
  exact ⟨-x, (EReal.coe_neg x).symm⟩

theorem zero_sub_real {z X : EReal} (hz : z = 0) (hX : ∃ r : ℝ, X = (r : EReal)) : ∃ r : ℝ, z - X = (r : EReal) := by
  obtain ⟨x, rfl⟩ := hX
  subst hz
  exact ⟨-x, by rw [zero_sub, EReal.coe_neg]⟩

/-- z - x with z = 0 is -x on the extended reals. -/
theorem zero_sub_eq_neg {z : EReal} (hz : z = 0) (X : EReal) : z - X = -X := by
  subst hz
  exact zero_sub X

/-! ## The low word is zero -/

/-- A select between two equal values is that value. -/
theorem select_self {α : Type} (c : BitVec 1) (x : α) : Scalar.select c x x = x := by
  unfold Scalar.select
  split <;> rfl

/-- The error term carrying the sign of s, with the negation spelt -e: zero when e is zero. -/
theorem lo_neg_eq_zero (c : BitVec 1) {e : EReal} (he : e = 0) : Scalar.select c (-e) e = 0 := by
  subst he
  rw [neg_zero, select_self]

/-- The same with the negation spelt z - e, z = 0. -/
theorem lo_sub_eq_zero (c : BitVec 1) {z e : EReal} (hz : z = 0) (he : e = 0) : Scalar.select c (z - e) e = 0 := by
  subst hz he
  rw [zero_sub, neg_zero, select_self]

/-! ## The four-way test with a zero low word -/

/-- With lo = 0 the four-way test is the two-way one: the clauses (hi = T and lo < 0) and (hi = T' and lo > 0) are
    false, as 0 < 0 is. As one-bit words. -/
theorem mask_word_eq (hi lo T T' z : EReal) (hz : z = 0) (hlo : lo = 0) :
    IntOp.ori (IntOp.ori (IntOp.ori (Ideal.cmp .olt hi T)
        (IntOp.andi (Ideal.cmp .oeq hi T) (Ideal.cmp .olt lo z))) (Ideal.cmp .ogt hi T'))
        (IntOp.andi (Ideal.cmp .oeq hi T') (Ideal.cmp .ogt lo z))
      = BitVec.ofBool (decide (hi < T ∨ T' < hi)) := by
  subst hz hlo
  by_cases h1 : hi < T <;> by_cases h2 : T' < hi <;>
    simp [Ideal.cmp, IntOp.ori, IntOp.andi, h1, h2]

/-- The same as a statement about the word being 1. -/
theorem mask_word_eq_one_iff (hi lo T T' z : EReal) (hz : z = 0) (hlo : lo = 0) :
    IntOp.ori (IntOp.ori (IntOp.ori (Ideal.cmp .olt hi T)
        (IntOp.andi (Ideal.cmp .oeq hi T) (Ideal.cmp .olt lo z))) (Ideal.cmp .ogt hi T'))
        (IntOp.andi (Ideal.cmp .oeq hi T') (Ideal.cmp .ogt lo z)) = 1#1
      ↔ (hi < T ∨ T' < hi) := by
  rw [mask_word_eq hi lo T T' z hz hlo]
  by_cases h : hi < T ∨ T' < hi <;> simp [h]

/-! ## The high word at real arguments -/

/-- The absolute value as the ideal values define it, max s (-s), at a real number is the real absolute value. -/
theorem hi_coe (s : ℝ) : max (s : EReal) (-(s : EReal)) = ((|s| : ℝ) : EReal) := by
  rw [← EReal.coe_neg, abs_eq_max_neg]
  exact (EReal.coe_strictMono.monotone.map_max).symm

/-- … and at a sum of two real numbers. -/
theorem hi_add_coe (a nb : ℝ) :
    max ((a : EReal) + (nb : EReal)) (-((a : EReal) + (nb : EReal))) = ((|a + nb| : ℝ) : EReal) := by
  rw [← EReal.coe_add, hi_coe]

/-! ## The whole test at real arguments -/

/-- THE EDGE TEST on real numbers: the distance of a and c is below t or above t'. -/
def edge (t t' a c : ℝ) : Prop := |a - c| < t ∨ t' < |a - c|

/-- The edge test is symmetric in the two numbers. -/
theorem edge_symm (t t' a c : ℝ) : edge t t' a c ↔ edge t t' c a := by
  unfold edge
  rw [abs_sub_comm a c]

/-- The whole four-way test of the programs, at real longitude A, real negated longitude NB, real thresholds and a
    zero constant z, with the negation of the error term spelt -e: as a one-bit word it is 1 exactly when
    |a + nb| < t or t' < |a + nb|. -/
theorem mask_word_neg_eq_one_iff (a nb t t' : ℝ) {z : EReal} (hz : z = 0) :
    IntOp.ori (IntOp.ori (IntOp.ori
        (Ideal.cmp .olt (max ((a : EReal) + (nb : EReal)) (-((a : EReal) + (nb : EReal)))) (t : EReal))
        (IntOp.andi (Ideal.cmp .oeq (max ((a : EReal) + (nb : EReal)) (-((a : EReal) + (nb : EReal)))) (t : EReal))
          (Ideal.cmp .olt (Scalar.select (Ideal.cmp .olt ((a : EReal) + (nb : EReal)) z)
            (-(((a : EReal) - (((a : EReal) + (nb : EReal)) - (((a : EReal) + (nb : EReal)) - (a : EReal))))
              + ((nb : EReal) - (((a : EReal) + (nb : EReal)) - (a : EReal)))))
            (((a : EReal) - (((a : EReal) + (nb : EReal)) - (((a : EReal) + (nb : EReal)) - (a : EReal))))
              + ((nb : EReal) - (((a : EReal) + (nb : EReal)) - (a : EReal))))) z)))
        (Ideal.cmp .ogt (max ((a : EReal) + (nb : EReal)) (-((a : EReal) + (nb : EReal)))) (t' : EReal)))
        (IntOp.andi (Ideal.cmp .oeq (max ((a : EReal) + (nb : EReal)) (-((a : EReal) + (nb : EReal)))) (t' : EReal))
          (Ideal.cmp .ogt (Scalar.select (Ideal.cmp .olt ((a : EReal) + (nb : EReal)) z)
            (-(((a : EReal) - (((a : EReal) + (nb : EReal)) - (((a : EReal) + (nb : EReal)) - (a : EReal))))
              + ((nb : EReal) - (((a : EReal) + (nb : EReal)) - (a : EReal)))))
            (((a : EReal) - (((a : EReal) + (nb : EReal)) - (((a : EReal) + (nb : EReal)) - (a : EReal))))
              + ((nb : EReal) - (((a : EReal) + (nb : EReal)) - (a : EReal))))) z)) = 1#1
      ↔ (|a + nb| < t ∨ t' < |a + nb|) := by
  rw [mask_word_eq_one_iff _ _ _ _ z hz (lo_neg_eq_zero _ (twoSum_err_coe a nb)), hi_add_coe,
    EReal.coe_lt_coe_iff, EReal.coe_lt_coe_iff]

/-- The same with the negation of the error term spelt z - e. -/
theorem mask_word_sub_eq_one_iff (a nb t t' : ℝ) {z : EReal} (hz : z = 0) :
    IntOp.ori (IntOp.ori (IntOp.ori
        (Ideal.cmp .olt (max ((a : EReal) + (nb : EReal)) (-((a : EReal) + (nb : EReal)))) (t : EReal))
        (IntOp.andi (Ideal.cmp .oeq (max ((a : EReal) + (nb : EReal)) (-((a : EReal) + (nb : EReal)))) (t : EReal))
          (Ideal.cmp .olt (Scalar.select (Ideal.cmp .olt ((a : EReal) + (nb : EReal)) z)
            (z - (((a : EReal) - (((a : EReal) + (nb : EReal)) - (((a : EReal) + (nb : EReal)) - (a : EReal))))
              + ((nb : EReal) - (((a : EReal) + (nb : EReal)) - (a : EReal)))))
            (((a : EReal) - (((a : EReal) + (nb : EReal)) - (((a : EReal) + (nb : EReal)) - (a : EReal))))
              + ((nb : EReal) - (((a : EReal) + (nb : EReal)) - (a : EReal))))) z)))
        (Ideal.cmp .ogt (max ((a : EReal) + (nb : EReal)) (-((a : EReal) + (nb : EReal)))) (t' : EReal)))
        (IntOp.andi (Ideal.cmp .oeq (max ((a : EReal) + (nb : EReal)) (-((a : EReal) + (nb : EReal)))) (t' : EReal))
          (Ideal.cmp .ogt (Scalar.select (Ideal.cmp .olt ((a : EReal) + (nb : EReal)) z)
            (z - (((a : EReal) - (((a : EReal) + (nb : EReal)) - (((a : EReal) + (nb : EReal)) - (a : EReal))))
              + ((nb : EReal) - (((a : EReal) + (nb : EReal)) - (a : EReal)))))
            (((a : EReal) - (((a : EReal) + (nb : EReal)) - (((a : EReal) + (nb : EReal)) - (a : EReal))))
              + ((nb : EReal) - (((a : EReal) + (nb : EReal)) - (a : EReal))))) z)) = 1#1
      ↔ (|a + nb| < t ∨ t' < |a + nb|) := by
  rw [mask_word_eq_one_iff _ _ _ _ z hz (lo_sub_eq_zero _ hz (twoSum_err_coe a nb)), hi_add_coe,
    EReal.coe_lt_coe_iff, EReal.coe_lt_coe_iff]

/-- With NB the negated second longitude, in either spelling, the test is the edge test of the two longitudes. -/
theorem abs_add_neg (a c : ℝ) : |a + -c| = |a - c| := by rw [sub_eq_add_neg]

/-- The negated longitude as a real number: -↑c is ↑(-c), and z - ↑c with z = 0 is ↑(-c). -/
theorem neg_coe (c : ℝ) : -(c : EReal) = ((-c : ℝ) : EReal) := (EReal.coe_neg c).symm

theorem zero_sub_coe {z : EReal} (hz : z = 0) (c : ℝ) : z - (c : EReal) = ((-c : ℝ) : EReal) := by
  rw [zero_sub_eq_neg hz, neg_coe]

/-! ## The constants' bit patterns -/

/-- The single-precision pattern 0x41200000 denotes the real number 10. -/
theorem ofBits_f32_ten : Ideal.ofBits .f32 0x41200000#32 = ((10 : ℝ) : EReal) := by
  simp [Ideal.ofBits, Ideal.ieee, -EReal.coe_mul]
  norm_num

/-- The single-precision pattern 0x43AF0000 denotes the real number 350. -/
theorem ofBits_f32_350 : Ideal.ofBits .f32 0x43AF0000#32 = ((350 : ℝ) : EReal) := by
  simp [Ideal.ofBits, Ideal.ieee, -EReal.coe_mul]
  norm_num

/-- The single-precision pattern 0x3F800000 denotes the real number 1. -/
theorem ofBits_f32_one : Ideal.ofBits .f32 0x3F800000#32 = ((1 : ℝ) : EReal) := by
  simp [Ideal.ofBits, Ideal.ieee, -EReal.coe_mul]
  norm_num

/-- The single-precision pattern 0x00000000 denotes zero. -/
theorem ofBits_f32_zero : Ideal.ofBits .f32 0x00000000#32 = 0 := Ideal.ofBits_zero_f32

/-- A one-bit word widened to 32 bits and read as a signed integer, as a float: 1 for the bit 1 and 0 for the bit 0
    (the adjacency entry made from the edge test's bit). -/
theorem bit_to_real (c : BitVec 1) : (((c.setWidth 32).toInt : ℝ) : EReal) = if c = 1#1 then 1 else 0 := by
  rcases BitVec.eq_zero_or_eq_one c with h | h <;> subst h <;> simp

end Cert.TwoSumMask
-- ==== Proof.LibAdjBits.lean ====
/-
  Adjacency and identity entries, and destination words, made from one-bit words.

  A dense adjacency entry is the edge test's bit AND the bit of "row ≠ column", widened to a 32-bit word and converted
  to a float: 1 when both bits are 1 and 0 otherwise. An identity entry is the select on the bit of "row ≠ column"
  between 0 and 1. An edge list's destination word is the select on the edge bit between the node's number and the dump
  bucket's, and read as a signed integer it is that number. The bit of "row ≠ column" compares the two coordinates as
  32-bit words, which tells them apart as numbers below 2^32; the edge list's spelling is the complement of the bit of
  "row = column".
-/
import Idealize.ShloMosaic.Lib.Affine
import Idealize.ShloMosaic.PureOps.Ideal.Laws

noncomputable section

namespace Cert.AdjBits

open Idealize.ShloMosaic

/-! ## One-bit words -/

/-- A one-bit word is 1 or it is 0. -/
theorem eq_zero_iff_ne_one (c : BitVec 1) : c = 0#1 ↔ ¬ c = 1#1 := by revert c; decide

/-- The complement of a one-bit word is 1 exactly when the word is not. -/
theorem not_eq_one (c : BitVec 1) : ~~~c = 1#1 ↔ ¬ c = 1#1 := by revert c; decide

/-- A select on the bit 1 is its first operand. -/
theorem select_one {α : Type} (a b : α) : Scalar.select 1#1 a b = a := if_pos rfl

/-- A select on the bit 0 is its second operand. -/
theorem select_zero {α : Type} (a b : α) : Scalar.select 0#1 a b = b := if_neg (by decide)

/-- Two numbers below 2^32 are equal exactly when their 32-bit words are. -/
theorem ofNat_eq_iff {i j : ℕ} (hi : i < 2 ^ 32) (hj : j < 2 ^ 32) : BitVec.ofNat 32 i = BitVec.ofNat 32 j ↔ i = j := by
  constructor
  · intro h
    have h' := congrArg BitVec.toNat h
    rw [BitVec.toNat_ofNat, BitVec.toNat_ofNat, Nat.mod_eq_of_lt hi, Nat.mod_eq_of_lt hj] at h'
    exact h'
  · rintro rfl; rfl

/-- The bit of "row ≠ column" on coordinates below 2^32. -/
theorem cmpi_ne_ofNat {i j : ℕ} (hi : i < 2 ^ 32) (hj : j < 2 ^ 32) :
    IntOp.cmpi .ne (BitVec.ofNat 32 i) (BitVec.ofNat 32 j) = 1#1 ↔ i ≠ j := by
  rw [IntOp.cmpi_ne, Ne, ofNat_eq_iff hi hj]

/-- The bit of "row = column" on coordinates below 2^32. -/
theorem cmpi_eq_ofNat {i j : ℕ} (hi : i < 2 ^ 32) (hj : j < 2 ^ 32) :
    IntOp.cmpi .eq (BitVec.ofNat 32 i) (BitVec.ofNat 32 j) = 1#1 ↔ i = j := by
  rw [IntOp.cmpi_eq, ofNat_eq_iff hi hj]

/-- … and its complement, the edge list's spelling of "row ≠ column". -/
theorem not_cmpi_eq_ofNat {i j : ℕ} (hi : i < 2 ^ 32) (hj : j < 2 ^ 32) :
    ~~~(IntOp.cmpi .eq (BitVec.ofNat 32 i) (BitVec.ofNat 32 j)) = 1#1 ↔ i ≠ j := by
  rw [not_eq_one, cmpi_eq_ofNat hi hj]

/-! ## Float entries from bits -/

/-- A one-bit word widened to 32 bits, read as a signed integer and converted to a float: 1 for the bit 1, else 0. -/
theorem bit_to_real (c : BitVec 1) : (((c.setWidth 32).toInt : ℝ) : EReal) = if c = 1#1 then 1 else 0 := by
  rcases BitVec.eq_zero_or_eq_one c with h | h <;> subst h <;> simp

/-- THE ADJACENCY ENTRY: the edge bit AND the off-diagonal bit, as a float, is 1 exactly when the edge test holds and
    the entry is off the diagonal. -/
theorem adj_entry {c d : BitVec 1} {p q : Prop} [Decidable p] [Decidable q] (hc : c = 1#1 ↔ p) (hd : d = 1#1 ↔ q) :
    ((((IntOp.andi c d).setWidth 32).toInt : ℝ) : EReal) = if p ∧ q then 1 else 0 := by
  rw [bit_to_real]
  by_cases h : p ∧ q
  · rw [if_pos h, if_pos (IntOp.andi_eq_one.mpr ⟨hc.mpr h.1, hd.mpr h.2⟩)]
  · rw [if_neg h, if_neg fun h' => h ⟨hc.mp (IntOp.andi_eq_one.mp h').1, hd.mp (IntOp.andi_eq_one.mp h').2⟩]

/-- THE IDENTITY ENTRY: the select on the off-diagonal bit between z = 0 and o = 1 is 1 exactly on the diagonal. -/
theorem eye_entry {d : BitVec 1} {q : Prop} [Decidable q] (hd : d = 1#1 ↔ ¬ q) {z o : EReal} (hz : z = 0) (ho : o = 1) :
    Scalar.select d z o = if q then 1 else 0 := by
  subst hz ho
  by_cases h : q
  · rw [if_pos h, (eq_zero_iff_ne_one d).mpr fun h' => (hd.mp h') h, select_zero]
  · rw [if_neg h, hd.mpr h, select_one]

/-! ## Destination words -/

/-- A number below 2^31 as a 32-bit word, read signed, is the number. -/
theorem toInt_ofNat {n : ℕ} (hn : n < 2 ^ 31) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- THE DESTINATION WORD: the select on the edge bit between a node's number and the dump bucket's, read signed, is the
    node's number when the edge test holds and the dump bucket's otherwise. -/
theorem dst_word {c : BitVec 1} {p : Prop} [Decidable p] (hc : c = 1#1 ↔ p) {n N : ℕ} (hn : n < 2 ^ 31) (hN : N < 2 ^ 31) :
    (Scalar.select c (BitVec.ofNat 32 n) (BitVec.ofNat 32 N)).toInt = if p then (n : ℤ) else (N : ℤ) := by
  by_cases h : p
  · rw [if_pos h, hc.mpr h, select_one, toInt_ofNat hn]
  · rw [if_neg h, (eq_zero_iff_ne_one c).mpr fun h' => h (hc.mp h'), select_zero, toInt_ofNat hN]

end Cert.AdjBits
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KernelStage1.lean ====
/-
  The first stage of one graph's share of the kernel body, read at an index on the extended reals: from the graph's
  node features and longitudes to the normalisation's factor dis = 1 / sqrt(deg) and to the adjacency plus the identity.

  The longitude of node i is feature 0 of its row; the body forms s(i, j) = lon_i + (0 - lon_j), hi = |s| and the error
  term lo of that two-sum carrying the sign of s. At real longitudes s is the exact difference, hi is the distance
  |lon_i - lon_j| and lo is zero, so the four-way threshold test on (hi, lo) is the closeness test of the two longitudes
  (distance below 10 or above 350). Its bit AND the bit of "row ≠ column", widened to a 32-bit word and converted to a
  float, is the adjacency entry adj(i, j); the select on the bit of "row ≠ column" between 0 and 1 is the identity's
  entry. The sum of the adjacency along row i plus one is the degree deg(i), and one over its square root is dis(i).
-/
import Idealize.ShloMosaic.Lib.ValueIdx
import Idealize.ShloMosaic.Lib.ValueLayout
import Idealize.ShloMosaic.Lib.Pipeline.Value
import Idealize.ShloMosaic.PureOps.Ideal.Laws
import proofs.«176687_g19121194402273_cont_sun_m_853_29_alg».proof.Proof.KernelRow
import proofs.«176687_g19121194402273_cont_sun_m_853_29_alg».proof.Proof.Spec
import proofs.«176687_g19121194402273_cont_sun_m_853_29_alg».proof.Proof.SpecRef
import proofs.«176687_g19121194402273_cont_sun_m_853_29_alg».proof.Proof.LibTwoSumMask
import proofs.«176687_g19121194402273_cont_sun_m_853_29_alg».proof.Proof.LibAdjBits
import proofs.«176687_g19121194402273_cont_sun_m_853_29_alg».proof.Proof.LibDenseLayer
import proofs.«176687_g19121194402273_cont_sun_m_853_29_alg».proof.Proof.LibColumnLayout
import proofs.«176687_g19121194402273_cont_sun_m_853_29_alg».proof.Proof.LibRowLift

noncomputable section

namespace Cert.KernelIdeal.Stage1

open Idealize.ShloMosaic Idealize.ShloMosaic.ValueIdx
open Cert.KernelIdeal Cert.KernelIdeal.Gen Cert.GraphNet

/-! ## The off-diagonal bit and the identity -/

/-- The bit of "row ≠ column": the two coordinates compared as 32-bit words. -/
theorem offdiag_apply (i j : Fin 100) : k0_pay2 (ix2 i j) = 1#1 ↔ i ≠ j := by
  unfold k0_pay2
  show IntOp.cmpi .ne (iota .tc S100x100 32 [0] iota_S100x100_d0_w32 (ix2 i j))
    (iota .tc S100x100 32 [1] iota_S100x100_d1_w32 (ix2 i j)) = 1#1 ↔ i ≠ j
  rw [iota_single_apply, iota_single_apply]
  show IntOp.cmpi .ne (BitVec.ofNat 32 i.val) (BitVec.ofNat 32 j.val) = 1#1 ↔ i ≠ j
  rw [Cert.AdjBits.cmpi_ne_ofNat (by have := i.isLt; omega) (by have := j.isLt; omega)]
  exact ⟨fun h e => h (congrArg Fin.val e), fun h e => h (Fin.ext e)⟩

/-- The identity matrix: the select on the off-diagonal bit between 0 and 1. -/
theorem eye_apply (i j : Fin 100) : k0_pay3 (F := Ideal) (ix2 i j) = if i = j then 1 else 0 := by
  unfold k0_pay3
  show Scalar.select (k0_pay2 (ix2 i j)) (Ideal.ofBits .f32 0x00000000#32) (Ideal.ofBits .f32 0x3F800000#32) = _
  exact Cert.AdjBits.eye_entry (q := i = j) (offdiag_apply i j) Cert.TwoSumMask.ofBits_f32_zero
    (Cert.TwoSumMask.ofBits_f32_one.trans EReal.coe_one)

/-! ## The longitudes, their two-sum, hi and lo -/

section
variable (x : Fin 100 → Fin 100 → Fin 128 → ℝ) (b : Fin 100) (xg : Vec Ideal S1x100x128 .f32)
  (hx : ∀ (i : Fin 100) (k : Fin 128), xg (ix3 0 i k) = ((x b i k : ℝ) : EReal))
include hx

/-- The longitude column: feature 0 of every node. -/
theorem lonCol_apply (i : Fin 100) (u : Fin 1) : k0_pay9 (F := Ideal) xg (ix2 i u) = ((x b i 0 : ℝ) : EReal) := by
  unfold k0_pay9 k0_pay8
  refine (slice2_axis1_apply 0 _ slices_S100x128_o0_0_S100x1 i u (0 : Fin 128)
    (by have := u.isLt; show (0 : ℕ) = 0 + u.val; omega)).trans ?_
  refine (shapeCast_1ab_ab_apply xg shapeCasts_S1x100x128_S100x128 i 0).trans ?_
  exact hx i 0

end

section
variable (x : Fin 100 → Fin 100 → Fin 128 → ℝ) (b : Fin 100) (lg : Vec Ideal S1x1x100 .f32)
  (hl : ∀ j : Fin 100, lg (ix3 0 0 j) = ((x b j 0 : ℝ) : EReal))
include hl

/-- Zero minus the longitude row: the negated longitude of every node. -/
theorem negLonRow_apply (u : Fin 1) (j : Fin 100) :
    k0_pay10 (F := Ideal) lg (ix2 u j) = ((-(x b j 0) : ℝ) : EReal) := by
  unfold k0_pay10
  refine (subf_apply _ _ _).trans ?_
  rw [broadcast_apply]
  have hu : u = 0 := Subsingleton.elim _ _
  subst hu
  rw [shapeCast_1ab_ab_apply lg shapeCasts_S1x1x100_S1x100 0 j, hl j]
  exact Cert.TwoSumMask.zero_sub_coe Cert.TwoSumMask.ofBits_f32_zero _

end

section
variable (x : Fin 100 → Fin 100 → Fin 128 → ℝ) (b : Fin 100)
  (xg : Vec Ideal S1x100x128 .f32) (lg : Vec Ideal S1x1x100 .f32)
  (hx : ∀ (i : Fin 100) (k : Fin 128), xg (ix3 0 i k) = ((x b i k : ℝ) : EReal))
  (hl : ∀ j : Fin 100, lg (ix3 0 0 j) = ((x b j 0 : ℝ) : EReal))
include hx hl

/-- s(i, j) is the longitude of node i plus the negated longitude of node j. -/
theorem s_apply (i j : Fin 100) :
    k0_pay11 (F := Ideal) xg lg (ix2 i j) = ((x b i 0 : ℝ) : EReal) + ((-(x b j 0) : ℝ) : EReal) := by
  unfold k0_pay11
  refine (addf_apply _ _ _).trans ?_
  rw [Cert.ColumnLayout.broadcastTo_a1_ab_apply _ broadcasts_S100x1_S100x100 i j,
    broadcastTo_1b_ab_apply _ broadcasts_S1x100_S100x100 i j,
    lonCol_apply x b xg hx i 0, negLonRow_apply x b lg hl 0 j]

/-- hi = |s| is the distance of the two longitudes. -/
theorem hi_apply (i j : Fin 100) :
    k0_pay12 (F := Ideal) xg lg (ix2 i j) = ((|x b i 0 - x b j 0| : ℝ) : EReal) := by
  unfold k0_pay12
  show max (k0_pay11 (F := Ideal) xg lg (ix2 i j)) (-(k0_pay11 (F := Ideal) xg lg (ix2 i j))) = _
  rw [s_apply x b xg lg hx hl i j, Cert.TwoSumMask.hi_add_coe, Cert.TwoSumMask.abs_add_neg]

/-- lo, the two-sum's error term carrying the sign of s, is zero: the two-sum of real numbers has no error. -/
theorem lo_apply (i j : Fin 100) : k0_pay13 (F := Ideal) xg lg (ix2 i j) = 0 := by
  unfold k0_pay13
  have hA : broadcastTo S100x100 (k0_pay9 (F := Ideal) xg) broadcasts_S100x1_S100x100 (ix2 i j)
      = ((x b i 0 : ℝ) : EReal) := by
    rw [Cert.ColumnLayout.broadcastTo_a1_ab_apply _ broadcasts_S100x1_S100x100 i j, lonCol_apply x b xg hx i 0]
  have hN : broadcastTo S100x100 (k0_pay10 (F := Ideal) lg) broadcasts_S1x100_S100x100 (ix2 i j)
      = ((-(x b j 0) : ℝ) : EReal) := by
    rw [broadcastTo_1b_ab_apply _ broadcasts_S1x100_S100x100 i j, negLonRow_apply x b lg hl 0 j]
  have hS := s_apply x b xg lg hx hl i j
  simp only [select_apply, cmpf_apply, subf_apply, addf_apply, broadcast_apply, hA, hN, hS]
  exact Cert.TwoSumMask.lo_sub_eq_zero _ Cert.TwoSumMask.ofBits_f32_zero (Cert.TwoSumMask.twoSum_err_coe _ _)

end

/-! ## The adjacency, its row sums, and the two results, from any hi and lo with those entries -/

section
variable (x : Fin 100 → Fin 100 → Fin 128 → ℝ) (b : Fin 100) (hi lo : FVec Ideal S100x100 .f32)

/-- THE ADJACENCY ENTRY as a float: with hi the distance of the two longitudes and lo zero, the four-way test is the
    closeness test, and its bit AND the off-diagonal bit, widened and converted, is the adjacency entry. -/
theorem adjF_apply (i j : Fin 100) (hhi : hi (ix2 i j) = ((|x b i 0 - x b j 0| : ℝ) : EReal))
    (hlo : lo (ix2 i j) = 0) :
    k0_pay15 (F := Ideal) k0_pay2 hi lo k0_pay14 (ix2 i j) = ((adj x b i j : ℝ) : EReal) := by
  unfold k0_pay15 k0_pay14
  show ((((IntOp.andi
      (IntOp.ori (IntOp.ori (IntOp.ori (Ideal.cmp .olt (hi (ix2 i j)) (Ideal.ofBits .f32 0x41200000#32))
        (IntOp.andi (Ideal.cmp .oeq (hi (ix2 i j)) (Ideal.ofBits .f32 0x41200000#32))
          (Ideal.cmp .olt (lo (ix2 i j)) (Ideal.ofBits .f32 0x00000000#32))))
        (Ideal.cmp .ogt (hi (ix2 i j)) (Ideal.ofBits .f32 0x43AF0000#32)))
        (IntOp.andi (Ideal.cmp .oeq (hi (ix2 i j)) (Ideal.ofBits .f32 0x43AF0000#32))
          (Ideal.cmp .ogt (lo (ix2 i j)) (Ideal.ofBits .f32 0x00000000#32))))
      (k0_pay2 (ix2 i j))).setWidth 32).toInt : ℝ) : EReal) = _
  rw [coe_adj]
  refine Cert.AdjBits.adj_entry ?_ (offdiag_apply i j)
  rw [Cert.TwoSumMask.mask_word_eq_one_iff _ _ _ _ _ Cert.TwoSumMask.ofBits_f32_zero hlo, hhi,
    Cert.TwoSumMask.ofBits_f32_ten, Cert.TwoSumMask.ofBits_f32_350, EReal.coe_lt_coe_iff, EReal.coe_lt_coe_iff]
  exact Iff.rfl

/-- A sum along the columns of a [100, 100] array from the zero word, at row i. -/
theorem rowSum_apply (src : FVec Ideal S100x100 .f32) (hφ : FKind.Formats .f32)
    (hacc : (0x00000000#32 : BitVec 32) = FKind.add.neutral .f32 hφ) (i : Fin 100) :
    multiReduction .add [1] S100 src 0x00000000#32 reduces_S100x100_S100 hφ hacc (ix1 i) = ∑ k : Fin 100, src (ix2 i k) :=
  (Ideal.multiReduction_add_single src 0x00000000#32 reduces_S100x100_S100 hφ hacc (ix1 i)).trans
    (Finset.sum_congr rfl fun k _ => congrArg src (Cert.RowLift.lift_row reduces_S100x100_S100 i k))

/-- THE NORMALISATION'S FACTOR: one over the square root of the row sum of the adjacency plus one. -/
theorem dis_of (i : Fin 100) (hhi : ∀ j : Fin 100, hi (ix2 i j) = ((|x b i 0 - x b j 0| : ℝ) : EReal))
    (hlo : ∀ j : Fin 100, lo (ix2 i j) = 0) :
    k0_pay16 (F := Ideal) k0_pay2 hi lo k0_pay14 (ix2 i 0) = ((dis x b i : ℝ) : EReal) := by
  unfold k0_pay16
  have hX : shapeCast S100x1
      (multiReduction .add [1] S100 (k0_pay15 (F := Ideal) k0_pay2 hi lo k0_pay14) 0x00000000#32 reduces_S100x100_S100 (.inl rfl) rfl)
      shapeCasts_S100_S100x1 (ix2 i 0) = (((∑ j, adj x b i j : ℝ)) : EReal) := by
    rw [Cert.ColumnLayout.shapeCast_a_a1_apply _ shapeCasts_S100_S100x1 i 0]
    refine (rowSum_apply _ _ _ i).trans ?_
    rw [Cert.DenseLayer.coe_sum]
    exact Finset.sum_congr rfl fun j _ => adjF_apply x b hi lo i j (hhi j) (hlo j)
  show Ideal.div (Ideal.ofBits .f32 0x3F800000#32) (Ideal.sqrt (shapeCast S100x1
      (multiReduction .add [1] S100 (k0_pay15 (F := Ideal) k0_pay2 hi lo k0_pay14) 0x00000000#32 reduces_S100x100_S100 (.inl rfl) rfl)
      shapeCasts_S100_S100x1 (ix2 i 0) + Ideal.ofBits .f32 0x3F800000#32)) = _
  rw [hX, Cert.TwoSumMask.ofBits_f32_one, ← EReal.coe_add, EReal.coe_one]
  exact coe_dis x b i

/-- THE ADJACENCY PLUS THE IDENTITY. -/
theorem a01_of (i j : Fin 100) (hhi : hi (ix2 i j) = ((|x b i 0 - x b j 0| : ℝ) : EReal)) (hlo : lo (ix2 i j) = 0) :
    k0_pay17 (F := Ideal) k0_pay2 k0_pay3 hi lo k0_pay14 (ix2 i j)
      = ((adj x b i j + (if i = j then 1 else 0) : ℝ) : EReal) := by
  unfold k0_pay17
  show k0_pay15 (F := Ideal) k0_pay2 hi lo k0_pay14 (ix2 i j) + k0_pay3 (F := Ideal) (ix2 i j) = _
  rw [adjF_apply x b hi lo i j hhi hlo, eye_apply, EReal.coe_add]
  congr 1
  split
  · exact EReal.coe_one.symm
  · exact EReal.coe_zero.symm

end

/-! ## The two results at the graph's own hi and lo -/

section
variable (x : Fin 100 → Fin 100 → Fin 128 → ℝ) (b : Fin 100)
  (xg : Vec Ideal S1x100x128 .f32) (lg : Vec Ideal S1x1x100 .f32)
  (hx : ∀ (i : Fin 100) (k : Fin 128), xg (ix3 0 i k) = ((x b i k : ℝ) : EReal))
  (hl : ∀ j : Fin 100, lg (ix3 0 0 j) = ((x b j 0 : ℝ) : EReal))
include hx hl

/-- THE NORMALISATION'S FACTOR of node i of the graph. -/
theorem dis_apply (i : Fin 100) :
    k0_pay16 (F := Ideal) k0_pay2 (k0_pay12 xg lg) (k0_pay13 xg lg) k0_pay14 (ix2 i 0) = ((dis x b i : ℝ) : EReal) :=
  dis_of x b (k0_pay12 xg lg) (k0_pay13 xg lg) i (fun j => hi_apply x b xg lg hx hl i j)
    (fun j => lo_apply x b xg lg hx hl i j)

/-- The same at any coordinate of the unit axis. -/
theorem dis_apply_unit (i : Fin 100) (u : Fin 1) :
    k0_pay16 (F := Ideal) k0_pay2 (k0_pay12 xg lg) (k0_pay13 xg lg) k0_pay14 (ix2 i u) = ((dis x b i : ℝ) : EReal) := by
  obtain rfl : u = 0 := Subsingleton.elim _ _
  exact dis_apply x b xg lg hx hl i

/-- THE ADJACENCY PLUS THE IDENTITY of the graph at (i, j). -/
theorem a01_apply (i j : Fin 100) :
    k0_pay17 (F := Ideal) k0_pay2 k0_pay3 (k0_pay12 xg lg) (k0_pay13 xg lg) k0_pay14 (ix2 i j)
      = ((adj x b i j + (if i = j then 1 else 0) : ℝ) : EReal) :=
  a01_of x b (k0_pay12 xg lg) (k0_pay13 xg lg) i j (hi_apply x b xg lg hx hl i j) (lo_apply x b xg lg hx hl i j)

end

end Cert.KernelIdeal.Stage1

end
-- ==== Proof.KernelLinear.lean ====
/-
  The linear pieces of one graph's share of the kernel body, read at an index, for inputs whose entries are real
  numbers: a feature matrix [100, 128] times a weight matrix [128, 128] as a sum over the 128 input features; the input
  map (that product plus a bias row); a bias row cast to its own shape; the sums down the 100 rows of a feature matrix;
  and the two-layer head on the pooled rows, whose first step multiplies every pooled entry by 1/100.
-/
import proofs.«176687_g19121194402273_cont_sun_m_853_29_alg».proof.Proof.KernelRow
import proofs.«176687_g19121194402273_cont_sun_m_853_29_alg».proof.Proof.Spec
import proofs.«176687_g19121194402273_cont_sun_m_853_29_alg».proof.Proof.LibDenseRows
import proofs.«176687_g19121194402273_cont_sun_m_853_29_alg».proof.Proof.LibDenseLayer

noncomputable section

namespace Cert.KernelIdeal.Linear

open Idealize.ShloMosaic Idealize.ShloMosaic.ValueIdx Cert.KernelIdeal Cert.KernelIdeal.Gen Cert.GraphNet
open scoped BigOperators

/-! ## Features times a weight matrix -/

/-- The body's product of a [100, 128] matrix with a [128, 128] matrix into the zero accumulator, at (i, c): the sum
    over k of the left entry (i, k) times the right entry (k, c). -/
theorem matmul_rows_apply (A : FVec Ideal S100x128 .bf16) (W : FVec Ideal S128x128 .bf16) (i : Fin 100) (c : Fin 128) :
    matmul dot_S100x128_S128x128_S100x128_1_0_0_1_n_n none A W (constant (F := Ideal) S100x128 .f32 0x00000000#32) (ix2 i c)
      = ∑ k : Fin 128, A (ix2 i k) * W (ix2 k c) :=
  Cert.DenseRows.matmul_zero_plain_apply dot_S100x128_S128x128_S100x128_1_0_0_1_n_n rfl rfl rfl rfl
    (fun _ _ => rfl) (fun _ _ => rfl) A W i c

/-- A sum of products of real entries is the real sum of products. -/
theorem sum_mul_coe {K : ℕ} (a b : Fin K → ℝ) :
    ∑ k : Fin K, ((a k : ℝ) : EReal) * ((b k : ℝ) : EReal) = ((∑ k, a k * b k : ℝ) : EReal) := by
  rw [Cert.DenseLayer.coe_sum]
  exact Finset.sum_congr rfl fun k _ => (EReal.coe_mul _ _).symm

/-- Real features times a real weight matrix, both rounded as the body rounds them (the identity on extended reals):
    at (i, c) the real sum over k of feature (i, k) times weight (k, c). -/
theorem hw_apply (h : FVec Ideal S100x128 .f32) (w : Vec Ideal S128x128 .f32)
    (hr : Fin 100 → Fin 128 → ℝ) (W : Fin 128 → Fin 128 → ℝ)
    (hh : ∀ i k, h (ix2 i k) = ((hr i k : ℝ) : EReal)) (hw : ∀ k c, w (ix2 k c) = ((W k c : ℝ) : EReal))
    (i : Fin 100) (c : Fin 128) :
    Row.hw h (truncf .bf16 w bitsLt_bf16_f32) (ix2 i c) = ((∑ k, hr i k * W k c : ℝ) : EReal) := by
  unfold Row.hw
  refine (matmul_rows_apply _ _ i c).trans ?_
  simp only [truncf_apply, hh, hw]
  exact sum_mul_coe _ _

/-- The four rounded weight matrices of the body are that rounding of their operand. -/
theorem pay4_eq (w : Vec Ideal S128x128 .f32) : k0_pay4 (F := Ideal) w = truncf .bf16 w bitsLt_bf16_f32 := rfl
theorem pay5_eq (w : Vec Ideal S128x128 .f32) : k0_pay5 (F := Ideal) w = truncf .bf16 w bitsLt_bf16_f32 := rfl
theorem pay6_eq (w : Vec Ideal S128x128 .f32) : k0_pay6 (F := Ideal) w = truncf .bf16 w bitsLt_bf16_f32 := rfl
theorem pay7_eq (w : Vec Ideal S128x128 .f32) : k0_pay7 (F := Ideal) w = truncf .bf16 w bitsLt_bf16_f32 := rfl

/-! ## A bias row -/

/-- A bias row cast to its own shape is itself. -/
theorem sc_apply (bias : Vec Ideal S1x128 .f32) (c : Fin 128) : Row.sc bias (ix2 (0 : Fin 1) c) = bias (ix2 (0 : Fin 1) c) := by
  unfold Row.sc
  rw [shapeCast_self]

/-! ## The input map -/

/-- A graph's loaded features [1, 100, 128] cast to [100, 128], at (i, k): the loaded entry (0, i, k). -/
theorem pay8_apply (xg : Vec Ideal S1x100x128 .f32) (i : Fin 100) (k : Fin 128) :
    k0_pay8 (F := Ideal) xg (ix2 i k) = xg (ix3 (0 : Fin 1) i k) := by
  unfold k0_pay8
  exact shapeCast_1ab_ab_apply xg _ i k

/-- A bias row [1, 128] cast to its own shape and laid along the 100 rows, at (i, c): the row's entry c. -/
theorem biasRows_apply (bias : Vec Ideal S1x128 .f32) (i : Fin 100) (c : Fin 128) :
    broadcastTo S100x128 (shapeCast S1x128 bias shapeCasts_S1x128_S1x128) broadcasts_S1x128_S100x128 (ix2 i c)
      = bias (ix2 (0 : Fin 1) c) := by
  refine (broadcastTo_1b_ab_apply _ _ i c).trans ?_
  rw [shapeCast_self]

/-- The input map of graph b at (i, c): the real sum over k of feature (b, i, k) times weight (k, c), plus bias c. -/
theorem h0_apply (xg : Vec Ideal S1x100x128 .f32) (win : Vec Ideal S128x128 .f32) (bin : Vec Ideal S1x128 .f32)
    (x : Fin 100 → Fin 100 → Fin 128 → ℝ) (Win : Fin 128 → Fin 128 → ℝ) (binr : Fin 128 → ℝ) (b : Fin 100)
    (hx : ∀ i k, xg (ix3 (0 : Fin 1) i k) = ((x b i k : ℝ) : EReal))
    (hw : ∀ k c, win (ix2 k c) = ((Win k c : ℝ) : EReal))
    (hb : ∀ c, bin (ix2 (0 : Fin 1) c) = ((binr c : ℝ) : EReal)) (i : Fin 100) (c : Fin 128) :
    k0_pay18 (F := Ideal) (k0_pay4 win) (k0_pay8 xg) bin (ix2 i c) = ((h0 x Win binr b i c : ℝ) : EReal) := by
  unfold k0_pay18
  refine (addf_apply _ _ _).trans ?_
  rw [matmul_rows_apply, biasRows_apply, hb]
  simp only [truncf_apply, pay4_eq, pay8_apply, hx, hw]
  rw [sum_mul_coe]
  unfold h0 lin
  exact (EReal.coe_add _ _).symm

/-! ## Sums down the rows -/

/-- The body's sum of a [100, 128] matrix down its rows from the zero word, at column c: the sum over i of entry
    (i, c). -/
theorem reduce_rows_apply (src : FVec Ideal S100x128 .f32) (hφ : FKind.Formats .f32)
    (hacc : (0x00000000#32 : BitVec 32) = FKind.add.neutral .f32 hφ) (c : Fin 128) :
    multiReduction .add [(0 : Fin 2)] S128 src 0x00000000#32 reduces_S100x128_S128 hφ hacc (ix1 c)
      = ∑ i : Fin 100, src (ix2 i c) :=
  (Ideal.multiReduction_add_single src 0x00000000#32 reduces_S100x128_S128 hφ hacc (ix1 c)).trans
    (Finset.sum_congr rfl fun k _ => congrArg src
      (funext fun a => match a with | ⟨0, _⟩ => rfl | ⟨1, _⟩ => rfl))

/-- The column sums of a real [100, 128] matrix as the body lays them out, one row [1, 128]: at (0, c) the real sum
    over i of entry (i, c). -/
theorem colsum_apply (l : FVec Ideal S100x128 .f32) (lr : Fin 100 → Fin 128 → ℝ)
    (hl : ∀ i c, l (ix2 i c) = ((lr i c : ℝ) : EReal)) (c : Fin 128) :
    k0_pay1119 (F := Ideal) l (ix2 (0 : Fin 1) c) = ((∑ i, lr i c : ℝ) : EReal) := by
  unfold k0_pay1119
  refine (congrFun (shapeCast_self _ _) _).trans ?_
  refine (shapeCast_a_1a_apply _ _ 0 c).trans ?_
  refine (reduce_rows_apply l _ _ c).trans ?_
  simp only [hl]
  exact (Cert.DenseLayer.coe_sum _ _).symm

end Cert.KernelIdeal.Linear

end
-- ==== Proof.KernelRowValue.lean ====
/-
  The value of one graph's pooled row on the extended reals, for real inputs. The graph's node features give the
  normalisation's factor dis and the adjacency plus the identity; the input map gives the first features; each of the
  three message-passing layers multiplies the previous features by its rounded weight matrix, passes them through the
  layer with the graph's dis and adjacency and its own bias row, and is the cast of the specification's layer of the
  previous real features; the pooled row is the column sums of the third layer, the cast of the sum over the nodes of the
  specification's features after three layers.
-/
import proofs.«176687_g19121194402273_cont_sun_m_853_29_alg».proof.Proof.KernelRow
import proofs.«176687_g19121194402273_cont_sun_m_853_29_alg».proof.Proof.KernelLayer
import proofs.«176687_g19121194402273_cont_sun_m_853_29_alg».proof.Proof.KernelStage1
import proofs.«176687_g19121194402273_cont_sun_m_853_29_alg».proof.Proof.KernelLinear
import proofs.«176687_g19121194402273_cont_sun_m_853_29_alg».proof.Proof.Spec

noncomputable section

namespace Cert.KernelIdeal.RowValue

open Idealize.ShloMosaic Idealize.ShloMosaic.ValueIdx Cert.KernelIdeal Cert.KernelIdeal.Gen Cert.GraphNet
open scoped BigOperators

/-- One message-passing layer of the graph with loaded features xg and longitudes lg: the previous features h times the
    rounded weight matrix w, through the layer with the graph's dis and adjacency plus identity and the bias row bg. -/
def layerOf (xg : Vec Ideal S1x100x128 .f32) (lg : Vec Ideal S1x1x100 .f32) (h : FVec Ideal S100x128 .f32)
    (w : Vec Ideal S128x128 .f32) (bg : Vec Ideal S1x128 .f32) : FVec Ideal S100x128 .f32 :=
  k0_pay866 (k0_pay16 k0_pay2 (k0_pay12 xg lg) (k0_pay13 xg lg) k0_pay14)
    (k0_pay17 k0_pay2 k0_pay3 (k0_pay12 xg lg) (k0_pay13 xg lg) k0_pay14)
    (Row.hw h (truncf .bf16 w bitsLt_bf16_f32)) (Row.sc bg)

/-- The pooled row is the column sums of three such layers over the input map. -/
theorem row_eq (xg : Vec Ideal S1x100x128 .f32) (lg : Vec Ideal S1x1x100 .f32)
    (win wg0 wg1 wg2 : Vec Ideal S128x128 .f32) (bin bg0 bg1 bg2 : Vec Ideal S1x128 .f32) :
    Row.row (F := Ideal) xg lg win wg0 wg1 wg2 bin bg0 bg1 bg2
      = k0_pay1119 (layerOf xg lg (layerOf xg lg (layerOf xg lg (k0_pay18 (k0_pay4 win) (k0_pay8 xg) bin) wg0 bg0) wg1 bg1) wg2 bg2) :=
  rfl

section
variable (x : Fin 100 → Fin 100 → Fin 128 → ℝ) (b : Fin 100)
  (xg : Vec Ideal S1x100x128 .f32) (lg : Vec Ideal S1x1x100 .f32)
  (hx : ∀ (i : Fin 100) (k : Fin 128), xg (ix3 0 i k) = ((x b i k : ℝ) : EReal))
  (hl : ∀ j : Fin 100, lg (ix3 0 0 j) = ((x b j 0 : ℝ) : EReal))
include hx hl

/-- ONE LAYER OF THE GRAPH. When the previous features are the casts of the real features hr of graph b, the weight
    matrix the cast of W and the bias row the cast of bgr, the layer at (i, c) is the cast of the specification's layer
    of hr. -/
theorem layerOf_apply (h : FVec Ideal S100x128 .f32) (hr : Fin 100 → Fin 100 → Fin 128 → ℝ)
    (hh : ∀ i k, h (ix2 i k) = ((hr b i k : ℝ) : EReal))
    (w : Vec Ideal S128x128 .f32) (W : Fin 128 → Fin 128 → ℝ) (hw : ∀ k c, w (ix2 k c) = ((W k c : ℝ) : EReal))
    (bg : Vec Ideal S1x128 .f32) (bgr : Fin 128 → ℝ) (hbg : ∀ c, bg (ix2 0 c) = ((bgr c : ℝ) : EReal))
    (i : Fin 100) (c : Fin 128) :
    layerOf xg lg h w bg (ix2 i c) = ((layer x hr W bgr b i c : ℝ) : EReal) :=
  Layer.layer_apply _ _ _ _ x hr W bgr b (Stage1.dis_apply x b xg lg hx hl) (Stage1.a01_apply x b xg lg hx hl)
    (fun i c => Linear.hw_apply h w (hr b) W hh hw i c) (fun c => (Linear.sc_apply bg c).trans (hbg c)) i c

/-- THE POOLED ROW OF THE GRAPH at column c: the cast of the sum over the nodes of the specification's features after
    the three layers. -/
theorem row_apply (win wg0 wg1 wg2 : Vec Ideal S128x128 .f32) (bin bg0 bg1 bg2 : Vec Ideal S1x128 .f32)
    (Win Wg0 Wg1 Wg2 : Fin 128 → Fin 128 → ℝ) (binr bg0r bg1r bg2r : Fin 128 → ℝ)
    (hwin : ∀ k c, win (ix2 k c) = ((Win k c : ℝ) : EReal)) (hwg0 : ∀ k c, wg0 (ix2 k c) = ((Wg0 k c : ℝ) : EReal))
    (hwg1 : ∀ k c, wg1 (ix2 k c) = ((Wg1 k c : ℝ) : EReal)) (hwg2 : ∀ k c, wg2 (ix2 k c) = ((Wg2 k c : ℝ) : EReal))
    (hbin : ∀ c, bin (ix2 0 c) = ((binr c : ℝ) : EReal)) (hbg0 : ∀ c, bg0 (ix2 0 c) = ((bg0r c : ℝ) : EReal))
    (hbg1 : ∀ c, bg1 (ix2 0 c) = ((bg1r c : ℝ) : EReal)) (hbg2 : ∀ c, bg2 (ix2 0 c) = ((bg2r c : ℝ) : EReal))
    (c : Fin 128) :
    Row.row (F := Ideal) xg lg win wg0 wg1 wg2 bin bg0 bg1 bg2 (ix2 0 c)
      = ((∑ i, h3 x Win binr Wg0 bg0r Wg1 bg1r Wg2 bg2r b i c : ℝ) : EReal) := by
  rw [row_eq]
  refine Linear.colsum_apply _ (fun i c => h3 x Win binr Wg0 bg0r Wg1 bg1r Wg2 bg2r b i c) (fun i c => ?_) c
  unfold h3
  refine layerOf_apply x b xg lg hx hl _ _ (fun i k => ?_) wg2 Wg2 hwg2 bg2 bg2r hbg2 i c
  refine layerOf_apply x b xg lg hx hl _ _ (fun i k => ?_) wg1 Wg1 hwg1 bg1 bg1r hbg1 i k
  refine layerOf_apply x b xg lg hx hl _ _ (fun i k => ?_) wg0 Wg0 hwg0 bg0 bg0r hbg0 i k
  exact Linear.h0_apply xg win bin x Win binr b hx hwin hbin i k

end

end Cert.KernelIdeal.RowValue

end
-- ==== Proof.KernelHead.lean ====
/-
  The two-layer head of the kernel body on the pooled rows, read at an index, for inputs whose entries are real numbers:
  every pooled entry times 1/100 (the body's named constant), times the first weight matrix [128, 64], plus a bias row,
  clamped at 0; then times the second weight matrix [64, 1], plus the output bias, the one number of each of the 50
  graphs laid along 128 lanes.
-/
import proofs.«176687_g19121194402273_cont_sun_m_853_29_alg».proof.Proof.KernelLinear

noncomputable section

namespace Cert.KernelIdeal.Linear

open Idealize.ShloMosaic Idealize.ShloMosaic.ValueIdx Cert.KernelIdeal Cert.KernelIdeal.Gen Cert.GraphNet
open scoped BigOperators

/-- The body's named constant "inv_100" is the rational 1/100. -/
theorem inv_100 :
    Named.named (F := Ideal) Cert.KernelIdeal.κ "inv_100" (φ := .f32) 0x3C23D70A#32 = ((1 / 100 : ℝ) : EReal) :=
  IdealRules.named_const.ideal_named_scalar _ _ _ _ rfl

/-- The head's first product, [50, 128] by [128, 64] into the zero accumulator, at (g, d). -/
theorem matmul_pool_apply (A : FVec Ideal S50x128 .bf16) (W : FVec Ideal S128x64 .bf16) (g : Fin 50) (d : Fin 64) :
    matmul dot_S50x128_S128x64_S50x64_1_0_0_1_n_n none A W (constant (F := Ideal) S50x64 .f32 0x00000000#32) (ix2 g d)
      = ∑ c : Fin 128, A (ix2 g c) * W (ix2 c d) :=
  Cert.DenseRows.matmul_zero_plain_apply dot_S50x128_S128x64_S50x64_1_0_0_1_n_n rfl rfl rfl rfl
    (fun _ _ => rfl) (fun _ _ => rfl) A W g d

/-- The head's second product, [50, 64] by [64, 1] into the zero accumulator, at (g, u). -/
theorem matmul_out_apply (A : FVec Ideal S50x64 .bf16) (W : FVec Ideal S64x1 .bf16) (g : Fin 50) (u : Fin 1) :
    matmul dot_S50x64_S64x1_S50x1_1_0_0_1_n_n none A W (constant (F := Ideal) S50x1 .f32 0x00000000#32) (ix2 g u)
      = ∑ d : Fin 64, A (ix2 g d) * W (ix2 d u) :=
  Cert.DenseRows.matmul_zero_plain_apply dot_S50x64_S64x1_S50x1_1_0_0_1_n_n rfl rfl rfl rfl
    (fun _ _ => rfl) (fun _ _ => rfl) A W g u

/-- The hidden bias row [1, 64] cast to its own shape and laid along the 50 rows, at (g, d): the row's entry d. -/
theorem biasHidden_apply (bias : Vec Ideal S1x64 .f32) (g : Fin 50) (d : Fin 64) :
    broadcastTo S50x64 (shapeCast S1x64 bias shapeCasts_S1x64_S1x64) broadcasts_S1x64_S50x64 (ix2 g d)
      = bias (ix2 (0 : Fin 1) d) := by
  refine (broadcastTo_1b_ab_apply _ _ g d).trans ?_
  rw [shapeCast_self]

/-- The output bias [1, 1] cast to its own shape and laid along the 50 rows, at (g, u): its one entry. -/
theorem biasOut_apply (bias : Vec Ideal S1x1 .f32) (g : Fin 50) (u : Fin 1) :
    broadcastTo S50x1 (shapeCast S1x1 bias shapeCasts_S1x1_S1x1) broadcasts_S1x1_S50x1 (ix2 g u)
      = bias (ix2 (0 : Fin 1) (0 : Fin 1)) := by
  refine (broadcastTo_1b_ab_apply _ _ g u).trans ?_
  rw [shapeCast_self]
  exact congrArg bias (congrArg (ix2 (0 : Fin 1)) (Subsingleton.elim _ _))

/-- The head's hidden layer on real pooled rows, at (g, d): every pooled entry times 1/100, times the weights, summed
    over the 128 features, plus the bias, clamped at 0. -/
theorem hidden_apply (p : Vec Ideal S50x128 .f32) (w1 : Vec Ideal S128x64 .f32) (b1 : Vec Ideal S1x64 .f32)
    (pr : Fin 50 → Fin 128 → ℝ) (Wo1 : Fin 128 → Fin 64 → ℝ) (bo1 : Fin 64 → ℝ)
    (hp : ∀ g c, p (ix2 g c) = ((pr g c : ℝ) : EReal)) (hw1 : ∀ c d, w1 (ix2 c d) = ((Wo1 c d : ℝ) : EReal))
    (hb1 : ∀ d, b1 (ix2 (0 : Fin 1) d) = ((bo1 d : ℝ) : EReal)) (g : Fin 50) (d : Fin 64) :
    k0_pay1120 (F := Ideal) p w1 b1 (ix2 g d)
      = ((max ((∑ c, (pr g c * (1 / 100)) * Wo1 c d) + bo1 d) 0 : ℝ) : EReal) := by
  unfold k0_pay1120
  simp only [truncf_apply, maximumf_apply, addf_apply, broadcast_apply]
  rw [matmul_pool_apply, biasHidden_apply, hb1]
  simp only [truncf_apply, mulf_apply, broadcast_apply, inv_100, hp, hw1]
  have e : ∀ c, ((pr g c : ℝ) : EReal) * ((1 / 100 : ℝ) : EReal) = ((pr g c * (1 / 100) : ℝ) : EReal) :=
    fun c => (EReal.coe_mul _ _).symm
  simp only [e]
  rw [sum_mul_coe (fun c => pr g c * (1 / 100)) (fun c => Wo1 c d), ← EReal.coe_add]
  show max _ (Ideal.ofBits .f32 0x00000000#32) = _
  rw [Ideal.ofBits_zero_f32, Cert.DenseLayer.max_coe_zero]

/-- A column [50, 1] cast to [50, 1, 1], at (g, u, v): the column's entry g. -/
theorem castCol_apply {α : Type} (x : S50x1.Idx → α) (h : S50x1.ShapeCasts S50x1x1) (g : Fin 50) (u v : Fin 1) :
    shapeCast S50x1x1 x h (ix3 g u v) = x (ix2 g (0 : Fin 1)) :=
  shapeCast_apply x h _ _ (by
    have hu : u.val = 0 := by omega
    have hv : v.val = 0 := by omega
    rw [Shape.rowMajor_val_two, Shape.rowMajor_val_three]
    show g.val * 1 + 0 = (g.val * 1 + u.val) * 1 + v.val
    omega)

/-- A [50, 1, 1] array laid along 128 lanes, at (g, u, l): its entry (g, 0, 0). -/
theorem lanes_apply {α : Type} (x : S50x1x1.Idx → α) (h : S50x1x1.Broadcasts S50x1x128) (g : Fin 50) (u : Fin 1)
    (l : Fin 128) : broadcastTo S50x1x128 x h (ix3 g u l) = x (ix3 g (0 : Fin 1) (0 : Fin 1)) := by
  refine broadcastTo_apply x h (ix3 g u l) (ix3 g (0 : Fin 1) (0 : Fin 1)) fun a => ?_
  match a with
  | ⟨0, _⟩ => rfl
  | ⟨1, _⟩ => rfl
  | ⟨2, _⟩ => rfl

/-- The head on real pooled rows, at (g, 0, l) for every lane l: the hidden layer's entries times the output weights,
    summed over the 64 hidden units, plus the output bias. -/
theorem head_apply (p : Vec Ideal S50x128 .f32) (w1 : Vec Ideal S128x64 .f32) (b1 : Vec Ideal S1x64 .f32)
    (w2 : Vec Ideal S64x1 .f32) (b2 : Vec Ideal S1x1 .f32)
    (pr : Fin 50 → Fin 128 → ℝ) (Wo1 : Fin 128 → Fin 64 → ℝ) (bo1 : Fin 64 → ℝ) (Wo2 : Fin 64 → Fin 1 → ℝ)
    (bo2 : Fin 1 → ℝ)
    (hp : ∀ g c, p (ix2 g c) = ((pr g c : ℝ) : EReal)) (hw1 : ∀ c d, w1 (ix2 c d) = ((Wo1 c d : ℝ) : EReal))
    (hb1 : ∀ d, b1 (ix2 (0 : Fin 1) d) = ((bo1 d : ℝ) : EReal))
    (hw2 : ∀ d u, w2 (ix2 d u) = ((Wo2 d u : ℝ) : EReal))
    (hb2 : b2 (ix2 (0 : Fin 1) (0 : Fin 1)) = ((bo2 0 : ℝ) : EReal)) (g : Fin 50) (l : Fin 128) :
    k0_pay1 (F := Ideal) (k0_pay1120 (F := Ideal) p w1 b1) w2 b2 (ix3 g (0 : Fin 1) l)
      = (((∑ d, max ((∑ c, (pr g c * (1 / 100)) * Wo1 c d) + bo1 d) 0 * Wo2 d 0) + bo2 0 : ℝ) : EReal) := by
  unfold k0_pay1
  refine (lanes_apply _ _ g 0 l).trans ?_
  refine (congrFun (shapeCast_self _ _) _).trans ?_
  refine (castCol_apply _ _ g 0 0).trans ?_
  refine (addf_apply _ _ _).trans ?_
  rw [matmul_out_apply, biasOut_apply, hb2]
  simp only [truncf_apply, hidden_apply p w1 b1 pr Wo1 bo1 hp hw1 hb1, hw2]
  rw [sum_mul_coe]
  exact (EReal.coe_add _ _).symm

end Cert.KernelIdeal.Linear

end
-- ==== Proof.KernelValue.lean ====
/-
  The idealized kernel's result as the network's output. At real inputs every grid point writes back, in row g of its
  block, the network's output for graph 50 t + g, laid along the 128 lanes: the pooled scratch holds each graph's
  column sums of the third layer's features, and the head averages them and applies the two dense layers. A block's
  row g is row 50 t + g of the result array, so each written block is one function of the argument arrays read
  through the block.
-/
import proofs.«176687_g19121194402273_cont_sun_m_853_29_alg».proof.Proof.KernelRun
import proofs.«176687_g19121194402273_cont_sun_m_853_29_alg».proof.Proof.KernelBlock
import proofs.«176687_g19121194402273_cont_sun_m_853_29_alg».proof.Proof.KernelInputs
import proofs.«176687_g19121194402273_cont_sun_m_853_29_alg».proof.Proof.KernelRowValue
import proofs.«176687_g19121194402273_cont_sun_m_853_29_alg».proof.Proof.KernelLinear
import proofs.«176687_g19121194402273_cont_sun_m_853_29_alg».proof.Proof.KernelHead
import proofs.«176687_g19121194402273_cont_sun_m_853_29_alg».proof.Proof.Spec

noncomputable section

namespace Cert.KernelIdeal.Final

open Idealize.ShloMosaic Idealize.ShloMosaic.TcCoe Idealize.ShloMosaic.ValueIdx Idealize.SL.Sem
open Cert.KernelIdeal Cert.KernelIdeal.Gen Cert.GraphNet
open scoped BigOperators

variable (m : (ℓ : Loc nD τ sig) → Buf (Elt Ideal) ℓ)
variable (x : Fin 100 → Fin 100 → Fin 128 → ℝ) (Win : Fin 128 → Fin 128 → ℝ) (bin : Fin 128 → ℝ)
  (Wg0 : Fin 128 → Fin 128 → ℝ) (bg0 : Fin 128 → ℝ) (Wg1 : Fin 128 → Fin 128 → ℝ) (bg1 : Fin 128 → ℝ)
  (Wg2 : Fin 128 → Fin 128 → ℝ) (bg2 : Fin 128 → ℝ)
  (Wo1 : Fin 128 → Fin 64 → ℝ) (bo1 : Fin 64 → ℝ) (Wo2 : Fin 64 → Fin 1 → ℝ) (bo2 : Fin 1 → ℝ)

/-- The launch's result array: the network's output for graph b along row b, on every lane. -/
def G : S100x1x128.Idx → Elt Ideal .f32 :=
  fun i => ((out x Win bin Wg0 bg0 Wg1 bg1 Wg2 bg2 Wo1 bo1 Wo2 bo2 (i 0) : ℝ) : EReal)

/-- WHAT POINT t WRITES BACK, when the thirteen argument arrays are the casts of real arrays: the network's output
    read through the point's block. Entry (g, 0, l) of the block is the head at row g of the pooled scratch, whose
    row g is the sum over the nodes of graph 50 t + g of the features after the three layers; and the block's row g
    is row 50 t + g of the result array. -/
theorem flushed_eq (c : Dev nD)
    (hX : ∀ (b i : Fin 100) (k : Fin 128), m ((c : Thread nD τ).loc main_arg0) (ix3 b i k) = ((x b i k : ℝ) : EReal))
    (hWin : ∀ k c' : Fin 128, m ((c : Thread nD τ).loc main_arg1) (ix2 k c') = ((Win k c' : ℝ) : EReal))
    (hbin : ∀ c' : Fin 128, m ((c : Thread nD τ).loc main_arg2) (ix1 c') = ((bin c' : ℝ) : EReal))
    (hWg0 : ∀ k c' : Fin 128, m ((c : Thread nD τ).loc main_arg3) (ix2 k c') = ((Wg0 k c' : ℝ) : EReal))
    (hbg0 : ∀ c' : Fin 128, m ((c : Thread nD τ).loc main_arg4) (ix1 c') = ((bg0 c' : ℝ) : EReal))
    (hWg1 : ∀ k c' : Fin 128, m ((c : Thread nD τ).loc main_arg5) (ix2 k c') = ((Wg1 k c' : ℝ) : EReal))
    (hbg1 : ∀ c' : Fin 128, m ((c : Thread nD τ).loc main_arg6) (ix1 c') = ((bg1 c' : ℝ) : EReal))
    (hWg2 : ∀ k c' : Fin 128, m ((c : Thread nD τ).loc main_arg7) (ix2 k c') = ((Wg2 k c' : ℝ) : EReal))
    (hbg2 : ∀ c' : Fin 128, m ((c : Thread nD τ).loc main_arg8) (ix1 c') = ((bg2 c' : ℝ) : EReal))
    (hWo1 : ∀ (c' : Fin 128) (d : Fin 64), m ((c : Thread nD τ).loc main_arg9) (ix2 c' d) = ((Wo1 c' d : ℝ) : EReal))
    (hbo1 : ∀ d : Fin 64, m ((c : Thread nD τ).loc main_arg10) (ix1 d) = ((bo1 d : ℝ) : EReal))
    (hWo2 : ∀ (d : Fin 64) (u : Fin 1), m ((c : Thread nD τ).loc main_arg11) (ix2 d u) = ((Wo2 d u : ℝ) : EReal))
    (hbo2 : ∀ u : Fin 1, m ((c : Thread nD τ).loc main_arg12) (ix1 u) = ((bo2 u : ℝ) : EReal))
    (t : Fin cfg0.N) :
    (dats m 0 c).flushed 14 t
      = ((cfg0.win 14).blk t).view.read (Elt Ideal) (G x Win bin Wg0 bg0 Wg1 bg1 Wg2 bg2 Wo1 bo1 Wo2 bo2) := by
  have ht : t.val < 2 := by have h := t.isLt; have hN : grid0.N = 2 := N_0; exact hN ▸ h
  obtain ⟨e0, e1, e2⟩ := Cert.KernelIdeal.RunValue.block_index t
  have hbd : ∀ g' : Fin 50, t.val * 50 + g'.val < 100 := fun g' => by have := g'.isLt; omega
  show (cfg0.win 14).cut (grid0.coords t) ((dats m 0 c).after 14 t) = _
  rw [after0_14, Cert.KernelIdeal.Row.block_eq]
  funext y
  revert y
  show ∀ y : S50x1x128.Idx, _ = _
  intro y
  obtain ⟨g, u, l, rfl⟩ : ∃ (g : Fin 50) (u : Fin 1) (l : Fin 128), y = ix3 g u l := ⟨y 0, y 1, y 2, eq_ix3 y⟩
  obtain rfl : u = 0 := Subsingleton.elim _ _
  have hemb : (((cfg0.win 14).blk t).view.emb (ix3 g (0 : Fin 1) l)) 0 = (⟨t.val * 50 + g.val, hbd g⟩ : Fin 100) :=
    Fin.ext (by show win0_14.index t (0 : Fin 3) * 50 + 1 * g.val = t.val * 50 + g.val; omega)
  show Row.head (F := Ideal) _ _ _ _ _ (ix3 g (0 : Fin 1) l)
    = ((out x Win bin Wg0 bg0 Wg1 bg1 Wg2 bg2 Wo1 bo1 Wo2 bo2 ((((cfg0.win 14).blk t).view.emb (ix3 g (0 : Fin 1) l)) 0) : ℝ) : EReal)
  rw [hemb]
  unfold Row.head
  have hp : ∀ (g' : Fin 50) (c' : Fin 128),
      Row.pooledAt (F := Ideal) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t)
        (iblk m c 0 t) (iblk m c 1 t) (iblk m c 2 t) (iblk m c 3 t) (iblk m c 4 t) (iblk m c 5 t) (iblk m c 6 t) (iblk m c 7 t)
        (iblk m c 8 t) (iblk m c 9 t) (ix2 g' c')
      = ((∑ i, h3 x Win bin Wg0 bg0 Wg1 bg1 Wg2 bg2 ⟨t.val * 50 + g'.val, hbd g'⟩ i c' : ℝ) : EReal) := by
    intro g' c'
    show Row.pooledRC (F := Ideal) _ _ _ _ _ _ _ _ _ _ _ _ _ _ _ _ _ _ _ _ _ _ _ _ _ _ _ _ _ _ g' c' = _
    unfold Row.pooledRC
    rw [Row.ldW_eq, Row.ldW_eq, Row.ldW_eq, Row.ldW_eq, Row.ldB_eq, Row.ldB_eq, Row.ldB_eq, Row.ldB_eq]
    exact Cert.KernelIdeal.RowValue.row_apply x ⟨t.val * 50 + g'.val, hbd g'⟩ _ _
      (fun i k => (Row.ldX_apply _ _ _ g' i k).trans ((Inputs.blk0_apply m c t g' i k (hbd g')).trans (hX _ i k)))
      (fun j => (Row.ldL_apply _ _ _ g' j).trans ((Inputs.blk1_apply m c t g' j (hbd g')).trans (hX _ j 0)))
      _ _ _ _ _ _ _ _ Win Wg0 Wg1 Wg2 bin bg0 bg1 bg2
      (fun k c'' => (Inputs.blk2_apply m c t k c'').trans (hWin k c''))
      (fun k c'' => (Inputs.blk4_apply m c t k c'').trans (hWg0 k c''))
      (fun k c'' => (Inputs.blk6_apply m c t k c'').trans (hWg1 k c''))
      (fun k c'' => (Inputs.blk8_apply m c t k c'').trans (hWg2 k c''))
      (fun c'' => (Inputs.blk3_apply m c t c'').trans (hbin c''))
      (fun c'' => (Inputs.blk5_apply m c t c'').trans (hbg0 c''))
      (fun c'' => (Inputs.blk7_apply m c t c'').trans (hbg1 c''))
      (fun c'' => (Inputs.blk9_apply m c t c'').trans (hbg2 c''))
      c'
  refine (Linear.head_apply _ (iblk m c 10 t) (iblk m c 11 t) (iblk m c 12 t) (iblk m c 13 t)
    (fun g' c' => ∑ i, h3 x Win bin Wg0 bg0 Wg1 bg1 Wg2 bg2 ⟨t.val * 50 + g'.val, hbd g'⟩ i c') Wo1 bo1 Wo2 bo2 hp
    (fun c' d => (Inputs.blk10_apply m c t c' d).trans (hWo1 c' d))
    (fun d => (Inputs.blk11_apply m c t d).trans (hbo1 d))
    (fun d u => (Inputs.blk12_apply m c t d u).trans (hWo2 d u))
    ((Inputs.blk13_apply m c t 0).trans (hbo2 0)) g l).trans ?_
  unfold Cert.GraphNet.out Cert.GraphNet.hidden Cert.GraphNet.pooled
  rfl

end Cert.KernelIdeal.Final

end
-- ==== Proof.RefOps.lean ====
/- The reference program's @main as four literal lists of host operations, one per printed window of the
   program, every called function's operations standing in its call's place over that call's buffer record;
   each window of @main is the straight line of its list, and @main is the straight line of their concatenation. -/
import proofs.«176687_g19121194402273_cont_sun_m_853_29_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order: the pairwise differences of the first feature, the wrapped difference and the edge mask's comparisons (the select of the wrapped difference written at its own buffer), the diagonal mask, the index iotas. -/
abbrev ops0 : List (HloOp τ sig (Elt F)) :=
  [ unary main_arg0 main_v0 ((extractStridedSlice S100x100x1 ![0, 0, 0] · slices_S100x100x128_S100x100x1_0_0_0) : (⟨S100x100x128, .f32⟩ : BufTy).Contents (Elt F) → (⟨S100x100x1, .f32⟩ : BufTy).Contents (Elt F)),
    reshape main_v0 main_v1 rfl shapeCasts_S100x100x1_S100x100,
    unary main_v1 main_v2 (broadcastInDim S100x100x1 ![0, 1] bcast_S100x100_S100x100x1_0_1 : (⟨S100x100, .f32⟩ : BufTy).Contents (Elt F) → (⟨S100x100x1, .f32⟩ : BufTy).Contents (Elt F)),
    unary main_v1 main_v3 (broadcastInDim S100x1x100 ![0, 2] bcast_S100x100_S100x1x100_0_2 : (⟨S100x100, .f32⟩ : BufTy).Contents (Elt F) → (⟨S100x1x100, .f32⟩ : BufTy).Contents (Elt F)),
    unary main_v3 main_v4 (Host.negf : (⟨S100x1x100, .f32⟩ : BufTy).Contents (Elt F) → (⟨S100x1x100, .f32⟩ : BufTy).Contents (Elt F)),
    unary main_v2 main_v5 (broadcastInDim S100x100x100 ![0, 1, 2] bcast_S100x100x1_S100x100x100_0_1_2 : (⟨S100x100x1, .f32⟩ : BufTy).Contents (Elt F) → (⟨S100x100x100, .f32⟩ : BufTy).Contents (Elt F)),
    unary main_v4 main_v6 (broadcastInDim S100x100x100 ![0, 1, 2] bcast_S100x1x100_S100x100x100_0_1_2 : (⟨S100x1x100, .f32⟩ : BufTy).Contents (Elt F) → (⟨S100x100x100, .f32⟩ : BufTy).Contents (Elt F)),
    binary main_v5 main_v6 main_v7 (addf : (⟨S100x100x100, .f32⟩ : BufTy).Contents (Elt F) → (⟨S100x100x100, .f32⟩ : BufTy).Contents (Elt F) → (⟨S100x100x100, .f32⟩ : BufTy).Contents (Elt F)),
    unary main_v2 main_v8 (broadcastInDim S100x100x100 ![0, 1, 2] bcast_S100x100x1_S100x100x100_0_1_2 : (⟨S100x100x1, .f32⟩ : BufTy).Contents (Elt F) → (⟨S100x100x100, .f32⟩ : BufTy).Contents (Elt F)),
    binary main_v7 main_v8 main_v9 (subf : (⟨S100x100x100, .f32⟩ : BufTy).Contents (Elt F) → (⟨S100x100x100, .f32⟩ : BufTy).Contents (Elt F) → (⟨S100x100x100, .f32⟩ : BufTy).Contents (Elt F)),
    binary main_v7 main_v9 main_v10 (subf : (⟨S100x100x100, .f32⟩ : BufTy).Contents (Elt F) → (⟨S100x100x100, .f32⟩ : BufTy).Contents (Elt F) → (⟨S100x100x100, .f32⟩ : BufTy).Contents (Elt F)),
    unary main_v2 main_v11 (broadcastInDim S100x100x100 ![0, 1, 2] bcast_S100x100x1_S100x100x100_0_1_2 : (⟨S100x100x1, .f32⟩ : BufTy).Contents (Elt F) → (⟨S100x100x100, .f32⟩ : BufTy).Contents (Elt F)),
    binary main_v11 main_v10 main_v12 (subf : (⟨S100x100x100, .f32⟩ : BufTy).Contents (Elt F) → (⟨S100x100x100, .f32⟩ : BufTy).Contents (Elt F) → (⟨S100x100x100, .f32⟩ : BufTy).Contents (Elt F)),
    unary main_v4 main_v13 (broadcastInDim S100x100x100 ![0, 1, 2] bcast_S100x1x100_S100x100x100_0_1_2 : (⟨S100x1x100, .f32⟩ : BufTy).Contents (Elt F) → (⟨S100x100x100, .f32⟩ : BufTy).Contents (Elt F)),
    binary main_v13 main_v9 main_v14 (subf : (⟨S100x100x100, .f32⟩ : BufTy).Contents (Elt F) → (⟨S100x100x100, .f32⟩ : BufTy).Contents (Elt F) → (⟨S100x100x100, .f32⟩ : BufTy).Contents (Elt F)),
    binary main_v12 main_v14 main_v15 (addf : (⟨S100x100x100, .f32⟩ : BufTy).Contents (Elt F) → (⟨S100x100x100, .f32⟩ : BufTy).Contents (Elt F) → (⟨S100x100x100, .f32⟩ : BufTy).Contents (Elt F)),
    unary main_v7 main_v16 (Host.absf : (⟨S100x100x100, .f32⟩ : BufTy).Contents (Elt F) → (⟨S100x100x100, .f32⟩ : BufTy).Contents (Elt F)),
    nullary main_cst (constant S_ .f32 0x00000000#32),
    unary main_cst main_v17 (broadcastInDim S100x100x100 ![] bcast_S_S100x100x100 : (⟨S_, .f32⟩ : BufTy).Contents (Elt F) → (⟨S100x100x100, .f32⟩ : BufTy).Contents (Elt F)),
    binary main_v7 main_v17 main_v18 (cmpf .olt : (⟨S100x100x100, .f32⟩ : BufTy).Contents (Elt F) → (⟨S100x100x100, .f32⟩ : BufTy).Contents (Elt F) → (⟨S100x100x100, .i1⟩ : BufTy).Contents (Elt F)),
    unary main_v15 main_v19 (Host.negf : (⟨S100x100x100, .f32⟩ : BufTy).Contents (Elt F) → (⟨S100x100x100, .f32⟩ : BufTy).Contents (Elt F)),
    TRef.ternary (.of main_v18 : TRef sig ⟨S100x100x100, .i1⟩) (.of main_v19 : TRef sig ⟨S100x100x100, .f32⟩) (.of main_v15 : TRef sig ⟨S100x100x100, .f32⟩) main_call0.v0 select,
    nullary main_cst_0 (constant S_ .f32 0x41200000#32),
    unary main_cst_0 main_v21 (broadcastInDim S100x100x100 ![] bcast_S_S100x100x100 : (⟨S_, .f32⟩ : BufTy).Contents (Elt F) → (⟨S100x100x100, .f32⟩ : BufTy).Contents (Elt F)),
    binary main_v16 main_v21 main_v22 (cmpf .olt : (⟨S100x100x100, .f32⟩ : BufTy).Contents (Elt F) → (⟨S100x100x100, .f32⟩ : BufTy).Contents (Elt F) → (⟨S100x100x100, .i1⟩ : BufTy).Contents (Elt F)),
    nullary main_cst_1 (constant S_ .f32 0x41200000#32),
    unary main_cst_1 main_v23 (broadcastInDim S100x100x100 ![] bcast_S_S100x100x100 : (⟨S_, .f32⟩ : BufTy).Contents (Elt F) → (⟨S100x100x100, .f32⟩ : BufTy).Contents (Elt F)),
    binary main_v16 main_v23 main_v24 (cmpf .oeq : (⟨S100x100x100, .f32⟩ : BufTy).Contents (Elt F) → (⟨S100x100x100, .f32⟩ : BufTy).Contents (Elt F) → (⟨S100x100x100, .i1⟩ : BufTy).Contents (Elt F)),
    nullary main_cst_2 (constant S_ .f32 0x00000000#32),
    unary main_cst_2 main_v25 (broadcastInDim S100x100x100 ![] bcast_S_S100x100x100 : (⟨S_, .f32⟩ : BufTy).Contents (Elt F) → (⟨S100x100x100, .f32⟩ : BufTy).Contents (Elt F)),
    binary main_v20 main_v25 main_v26 (cmpf .olt : (⟨S100x100x100, .f32⟩ : BufTy).Contents (Elt F) → (⟨S100x100x100, .f32⟩ : BufTy).Contents (Elt F) → (⟨S100x100x100, .i1⟩ : BufTy).Contents (Elt F)),
    binary main_v24 main_v26 main_v27 (andi : (⟨S100x100x100, .i1⟩ : BufTy).Contents (Elt F) → (⟨S100x100x100, .i1⟩ : BufTy).Contents (Elt F) → (⟨S100x100x100, .i1⟩ : BufTy).Contents (Elt F)),
    binary main_v22 main_v27 main_v28 (ori : (⟨S100x100x100, .i1⟩ : BufTy).Contents (Elt F) → (⟨S100x100x100, .i1⟩ : BufTy).Contents (Elt F) → (⟨S100x100x100, .i1⟩ : BufTy).Contents (Elt F)),
    nullary main_cst_3 (constant S_ .f32 0x43AF0000#32),
    unary main_cst_3 main_v29 (broadcastInDim S100x100x100 ![] bcast_S_S100x100x100 : (⟨S_, .f32⟩ : BufTy).Contents (Elt F) → (⟨S100x100x100, .f32⟩ : BufTy).Contents (Elt F)),
    binary main_v16 main_v29 main_v30 (cmpf .ogt : (⟨S100x100x100, .f32⟩ : BufTy).Contents (Elt F) → (⟨S100x100x100, .f32⟩ : BufTy).Contents (Elt F) → (⟨S100x100x100, .i1⟩ : BufTy).Contents (Elt F)),
    binary main_v28 main_v30 main_v31 (ori : (⟨S100x100x100, .i1⟩ : BufTy).Contents (Elt F) → (⟨S100x100x100, .i1⟩ : BufTy).Contents (Elt F) → (⟨S100x100x100, .i1⟩ : BufTy).Contents (Elt F)),
    nullary main_cst_4 (constant S_ .f32 0x43AF0000#32),
    unary main_cst_4 main_v32 (broadcastInDim S100x100x100 ![] bcast_S_S100x100x100 : (⟨S_, .f32⟩ : BufTy).Contents (Elt F) → (⟨S100x100x100, .f32⟩ : BufTy).Contents (Elt F)),
    binary main_v16 main_v32 main_v33 (cmpf .oeq : (⟨S100x100x100, .f32⟩ : BufTy).Contents (Elt F) → (⟨S100x100x100, .f32⟩ : BufTy).Contents (Elt F) → (⟨S100x100x100, .i1⟩ : BufTy).Contents (Elt F)),
    nullary main_cst_5 (constant S_ .f32 0x00000000#32),
    unary main_cst_5 main_v34 (broadcastInDim S100x100x100 ![] bcast_S_S100x100x100 : (⟨S_, .f32⟩ : BufTy).Contents (Elt F) → (⟨S100x100x100, .f32⟩ : BufTy).Contents (Elt F)),
    binary main_v20 main_v34 main_v35 (cmpf .ogt : (⟨S100x100x100, .f32⟩ : BufTy).Contents (Elt F) → (⟨S100x100x100, .f32⟩ : BufTy).Contents (Elt F) → (⟨S100x100x100, .i1⟩ : BufTy).Contents (Elt F)),
    binary main_v33 main_v35 main_v36 (andi : (⟨S100x100x100, .i1⟩ : BufTy).Contents (Elt F) → (⟨S100x100x100, .i1⟩ : BufTy).Contents (Elt F) → (⟨S100x100x100, .i1⟩ : BufTy).Contents (Elt F)),
    binary main_v31 main_v36 main_v37 (ori : (⟨S100x100x100, .i1⟩ : BufTy).Contents (Elt F) → (⟨S100x100x100, .i1⟩ : BufTy).Contents (Elt F) → (⟨S100x100x100, .i1⟩ : BufTy).Contents (Elt F)),
    nullary main_v38 (iotaInDim S100x100 32 0),
    nullary main_v39 (iotaInDim S100x100 32 1),
    nullary main_c (constantI S_ 32 0#32),
    unary main_c main_v40 (broadcastInDim S100x100 ![] bcast_S_S100x100 : (⟨S_, .i32⟩ : BufTy).Contents (Elt F) → (⟨S100x100, .i32⟩ : BufTy).Contents (Elt F)),
    binary main_v38 main_v40 main_v41 (addi : (⟨S100x100, .i32⟩ : BufTy).Contents (Elt F) → (⟨S100x100, .i32⟩ : BufTy).Contents (Elt F) → (⟨S100x100, .i32⟩ : BufTy).Contents (Elt F)),
    binary main_v41 main_v39 main_v42 (cmpi .eq : (⟨S100x100, .i32⟩ : BufTy).Contents (Elt F) → (⟨S100x100, .i32⟩ : BufTy).Contents (Elt F) → (⟨S100x100, .i1⟩ : BufTy).Contents (Elt F)),
    unary main_v42 main_v43 (broadcastInDim S1x100x100 ![1, 2] bcast_S100x100_S1x100x100_1_2 : (⟨S100x100, .i1⟩ : BufTy).Contents (Elt F) → (⟨S1x100x100, .i1⟩ : BufTy).Contents (Elt F)),
    unary main_v43 main_v44 (noti : (⟨S1x100x100, .i1⟩ : BufTy).Contents (Elt F) → (⟨S1x100x100, .i1⟩ : BufTy).Contents (Elt F)),
    unary main_v44 main_v45 (broadcastInDim S100x100x100 ![0, 1, 2] bcast_S1x100x100_S100x100x100_0_1_2 : (⟨S1x100x100, .i1⟩ : BufTy).Contents (Elt F) → (⟨S100x100x100, .i1⟩ : BufTy).Contents (Elt F)),
    binary main_v37 main_v45 main_v46 (andi : (⟨S100x100x100, .i1⟩ : BufTy).Contents (Elt F) → (⟨S100x100x100, .i1⟩ : BufTy).Contents (Elt F) → (⟨S100x100x100, .i1⟩ : BufTy).Contents (Elt F)),
    nullary main_v47 (iotaInDim S100 32 0),
    unary main_v47 main_v48 (broadcastInDim S100x1x1 ![0] bcast_S100_S100x1x1_0 : (⟨S100, .i32⟩ : BufTy).Contents (Elt F) → (⟨S100x1x1, .i32⟩ : BufTy).Contents (Elt F)),
    nullary main_v49 (iotaInDim S100 32 0),
    unary main_v49 main_v50 (broadcastInDim S1x100x1 ![1] bcast_S100_S1x100x1_1 : (⟨S100, .i32⟩ : BufTy).Contents (Elt F) → (⟨S1x100x1, .i32⟩ : BufTy).Contents (Elt F)),
    nullary main_v51 (iotaInDim S100 32 0) ]

/-- The operations of @main's window 1, in order: the edge index tables (the masked select with its two broadcasts written at their own buffers), the two concatenations, the degree count (a scatter-add of ones), its inverse square root, the first two dense layers, the two gathers of the normalisation and the first row gather (its twenty-three operations over the first gather record's buffers) with the scaling of its rows. -/
abbrev ops1 : List (HloOp τ sig (Elt F)) :=
  [ unary main_v51 main_v52 (broadcastInDim S1x1x100 ![2] bcast_S100_S1x1x100_2 : (⟨S100, .i32⟩ : BufTy).Contents (Elt F) → (⟨S1x1x100, .i32⟩ : BufTy).Contents (Elt F)),
    nullary main_c_6 (constantI S_ 32 100#32),
    unary main_c_6 main_v53 (broadcastInDim S100x1x1 ![] bcast_S_S100x1x1 : (⟨S_, .i32⟩ : BufTy).Contents (Elt F) → (⟨S100x1x1, .i32⟩ : BufTy).Contents (Elt F)),
    binary main_v48 main_v53 main_v54 (muli : (⟨S100x1x1, .i32⟩ : BufTy).Contents (Elt F) → (⟨S100x1x1, .i32⟩ : BufTy).Contents (Elt F) → (⟨S100x1x1, .i32⟩ : BufTy).Contents (Elt F)),
    unary main_v54 main_v55 (broadcastInDim S100x100x1 ![0, 1, 2] bcast_S100x1x1_S100x100x1_0_1_2 : (⟨S100x1x1, .i32⟩ : BufTy).Contents (Elt F) → (⟨S100x100x1, .i32⟩ : BufTy).Contents (Elt F)),
    unary main_v50 main_v56 (broadcastInDim S100x100x1 ![0, 1, 2] bcast_S1x100x1_S100x100x1_0_1_2 : (⟨S1x100x1, .i32⟩ : BufTy).Contents (Elt F) → (⟨S100x100x1, .i32⟩ : BufTy).Contents (Elt F)),
    binary main_v55 main_v56 main_v57 (addi : (⟨S100x100x1, .i32⟩ : BufTy).Contents (Elt F) → (⟨S100x100x1, .i32⟩ : BufTy).Contents (Elt F) → (⟨S100x100x1, .i32⟩ : BufTy).Contents (Elt F)),
    unary main_v57 main_v58 (broadcastInDim S100x100x100 ![0, 1, 2] bcast_S100x100x1_S100x100x100_0_1_2 : (⟨S100x100x1, .i32⟩ : BufTy).Contents (Elt F) → (⟨S100x100x100, .i32⟩ : BufTy).Contents (Elt F)),
    reshape main_v58 main_v59 rfl shapeCasts_S100x100x100_S1000000,
    nullary main_c_7 (constantI S_ 32 100#32),
    unary main_c_7 main_v60 (broadcastInDim S100x1x1 ![] bcast_S_S100x1x1 : (⟨S_, .i32⟩ : BufTy).Contents (Elt F) → (⟨S100x1x1, .i32⟩ : BufTy).Contents (Elt F)),
    binary main_v48 main_v60 main_v61 (muli : (⟨S100x1x1, .i32⟩ : BufTy).Contents (Elt F) → (⟨S100x1x1, .i32⟩ : BufTy).Contents (Elt F) → (⟨S100x1x1, .i32⟩ : BufTy).Contents (Elt F)),
    unary main_v61 main_v62 (broadcastInDim S100x1x100 ![0, 1, 2] bcast_S100x1x1_S100x1x100_0_1_2 : (⟨S100x1x1, .i32⟩ : BufTy).Contents (Elt F) → (⟨S100x1x100, .i32⟩ : BufTy).Contents (Elt F)),
    unary main_v52 main_v63 (broadcastInDim S100x1x100 ![0, 1, 2] bcast_S1x1x100_S100x1x100_0_1_2 : (⟨S1x1x100, .i32⟩ : BufTy).Contents (Elt F) → (⟨S100x1x100, .i32⟩ : BufTy).Contents (Elt F)),
    binary main_v62 main_v63 main_v64 (addi : (⟨S100x1x100, .i32⟩ : BufTy).Contents (Elt F) → (⟨S100x1x100, .i32⟩ : BufTy).Contents (Elt F) → (⟨S100x1x100, .i32⟩ : BufTy).Contents (Elt F)),
    nullary main_c_8 (constantI S_ 32 10000#32),
    TRef.unary (.of main_v64 : TRef sig ⟨S100x1x100, .i32⟩) main_call1.v0 (broadcastInDim S100x100x100 ![0, 1, 2] bcast_S100x1x100_S100x100x100_0_1_2),
    TRef.unary (.of main_c_8 : TRef sig ⟨S_, .i32⟩) main_call1.v1 (broadcastInDim S100x100x100 ![] bcast_S_S100x100x100),
    TRef.ternary (.of main_v46 : TRef sig ⟨S100x100x100, .i1⟩) main_call1.v0 main_call1.v1 main_call1.v2 select,
    reshape main_v65 main_v66 rfl shapeCasts_S100x100x100_S1000000,
    nullary main_v67 (iotaInDim S10000 32 0),
    binary main_v59 main_v67 main_v68 ((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)),
    binary main_v66 main_v67 main_v69 ((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)),
    nullary main_cst_9 (constant S_ .f32 0x3F800000#32),
    unary main_cst_9 main_v70 (broadcastInDim S1010000 ![] bcast_S_S1010000 : (⟨S_, .f32⟩ : BufTy).Contents (Elt F) → (⟨S1010000, .f32⟩ : BufTy).Contents (Elt F)),
    nullary main_cst_10 (constant S_ .f32 0x00000000#32),
    unary main_cst_10 main_v71 (broadcastInDim S10001 ![] bcast_S_S10001 : (⟨S_, .f32⟩ : BufTy).Contents (Elt F) → (⟨S10001, .f32⟩ : BufTy).Contents (Elt F)),
    unary main_v69 main_v72 (broadcastInDim S1010000x1 ![0] bcast_S1010000_S1010000x1_0 : (⟨S1010000, .i32⟩ : BufTy).Contents (Elt F) → (⟨S1010000x1, .i32⟩ : BufTy).Contents (Elt F)),
    ternary main_v71 main_v72 main_v70 main_v73 ((fun x i u => Host.scatterAdd scatter_S10001_S1010000x1_S1010000_n_0_0_1 x i u) : (⟨S10001, .f32⟩ : BufTy).Contents (Elt F) → (⟨S1010000x1, .i32⟩ : BufTy).Contents (Elt F) → (⟨S1010000, .f32⟩ : BufTy).Contents (Elt F) → (⟨S10001, .f32⟩ : BufTy).Contents (Elt F)),
    unary main_v73 main_v74 (Host.sqrt : (⟨S10001, .f32⟩ : BufTy).Contents (Elt F) → (⟨S10001, .f32⟩ : BufTy).Contents (Elt F)),
    nullary main_cst_11 (constant S_ .f32 0x3F800000#32),
    unary main_cst_11 main_v75 (broadcastInDim S10001 ![] bcast_S_S10001 : (⟨S_, .f32⟩ : BufTy).Contents (Elt F) → (⟨S10001, .f32⟩ : BufTy).Contents (Elt F)),
    binary main_v75 main_v74 main_v76 (Host.divf : (⟨S10001, .f32⟩ : BufTy).Contents (Elt F) → (⟨S10001, .f32⟩ : BufTy).Contents (Elt F) → (⟨S10001, .f32⟩ : BufTy).Contents (Elt F)),
    reshape main_arg0 main_v77 rfl shapeCasts_S100x100x128_S10000x128,
    binary main_v77 main_arg1 main_v78 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg2 main_v79 (broadcastInDim S1x128 ![1] bcast_S128_S1x128_1 : (⟨S128, .f32⟩ : BufTy).Contents (Elt F) → (⟨S1x128, .f32⟩ : BufTy).Contents (Elt F)),
    unary main_v79 main_v80 (broadcastInDim S10000x128 ![0, 1] bcast_S1x128_S10000x128_0_1 : (⟨S1x128, .f32⟩ : BufTy).Contents (Elt F) → (⟨S10000x128, .f32⟩ : BufTy).Contents (Elt F)),
    binary main_v78 main_v80 main_v81 (addf : (⟨S10000x128, .f32⟩ : BufTy).Contents (Elt F) → (⟨S10000x128, .f32⟩ : BufTy).Contents (Elt F) → (⟨S10000x128, .f32⟩ : BufTy).Contents (Elt F)),
    binary main_v81 main_arg3 main_v82 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c_12 (constantI S_ 32 0#32),
    unary main_c_12 main_v83 (broadcastInDim S1010000 ![] bcast_S_S1010000 : (⟨S_, .i32⟩ : BufTy).Contents (Elt F) → (⟨S1010000, .i32⟩ : BufTy).Contents (Elt F)),
    binary main_v68 main_v83 main_v84 (cmpi .slt : (⟨S1010000, .i32⟩ : BufTy).Contents (Elt F) → (⟨S1010000, .i32⟩ : BufTy).Contents (Elt F) → (⟨S1010000, .i1⟩ : BufTy).Contents (Elt F)),
    nullary main_c_13 (constantI S_ 32 10001#32),
    unary main_c_13 main_v85 (broadcastInDim S1010000 ![] bcast_S_S1010000 : (⟨S_, .i32⟩ : BufTy).Contents (Elt F) → (⟨S1010000, .i32⟩ : BufTy).Contents (Elt F)),
    binary main_v68 main_v85 main_v86 (addi : (⟨S1010000, .i32⟩ : BufTy).Contents (Elt F) → (⟨S1010000, .i32⟩ : BufTy).Contents (Elt F) → (⟨S1010000, .i32⟩ : BufTy).Contents (Elt F)),
    ternary main_v84 main_v86 main_v68 main_v87 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v87 main_v88 (broadcastInDim S1010000x1 ![0] bcast_S1010000_S1010000x1_0 : (⟨S1010000, .i32⟩ : BufTy).Contents (Elt F) → (⟨S1010000x1, .i32⟩ : BufTy).Contents (Elt F)),
    binary main_v76 main_v88 main_v89 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    nullary main_c_14 (constantI S_ 32 0#32),
    unary main_c_14 main_v90 (broadcastInDim S1010000 ![] bcast_S_S1010000 : (⟨S_, .i32⟩ : BufTy).Contents (Elt F) → (⟨S1010000, .i32⟩ : BufTy).Contents (Elt F)),
    binary main_v69 main_v90 main_v91 (cmpi .slt : (⟨S1010000, .i32⟩ : BufTy).Contents (Elt F) → (⟨S1010000, .i32⟩ : BufTy).Contents (Elt F) → (⟨S1010000, .i1⟩ : BufTy).Contents (Elt F)),
    nullary main_c_15 (constantI S_ 32 10001#32),
    unary main_c_15 main_v92 (broadcastInDim S1010000 ![] bcast_S_S1010000 : (⟨S_, .i32⟩ : BufTy).Contents (Elt F) → (⟨S1010000, .i32⟩ : BufTy).Contents (Elt F)),
    binary main_v69 main_v92 main_v93 (addi : (⟨S1010000, .i32⟩ : BufTy).Contents (Elt F) → (⟨S1010000, .i32⟩ : BufTy).Contents (Elt F) → (⟨S1010000, .i32⟩ : BufTy).Contents (Elt F)),
    ternary main_v91 main_v93 main_v69 main_v94 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v94 main_v95 (broadcastInDim S1010000x1 ![0] bcast_S1010000_S1010000x1_0 : (⟨S1010000, .i32⟩ : BufTy).Contents (Elt F) → (⟨S1010000x1, .i32⟩ : BufTy).Contents (Elt F)),
    binary main_v76 main_v95 main_v96 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    binary main_v89 main_v96 main_v97 (mulf : (⟨S1010000, .f32⟩ : BufTy).Contents (Elt F) → (⟨S1010000, .f32⟩ : BufTy).Contents (Elt F) → (⟨S1010000, .f32⟩ : BufTy).Contents (Elt F)),
    TRef.nullary main_call2.c (constantI S_ 32 0#32),
    TRef.unary main_call2.c main_call2.v0 (broadcastInDim S1010000 ![] bcast_S_S1010000),
    TRef.binary (.of main_v68 : TRef sig ⟨S1010000, .i32⟩) main_call2.v0 main_call2.v1 (cmpi .slt),
    TRef.nullary main_call2.c_0 (constantI S_ 32 10000#32),
    TRef.unary main_call2.c_0 main_call2.v2 (broadcastInDim S1010000 ![] bcast_S_S1010000),
    TRef.binary (.of main_v68 : TRef sig ⟨S1010000, .i32⟩) main_call2.v2 main_call2.v3 addi,
    TRef.ternary main_call2.v1 main_call2.v3 (.of main_v68 : TRef sig ⟨S1010000, .i32⟩) main_call2.call0.v0 select,
    TRef.unary main_call2.call0.v0 main_call2.v5 (broadcastInDim S1010000x1 ![0] bcast_S1010000_S1010000x1_0),
    TRef.nullary main_call2.c_1 (constantI S1 32 9999#32),
    TRef.nullary main_call2.c_2 (constantI S_ 32 0#32),
    TRef.unary main_call2.c_2 main_call2.v6 (broadcastInDim S1010000x1 ![] bcast_S_S1010000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1010000x1 ![0, 1] bcast_S1x1_S1010000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1010000x1_S1010000_d1 h_S_),
    TRef.binary (.of main_v82 : TRef sig ⟨S10000x128, .f32⟩) main_call2.v5 main_call2.v13 (fun x i => Host.gather gather_S10000x128_S1010000x1_S1010000x128_1_0_n_n_0_1_1128 x i),
    TRef.unary main_call2.v12 main_call2.v14 (broadcastInDim S1010000x128 ![0] bcast_S1010000_S1010000x128_0),
    TRef.nullary main_call2.cst (constant S_ .f32 0x7FC00000#32),
    TRef.unary main_call2.cst main_call2.v15 (broadcastInDim S1010000x128 ![] bcast_S_S1010000x128),
    TRef.ternary main_call2.v14 main_call2.v13 main_call2.v15 main_call2.v16 select,
    unary main_v97 main_v99 (broadcastInDim S1010000x1 ![0] bcast_S1010000_S1010000x1_0 : (⟨S1010000, .f32⟩ : BufTy).Contents (Elt F) → (⟨S1010000x1, .f32⟩ : BufTy).Contents (Elt F)),
    unary main_v99 main_v100 (broadcastInDim S1010000x128 ![0, 1] bcast_S1010000x1_S1010000x128_0_1 : (⟨S1010000x1, .f32⟩ : BufTy).Contents (Elt F) → (⟨S1010000x128, .f32⟩ : BufTy).Contents (Elt F)),
    binary main_v98 main_v100 main_v101 (mulf : (⟨S1010000x128, .f32⟩ : BufTy).Contents (Elt F) → (⟨S1010000x128, .f32⟩ : BufTy).Contents (Elt F) → (⟨S1010000x128, .f32⟩ : BufTy).Contents (Elt F)) ]

/-- The operations of @main's window 2, in order: the first aggregation (scatter-add), bias and rectifier; the third dense layer, the second normalisation and row gather with its aggregation, bias and rectifier; the fourth dense layer and the third normalisation up to its second index table. -/
abbrev ops2 : List (HloOp τ sig (Elt F)) :=
  [ nullary main_cst_16 (constant S_ .f32 0x00000000#32),
    unary main_cst_16 main_v102 (broadcastInDim S10001x128 ![] bcast_S_S10001x128 : (⟨S_, .f32⟩ : BufTy).Contents (Elt F) → (⟨S10001x128, .f32⟩ : BufTy).Contents (Elt F)),
    unary main_v69 main_v103 (broadcastInDim S1010000x1 ![0] bcast_S1010000_S1010000x1_0 : (⟨S1010000, .i32⟩ : BufTy).Contents (Elt F) → (⟨S1010000x1, .i32⟩ : BufTy).Contents (Elt F)),
    ternary main_v102 main_v103 main_v101 main_v104 ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)),
    unary main_v104 main_v105 ((extractStridedSlice S10000x128 ![0, 0] · slices_S10001x128_S10000x128_0_0) : (⟨S10001x128, .f32⟩ : BufTy).Contents (Elt F) → (⟨S10000x128, .f32⟩ : BufTy).Contents (Elt F)),
    unary main_arg4 main_v106 (broadcastInDim S1x128 ![1] bcast_S128_S1x128_1 : (⟨S128, .f32⟩ : BufTy).Contents (Elt F) → (⟨S1x128, .f32⟩ : BufTy).Contents (Elt F)),
    unary main_v106 main_v107 (broadcastInDim S10000x128 ![0, 1] bcast_S1x128_S10000x128_0_1 : (⟨S1x128, .f32⟩ : BufTy).Contents (Elt F) → (⟨S10000x128, .f32⟩ : BufTy).Contents (Elt F)),
    binary main_v105 main_v107 main_v108 (addf : (⟨S10000x128, .f32⟩ : BufTy).Contents (Elt F) → (⟨S10000x128, .f32⟩ : BufTy).Contents (Elt F) → (⟨S10000x128, .f32⟩ : BufTy).Contents (Elt F)),
    TRef.nullary main_call3.cst (constant S_ .f32 0x00000000#32),
    TRef.unary main_call3.cst main_call3.v0 (broadcastInDim S10000x128 ![] bcast_S_S10000x128),
    TRef.binary (.of main_v108 : TRef sig ⟨S10000x128, .f32⟩) main_call3.v0 main_call3.v1 maximumf,
    binary main_v109 main_arg5 main_v110 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c_17 (constantI S_ 32 0#32),
    unary main_c_17 main_v111 (broadcastInDim S1010000 ![] bcast_S_S1010000 : (⟨S_, .i32⟩ : BufTy).Contents (Elt F) → (⟨S1010000, .i32⟩ : BufTy).Contents (Elt F)),
    binary main_v68 main_v111 main_v112 (cmpi .slt : (⟨S1010000, .i32⟩ : BufTy).Contents (Elt F) → (⟨S1010000, .i32⟩ : BufTy).Contents (Elt F) → (⟨S1010000, .i1⟩ : BufTy).Contents (Elt F)),
    nullary main_c_18 (constantI S_ 32 10001#32),
    unary main_c_18 main_v113 (broadcastInDim S1010000 ![] bcast_S_S1010000 : (⟨S_, .i32⟩ : BufTy).Contents (Elt F) → (⟨S1010000, .i32⟩ : BufTy).Contents (Elt F)),
    binary main_v68 main_v113 main_v114 (addi : (⟨S1010000, .i32⟩ : BufTy).Contents (Elt F) → (⟨S1010000, .i32⟩ : BufTy).Contents (Elt F) → (⟨S1010000, .i32⟩ : BufTy).Contents (Elt F)),
    ternary main_v112 main_v114 main_v68 main_v115 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v115 main_v116 (broadcastInDim S1010000x1 ![0] bcast_S1010000_S1010000x1_0 : (⟨S1010000, .i32⟩ : BufTy).Contents (Elt F) → (⟨S1010000x1, .i32⟩ : BufTy).Contents (Elt F)),
    binary main_v76 main_v116 main_v117 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    nullary main_c_19 (constantI S_ 32 0#32),
    unary main_c_19 main_v118 (broadcastInDim S1010000 ![] bcast_S_S1010000 : (⟨S_, .i32⟩ : BufTy).Contents (Elt F) → (⟨S1010000, .i32⟩ : BufTy).Contents (Elt F)),
    binary main_v69 main_v118 main_v119 (cmpi .slt : (⟨S1010000, .i32⟩ : BufTy).Contents (Elt F) → (⟨S1010000, .i32⟩ : BufTy).Contents (Elt F) → (⟨S1010000, .i1⟩ : BufTy).Contents (Elt F)),
    nullary main_c_20 (constantI S_ 32 10001#32),
    unary main_c_20 main_v120 (broadcastInDim S1010000 ![] bcast_S_S1010000 : (⟨S_, .i32⟩ : BufTy).Contents (Elt F) → (⟨S1010000, .i32⟩ : BufTy).Contents (Elt F)),
    binary main_v69 main_v120 main_v121 (addi : (⟨S1010000, .i32⟩ : BufTy).Contents (Elt F) → (⟨S1010000, .i32⟩ : BufTy).Contents (Elt F) → (⟨S1010000, .i32⟩ : BufTy).Contents (Elt F)),
    ternary main_v119 main_v121 main_v69 main_v122 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v122 main_v123 (broadcastInDim S1010000x1 ![0] bcast_S1010000_S1010000x1_0 : (⟨S1010000, .i32⟩ : BufTy).Contents (Elt F) → (⟨S1010000x1, .i32⟩ : BufTy).Contents (Elt F)),
    binary main_v76 main_v123 main_v124 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    binary main_v117 main_v124 main_v125 (mulf : (⟨S1010000, .f32⟩ : BufTy).Contents (Elt F) → (⟨S1010000, .f32⟩ : BufTy).Contents (Elt F) → (⟨S1010000, .f32⟩ : BufTy).Contents (Elt F)),
    TRef.nullary main_call4.c (constantI S_ 32 0#32),
    TRef.unary main_call4.c main_call4.v0 (broadcastInDim S1010000 ![] bcast_S_S1010000),
    TRef.binary (.of main_v68 : TRef sig ⟨S1010000, .i32⟩) main_call4.v0 main_call4.v1 (cmpi .slt),
    TRef.nullary main_call4.c_0 (constantI S_ 32 10000#32),
    TRef.unary main_call4.c_0 main_call4.v2 (broadcastInDim S1010000 ![] bcast_S_S1010000),
    TRef.binary (.of main_v68 : TRef sig ⟨S1010000, .i32⟩) main_call4.v2 main_call4.v3 addi,
    TRef.ternary main_call4.v1 main_call4.v3 (.of main_v68 : TRef sig ⟨S1010000, .i32⟩) main_call4.call0.v0 select,
    TRef.unary main_call4.call0.v0 main_call4.v5 (broadcastInDim S1010000x1 ![0] bcast_S1010000_S1010000x1_0),
    TRef.nullary main_call4.c_1 (constantI S1 32 9999#32),
    TRef.nullary main_call4.c_2 (constantI S_ 32 0#32),
    TRef.unary main_call4.c_2 main_call4.v6 (broadcastInDim S1010000x1 ![] bcast_S_S1010000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1010000x1 ![0, 1] bcast_S1x1_S1010000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1010000x1_S1010000_d1 h_S_),
    TRef.binary (.of main_v110 : TRef sig ⟨S10000x128, .f32⟩) main_call4.v5 main_call4.v13 (fun x i => Host.gather gather_S10000x128_S1010000x1_S1010000x128_1_0_n_n_0_1_1128 x i),
    TRef.unary main_call4.v12 main_call4.v14 (broadcastInDim S1010000x128 ![0] bcast_S1010000_S1010000x128_0),
    TRef.nullary main_call4.cst (constant S_ .f32 0x7FC00000#32),
    TRef.unary main_call4.cst main_call4.v15 (broadcastInDim S1010000x128 ![] bcast_S_S1010000x128),
    TRef.ternary main_call4.v14 main_call4.v13 main_call4.v15 main_call4.v16 select,
    unary main_v125 main_v127 (broadcastInDim S1010000x1 ![0] bcast_S1010000_S1010000x1_0 : (⟨S1010000, .f32⟩ : BufTy).Contents (Elt F) → (⟨S1010000x1, .f32⟩ : BufTy).Contents (Elt F)),
    unary main_v127 main_v128 (broadcastInDim S1010000x128 ![0, 1] bcast_S1010000x1_S1010000x128_0_1 : (⟨S1010000x1, .f32⟩ : BufTy).Contents (Elt F) → (⟨S1010000x128, .f32⟩ : BufTy).Contents (Elt F)),
    binary main_v126 main_v128 main_v129 (mulf : (⟨S1010000x128, .f32⟩ : BufTy).Contents (Elt F) → (⟨S1010000x128, .f32⟩ : BufTy).Contents (Elt F) → (⟨S1010000x128, .f32⟩ : BufTy).Contents (Elt F)),
    nullary main_cst_21 (constant S_ .f32 0x00000000#32),
    unary main_cst_21 main_v130 (broadcastInDim S10001x128 ![] bcast_S_S10001x128 : (⟨S_, .f32⟩ : BufTy).Contents (Elt F) → (⟨S10001x128, .f32⟩ : BufTy).Contents (Elt F)),
    unary main_v69 main_v131 (broadcastInDim S1010000x1 ![0] bcast_S1010000_S1010000x1_0 : (⟨S1010000, .i32⟩ : BufTy).Contents (Elt F) → (⟨S1010000x1, .i32⟩ : BufTy).Contents (Elt F)),
    ternary main_v130 main_v131 main_v129 main_v132 ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)),
    unary main_v132 main_v133 ((extractStridedSlice S10000x128 ![0, 0] · slices_S10001x128_S10000x128_0_0) : (⟨S10001x128, .f32⟩ : BufTy).Contents (Elt F) → (⟨S10000x128, .f32⟩ : BufTy).Contents (Elt F)),
    unary main_arg6 main_v134 (broadcastInDim S1x128 ![1] bcast_S128_S1x128_1 : (⟨S128, .f32⟩ : BufTy).Contents (Elt F) → (⟨S1x128, .f32⟩ : BufTy).Contents (Elt F)),
    unary main_v134 main_v135 (broadcastInDim S10000x128 ![0, 1] bcast_S1x128_S10000x128_0_1 : (⟨S1x128, .f32⟩ : BufTy).Contents (Elt F) → (⟨S10000x128, .f32⟩ : BufTy).Contents (Elt F)),
    binary main_v133 main_v135 main_v136 (addf : (⟨S10000x128, .f32⟩ : BufTy).Contents (Elt F) → (⟨S10000x128, .f32⟩ : BufTy).Contents (Elt F) → (⟨S10000x128, .f32⟩ : BufTy).Contents (Elt F)),
    TRef.nullary main_call5.cst (constant S_ .f32 0x00000000#32),
    TRef.unary main_call5.cst main_call5.v0 (broadcastInDim S10000x128 ![] bcast_S_S10000x128),
    TRef.binary (.of main_v136 : TRef sig ⟨S10000x128, .f32⟩) main_call5.v0 main_call5.v1 maximumf,
    binary main_v137 main_arg7 main_v138 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    nullary main_c_22 (constantI S_ 32 0#32),
    unary main_c_22 main_v139 (broadcastInDim S1010000 ![] bcast_S_S1010000 : (⟨S_, .i32⟩ : BufTy).Contents (Elt F) → (⟨S1010000, .i32⟩ : BufTy).Contents (Elt F)),
    binary main_v68 main_v139 main_v140 (cmpi .slt : (⟨S1010000, .i32⟩ : BufTy).Contents (Elt F) → (⟨S1010000, .i32⟩ : BufTy).Contents (Elt F) → (⟨S1010000, .i1⟩ : BufTy).Contents (Elt F)),
    nullary main_c_23 (constantI S_ 32 10001#32),
    unary main_c_23 main_v141 (broadcastInDim S1010000 ![] bcast_S_S1010000 : (⟨S_, .i32⟩ : BufTy).Contents (Elt F) → (⟨S1010000, .i32⟩ : BufTy).Contents (Elt F)),
    binary main_v68 main_v141 main_v142 (addi : (⟨S1010000, .i32⟩ : BufTy).Contents (Elt F) → (⟨S1010000, .i32⟩ : BufTy).Contents (Elt F) → (⟨S1010000, .i32⟩ : BufTy).Contents (Elt F)),
    ternary main_v140 main_v142 main_v68 main_v143 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v143 main_v144 (broadcastInDim S1010000x1 ![0] bcast_S1010000_S1010000x1_0 : (⟨S1010000, .i32⟩ : BufTy).Contents (Elt F) → (⟨S1010000x1, .i32⟩ : BufTy).Contents (Elt F)),
    binary main_v76 main_v144 main_v145 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    nullary main_c_24 (constantI S_ 32 0#32),
    unary main_c_24 main_v146 (broadcastInDim S1010000 ![] bcast_S_S1010000 : (⟨S_, .i32⟩ : BufTy).Contents (Elt F) → (⟨S1010000, .i32⟩ : BufTy).Contents (Elt F)),
    binary main_v69 main_v146 main_v147 (cmpi .slt : (⟨S1010000, .i32⟩ : BufTy).Contents (Elt F) → (⟨S1010000, .i32⟩ : BufTy).Contents (Elt F) → (⟨S1010000, .i1⟩ : BufTy).Contents (Elt F)),
    nullary main_c_25 (constantI S_ 32 10001#32),
    unary main_c_25 main_v148 (broadcastInDim S1010000 ![] bcast_S_S1010000 : (⟨S_, .i32⟩ : BufTy).Contents (Elt F) → (⟨S1010000, .i32⟩ : BufTy).Contents (Elt F)),
    binary main_v69 main_v148 main_v149 (addi : (⟨S1010000, .i32⟩ : BufTy).Contents (Elt F) → (⟨S1010000, .i32⟩ : BufTy).Contents (Elt F) → (⟨S1010000, .i32⟩ : BufTy).Contents (Elt F)),
    ternary main_v147 main_v149 main_v69 main_v150 (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)),
    unary main_v150 main_v151 (broadcastInDim S1010000x1 ![0] bcast_S1010000_S1010000x1_0 : (⟨S1010000, .i32⟩ : BufTy).Contents (Elt F) → (⟨S1010000x1, .i32⟩ : BufTy).Contents (Elt F)) ]

/-- The operations of @main's window 3, in order: the third normalisation's product, the third row gather and aggregation, bias and rectifier; the mean over the second axis; the two dense layers of the head with the rectifier between them. -/
abbrev ops3 : List (HloOp τ sig (Elt F)) :=
  [ binary main_v76 main_v151 main_v152 ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)),
    binary main_v145 main_v152 main_v153 (mulf : (⟨S1010000, .f32⟩ : BufTy).Contents (Elt F) → (⟨S1010000, .f32⟩ : BufTy).Contents (Elt F) → (⟨S1010000, .f32⟩ : BufTy).Contents (Elt F)),
    TRef.nullary main_call6.c (constantI S_ 32 0#32),
    TRef.unary main_call6.c main_call6.v0 (broadcastInDim S1010000 ![] bcast_S_S1010000),
    TRef.binary (.of main_v68 : TRef sig ⟨S1010000, .i32⟩) main_call6.v0 main_call6.v1 (cmpi .slt),
    TRef.nullary main_call6.c_0 (constantI S_ 32 10000#32),
    TRef.unary main_call6.c_0 main_call6.v2 (broadcastInDim S1010000 ![] bcast_S_S1010000),
    TRef.binary (.of main_v68 : TRef sig ⟨S1010000, .i32⟩) main_call6.v2 main_call6.v3 addi,
    TRef.ternary main_call6.v1 main_call6.v3 (.of main_v68 : TRef sig ⟨S1010000, .i32⟩) main_call6.call0.v0 select,
    TRef.unary main_call6.call0.v0 main_call6.v5 (broadcastInDim S1010000x1 ![0] bcast_S1010000_S1010000x1_0),
    TRef.nullary main_call6.c_1 (constantI S1 32 9999#32),
    TRef.nullary main_call6.c_2 (constantI S_ 32 0#32),
    TRef.unary main_call6.c_2 main_call6.v6 (broadcastInDim S1010000x1 ![] bcast_S_S1010000x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S1010000x1 ![0, 1] bcast_S1x1_S1010000x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1010000x1_S1010000_d1 h_S_),
    TRef.binary (.of main_v138 : TRef sig ⟨S10000x128, .f32⟩) main_call6.v5 main_call6.v13 (fun x i => Host.gather gather_S10000x128_S1010000x1_S1010000x128_1_0_n_n_0_1_1128 x i),
    TRef.unary main_call6.v12 main_call6.v14 (broadcastInDim S1010000x128 ![0] bcast_S1010000_S1010000x128_0),
    TRef.nullary main_call6.cst (constant S_ .f32 0x7FC00000#32),
    TRef.unary main_call6.cst main_call6.v15 (broadcastInDim S1010000x128 ![] bcast_S_S1010000x128),
    TRef.ternary main_call6.v14 main_call6.v13 main_call6.v15 main_call6.v16 select,
    unary main_v153 main_v155 (broadcastInDim S1010000x1 ![0] bcast_S1010000_S1010000x1_0 : (⟨S1010000, .f32⟩ : BufTy).Contents (Elt F) → (⟨S1010000x1, .f32⟩ : BufTy).Contents (Elt F)),
    unary main_v155 main_v156 (broadcastInDim S1010000x128 ![0, 1] bcast_S1010000x1_S1010000x128_0_1 : (⟨S1010000x1, .f32⟩ : BufTy).Contents (Elt F) → (⟨S1010000x128, .f32⟩ : BufTy).Contents (Elt F)),
    binary main_v154 main_v156 main_v157 (mulf : (⟨S1010000x128, .f32⟩ : BufTy).Contents (Elt F) → (⟨S1010000x128, .f32⟩ : BufTy).Contents (Elt F) → (⟨S1010000x128, .f32⟩ : BufTy).Contents (Elt F)),
    nullary main_cst_26 (constant S_ .f32 0x00000000#32),
    unary main_cst_26 main_v158 (broadcastInDim S10001x128 ![] bcast_S_S10001x128 : (⟨S_, .f32⟩ : BufTy).Contents (Elt F) → (⟨S10001x128, .f32⟩ : BufTy).Contents (Elt F)),
    unary main_v69 main_v159 (broadcastInDim S1010000x1 ![0] bcast_S1010000_S1010000x1_0 : (⟨S1010000, .i32⟩ : BufTy).Contents (Elt F) → (⟨S1010000x1, .i32⟩ : BufTy).Contents (Elt F)),
    ternary main_v158 main_v159 main_v157 main_v160 ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)),
    unary main_v160 main_v161 ((extractStridedSlice S10000x128 ![0, 0] · slices_S10001x128_S10000x128_0_0) : (⟨S10001x128, .f32⟩ : BufTy).Contents (Elt F) → (⟨S10000x128, .f32⟩ : BufTy).Contents (Elt F)),
    unary main_arg8 main_v162 (broadcastInDim S1x128 ![1] bcast_S128_S1x128_1 : (⟨S128, .f32⟩ : BufTy).Contents (Elt F) → (⟨S1x128, .f32⟩ : BufTy).Contents (Elt F)),
    unary main_v162 main_v163 (broadcastInDim S10000x128 ![0, 1] bcast_S1x128_S10000x128_0_1 : (⟨S1x128, .f32⟩ : BufTy).Contents (Elt F) → (⟨S10000x128, .f32⟩ : BufTy).Contents (Elt F)),
    binary main_v161 main_v163 main_v164 (addf : (⟨S10000x128, .f32⟩ : BufTy).Contents (Elt F) → (⟨S10000x128, .f32⟩ : BufTy).Contents (Elt F) → (⟨S10000x128, .f32⟩ : BufTy).Contents (Elt F)),
    TRef.nullary main_call7.cst (constant S_ .f32 0x00000000#32),
    TRef.unary main_call7.cst main_call7.v0 (broadcastInDim S10000x128 ![] bcast_S_S10000x128),
    TRef.binary (.of main_v164 : TRef sig ⟨S10000x128, .f32⟩) main_call7.v0 main_call7.v1 maximumf,
    reshape main_v165 main_v166 rfl shapeCasts_S10000x128_S100x100x128,
    nullary main_cst_27 (constant S_ .f32 0x00000000#32),
    binary main_v166 main_cst_27 main_v167 ((fun x v => Host.reduceAdd x v reducesTo_S100x100x128_S100x128_d1 h_S_) : (⟨S100x100x128, .f32⟩ : BufTy).Contents (Elt F) → (⟨S_, .f32⟩ : BufTy).Contents (Elt F) → (⟨S100x128, .f32⟩ : BufTy).Contents (Elt F)),
    nullary main_cst_28 (constant S_ .f32 0x42C80000#32),
    unary main_cst_28 main_v168 (broadcastInDim S100x128 ![] bcast_S_S100x128 : (⟨S_, .f32⟩ : BufTy).Contents (Elt F) → (⟨S100x128, .f32⟩ : BufTy).Contents (Elt F)),
    binary main_v167 main_v168 main_v169 (Host.divf : (⟨S100x128, .f32⟩ : BufTy).Contents (Elt F) → (⟨S100x128, .f32⟩ : BufTy).Contents (Elt F) → (⟨S100x128, .f32⟩ : BufTy).Contents (Elt F)),
    binary main_v169 main_arg9 main_v170 ((fun l r => Host.dotGeneral dot_S100x128_S128x64_S100x64_1_0_0_1_n_n none l r) : (⟨S100x128, .f32⟩ : BufTy).Contents (Elt F) → (⟨S128x64, .f32⟩ : BufTy).Contents (Elt F) → (⟨S100x64, .f32⟩ : BufTy).Contents (Elt F)),
    unary main_arg10 main_v171 (broadcastInDim S1x64 ![1] bcast_S64_S1x64_1 : (⟨S64, .f32⟩ : BufTy).Contents (Elt F) → (⟨S1x64, .f32⟩ : BufTy).Contents (Elt F)),
    unary main_v171 main_v172 (broadcastInDim S100x64 ![0, 1] bcast_S1x64_S100x64_0_1 : (⟨S1x64, .f32⟩ : BufTy).Contents (Elt F) → (⟨S100x64, .f32⟩ : BufTy).Contents (Elt F)),
    binary main_v170 main_v172 main_v173 (addf : (⟨S100x64, .f32⟩ : BufTy).Contents (Elt F) → (⟨S100x64, .f32⟩ : BufTy).Contents (Elt F) → (⟨S100x64, .f32⟩ : BufTy).Contents (Elt F)),
    TRef.nullary main_call8.cst (constant S_ .f32 0x00000000#32),
    TRef.unary main_call8.cst main_call8.v0 (broadcastInDim S100x64 ![] bcast_S_S100x64),
    TRef.binary (.of main_v173 : TRef sig ⟨S100x64, .f32⟩) main_call8.v0 main_call8.v1 maximumf,
    binary main_v174 main_arg11 main_v175 ((fun l r => Host.dotGeneral dot_S100x64_S64x1_S100x1_1_0_0_1_n_n none l r) : (⟨S100x64, .f32⟩ : BufTy).Contents (Elt F) → (⟨S64x1, .f32⟩ : BufTy).Contents (Elt F) → (⟨S100x1, .f32⟩ : BufTy).Contents (Elt F)),
    unary main_arg12 main_v176 (broadcastInDim S1x1 ![1] bcast_S1_S1x1_1 : (⟨S1, .f32⟩ : BufTy).Contents (Elt F) → (⟨S1x1, .f32⟩ : BufTy).Contents (Elt F)),
    unary main_v176 main_v177 (broadcastInDim S100x1 ![0, 1] bcast_S1x1_S100x1_0_1 : (⟨S1x1, .f32⟩ : BufTy).Contents (Elt F) → (⟨S100x1, .f32⟩ : BufTy).Contents (Elt F)),
    binary main_v175 main_v177 main_v178 (addf : (⟨S100x1, .f32⟩ : BufTy).Contents (Elt F) → (⟨S100x1, .f32⟩ : BufTy).Contents (Elt F) → (⟨S100x1, .f32⟩ : BufTy).Contents (Elt F)) ]

/-- @main's 286 operations, in order. -/
abbrev ops : List (HloOp τ sig (Elt F)) := ops0 ++ (ops1 ++ (ops2 ++ ops3))

set_option maxRecDepth 8192 in
/-- Window 0 of @main is the straight line of its operations: each statement is one `hlo` step, a call is its body's steps. -/
theorem main_part0_eq (c : Dev nD) : main_part0 (F := F) c = seq ops0 := rfl

set_option maxRecDepth 8192 in
/-- Window 1 of @main is the straight line of its operations: each statement is one `hlo` step, a call is its body's steps. -/
theorem main_part1_eq (c : Dev nD) : main_part1 (F := F) c = seq ops1 := rfl

set_option maxRecDepth 8192 in
/-- Window 2 of @main is the straight line of its operations: each statement is one `hlo` step, a call is its body's steps. -/
theorem main_part2_eq (c : Dev nD) : main_part2 (F := F) c = seq ops2 := rfl

set_option maxRecDepth 8192 in
/-- Window 3 of @main is the straight line of its operations: each statement is one `hlo` step, a call is its body's steps. -/
theorem main_part3_eq (c : Dev nD) : main_part3 (F := F) c = seq ops3 := rfl

/-- @main, its four windows in order, is the straight line of all its operations (`seq_append`). -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every buffer an operation of window 0 touches is a TensorCore reference. -/
theorem ops0_sub : (ops0 : List (HloOp τ sig (Elt F))).Forall fun op => op.bufs ⊆ tcRefs τ sig :=
  ⟨unary_bufs_sub .., reshape_bufs_sub .., unary_bufs_sub .., unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., nullary_bufs_sub .., unary_bufs_sub .., binary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., nullary_bufs_sub .., nullary_bufs_sub .., unary_bufs_sub .., binary_bufs_sub .., binary_bufs_sub .., unary_bufs_sub .., unary_bufs_sub .., unary_bufs_sub .., binary_bufs_sub .., nullary_bufs_sub .., unary_bufs_sub .., nullary_bufs_sub .., unary_bufs_sub .., nullary_bufs_sub ..⟩

set_option maxRecDepth 8192 in
/-- No operation of window 0 leaves a result undetermined. -/
theorem ops0_fresh : ∀ op ∈ (ops0 : List (HloOp τ sig (Elt F))), op.fresh = ∅ := by
  intro _ h; (repeat (cases h with | head => rfl | tail _ h => ?_)); exact nomatch h

set_option maxRecDepth 8192 in
/-- Every buffer an operation of window 1 touches is a TensorCore reference. -/
theorem ops1_sub : (ops1 : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., unary_bufs_sub .., binary_bufs_sub .., nullary_bufs_sub .., unary_bufs_sub .., unary_bufs_sub .., ternary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., reshape_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub ..⟩

set_option maxRecDepth 8192 in
/-- No operation of window 1 leaves a result undetermined. -/
theorem ops1_fresh : ∀ op ∈ (ops1 : List (HloOp τ sig (Elt F))), op.fresh = ∅ := by
  intro _ h; (repeat (cases h with | head => rfl | tail _ h => ?_)); exact nomatch h

set_option maxRecDepth 8192 in
/-- Every buffer an operation of window 2 touches is a TensorCore reference. -/
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 8192 in
/-- No operation of window 2 leaves a result undetermined. -/
theorem ops2_fresh : ∀ op ∈ (ops2 : List (HloOp τ sig (Elt F))), op.fresh = ∅ := by
  intro _ h; (repeat (cases h with | head => rfl | tail _ h => ?_)); exact nomatch h

set_option maxRecDepth 8192 in
/-- Every buffer an operation of window 3 touches is a TensorCore reference. -/
theorem ops3_sub : (ops3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., binary_bufs_sub .., reshape_bufs_sub .., nullary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
/-- No operation of window 3 leaves a result undetermined. -/
theorem ops3_fresh : ∀ op ∈ (ops3 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [ops0_fresh op h, ops1_fresh op h, ops2_fresh op h, ops3_fresh op h]

end Cert.ReferenceIdeal.RefRun

end
-- ==== Proof.LibSsa.lean ====
/-
  SINGLE ASSIGNMENT, READ BACK. A straight line of host operations in which every operation writes buffers that no
  earlier operation touches, and in which no operation's result depends on what its own result buffers held, leaves
  the buffers at a FIXED POINT of each of its operations: what the line leaves in an operation's result buffer is
  that operation's function of what the line leaves in its operands' buffers (`after_eqs`). A program that names a
  fresh buffer for every value is such a line, and the fixed-point equations are then the program's own lines read as
  equations between the final contents: one per operation, each usable by itself.

  The side condition is checked in ONE pass by a rank function `key` on buffers under which the line RISES: each
  operation writes only above a bound on everything touched before it (`Ssa`); buffers numbered in program order,
  each operation reading lower numbers than the one it writes, are the case in point. Per builder of an operation a
  lemma puts one more operation in front of such a line (`ssa_nullary` …), and one reads its equation off the front
  (`eqs_nullary` …).
-/
import Idealize.ShloMosaic.Lib.StableHlo.Run

noncomputable section

namespace Cert.Ssa

open Idealize.ShloMosaic Idealize.ShloMosaic.StableHlo

variable {τ : Topo} {sig : RefSig} {Val : EltTy → Type}

/-- What the operation writes does not depend on what the buffers it writes held before it. -/
def Indep (op : HloOp τ sig Val) : Prop :=
  ∀ F G : Valuation τ sig Val, (∀ x ∈ op.bufs, x ∉ op.writes → F x = G x) → ∀ b ∈ op.writes, op.result F b = op.result G b

/-- The contents `R` are a fixed point of every operation of the list, at the buffers it writes. -/
def Eqs (R : Valuation τ sig Val) : List (HloOp τ sig Val) → Prop
  | [] => True
  | op :: rest => (∀ b ∈ op.writes, R b = op.result R b) ∧ Eqs R rest

theorem eqs_nil (R : Valuation τ sig Val) : Eqs R [] ↔ True := Iff.rfl

theorem eqs_append (R : Valuation τ sig Val) : ∀ l₁ l₂ : List (HloOp τ sig Val), Eqs R (l₁ ++ l₂) ↔ Eqs R l₁ ∧ Eqs R l₂
  | [], l₂ => by rw [List.nil_append]; exact ⟨fun h => ⟨trivial, h⟩, fun h => h.2⟩
  | op :: l₁, l₂ => by
    rw [List.cons_append]
    show (_ ∧ Eqs R (l₁ ++ l₂)) ↔ (_ ∧ Eqs R l₁) ∧ Eqs R l₂
    rw [eqs_append R l₁ l₂, and_assoc]

/-- Under the rank `key` the line rises from `lo`: each operation is independent of its result buffers' old
    contents, writes only buffers ranked above `lo`, and `lo` for the rest of the line bounds everything it
    touches. -/
def Ssa (key : DevRef τ sig → Nat) : Nat → List (HloOp τ sig Val) → Prop
  | _, [] => True
  | lo, op :: rest => Indep op ∧ ∃ m, (∀ w ∈ op.writes, lo < key w) ∧ lo ≤ m ∧ (∀ x ∈ op.bufs, key x ≤ m) ∧ Ssa key m rest

variable {key : DevRef τ sig → Nat}

/-- Every buffer a rising line writes is ranked above its bound. -/
theorem Ssa.lt_writes : ∀ {lo : Nat} {ops : List (HloOp τ sig Val)}, Ssa key lo ops → ∀ o ∈ ops, ∀ w ∈ o.writes, lo < key w
  | _, [], _, _, ho, _, _ => absurd ho List.not_mem_nil
  | _, _ :: _, ⟨_, _, hw, hlm, _, hr⟩, o, ho, w, hwo => by
    rcases List.mem_cons.mp ho with rfl | ho
    · exact hw w hwo
    · exact lt_of_le_of_lt hlm (Ssa.lt_writes hr o ho w hwo)

/-- A buffer ranked at or below the bound is not written: the line leaves it as it found it. -/
theorem Ssa.after_low {lo : Nat} {ops : List (HloOp τ sig Val)} (h : Ssa key lo ops) (V : Valuation τ sig Val)
    {x : DevRef τ sig} (hx : key x ≤ lo) : after ops V x = V x :=
  after_of_forall_not_mem ops V fun o ho hxo => absurd (h.lt_writes o ho x hxo) (not_lt.mpr hx)

/-- **The fixed point.** What a rising line leaves is, at every operation's result buffers, that operation's function
    of what the line leaves. -/
theorem after_eqs : ∀ {lo : Nat} (ops : List (HloOp τ sig Val)) (V : Valuation τ sig Val), Ssa key lo ops → Eqs (after ops V) ops
  | _, [], _, _ => trivial
  | _, op :: rest, V, ⟨hI, _, _, _, hb, hr⟩ => by
    -- the rest of the line writes nothing the first operation touches
    have e1 : ∀ x ∈ op.bufs, after rest (op.result V) x = op.result V x := fun x hx =>
      after_of_forall_not_mem rest _ fun o ho hxo => absurd (hr.lt_writes o ho x hxo) (not_lt.mpr (hb x hx))
    refine ⟨fun b hbw => ?_, after_eqs rest (op.result V) hr⟩
    show after rest (op.result V) b = op.result (after rest (op.result V)) b
    rw [e1 b (op.writes_sub hbw)]
    exact hI V _ (fun x hx hxw => by rw [e1 x hx, op.result_of_not_mem V hxw]) b hbw

/-! ## The builders, one more operation in front -/

section Builders

variable {lo : Nat} {rest : List (HloOp τ sig Val)} {R : Valuation τ sig Val}
variable (x a b c y : Ref sig .tc)

theorem ne_of_key_lt {u v : Ref sig .tc} (h : key (Proc.devRef (τ := τ) .tc u) < key (Proc.devRef (τ := τ) .tc v)) : (Proc.devRef (τ := τ) .tc u) ≠ (Proc.devRef (τ := τ) .tc v) :=
  fun e => absurd (congrArg key e) (Nat.ne_of_lt h)

theorem ssa_nullary (v : y.ty.Contents Val) (hy) (h : lo < key (Proc.devRef (τ := τ) .tc y)) (hr : Ssa key (key (Proc.devRef (τ := τ) .tc y)) rest) :
    Ssa key lo (nullary (τ := τ) y v hy :: rest) :=
  ⟨fun F G _ w hw => by
      rw [nullary_writes, Finset.mem_singleton] at hw; subst hw; rw [nullary_result, nullary_result],
    key (Proc.devRef (τ := τ) .tc y), fun w hw => by rw [nullary_writes, Finset.mem_singleton] at hw; subst hw; exact h, h.le,
    fun z hz => by rw [nullary_bufs, Finset.mem_singleton] at hz; subst hz; exact le_rfl, hr⟩

theorem ssa_unary (f : x.ty.Contents Val → y.ty.Contents Val) (hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (unary (τ := τ) x y f hx hy :: rest) :=
  ⟨fun F G hFG w hw => by
      rw [unary_writes, Finset.mem_singleton] at hw; subst hw
      rw [unary_result, unary_result, hFG _ (by rw [unary_bufs]; exact Finset.mem_insert_self _ _)
        (by rw [unary_writes, Finset.mem_singleton]; exact ne_of_key_lt h1)],
    key (Proc.devRef (τ := τ) .tc y), fun w hw => by rw [unary_writes, Finset.mem_singleton] at hw; subst hw; exact h, h.le,
    fun z hz => by
      rw [unary_bufs, Finset.mem_insert, Finset.mem_singleton] at hz
      rcases hz with rfl | rfl
      · exact h1.le
      · exact le_rfl, hr⟩

theorem ssa_reshape (he hn hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (reshape (τ := τ) (Val := Val) x y he hn hx hy :: rest) :=
  ⟨fun F G hFG w hw => by
      rw [reshape_writes, Finset.mem_singleton] at hw; subst hw
      rw [reshape_result, reshape_result, hFG _ (by rw [reshape_bufs]; exact Finset.mem_insert_self _ _)
        (by rw [reshape_writes, Finset.mem_singleton]; exact ne_of_key_lt h1)],
    key (Proc.devRef (τ := τ) .tc y), fun w hw => by rw [reshape_writes, Finset.mem_singleton] at hw; subst hw; exact h, h.le,
    fun z hz => by
      rw [reshape_bufs, Finset.mem_insert, Finset.mem_singleton] at hz
      rcases hz with rfl | rfl
      · exact h1.le
      · exact le_rfl, hr⟩

theorem ssa_binary (f : a.ty.Contents Val → b.ty.Contents Val → y.ty.Contents Val) (ha hb hy) (h : lo < key (Proc.devRef (τ := τ) .tc y))
    (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (binary (τ := τ) a b y f ha hb hy :: rest) :=
  ⟨fun F G hFG w hw => by
      rw [binary_writes, Finset.mem_singleton] at hw; subst hw
      rw [binary_result, binary_result,
        hFG (Proc.devRef (τ := τ) .tc a) (by rw [binary_bufs]; exact Finset.mem_insert_self _ _)
          (by rw [binary_writes, Finset.mem_singleton]; exact ne_of_key_lt h1),
        hFG (Proc.devRef (τ := τ) .tc b) (by rw [binary_bufs]; exact Finset.mem_insert_of_mem (Finset.mem_insert_self _ _))
          (by rw [binary_writes, Finset.mem_singleton]; exact ne_of_key_lt h2)],
    key (Proc.devRef (τ := τ) .tc y), fun w hw => by rw [binary_writes, Finset.mem_singleton] at hw; subst hw; exact h, h.le,
    fun z hz => by
      rw [binary_bufs, Finset.mem_insert, Finset.mem_insert, Finset.mem_singleton] at hz
      rcases hz with rfl | rfl | rfl
      · exact h1.le
      · exact h2.le
      · exact le_rfl, hr⟩

theorem ssa_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y)) (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (ternary (τ := τ) c a b y f hc ha hb hy :: rest) :=
  ⟨fun F G hFG w hw => by
      rw [ternary_writes, Finset.mem_singleton] at hw; subst hw
      rw [ternary_result, ternary_result,
        hFG (Proc.devRef (τ := τ) .tc c) (by rw [ternary_bufs]; exact Finset.mem_insert_self _ _)
          (by rw [ternary_writes, Finset.mem_singleton]; exact ne_of_key_lt h0),
        hFG (Proc.devRef (τ := τ) .tc a) (by rw [ternary_bufs]; exact Finset.mem_insert_of_mem (Finset.mem_insert_self _ _))
          (by rw [ternary_writes, Finset.mem_singleton]; exact ne_of_key_lt h1),
        hFG (Proc.devRef (τ := τ) .tc b) (by rw [ternary_bufs]; exact Finset.mem_insert_of_mem (Finset.mem_insert_of_mem (Finset.mem_insert_self _ _)))
          (by rw [ternary_writes, Finset.mem_singleton]; exact ne_of_key_lt h2)],
    key (Proc.devRef (τ := τ) .tc y), fun w hw => by rw [ternary_writes, Finset.mem_singleton] at hw; subst hw; exact h, h.le,
    fun z hz => by
      rw [ternary_bufs, Finset.mem_insert, Finset.mem_insert, Finset.mem_insert, Finset.mem_singleton] at hz
      rcases hz with rfl | rfl | rfl | rfl
      · exact h0.le
      · exact h1.le
      · exact h2.le
      · exact le_rfl, hr⟩

theorem ssa_nary {n : Nat} (xs : Fin n → Ref sig .tc) (f : ((k : Fin n) → (xs k).ty.Contents Val) → y.ty.Contents Val) (hxs hy)
    (h : lo < key (Proc.devRef (τ := τ) .tc y)) (h1 : ∀ k, key (Proc.devRef (τ := τ) .tc (xs k)) < key (Proc.devRef (τ := τ) .tc y))
    (hr : Ssa key (key (Proc.devRef (τ := τ) .tc y)) rest) : Ssa key lo (nary (τ := τ) xs y f hxs hy :: rest) :=
  ⟨fun F G hFG w hw => by
      rw [nary_writes, Finset.mem_singleton] at hw; subst hw
      rw [nary_result, nary_result]
      congr 1
      funext k
      exact hFG (Proc.devRef (τ := τ) .tc (xs k))
        (show (Proc.devRef (τ := τ) .tc (xs k)) ∈ insert (Proc.devRef (τ := τ) .tc y) (Finset.univ.image fun j => (Proc.devRef (τ := τ) .tc (xs j))) from
          Finset.mem_insert_of_mem (Finset.mem_image_of_mem _ (Finset.mem_univ k)))
        (by rw [nary_writes, Finset.mem_singleton]; exact ne_of_key_lt (h1 k)),
    key (Proc.devRef (τ := τ) .tc y), fun w hw => by rw [nary_writes, Finset.mem_singleton] at hw; subst hw; exact h, h.le,
    fun z hz => by
      rcases Finset.mem_insert.mp (show z ∈ insert (Proc.devRef (τ := τ) .tc y) (Finset.univ.image fun j => (Proc.devRef (τ := τ) .tc (xs j))) from hz) with rfl | hz
      · exact le_rfl
      · obtain ⟨k, -, rfl⟩ := Finset.mem_image.mp hz
        exact (h1 k).le, hr⟩

/-! ## … and its equation read off the front -/

theorem eqs_nullary (v : y.ty.Contents Val) (hy) :
    Eqs R (nullary (τ := τ) y v hy :: rest) ↔ R (Proc.devRef (τ := τ) .tc y) = v ∧ Eqs R rest := by
  show (∀ w ∈ (nullary (τ := τ) y v hy).writes, _) ∧ _ ↔ _
  rw [nullary_writes]; simp only [Finset.mem_singleton, forall_eq]; rw [nullary_result]

theorem eqs_unary (f : x.ty.Contents Val → y.ty.Contents Val) (hx hy) :
    Eqs R (unary (τ := τ) x y f hx hy :: rest) ↔ R (Proc.devRef (τ := τ) .tc y) = f (R (Proc.devRef (τ := τ) .tc x)) ∧ Eqs R rest := by
  show (∀ w ∈ (unary (τ := τ) x y f hx hy).writes, _) ∧ _ ↔ _
  rw [unary_writes]; simp only [Finset.mem_singleton, forall_eq]; rw [unary_result]

theorem eqs_reshape (he hn hx hy) :
    Eqs R (reshape (τ := τ) (Val := Val) x y he hn hx hy :: rest)
      ↔ R (Proc.devRef (τ := τ) .tc y) = (fun i => he ▸ shapeCast y.ty.shape (R (Proc.devRef (τ := τ) .tc x)) hn i) ∧ Eqs R rest := by
  show (∀ w ∈ (reshape (τ := τ) (Val := Val) x y he hn hx hy).writes, _) ∧ _ ↔ _
  rw [reshape_writes]; simp only [Finset.mem_singleton, forall_eq]; rw [reshape_result]

theorem eqs_binary (f : a.ty.Contents Val → b.ty.Contents Val → y.ty.Contents Val) (ha hb hy) :
    Eqs R (binary (τ := τ) a b y f ha hb hy :: rest) ↔ R (Proc.devRef (τ := τ) .tc y) = f (R (Proc.devRef (τ := τ) .tc a)) (R (Proc.devRef (τ := τ) .tc b)) ∧ Eqs R rest := by
  show (∀ w ∈ (binary (τ := τ) a b y f ha hb hy).writes, _) ∧ _ ↔ _
  rw [binary_writes]; simp only [Finset.mem_singleton, forall_eq]; rw [binary_result]

theorem eqs_ternary (f : c.ty.Contents Val → a.ty.Contents Val → b.ty.Contents Val → y.ty.Contents Val) (hc ha hb hy) :
    Eqs R (ternary (τ := τ) c a b y f hc ha hb hy :: rest)
      ↔ R (Proc.devRef (τ := τ) .tc y) = f (R (Proc.devRef (τ := τ) .tc c)) (R (Proc.devRef (τ := τ) .tc a)) (R (Proc.devRef (τ := τ) .tc b)) ∧ Eqs R rest := by
  show (∀ w ∈ (ternary (τ := τ) c a b y f hc ha hb hy).writes, _) ∧ _ ↔ _
  rw [ternary_writes]; simp only [Finset.mem_singleton, forall_eq]; rw [ternary_result]

theorem eqs_nary {n : Nat} (xs : Fin n → Ref sig .tc) (f : ((k : Fin n) → (xs k).ty.Contents Val) → y.ty.Contents Val) (hxs hy) :
    Eqs R (nary (τ := τ) xs y f hxs hy :: rest) ↔ R (Proc.devRef (τ := τ) .tc y) = f (fun k => R (Proc.devRef (τ := τ) .tc (xs k))) ∧ Eqs R rest := by
  show (∀ w ∈ (nary (τ := τ) xs y f hxs hy).writes, _) ∧ _ ↔ _
  rw [nary_writes]; simp only [Finset.mem_singleton, forall_eq]; rw [nary_result]

end Builders

end Cert.Ssa

end
-- ==== Proof.RefSsa.lean ====
/- The reference program's operations rise under the buffers' own numbering: @main names a fresh buffer, with
   the next number, for every value (a called function's values included, in the call's place), and every
   operation reads buffers numbered below the one it writes. Such a line leaves the arguments (numbered 0 … 12,
   below every written buffer) as it found them, and leaves every operation's result buffer at that operation's
   function of what it leaves in the operands' buffers. -/
import proofs.«176687_g19121194402273_cont_sun_m_853_29_alg».proof.Proof.RefOps
import proofs.«176687_g19121194402273_cont_sun_m_853_29_alg».proof.Proof.LibSsa

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Ssa

/-- A buffer's rank: its index in its table (every buffer of this program is an HBM buffer of the device). -/
abbrev key : DevRef τ sig → Nat := fun b => b.idx.val

set_option maxRecDepth 8192 in
/-- Window 0's operations rise from the last buffer written before them, in front of any line that rises from window 0's last buffer. -/
theorem ssa_w0 {rest : List (HloOp τ sig (Elt F))} (hr : Ssa key (key (Proc.devRef (τ := τ) .tc main_v51)) rest) :
    Ssa key 12 (ops0 ++ rest) := by
  refine ssa_unary _ _ _ _ _ (by decide) (by decide) ?_
  refine ssa_reshape _ _ _ _ _ _ (by decide) (by decide) ?_
  refine ssa_unary _ _ _ _ _ (by decide) (by decide) ?_
  refine ssa_unary _ _ _ _ _ (by decide) (by decide) ?_
  refine ssa_unary _ _ _ _ _ (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_binary _ _ _ _ _ _ _ (by decide) (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_ternary _ _ _ _ _ _ _ _ _ (by decide) (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_nullary _ _ _ (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_nullary _ _ _ (by decide) ?_
  refine ssa_unary _ _ _ _ _ (by decide) (by decide) ?_
  refine ssa_nullary _ _ _ (by decide) ?_
  exact hr

set_option maxRecDepth 8192 in
/-- Window 1's operations rise from the last buffer written before them, in front of any line that rises from window 1's last buffer. -/
theorem ssa_w1 {rest : List (HloOp τ sig (Elt F))} (hr : Ssa key (key (Proc.devRef (τ := τ) .tc main_v101)) rest) :
    Ssa key (key (Proc.devRef (τ := τ) .tc main_v51)) (ops1 ++ rest) := by
  refine ssa_unary _ _ _ _ _ (by decide) (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_unary _ _ _ _ _ (by decide) (by decide) ?_
  refine ssa_reshape _ _ _ _ _ _ (by decide) (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_unary _ _ _ _ _ (by decide) (by decide) ?_
  refine ssa_ternary _ _ _ _ _ _ _ _ _ (by decide) (by decide) (by decide) (by decide) ?_
  refine ssa_reshape _ _ _ _ _ _ (by decide) (by decide) ?_
  refine ssa_nullary _ _ _ (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_nullary _ _ _ (by decide) ?_
  refine ssa_unary _ _ _ _ _ (by decide) (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_nullary _ _ _ (by decide) ?_
  refine ssa_unary _ _ _ _ _ (by decide) (by decide) ?_
  refine ssa_binary _ _ _ _ _ _ _ (by decide) (by decide) (by decide) ?_
  refine ssa_reshape _ _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_nullary _ _ _ (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_nullary _ _ _ (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  exact hr

set_option maxRecDepth 8192 in
/-- Window 2's operations rise from the last buffer written before them, in front of any line that rises from window 2's last buffer. -/
theorem ssa_w2 {rest : List (HloOp τ sig (Elt F))} (hr : Ssa key (key (Proc.devRef (τ := τ) .tc main_v151)) rest) :
    Ssa key (key (Proc.devRef (τ := τ) .tc main_v101)) (ops2 ++ rest) := by
  refine ssa_nullary _ _ _ (by decide) ?_
  refine ssa_unary _ _ _ _ _ (by decide) (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_nullary _ _ _ (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_nullary _ _ _ (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  exact hr

set_option maxRecDepth 8192 in
/-- Window 3's operations rise from the last buffer written before them. -/
theorem ssa_w3 : Ssa key (key (Proc.devRef (τ := τ) .tc main_v151)) (ops3 : List (HloOp τ sig (Elt F))) := by
  refine ssa_binary _ _ _ _ _ _ _ (by decide) (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_ternary _ _ _ _ _ _ _ _ _ (by decide) (by decide) (by decide) (by decide) ?_
  refine ssa_unary _ _ _ _ _ (by decide) (by decide) ?_
  refine ssa_nullary _ _ _ (by decide) ?_
  refine ssa_nullary _ _ _ (by decide) ?_
  refine ssa_unary _ _ _ _ _ (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_nullary _ _ _ (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_nullary _ _ _ (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_unary _ _ _ _ _ (by decide) (by decide) ?_
  refine ssa_ternary _ _ _ _ _ _ _ _ _ (by decide) (by decide) (by decide) (by decide) ?_
  refine ssa_unary _ _ _ _ _ (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_reshape _ _ _ _ _ _ (by decide) (by decide) ?_
  refine ssa_nullary _ _ _ (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  refine ssa_nullary _ _ _ (by decide) ?_
  refine ssa_unary _ _ _ _ _ (by decide) (by decide) ?_
  refine ssa_binary _ _ _ _ _ _ _ (by decide) (by decide) (by decide) ?_
  refine ssa_binary _ _ _ _ _ _ _ (by decide) (by decide) (by decide) ?_
  refine ssa_unary _ _ _ _ _ (by decide) (by decide) ?_
  refine ssa_unary _ _ _ _ _ (by decide) (by decide) ?_
  refine ssa_binary _ _ _ _ _ _ _ (by decide) (by decide) (by decide) ?_
  exact trivial

/-- @main's operations rise from the arguments' last number. -/
theorem ssa_ops : Ssa key 12 (ops : List (HloOp τ sig (Elt F))) := ssa_w0 (ssa_w1 (ssa_w2 ssa_w3))

/-- What @main's operations leave, from contents `V`. -/
abbrev fin (V : Valuation τ sig (Elt F)) : Valuation τ sig (Elt F) := after ops V

/-- A buffer numbered at most 12 — an argument — is left as it was found. -/
theorem fin_low (V : Valuation τ sig (Elt F)) {x : DevRef τ sig} (hx : key x ≤ 12) : fin V x = V x :=
  ssa_ops.after_low V hx

/-- What @main's operations leave is a fixed point of every one of them. -/
theorem fin_eqs (V : Valuation τ sig (Elt F)) : Eqs (fin V) (ops : List (HloOp τ sig (Elt F))) := after_eqs ops V ssa_ops

theorem fin_eqs0 (V : Valuation τ sig (Elt F)) : Eqs (fin V) (ops0 : List (HloOp τ sig (Elt F))) :=
  ((eqs_append _ _ _).mp (fin_eqs V)).1
theorem fin_eqs1 (V : Valuation τ sig (Elt F)) : Eqs (fin V) (ops1 : List (HloOp τ sig (Elt F))) :=
  ((eqs_append _ _ _).mp ((eqs_append _ _ _).mp (fin_eqs V)).2).1
theorem fin_eqs2 (V : Valuation τ sig (Elt F)) : Eqs (fin V) (ops2 : List (HloOp τ sig (Elt F))) :=
  ((eqs_append _ _ _).mp ((eqs_append _ _ _).mp ((eqs_append _ _ _).mp (fin_eqs V)).2).2).1
theorem fin_eqs3 (V : Valuation τ sig (Elt F)) : Eqs (fin V) (ops3 : List (HloOp τ sig (Elt F))) :=
  ((eqs_append _ _ _).mp ((eqs_append _ _ _).mp ((eqs_append _ _ _).mp (fin_eqs V)).2).2).2

end Cert.ReferenceIdeal.RefRun

end
-- ==== Proof.RefRun.lean ====
/- The reference program's run: every weakly fair execution of @main terminates without fault, the result buffer
   at what the program's operations leave there from the launch contents (`fin`, whose value at each written
   buffer is given, one equation per operation, by the sibling modules), and the thirteen argument arrays as
   they were. -/
import proofs.«176687_g19121194402273_cont_sun_m_853_29_alg».proof.Proof.RefSsa

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates with the result buffer at what the operations leave there and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178) = fin (launchContents m c) (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v178,
      (h c main_arg0).trans (fin_low (launchContents m c) (by decide)),
      (h c main_arg1).trans (fin_low (launchContents m c) (by decide)),
      (h c main_arg2).trans (fin_low (launchContents m c) (by decide)),
      (h c main_arg3).trans (fin_low (launchContents m c) (by decide)),
      (h c main_arg4).trans (fin_low (launchContents m c) (by decide)),
      (h c main_arg5).trans (fin_low (launchContents m c) (by decide)),
      (h c main_arg6).trans (fin_low (launchContents m c) (by decide)),
      (h c main_arg7).trans (fin_low (launchContents m c) (by decide)),
      (h c main_arg8).trans (fin_low (launchContents m c) (by decide)),
      (h c main_arg9).trans (fin_low (launchContents m c) (by decide)),
      (h c main_arg10).trans (fin_low (launchContents m c) (by decide)),
      (h c main_arg11).trans (fin_low (launchContents m c) (by decide)),
      (h c main_arg12).trans (fin_low (launchContents m c) (by decide))⟩)
    (run_seq scopedRefs_eq scopedSems_eq defs main (fun _ => ops) main_eq (fun _ => ops_sub) m ρ (fun _ => ops_fresh))

end Cert.ReferenceIdeal.RefRun

end
-- ==== Proof.RefFrame.lean ====
/- The reference program's frame: under the precondition, every weakly fair execution of @main at the ideal
   instance terminates without fault and leaves its thirteen argument arrays unchanged — the run, less its
   statement about the result. -/
import proofs.«176687_g19121194402273_cont_sun_m_853_29_alg».proof.Defs
import proofs.«176687_g19121194402273_cont_sun_m_853_29_alg».proof.Proof.Gen.Pre_finite_inputs
import proofs.«176687_g19121194402273_cont_sun_m_853_29_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

theorem frame_ri : Cert.frame_ReferenceIdeal :=
  fun m ρ _ => (θ_run Cert.ReferenceIdeal.defs _ _).mono (fun _ h c => (h c).2) (run (F := Ideal) m ρ)

end Cert.ReferenceIdeal.RefRun

end
-- ==== Proof.RefIface.lean ====
/- The words in which the reference program's buffers are tied to the network over the reals: how an array of the
   program holds a real array (element by element, a cast), how the two index tables hold the list of all ordered pairs
   of nodes of every graph followed by one self loop per node, how the table of inverse square-root degrees and an
   array of edge weights are read. Statements only; the lemmas about the program's stages and the assembly of the
   result are stated in these words. -/
import proofs.«176687_g19121194402273_cont_sun_m_853_29_alg».proof.Proof.Spec
import proofs.«176687_g19121194402273_cont_sun_m_853_29_alg».proof.ReferenceIdeal
import Idealize.ShloMosaic.Lib.ValueIdx
import Idealize.ShloMosaic.PureOps.Ideal

noncomputable section

namespace Cert.ReferenceIdeal.RefRun

open Idealize.ShloMosaic Idealize.ShloMosaic.ValueIdx Cert.ReferenceIdeal Cert.GraphNet

/-- Node `i` of graph `b`, numbered among the ten thousand nodes. -/
abbrev node (b i : Fin 100) : Fin 10000 := ⟨b.val * 100 + i.val, by have := b.isLt; have := i.isLt; omega⟩

/-- The same number among the ten thousand and one slots of a table with a dump slot at the end. -/
abbrev slot (b i : Fin 100) : Fin 10001 := ⟨b.val * 100 + i.val, by have := b.isLt; have := i.isLt; omega⟩

/-- A [100, 100, 128] array holds the casts of the node features. -/
def Feat (feat : (⟨S100x100x128, .f32⟩ : BufTy).Contents (Elt Ideal)) (x : Fin 100 → Fin 100 → Fin 128 → ℝ) : Prop :=
  ∀ (b i : Fin 100) (k : Fin 128), feat (ix3 b i k) = ((x b i k : ℝ) : EReal)

/-- A [10000, 128] array holds, row by node number, the casts of per-node features. -/
def Rows (h : (⟨S10000x128, .f32⟩ : BufTy).Contents (Elt Ideal)) (H : Fin 100 → Fin 100 → Fin 128 → ℝ) : Prop :=
  ∀ (b i : Fin 100) (k : Fin 128), h (ix2 (node b i) k) = ((H b i k : ℝ) : EReal)

/-- A [K, N] array holds the casts of a real matrix. -/
def Mat {K N : ℕ} (W : (⟨2, ![K, N]⟩ : Shape).Idx → EReal) (Wr : Fin K → Fin N → ℝ) : Prop :=
  ∀ (k : Fin K) (c : Fin N), W (ix2 k c) = ((Wr k c : ℝ) : EReal)

/-- An [N] array holds the casts of a real vector. -/
def Vec1 {N : ℕ} (v : (⟨1, ![N]⟩ : Shape).Idx → EReal) (vr : Fin N → ℝ) : Prop :=
  ∀ c : Fin N, v (ix1 c) = ((vr c : ℝ) : EReal)

/-- The two index tables hold the edge list: entry (b · 100 + i) · 100 + j has source b · 100 + i, and target b · 100 + j
    when the longitudes of i and j are close and i ≠ j, the dump slot 10000 otherwise; entry 1000000 + n is node n's
    self loop. -/
def Words (x : Fin 100 → Fin 100 → Fin 128 → ℝ) (src dst : (⟨S1010000, .i32⟩ : BufTy).Contents (Elt Ideal)) : Prop :=
  (∀ (e : Fin 1010000) (b i j : Fin 100), e.val = (b.val * 100 + i.val) * 100 + j.val →
      (src (ix1 e)).toInt = ((b.val * 100 + i.val : ℕ) : ℤ)
      ∧ (dst (ix1 e)).toInt = if near (x b i 0) (x b j 0) ∧ i ≠ j then ((b.val * 100 + j.val : ℕ) : ℤ) else ((10000 : ℕ) : ℤ))
  ∧ ∀ (e : Fin 1010000) (n : ℕ), n < 10000 → e.val = 1000000 + n →
      (src (ix1 e)).toInt = (n : ℤ) ∧ (dst (ix1 e)).toInt = (n : ℤ)

/-- A [10001] table holds, at every node's slot, the cast of its inverse square-root degree. -/
def DisTable (x : Fin 100 → Fin 100 → Fin 128 → ℝ) (tab : (⟨S10001, .f32⟩ : BufTy).Contents (Elt Ideal)) : Prop :=
  ∀ b j : Fin 100, tab (ix1 (slot b j)) = ((dis x b j : ℝ) : EReal)

/-- A [1010000] array holds every entry's weight: the table read at the entry's source word times the table read at
    its target word. -/
def Weights (tab : (⟨S10001, .f32⟩ : BufTy).Contents (Elt Ideal)) (src dst : (⟨S1010000, .i32⟩ : BufTy).Contents (Elt Ideal))
    (nrm : (⟨S1010000, .f32⟩ : BufTy).Contents (Elt Ideal)) : Prop :=
  ∀ (e : Fin 1010000) (s d : Fin 10001), (src (ix1 e)).toInt = ((s.val : ℕ) : ℤ) → (dst (ix1 e)).toInt = ((d.val : ℕ) : ℤ) →
    nrm (ix1 e) = tab (ix1 s) * tab (ix1 d)

end Cert.ReferenceIdeal.RefRun

end
-- ==== Proof.LibSsaRead.lean ====
/-
  READING A FIXED POINT, ONE OPERATION AT A TIME. For contents `R` that are a fixed point of an operation at the
  buffers it writes — which is what a rising straight line leaves, operation by operation — the equation between
  the contents of the operation's result buffer and its function of the contents of its operands' buffers, one lemma
  per builder of an operation. The hypothesis is one conjunct of the fixed-point statement of a whole line, reached
  by projections; the conclusion is the program's own line read as an equation.
-/
import proofs.«176687_g19121194402273_cont_sun_m_853_29_alg».proof.Proof.LibSsa

noncomputable section

namespace Cert.Ssa

open Idealize.ShloMosaic Idealize.ShloMosaic.StableHlo

variable {τ : Topo} {sig : RefSig} {Val : EltTy → Type} {R : Valuation τ sig Val}
variable (x a b c y : Ref sig .tc)

/-- The fixed point of every operation of a line is one of each of its members. -/
theorem Eqs.of_mem : ∀ {ops : List (HloOp τ sig Val)}, Eqs R ops → ∀ op ∈ ops, ∀ w ∈ op.writes, R w = op.result R w
  | [], _, _, ho => absurd ho List.not_mem_nil
  | _ :: _, ⟨h, hr⟩, op, ho => by
    rcases List.mem_cons.mp ho with rfl | ho
    · exact h
    · exact Eqs.of_mem hr op ho

theorem read_nullary (v : y.ty.Contents Val) (hy)
    (h : ∀ w ∈ (nullary (τ := τ) y v hy).writes, R w = (nullary (τ := τ) y v hy).result R w) :
    R (Proc.devRef (τ := τ) .tc y) = v :=
  (h _ (by rw [nullary_writes]; exact Finset.mem_singleton_self _)).trans (nullary_result y v hy R)

theorem read_unary (f : x.ty.Contents Val → y.ty.Contents Val) (hx hy)
    (h : ∀ w ∈ (unary (τ := τ) x y f hx hy).writes, R w = (unary (τ := τ) x y f hx hy).result R w) :
    R (Proc.devRef (τ := τ) .tc y) = f (R (Proc.devRef (τ := τ) .tc x)) :=
  (h _ (by rw [unary_writes]; exact Finset.mem_singleton_self _)).trans (unary_result x y f hx hy R)

theorem read_reshape (he hn hx hy)
    (h : ∀ w ∈ (reshape (τ := τ) (Val := Val) x y he hn hx hy).writes, R w = (reshape (τ := τ) (Val := Val) x y he hn hx hy).result R w) :
    R (Proc.devRef (τ := τ) .tc y) = fun i => he ▸ shapeCast y.ty.shape (R (Proc.devRef (τ := τ) .tc x)) hn i :=
  (h _ (by rw [reshape_writes]; exact Finset.mem_singleton_self _)).trans (reshape_result x y he hn hx hy R)

theorem read_binary (f : a.ty.Contents Val → b.ty.Contents Val → y.ty.Contents Val) (ha hb hy)
    (h : ∀ w ∈ (binary (τ := τ) a b y f ha hb hy).writes, R w = (binary (τ := τ) a b y f ha hb hy).result R w) :
    R (Proc.devRef (τ := τ) .tc y) = f (R (Proc.devRef (τ := τ) .tc a)) (R (Proc.devRef (τ := τ) .tc b)) :=
  (h _ (by rw [binary_writes]; exact Finset.mem_singleton_self _)).trans (binary_result a b y f ha hb hy R)

theorem read_ternary (f : c.ty.Contents Val → a.ty.Contents Val → b.ty.Contents Val → y.ty.Contents Val) (hc ha hb hy)
    (h : ∀ w ∈ (ternary (τ := τ) c a b y f hc ha hb hy).writes, R w = (ternary (τ := τ) c a b y f hc ha hb hy).result R w) :
    R (Proc.devRef (τ := τ) .tc y)
      = f (R (Proc.devRef (τ := τ) .tc c)) (R (Proc.devRef (τ := τ) .tc a)) (R (Proc.devRef (τ := τ) .tc b)) :=
  (h _ (by rw [ternary_writes]; exact Finset.mem_singleton_self _)).trans (ternary_result c a b y f hc ha hb hy R)

end Cert.Ssa

end
-- ==== Proof.RefEqs0.lean ====
/- What the reference program's operations leave, read one operation at a time: for every operation of @main's
   window 0, the contents left in its result buffer are its function of the contents left in its operands' buffers
   (a called function's operation at its typed buffers: the same equation, the type transports being the identity). -/
import proofs.«176687_g19121194402273_cont_sun_m_853_29_alg».proof.Proof.RefSsa
import proofs.«176687_g19121194402273_cont_sun_m_853_29_alg».proof.Proof.LibSsaRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Ssa

-- a called function's operation is stated over typed buffers, and its equation here over the plain ones: the two
-- differ by transports along `rfl`, which the unifier must open; the folds and searches stay closed meanwhile
attribute [local irreducible] Host.reduce Host.gather

theorem fin_main_v0 (V : Valuation τ sig (Elt F)) :
    fin V (Proc.devRef .tc main_v0) = ((extractStridedSlice S100x100x1 ![0, 0, 0] · slices_S100x100x128_S100x100x1_0_0_0) : (⟨S100x100x128, .f32⟩ : BufTy).Contents (Elt F) → (⟨S100x100x1, .f32⟩ : BufTy).Contents (Elt F)) (fin V (Proc.devRef .tc main_arg0)) :=
  read_unary _ _ _ _ _ (fin_eqs0 V).1

theorem fin_main_v1 (V : Valuation τ sig (Elt F)) :
    fin V (Proc.devRef .tc main_v1) = shapeCast S100x100 (fin V (Proc.devRef .tc main_v0) : (⟨S100x100x1, .f32⟩ : BufTy).Contents (Elt F)) shapeCasts_S100x100x1_S100x100 :=
  read_reshape _ _ _ _ _ _ (fin_eqs0 V).2.1

theorem fin_main_v2 (V : Valuation τ sig (Elt F)) :
    fin V (Proc.devRef .tc main_v2) = (broadcastInDim S100x100x1 ![0, 1] bcast_S100x100_S100x100x1_0_1 : (⟨S100x100, .f32⟩ : BufTy).Contents (Elt F) → (⟨S100x100x1, .f32⟩ : BufTy).Contents (Elt F)) (fin V (Proc.devRef .tc main_v1)) :=
  read_unary _ _ _ _ _ (fin_eqs0 V).2.2.1

theorem fin_main_v3 (V : Valuation τ sig (Elt F)) :
    fin V (Proc.devRef .tc main_v3) = (broadcastInDim S100x1x100 ![0, 2] bcast_S100x100_S100x1x100_0_2 : (⟨S100x100, .f32⟩ : BufTy).Contents (Elt F) → (⟨S100x1x100, .f32⟩ : BufTy).Contents (Elt F)) (fin V (Proc.devRef .tc main_v1)) :=
  read_unary _ _ _ _ _ (fin_eqs0 V).2.2.2.1

theorem fin_main_v4 (V : Valuation τ sig (Elt F)) :
    fin V (Proc.devRef .tc main_v4) = (Host.negf : (⟨S100x1x100, .f32⟩ : BufTy).Contents (Elt F) → (⟨S100x1x100, .f32⟩ : BufTy).Contents (Elt F)) (fin V (Proc.devRef .tc main_v3)) :=
  read_unary _ _ _ _ _ (fin_eqs0 V).2.2.2.2.1

theorem fin_main_v5 (V : Valuation τ sig (Elt F)) :
    fin V (Proc.devRef .tc main_v5) = (broadcastInDim S100x100x100 ![0, 1, 2] bcast_S100x100x1_S100x100x100_0_1_2 : (⟨S100x100x1, .f32⟩ : BufTy).Contents (Elt F) → (⟨S100x100x100, .f32⟩ : BufTy).Contents (Elt F)) (fin V (Proc.devRef .tc main_v2)) :=
  read_unary _ _ _ _ _ (fin_eqs0 V).2.2.2.2.2.1

theorem fin_main_v6 (V : Valuation τ sig (Elt F)) :
    fin V (Proc.devRef .tc main_v6) = (broadcastInDim S100x100x100 ![0, 1, 2] bcast_S100x1x100_S100x100x100_0_1_2 : (⟨S100x1x100, .f32⟩ : BufTy).Contents (Elt F) → (⟨S100x100x100, .f32⟩ : BufTy).Contents (Elt F)) (fin V (Proc.devRef .tc main_v4)) :=
  read_unary _ _ _ _ _ (fin_eqs0 V).2.2.2.2.2.2.1

theorem fin_main_v7 (V : Valuation τ sig (Elt F)) :
    fin V (Proc.devRef .tc main_v7) = (addf : (⟨S100x100x100, .f32⟩ : BufTy).Contents (Elt F) → (⟨S100x100x100, .f32⟩ : BufTy).Contents (Elt F) → (⟨S100x100x100, .f32⟩ : BufTy).Contents (Elt F)) (fin V (Proc.devRef .tc main_v5)) (fin V (Proc.devRef .tc main_v6)) :=
  read_binary _ _ _ _ _ _ _ (fin_eqs0 V).2.2.2.2.2.2.2.1

theorem fin_main_v8 (V : Valuation τ sig (Elt F)) :
    fin V (Proc.devRef .tc main_v8) = (broadcastInDim S100x100x100 ![0, 1, 2] bcast_S100x100x1_S100x100x100_0_1_2 : (⟨S100x100x1, .f32⟩ : BufTy).Contents (Elt F) → (⟨S100x100x100, .f32⟩ : BufTy).Contents (Elt F)) (fin V (Proc.devRef .tc main_v2)) :=
  read_unary _ _ _ _ _ (fin_eqs0 V).2.2.2.2.2.2.2.2.1

theorem fin_main_v9 (V : Valuation τ sig (Elt F)) :
    fin V (Proc.devRef .tc main_v9) = (subf : (⟨S100x100x100, .f32⟩ : BufTy).Contents (Elt F) → (⟨S100x100x100, .f32⟩ : BufTy).Contents (Elt F) → (⟨S100x100x100, .f32⟩ : BufTy).Contents (Elt F)) (fin V (Proc.devRef .tc main_v7)) (fin V (Proc.devRef .tc main_v8)) :=
  read_binary _ _ _ _ _ _ _ (fin_eqs0 V).2.2.2.2.2.2.2.2.2.1

theorem fin_main_v10 (V : Valuation τ sig (Elt F)) :
    fin V (Proc.devRef .tc main_v10) = (subf : (⟨S100x100x100, .f32⟩ : BufTy).Contents (Elt F) → (⟨S100x100x100, .f32⟩ : BufTy).Contents (Elt F) → (⟨S100x100x100, .f32⟩ : BufTy).Contents (Elt F)) (fin V (Proc.devRef .tc main_v7)) (fin V (Proc.devRef .tc main_v9)) :=
  read_binary _ _ _ _ _ _ _ (fin_eqs0 V).2.2.2.2.2.2.2.2.2.2.1

theorem fin_main_v11 (V : Valuation τ sig (Elt F)) :
    fin V (Proc.devRef .tc main_v11) = (broadcastInDim S100x100x100 ![0, 1, 2] bcast_S100x100x1_S100x100x100_0_1_2 : (⟨S100x100x1, .f32⟩ : BufTy).Contents (Elt F) → (⟨S100x100x100, .f32⟩ : BufTy).Contents (Elt F)) (fin V (Proc.devRef .tc main_v2)) :=
  read_unary _ _ _ _ _ (fin_eqs0 V).2.2.2.2.2.2.2.2.2.2.2.1

theorem fin_main_v12 (V : Valuation τ sig (Elt F)) :
    fin V (Proc.devRef .tc main_v12) = (subf : (⟨S100x100x100, .f32⟩ : BufTy).Contents (Elt F) → (⟨S100x100x100, .f32⟩ : BufTy).Contents (Elt F) → (⟨S100x100x100, .f32⟩ : BufTy).Contents (Elt F)) (fin V (Proc.devRef .tc main_v11)) (fin V (Proc.devRef .tc main_v10)) :=
  read_binary _ _ _ _ _ _ _ (fin_eqs0 V).2.2.2.2.2.2.2.2.2.2.2.2.1

theorem fin_main_v13 (V : Valuation τ sig (Elt F)) :
    fin V (Proc.devRef .tc main_v13) = (broadcastInDim S100x100x100 ![0, 1, 2] bcast_S100x1x100_S100x100x100_0_1_2 : (⟨S100x1x100, .f32⟩ : BufTy).Contents (Elt F) → (⟨S100x100x100, .f32⟩ : BufTy).Contents (Elt F)) (fin V (Proc.devRef .tc main_v4)) :=
  read_unary _ _ _ _ _ (fin_eqs0 V).2.2.2.2.2.2.2.2.2.2.2.2.2.1

theorem fin_main_v14 (V : Valuation τ sig (Elt F)) :
    fin V (Proc.devRef .tc main_v14) = (subf : (⟨S100x100x100, .f32⟩ : BufTy).Contents (Elt F) → (⟨S100x100x100, .f32⟩ : BufTy).Contents (Elt F) → (⟨S100x100x100, .f32⟩ : BufTy).Contents (Elt F)) (fin V (Proc.devRef .tc main_v13)) (fin V (Proc.devRef .tc main_v9)) :=
  read_binary _ _ _ _ _ _ _ (fin_eqs0 V).2.2.2.2.2.2.2.2.2.2.2.2.2.2.1

theorem fin_main_v15 (V : Valuation τ sig (Elt F)) :
    fin V (Proc.devRef .tc main_v15) = (addf : (⟨S100x100x100, .f32⟩ : BufTy).Contents (Elt F) → (⟨S100x100x100, .f32⟩ : BufTy).Contents (Elt F) → (⟨S100x100x100, .f32⟩ : BufTy).Contents (Elt F)) (fin V (Proc.devRef .tc main_v12)) (fin V (Proc.devRef .tc main_v14)) :=
  read_binary _ _ _ _ _ _ _ (fin_eqs0 V).2.2.2.2.2.2.2.2.2.2.2.2.2.2.2.1

theorem fin_main_v16 (V : Valuation τ sig (Elt F)) :
    fin V (Proc.devRef .tc main_v16) = (Host.absf : (⟨S100x100x100, .f32⟩ : BufTy).Contents (Elt F) → (⟨S100x100x100, .f32⟩ : BufTy).Contents (Elt F)) (fin V (Proc.devRef .tc main_v7)) :=
  read_unary _ _ _ _ _ (fin_eqs0 V).2.2.2.2.2.2.2.2.2.2.2.2.2.2.2.2.1

theorem fin_main_cst (V : Valuation τ sig (Elt F)) :
    fin V (Proc.devRef .tc main_cst) = (constant S_ .f32 0x00000000#32 : (⟨S_, .f32⟩ : BufTy).Contents (Elt F)) :=
  read_nullary _ _ _ (fin_eqs0 V).2.2.2.2.2.2.2.2.2.2.2.2.2.2.2.2.2.1

theorem fin_main_v17 (V : Valuation τ sig (Elt F)) :
    fin V (Proc.devRef .tc main_v17) = (broadcastInDim S100x100x100 ![] bcast_S_S100x100x100 : (⟨S_, .f32⟩ : BufTy).Contents (Elt F) → (⟨S100x100x100, .f32⟩ : BufTy).Contents (Elt F)) (fin V (Proc.devRef .tc main_cst)) :=
  read_unary _ _ _ _ _ (fin_eqs0 V).2.2.2.2.2.2.2.2.2.2.2.2.2.2.2.2.2.2.1

theorem fin_main_v18 (V : Valuation τ sig (Elt F)) :
    fin V (Proc.devRef .tc main_v18) = (cmpf .olt : (⟨S100x100x100, .f32⟩ : BufTy).Contents (Elt F) → (⟨S100x100x100, .f32⟩ : BufTy).Contents (Elt F) → (⟨S100x100x100, .i1⟩ : BufTy).Contents (Elt F)) (fin V (Proc.devRef .tc main_v7)) (fin V (Proc.devRef .tc main_v17)) :=
  read_binary _ _ _ _ _ _ _ (fin_eqs0 V).2.2.2.2.2.2.2.2.2.2.2.2.2.2.2.2.2.2.2.1

theorem fin_main_v19 (V : Valuation τ sig (Elt F)) :
    fin V (Proc.devRef .tc main_v19) = (Host.negf : (⟨S100x100x100, .f32⟩ : BufTy).Contents (Elt F) → (⟨S100x100x100, .f32⟩ : BufTy).Contents (Elt F)) (fin V (Proc.devRef .tc main_v15)) :=
  read_unary _ _ _ _ _ (fin_eqs0 V).2.2.2.2.2.2.2.2.2.2.2.2.2.2.2.2.2.2.2.2.1

theorem fin_main_v20 (V : Valuation τ sig (Elt F)) :
    fin V (Proc.devRef .tc main_v20) = (select : (⟨S100x100x100, .i1⟩ : BufTy).Contents (Elt F) → (⟨S100x100x100, .f32⟩ : BufTy).Contents (Elt F) → (⟨S100x100x100, .f32⟩ : BufTy).Contents (Elt F) → (⟨S100x100x100, .f32⟩ : BufTy).Contents (Elt F)) (fin V (Proc.devRef .tc main_v18)) (fin V (Proc.devRef .tc main_v19)) (fin V (Proc.devRef .tc main_v15)) :=
  read_ternary _ _ _ _ _ _ _ _ _ (fin_eqs0 V).2.2.2.2.2.2.2.2.2.2.2.2.2.2.2.2.2.2.2.2.2.1

theorem fin_main_cst_0 (V : Valuation τ sig (Elt F)) :
    fin V (Proc.devRef .tc main_cst_0) = (constant S_ .f32 0x41200000#32 : (⟨S_, .f32⟩ : BufTy).Contents (Elt F)) :=
  read_nullary _ _ _ (fin_eqs0 V).2.2.2.2.2.2.2.2.2.2.2.2.2.2.2.2.2.2.2.2.2.2.1

theorem fin_main_v21 (V : Valuation τ sig (Elt F)) :
    fin V (Proc.devRef .tc main_v21) = (broadcastInDim S100x100x100 ![] bcast_S_S100x100x100 : (⟨S_, .f32⟩ : BufTy).Contents (Elt F) → (⟨S100x100x100, .f32⟩ : BufTy).Contents (Elt F)) (fin V (Proc.devRef .tc main_cst_0)) :=
  read_unary _ _ _ _ _ (fin_eqs0 V).2.2.2.2.2.2.2.2.2.2.2.2.2.2.2.2.2.2.2.2.2.2.2.1

theorem fin_main_v22 (V : Valuation τ sig (Elt F)) :
    fin V (Proc.devRef .tc main_v22) = (cmpf .olt : (⟨S100x100x100, .f32⟩ : BufTy).Contents (Elt F) → (⟨S100x100x100, .f32⟩ : BufTy).Contents (Elt F) → (⟨S100x100x100, .i1⟩ : BufTy).Contents (Elt F)) (fin V (Proc.devRef .tc main_v16)) (fin V (Proc.devRef .tc main_v21)) :=
  read_binary _ _ _ _ _ _ _ (fin_eqs0 V).2.2.2.2.2.2.2.2.2.2.2.2.2.2.2.2.2.2.2.2.2.2.2.2.1

theorem fin_main_cst_1 (V : Valuation τ sig (Elt F)) :
    fin V (Proc.devRef .tc main_cst_1) = (constant S_ .f32 0x41200000#32 : (⟨S_, .f32⟩ : BufTy).Contents (Elt F)) :=
  read_nullary _ _ _ (fin_eqs0 V).2.2.2.2.2.2.2.2.2.2.2.2.2.2.2.2.2.2.2.2.2.2.2.2.2.1

theorem fin_main_v23 (V : Valuation τ sig (Elt F)) :
    fin V (Proc.devRef .tc main_v23) = (broadcastInDim S100x100x100 ![] bcast_S_S100x100x100 : (⟨S_, .f32⟩ : BufTy).Contents (Elt F) → (⟨S100x100x100, .f32⟩ : BufTy).Contents (Elt F)) (fin V (Proc.devRef .tc main_cst_1)) :=
  read_unary _ _ _ _ _ (fin_eqs0 V).2.2.2.2.2.2.2.2.2.2.2.2.2.2.2.2.2.2.2.2.2.2.2.2.2.2.1

theorem fin_main_v24 (V : Valuation τ sig (Elt F)) :
    fin V (Proc.devRef .tc main_v24) = (cmpf .oeq : (⟨S100x100x100, .f32⟩ : BufTy).Contents (Elt F) → (⟨S100x100x100, .f32⟩ : BufTy).Contents (Elt F) → (⟨S100x100x100, .i1⟩ : BufTy).Contents (Elt F)) (fin V (Proc.devRef .tc main_v16)) (fin V (Proc.devRef .tc main_v23)) :=
  read_binary _ _ _ _ _ _ _ (fin_eqs0 V).2.2.2.2.2.2.2.2.2.2.2.2.2.2.2.2.2.2.2.2.2.2.2.2.2.2.2.1

theorem fin_main_cst_2 (V : Valuation τ sig (Elt F)) :
    fin V (Proc.devRef .tc main_cst_2) = (constant S_ .f32 0x00000000#32 : (⟨S_, .f32⟩ : BufTy).Contents (Elt F)) :=
  read_nullary _ _ _ (fin_eqs0 V).2.2.2.2.2.2.2.2.2.2.2.2.2.2.2.2.2.2.2.2.2.2.2.2.2.2.2.2.1

theorem fin_main_v25 (V : Valuation τ sig (Elt F)) :
    fin V (Proc.devRef .tc main_v25) = (broadcastInDim S100x100x100 ![] bcast_S_S100x100x100 : (⟨S_, .f32⟩ : BufTy).Contents (Elt F) → (⟨S100x100x100, .f32⟩ : BufTy).Contents (Elt F)) (fin V (Proc.devRef .tc main_cst_2)) :=
  read_unary _ _ _ _ _ (fin_eqs0 V).2.2.2.2.2.2.2.2.2.2.2.2.2.2.2.2.2.2.2.2.2.2.2.2.2.2.2.2.2.1

theorem fin_main_v26 (V : Valuation τ sig (Elt F)) :
    fin V (Proc.devRef .tc main_v26) = (cmpf .olt : (⟨S100x100x100, .f32⟩ : BufTy).Contents (Elt F) → (⟨S100x100x100, .f32⟩ : BufTy).Contents (Elt F) → (⟨S100x100x100, .i1⟩ : BufTy).Contents (Elt F)) (fin V (Proc.devRef .tc main_v20)) (fin V (Proc.devRef .tc main_v25)) :=
  read_binary _ _ _ _ _ _ _ (fin_eqs0 V).2.2.2.2.2.2.2.2.2.2.2.2.2.2.2.2.2.2.2.2.2.2.2.2.2.2.2.2.2.2.1

theorem fin_main_v27 (V : Valuation τ sig (Elt F)) :
    fin V (Proc.devRef .tc main_v27) = (andi : (⟨S100x100x100, .i1⟩ : BufTy).Contents (Elt F) → (⟨S100x100x100, .i1⟩ : BufTy).Contents (Elt F) → (⟨S100x100x100, .i1⟩ : BufTy).Contents (Elt F)) (fin V (Proc.devRef .tc main_v24)) (fin V (Proc.devRef .tc main_v26)) :=
  read_binary _ _ _ _ _ _ _ (fin_eqs0 V).2.2.2.2.2.2.2.2.2.2.2.2.2.2.2.2.2.2.2.2.2.2.2.2.2.2.2.2.2.2.2.1

theorem fin_main_v28 (V : Valuation τ sig (Elt F)) :
    fin V (Proc.devRef .tc main_v28) = (ori : (⟨S100x100x100, .i1⟩ : BufTy).Contents (Elt F) → (⟨S100x100x100, .i1⟩ : BufTy).Contents (Elt F) → (⟨S100x100x100, .i1⟩ : BufTy).Contents (Elt F)) (fin V (Proc.devRef .tc main_v22)) (fin V (Proc.devRef .tc main_v27)) :=
  read_binary _ _ _ _ _ _ _ (fin_eqs0 V).2.2.2.2.2.2.2.2.2.2.2.2.2.2.2.2.2.2.2.2.2.2.2.2.2.2.2.2.2.2.2.2.1

theorem fin_main_cst_3 (V : Valuation τ sig (Elt F)) :
    fin V (Proc.devRef .tc main_cst_3) = (constant S_ .f32 0x43AF0000#32 : (⟨S_, .f32⟩ : BufTy).Contents (Elt F)) :=
  read_nullary _ _ _ (fin_eqs0 V).2.2.2.2.2.2.2.2.2.2.2.2.2.2.2.2.2.2.2.2.2.2.2.2.2.2.2.2.2.2.2.2.2.1

theorem fin_main_v29 (V : Valuation τ sig (Elt F)) :
    fin V (Proc.devRef .tc main_v29) = (broadcastInDim S100x100x100 ![] bcast_S_S100x100x100 : (⟨S_, .f32⟩ : BufTy).Contents (Elt F) → (⟨S100x100x100, .f32⟩ : BufTy).Contents (Elt F)) (fin V (Proc.devRef .tc main_cst_3)) :=
  read_unary _ _ _ _ _ (fin_eqs0 V).2.2.2.2.2.2.2.2.2.2.2.2.2.2.2.2.2.2.2.2.2.2.2.2.2.2.2.2.2.2.2.2.2.2.1

theorem fin_main_v30 (V : Valuation τ sig (Elt F)) :
    fin V (Proc.devRef .tc main_v30) = (cmpf .ogt : (⟨S100x100x100, .f32⟩ : BufTy).Contents (Elt F) → (⟨S100x100x100, .f32⟩ : BufTy).Contents (Elt F) → (⟨S100x100x100, .i1⟩ : BufTy).Contents (Elt F)) (fin V (Proc.devRef .tc main_v16)) (fin V (Proc.devRef .tc main_v29)) :=
  read_binary _ _ _ _ _ _ _ (fin_eqs0 V).2.2.2.2.2.2.2.2.2.2.2.2.2.2.2.2.2.2.2.2.2.2.2.2.2.2.2.2.2.2.2.2.2.2.2.1

theorem fin_main_v31 (V : Valuation τ sig (Elt F)) :
    fin V (Proc.devRef .tc main_v31) = (ori : (⟨S100x100x100, .i1⟩ : BufTy).Contents (Elt F) → (⟨S100x100x100, .i1⟩ : BufTy).Contents (Elt F) → (⟨S100x100x100, .i1⟩ : BufTy).Contents (Elt F)) (fin V (Proc.devRef .tc main_v28)) (fin V (Proc.devRef .tc main_v30)) :=
  read_binary _ _ _ _ _ _ _ (fin_eqs0 V).2.2.2.2.2.2.2.2.2.2.2.2.2.2.2.2.2.2.2.2.2.2.2.2.2.2.2.2.2.2.2.2.2.2.2.2.1

theorem fin_main_cst_4 (V : Valuation τ sig (Elt F)) :
    fin V (Proc.devRef .tc main_cst_4) = (constant S_ .f32 0x43AF0000#32 : (⟨S_, .f32⟩ : BufTy).Contents (Elt F)) :=
  read_nullary _ _ _ (fin_eqs0 V).2.2.2.2.2.2.2.2.2.2.2.2.2.2.2.2.2.2.2.2.2.2.2.2.2.2.2.2.2.2.2.2.2.2.2.2.2.1

theorem fin_main_v32 (V : Valuation τ sig (Elt F)) :
    fin V (Proc.devRef .tc main_v32) = (broadcastInDim S100x100x100 ![] bcast_S_S100x100x100 : (⟨S_, .f32⟩ : BufTy).Contents (Elt F) → (⟨S100x100x100, .f32⟩ : BufTy).Contents (Elt F)) (fin V (Proc.devRef .tc main_cst_4)) :=
  read_unary _ _ _ _ _ (fin_eqs0 V).2.2.2.2.2.2.2.2.2.2.2.2.2.2.2.2.2.2.2.2.2.2.2.2.2.2.2.2.2.2.2.2.2.2.2.2.2.2.1

theorem fin_main_v33 (V : Valuation τ sig (Elt F)) :
    fin V (Proc.devRef .tc main_v33) = (cmpf .oeq : (⟨S100x100x100, .f32⟩ : BufTy).Contents (Elt F) → (⟨S100x100x100, .f32⟩ : BufTy).Contents (Elt F) → (⟨S100x100x100, .i1⟩ : BufTy).Contents (Elt F)) (fin V (Proc.devRef .tc main_v16)) (fin V (Proc.devRef .tc main_v32)) :=
  read_binary _ _ _ _ _ _ _ (fin_eqs0 V).2.2.2.2.2.2.2.2.2.2.2.2.2.2.2.2.2.2.2.2.2.2.2.2.2.2.2.2.2.2.2.2.2.2.2.2.2.2.2.1

theorem fin_main_cst_5 (V : Valuation τ sig (Elt F)) :
    fin V (Proc.devRef .tc main_cst_5) = (constant S_ .f32 0x00000000#32 : (⟨S_, .f32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.1

theorem fin_main_v34 (V : Valuation τ sig (Elt F)) :
    fin V (Proc.devRef .tc main_v34) = (broadcastInDim S100x100x100 ![] bcast_S_S100x100x100 : (⟨S_, .f32⟩ : BufTy).Contents (Elt F) → (⟨S100x100x100, .f32⟩ : BufTy).Contents (Elt F)) (fin V (Proc.devRef .tc main_cst_5)) :=
  read_unary _ _ _ _ _ (fin_eqs0 V).2.2.2.2.2.2.2.2.2.2.2.2.2.2.2.2.2.2.2.2.2.2.2.2.2.2.2.2.2.2.2.2.2.2.2.2.2.2.2.2.2.1

theorem fin_main_v35 (V : Valuation τ sig (Elt F)) :
    fin V (Proc.devRef .tc main_v35) = (cmpf .ogt : (⟨S100x100x100, .f32⟩ : BufTy).Contents (Elt F) → (⟨S100x100x100, .f32⟩ : BufTy).Contents (Elt F) → (⟨S100x100x100, .i1⟩ : BufTy).Contents (Elt F)) (fin V (Proc.devRef .tc main_v20)) (fin V (Proc.devRef .tc main_v34)) :=
  read_binary _ _ _ _ _ _ _ (fin_eqs0 V).2.2.2.2.2.2.2.2.2.2.2.2.2.2.2.2.2.2.2.2.2.2.2.2.2.2.2.2.2.2.2.2.2.2.2.2.2.2.2.2.2.2.1

theorem fin_main_v36 (V : Valuation τ sig (Elt F)) :
    fin V (Proc.devRef .tc main_v36) = (andi : (⟨S100x100x100, .i1⟩ : BufTy).Contents (Elt F) → (⟨S100x100x100, .i1⟩ : BufTy).Contents (Elt F) → (⟨S100x100x100, .i1⟩ : BufTy).Contents (Elt F)) (fin V (Proc.devRef .tc main_v33)) (fin V (Proc.devRef .tc main_v35)) :=
  read_binary _ _ _ _ _ _ _ (fin_eqs0 V).2.2.2.2.2.2.2.2.2.2.2.2.2.2.2.2.2.2.2.2.2.2.2.2.2.2.2.2.2.2.2.2.2.2.2.2.2.2.2.2.2.2.2.1

theorem fin_main_v37 (V : Valuation τ sig (Elt F)) :
    fin V (Proc.devRef .tc main_v37) = (ori : (⟨S100x100x100, .i1⟩ : BufTy).Contents (Elt F) → (⟨S100x100x100, .i1⟩ : BufTy).Contents (Elt F) → (⟨S100x100x100, .i1⟩ : BufTy).Contents (Elt F)) (fin V (Proc.devRef .tc main_v31)) (fin V (Proc.devRef .tc main_v36)) :=
  read_binary _ _ _ _ _ _ _ (fin_eqs0 V).2.2.2.2.2.2.2.2.2.2.2.2.2.2.2.2.2.2.2.2.2.2.2.2.2.2.2.2.2.2.2.2.2.2.2.2.2.2.2.2.2.2.2.2.1

theorem fin_main_v38 (V : Valuation τ sig (Elt F)) :
    fin V (Proc.devRef .tc main_v38) = (iotaInDim S100x100 32 0 : (⟨S100x100, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.1

theorem fin_main_v39 (V : Valuation τ sig (Elt F)) :
    fin V (Proc.devRef .tc main_v39) = (iotaInDim S100x100 32 1 : (⟨S100x100, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.2.1

theorem fin_main_c (V : Valuation τ sig (Elt F)) :
    fin V (Proc.devRef .tc main_c) = (constantI S_ 32 0#32 : (⟨S_, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.2.2.1

theorem fin_main_v40 (V : Valuation τ sig (Elt F)) :
    fin V (Proc.devRef .tc main_v40) = (broadcastInDim S100x100 ![] bcast_S_S100x100 : (⟨S_, .i32⟩ : BufTy).Contents (Elt F) → (⟨S100x100, .i32⟩ : BufTy).Contents (Elt F)) (fin V (Proc.devRef .tc main_c)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.1

theorem fin_main_v41 (V : Valuation τ sig (Elt F)) :
    fin V (Proc.devRef .tc main_v41) = (addi : (⟨S100x100, .i32⟩ : BufTy).Contents (Elt F) → (⟨S100x100, .i32⟩ : BufTy).Contents (Elt F) → (⟨S100x100, .i32⟩ : BufTy).Contents (Elt F)) (fin V (Proc.devRef .tc main_v38)) (fin V (Proc.devRef .tc main_v40)) :=
  read_binary _ _ _ _ _ _ _ (fin_eqs0 V).2.2.2.2.2.2.2.2.2.2.2.2.2.2.2.2.2.2.2.2.2.2.2.2.2.2.2.2.2.2.2.2.2.2.2.2.2.2.2.2.2.2.2.2.2.2.2.2.2.1

theorem fin_main_v42 (V : Valuation τ sig (Elt F)) :
    fin V (Proc.devRef .tc main_v42) = (cmpi .eq : (⟨S100x100, .i32⟩ : BufTy).Contents (Elt F) → (⟨S100x100, .i32⟩ : BufTy).Contents (Elt F) → (⟨S100x100, .i1⟩ : BufTy).Contents (Elt F)) (fin V (Proc.devRef .tc main_v41)) (fin V (Proc.devRef .tc main_v39)) :=
  read_binary _ _ _ _ _ _ _ (fin_eqs0 V).2.2.2.2.2.2.2.2.2.2.2.2.2.2.2.2.2.2.2.2.2.2.2.2.2.2.2.2.2.2.2.2.2.2.2.2.2.2.2.2.2.2.2.2.2.2.2.2.2.2.1

theorem fin_main_v43 (V : Valuation τ sig (Elt F)) :
    fin V (Proc.devRef .tc main_v43) = (broadcastInDim S1x100x100 ![1, 2] bcast_S100x100_S1x100x100_1_2 : (⟨S100x100, .i1⟩ : BufTy).Contents (Elt F) → (⟨S1x100x100, .i1⟩ : BufTy).Contents (Elt F)) (fin V (Proc.devRef .tc main_v42)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.2.2.2.1

theorem fin_main_v44 (V : Valuation τ sig (Elt F)) :
    fin V (Proc.devRef .tc main_v44) = (noti : (⟨S1x100x100, .i1⟩ : BufTy).Contents (Elt F) → (⟨S1x100x100, .i1⟩ : BufTy).Contents (Elt F)) (fin V (Proc.devRef .tc main_v43)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.2.2.2.2.1

theorem fin_main_v45 (V : Valuation τ sig (Elt F)) :
    fin V (Proc.devRef .tc main_v45) = (broadcastInDim S100x100x100 ![0, 1, 2] bcast_S1x100x100_S100x100x100_0_1_2 : (⟨S1x100x100, .i1⟩ : BufTy).Contents (Elt F) → (⟨S100x100x100, .i1⟩ : BufTy).Contents (Elt F)) (fin V (Proc.devRef .tc main_v44)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.2.2.2.2.2.1

theorem fin_main_v46 (V : Valuation τ sig (Elt F)) :
    fin V (Proc.devRef .tc main_v46) = (andi : (⟨S100x100x100, .i1⟩ : BufTy).Contents (Elt F) → (⟨S100x100x100, .i1⟩ : BufTy).Contents (Elt F) → (⟨S100x100x100, .i1⟩ : BufTy).Contents (Elt F)) (fin V (Proc.devRef .tc main_v37)) (fin V (Proc.devRef .tc main_v45)) :=
  read_binary _ _ _ _ _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.1

theorem fin_main_v47 (V : Valuation τ sig (Elt F)) :
    fin V (Proc.devRef .tc main_v47) = (iotaInDim S100 32 0 : (⟨S100, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.2.1

theorem fin_main_v48 (V : Valuation τ sig (Elt F)) :
    fin V (Proc.devRef .tc main_v48) = (broadcastInDim S100x1x1 ![0] bcast_S100_S100x1x1_0 : (⟨S100, .i32⟩ : BufTy).Contents (Elt F) → (⟨S100x1x1, .i32⟩ : BufTy).Contents (Elt F)) (fin V (Proc.devRef .tc main_v47)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.2.2.1

theorem fin_main_v49 (V : Valuation τ sig (Elt F)) :
    fin V (Proc.devRef .tc main_v49) = (iotaInDim S100 32 0 : (⟨S100, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v50 (V : Valuation τ sig (Elt F)) :
    fin V (Proc.devRef .tc main_v50) = (broadcastInDim S1x100x1 ![1] bcast_S100_S1x100x1_1 : (⟨S100, .i32⟩ : BufTy).Contents (Elt F) → (⟨S1x100x1, .i32⟩ : BufTy).Contents (Elt F)) (fin V (Proc.devRef .tc main_v49)) :=
  read_unary _ _ _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v51 (V : Valuation τ sig (Elt F)) :
    fin V (Proc.devRef .tc main_v51) = (iotaInDim S100 32 0 : (⟨S100, .i32⟩ : BufTy).Contents (Elt F)) :=
  read_nullary _ _ _ (fin_eqs0 V).2.2.2.2.2.2.2.2.2.2.2.2.2.2.2.2.2.2.2.2.2.2.2.2.2.2.2.2.2.2.2.2.2.2.2.2.2.2.2.2.2.2.2.2.2.2.2.2.2.2.2.2.2.2.2.2.2.2.2.1

/-- Argument 0 is left as it was found. -/
theorem fin_main_arg0 (V : Valuation τ sig (Elt F)) :
    fin V (Proc.devRef .tc main_arg0) = V (Proc.devRef .tc main_arg0) := fin_low V (by decide)

/-- Argument 1 is left as it was found. -/
theorem fin_main_arg1 (V : Valuation τ sig (Elt F)) :
    fin V (Proc.devRef .tc main_arg1) = V (Proc.devRef .tc main_arg1) := fin_low V (by decide)

/-- Argument 2 is left as it was found. -/
theorem fin_main_arg2 (V : Valuation τ sig (Elt F)) :
    fin V (Proc.devRef .tc main_arg2) = V (Proc.devRef .tc main_arg2) := fin_low V (by decide)

/-- Argument 3 is left as it was found. -/
theorem fin_main_arg3 (V : Valuation τ sig (Elt F)) :
    fin V (Proc.devRef .tc main_arg3) = V (Proc.devRef .tc main_arg3) := fin_low V (by decide)

/-- Argument 4 is left as it was found. -/
theorem fin_main_arg4 (V : Valuation τ sig (Elt F)) :
    fin V (Proc.devRef .tc main_arg4) = V (Proc.devRef .tc main_arg4) := fin_low V (by decide)

/-- Argument 5 is left as it was found. -/
theorem fin_main_arg5 (V : Valuation τ sig (Elt F)) :
    fin V (Proc.devRef .tc main_arg5) = V (Proc.devRef .tc main_arg5) := fin_low V (by decide)

/-- Argument 6 is left as it was found. -/
theorem fin_main_arg6 (V : Valuation τ sig (Elt F)) :
    fin V (Proc.devRef .tc main_arg6) = V (Proc.devRef .tc main_arg6) := fin_low V (by decide)

/-- Argument 7 is left as it was found. -/
theorem fin_main_arg7 (V : Valuation τ sig (Elt F)) :
    fin V (Proc.devRef .tc main_arg7) = V (Proc.devRef .tc main_arg7) := fin_low V (by decide)

/-- Argument 8 is left as it was found. -/
theorem fin_main_arg8 (V : Valuation τ sig (Elt F)) :
    fin V (Proc.devRef .tc main_arg8) = V (Proc.devRef .tc main_arg8) := fin_low V (by decide)

/-- Argument 9 is left as it was found. -/
theorem fin_main_arg9 (V : Valuation τ sig (Elt F)) :
    fin V (Proc.devRef .tc main_arg9) = V (Proc.devRef .tc main_arg9) := fin_low V (by decide)

/-- Argument 10 is left as it was found. -/
theorem fin_main_arg10 (V : Valuation τ sig (Elt F)) :
    fin V (Proc.devRef .tc main_arg10) = V (Proc.devRef .tc main_arg10) := fin_low V (by decide)

/-- Argument 11 is left as it was found. -/
theorem fin_main_arg11 (V : Valuation τ sig (Elt F)) :
    fin V (Proc.devRef .tc main_arg11) = V (Proc.devRef .tc main_arg11) := fin_low V (by decide)

/-- Argument 12 is left as it was found. -/
theorem fin_main_arg12 (V : Valuation τ sig (Elt F)) :
    fin V (Proc.devRef .tc main_arg12) = V (Proc.devRef .tc main_arg12) := fin_low V (by decide)

end Cert.ReferenceIdeal.RefRun

end
-- ==== Proof.RefEqs1.lean ====
/- What the reference program's operations leave, read one operation at a time: for every operation of @main's
   window 1, the contents left in its result buffer are its function of the contents left in its operands' buffers
   (a called function's operation at its typed buffers: the same equation, the type transports being the identity). -/
import proofs.«176687_g19121194402273_cont_sun_m_853_29_alg».proof.Proof.RefSsa
import proofs.«176687_g19121194402273_cont_sun_m_853_29_alg».proof.Proof.LibSsaRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Ssa

-- a called function's operation is stated over typed buffers, and its equation here over the plain ones: the two
-- differ by transports along `rfl`, which the unifier must open; the folds and searches stay closed meanwhile
attribute [local irreducible] Host.reduce Host.gather

theorem fin_main_v52 (V : Valuation τ sig (Elt F)) :
    fin V (Proc.devRef .tc main_v52) = (broadcastInDim S1x1x100 ![2] bcast_S100_S1x1x100_2 : (⟨S100, .i32⟩ : BufTy).Contents (Elt F) → (⟨S1x1x100, .i32⟩ : BufTy).Contents (Elt F)) (fin V (Proc.devRef .tc main_v51)) :=
  read_unary _ _ _ _ _ (fin_eqs1 V).1

theorem fin_main_c_6 (V : Valuation τ sig (Elt F)) :
    fin V (Proc.devRef .tc main_c_6) = (constantI S_ 32 100#32 : (⟨S_, .i32⟩ : BufTy).Contents (Elt F)) :=
  read_nullary _ _ _ (fin_eqs1 V).2.1

theorem fin_main_v53 (V : Valuation τ sig (Elt F)) :
    fin V (Proc.devRef .tc main_v53) = (broadcastInDim S100x1x1 ![] bcast_S_S100x1x1 : (⟨S_, .i32⟩ : BufTy).Contents (Elt F) → (⟨S100x1x1, .i32⟩ : BufTy).Contents (Elt F)) (fin V (Proc.devRef .tc main_c_6)) :=
  read_unary _ _ _ _ _ (fin_eqs1 V).2.2.1

theorem fin_main_v54 (V : Valuation τ sig (Elt F)) :
    fin V (Proc.devRef .tc main_v54) = (muli : (⟨S100x1x1, .i32⟩ : BufTy).Contents (Elt F) → (⟨S100x1x1, .i32⟩ : BufTy).Contents (Elt F) → (⟨S100x1x1, .i32⟩ : BufTy).Contents (Elt F)) (fin V (Proc.devRef .tc main_v48)) (fin V (Proc.devRef .tc main_v53)) :=
  read_binary _ _ _ _ _ _ _ (fin_eqs1 V).2.2.2.1

theorem fin_main_v55 (V : Valuation τ sig (Elt F)) :
    fin V (Proc.devRef .tc main_v55) = (broadcastInDim S100x100x1 ![0, 1, 2] bcast_S100x1x1_S100x100x1_0_1_2 : (⟨S100x1x1, .i32⟩ : BufTy).Contents (Elt F) → (⟨S100x100x1, .i32⟩ : BufTy).Contents (Elt F)) (fin V (Proc.devRef .tc main_v54)) :=
  read_unary _ _ _ _ _ (fin_eqs1 V).2.2.2.2.1

theorem fin_main_v56 (V : Valuation τ sig (Elt F)) :
    fin V (Proc.devRef .tc main_v56) = (broadcastInDim S100x100x1 ![0, 1, 2] bcast_S1x100x1_S100x100x1_0_1_2 : (⟨S1x100x1, .i32⟩ : BufTy).Contents (Elt F) → (⟨S100x100x1, .i32⟩ : BufTy).Contents (Elt F)) (fin V (Proc.devRef .tc main_v50)) :=
  read_unary _ _ _ _ _ (fin_eqs1 V).2.2.2.2.2.1

theorem fin_main_v57 (V : Valuation τ sig (Elt F)) :
    fin V (Proc.devRef .tc main_v57) = (addi : (⟨S100x100x1, .i32⟩ : BufTy).Contents (Elt F) → (⟨S100x100x1, .i32⟩ : BufTy).Contents (Elt F) → (⟨S100x100x1, .i32⟩ : BufTy).Contents (Elt F)) (fin V (Proc.devRef .tc main_v55)) (fin V (Proc.devRef .tc main_v56)) :=
  read_binary _ _ _ _ _ _ _ (fin_eqs1 V).2.2.2.2.2.2.1

theorem fin_main_v58 (V : Valuation τ sig (Elt F)) :
    fin V (Proc.devRef .tc main_v58) = (broadcastInDim S100x100x100 ![0, 1, 2] bcast_S100x100x1_S100x100x100_0_1_2 : (⟨S100x100x1, .i32⟩ : BufTy).Contents (Elt F) → (⟨S100x100x100, .i32⟩ : BufTy).Contents (Elt F)) (fin V (Proc.devRef .tc main_v57)) :=
  read_unary _ _ _ _ _ (fin_eqs1 V).2.2.2.2.2.2.2.1

theorem fin_main_v59 (V : Valuation τ sig (Elt F)) :
    fin V (Proc.devRef .tc main_v59) = shapeCast S1000000 (fin V (Proc.devRef .tc main_v58) : (⟨S100x100x100, .i32⟩ : BufTy).Contents (Elt F)) shapeCasts_S100x100x100_S1000000 :=
  read_reshape _ _ _ _ _ _ (fin_eqs1 V).2.2.2.2.2.2.2.2.1

theorem fin_main_c_7 (V : Valuation τ sig (Elt F)) :
    fin V (Proc.devRef .tc main_c_7) = (constantI S_ 32 100#32 : (⟨S_, .i32⟩ : BufTy).Contents (Elt F)) :=
  read_nullary _ _ _ (fin_eqs1 V).2.2.2.2.2.2.2.2.2.1

theorem fin_main_v60 (V : Valuation τ sig (Elt F)) :
    fin V (Proc.devRef .tc main_v60) = (broadcastInDim S100x1x1 ![] bcast_S_S100x1x1 : (⟨S_, .i32⟩ : BufTy).Contents (Elt F) → (⟨S100x1x1, .i32⟩ : BufTy).Contents (Elt F)) (fin V (Proc.devRef .tc main_c_7)) :=
  read_unary _ _ _ _ _ (fin_eqs1 V).2.2.2.2.2.2.2.2.2.2.1

theorem fin_main_v61 (V : Valuation τ sig (Elt F)) :
    fin V (Proc.devRef .tc main_v61) = (muli : (⟨S100x1x1, .i32⟩ : BufTy).Contents (Elt F) → (⟨S100x1x1, .i32⟩ : BufTy).Contents (Elt F) → (⟨S100x1x1, .i32⟩ : BufTy).Contents (Elt F)) (fin V (Proc.devRef .tc main_v48)) (fin V (Proc.devRef .tc main_v60)) :=
  read_binary _ _ _ _ _ _ _ (fin_eqs1 V).2.2.2.2.2.2.2.2.2.2.2.1

theorem fin_main_v62 (V : Valuation τ sig (Elt F)) :
    fin V (Proc.devRef .tc main_v62) = (broadcastInDim S100x1x100 ![0, 1, 2] bcast_S100x1x1_S100x1x100_0_1_2 : (⟨S100x1x1, .i32⟩ : BufTy).Contents (Elt F) → (⟨S100x1x100, .i32⟩ : BufTy).Contents (Elt F)) (fin V (Proc.devRef .tc main_v61)) :=
  read_unary _ _ _ _ _ (fin_eqs1 V).2.2.2.2.2.2.2.2.2.2.2.2.1

theorem fin_main_v63 (V : Valuation τ sig (Elt F)) :
    fin V (Proc.devRef .tc main_v63) = (broadcastInDim S100x1x100 ![0, 1, 2] bcast_S1x1x100_S100x1x100_0_1_2 : (⟨S1x1x100, .i32⟩ : BufTy).Contents (Elt F) → (⟨S100x1x100, .i32⟩ : BufTy).Contents (Elt F)) (fin V (Proc.devRef .tc main_v52)) :=
  read_unary _ _ _ _ _ (fin_eqs1 V).2.2.2.2.2.2.2.2.2.2.2.2.2.1

theorem fin_main_v64 (V : Valuation τ sig (Elt F)) :
    fin V (Proc.devRef .tc main_v64) = (addi : (⟨S100x1x100, .i32⟩ : BufTy).Contents (Elt F) → (⟨S100x1x100, .i32⟩ : BufTy).Contents (Elt F) → (⟨S100x1x100, .i32⟩ : BufTy).Contents (Elt F)) (fin V (Proc.devRef .tc main_v62)) (fin V (Proc.devRef .tc main_v63)) :=
  read_binary _ _ _ _ _ _ _ (fin_eqs1 V).2.2.2.2.2.2.2.2.2.2.2.2.2.2.1

theorem fin_main_c_8 (V : Valuation τ sig (Elt F)) :
    fin V (Proc.devRef .tc main_c_8) = (constantI S_ 32 10000#32 : (⟨S_, .i32⟩ : BufTy).Contents (Elt F)) :=
  read_nullary _ _ _ (fin_eqs1 V).2.2.2.2.2.2.2.2.2.2.2.2.2.2.2.1

theorem fin_main_call1_v0 (V : Valuation τ sig (Elt F)) :
    fin V (Proc.devRef .tc main_call1_v0) = (broadcastInDim S100x100x100 ![0, 1, 2] bcast_S100x1x100_S100x100x100_0_1_2 : (⟨S100x1x100, .i32⟩ : BufTy).Contents (Elt F) → (⟨S100x100x100, .i32⟩ : BufTy).Contents (Elt F)) (fin V (Proc.devRef .tc main_v64)) :=
  read_unary _ _ _ _ _ (fin_eqs1 V).2.2.2.2.2.2.2.2.2.2.2.2.2.2.2.2.1

theorem fin_main_call1_v1 (V : Valuation τ sig (Elt F)) :
    fin V (Proc.devRef .tc main_call1_v1) = (broadcastInDim S100x100x100 ![] bcast_S_S100x100x100 : (⟨S_, .i32⟩ : BufTy).Contents (Elt F) → (⟨S100x100x100, .i32⟩ : BufTy).Contents (Elt F)) (fin V (Proc.devRef .tc main_c_8)) :=
  read_unary _ _ _ _ _ (fin_eqs1 V).2.2.2.2.2.2.2.2.2.2.2.2.2.2.2.2.2.1

theorem fin_main_v65 (V : Valuation τ sig (Elt F)) :
    fin V (Proc.devRef .tc main_v65) = (select : (⟨S100x100x100, .i1⟩ : BufTy).Contents (Elt F) → (⟨S100x100x100, .i32⟩ : BufTy).Contents (Elt F) → (⟨S100x100x100, .i32⟩ : BufTy).Contents (Elt F) → (⟨S100x100x100, .i32⟩ : BufTy).Contents (Elt F)) (fin V (Proc.devRef .tc main_v46)) (fin V (Proc.devRef .tc main_call1_v0)) (fin V (Proc.devRef .tc main_call1_v1)) :=
  read_ternary _ _ _ _ _ _ _ _ _ (fin_eqs1 V).2.2.2.2.2.2.2.2.2.2.2.2.2.2.2.2.2.2.1

theorem fin_main_v66 (V : Valuation τ sig (Elt F)) :
    fin V (Proc.devRef .tc main_v66) = shapeCast S1000000 (fin V (Proc.devRef .tc main_v65) : (⟨S100x100x100, .i32⟩ : BufTy).Contents (Elt F)) shapeCasts_S100x100x100_S1000000 :=
  read_reshape _ _ _ _ _ _ (fin_eqs1 V).2.2.2.2.2.2.2.2.2.2.2.2.2.2.2.2.2.2.2.1

theorem fin_main_v67 (V : Valuation τ sig (Elt F)) :
    fin V (Proc.devRef .tc main_v67) = (iotaInDim S10000 32 0 : (⟨S10000, .i32⟩ : BufTy).Contents (Elt F)) :=
  read_nullary _ _ _ (fin_eqs1 V).2.2.2.2.2.2.2.2.2.2.2.2.2.2.2.2.2.2.2.2.1

theorem fin_main_v68 (V : Valuation τ sig (Elt F)) :
    fin V (Proc.devRef .tc main_v68) = ((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)) (fin V (Proc.devRef .tc main_v59)) (fin V (Proc.devRef .tc main_v67)) :=
  read_binary _ _ _ _ _ _ _ (fin_eqs1 V).2.2.2.2.2.2.2.2.2.2.2.2.2.2.2.2.2.2.2.2.2.1

theorem fin_main_v69 (V : Valuation τ sig (Elt F)) :
    fin V (Proc.devRef .tc main_v69) = ((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)) (fin V (Proc.devRef .tc main_v66)) (fin V (Proc.devRef .tc main_v67)) :=
  read_binary _ _ _ _ _ _ _ (fin_eqs1 V).2.2.2.2.2.2.2.2.2.2.2.2.2.2.2.2.2.2.2.2.2.2.1

theorem fin_main_cst_9 (V : Valuation τ sig (Elt F)) :
    fin V (Proc.devRef .tc main_cst_9) = (constant S_ .f32 0x3F800000#32 : (⟨S_, .f32⟩ : BufTy).Contents (Elt F)) :=
  read_nullary _ _ _ (fin_eqs1 V).2.2.2.2.2.2.2.2.2.2.2.2.2.2.2.2.2.2.2.2.2.2.2.1

theorem fin_main_v70 (V : Valuation τ sig (Elt F)) :
    fin V (Proc.devRef .tc main_v70) = (broadcastInDim S1010000 ![] bcast_S_S1010000 : (⟨S_, .f32⟩ : BufTy).Contents (Elt F) → (⟨S1010000, .f32⟩ : BufTy).Contents (Elt F)) (fin V (Proc.devRef .tc main_cst_9)) :=
  read_unary _ _ _ _ _ (fin_eqs1 V).2.2.2.2.2.2.2.2.2.2.2.2.2.2.2.2.2.2.2.2.2.2.2.2.1

theorem fin_main_cst_10 (V : Valuation τ sig (Elt F)) :
    fin V (Proc.devRef .tc main_cst_10) = (constant S_ .f32 0x00000000#32 : (⟨S_, .f32⟩ : BufTy).Contents (Elt F)) :=
  read_nullary _ _ _ (fin_eqs1 V).2.2.2.2.2.2.2.2.2.2.2.2.2.2.2.2.2.2.2.2.2.2.2.2.2.1

theorem fin_main_v71 (V : Valuation τ sig (Elt F)) :
    fin V (Proc.devRef .tc main_v71) = (broadcastInDim S10001 ![] bcast_S_S10001 : (⟨S_, .f32⟩ : BufTy).Contents (Elt F) → (⟨S10001, .f32⟩ : BufTy).Contents (Elt F)) (fin V (Proc.devRef .tc main_cst_10)) :=
  read_unary _ _ _ _ _ (fin_eqs1 V).2.2.2.2.2.2.2.2.2.2.2.2.2.2.2.2.2.2.2.2.2.2.2.2.2.2.1

theorem fin_main_v72 (V : Valuation τ sig (Elt F)) :
    fin V (Proc.devRef .tc main_v72) = (broadcastInDim S1010000x1 ![0] bcast_S1010000_S1010000x1_0 : (⟨S1010000, .i32⟩ : BufTy).Contents (Elt F) → (⟨S1010000x1, .i32⟩ : BufTy).Contents (Elt F)) (fin V (Proc.devRef .tc main_v69)) :=
  read_unary _ _ _ _ _ (fin_eqs1 V).2.2.2.2.2.2.2.2.2.2.2.2.2.2.2.2.2.2.2.2.2.2.2.2.2.2.2.1

theorem fin_main_v73 (V : Valuation τ sig (Elt F)) :
    fin V (Proc.devRef .tc main_v73) = ((fun x i u => Host.scatterAdd scatter_S10001_S1010000x1_S1010000_n_0_0_1 x i u) : (⟨S10001, .f32⟩ : BufTy).Contents (Elt F) → (⟨S1010000x1, .i32⟩ : BufTy).Contents (Elt F) → (⟨S1010000, .f32⟩ : BufTy).Contents (Elt F) → (⟨S10001, .f32⟩ : BufTy).Contents (Elt F)) (fin V (Proc.devRef .tc main_v71)) (fin V (Proc.devRef .tc main_v72)) (fin V (Proc.devRef .tc main_v70)) :=
  read_ternary _ _ _ _ _ _ _ _ _ (fin_eqs1 V).2.2.2.2.2.2.2.2.2.2.2.2.2.2.2.2.2.2.2.2.2.2.2.2.2.2.2.2.1

theorem fin_main_v74 (V : Valuation τ sig (Elt F)) :
    fin V (Proc.devRef .tc main_v74) = (Host.sqrt : (⟨S10001, .f32⟩ : BufTy).Contents (Elt F) → (⟨S10001, .f32⟩ : BufTy).Contents (Elt F)) (fin V (Proc.devRef .tc main_v73)) :=
  read_unary _ _ _ _ _ (fin_eqs1 V).2.2.2.2.2.2.2.2.2.2.2.2.2.2.2.2.2.2.2.2.2.2.2.2.2.2.2.2.2.1

theorem fin_main_cst_11 (V : Valuation τ sig (Elt F)) :
    fin V (Proc.devRef .tc main_cst_11) = (constant S_ .f32 0x3F800000#32 : (⟨S_, .f32⟩ : BufTy).Contents (Elt F)) :=
  read_nullary _ _ _ (fin_eqs1 V).2.2.2.2.2.2.2.2.2.2.2.2.2.2.2.2.2.2.2.2.2.2.2.2.2.2.2.2.2.2.1

theorem fin_main_v75 (V : Valuation τ sig (Elt F)) :
    fin V (Proc.devRef .tc main_v75) = (broadcastInDim S10001 ![] bcast_S_S10001 : (⟨S_, .f32⟩ : BufTy).Contents (Elt F) → (⟨S10001, .f32⟩ : BufTy).Contents (Elt F)) (fin V (Proc.devRef .tc main_cst_11)) :=
  read_unary _ _ _ _ _ (fin_eqs1 V).2.2.2.2.2.2.2.2.2.2.2.2.2.2.2.2.2.2.2.2.2.2.2.2.2.2.2.2.2.2.2.1

theorem fin_main_v76 (V : Valuation τ sig (Elt F)) :
    fin V (Proc.devRef .tc main_v76) = (Host.divf : (⟨S10001, .f32⟩ : BufTy).Contents (Elt F) → (⟨S10001, .f32⟩ : BufTy).Contents (Elt F) → (⟨S10001, .f32⟩ : BufTy).Contents (Elt F)) (fin V (Proc.devRef .tc main_v75)) (fin V (Proc.devRef .tc main_v74)) :=
  read_binary _ _ _ _ _ _ _ (fin_eqs1 V).2.2.2.2.2.2.2.2.2.2.2.2.2.2.2.2.2.2.2.2.2.2.2.2.2.2.2.2.2.2.2.2.1

theorem fin_main_v77 (V : Valuation τ sig (Elt F)) :
    fin V (Proc.devRef .tc main_v77) = shapeCast S10000x128 (fin V (Proc.devRef .tc main_arg0) : (⟨S100x100x128, .f32⟩ : BufTy).Contents (Elt F)) shapeCasts_S100x100x128_S10000x128 :=
  read_reshape _ _ _ _ _ _ (fin_eqs1 V).2.2.2.2.2.2.2.2.2.2.2.2.2.2.2.2.2.2.2.2.2.2.2.2.2.2.2.2.2.2.2.2.2.1

theorem fin_main_v78 (V : Valuation τ sig (Elt F)) :
    fin V (Proc.devRef .tc main_v78) = ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) (fin V (Proc.devRef .tc main_v77)) (fin V (Proc.devRef .tc main_arg1)) :=
  read_binary _ _ _ _ _ _ _ (fin_eqs1 V).2.2.2.2.2.2.2.2.2.2.2.2.2.2.2.2.2.2.2.2.2.2.2.2.2.2.2.2.2.2.2.2.2.2.1

theorem fin_main_v79 (V : Valuation τ sig (Elt F)) :
    fin V (Proc.devRef .tc main_v79) = (broadcastInDim S1x128 ![1] bcast_S128_S1x128_1 : (⟨S128, .f32⟩ : BufTy).Contents (Elt F) → (⟨S1x128, .f32⟩ : BufTy).Contents (Elt F)) (fin V (Proc.devRef .tc main_arg2)) :=
  read_unary _ _ _ _ _ (fin_eqs1 V).2.2.2.2.2.2.2.2.2.2.2.2.2.2.2.2.2.2.2.2.2.2.2.2.2.2.2.2.2.2.2.2.2.2.2.1

theorem fin_main_v80 (V : Valuation τ sig (Elt F)) :
    fin V (Proc.devRef .tc main_v80) = (broadcastInDim S10000x128 ![0, 1] bcast_S1x128_S10000x128_0_1 : (⟨S1x128, .f32⟩ : BufTy).Contents (Elt F) → (⟨S10000x128, .f32⟩ : BufTy).Contents (Elt F)) (fin V (Proc.devRef .tc main_v79)) :=
  read_unary _ _ _ _ _ (fin_eqs1 V).2.2.2.2.2.2.2.2.2.2.2.2.2.2.2.2.2.2.2.2.2.2.2.2.2.2.2.2.2.2.2.2.2.2.2.2.1

theorem fin_main_v81 (V : Valuation τ sig (Elt F)) :
    fin V (Proc.devRef .tc main_v81) = (addf : (⟨S10000x128, .f32⟩ : BufTy).Contents (Elt F) → (⟨S10000x128, .f32⟩ : BufTy).Contents (Elt F) → (⟨S10000x128, .f32⟩ : BufTy).Contents (Elt F)) (fin V (Proc.devRef .tc main_v78)) (fin V (Proc.devRef .tc main_v80)) :=
  read_binary _ _ _ _ _ _ _ (fin_eqs1 V).2.2.2.2.2.2.2.2.2.2.2.2.2.2.2.2.2.2.2.2.2.2.2.2.2.2.2.2.2.2.2.2.2.2.2.2.2.1

theorem fin_main_v82 (V : Valuation τ sig (Elt F)) :
    fin V (Proc.devRef .tc main_v82) = ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) (fin V (Proc.devRef .tc main_v81)) (fin V (Proc.devRef .tc main_arg3)) :=
  read_binary _ _ _ _ _ _ _ (fin_eqs1 V).2.2.2.2.2.2.2.2.2.2.2.2.2.2.2.2.2.2.2.2.2.2.2.2.2.2.2.2.2.2.2.2.2.2.2.2.2.2.1

theorem fin_main_c_12 (V : Valuation τ sig (Elt F)) :
    fin V (Proc.devRef .tc main_c_12) = (constantI S_ 32 0#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.1

theorem fin_main_v83 (V : Valuation τ sig (Elt F)) :
    fin V (Proc.devRef .tc main_v83) = (broadcastInDim S1010000 ![] bcast_S_S1010000 : (⟨S_, .i32⟩ : BufTy).Contents (Elt F) → (⟨S1010000, .i32⟩ : BufTy).Contents (Elt F)) (fin V (Proc.devRef .tc main_c_12)) :=
  read_unary _ _ _ _ _ (fin_eqs1 V).2.2.2.2.2.2.2.2.2.2.2.2.2.2.2.2.2.2.2.2.2.2.2.2.2.2.2.2.2.2.2.2.2.2.2.2.2.2.2.2.1

theorem fin_main_v84 (V : Valuation τ sig (Elt F)) :
    fin V (Proc.devRef .tc main_v84) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_v83)) :=
  read_binary _ _ _ _ _ _ _ (fin_eqs1 V).2.2.2.2.2.2.2.2.2.2.2.2.2.2.2.2.2.2.2.2.2.2.2.2.2.2.2.2.2.2.2.2.2.2.2.2.2.2.2.2.2.1

theorem fin_main_c_13 (V : Valuation τ sig (Elt F)) :
    fin V (Proc.devRef .tc main_c_13) = (constantI S_ 32 10001#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.1

theorem fin_main_v85 (V : Valuation τ sig (Elt F)) :
    fin V (Proc.devRef .tc main_v85) = (broadcastInDim S1010000 ![] bcast_S_S1010000 : (⟨S_, .i32⟩ : BufTy).Contents (Elt F) → (⟨S1010000, .i32⟩ : BufTy).Contents (Elt F)) (fin V (Proc.devRef .tc main_c_13)) :=
  read_unary _ _ _ _ _ (fin_eqs1 V).2.2.2.2.2.2.2.2.2.2.2.2.2.2.2.2.2.2.2.2.2.2.2.2.2.2.2.2.2.2.2.2.2.2.2.2.2.2.2.2.2.2.2.1

theorem fin_main_v86 (V : Valuation τ sig (Elt F)) :
    fin V (Proc.devRef .tc main_v86) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_v85)) :=
  read_binary _ _ _ _ _ _ _ (fin_eqs1 V).2.2.2.2.2.2.2.2.2.2.2.2.2.2.2.2.2.2.2.2.2.2.2.2.2.2.2.2.2.2.2.2.2.2.2.2.2.2.2.2.2.2.2.2.1

theorem fin_main_v87 (V : Valuation τ sig (Elt F)) :
    fin V (Proc.devRef .tc main_v87) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v84)) (fin V (Proc.devRef .tc main_v86)) (fin V (Proc.devRef .tc main_v68)) :=
  read_ternary _ _ _ _ _ _ _ _ _ (fin_eqs1 V).2.2.2.2.2.2.2.2.2.2.2.2.2.2.2.2.2.2.2.2.2.2.2.2.2.2.2.2.2.2.2.2.2.2.2.2.2.2.2.2.2.2.2.2.2.1

theorem fin_main_v88 (V : Valuation τ sig (Elt F)) :
    fin V (Proc.devRef .tc main_v88) = (broadcastInDim S1010000x1 ![0] bcast_S1010000_S1010000x1_0 : (⟨S1010000, .i32⟩ : BufTy).Contents (Elt F) → (⟨S1010000x1, .i32⟩ : BufTy).Contents (Elt F)) (fin V (Proc.devRef .tc main_v87)) :=
  read_unary _ _ _ _ _ (fin_eqs1 V).2.2.2.2.2.2.2.2.2.2.2.2.2.2.2.2.2.2.2.2.2.2.2.2.2.2.2.2.2.2.2.2.2.2.2.2.2.2.2.2.2.2.2.2.2.2.1

theorem fin_main_v89 (V : Valuation τ sig (Elt F)) :
    fin V (Proc.devRef .tc main_v89) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v88)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.1

theorem fin_main_c_14 (V : Valuation τ sig (Elt F)) :
    fin V (Proc.devRef .tc main_c_14) = (constantI S_ 32 0#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.1

theorem fin_main_v90 (V : Valuation τ sig (Elt F)) :
    fin V (Proc.devRef .tc main_v90) = (broadcastInDim S1010000 ![] bcast_S_S1010000 : (⟨S_, .i32⟩ : BufTy).Contents (Elt F) → (⟨S1010000, .i32⟩ : BufTy).Contents (Elt F)) (fin V (Proc.devRef .tc main_c_14)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.1

theorem fin_main_v91 (V : Valuation τ sig (Elt F)) :
    fin V (Proc.devRef .tc main_v91) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v69)) (fin V (Proc.devRef .tc main_v90)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.1

theorem fin_main_c_15 (V : Valuation τ sig (Elt F)) :
    fin V (Proc.devRef .tc main_c_15) = (constantI S_ 32 10001#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.1

theorem fin_main_v92 (V : Valuation τ sig (Elt F)) :
    fin V (Proc.devRef .tc main_v92) = (broadcastInDim S1010000 ![] bcast_S_S1010000 : (⟨S_, .i32⟩ : BufTy).Contents (Elt F) → (⟨S1010000, .i32⟩ : BufTy).Contents (Elt F)) (fin V (Proc.devRef .tc main_c_15)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.1

theorem fin_main_v93 (V : Valuation τ sig (Elt F)) :
    fin V (Proc.devRef .tc main_v93) = (addi : (⟨S1010000, .i32⟩ : BufTy).Contents (Elt F) → (⟨S1010000, .i32⟩ : BufTy).Contents (Elt F) → (⟨S1010000, .i32⟩ : BufTy).Contents (Elt F)) (fin V (Proc.devRef .tc main_v69)) (fin V (Proc.devRef .tc main_v92)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.1

theorem fin_main_v94 (V : Valuation τ sig (Elt F)) :
    fin V (Proc.devRef .tc main_v94) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v91)) (fin V (Proc.devRef .tc main_v93)) (fin V (Proc.devRef .tc main_v69)) :=
  read_ternary _ _ _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.1

theorem fin_main_v95 (V : Valuation τ sig (Elt F)) :
    fin V (Proc.devRef .tc main_v95) = (broadcastInDim S1010000x1 ![0] bcast_S1010000_S1010000x1_0 : (⟨S1010000, .i32⟩ : BufTy).Contents (Elt F) → (⟨S1010000x1, .i32⟩ : BufTy).Contents (Elt F)) (fin V (Proc.devRef .tc main_v94)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.1

theorem fin_main_v96 (V : Valuation τ sig (Elt F)) :
    fin V (Proc.devRef .tc main_v96) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v95)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.1

theorem fin_main_v97 (V : Valuation τ sig (Elt F)) :
    fin V (Proc.devRef .tc main_v97) = (mulf : (⟨S1010000, .f32⟩ : BufTy).Contents (Elt F) → (⟨S1010000, .f32⟩ : BufTy).Contents (Elt F) → (⟨S1010000, .f32⟩ : BufTy).Contents (Elt F)) (fin V (Proc.devRef .tc main_v89)) (fin V (Proc.devRef .tc main_v96)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_c (V : Valuation τ sig (Elt F)) :
    fin V (Proc.devRef .tc main_call2_c) = (constantI S_ 32 0#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v0 (V : Valuation τ sig (Elt F)) :
    fin V (Proc.devRef .tc main_call2_v0) = (broadcastInDim S1010000 ![] bcast_S_S1010000 : (⟨S_, .i32⟩ : BufTy).Contents (Elt F) → (⟨S1010000, .i32⟩ : BufTy).Contents (Elt F)) (fin V (Proc.devRef .tc main_call2_c)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v1 (V : Valuation τ sig (Elt F)) :
    fin V (Proc.devRef .tc main_call2_v1) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_call2_v0)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_c_0 (V : Valuation τ sig (Elt F)) :
    fin V (Proc.devRef .tc main_call2_c_0) = (constantI S_ 32 10000#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v2 (V : Valuation τ sig (Elt F)) :
    fin V (Proc.devRef .tc main_call2_v2) = (broadcastInDim S1010000 ![] bcast_S_S1010000 : (⟨S_, .i32⟩ : BufTy).Contents (Elt F) → (⟨S1010000, .i32⟩ : BufTy).Contents (Elt F)) (fin V (Proc.devRef .tc main_call2_c_0)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v3 (V : Valuation τ sig (Elt F)) :
    fin V (Proc.devRef .tc main_call2_v3) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_call2_v2)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v4 (V : Valuation τ sig (Elt F)) :
    fin V (Proc.devRef .tc main_call2_v4) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_call2_v1)) (fin V (Proc.devRef .tc main_call2_v3)) (fin V (Proc.devRef .tc main_v68)) :=
  read_ternary _ _ _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v5 (V : Valuation τ sig (Elt F)) :
    fin V (Proc.devRef .tc main_call2_v5) = (broadcastInDim S1010000x1 ![0] bcast_S1010000_S1010000x1_0 : (⟨S1010000, .i32⟩ : BufTy).Contents (Elt F) → (⟨S1010000x1, .i32⟩ : BufTy).Contents (Elt F)) (fin V (Proc.devRef .tc main_call2_v4)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_c_1 (V : Valuation τ sig (Elt F)) :
    fin V (Proc.devRef .tc main_call2_c_1) = (constantI S1 32 9999#32 : (⟨S1, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_c_2 (V : Valuation τ sig (Elt F)) :
    fin V (Proc.devRef .tc main_call2_c_2) = (constantI S_ 32 0#32 : (⟨S_, .i32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v6 (V : Valuation τ sig (Elt F)) :
    fin V (Proc.devRef .tc main_call2_v6) = (broadcastInDim S1010000x1 ![] bcast_S_S1010000x1 : (⟨S_, .i32⟩ : BufTy).Contents (Elt F) → (⟨S1010000x1, .i32⟩ : BufTy).Contents (Elt F)) (fin V (Proc.devRef .tc main_call2_c_2)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v7 (V : Valuation τ sig (Elt F)) :
    fin V (Proc.devRef .tc main_call2_v7) = (cmpi .sge : (⟨S1010000x1, .i32⟩ : BufTy).Contents (Elt F) → (⟨S1010000x1, .i32⟩ : BufTy).Contents (Elt F) → (⟨S1010000x1, .i1⟩ : BufTy).Contents (Elt F)) (fin V (Proc.devRef .tc main_call2_v5)) (fin V (Proc.devRef .tc main_call2_v6)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v8 (V : Valuation τ sig (Elt F)) :
    fin V (Proc.devRef .tc main_call2_v8) = (broadcastInDim S1x1 ![1] bcast_S1_S1x1_1 : (⟨S1, .i32⟩ : BufTy).Contents (Elt F) → (⟨S1x1, .i32⟩ : BufTy).Contents (Elt F)) (fin V (Proc.devRef .tc main_call2_c_1)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v9 (V : Valuation τ sig (Elt F)) :
    fin V (Proc.devRef .tc main_call2_v9) = (broadcastInDim S1010000x1 ![0, 1] bcast_S1x1_S1010000x1_0_1 : (⟨S1x1, .i32⟩ : BufTy).Contents (Elt F) → (⟨S1010000x1, .i32⟩ : BufTy).Contents (Elt F)) (fin V (Proc.devRef .tc main_call2_v8)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v10 (V : Valuation τ sig (Elt F)) :
    fin V (Proc.devRef .tc main_call2_v10) = (cmpi .sle : (⟨S1010000x1, .i32⟩ : BufTy).Contents (Elt F) → (⟨S1010000x1, .i32⟩ : BufTy).Contents (Elt F) → (⟨S1010000x1, .i1⟩ : BufTy).Contents (Elt F)) (fin V (Proc.devRef .tc main_call2_v5)) (fin V (Proc.devRef .tc main_call2_v9)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v11 (V : Valuation τ sig (Elt F)) :
    fin V (Proc.devRef .tc main_call2_v11) = (andi : (⟨S1010000x1, .i1⟩ : BufTy).Contents (Elt F) → (⟨S1010000x1, .i1⟩ : BufTy).Contents (Elt F) → (⟨S1010000x1, .i1⟩ : BufTy).Contents (Elt F)) (fin V (Proc.devRef .tc main_call2_v7)) (fin V (Proc.devRef .tc main_call2_v10)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_c_3 (V : Valuation τ sig (Elt F)) :
    fin V (Proc.devRef .tc main_call2_c_3) = (constantI S_ 1 1#1 : (⟨S_, .i1⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v12 (V : Valuation τ sig (Elt F)) :
    fin V (Proc.devRef .tc main_call2_v12) = ((fun x v => Host.reduce IntOp.andi x v reducesTo_S1010000x1_S1010000_d1 h_S_) : (⟨S1010000x1, .i1⟩ : BufTy).Contents (Elt F) → (⟨S_, .i1⟩ : BufTy).Contents (Elt F) → (⟨S1010000, .i1⟩ : BufTy).Contents (Elt F)) (fin V (Proc.devRef .tc main_call2_v11)) (fin V (Proc.devRef .tc main_call2_c_3)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v13 (V : Valuation τ sig (Elt F)) :
    fin V (Proc.devRef .tc main_call2_v13) = ((fun x i => Host.gather gather_S10000x128_S1010000x1_S1010000x128_1_0_n_n_0_1_1128 x i) : (⟨S10000x128, .f32⟩ : BufTy).Contents (Elt F) → (⟨S1010000x1, .i32⟩ : BufTy).Contents (Elt F) → (⟨S1010000x128, .f32⟩ : BufTy).Contents (Elt F)) (fin V (Proc.devRef .tc main_v82)) (fin V (Proc.devRef .tc main_call2_v5)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v14 (V : Valuation τ sig (Elt F)) :
    fin V (Proc.devRef .tc main_call2_v14) = (broadcastInDim S1010000x128 ![0] bcast_S1010000_S1010000x128_0 : (⟨S1010000, .i1⟩ : BufTy).Contents (Elt F) → (⟨S1010000x128, .i1⟩ : BufTy).Contents (Elt F)) (fin V (Proc.devRef .tc main_call2_v12)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_cst (V : Valuation τ sig (Elt F)) :
    fin V (Proc.devRef .tc main_call2_cst) = (constant S_ .f32 0x7FC00000#32 : (⟨S_, .f32⟩ : BufTy).Contents (Elt F)) :=
  read_nullary _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call2_v15 (V : Valuation τ sig (Elt F)) :
    fin V (Proc.devRef .tc main_call2_v15) = (broadcastInDim S1010000x128 ![] bcast_S_S1010000x128 : (⟨S_, .f32⟩ : BufTy).Contents (Elt F) → (⟨S1010000x128, .f32⟩ : BufTy).Contents (Elt F)) (fin V (Proc.devRef .tc main_call2_cst)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v98 (V : Valuation τ sig (Elt F)) :
    fin V (Proc.devRef .tc main_v98) = (select : (⟨S1010000x128, .i1⟩ : BufTy).Contents (Elt F) → (⟨S1010000x128, .f32⟩ : BufTy).Contents (Elt F) → (⟨S1010000x128, .f32⟩ : BufTy).Contents (Elt F) → (⟨S1010000x128, .f32⟩ : BufTy).Contents (Elt F)) (fin V (Proc.devRef .tc main_call2_v14)) (fin V (Proc.devRef .tc main_call2_v13)) (fin V (Proc.devRef .tc main_call2_v15)) :=
  read_ternary _ _ _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v99 (V : Valuation τ sig (Elt F)) :
    fin V (Proc.devRef .tc main_v99) = (broadcastInDim S1010000x1 ![0] bcast_S1010000_S1010000x1_0 : (⟨S1010000, .f32⟩ : BufTy).Contents (Elt F) → (⟨S1010000x1, .f32⟩ : BufTy).Contents (Elt F)) (fin V (Proc.devRef .tc main_v97)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v100 (V : Valuation τ sig (Elt F)) :
    fin V (Proc.devRef .tc main_v100) = (broadcastInDim S1010000x128 ![0, 1] bcast_S1010000x1_S1010000x128_0_1 : (⟨S1010000x1, .f32⟩ : BufTy).Contents (Elt F) → (⟨S1010000x128, .f32⟩ : BufTy).Contents (Elt F)) (fin V (Proc.devRef .tc main_v99)) :=
  read_unary _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v101 (V : Valuation τ sig (Elt F)) :
    fin V (Proc.devRef .tc main_v101) = (mulf : (⟨S1010000x128, .f32⟩ : BufTy).Contents (Elt F) → (⟨S1010000x128, .f32⟩ : BufTy).Contents (Elt F) → (⟨S1010000x128, .f32⟩ : BufTy).Contents (Elt F)) (fin V (Proc.devRef .tc main_v98)) (fin V (Proc.devRef .tc main_v100)) :=
  read_binary _ _ _ _ _ _ _ (fin_eqs1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

end Cert.ReferenceIdeal.RefRun

end
-- ==== Proof.RefEqs2.lean ====
/- What the reference program's operations leave, read one operation at a time: for every operation of @main's
   window 2, the contents left in its result buffer are its function of the contents left in its operands' buffers
   (a called function's operation at its typed buffers: the same equation, the type transports being the identity). -/
import proofs.«176687_g19121194402273_cont_sun_m_853_29_alg».proof.Proof.RefSsa
import proofs.«176687_g19121194402273_cont_sun_m_853_29_alg».proof.Proof.LibSsaRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Ssa

-- a called function's operation is stated over typed buffers, and its equation here over the plain ones: the two
-- differ by transports along `rfl`, which the unifier must open; the folds and searches stay closed meanwhile
attribute [local irreducible] Host.reduce Host.gather

theorem fin_main_cst_16 (V : Valuation τ sig (Elt F)) :
    fin V (Proc.devRef .tc main_cst_16) = (constant S_ .f32 0x00000000#32 : (⟨S_, .f32⟩ : BufTy).Contents (Elt F)) :=
  read_nullary _ _ _ (fin_eqs2 V).1

theorem fin_main_v102 (V : Valuation τ sig (Elt F)) :
    fin V (Proc.devRef .tc main_v102) = (broadcastInDim S10001x128 ![] bcast_S_S10001x128 : (⟨S_, .f32⟩ : BufTy).Contents (Elt F) → (⟨S10001x128, .f32⟩ : BufTy).Contents (Elt F)) (fin V (Proc.devRef .tc main_cst_16)) :=
  read_unary _ _ _ _ _ (fin_eqs2 V).2.1

theorem fin_main_v103 (V : Valuation τ sig (Elt F)) :
    fin V (Proc.devRef .tc main_v103) = (broadcastInDim S1010000x1 ![0] bcast_S1010000_S1010000x1_0 : (⟨S1010000, .i32⟩ : BufTy).Contents (Elt F) → (⟨S1010000x1, .i32⟩ : BufTy).Contents (Elt F)) (fin V (Proc.devRef .tc main_v69)) :=
  read_unary _ _ _ _ _ (fin_eqs2 V).2.2.1

theorem fin_main_v104 (V : Valuation τ sig (Elt F)) :
    fin V (Proc.devRef .tc main_v104) = ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)) (fin V (Proc.devRef .tc main_v102)) (fin V (Proc.devRef .tc main_v103)) (fin V (Proc.devRef .tc main_v101)) :=
  read_ternary _ _ _ _ _ _ _ _ _ (fin_eqs2 V).2.2.2.1

theorem fin_main_v105 (V : Valuation τ sig (Elt F)) :
    fin V (Proc.devRef .tc main_v105) = ((extractStridedSlice S10000x128 ![0, 0] · slices_S10001x128_S10000x128_0_0) : (⟨S10001x128, .f32⟩ : BufTy).Contents (Elt F) → (⟨S10000x128, .f32⟩ : BufTy).Contents (Elt F)) (fin V (Proc.devRef .tc main_v104)) :=
  read_unary _ _ _ _ _ (fin_eqs2 V).2.2.2.2.1

theorem fin_main_v106 (V : Valuation τ sig (Elt F)) :
    fin V (Proc.devRef .tc main_v106) = (broadcastInDim S1x128 ![1] bcast_S128_S1x128_1 : (⟨S128, .f32⟩ : BufTy).Contents (Elt F) → (⟨S1x128, .f32⟩ : BufTy).Contents (Elt F)) (fin V (Proc.devRef .tc main_arg4)) :=
  read_unary _ _ _ _ _ (fin_eqs2 V).2.2.2.2.2.1

theorem fin_main_v107 (V : Valuation τ sig (Elt F)) :
    fin V (Proc.devRef .tc main_v107) = (broadcastInDim S10000x128 ![0, 1] bcast_S1x128_S10000x128_0_1 : (⟨S1x128, .f32⟩ : BufTy).Contents (Elt F) → (⟨S10000x128, .f32⟩ : BufTy).Contents (Elt F)) (fin V (Proc.devRef .tc main_v106)) :=
  read_unary _ _ _ _ _ (fin_eqs2 V).2.2.2.2.2.2.1

theorem fin_main_v108 (V : Valuation τ sig (Elt F)) :
    fin V (Proc.devRef .tc main_v108) = (addf : (⟨S10000x128, .f32⟩ : BufTy).Contents (Elt F) → (⟨S10000x128, .f32⟩ : BufTy).Contents (Elt F) → (⟨S10000x128, .f32⟩ : BufTy).Contents (Elt F)) (fin V (Proc.devRef .tc main_v105)) (fin V (Proc.devRef .tc main_v107)) :=
  read_binary _ _ _ _ _ _ _ (fin_eqs2 V).2.2.2.2.2.2.2.1

theorem fin_main_call3_cst (V : Valuation τ sig (Elt F)) :
    fin V (Proc.devRef .tc main_call3_cst) = (constant S_ .f32 0x00000000#32 : (⟨S_, .f32⟩ : BufTy).Contents (Elt F)) :=
  read_nullary _ _ _ (fin_eqs2 V).2.2.2.2.2.2.2.2.1

theorem fin_main_call3_v0 (V : Valuation τ sig (Elt F)) :
    fin V (Proc.devRef .tc main_call3_v0) = (broadcastInDim S10000x128 ![] bcast_S_S10000x128 : (⟨S_, .f32⟩ : BufTy).Contents (Elt F) → (⟨S10000x128, .f32⟩ : BufTy).Contents (Elt F)) (fin V (Proc.devRef .tc main_call3_cst)) :=
  read_unary _ _ _ _ _ (fin_eqs2 V).2.2.2.2.2.2.2.2.2.1

theorem fin_main_v109 (V : Valuation τ sig (Elt F)) :
    fin V (Proc.devRef .tc main_v109) = (maximumf : (⟨S10000x128, .f32⟩ : BufTy).Contents (Elt F) → (⟨S10000x128, .f32⟩ : BufTy).Contents (Elt F) → (⟨S10000x128, .f32⟩ : BufTy).Contents (Elt F)) (fin V (Proc.devRef .tc main_v108)) (fin V (Proc.devRef .tc main_call3_v0)) :=
  read_binary _ _ _ _ _ _ _ (fin_eqs2 V).2.2.2.2.2.2.2.2.2.2.1

theorem fin_main_v110 (V : Valuation τ sig (Elt F)) :
    fin V (Proc.devRef .tc main_v110) = ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) (fin V (Proc.devRef .tc main_v109)) (fin V (Proc.devRef .tc main_arg5)) :=
  read_binary _ _ _ _ _ _ _ (fin_eqs2 V).2.2.2.2.2.2.2.2.2.2.2.1

theorem fin_main_c_17 (V : Valuation τ sig (Elt F)) :
    fin V (Proc.devRef .tc main_c_17) = (constantI S_ 32 0#32 : (⟨S_, .i32⟩ : BufTy).Contents (Elt F)) :=
  read_nullary _ _ _ (fin_eqs2 V).2.2.2.2.2.2.2.2.2.2.2.2.1

theorem fin_main_v111 (V : Valuation τ sig (Elt F)) :
    fin V (Proc.devRef .tc main_v111) = (broadcastInDim S1010000 ![] bcast_S_S1010000 : (⟨S_, .i32⟩ : BufTy).Contents (Elt F) → (⟨S1010000, .i32⟩ : BufTy).Contents (Elt F)) (fin V (Proc.devRef .tc main_c_17)) :=
  read_unary _ _ _ _ _ (fin_eqs2 V).2.2.2.2.2.2.2.2.2.2.2.2.2.1

theorem fin_main_v112 (V : Valuation τ sig (Elt F)) :
    fin V (Proc.devRef .tc main_v112) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_v111)) :=
  read_binary _ _ _ _ _ _ _ (fin_eqs2 V).2.2.2.2.2.2.2.2.2.2.2.2.2.2.1

theorem fin_main_c_18 (V : Valuation τ sig (Elt F)) :
    fin V (Proc.devRef .tc main_c_18) = (constantI S_ 32 10001#32 : (⟨S_, .i32⟩ : BufTy).Contents (Elt F)) :=
  read_nullary _ _ _ (fin_eqs2 V).2.2.2.2.2.2.2.2.2.2.2.2.2.2.2.1

theorem fin_main_v113 (V : Valuation τ sig (Elt F)) :
    fin V (Proc.devRef .tc main_v113) = (broadcastInDim S1010000 ![] bcast_S_S1010000 : (⟨S_, .i32⟩ : BufTy).Contents (Elt F) → (⟨S1010000, .i32⟩ : BufTy).Contents (Elt F)) (fin V (Proc.devRef .tc main_c_18)) :=
  read_unary _ _ _ _ _ (fin_eqs2 V).2.2.2.2.2.2.2.2.2.2.2.2.2.2.2.2.1

theorem fin_main_v114 (V : Valuation τ sig (Elt F)) :
    fin V (Proc.devRef .tc main_v114) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_v113)) :=
  read_binary _ _ _ _ _ _ _ (fin_eqs2 V).2.2.2.2.2.2.2.2.2.2.2.2.2.2.2.2.2.1

theorem fin_main_v115 (V : Valuation τ sig (Elt F)) :
    fin V (Proc.devRef .tc main_v115) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v112)) (fin V (Proc.devRef .tc main_v114)) (fin V (Proc.devRef .tc main_v68)) :=
  read_ternary _ _ _ _ _ _ _ _ _ (fin_eqs2 V).2.2.2.2.2.2.2.2.2.2.2.2.2.2.2.2.2.2.1

theorem fin_main_v116 (V : Valuation τ sig (Elt F)) :
    fin V (Proc.devRef .tc main_v116) = (broadcastInDim S1010000x1 ![0] bcast_S1010000_S1010000x1_0 : (⟨S1010000, .i32⟩ : BufTy).Contents (Elt F) → (⟨S1010000x1, .i32⟩ : BufTy).Contents (Elt F)) (fin V (Proc.devRef .tc main_v115)) :=
  read_unary _ _ _ _ _ (fin_eqs2 V).2.2.2.2.2.2.2.2.2.2.2.2.2.2.2.2.2.2.2.1

theorem fin_main_v117 (V : Valuation τ sig (Elt F)) :
    fin V (Proc.devRef .tc main_v117) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v116)) :=
  read_binary _ _ _ _ _ _ _ (fin_eqs2 V).2.2.2.2.2.2.2.2.2.2.2.2.2.2.2.2.2.2.2.2.1

theorem fin_main_c_19 (V : Valuation τ sig (Elt F)) :
    fin V (Proc.devRef .tc main_c_19) = (constantI S_ 32 0#32 : (⟨S_, .i32⟩ : BufTy).Contents (Elt F)) :=
  read_nullary _ _ _ (fin_eqs2 V).2.2.2.2.2.2.2.2.2.2.2.2.2.2.2.2.2.2.2.2.2.1

theorem fin_main_v118 (V : Valuation τ sig (Elt F)) :
    fin V (Proc.devRef .tc main_v118) = (broadcastInDim S1010000 ![] bcast_S_S1010000 : (⟨S_, .i32⟩ : BufTy).Contents (Elt F) → (⟨S1010000, .i32⟩ : BufTy).Contents (Elt F)) (fin V (Proc.devRef .tc main_c_19)) :=
  read_unary _ _ _ _ _ (fin_eqs2 V).2.2.2.2.2.2.2.2.2.2.2.2.2.2.2.2.2.2.2.2.2.2.1

theorem fin_main_v119 (V : Valuation τ sig (Elt F)) :
    fin V (Proc.devRef .tc main_v119) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v69)) (fin V (Proc.devRef .tc main_v118)) :=
  read_binary _ _ _ _ _ _ _ (fin_eqs2 V).2.2.2.2.2.2.2.2.2.2.2.2.2.2.2.2.2.2.2.2.2.2.2.1

theorem fin_main_c_20 (V : Valuation τ sig (Elt F)) :
    fin V (Proc.devRef .tc main_c_20) = (constantI S_ 32 10001#32 : (⟨S_, .i32⟩ : BufTy).Contents (Elt F)) :=
  read_nullary _ _ _ (fin_eqs2 V).2.2.2.2.2.2.2.2.2.2.2.2.2.2.2.2.2.2.2.2.2.2.2.2.1

theorem fin_main_v120 (V : Valuation τ sig (Elt F)) :
    fin V (Proc.devRef .tc main_v120) = (broadcastInDim S1010000 ![] bcast_S_S1010000 : (⟨S_, .i32⟩ : BufTy).Contents (Elt F) → (⟨S1010000, .i32⟩ : BufTy).Contents (Elt F)) (fin V (Proc.devRef .tc main_c_20)) :=
  read_unary _ _ _ _ _ (fin_eqs2 V).2.2.2.2.2.2.2.2.2.2.2.2.2.2.2.2.2.2.2.2.2.2.2.2.2.1

theorem fin_main_v121 (V : Valuation τ sig (Elt F)) :
    fin V (Proc.devRef .tc main_v121) = (addi : (⟨S1010000, .i32⟩ : BufTy).Contents (Elt F) → (⟨S1010000, .i32⟩ : BufTy).Contents (Elt F) → (⟨S1010000, .i32⟩ : BufTy).Contents (Elt F)) (fin V (Proc.devRef .tc main_v69)) (fin V (Proc.devRef .tc main_v120)) :=
  read_binary _ _ _ _ _ _ _ (fin_eqs2 V).2.2.2.2.2.2.2.2.2.2.2.2.2.2.2.2.2.2.2.2.2.2.2.2.2.2.1

theorem fin_main_v122 (V : Valuation τ sig (Elt F)) :
    fin V (Proc.devRef .tc main_v122) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v119)) (fin V (Proc.devRef .tc main_v121)) (fin V (Proc.devRef .tc main_v69)) :=
  read_ternary _ _ _ _ _ _ _ _ _ (fin_eqs2 V).2.2.2.2.2.2.2.2.2.2.2.2.2.2.2.2.2.2.2.2.2.2.2.2.2.2.2.1

theorem fin_main_v123 (V : Valuation τ sig (Elt F)) :
    fin V (Proc.devRef .tc main_v123) = (broadcastInDim S1010000x1 ![0] bcast_S1010000_S1010000x1_0 : (⟨S1010000, .i32⟩ : BufTy).Contents (Elt F) → (⟨S1010000x1, .i32⟩ : BufTy).Contents (Elt F)) (fin V (Proc.devRef .tc main_v122)) :=
  read_unary _ _ _ _ _ (fin_eqs2 V).2.2.2.2.2.2.2.2.2.2.2.2.2.2.2.2.2.2.2.2.2.2.2.2.2.2.2.2.1

theorem fin_main_v124 (V : Valuation τ sig (Elt F)) :
    fin V (Proc.devRef .tc main_v124) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v123)) :=
  read_binary _ _ _ _ _ _ _ (fin_eqs2 V).2.2.2.2.2.2.2.2.2.2.2.2.2.2.2.2.2.2.2.2.2.2.2.2.2.2.2.2.2.1

theorem fin_main_v125 (V : Valuation τ sig (Elt F)) :
    fin V (Proc.devRef .tc main_v125) = (mulf : (⟨S1010000, .f32⟩ : BufTy).Contents (Elt F) → (⟨S1010000, .f32⟩ : BufTy).Contents (Elt F) → (⟨S1010000, .f32⟩ : BufTy).Contents (Elt F)) (fin V (Proc.devRef .tc main_v117)) (fin V (Proc.devRef .tc main_v124)) :=
  read_binary _ _ _ _ _ _ _ (fin_eqs2 V).2.2.2.2.2.2.2.2.2.2.2.2.2.2.2.2.2.2.2.2.2.2.2.2.2.2.2.2.2.2.1

theorem fin_main_call4_c (V : Valuation τ sig (Elt F)) :
    fin V (Proc.devRef .tc main_call4_c) = (constantI S_ 32 0#32 : (⟨S_, .i32⟩ : BufTy).Contents (Elt F)) :=
  read_nullary _ _ _ (fin_eqs2 V).2.2.2.2.2.2.2.2.2.2.2.2.2.2.2.2.2.2.2.2.2.2.2.2.2.2.2.2.2.2.2.1

theorem fin_main_call4_v0 (V : Valuation τ sig (Elt F)) :
    fin V (Proc.devRef .tc main_call4_v0) = (broadcastInDim S1010000 ![] bcast_S_S1010000 : (⟨S_, .i32⟩ : BufTy).Contents (Elt F) → (⟨S1010000, .i32⟩ : BufTy).Contents (Elt F)) (fin V (Proc.devRef .tc main_call4_c)) :=
  read_unary _ _ _ _ _ (fin_eqs2 V).2.2.2.2.2.2.2.2.2.2.2.2.2.2.2.2.2.2.2.2.2.2.2.2.2.2.2.2.2.2.2.2.1

theorem fin_main_call4_v1 (V : Valuation τ sig (Elt F)) :
    fin V (Proc.devRef .tc main_call4_v1) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_call4_v0)) :=
  read_binary _ _ _ _ _ _ _ (fin_eqs2 V).2.2.2.2.2.2.2.2.2.2.2.2.2.2.2.2.2.2.2.2.2.2.2.2.2.2.2.2.2.2.2.2.2.1

theorem fin_main_call4_c_0 (V : Valuation τ sig (Elt F)) :
    fin V (Proc.devRef .tc main_call4_c_0) = (constantI S_ 32 10000#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.1

theorem fin_main_call4_v2 (V : Valuation τ sig (Elt F)) :
    fin V (Proc.devRef .tc main_call4_v2) = (broadcastInDim S1010000 ![] bcast_S_S1010000 : (⟨S_, .i32⟩ : BufTy).Contents (Elt F) → (⟨S1010000, .i32⟩ : BufTy).Contents (Elt F)) (fin V (Proc.devRef .tc main_call4_c_0)) :=
  read_unary _ _ _ _ _ (fin_eqs2 V).2.2.2.2.2.2.2.2.2.2.2.2.2.2.2.2.2.2.2.2.2.2.2.2.2.2.2.2.2.2.2.2.2.2.2.1

theorem fin_main_call4_v3 (V : Valuation τ sig (Elt F)) :
    fin V (Proc.devRef .tc main_call4_v3) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_call4_v2)) :=
  read_binary _ _ _ _ _ _ _ (fin_eqs2 V).2.2.2.2.2.2.2.2.2.2.2.2.2.2.2.2.2.2.2.2.2.2.2.2.2.2.2.2.2.2.2.2.2.2.2.2.1

theorem fin_main_call4_v4 (V : Valuation τ sig (Elt F)) :
    fin V (Proc.devRef .tc main_call4_v4) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_call4_v1)) (fin V (Proc.devRef .tc main_call4_v3)) (fin V (Proc.devRef .tc main_v68)) :=
  read_ternary _ _ _ _ _ _ _ _ _ (fin_eqs2 V).2.2.2.2.2.2.2.2.2.2.2.2.2.2.2.2.2.2.2.2.2.2.2.2.2.2.2.2.2.2.2.2.2.2.2.2.2.1

theorem fin_main_call4_v5 (V : Valuation τ sig (Elt F)) :
    fin V (Proc.devRef .tc main_call4_v5) = (broadcastInDim S1010000x1 ![0] bcast_S1010000_S1010000x1_0 : (⟨S1010000, .i32⟩ : BufTy).Contents (Elt F) → (⟨S1010000x1, .i32⟩ : BufTy).Contents (Elt F)) (fin V (Proc.devRef .tc main_call4_v4)) :=
  read_unary _ _ _ _ _ (fin_eqs2 V).2.2.2.2.2.2.2.2.2.2.2.2.2.2.2.2.2.2.2.2.2.2.2.2.2.2.2.2.2.2.2.2.2.2.2.2.2.2.1

theorem fin_main_call4_c_1 (V : Valuation τ sig (Elt F)) :
    fin V (Proc.devRef .tc main_call4_c_1) = (constantI S1 32 9999#32 : (⟨S1, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.1

theorem fin_main_call4_c_2 (V : Valuation τ sig (Elt F)) :
    fin V (Proc.devRef .tc main_call4_c_2) = (constantI S_ 32 0#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.1

theorem fin_main_call4_v6 (V : Valuation τ sig (Elt F)) :
    fin V (Proc.devRef .tc main_call4_v6) = (broadcastInDim S1010000x1 ![] bcast_S_S1010000x1 : (⟨S_, .i32⟩ : BufTy).Contents (Elt F) → (⟨S1010000x1, .i32⟩ : BufTy).Contents (Elt F)) (fin V (Proc.devRef .tc main_call4_c_2)) :=
  read_unary _ _ _ _ _ (fin_eqs2 V).2.2.2.2.2.2.2.2.2.2.2.2.2.2.2.2.2.2.2.2.2.2.2.2.2.2.2.2.2.2.2.2.2.2.2.2.2.2.2.2.2.1

theorem fin_main_call4_v7 (V : Valuation τ sig (Elt F)) :
    fin V (Proc.devRef .tc main_call4_v7) = (cmpi .sge : (⟨S1010000x1, .i32⟩ : BufTy).Contents (Elt F) → (⟨S1010000x1, .i32⟩ : BufTy).Contents (Elt F) → (⟨S1010000x1, .i1⟩ : BufTy).Contents (Elt F)) (fin V (Proc.devRef .tc main_call4_v5)) (fin V (Proc.devRef .tc main_call4_v6)) :=
  read_binary _ _ _ _ _ _ _ (fin_eqs2 V).2.2.2.2.2.2.2.2.2.2.2.2.2.2.2.2.2.2.2.2.2.2.2.2.2.2.2.2.2.2.2.2.2.2.2.2.2.2.2.2.2.2.1

theorem fin_main_call4_v8 (V : Valuation τ sig (Elt F)) :
    fin V (Proc.devRef .tc main_call4_v8) = (broadcastInDim S1x1 ![1] bcast_S1_S1x1_1 : (⟨S1, .i32⟩ : BufTy).Contents (Elt F) → (⟨S1x1, .i32⟩ : BufTy).Contents (Elt F)) (fin V (Proc.devRef .tc main_call4_c_1)) :=
  read_unary _ _ _ _ _ (fin_eqs2 V).2.2.2.2.2.2.2.2.2.2.2.2.2.2.2.2.2.2.2.2.2.2.2.2.2.2.2.2.2.2.2.2.2.2.2.2.2.2.2.2.2.2.2.1

theorem fin_main_call4_v9 (V : Valuation τ sig (Elt F)) :
    fin V (Proc.devRef .tc main_call4_v9) = (broadcastInDim S1010000x1 ![0, 1] bcast_S1x1_S1010000x1_0_1 : (⟨S1x1, .i32⟩ : BufTy).Contents (Elt F) → (⟨S1010000x1, .i32⟩ : BufTy).Contents (Elt F)) (fin V (Proc.devRef .tc main_call4_v8)) :=
  read_unary _ _ _ _ _ (fin_eqs2 V).2.2.2.2.2.2.2.2.2.2.2.2.2.2.2.2.2.2.2.2.2.2.2.2.2.2.2.2.2.2.2.2.2.2.2.2.2.2.2.2.2.2.2.2.1

theorem fin_main_call4_v10 (V : Valuation τ sig (Elt F)) :
    fin V (Proc.devRef .tc main_call4_v10) = (cmpi .sle : (⟨S1010000x1, .i32⟩ : BufTy).Contents (Elt F) → (⟨S1010000x1, .i32⟩ : BufTy).Contents (Elt F) → (⟨S1010000x1, .i1⟩ : BufTy).Contents (Elt F)) (fin V (Proc.devRef .tc main_call4_v5)) (fin V (Proc.devRef .tc main_call4_v9)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.1

theorem fin_main_call4_v11 (V : Valuation τ sig (Elt F)) :
    fin V (Proc.devRef .tc main_call4_v11) = (andi : (⟨S1010000x1, .i1⟩ : BufTy).Contents (Elt F) → (⟨S1010000x1, .i1⟩ : BufTy).Contents (Elt F) → (⟨S1010000x1, .i1⟩ : BufTy).Contents (Elt F)) (fin V (Proc.devRef .tc main_call4_v7)) (fin V (Proc.devRef .tc main_call4_v10)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.1

theorem fin_main_call4_c_3 (V : Valuation τ sig (Elt F)) :
    fin V (Proc.devRef .tc main_call4_c_3) = (constantI S_ 1 1#1 : (⟨S_, .i1⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.1

theorem fin_main_call4_v12 (V : Valuation τ sig (Elt F)) :
    fin V (Proc.devRef .tc main_call4_v12) = ((fun x v => Host.reduce IntOp.andi x v reducesTo_S1010000x1_S1010000_d1 h_S_) : (⟨S1010000x1, .i1⟩ : BufTy).Contents (Elt F) → (⟨S_, .i1⟩ : BufTy).Contents (Elt F) → (⟨S1010000, .i1⟩ : BufTy).Contents (Elt F)) (fin V (Proc.devRef .tc main_call4_v11)) (fin V (Proc.devRef .tc main_call4_c_3)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.1

theorem fin_main_call4_v13 (V : Valuation τ sig (Elt F)) :
    fin V (Proc.devRef .tc main_call4_v13) = ((fun x i => Host.gather gather_S10000x128_S1010000x1_S1010000x128_1_0_n_n_0_1_1128 x i) : (⟨S10000x128, .f32⟩ : BufTy).Contents (Elt F) → (⟨S1010000x1, .i32⟩ : BufTy).Contents (Elt F) → (⟨S1010000x128, .f32⟩ : BufTy).Contents (Elt F)) (fin V (Proc.devRef .tc main_v110)) (fin V (Proc.devRef .tc main_call4_v5)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.1

theorem fin_main_call4_v14 (V : Valuation τ sig (Elt F)) :
    fin V (Proc.devRef .tc main_call4_v14) = (broadcastInDim S1010000x128 ![0] bcast_S1010000_S1010000x128_0 : (⟨S1010000, .i1⟩ : BufTy).Contents (Elt F) → (⟨S1010000x128, .i1⟩ : BufTy).Contents (Elt F)) (fin V (Proc.devRef .tc main_call4_v12)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.1

theorem fin_main_call4_cst (V : Valuation τ sig (Elt F)) :
    fin V (Proc.devRef .tc main_call4_cst) = (constant S_ .f32 0x7FC00000#32 : (⟨S_, .f32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.1

theorem fin_main_call4_v15 (V : Valuation τ sig (Elt F)) :
    fin V (Proc.devRef .tc main_call4_v15) = (broadcastInDim S1010000x128 ![] bcast_S_S1010000x128 : (⟨S_, .f32⟩ : BufTy).Contents (Elt F) → (⟨S1010000x128, .f32⟩ : BufTy).Contents (Elt F)) (fin V (Proc.devRef .tc main_call4_cst)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.1

theorem fin_main_v126 (V : Valuation τ sig (Elt F)) :
    fin V (Proc.devRef .tc main_v126) = (select : (⟨S1010000x128, .i1⟩ : BufTy).Contents (Elt F) → (⟨S1010000x128, .f32⟩ : BufTy).Contents (Elt F) → (⟨S1010000x128, .f32⟩ : BufTy).Contents (Elt F) → (⟨S1010000x128, .f32⟩ : BufTy).Contents (Elt F)) (fin V (Proc.devRef .tc main_call4_v14)) (fin V (Proc.devRef .tc main_call4_v13)) (fin V (Proc.devRef .tc main_call4_v15)) :=
  read_ternary _ _ _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.1

theorem fin_main_v127 (V : Valuation τ sig (Elt F)) :
    fin V (Proc.devRef .tc main_v127) = (broadcastInDim S1010000x1 ![0] bcast_S1010000_S1010000x1_0 : (⟨S1010000, .f32⟩ : BufTy).Contents (Elt F) → (⟨S1010000x1, .f32⟩ : BufTy).Contents (Elt F)) (fin V (Proc.devRef .tc main_v125)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.1

theorem fin_main_v128 (V : Valuation τ sig (Elt F)) :
    fin V (Proc.devRef .tc main_v128) = (broadcastInDim S1010000x128 ![0, 1] bcast_S1010000x1_S1010000x128_0_1 : (⟨S1010000x1, .f32⟩ : BufTy).Contents (Elt F) → (⟨S1010000x128, .f32⟩ : BufTy).Contents (Elt F)) (fin V (Proc.devRef .tc main_v127)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.1

theorem fin_main_v129 (V : Valuation τ sig (Elt F)) :
    fin V (Proc.devRef .tc main_v129) = (mulf : (⟨S1010000x128, .f32⟩ : BufTy).Contents (Elt F) → (⟨S1010000x128, .f32⟩ : BufTy).Contents (Elt F) → (⟨S1010000x128, .f32⟩ : BufTy).Contents (Elt F)) (fin V (Proc.devRef .tc main_v126)) (fin V (Proc.devRef .tc main_v128)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.1

theorem fin_main_cst_21 (V : Valuation τ sig (Elt F)) :
    fin V (Proc.devRef .tc main_cst_21) = (constant S_ .f32 0x00000000#32 : (⟨S_, .f32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v130 (V : Valuation τ sig (Elt F)) :
    fin V (Proc.devRef .tc main_v130) = (broadcastInDim S10001x128 ![] bcast_S_S10001x128 : (⟨S_, .f32⟩ : BufTy).Contents (Elt F) → (⟨S10001x128, .f32⟩ : BufTy).Contents (Elt F)) (fin V (Proc.devRef .tc main_cst_21)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v131 (V : Valuation τ sig (Elt F)) :
    fin V (Proc.devRef .tc main_v131) = (broadcastInDim S1010000x1 ![0] bcast_S1010000_S1010000x1_0 : (⟨S1010000, .i32⟩ : BufTy).Contents (Elt F) → (⟨S1010000x1, .i32⟩ : BufTy).Contents (Elt F)) (fin V (Proc.devRef .tc main_v69)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v132 (V : Valuation τ sig (Elt F)) :
    fin V (Proc.devRef .tc main_v132) = ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)) (fin V (Proc.devRef .tc main_v130)) (fin V (Proc.devRef .tc main_v131)) (fin V (Proc.devRef .tc main_v129)) :=
  read_ternary _ _ _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v133 (V : Valuation τ sig (Elt F)) :
    fin V (Proc.devRef .tc main_v133) = ((extractStridedSlice S10000x128 ![0, 0] · slices_S10001x128_S10000x128_0_0) : (⟨S10001x128, .f32⟩ : BufTy).Contents (Elt F) → (⟨S10000x128, .f32⟩ : BufTy).Contents (Elt F)) (fin V (Proc.devRef .tc main_v132)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v134 (V : Valuation τ sig (Elt F)) :
    fin V (Proc.devRef .tc main_v134) = (broadcastInDim S1x128 ![1] bcast_S128_S1x128_1 : (⟨S128, .f32⟩ : BufTy).Contents (Elt F) → (⟨S1x128, .f32⟩ : BufTy).Contents (Elt F)) (fin V (Proc.devRef .tc main_arg6)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v135 (V : Valuation τ sig (Elt F)) :
    fin V (Proc.devRef .tc main_v135) = (broadcastInDim S10000x128 ![0, 1] bcast_S1x128_S10000x128_0_1 : (⟨S1x128, .f32⟩ : BufTy).Contents (Elt F) → (⟨S10000x128, .f32⟩ : BufTy).Contents (Elt F)) (fin V (Proc.devRef .tc main_v134)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v136 (V : Valuation τ sig (Elt F)) :
    fin V (Proc.devRef .tc main_v136) = (addf : (⟨S10000x128, .f32⟩ : BufTy).Contents (Elt F) → (⟨S10000x128, .f32⟩ : BufTy).Contents (Elt F) → (⟨S10000x128, .f32⟩ : BufTy).Contents (Elt F)) (fin V (Proc.devRef .tc main_v133)) (fin V (Proc.devRef .tc main_v135)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call5_cst (V : Valuation τ sig (Elt F)) :
    fin V (Proc.devRef .tc main_call5_cst) = (constant S_ .f32 0x00000000#32 : (⟨S_, .f32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_call5_v0 (V : Valuation τ sig (Elt F)) :
    fin V (Proc.devRef .tc main_call5_v0) = (broadcastInDim S10000x128 ![] bcast_S_S10000x128 : (⟨S_, .f32⟩ : BufTy).Contents (Elt F) → (⟨S10000x128, .f32⟩ : BufTy).Contents (Elt F)) (fin V (Proc.devRef .tc main_call5_cst)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v137 (V : Valuation τ sig (Elt F)) :
    fin V (Proc.devRef .tc main_v137) = (maximumf : (⟨S10000x128, .f32⟩ : BufTy).Contents (Elt F) → (⟨S10000x128, .f32⟩ : BufTy).Contents (Elt F) → (⟨S10000x128, .f32⟩ : BufTy).Contents (Elt F)) (fin V (Proc.devRef .tc main_v136)) (fin V (Proc.devRef .tc main_call5_v0)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v138 (V : Valuation τ sig (Elt F)) :
    fin V (Proc.devRef .tc main_v138) = ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) (fin V (Proc.devRef .tc main_v137)) (fin V (Proc.devRef .tc main_arg7)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_c_22 (V : Valuation τ sig (Elt F)) :
    fin V (Proc.devRef .tc main_c_22) = (constantI S_ 32 0#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v139 (V : Valuation τ sig (Elt F)) :
    fin V (Proc.devRef .tc main_v139) = (broadcastInDim S1010000 ![] bcast_S_S1010000 : (⟨S_, .i32⟩ : BufTy).Contents (Elt F) → (⟨S1010000, .i32⟩ : BufTy).Contents (Elt F)) (fin V (Proc.devRef .tc main_c_22)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v140 (V : Valuation τ sig (Elt F)) :
    fin V (Proc.devRef .tc main_v140) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_v139)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_c_23 (V : Valuation τ sig (Elt F)) :
    fin V (Proc.devRef .tc main_c_23) = (constantI S_ 32 10001#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v141 (V : Valuation τ sig (Elt F)) :
    fin V (Proc.devRef .tc main_v141) = (broadcastInDim S1010000 ![] bcast_S_S1010000 : (⟨S_, .i32⟩ : BufTy).Contents (Elt F) → (⟨S1010000, .i32⟩ : BufTy).Contents (Elt F)) (fin V (Proc.devRef .tc main_c_23)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v142 (V : Valuation τ sig (Elt F)) :
    fin V (Proc.devRef .tc main_v142) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_v141)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v143 (V : Valuation τ sig (Elt F)) :
    fin V (Proc.devRef .tc main_v143) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v140)) (fin V (Proc.devRef .tc main_v142)) (fin V (Proc.devRef .tc main_v68)) :=
  read_ternary _ _ _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v144 (V : Valuation τ sig (Elt F)) :
    fin V (Proc.devRef .tc main_v144) = (broadcastInDim S1010000x1 ![0] bcast_S1010000_S1010000x1_0 : (⟨S1010000, .i32⟩ : BufTy).Contents (Elt F) → (⟨S1010000x1, .i32⟩ : BufTy).Contents (Elt F)) (fin V (Proc.devRef .tc main_v143)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v145 (V : Valuation τ sig (Elt F)) :
    fin V (Proc.devRef .tc main_v145) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v144)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_c_24 (V : Valuation τ sig (Elt F)) :
    fin V (Proc.devRef .tc main_c_24) = (constantI S_ 32 0#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v146 (V : Valuation τ sig (Elt F)) :
    fin V (Proc.devRef .tc main_v146) = (broadcastInDim S1010000 ![] bcast_S_S1010000 : (⟨S_, .i32⟩ : BufTy).Contents (Elt F) → (⟨S1010000, .i32⟩ : BufTy).Contents (Elt F)) (fin V (Proc.devRef .tc main_c_24)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v147 (V : Valuation τ sig (Elt F)) :
    fin V (Proc.devRef .tc main_v147) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v69)) (fin V (Proc.devRef .tc main_v146)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_c_25 (V : Valuation τ sig (Elt F)) :
    fin V (Proc.devRef .tc main_c_25) = (constantI S_ 32 10001#32 : (⟨S_, .i32⟩ : BufTy).Contents (Elt F)) :=
  read_nullary _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v148 (V : Valuation τ sig (Elt F)) :
    fin V (Proc.devRef .tc main_v148) = (broadcastInDim S1010000 ![] bcast_S_S1010000 : (⟨S_, .i32⟩ : BufTy).Contents (Elt F) → (⟨S1010000, .i32⟩ : BufTy).Contents (Elt F)) (fin V (Proc.devRef .tc main_c_25)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v149 (V : Valuation τ sig (Elt F)) :
    fin V (Proc.devRef .tc main_v149) = (addi : (⟨S1010000, .i32⟩ : BufTy).Contents (Elt F) → (⟨S1010000, .i32⟩ : BufTy).Contents (Elt F) → (⟨S1010000, .i32⟩ : BufTy).Contents (Elt F)) (fin V (Proc.devRef .tc main_v69)) (fin V (Proc.devRef .tc main_v148)) :=
  read_binary _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v150 (V : Valuation τ sig (Elt F)) :
    fin V (Proc.devRef .tc main_v150) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_v147)) (fin V (Proc.devRef .tc main_v149)) (fin V (Proc.devRef .tc main_v69)) :=
  read_ternary _ _ _ _ _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

theorem fin_main_v151 (V : Valuation τ sig (Elt F)) :
    fin V (Proc.devRef .tc main_v151) = (broadcastInDim S1010000x1 ![0] bcast_S1010000_S1010000x1_0 : (⟨S1010000, .i32⟩ : BufTy).Contents (Elt F) → (⟨S1010000x1, .i32⟩ : BufTy).Contents (Elt F)) (fin V (Proc.devRef .tc main_v150)) :=
  read_unary _ _ _ _ _ (fin_eqs2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1

end Cert.ReferenceIdeal.RefRun

end
-- ==== Proof.RefEqs3.lean ====
/- What the reference program's operations leave, read one operation at a time: for every operation of @main's
   window 3, the contents left in its result buffer are its function of the contents left in its operands' buffers
   (a called function's operation at its typed buffers: the same equation, the type transports being the identity). -/
import proofs.«176687_g19121194402273_cont_sun_m_853_29_alg».proof.Proof.RefSsa
import proofs.«176687_g19121194402273_cont_sun_m_853_29_alg».proof.Proof.LibSsaRead

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.Ssa

-- a called function's operation is stated over typed buffers, and its equation here over the plain ones: the two
-- differ by transports along `rfl`, which the unifier must open; the folds and searches stay closed meanwhile
attribute [local irreducible] Host.reduce Host.gather

theorem fin_main_v152 (V : Valuation τ sig (Elt F)) :
    fin V (Proc.devRef .tc main_v152) = ((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) (fin V (Proc.devRef .tc main_v76)) (fin V (Proc.devRef .tc main_v151)) :=
  read_binary _ _ _ _ _ _ _ (fin_eqs3 V).1

theorem fin_main_v153 (V : Valuation τ sig (Elt F)) :
    fin V (Proc.devRef .tc main_v153) = (mulf : (⟨S1010000, .f32⟩ : BufTy).Contents (Elt F) → (⟨S1010000, .f32⟩ : BufTy).Contents (Elt F) → (⟨S1010000, .f32⟩ : BufTy).Contents (Elt F)) (fin V (Proc.devRef .tc main_v145)) (fin V (Proc.devRef .tc main_v152)) :=
  read_binary _ _ _ _ _ _ _ (fin_eqs3 V).2.1

theorem fin_main_call6_c (V : Valuation τ sig (Elt F)) :
    fin V (Proc.devRef .tc main_call6_c) = (constantI S_ 32 0#32 : (⟨S_, .i32⟩ : BufTy).Contents (Elt F)) :=
  read_nullary _ _ _ (fin_eqs3 V).2.2.1

theorem fin_main_call6_v0 (V : Valuation τ sig (Elt F)) :
    fin V (Proc.devRef .tc main_call6_v0) = (broadcastInDim S1010000 ![] bcast_S_S1010000 : (⟨S_, .i32⟩ : BufTy).Contents (Elt F) → (⟨S1010000, .i32⟩ : BufTy).Contents (Elt F)) (fin V (Proc.devRef .tc main_call6_c)) :=
  read_unary _ _ _ _ _ (fin_eqs3 V).2.2.2.1

theorem fin_main_call6_v1 (V : Valuation τ sig (Elt F)) :
    fin V (Proc.devRef .tc main_call6_v1) = (cmpi .slt : (⟨S1010000, .i32⟩ : BufTy).Contents (Elt F) → (⟨S1010000, .i32⟩ : BufTy).Contents (Elt F) → (⟨S1010000, .i1⟩ : BufTy).Contents (Elt F)) (fin V (Proc.devRef .tc main_v68)) (fin V (Proc.devRef .tc main_call6_v0)) :=
  read_binary _ _ _ _ _ _ _ (fin_eqs3 V).2.2.2.2.1

theorem fin_main_call6_c_0 (V : Valuation τ sig (Elt F)) :
    fin V (Proc.devRef .tc main_call6_c_0) = (constantI S_ 32 10000#32 : (⟨S_, .i32⟩ : BufTy).Contents (Elt F)) :=
  read_nullary _ _ _ (fin_eqs3 V).2.2.2.2.2.1

theorem fin_main_call6_v2 (V : Valuation τ sig (Elt F)) :
    fin V (Proc.devRef .tc main_call6_v2) = (broadcastInDim S1010000 ![] bcast_S_S1010000 : (⟨S_, .i32⟩ : BufTy).Contents (Elt F) → (⟨S1010000, .i32⟩ : BufTy).Contents (Elt F)) (fin V (Proc.devRef .tc main_call6_c_0)) :=
  read_unary _ _ _ _ _ (fin_eqs3 V).2.2.2.2.2.2.1

theorem fin_main_call6_v3 (V : Valuation τ sig (Elt F)) :
    fin V (Proc.devRef .tc main_call6_v3) = (addi : (⟨S1010000, .i32⟩ : BufTy).Contents (Elt F) → (⟨S1010000, .i32⟩ : BufTy).Contents (Elt F) → (⟨S1010000, .i32⟩ : BufTy).Contents (Elt F)) (fin V (Proc.devRef .tc main_v68)) (fin V (Proc.devRef .tc main_call6_v2)) :=
  read_binary _ _ _ _ _ _ _ (fin_eqs3 V).2.2.2.2.2.2.2.1

theorem fin_main_call6_v4 (V : Valuation τ sig (Elt F)) :
    fin V (Proc.devRef .tc main_call6_v4) = (select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) (fin V (Proc.devRef .tc main_call6_v1)) (fin V (Proc.devRef .tc main_call6_v3)) (fin V (Proc.devRef .tc main_v68)) :=
  read_ternary _ _ _ _ _ _ _ _ _ (fin_eqs3 V).2.2.2.2.2.2.2.2.1

theorem fin_main_call6_v5 (V : Valuation τ sig (Elt F)) :
    fin V (Proc.devRef .tc main_call6_v5) = (broadcastInDim S1010000x1 ![0] bcast_S1010000_S1010000x1_0 : (⟨S1010000, .i32⟩ : BufTy).Contents (Elt F) → (⟨S1010000x1, .i32⟩ : BufTy).Contents (Elt F)) (fin V (Proc.devRef .tc main_call6_v4)) :=
  read_unary _ _ _ _ _ (fin_eqs3 V).2.2.2.2.2.2.2.2.2.1

theorem fin_main_call6_c_1 (V : Valuation τ sig (Elt F)) :
    fin V (Proc.devRef .tc main_call6_c_1) = (constantI S1 32 9999#32 : (⟨S1, .i32⟩ : BufTy).Contents (Elt F)) :=
  read_nullary _ _ _ (fin_eqs3 V).2.2.2.2.2.2.2.2.2.2.1

theorem fin_main_call6_c_2 (V : Valuation τ sig (Elt F)) :
    fin V (Proc.devRef .tc main_call6_c_2) = (constantI S_ 32 0#32 : (⟨S_, .i32⟩ : BufTy).Contents (Elt F)) :=
  read_nullary _ _ _ (fin_eqs3 V).2.2.2.2.2.2.2.2.2.2.2.1

theorem fin_main_call6_v6 (V : Valuation τ sig (Elt F)) :
    fin V (Proc.devRef .tc main_call6_v6) = (broadcastInDim S1010000x1 ![] bcast_S_S1010000x1 : (⟨S_, .i32⟩ : BufTy).Contents (Elt F) → (⟨S1010000x1, .i32⟩ : BufTy).Contents (Elt F)) (fin V (Proc.devRef .tc main_call6_c_2)) :=
  read_unary _ _ _ _ _ (fin_eqs3 V).2.2.2.2.2.2.2.2.2.2.2.2.1

theorem fin_main_call6_v7 (V : Valuation τ sig (Elt F)) :
    fin V (Proc.devRef .tc main_call6_v7) = (cmpi .sge : (⟨S1010000x1, .i32⟩ : BufTy).Contents (Elt F) → (⟨S1010000x1, .i32⟩ : BufTy).Contents (Elt F) → (⟨S1010000x1, .i1⟩ : BufTy).Contents (Elt F)) (fin V (Proc.devRef .tc main_call6_v5)) (fin V (Proc.devRef .tc main_call6_v6)) :=
  read_binary _ _ _ _ _ _ _ (fin_eqs3 V).2.2.2.2.2.2.2.2.2.2.2.2.2.1

theorem fin_main_call6_v8 (V : Valuation τ sig (Elt F)) :
    fin V (Proc.devRef .tc main_call6_v8) = (broadcastInDim S1x1 ![1] bcast_S1_S1x1_1 : (⟨S1, .i32⟩ : BufTy).Contents (Elt F) → (⟨S1x1, .i32⟩ : BufTy).Contents (Elt F)) (fin V (Proc.devRef .tc main_call6_c_1)) :=
  read_unary _ _ _ _ _ (fin_eqs3 V).2.2.2.2.2.2.2.2.2.2.2.2.2.2.1

theorem fin_main_call6_v9 (V : Valuation τ sig (Elt F)) :
    fin V (Proc.devRef .tc main_call6_v9) = (broadcastInDim S1010000x1 ![0, 1] bcast_S1x1_S1010000x1_0_1 : (⟨S1x1, .i32⟩ : BufTy).Contents (Elt F) → (⟨S1010000x1, .i32⟩ : BufTy).Contents (Elt F)) (fin V (Proc.devRef .tc main_call6_v8)) :=
  read_unary _ _ _ _ _ (fin_eqs3 V).2.2.2.2.2.2.2.2.2.2.2.2.2.2.2.1

theorem fin_main_call6_v10 (V : Valuation τ sig (Elt F)) :
    fin V (Proc.devRef .tc main_call6_v10) = (cmpi .sle : (⟨S1010000x1, .i32⟩ : BufTy).Contents (Elt F) → (⟨S1010000x1, .i32⟩ : BufTy).Contents (Elt F) → (⟨S1010000x1, .i1⟩ : BufTy).Contents (Elt F)) (fin V (Proc.devRef .tc main_call6_v5)) (fin V (Proc.devRef .tc main_call6_v9)) :=
  read_binary _ _ _ _ _ _ _ (fin_eqs3 V).2.2.2.2.2.2.2.2.2.2.2.2.2.2.2.2.1

theorem fin_main_call6_v11 (V : Valuation τ sig (Elt F)) :
    fin V (Proc.devRef .tc main_call6_v11) = (andi : (⟨S1010000x1, .i1⟩ : BufTy).Contents (Elt F) → (⟨S1010000x1, .i1⟩ : BufTy).Contents (Elt F) → (⟨S1010000x1, .i1⟩ : BufTy).Contents (Elt F)) (fin V (Proc.devRef .tc main_call6_v7)) (fin V (Proc.devRef .tc main_call6_v10)) :=
  read_binary _ _ _ _ _ _ _ (fin_eqs3 V).2.2.2.2.2.2.2.2.2.2.2.2.2.2.2.2.2.1

theorem fin_main_call6_c_3 (V : Valuation τ sig (Elt F)) :
    fin V (Proc.devRef .tc main_call6_c_3) = (constantI S_ 1 1#1 : (⟨S_, .i1⟩ : BufTy).Contents (Elt F)) :=
  read_nullary _ _ _ (fin_eqs3 V).2.2.2.2.2.2.2.2.2.2.2.2.2.2.2.2.2.2.1

theorem fin_main_call6_v12 (V : Valuation τ sig (Elt F)) :
    fin V (Proc.devRef .tc main_call6_v12) = ((fun x v => Host.reduce IntOp.andi x v reducesTo_S1010000x1_S1010000_d1 h_S_) : (⟨S1010000x1, .i1⟩ : BufTy).Contents (Elt F) → (⟨S_, .i1⟩ : BufTy).Contents (Elt F) → (⟨S1010000, .i1⟩ : BufTy).Contents (Elt F)) (fin V (Proc.devRef .tc main_call6_v11)) (fin V (Proc.devRef .tc main_call6_c_3)) :=
  read_binary _ _ _ _ _ _ _ (fin_eqs3 V).2.2.2.2.2.2.2.2.2.2.2.2.2.2.2.2.2.2.2.1

theorem fin_main_call6_v13 (V : Valuation τ sig (Elt F)) :
    fin V (Proc.devRef .tc main_call6_v13) = ((fun x i => Host.gather gather_S10000x128_S1010000x1_S1010000x128_1_0_n_n_0_1_1128 x i) : (⟨S10000x128, .f32⟩ : BufTy).Contents (Elt F) → (⟨S1010000x1, .i32⟩ : BufTy).Contents (Elt F) → (⟨S1010000x128, .f32⟩ : BufTy).Contents (Elt F)) (fin V (Proc.devRef .tc main_v138)) (fin V (Proc.devRef .tc main_call6_v5)) :=
  read_binary _ _ _ _ _ _ _ (fin_eqs3 V).2.2.2.2.2.2.2.2.2.2.2.2.2.2.2.2.2.2.2.2.1

theorem fin_main_call6_v14 (V : Valuation τ sig (Elt F)) :
    fin V (Proc.devRef .tc main_call6_v14) = (broadcastInDim S1010000x128 ![0] bcast_S1010000_S1010000x128_0 : (⟨S1010000, .i1⟩ : BufTy).Contents (Elt F) → (⟨S1010000x128, .i1⟩ : BufTy).Contents (Elt F)) (fin V (Proc.devRef .tc main_call6_v12)) :=
  read_unary _ _ _ _ _ (fin_eqs3 V).2.2.2.2.2.2.2.2.2.2.2.2.2.2.2.2.2.2.2.2.2.1

theorem fin_main_call6_cst (V : Valuation τ sig (Elt F)) :
    fin V (Proc.devRef .tc main_call6_cst) = (constant S_ .f32 0x7FC00000#32 : (⟨S_, .f32⟩ : BufTy).Contents (Elt F)) :=
  read_nullary _ _ _ (fin_eqs3 V).2.2.2.2.2.2.2.2.2.2.2.2.2.2.2.2.2.2.2.2.2.2.1

theorem fin_main_call6_v15 (V : Valuation τ sig (Elt F)) :
    fin V (Proc.devRef .tc main_call6_v15) = (broadcastInDim S1010000x128 ![] bcast_S_S1010000x128 : (⟨S_, .f32⟩ : BufTy).Contents (Elt F) → (⟨S1010000x128, .f32⟩ : BufTy).Contents (Elt F)) (fin V (Proc.devRef .tc main_call6_cst)) :=
  read_unary _ _ _ _ _ (fin_eqs3 V).2.2.2.2.2.2.2.2.2.2.2.2.2.2.2.2.2.2.2.2.2.2.2.1

theorem fin_main_v154 (V : Valuation τ sig (Elt F)) :
    fin V (Proc.devRef .tc main_v154) = (select : (⟨S1010000x128, .i1⟩ : BufTy).Contents (Elt F) → (⟨S1010000x128, .f32⟩ : BufTy).Contents (Elt F) → (⟨S1010000x128, .f32⟩ : BufTy).Contents (Elt F) → (⟨S1010000x128, .f32⟩ : BufTy).Contents (Elt F)) (fin V (Proc.devRef .tc main_call6_v14)) (fin V (Proc.devRef .tc main_call6_v13)) (fin V (Proc.devRef .tc main_call6_v15)) :=
  read_ternary _ _ _ _ _ _ _ _ _ (fin_eqs3 V).2.2.2.2.2.2.2.2.2.2.2.2.2.2.2.2.2.2.2.2.2.2.2.2.1

theorem fin_main_v155 (V : Valuation τ sig (Elt F)) :
    fin V (Proc.devRef .tc main_v155) = (broadcastInDim S1010000x1 ![0] bcast_S1010000_S1010000x1_0 : (⟨S1010000, .f32⟩ : BufTy).Contents (Elt F) → (⟨S1010000x1, .f32⟩ : BufTy).Contents (Elt F)) (fin V (Proc.devRef .tc main_v153)) :=
  read_unary _ _ _ _ _ (fin_eqs3 V).2.2.2.2.2.2.2.2.2.2.2.2.2.2.2.2.2.2.2.2.2.2.2.2.2.1

theorem fin_main_v156 (V : Valuation τ sig (Elt F)) :
    fin V (Proc.devRef .tc main_v156) = (broadcastInDim S1010000x128 ![0, 1] bcast_S1010000x1_S1010000x128_0_1 : (⟨S1010000x1, .f32⟩ : BufTy).Contents (Elt F) → (⟨S1010000x128, .f32⟩ : BufTy).Contents (Elt F)) (fin V (Proc.devRef .tc main_v155)) :=
  read_unary _ _ _ _ _ (fin_eqs3 V).2.2.2.2.2.2.2.2.2.2.2.2.2.2.2.2.2.2.2.2.2.2.2.2.2.2.1

theorem fin_main_v157 (V : Valuation τ sig (Elt F)) :
    fin V (Proc.devRef .tc main_v157) = (mulf : (⟨S1010000x128, .f32⟩ : BufTy).Contents (Elt F) → (⟨S1010000x128, .f32⟩ : BufTy).Contents (Elt F) → (⟨S1010000x128, .f32⟩ : BufTy).Contents (Elt F)) (fin V (Proc.devRef .tc main_v154)) (fin V (Proc.devRef .tc main_v156)) :=
  read_binary _ _ _ _ _ _ _ (fin_eqs3 V).2.2.2.2.2.2.2.2.2.2.2.2.2.2.2.2.2.2.2.2.2.2.2.2.2.2.2.1

theorem fin_main_cst_26 (V : Valuation τ sig (Elt F)) :
    fin V (Proc.devRef .tc main_cst_26) = (constant S_ .f32 0x00000000#32 : (⟨S_, .f32⟩ : BufTy).Contents (Elt F)) :=
  read_nullary _ _ _ (fin_eqs3 V).2.2.2.2.2.2.2.2.2.2.2.2.2.2.2.2.2.2.2.2.2.2.2.2.2.2.2.2.1

theorem fin_main_v158 (V : Valuation τ sig (Elt F)) :
    fin V (Proc.devRef .tc main_v158) = (broadcastInDim S10001x128 ![] bcast_S_S10001x128 : (⟨S_, .f32⟩ : BufTy).Contents (Elt F) → (⟨S10001x128, .f32⟩ : BufTy).Contents (Elt F)) (fin V (Proc.devRef .tc main_cst_26)) :=
  read_unary _ _ _ _ _ (fin_eqs3 V).2.2.2.2.2.2.2.2.2.2.2.2.2.2.2.2.2.2.2.2.2.2.2.2.2.2.2.2.2.1

theorem fin_main_v159 (V : Valuation τ sig (Elt F)) :
    fin V (Proc.devRef .tc main_v159) = (broadcastInDim S1010000x1 ![0] bcast_S1010000_S1010000x1_0 : (⟨S1010000, .i32⟩ : BufTy).Contents (Elt F) → (⟨S1010000x1, .i32⟩ : BufTy).Contents (Elt F)) (fin V (Proc.devRef .tc main_v69)) :=
  read_unary _ _ _ _ _ (fin_eqs3 V).2.2.2.2.2.2.2.2.2.2.2.2.2.2.2.2.2.2.2.2.2.2.2.2.2.2.2.2.2.2.1

theorem fin_main_v160 (V : Valuation τ sig (Elt F)) :
    fin V (Proc.devRef .tc main_v160) = ((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)) (fin V (Proc.devRef .tc main_v158)) (fin V (Proc.devRef .tc main_v159)) (fin V (Proc.devRef .tc main_v157)) :=
  read_ternary _ _ _ _ _ _ _ _ _ (fin_eqs3 V).2.2.2.2.2.2.2.2.2.2.2.2.2.2.2.2.2.2.2.2.2.2.2.2.2.2.2.2.2.2.2.1

theorem fin_main_v161 (V : Valuation τ sig (Elt F)) :
    fin V (Proc.devRef .tc main_v161) = ((extractStridedSlice S10000x128 ![0, 0] · slices_S10001x128_S10000x128_0_0) : (⟨S10001x128, .f32⟩ : BufTy).Contents (Elt F) → (⟨S10000x128, .f32⟩ : BufTy).Contents (Elt F)) (fin V (Proc.devRef .tc main_v160)) :=
  read_unary _ _ _ _ _ (fin_eqs3 V).2.2.2.2.2.2.2.2.2.2.2.2.2.2.2.2.2.2.2.2.2.2.2.2.2.2.2.2.2.2.2.2.1

theorem fin_main_v162 (V : Valuation τ sig (Elt F)) :
    fin V (Proc.devRef .tc main_v162) = (broadcastInDim S1x128 ![1] bcast_S128_S1x128_1 : (⟨S128, .f32⟩ : BufTy).Contents (Elt F) → (⟨S1x128, .f32⟩ : BufTy).Contents (Elt F)) (fin V (Proc.devRef .tc main_arg8)) :=
  read_unary _ _ _ _ _ (fin_eqs3 V).2.2.2.2.2.2.2.2.2.2.2.2.2.2.2.2.2.2.2.2.2.2.2.2.2.2.2.2.2.2.2.2.2.1

theorem fin_main_v163 (V : Valuation τ sig (Elt F)) :
    fin V (Proc.devRef .tc main_v163) = (broadcastInDim S10000x128 ![0, 1] bcast_S1x128_S10000x128_0_1 : (⟨S1x128, .f32⟩ : BufTy).Contents (Elt F) → (⟨S10000x128, .f32⟩ : BufTy).Contents (Elt F)) (fin V (Proc.devRef .tc main_v162)) :=
  read_unary _ _ _ _ _ (fin_eqs3 V).2.2.2.2.2.2.2.2.2.2.2.2.2.2.2.2.2.2.2.2.2.2.2.2.2.2.2.2.2.2.2.2.2.2.1

theorem fin_main_v164 (V : Valuation τ sig (Elt F)) :
    fin V (Proc.devRef .tc main_v164) = (addf : (⟨S10000x128, .f32⟩ : BufTy).Contents (Elt F) → (⟨S10000x128, .f32⟩ : BufTy).Contents (Elt F) → (⟨S10000x128, .f32⟩ : BufTy).Contents (Elt F)) (fin V (Proc.devRef .tc main_v161)) (fin V (Proc.devRef .tc main_v163)) :=
  read_binary _ _ _ _ _ _ _ (fin_eqs3 V).2.2.2.2.2.2.2.2.2.2.2.2.2.2.2.2.2.2.2.2.2.2.2.2.2.2.2.2.2.2.2.2.2.2.2.1

theorem fin_main_call7_cst (V : Valuation τ sig (Elt F)) :
    fin V (Proc.devRef .tc main_call7_cst) = (constant S_ .f32 0x00000000#32 : (⟨S_, .f32⟩ : BufTy).Contents (Elt F)) :=
  read_nullary _ _ _ (fin_eqs3 V).2.2.2.2.2.2.2.2.2.2.2.2.2.2.2.2.2.2.2.2.2.2.2.2.2.2.2.2.2.2.2.2.2.2.2.2.1

theorem fin_main_call7_v0 (V : Valuation τ sig (Elt F)) :
    fin V (Proc.devRef .tc main_call7_v0) = (broadcastInDim S10000x128 ![] bcast_S_S10000x128 : (⟨S_, .f32⟩ : BufTy).Contents (Elt F) → (⟨S10000x128, .f32⟩ : BufTy).Contents (Elt F)) (fin V (Proc.devRef .tc main_call7_cst)) :=
  read_unary _ _ _ _ _ (fin_eqs3 V).2.2.2.2.2.2.2.2.2.2.2.2.2.2.2.2.2.2.2.2.2.2.2.2.2.2.2.2.2.2.2.2.2.2.2.2.2.1

theorem fin_main_v165 (V : Valuation τ sig (Elt F)) :
    fin V (Proc.devRef .tc main_v165) = (maximumf : (⟨S10000x128, .f32⟩ : BufTy).Contents (Elt F) → (⟨S10000x128, .f32⟩ : BufTy).Contents (Elt F) → (⟨S10000x128, .f32⟩ : BufTy).Contents (Elt F)) (fin V (Proc.devRef .tc main_v164)) (fin V (Proc.devRef .tc main_call7_v0)) :=
  read_binary _ _ _ _ _ _ _ (fin_eqs3 V).2.2.2.2.2.2.2.2.2.2.2.2.2.2.2.2.2.2.2.2.2.2.2.2.2.2.2.2.2.2.2.2.2.2.2.2.2.2.1

theorem fin_main_v166 (V : Valuation τ sig (Elt F)) :
    fin V (Proc.devRef .tc main_v166) = shapeCast S100x100x128 (fin V (Proc.devRef .tc main_v165) : (⟨S10000x128, .f32⟩ : BufTy).Contents (Elt F)) shapeCasts_S10000x128_S100x100x128 :=
  read_reshape _ _ _ _ _ _ (fin_eqs3 V).2.2.2.2.2.2.2.2.2.2.2.2.2.2.2.2.2.2.2.2.2.2.2.2.2.2.2.2.2.2.2.2.2.2.2.2.2.2.2.1

theorem fin_main_cst_27 (V : Valuation τ sig (Elt F)) :
    fin V (Proc.devRef .tc main_cst_27) = (constant S_ .f32 0x00000000#32 : (⟨S_, .f32⟩ : BufTy).Contents (Elt F)) :=
  read_nullary _ _ _ (fin_eqs3 V).2.2.2.2.2.2.2.2.2.2.2.2.2.2.2.2.2.2.2.2.2.2.2.2.2.2.2.2.2.2.2.2.2.2.2.2.2.2.2.2.1

theorem fin_main_v167 (V : Valuation τ sig (Elt F)) :
    fin V (Proc.devRef .tc main_v167) = ((fun x v => Host.reduceAdd x v reducesTo_S100x100x128_S100x128_d1 h_S_) : (⟨S100x100x128, .f32⟩ : BufTy).Contents (Elt F) → (⟨S_, .f32⟩ : BufTy).Contents (Elt F) → (⟨S100x128, .f32⟩ : BufTy).Contents (Elt F)) (fin V (Proc.devRef .tc main_v166)) (fin V (Proc.devRef .tc main_cst_27)) :=
  read_binary _ _ _ _ _ _ _ (fin_eqs3 V).2.2.2.2.2.2.2.2.2.2.2.2.2.2.2.2.2.2.2.2.2.2.2.2.2.2.2.2.2.2.2.2.2.2.2.2.2.2.2.2.2.1

theorem fin_main_cst_28 (V : Valuation τ sig (Elt F)) :
    fin V (Proc.devRef .tc main_cst_28) = (constant S_ .f32 0x42C80000#32 : (⟨S_, .f32⟩ : BufTy).Contents (Elt F)) :=
  read_nullary _ _ _ (fin_eqs3 V).2.2.2.2.2.2.2.2.2.2.2.2.2.2.2.2.2.2.2.2.2.2.2.2.2.2.2.2.2.2.2.2.2.2.2.2.2.2.2.2.2.2.1

theorem fin_main_v168 (V : Valuation τ sig (Elt F)) :
    fin V (Proc.devRef .tc main_v168) = (broadcastInDim S100x128 ![] bcast_S_S100x128 : (⟨S_, .f32⟩ : BufTy).Contents (Elt F) → (⟨S100x128, .f32⟩ : BufTy).Contents (Elt F)) (fin V (Proc.devRef .tc main_cst_28)) :=
  read_unary _ _ _ _ _ (fin_eqs3 V).2.2.2.2.2.2.2.2.2.2.2.2.2.2.2.2.2.2.2.2.2.2.2.2.2.2.2.2.2.2.2.2.2.2.2.2.2.2.2.2.2.2.2.1

theorem fin_main_v169 (V : Valuation τ sig (Elt F)) :
    fin V (Proc.devRef .tc main_v169) = (Host.divf : (⟨S100x128, .f32⟩ : BufTy).Contents (Elt F) → (⟨S100x128, .f32⟩ : BufTy).Contents (Elt F) → (⟨S100x128, .f32⟩ : BufTy).Contents (Elt F)) (fin V (Proc.devRef .tc main_v167)) (fin V (Proc.devRef .tc main_v168)) :=
  read_binary _ _ _ _ _ _ _ (fin_eqs3 V).2.2.2.2.2.2.2.2.2.2.2.2.2.2.2.2.2.2.2.2.2.2.2.2.2.2.2.2.2.2.2.2.2.2.2.2.2.2.2.2.2.2.2.2.1

theorem fin_main_v170 (V : Valuation τ sig (Elt F)) :
    fin V (Proc.devRef .tc main_v170) = ((fun l r => Host.dotGeneral dot_S100x128_S128x64_S100x64_1_0_0_1_n_n none l r) : (⟨S100x128, .f32⟩ : BufTy).Contents (Elt F) → (⟨S128x64, .f32⟩ : BufTy).Contents (Elt F) → (⟨S100x64, .f32⟩ : BufTy).Contents (Elt F)) (fin V (Proc.devRef .tc main_v169)) (fin V (Proc.devRef .tc main_arg9)) :=
  read_binary _ _ _ _ _ _ _ (fin_eqs3 V).2.2.2.2.2.2.2.2.2.2.2.2.2.2.2.2.2.2.2.2.2.2.2.2.2.2.2.2.2.2.2.2.2.2.2.2.2.2.2.2.2.2.2.2.2.1

theorem fin_main_v171 (V : Valuation τ sig (Elt F)) :
    fin V (Proc.devRef .tc main_v171) = (broadcastInDim S1x64 ![1] bcast_S64_S1x64_1 : (⟨S64, .f32⟩ : BufTy).Contents (Elt F) → (⟨S1x64, .f32⟩ : BufTy).Contents (Elt F)) (fin V (Proc.devRef .tc main_arg10)) :=
  read_unary _ _ _ _ _ (fin_eqs3 V).2.2.2.2.2.2.2.2.2.2.2.2.2.2.2.2.2.2.2.2.2.2.2.2.2.2.2.2.2.2.2.2.2.2.2.2.2.2.2.2.2.2.2.2.2.2.1

theorem fin_main_v172 (V : Valuation τ sig (Elt F)) :
    fin V (Proc.devRef .tc main_v172) = (broadcastInDim S100x64 ![0, 1] bcast_S1x64_S100x64_0_1 : (⟨S1x64, .f32⟩ : BufTy).Contents (Elt F) → (⟨S100x64, .f32⟩ : BufTy).Contents (Elt F)) (fin V (Proc.devRef .tc main_v171)) :=
  read_unary _ _ _ _ _ (fin_eqs3 V).2.2.2.2.2.2.2.2.2.2.2.2.2.2.2.2.2.2.2.2.2.2.2.2.2.2.2.2.2.2.2.2.2.2.2.2.2.2.2.2.2.2.2.2.2.2.2.1

theorem fin_main_v173 (V : Valuation τ sig (Elt F)) :
    fin V (Proc.devRef .tc main_v173) = (addf : (⟨S100x64, .f32⟩ : BufTy).Contents (Elt F) → (⟨S100x64, .f32⟩ : BufTy).Contents (Elt F) → (⟨S100x64, .f32⟩ : BufTy).Contents (Elt F)) (fin V (Proc.devRef .tc main_v170)) (fin V (Proc.devRef .tc main_v172)) :=
  read_binary _ _ _ _ _ _ _ (fin_eqs3 V).2.2.2.2.2.2.2.2.2.2.2.2.2.2.2.2.2.2.2.2.2.2.2.2.2.2.2.2.2.2.2.2.2.2.2.2.2.2.2.2.2.2.2.2.2.2.2.2.1

theorem fin_main_call8_cst (V : Valuation τ sig (Elt F)) :
    fin V (Proc.devRef .tc main_call8_cst) = (constant S_ .f32 0x00000000#32 : (⟨S_, .f32⟩ : BufTy).Contents (Elt F)) :=
  read_nullary _ _ _ (fin_eqs3 V).2.2.2.2.2.2.2.2.2.2.2.2.2.2.2.2.2.2.2.2.2.2.2.2.2.2.2.2.2.2.2.2.2.2.2.2.2.2.2.2.2.2.2.2.2.2.2.2.2.1

theorem fin_main_call8_v0 (V : Valuation τ sig (Elt F)) :
    fin V (Proc.devRef .tc main_call8_v0) = (broadcastInDim S100x64 ![] bcast_S_S100x64 : (⟨S_, .f32⟩ : BufTy).Contents (Elt F) → (⟨S100x64, .f32⟩ : BufTy).Contents (Elt F)) (fin V (Proc.devRef .tc main_call8_cst)) :=
  read_unary _ _ _ _ _ (fin_eqs3 V).2.2.2.2.2.2.2.2.2.2.2.2.2.2.2.2.2.2.2.2.2.2.2.2.2.2.2.2.2.2.2.2.2.2.2.2.2.2.2.2.2.2.2.2.2.2.2.2.2.2.1

theorem fin_main_v174 (V : Valuation τ sig (Elt F)) :
    fin V (Proc.devRef .tc main_v174) = (maximumf : (⟨S100x64, .f32⟩ : BufTy).Contents (Elt F) → (⟨S100x64, .f32⟩ : BufTy).Contents (Elt F) → (⟨S100x64, .f32⟩ : BufTy).Contents (Elt F)) (fin V (Proc.devRef .tc main_v173)) (fin V (Proc.devRef .tc main_call8_v0)) :=
  read_binary _ _ _ _ _ _ _ (fin_eqs3 V).2.2.2.2.2.2.2.2.2.2.2.2.2.2.2.2.2.2.2.2.2.2.2.2.2.2.2.2.2.2.2.2.2.2.2.2.2.2.2.2.2.2.2.2.2.2.2.2.2.2.2.1

theorem fin_main_v175 (V : Valuation τ sig (Elt F)) :
    fin V (Proc.devRef .tc main_v175) = ((fun l r => Host.dotGeneral dot_S100x64_S64x1_S100x1_1_0_0_1_n_n none l r) : (⟨S100x64, .f32⟩ : BufTy).Contents (Elt F) → (⟨S64x1, .f32⟩ : BufTy).Contents (Elt F) → (⟨S100x1, .f32⟩ : BufTy).Contents (Elt F)) (fin V (Proc.devRef .tc main_v174)) (fin V (Proc.devRef .tc main_arg11)) :=
  read_binary _ _ _ _ _ _ _ (fin_eqs3 V).2.2.2.2.2.2.2.2.2.2.2.2.2.2.2.2.2.2.2.2.2.2.2.2.2.2.2.2.2.2.2.2.2.2.2.2.2.2.2.2.2.2.2.2.2.2.2.2.2.2.2.2.1

theorem fin_main_v176 (V : Valuation τ sig (Elt F)) :
    fin V (Proc.devRef .tc main_v176) = (broadcastInDim S1x1 ![1] bcast_S1_S1x1_1 : (⟨S1, .f32⟩ : BufTy).Contents (Elt F) → (⟨S1x1, .f32⟩ : BufTy).Contents (Elt F)) (fin V (Proc.devRef .tc main_arg12)) :=
  read_unary _ _ _ _ _ (fin_eqs3 V).2.2.2.2.2.2.2.2.2.2.2.2.2.2.2.2.2.2.2.2.2.2.2.2.2.2.2.2.2.2.2.2.2.2.2.2.2.2.2.2.2.2.2.2.2.2.2.2.2.2.2.2.2.1

theorem fin_main_v177 (V : Valuation τ sig (Elt F)) :
    fin V (Proc.devRef .tc main_v177) = (broadcastInDim S100x1 ![0, 1] bcast_S1x1_S100x1_0_1 : (⟨S1x1, .f32⟩ : BufTy).Contents (Elt F) → (⟨S100x1, .f32⟩ : BufTy).Contents (Elt F)) (fin V (Proc.devRef .tc main_v176)) :=
  read_unary _ _ _ _ _ (fin_eqs3 V).2.2.2.2.2.2.2.2.2.2.2.2.2.2.2.2.2.2.2.2.2.2.2.2.2.2.2.2.2.2.2.2.2.2.2.2.2.2.2.2.2.2.2.2.2.2.2.2.2.2.2.2.2.2.1

theorem fin_main_v178 (V : Valuation τ sig (Elt F)) :
    fin V (Proc.devRef .tc main_v178) = (addf : (⟨S100x1, .f32⟩ : BufTy).Contents (Elt F) → (⟨S100x1, .f32⟩ : BufTy).Contents (Elt F) → (⟨S100x1, .f32⟩ : BufTy).Contents (Elt F)) (fin V (Proc.devRef .tc main_v175)) (fin V (Proc.devRef .tc main_v177)) :=
  read_binary _ _ _ _ _ _ _ (fin_eqs3 V).2.2.2.2.2.2.2.2.2.2.2.2.2.2.2.2.2.2.2.2.2.2.2.2.2.2.2.2.2.2.2.2.2.2.2.2.2.2.2.2.2.2.2.2.2.2.2.2.2.2.2.2.2.2.2.1

end Cert.ReferenceIdeal.RefRun

end
-- ==== Proof.RefStages.lean ====
/- The reference program in stages: a handful of its buffers — the longitudes and their pairwise differences, the edge
   mask, the edge index tables, the degrees, the edge weights, each layer's output, the result — each as a named pure
   function of the stages before it and of the arguments, the function being the composition of the program's
   operations between them; and, for what the program's operations leave (`fin`), the equation of each such buffer
   with its stage. The three edge-weight computations are one function, and the three layers are one function. -/
import proofs.«176687_g19121194402273_cont_sun_m_853_29_alg».proof.Proof.RefEqs0
import proofs.«176687_g19121194402273_cont_sun_m_853_29_alg».proof.Proof.RefEqs1
import proofs.«176687_g19121194402273_cont_sun_m_853_29_alg».proof.Proof.RefEqs2
import proofs.«176687_g19121194402273_cont_sun_m_853_29_alg».proof.Proof.RefEqs3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The longitudes: every node's first feature, one row per graph. -/
def lon (feat : (⟨S100x100x128, .f32⟩ : BufTy).Contents (Elt F)) :
    (⟨S100x100, .f32⟩ : BufTy).Contents (Elt F) :=
  (shapeCast S100x100 ((((extractStridedSlice S100x100x1 ![0, 0, 0] · slices_S100x100x128_S100x100x1_0_0_0) : (⟨S100x100x128, .f32⟩ : BufTy).Contents (Elt F) → (⟨S100x100x1, .f32⟩ : BufTy).Contents (Elt F)) feat) : (⟨S100x100x1, .f32⟩ : BufTy).Contents (Elt F)) shapeCasts_S100x100x1_S100x100)

/-- The longitudes as a column per graph (a trailing axis of one). -/
def lonCol (lons : (⟨S100x100, .f32⟩ : BufTy).Contents (Elt F)) :
    (⟨S100x100x1, .f32⟩ : BufTy).Contents (Elt F) :=
  ((broadcastInDim S100x100x1 ![0, 1] bcast_S100x100_S100x100x1_0_1 : (⟨S100x100, .f32⟩ : BufTy).Contents (Elt F) → (⟨S100x100x1, .f32⟩ : BufTy).Contents (Elt F)) lons)

/-- The negated longitudes as a row per graph (a middle axis of one). -/
def negLonRow (lons : (⟨S100x100, .f32⟩ : BufTy).Contents (Elt F)) :
    (⟨S100x1x100, .f32⟩ : BufTy).Contents (Elt F) :=
  ((Host.negf : (⟨S100x1x100, .f32⟩ : BufTy).Contents (Elt F) → (⟨S100x1x100, .f32⟩ : BufTy).Contents (Elt F)) ((broadcastInDim S100x1x100 ![0, 2] bcast_S100x100_S100x1x100_0_2 : (⟨S100x100, .f32⟩ : BufTy).Contents (Elt F) → (⟨S100x1x100, .f32⟩ : BufTy).Contents (Elt F)) lons))

/-- The pairwise differences of longitudes within a graph, as the rounded sum `s` of a column and a negated row. -/
def lonDiff (col : (⟨S100x100x1, .f32⟩ : BufTy).Contents (Elt F)) (nrow : (⟨S100x1x100, .f32⟩ : BufTy).Contents (Elt F)) :
    (⟨S100x100x100, .f32⟩ : BufTy).Contents (Elt F) :=
  ((addf : (⟨S100x100x100, .f32⟩ : BufTy).Contents (Elt F) → (⟨S100x100x100, .f32⟩ : BufTy).Contents (Elt F) → (⟨S100x100x100, .f32⟩ : BufTy).Contents (Elt F)) ((broadcastInDim S100x100x100 ![0, 1, 2] bcast_S100x100x1_S100x100x100_0_1_2 : (⟨S100x100x1, .f32⟩ : BufTy).Contents (Elt F) → (⟨S100x100x100, .f32⟩ : BufTy).Contents (Elt F)) col) ((broadcastInDim S100x100x100 ![0, 1, 2] bcast_S100x1x100_S100x100x100_0_1_2 : (⟨S100x1x100, .f32⟩ : BufTy).Contents (Elt F) → (⟨S100x100x100, .f32⟩ : BufTy).Contents (Elt F)) nrow))

/-- The second summand as recovered from the rounded sum: `t = s − a`. -/
def lonDiffT (s : (⟨S100x100x100, .f32⟩ : BufTy).Contents (Elt F)) (col : (⟨S100x100x1, .f32⟩ : BufTy).Contents (Elt F)) :
    (⟨S100x100x100, .f32⟩ : BufTy).Contents (Elt F) :=
  ((subf : (⟨S100x100x100, .f32⟩ : BufTy).Contents (Elt F) → (⟨S100x100x100, .f32⟩ : BufTy).Contents (Elt F) → (⟨S100x100x100, .f32⟩ : BufTy).Contents (Elt F)) s ((broadcastInDim S100x100x100 ![0, 1, 2] bcast_S100x100x1_S100x100x100_0_1_2 : (⟨S100x100x1, .f32⟩ : BufTy).Contents (Elt F) → (⟨S100x100x100, .f32⟩ : BufTy).Contents (Elt F)) col))

/-- The rounding error of the sum by the two-sum formula: `e = (a − (s − t)) + (nb − t)`. -/
def lonDiffErr (col : (⟨S100x100x1, .f32⟩ : BufTy).Contents (Elt F)) (s : (⟨S100x100x100, .f32⟩ : BufTy).Contents (Elt F)) (t : (⟨S100x100x100, .f32⟩ : BufTy).Contents (Elt F)) (nrow : (⟨S100x1x100, .f32⟩ : BufTy).Contents (Elt F)) :
    (⟨S100x100x100, .f32⟩ : BufTy).Contents (Elt F) :=
  ((addf : (⟨S100x100x100, .f32⟩ : BufTy).Contents (Elt F) → (⟨S100x100x100, .f32⟩ : BufTy).Contents (Elt F) → (⟨S100x100x100, .f32⟩ : BufTy).Contents (Elt F)) ((subf : (⟨S100x100x100, .f32⟩ : BufTy).Contents (Elt F) → (⟨S100x100x100, .f32⟩ : BufTy).Contents (Elt F) → (⟨S100x100x100, .f32⟩ : BufTy).Contents (Elt F)) ((broadcastInDim S100x100x100 ![0, 1, 2] bcast_S100x100x1_S100x100x100_0_1_2 : (⟨S100x100x1, .f32⟩ : BufTy).Contents (Elt F) → (⟨S100x100x100, .f32⟩ : BufTy).Contents (Elt F)) col) ((subf : (⟨S100x100x100, .f32⟩ : BufTy).Contents (Elt F) → (⟨S100x100x100, .f32⟩ : BufTy).Contents (Elt F) → (⟨S100x100x100, .f32⟩ : BufTy).Contents (Elt F)) s t)) ((subf : (⟨S100x100x100, .f32⟩ : BufTy).Contents (Elt F) → (⟨S100x100x100, .f32⟩ : BufTy).Contents (Elt F) → (⟨S100x100x100, .f32⟩ : BufTy).Contents (Elt F)) ((broadcastInDim S100x100x100 ![0, 1, 2] bcast_S100x1x100_S100x100x100_0_1_2 : (⟨S100x1x100, .f32⟩ : BufTy).Contents (Elt F) → (⟨S100x100x100, .f32⟩ : BufTy).Contents (Elt F)) nrow) t))

/-- The absolute difference `|s|`. -/
def lonDiffAbs (s : (⟨S100x100x100, .f32⟩ : BufTy).Contents (Elt F)) :
    (⟨S100x100x100, .f32⟩ : BufTy).Contents (Elt F) :=
  ((Host.absf : (⟨S100x100x100, .f32⟩ : BufTy).Contents (Elt F) → (⟨S100x100x100, .f32⟩ : BufTy).Contents (Elt F)) s)

/-- The error signed like the difference: `−e` where `s < 0`, else `e`. -/
def lonDiffLo (s : (⟨S100x100x100, .f32⟩ : BufTy).Contents (Elt F)) (e : (⟨S100x100x100, .f32⟩ : BufTy).Contents (Elt F)) :
    (⟨S100x100x100, .f32⟩ : BufTy).Contents (Elt F) :=
  ((select : (⟨S100x100x100, .i1⟩ : BufTy).Contents (Elt F) → (⟨S100x100x100, .f32⟩ : BufTy).Contents (Elt F) → (⟨S100x100x100, .f32⟩ : BufTy).Contents (Elt F) → (⟨S100x100x100, .f32⟩ : BufTy).Contents (Elt F)) ((cmpf .olt : (⟨S100x100x100, .f32⟩ : BufTy).Contents (Elt F) → (⟨S100x100x100, .f32⟩ : BufTy).Contents (Elt F) → (⟨S100x100x100, .i1⟩ : BufTy).Contents (Elt F)) s ((broadcastInDim S100x100x100 ![] bcast_S_S100x100x100 : (⟨S_, .f32⟩ : BufTy).Contents (Elt F) → (⟨S100x100x100, .f32⟩ : BufTy).Contents (Elt F)) (constant S_ .f32 0x00000000#32 : (⟨S_, .f32⟩ : BufTy).Contents (Elt F)))) ((Host.negf : (⟨S100x100x100, .f32⟩ : BufTy).Contents (Elt F) → (⟨S100x100x100, .f32⟩ : BufTy).Contents (Elt F)) e) e)

/-- Which pairs are within the threshold around the circle: `|s| < 10`, or `|s| = 10` with the error below zero, or `|s| > 350`, or `|s| = 350` with the error above zero. -/
def nearMask (hi : (⟨S100x100x100, .f32⟩ : BufTy).Contents (Elt F)) (lo : (⟨S100x100x100, .f32⟩ : BufTy).Contents (Elt F)) :
    (⟨S100x100x100, .i1⟩ : BufTy).Contents (Elt F) :=
  ((ori : (⟨S100x100x100, .i1⟩ : BufTy).Contents (Elt F) → (⟨S100x100x100, .i1⟩ : BufTy).Contents (Elt F) → (⟨S100x100x100, .i1⟩ : BufTy).Contents (Elt F)) ((ori : (⟨S100x100x100, .i1⟩ : BufTy).Contents (Elt F) → (⟨S100x100x100, .i1⟩ : BufTy).Contents (Elt F) → (⟨S100x100x100, .i1⟩ : BufTy).Contents (Elt F)) ((ori : (⟨S100x100x100, .i1⟩ : BufTy).Contents (Elt F) → (⟨S100x100x100, .i1⟩ : BufTy).Contents (Elt F) → (⟨S100x100x100, .i1⟩ : BufTy).Contents (Elt F)) ((cmpf .olt : (⟨S100x100x100, .f32⟩ : BufTy).Contents (Elt F) → (⟨S100x100x100, .f32⟩ : BufTy).Contents (Elt F) → (⟨S100x100x100, .i1⟩ : BufTy).Contents (Elt F)) hi ((broadcastInDim S100x100x100 ![] bcast_S_S100x100x100 : (⟨S_, .f32⟩ : BufTy).Contents (Elt F) → (⟨S100x100x100, .f32⟩ : BufTy).Contents (Elt F)) (constant S_ .f32 0x41200000#32 : (⟨S_, .f32⟩ : BufTy).Contents (Elt F)))) ((andi : (⟨S100x100x100, .i1⟩ : BufTy).Contents (Elt F) → (⟨S100x100x100, .i1⟩ : BufTy).Contents (Elt F) → (⟨S100x100x100, .i1⟩ : BufTy).Contents (Elt F)) ((cmpf .oeq : (⟨S100x100x100, .f32⟩ : BufTy).Contents (Elt F) → (⟨S100x100x100, .f32⟩ : BufTy).Contents (Elt F) → (⟨S100x100x100, .i1⟩ : BufTy).Contents (Elt F)) hi ((broadcastInDim S100x100x100 ![] bcast_S_S100x100x100 : (⟨S_, .f32⟩ : BufTy).Contents (Elt F) → (⟨S100x100x100, .f32⟩ : BufTy).Contents (Elt F)) (constant S_ .f32 0x41200000#32 : (⟨S_, .f32⟩ : BufTy).Contents (Elt F)))) ((cmpf .olt : (⟨S100x100x100, .f32⟩ : BufTy).Contents (Elt F) → (⟨S100x100x100, .f32⟩ : BufTy).Contents (Elt F) → (⟨S100x100x100, .i1⟩ : BufTy).Contents (Elt F)) lo ((broadcastInDim S100x100x100 ![] bcast_S_S100x100x100 : (⟨S_, .f32⟩ : BufTy).Contents (Elt F) → (⟨S100x100x100, .f32⟩ : BufTy).Contents (Elt F)) (constant S_ .f32 0x00000000#32 : (⟨S_, .f32⟩ : BufTy).Contents (Elt F)))))) ((cmpf .ogt : (⟨S100x100x100, .f32⟩ : BufTy).Contents (Elt F) → (⟨S100x100x100, .f32⟩ : BufTy).Contents (Elt F) → (⟨S100x100x100, .i1⟩ : BufTy).Contents (Elt F)) hi ((broadcastInDim S100x100x100 ![] bcast_S_S100x100x100 : (⟨S_, .f32⟩ : BufTy).Contents (Elt F) → (⟨S100x100x100, .f32⟩ : BufTy).Contents (Elt F)) (constant S_ .f32 0x43AF0000#32 : (⟨S_, .f32⟩ : BufTy).Contents (Elt F))))) ((andi : (⟨S100x100x100, .i1⟩ : BufTy).Contents (Elt F) → (⟨S100x100x100, .i1⟩ : BufTy).Contents (Elt F) → (⟨S100x100x100, .i1⟩ : BufTy).Contents (Elt F)) ((cmpf .oeq : (⟨S100x100x100, .f32⟩ : BufTy).Contents (Elt F) → (⟨S100x100x100, .f32⟩ : BufTy).Contents (Elt F) → (⟨S100x100x100, .i1⟩ : BufTy).Contents (Elt F)) hi ((broadcastInDim S100x100x100 ![] bcast_S_S100x100x100 : (⟨S_, .f32⟩ : BufTy).Contents (Elt F) → (⟨S100x100x100, .f32⟩ : BufTy).Contents (Elt F)) (constant S_ .f32 0x43AF0000#32 : (⟨S_, .f32⟩ : BufTy).Contents (Elt F)))) ((cmpf .ogt : (⟨S100x100x100, .f32⟩ : BufTy).Contents (Elt F) → (⟨S100x100x100, .f32⟩ : BufTy).Contents (Elt F) → (⟨S100x100x100, .i1⟩ : BufTy).Contents (Elt F)) lo ((broadcastInDim S100x100x100 ![] bcast_S_S100x100x100 : (⟨S_, .f32⟩ : BufTy).Contents (Elt F) → (⟨S100x100x100, .f32⟩ : BufTy).Contents (Elt F)) (constant S_ .f32 0x00000000#32 : (⟨S_, .f32⟩ : BufTy).Contents (Elt F))))))

/-- Which pairs are of two distinct nodes, the same for every graph. -/
def offDiag :
    (⟨S100x100x100, .i1⟩ : BufTy).Contents (Elt F) :=
  ((broadcastInDim S100x100x100 ![0, 1, 2] bcast_S1x100x100_S100x100x100_0_1_2 : (⟨S1x100x100, .i1⟩ : BufTy).Contents (Elt F) → (⟨S100x100x100, .i1⟩ : BufTy).Contents (Elt F)) ((noti : (⟨S1x100x100, .i1⟩ : BufTy).Contents (Elt F) → (⟨S1x100x100, .i1⟩ : BufTy).Contents (Elt F)) ((broadcastInDim S1x100x100 ![1, 2] bcast_S100x100_S1x100x100_1_2 : (⟨S100x100, .i1⟩ : BufTy).Contents (Elt F) → (⟨S1x100x100, .i1⟩ : BufTy).Contents (Elt F)) ((cmpi .eq : (⟨S100x100, .i32⟩ : BufTy).Contents (Elt F) → (⟨S100x100, .i32⟩ : BufTy).Contents (Elt F) → (⟨S100x100, .i1⟩ : BufTy).Contents (Elt F)) ((addi : (⟨S100x100, .i32⟩ : BufTy).Contents (Elt F) → (⟨S100x100, .i32⟩ : BufTy).Contents (Elt F) → (⟨S100x100, .i32⟩ : BufTy).Contents (Elt F)) (iotaInDim S100x100 32 0 : (⟨S100x100, .i32⟩ : BufTy).Contents (Elt F)) ((broadcastInDim S100x100 ![] bcast_S_S100x100 : (⟨S_, .i32⟩ : BufTy).Contents (Elt F) → (⟨S100x100, .i32⟩ : BufTy).Contents (Elt F)) (constantI S_ 32 0#32 : (⟨S_, .i32⟩ : BufTy).Contents (Elt F)))) (iotaInDim S100x100 32 1 : (⟨S100x100, .i32⟩ : BufTy).Contents (Elt F))))))

/-- Which pairs are edges: near and distinct. -/
def edgeMask (near : (⟨S100x100x100, .i1⟩ : BufTy).Contents (Elt F)) (off : (⟨S100x100x100, .i1⟩ : BufTy).Contents (Elt F)) :
    (⟨S100x100x100, .i1⟩ : BufTy).Contents (Elt F) :=
  ((andi : (⟨S100x100x100, .i1⟩ : BufTy).Contents (Elt F) → (⟨S100x100x100, .i1⟩ : BufTy).Contents (Elt F) → (⟨S100x100x100, .i1⟩ : BufTy).Contents (Elt F)) near off)

/-- Every candidate edge's source node number (graph × 100 + row), then every node once for its self loop. -/
def srcIdx :
    (⟨S1010000, .i32⟩ : BufTy).Contents (Elt F) :=
  (((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)) (shapeCast S1000000 (((broadcastInDim S100x100x100 ![0, 1, 2] bcast_S100x100x1_S100x100x100_0_1_2 : (⟨S100x100x1, .i32⟩ : BufTy).Contents (Elt F) → (⟨S100x100x100, .i32⟩ : BufTy).Contents (Elt F)) ((addi : (⟨S100x100x1, .i32⟩ : BufTy).Contents (Elt F) → (⟨S100x100x1, .i32⟩ : BufTy).Contents (Elt F) → (⟨S100x100x1, .i32⟩ : BufTy).Contents (Elt F)) ((broadcastInDim S100x100x1 ![0, 1, 2] bcast_S100x1x1_S100x100x1_0_1_2 : (⟨S100x1x1, .i32⟩ : BufTy).Contents (Elt F) → (⟨S100x100x1, .i32⟩ : BufTy).Contents (Elt F)) ((muli : (⟨S100x1x1, .i32⟩ : BufTy).Contents (Elt F) → (⟨S100x1x1, .i32⟩ : BufTy).Contents (Elt F) → (⟨S100x1x1, .i32⟩ : BufTy).Contents (Elt F)) ((broadcastInDim S100x1x1 ![0] bcast_S100_S100x1x1_0 : (⟨S100, .i32⟩ : BufTy).Contents (Elt F) → (⟨S100x1x1, .i32⟩ : BufTy).Contents (Elt F)) (iotaInDim S100 32 0 : (⟨S100, .i32⟩ : BufTy).Contents (Elt F))) ((broadcastInDim S100x1x1 ![] bcast_S_S100x1x1 : (⟨S_, .i32⟩ : BufTy).Contents (Elt F) → (⟨S100x1x1, .i32⟩ : BufTy).Contents (Elt F)) (constantI S_ 32 100#32 : (⟨S_, .i32⟩ : BufTy).Contents (Elt F))))) ((broadcastInDim S100x100x1 ![0, 1, 2] bcast_S1x100x1_S100x100x1_0_1_2 : (⟨S1x100x1, .i32⟩ : BufTy).Contents (Elt F) → (⟨S100x100x1, .i32⟩ : BufTy).Contents (Elt F)) ((broadcastInDim S1x100x1 ![1] bcast_S100_S1x100x1_1 : (⟨S100, .i32⟩ : BufTy).Contents (Elt F) → (⟨S1x100x1, .i32⟩ : BufTy).Contents (Elt F)) (iotaInDim S100 32 0 : (⟨S100, .i32⟩ : BufTy).Contents (Elt F)))))) : (⟨S100x100x100, .i32⟩ : BufTy).Contents (Elt F)) shapeCasts_S100x100x100_S1000000) (iotaInDim S10000 32 0 : (⟨S10000, .i32⟩ : BufTy).Contents (Elt F)))

/-- Every candidate edge's target node number (graph × 100 + column) where the pair is an edge and the out-of-range number 10000 where it is not, then every node once for its self loop. -/
def dstIdx (mask : (⟨S100x100x100, .i1⟩ : BufTy).Contents (Elt F)) :
    (⟨S1010000, .i32⟩ : BufTy).Contents (Elt F) :=
  (((fun a b => concatenate S1010000 0 [⟨S1000000, a⟩, ⟨S10000, b⟩] concatenates_S1000000_S10000_S1010000_d0) : (⟨S1000000, .i32⟩ : BufTy).Contents (Elt F) → (⟨S10000, .i32⟩ : BufTy).Contents (Elt F) → (⟨S1010000, .i32⟩ : BufTy).Contents (Elt F)) (shapeCast S1000000 (((select : (⟨S100x100x100, .i1⟩ : BufTy).Contents (Elt F) → (⟨S100x100x100, .i32⟩ : BufTy).Contents (Elt F) → (⟨S100x100x100, .i32⟩ : BufTy).Contents (Elt F) → (⟨S100x100x100, .i32⟩ : BufTy).Contents (Elt F)) mask ((broadcastInDim S100x100x100 ![0, 1, 2] bcast_S100x1x100_S100x100x100_0_1_2 : (⟨S100x1x100, .i32⟩ : BufTy).Contents (Elt F) → (⟨S100x100x100, .i32⟩ : BufTy).Contents (Elt F)) ((addi : (⟨S100x1x100, .i32⟩ : BufTy).Contents (Elt F) → (⟨S100x1x100, .i32⟩ : BufTy).Contents (Elt F) → (⟨S100x1x100, .i32⟩ : BufTy).Contents (Elt F)) ((broadcastInDim S100x1x100 ![0, 1, 2] bcast_S100x1x1_S100x1x100_0_1_2 : (⟨S100x1x1, .i32⟩ : BufTy).Contents (Elt F) → (⟨S100x1x100, .i32⟩ : BufTy).Contents (Elt F)) ((muli : (⟨S100x1x1, .i32⟩ : BufTy).Contents (Elt F) → (⟨S100x1x1, .i32⟩ : BufTy).Contents (Elt F) → (⟨S100x1x1, .i32⟩ : BufTy).Contents (Elt F)) ((broadcastInDim S100x1x1 ![0] bcast_S100_S100x1x1_0 : (⟨S100, .i32⟩ : BufTy).Contents (Elt F) → (⟨S100x1x1, .i32⟩ : BufTy).Contents (Elt F)) (iotaInDim S100 32 0 : (⟨S100, .i32⟩ : BufTy).Contents (Elt F))) ((broadcastInDim S100x1x1 ![] bcast_S_S100x1x1 : (⟨S_, .i32⟩ : BufTy).Contents (Elt F) → (⟨S100x1x1, .i32⟩ : BufTy).Contents (Elt F)) (constantI S_ 32 100#32 : (⟨S_, .i32⟩ : BufTy).Contents (Elt F))))) ((broadcastInDim S100x1x100 ![0, 1, 2] bcast_S1x1x100_S100x1x100_0_1_2 : (⟨S1x1x100, .i32⟩ : BufTy).Contents (Elt F) → (⟨S100x1x100, .i32⟩ : BufTy).Contents (Elt F)) ((broadcastInDim S1x1x100 ![2] bcast_S100_S1x1x100_2 : (⟨S100, .i32⟩ : BufTy).Contents (Elt F) → (⟨S1x1x100, .i32⟩ : BufTy).Contents (Elt F)) (iotaInDim S100 32 0 : (⟨S100, .i32⟩ : BufTy).Contents (Elt F)))))) ((broadcastInDim S100x100x100 ![] bcast_S_S100x100x100 : (⟨S_, .i32⟩ : BufTy).Contents (Elt F) → (⟨S100x100x100, .i32⟩ : BufTy).Contents (Elt F)) (constantI S_ 32 10000#32 : (⟨S_, .i32⟩ : BufTy).Contents (Elt F)))) : (⟨S100x100x100, .i32⟩ : BufTy).Contents (Elt F)) shapeCasts_S100x100x100_S1000000) (iotaInDim S10000 32 0 : (⟨S10000, .i32⟩ : BufTy).Contents (Elt F)))

/-- One over the square root of every node's in-degree with its self loop (a count by scatter-add of ones; the extra last slot collects the non-edges). -/
def degInvSqrt (dst : (⟨S1010000, .i32⟩ : BufTy).Contents (Elt F)) :
    (⟨S10001, .f32⟩ : BufTy).Contents (Elt F) :=
  ((Host.divf : (⟨S10001, .f32⟩ : BufTy).Contents (Elt F) → (⟨S10001, .f32⟩ : BufTy).Contents (Elt F) → (⟨S10001, .f32⟩ : BufTy).Contents (Elt F)) ((broadcastInDim S10001 ![] bcast_S_S10001 : (⟨S_, .f32⟩ : BufTy).Contents (Elt F) → (⟨S10001, .f32⟩ : BufTy).Contents (Elt F)) (constant S_ .f32 0x3F800000#32 : (⟨S_, .f32⟩ : BufTy).Contents (Elt F))) ((Host.sqrt : (⟨S10001, .f32⟩ : BufTy).Contents (Elt F) → (⟨S10001, .f32⟩ : BufTy).Contents (Elt F)) (((fun x i u => Host.scatterAdd scatter_S10001_S1010000x1_S1010000_n_0_0_1 x i u) : (⟨S10001, .f32⟩ : BufTy).Contents (Elt F) → (⟨S1010000x1, .i32⟩ : BufTy).Contents (Elt F) → (⟨S1010000, .f32⟩ : BufTy).Contents (Elt F) → (⟨S10001, .f32⟩ : BufTy).Contents (Elt F)) ((broadcastInDim S10001 ![] bcast_S_S10001 : (⟨S_, .f32⟩ : BufTy).Contents (Elt F) → (⟨S10001, .f32⟩ : BufTy).Contents (Elt F)) (constant S_ .f32 0x00000000#32 : (⟨S_, .f32⟩ : BufTy).Contents (Elt F))) ((broadcastInDim S1010000x1 ![0] bcast_S1010000_S1010000x1_0 : (⟨S1010000, .i32⟩ : BufTy).Contents (Elt F) → (⟨S1010000x1, .i32⟩ : BufTy).Contents (Elt F)) dst) ((broadcastInDim S1010000 ![] bcast_S_S1010000 : (⟨S_, .f32⟩ : BufTy).Contents (Elt F) → (⟨S1010000, .f32⟩ : BufTy).Contents (Elt F)) (constant S_ .f32 0x3F800000#32 : (⟨S_, .f32⟩ : BufTy).Contents (Elt F))))))

/-- The input layer: the nodes' features, flattened over graphs, times a matrix plus a bias row. -/
def embed (feat : (⟨S100x100x128, .f32⟩ : BufTy).Contents (Elt F)) (W : (⟨S128x128, .f32⟩ : BufTy).Contents (Elt F)) (bias : (⟨S128, .f32⟩ : BufTy).Contents (Elt F)) :
    (⟨S10000x128, .f32⟩ : BufTy).Contents (Elt F) :=
  ((addf : (⟨S10000x128, .f32⟩ : BufTy).Contents (Elt F) → (⟨S10000x128, .f32⟩ : BufTy).Contents (Elt F) → (⟨S10000x128, .f32⟩ : BufTy).Contents (Elt F)) (((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) (shapeCast S10000x128 (feat : (⟨S100x100x128, .f32⟩ : BufTy).Contents (Elt F)) shapeCasts_S100x100x128_S10000x128) W) ((broadcastInDim S10000x128 ![0, 1] bcast_S1x128_S10000x128_0_1 : (⟨S1x128, .f32⟩ : BufTy).Contents (Elt F) → (⟨S10000x128, .f32⟩ : BufTy).Contents (Elt F)) ((broadcastInDim S1x128 ![1] bcast_S128_S1x128_1 : (⟨S128, .f32⟩ : BufTy).Contents (Elt F) → (⟨S1x128, .f32⟩ : BufTy).Contents (Elt F)) bias)))

/-- Every candidate edge's weight: the product of its two ends' inverse square-root degrees (each end read by a gather, a negative number wrapped first). -/
def edgeNorm (dis : (⟨S10001, .f32⟩ : BufTy).Contents (Elt F)) (src : (⟨S1010000, .i32⟩ : BufTy).Contents (Elt F)) (dst : (⟨S1010000, .i32⟩ : BufTy).Contents (Elt F)) :
    (⟨S1010000, .f32⟩ : BufTy).Contents (Elt F) :=
  ((mulf : (⟨S1010000, .f32⟩ : BufTy).Contents (Elt F) → (⟨S1010000, .f32⟩ : BufTy).Contents (Elt F) → (⟨S1010000, .f32⟩ : BufTy).Contents (Elt F)) (((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) dis ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) src ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) src ((broadcastInDim S1010000 ![] bcast_S_S1010000 : (⟨S_, .i32⟩ : BufTy).Contents (Elt F) → (⟨S1010000, .i32⟩ : BufTy).Contents (Elt F)) (constantI S_ 32 10001#32 : (⟨S_, .i32⟩ : BufTy).Contents (Elt F)))) src))) (((fun x i => Host.gather gather_S10001_S1010000x1_S1010000_n_0_n_n_0_1_1 x i) : (⟨S10001, .f32⟩ : BufTy).Contents (Elt F) → (⟨S1010000x1, .i32⟩ : BufTy).Contents (Elt F) → (⟨S1010000, .f32⟩ : BufTy).Contents (Elt F)) dis ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) dst ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) dst ((broadcastInDim S1010000 ![] bcast_S_S1010000 : (⟨S_, .i32⟩ : BufTy).Contents (Elt F) → (⟨S1010000, .i32⟩ : BufTy).Contents (Elt F)) (constantI S_ 32 10001#32 : (⟨S_, .i32⟩ : BufTy).Contents (Elt F)))) dst))))

/-- One graph-convolution layer: the features times a matrix, each candidate edge's source row gathered (out-of-range rows filled) and scaled by the edge's weight, summed into the target rows by scatter-add, the extra last row dropped, a bias row added, negative entries zeroed. -/
def gcnLayer (dst : (⟨S1010000, .i32⟩ : BufTy).Contents (Elt F)) (src : (⟨S1010000, .i32⟩ : BufTy).Contents (Elt F)) (h : (⟨S10000x128, .f32⟩ : BufTy).Contents (Elt F)) (W : (⟨S128x128, .f32⟩ : BufTy).Contents (Elt F)) (nrm : (⟨S1010000, .f32⟩ : BufTy).Contents (Elt F)) (bias : (⟨S128, .f32⟩ : BufTy).Contents (Elt F)) :
    (⟨S10000x128, .f32⟩ : BufTy).Contents (Elt F) :=
  ((maximumf : (⟨S10000x128, .f32⟩ : BufTy).Contents (Elt F) → (⟨S10000x128, .f32⟩ : BufTy).Contents (Elt F) → (⟨S10000x128, .f32⟩ : BufTy).Contents (Elt F)) ((addf : (⟨S10000x128, .f32⟩ : BufTy).Contents (Elt F) → (⟨S10000x128, .f32⟩ : BufTy).Contents (Elt F) → (⟨S10000x128, .f32⟩ : BufTy).Contents (Elt F)) (((extractStridedSlice S10000x128 ![0, 0] · slices_S10001x128_S10000x128_0_0) : (⟨S10001x128, .f32⟩ : BufTy).Contents (Elt F) → (⟨S10000x128, .f32⟩ : BufTy).Contents (Elt F)) (((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)) ((broadcastInDim S10001x128 ![] bcast_S_S10001x128 : (⟨S_, .f32⟩ : BufTy).Contents (Elt F) → (⟨S10001x128, .f32⟩ : BufTy).Contents (Elt F)) (constant S_ .f32 0x00000000#32 : (⟨S_, .f32⟩ : BufTy).Contents (Elt F))) ((broadcastInDim S1010000x1 ![0] bcast_S1010000_S1010000x1_0 : (⟨S1010000, .i32⟩ : BufTy).Contents (Elt F) → (⟨S1010000x1, .i32⟩ : BufTy).Contents (Elt F)) dst) ((mulf : (⟨S1010000x128, .f32⟩ : BufTy).Contents (Elt F) → (⟨S1010000x128, .f32⟩ : BufTy).Contents (Elt F) → (⟨S1010000x128, .f32⟩ : BufTy).Contents (Elt F)) ((select : (⟨S1010000x128, .i1⟩ : BufTy).Contents (Elt F) → (⟨S1010000x128, .f32⟩ : BufTy).Contents (Elt F) → (⟨S1010000x128, .f32⟩ : BufTy).Contents (Elt F) → (⟨S1010000x128, .f32⟩ : BufTy).Contents (Elt F)) ((broadcastInDim S1010000x128 ![0] bcast_S1010000_S1010000x128_0 : (⟨S1010000, .i1⟩ : BufTy).Contents (Elt F) → (⟨S1010000x128, .i1⟩ : BufTy).Contents (Elt F)) (((fun x v => Host.reduce IntOp.andi x v reducesTo_S1010000x1_S1010000_d1 h_S_) : (⟨S1010000x1, .i1⟩ : BufTy).Contents (Elt F) → (⟨S_, .i1⟩ : BufTy).Contents (Elt F) → (⟨S1010000, .i1⟩ : BufTy).Contents (Elt F)) ((andi : (⟨S1010000x1, .i1⟩ : BufTy).Contents (Elt F) → (⟨S1010000x1, .i1⟩ : BufTy).Contents (Elt F) → (⟨S1010000x1, .i1⟩ : BufTy).Contents (Elt F)) ((cmpi .sge : (⟨S1010000x1, .i32⟩ : BufTy).Contents (Elt F) → (⟨S1010000x1, .i32⟩ : BufTy).Contents (Elt F) → (⟨S1010000x1, .i1⟩ : BufTy).Contents (Elt F)) ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) src ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) src ((broadcastInDim S1010000 ![] bcast_S_S1010000 : (⟨S_, .i32⟩ : BufTy).Contents (Elt F) → (⟨S1010000, .i32⟩ : BufTy).Contents (Elt F)) (constantI S_ 32 10000#32 : (⟨S_, .i32⟩ : BufTy).Contents (Elt F)))) src)) ((broadcastInDim S1010000x1 ![] bcast_S_S1010000x1 : (⟨S_, .i32⟩ : BufTy).Contents (Elt F) → (⟨S1010000x1, .i32⟩ : BufTy).Contents (Elt F)) (constantI S_ 32 0#32 : (⟨S_, .i32⟩ : BufTy).Contents (Elt F)))) ((cmpi .sle : (⟨S1010000x1, .i32⟩ : BufTy).Contents (Elt F) → (⟨S1010000x1, .i32⟩ : BufTy).Contents (Elt F) → (⟨S1010000x1, .i1⟩ : BufTy).Contents (Elt F)) ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) src ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) src ((broadcastInDim S1010000 ![] bcast_S_S1010000 : (⟨S_, .i32⟩ : BufTy).Contents (Elt F) → (⟨S1010000, .i32⟩ : BufTy).Contents (Elt F)) (constantI S_ 32 10000#32 : (⟨S_, .i32⟩ : BufTy).Contents (Elt F)))) src)) ((broadcastInDim S1010000x1 ![0, 1] bcast_S1x1_S1010000x1_0_1 : (⟨S1x1, .i32⟩ : BufTy).Contents (Elt F) → (⟨S1010000x1, .i32⟩ : BufTy).Contents (Elt F)) ((broadcastInDim S1x1 ![1] bcast_S1_S1x1_1 : (⟨S1, .i32⟩ : BufTy).Contents (Elt F) → (⟨S1x1, .i32⟩ : BufTy).Contents (Elt F)) (constantI S1 32 9999#32 : (⟨S1, .i32⟩ : BufTy).Contents (Elt F)))))) (constantI S_ 1 1#1 : (⟨S_, .i1⟩ : BufTy).Contents (Elt F)))) (((fun x i => Host.gather gather_S10000x128_S1010000x1_S1010000x128_1_0_n_n_0_1_1128 x i) : (⟨S10000x128, .f32⟩ : BufTy).Contents (Elt F) → (⟨S1010000x1, .i32⟩ : BufTy).Contents (Elt F) → (⟨S1010000x128, .f32⟩ : BufTy).Contents (Elt F)) (((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) h W) ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) src ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) src ((broadcastInDim S1010000 ![] bcast_S_S1010000 : (⟨S_, .i32⟩ : BufTy).Contents (Elt F) → (⟨S1010000, .i32⟩ : BufTy).Contents (Elt F)) (constantI S_ 32 10000#32 : (⟨S_, .i32⟩ : BufTy).Contents (Elt F)))) src))) ((broadcastInDim S1010000x128 ![] bcast_S_S1010000x128 : (⟨S_, .f32⟩ : BufTy).Contents (Elt F) → (⟨S1010000x128, .f32⟩ : BufTy).Contents (Elt F)) (constant S_ .f32 0x7FC00000#32 : (⟨S_, .f32⟩ : BufTy).Contents (Elt F)))) ((broadcastInDim S1010000x128 ![0, 1] bcast_S1010000x1_S1010000x128_0_1 : (⟨S1010000x1, .f32⟩ : BufTy).Contents (Elt F) → (⟨S1010000x128, .f32⟩ : BufTy).Contents (Elt F)) ((broadcastInDim S1010000x1 ![0] bcast_S1010000_S1010000x1_0 : (⟨S1010000, .f32⟩ : BufTy).Contents (Elt F) → (⟨S1010000x1, .f32⟩ : BufTy).Contents (Elt F)) nrm))))) ((broadcastInDim S10000x128 ![0, 1] bcast_S1x128_S10000x128_0_1 : (⟨S1x128, .f32⟩ : BufTy).Contents (Elt F) → (⟨S10000x128, .f32⟩ : BufTy).Contents (Elt F)) ((broadcastInDim S1x128 ![1] bcast_S128_S1x128_1 : (⟨S128, .f32⟩ : BufTy).Contents (Elt F) → (⟨S1x128, .f32⟩ : BufTy).Contents (Elt F)) bias))) ((broadcastInDim S10000x128 ![] bcast_S_S10000x128 : (⟨S_, .f32⟩ : BufTy).Contents (Elt F) → (⟨S10000x128, .f32⟩ : BufTy).Contents (Elt F)) (constant S_ .f32 0x00000000#32 : (⟨S_, .f32⟩ : BufTy).Contents (Elt F))))

/-- The readout: the mean of a graph's node features over its hundred nodes, a dense layer with negative entries zeroed, and a dense layer to one number per graph. -/
def readout (h : (⟨S10000x128, .f32⟩ : BufTy).Contents (Elt F)) (W1 : (⟨S128x64, .f32⟩ : BufTy).Contents (Elt F)) (bias1 : (⟨S64, .f32⟩ : BufTy).Contents (Elt F)) (W2 : (⟨S64x1, .f32⟩ : BufTy).Contents (Elt F)) (bias2 : (⟨S1, .f32⟩ : BufTy).Contents (Elt F)) :
    (⟨S100x1, .f32⟩ : BufTy).Contents (Elt F) :=
  ((addf : (⟨S100x1, .f32⟩ : BufTy).Contents (Elt F) → (⟨S100x1, .f32⟩ : BufTy).Contents (Elt F) → (⟨S100x1, .f32⟩ : BufTy).Contents (Elt F)) (((fun l r => Host.dotGeneral dot_S100x64_S64x1_S100x1_1_0_0_1_n_n none l r) : (⟨S100x64, .f32⟩ : BufTy).Contents (Elt F) → (⟨S64x1, .f32⟩ : BufTy).Contents (Elt F) → (⟨S100x1, .f32⟩ : BufTy).Contents (Elt F)) ((maximumf : (⟨S100x64, .f32⟩ : BufTy).Contents (Elt F) → (⟨S100x64, .f32⟩ : BufTy).Contents (Elt F) → (⟨S100x64, .f32⟩ : BufTy).Contents (Elt F)) ((addf : (⟨S100x64, .f32⟩ : BufTy).Contents (Elt F) → (⟨S100x64, .f32⟩ : BufTy).Contents (Elt F) → (⟨S100x64, .f32⟩ : BufTy).Contents (Elt F)) (((fun l r => Host.dotGeneral dot_S100x128_S128x64_S100x64_1_0_0_1_n_n none l r) : (⟨S100x128, .f32⟩ : BufTy).Contents (Elt F) → (⟨S128x64, .f32⟩ : BufTy).Contents (Elt F) → (⟨S100x64, .f32⟩ : BufTy).Contents (Elt F)) ((Host.divf : (⟨S100x128, .f32⟩ : BufTy).Contents (Elt F) → (⟨S100x128, .f32⟩ : BufTy).Contents (Elt F) → (⟨S100x128, .f32⟩ : BufTy).Contents (Elt F)) (((fun x v => Host.reduceAdd x v reducesTo_S100x100x128_S100x128_d1 h_S_) : (⟨S100x100x128, .f32⟩ : BufTy).Contents (Elt F) → (⟨S_, .f32⟩ : BufTy).Contents (Elt F) → (⟨S100x128, .f32⟩ : BufTy).Contents (Elt F)) (shapeCast S100x100x128 (h : (⟨S10000x128, .f32⟩ : BufTy).Contents (Elt F)) shapeCasts_S10000x128_S100x100x128) (constant S_ .f32 0x00000000#32 : (⟨S_, .f32⟩ : BufTy).Contents (Elt F))) ((broadcastInDim S100x128 ![] bcast_S_S100x128 : (⟨S_, .f32⟩ : BufTy).Contents (Elt F) → (⟨S100x128, .f32⟩ : BufTy).Contents (Elt F)) (constant S_ .f32 0x42C80000#32 : (⟨S_, .f32⟩ : BufTy).Contents (Elt F)))) W1) ((broadcastInDim S100x64 ![0, 1] bcast_S1x64_S100x64_0_1 : (⟨S1x64, .f32⟩ : BufTy).Contents (Elt F) → (⟨S100x64, .f32⟩ : BufTy).Contents (Elt F)) ((broadcastInDim S1x64 ![1] bcast_S64_S1x64_1 : (⟨S64, .f32⟩ : BufTy).Contents (Elt F) → (⟨S1x64, .f32⟩ : BufTy).Contents (Elt F)) bias1))) ((broadcastInDim S100x64 ![] bcast_S_S100x64 : (⟨S_, .f32⟩ : BufTy).Contents (Elt F) → (⟨S100x64, .f32⟩ : BufTy).Contents (Elt F)) (constant S_ .f32 0x00000000#32 : (⟨S_, .f32⟩ : BufTy).Contents (Elt F)))) W2) ((broadcastInDim S100x1 ![0, 1] bcast_S1x1_S100x1_0_1 : (⟨S1x1, .f32⟩ : BufTy).Contents (Elt F) → (⟨S100x1, .f32⟩ : BufTy).Contents (Elt F)) ((broadcastInDim S1x1 ![1] bcast_S1_S1x1_1 : (⟨S1, .f32⟩ : BufTy).Contents (Elt F) → (⟨S1x1, .f32⟩ : BufTy).Contents (Elt F)) bias2)))

theorem stage_main_v1 (V : Valuation τ sig (Elt F)) :
    fin V (Proc.devRef .tc main_v1) = lon (fin V (Proc.devRef .tc main_arg0)) := by
  rw [fin_main_v1 V, fin_main_v0 V]
  rfl

theorem stage_main_v2 (V : Valuation τ sig (Elt F)) :
    fin V (Proc.devRef .tc main_v2) = lonCol (fin V (Proc.devRef .tc main_v1)) := by
  rw [fin_main_v2 V]
  rfl

theorem stage_main_v4 (V : Valuation τ sig (Elt F)) :
    fin V (Proc.devRef .tc main_v4) = negLonRow (fin V (Proc.devRef .tc main_v1)) := by
  rw [fin_main_v4 V, fin_main_v3 V]
  rfl

theorem stage_main_v7 (V : Valuation τ sig (Elt F)) :
    fin V (Proc.devRef .tc main_v7) = lonDiff (fin V (Proc.devRef .tc main_v2)) (fin V (Proc.devRef .tc main_v4)) := by
  rw [fin_main_v7 V, fin_main_v6 V, fin_main_v5 V]
  rfl

theorem stage_main_v9 (V : Valuation τ sig (Elt F)) :
    fin V (Proc.devRef .tc main_v9) = lonDiffT (fin V (Proc.devRef .tc main_v7)) (fin V (Proc.devRef .tc main_v2)) := by
  rw [fin_main_v9 V, fin_main_v8 V]
  rfl

theorem stage_main_v15 (V : Valuation τ sig (Elt F)) :
    fin V (Proc.devRef .tc main_v15) = lonDiffErr (fin V (Proc.devRef .tc main_v2)) (fin V (Proc.devRef .tc main_v7)) (fin V (Proc.devRef .tc main_v9)) (fin V (Proc.devRef .tc main_v4)) := by
  rw [fin_main_v15 V, fin_main_v14 V, fin_main_v13 V, fin_main_v12 V, fin_main_v11 V, fin_main_v10 V]
  rfl

theorem stage_main_v16 (V : Valuation τ sig (Elt F)) :
    fin V (Proc.devRef .tc main_v16) = lonDiffAbs (fin V (Proc.devRef .tc main_v7)) := by
  rw [fin_main_v16 V]
  rfl

theorem stage_main_v20 (V : Valuation τ sig (Elt F)) :
    fin V (Proc.devRef .tc main_v20) = lonDiffLo (fin V (Proc.devRef .tc main_v7)) (fin V (Proc.devRef .tc main_v15)) := by
  rw [fin_main_v20 V, fin_main_v19 V, fin_main_v18 V, fin_main_v17 V, fin_main_cst V]
  rfl

theorem stage_main_v37 (V : Valuation τ sig (Elt F)) :
    fin V (Proc.devRef .tc main_v37) = nearMask (fin V (Proc.devRef .tc main_v16)) (fin V (Proc.devRef .tc main_v20)) := by
  rw [fin_main_v37 V, fin_main_v36 V, fin_main_v35 V, fin_main_v34 V, fin_main_cst_5 V, fin_main_v33 V, fin_main_v32 V, fin_main_cst_4 V, fin_main_v31 V, fin_main_v30 V, fin_main_v29 V, fin_main_cst_3 V, fin_main_v28 V, fin_main_v27 V, fin_main_v26 V, fin_main_v25 V, fin_main_cst_2 V, fin_main_v24 V, fin_main_v23 V, fin_main_cst_1 V, fin_main_v22 V, fin_main_v21 V, fin_main_cst_0 V]
  rfl

theorem stage_main_v45 (V : Valuation τ sig (Elt F)) :
    fin V (Proc.devRef .tc main_v45) = offDiag := by
  rw [fin_main_v45 V, fin_main_v44 V, fin_main_v43 V, fin_main_v42 V, fin_main_v41 V, fin_main_v40 V, fin_main_c V, fin_main_v39 V, fin_main_v38 V]
  rfl

theorem stage_main_v46 (V : Valuation τ sig (Elt F)) :
    fin V (Proc.devRef .tc main_v46) = edgeMask (fin V (Proc.devRef .tc main_v37)) (fin V (Proc.devRef .tc main_v45)) := by
  rw [fin_main_v46 V]
  rfl

theorem stage_main_v68 (V : Valuation τ sig (Elt F)) :
    fin V (Proc.devRef .tc main_v68) = srcIdx := by
  rw [fin_main_v68 V, fin_main_v67 V, fin_main_v59 V, fin_main_v58 V, fin_main_v57 V, fin_main_v56 V, fin_main_v55 V, fin_main_v54 V, fin_main_v53 V, fin_main_c_6 V, fin_main_v50 V, fin_main_v49 V, fin_main_v48 V, fin_main_v47 V]
  rfl

theorem stage_main_v69 (V : Valuation τ sig (Elt F)) :
    fin V (Proc.devRef .tc main_v69) = dstIdx (fin V (Proc.devRef .tc main_v46)) := by
  rw [fin_main_v69 V, fin_main_v67 V, fin_main_v66 V, fin_main_v65 V, fin_main_call1_v1 V, fin_main_call1_v0 V, fin_main_c_8 V, fin_main_v64 V, fin_main_v63 V, fin_main_v62 V, fin_main_v61 V, fin_main_v60 V, fin_main_c_7 V, fin_main_v52 V, fin_main_v51 V, fin_main_v48 V, fin_main_v47 V]
  rfl

theorem stage_main_v76 (V : Valuation τ sig (Elt F)) :
    fin V (Proc.devRef .tc main_v76) = degInvSqrt (fin V (Proc.devRef .tc main_v69)) := by
  rw [fin_main_v76 V, fin_main_v75 V, fin_main_cst_11 V, fin_main_v74 V, fin_main_v73 V, fin_main_v72 V, fin_main_v71 V, fin_main_cst_10 V, fin_main_v70 V, fin_main_cst_9 V]
  rfl

theorem stage_main_v81 (V : Valuation τ sig (Elt F)) :
    fin V (Proc.devRef .tc main_v81) = embed (fin V (Proc.devRef .tc main_arg0)) (fin V (Proc.devRef .tc main_arg1)) (fin V (Proc.devRef .tc main_arg2)) := by
  rw [fin_main_v81 V, fin_main_v80 V, fin_main_v79 V, fin_main_v78 V, fin_main_v77 V]
  rfl

theorem stage_main_v97 (V : Valuation τ sig (Elt F)) :
    fin V (Proc.devRef .tc main_v97) = edgeNorm (fin V (Proc.devRef .tc main_v76)) (fin V (Proc.devRef .tc main_v68)) (fin V (Proc.devRef .tc main_v69)) := by
  rw [fin_main_v97 V, fin_main_v96 V, fin_main_v95 V, fin_main_v94 V, fin_main_v93 V, fin_main_v92 V, fin_main_c_15 V, fin_main_v91 V, fin_main_v90 V, fin_main_c_14 V, fin_main_v89 V, fin_main_v88 V, fin_main_v87 V, fin_main_v86 V, fin_main_v85 V, fin_main_c_13 V, fin_main_v84 V, fin_main_v83 V, fin_main_c_12 V]
  rfl

theorem stage_main_v125 (V : Valuation τ sig (Elt F)) :
    fin V (Proc.devRef .tc main_v125) = edgeNorm (fin V (Proc.devRef .tc main_v76)) (fin V (Proc.devRef .tc main_v68)) (fin V (Proc.devRef .tc main_v69)) := by
  rw [fin_main_v125 V, fin_main_v124 V, fin_main_v123 V, fin_main_v122 V, fin_main_v121 V, fin_main_v120 V, fin_main_c_20 V, fin_main_v119 V, fin_main_v118 V, fin_main_c_19 V, fin_main_v117 V, fin_main_v116 V, fin_main_v115 V, fin_main_v114 V, fin_main_v113 V, fin_main_c_18 V, fin_main_v112 V, fin_main_v111 V, fin_main_c_17 V]
  rfl

theorem stage_main_v153 (V : Valuation τ sig (Elt F)) :
    fin V (Proc.devRef .tc main_v153) = edgeNorm (fin V (Proc.devRef .tc main_v76)) (fin V (Proc.devRef .tc main_v68)) (fin V (Proc.devRef .tc main_v69)) := by
  rw [fin_main_v153 V, fin_main_v152 V, fin_main_v151 V, fin_main_v150 V, fin_main_v149 V, fin_main_v148 V, fin_main_c_25 V, fin_main_v147 V, fin_main_v146 V, fin_main_c_24 V, fin_main_v145 V, fin_main_v144 V, fin_main_v143 V, fin_main_v142 V, fin_main_v141 V, fin_main_c_23 V, fin_main_v140 V, fin_main_v139 V, fin_main_c_22 V]
  rfl

theorem stage_main_v109 (V : Valuation τ sig (Elt F)) :
    fin V (Proc.devRef .tc main_v109) = gcnLayer (fin V (Proc.devRef .tc main_v69)) (fin V (Proc.devRef .tc main_v68)) (fin V (Proc.devRef .tc main_v81)) (fin V (Proc.devRef .tc main_arg3)) (fin V (Proc.devRef .tc main_v97)) (fin V (Proc.devRef .tc main_arg4)) := by
  rw [fin_main_v109 V, fin_main_call3_v0 V, fin_main_call3_cst V, fin_main_v108 V, fin_main_v107 V, fin_main_v106 V, fin_main_v105 V, fin_main_v104 V, fin_main_v103 V, fin_main_v102 V, fin_main_cst_16 V, fin_main_v101 V, fin_main_v100 V, fin_main_v99 V, fin_main_v98 V, fin_main_call2_v15 V, fin_main_call2_cst V, fin_main_call2_v14 V, fin_main_call2_v13 V, fin_main_call2_v12 V, fin_main_call2_c_3 V, fin_main_call2_v11 V, fin_main_call2_v10 V, fin_main_call2_v9 V, fin_main_call2_v8 V, fin_main_call2_v7 V, fin_main_call2_v6 V, fin_main_call2_c_2 V, fin_main_call2_c_1 V, fin_main_call2_v5 V, fin_main_call2_v4 V, fin_main_call2_v3 V, fin_main_call2_v2 V, fin_main_call2_c_0 V, fin_main_call2_v1 V, fin_main_call2_v0 V, fin_main_call2_c V, fin_main_v82 V]
  rfl

theorem stage_main_v137 (V : Valuation τ sig (Elt F)) :
    fin V (Proc.devRef .tc main_v137) = gcnLayer (fin V (Proc.devRef .tc main_v69)) (fin V (Proc.devRef .tc main_v68)) (fin V (Proc.devRef .tc main_v109)) (fin V (Proc.devRef .tc main_arg5)) (fin V (Proc.devRef .tc main_v125)) (fin V (Proc.devRef .tc main_arg6)) := by
  rw [fin_main_v137 V, fin_main_call5_v0 V, fin_main_call5_cst V, fin_main_v136 V, fin_main_v135 V, fin_main_v134 V, fin_main_v133 V, fin_main_v132 V, fin_main_v131 V, fin_main_v130 V, fin_main_cst_21 V, fin_main_v129 V, fin_main_v128 V, fin_main_v127 V, fin_main_v126 V, fin_main_call4_v15 V, fin_main_call4_cst V, fin_main_call4_v14 V, fin_main_call4_v13 V, fin_main_call4_v12 V, fin_main_call4_c_3 V, fin_main_call4_v11 V, fin_main_call4_v10 V, fin_main_call4_v9 V, fin_main_call4_v8 V, fin_main_call4_v7 V, fin_main_call4_v6 V, fin_main_call4_c_2 V, fin_main_call4_c_1 V, fin_main_call4_v5 V, fin_main_call4_v4 V, fin_main_call4_v3 V, fin_main_call4_v2 V, fin_main_call4_c_0 V, fin_main_call4_v1 V, fin_main_call4_v0 V, fin_main_call4_c V, fin_main_v110 V]
  rfl

theorem stage_main_v165 (V : Valuation τ sig (Elt F)) :
    fin V (Proc.devRef .tc main_v165) = gcnLayer (fin V (Proc.devRef .tc main_v69)) (fin V (Proc.devRef .tc main_v68)) (fin V (Proc.devRef .tc main_v137)) (fin V (Proc.devRef .tc main_arg7)) (fin V (Proc.devRef .tc main_v153)) (fin V (Proc.devRef .tc main_arg8)) := by
  rw [fin_main_v165 V, fin_main_call7_v0 V, fin_main_call7_cst V, fin_main_v164 V, fin_main_v163 V, fin_main_v162 V, fin_main_v161 V, fin_main_v160 V, fin_main_v159 V, fin_main_v158 V, fin_main_cst_26 V, fin_main_v157 V, fin_main_v156 V, fin_main_v155 V, fin_main_v154 V, fin_main_call6_v15 V, fin_main_call6_cst V, fin_main_call6_v14 V, fin_main_call6_v13 V, fin_main_call6_v12 V, fin_main_call6_c_3 V, fin_main_call6_v11 V, fin_main_call6_v10 V, fin_main_call6_v9 V, fin_main_call6_v8 V, fin_main_call6_v7 V, fin_main_call6_v6 V, fin_main_call6_c_2 V, fin_main_call6_c_1 V, fin_main_call6_v5 V, fin_main_call6_v4 V, fin_main_call6_v3 V, fin_main_call6_v2 V, fin_main_call6_c_0 V, fin_main_call6_v1 V, fin_main_call6_v0 V, fin_main_call6_c V, fin_main_v138 V]
  rfl

theorem stage_main_v178 (V : Valuation τ sig (Elt F)) :
    fin V (Proc.devRef .tc main_v178) = readout (fin V (Proc.devRef .tc main_v165)) (fin V (Proc.devRef .tc main_arg9)) (fin V (Proc.devRef .tc main_arg10)) (fin V (Proc.devRef .tc main_arg11)) (fin V (Proc.devRef .tc main_arg12)) := by
  rw [fin_main_v178 V, fin_main_v177 V, fin_main_v176 V, fin_main_v175 V, fin_main_v174 V, fin_main_call8_v0 V, fin_main_call8_cst V, fin_main_v173 V, fin_main_v172 V, fin_main_v171 V, fin_main_v170 V, fin_main_v169 V, fin_main_v168 V, fin_main_cst_28 V, fin_main_v167 V, fin_main_cst_27 V, fin_main_v166 V]
  rfl

end Cert.ReferenceIdeal.RefRun

end
-- ==== Proof.RefResult.lean ====
/- The reference program's result is the network's output: assembled from what is known of its stages. Given that the
   index tables hold the edge list, the degree table the inverse square-root degrees, that the edge-weight stage
   computes the weights and the layer stage a graph-convolution layer of the network (each stated ONCE, about the
   stage as a pure function), that the input stage holds the input map and that the readout maps the last layer's
   features to the network's formula — the result buffer holds, graph by graph, the cast of the network's output. -/
import proofs.«176687_g19121194402273_cont_sun_m_853_29_alg».proof.Proof.RefIface
import proofs.«176687_g19121194402273_cont_sun_m_853_29_alg».proof.Proof.RefStages
import proofs.«176687_g19121194402273_cont_sun_m_853_29_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.GraphNet

variable (x : Fin 100 → Fin 100 → Fin 128 → ℝ) (Win : Fin 128 → Fin 128 → ℝ) (bin : Fin 128 → ℝ)
  (Wg0 : Fin 128 → Fin 128 → ℝ) (bg0 : Fin 128 → ℝ) (Wg1 : Fin 128 → Fin 128 → ℝ) (bg1 : Fin 128 → ℝ)
  (Wg2 : Fin 128 → Fin 128 → ℝ) (bg2 : Fin 128 → ℝ)
  (Wo1 : Fin 128 → Fin 64 → ℝ) (bo1 : Fin 64 → ℝ) (Wo2 : Fin 64 → Fin 1 → ℝ) (bo2 : Fin 1 → ℝ)

/-- The readout over any per-node features: the per-graph mean, the hidden layer clamped at 0, the output layer. -/
def readoutOf (H : Fin 100 → Fin 100 → Fin 128 → ℝ) (b : Fin 100) : ℝ :=
  (∑ d, max ((∑ c, ((∑ i, H b i c) * (1 / 100)) * Wo1 c d) + bo1 d) 0 * Wo2 d 0) + bo2 0

/-- Over the features after the three layers it is the network's output. -/
theorem readoutOf_h3 (b : Fin 100) :
    readoutOf Wo1 bo1 Wo2 bo2 (h3 x Win bin Wg0 bg0 Wg1 bg1 Wg2 bg2) b = out x Win bin Wg0 bg0 Wg1 bg1 Wg2 bg2 Wo1 bo1 Wo2 bo2 b := rfl

/-- THE ASSEMBLY, for what the program's operations leave from contents `V`: from the facts about the stages, the
    result buffer holds the casts of the network's outputs. -/
theorem result_spec (V : Valuation τ sig (Elt Ideal))
    (hWg0 : Mat (V (Proc.devRef .tc main_arg3)) Wg0) (hbg0 : Vec1 (V (Proc.devRef .tc main_arg4)) bg0)
    (hWg1 : Mat (V (Proc.devRef .tc main_arg5)) Wg1) (hbg1 : Vec1 (V (Proc.devRef .tc main_arg6)) bg1)
    (hWg2 : Mat (V (Proc.devRef .tc main_arg7)) Wg2) (hbg2 : Vec1 (V (Proc.devRef .tc main_arg8)) bg2)
    (hwords : Words x (fin V (Proc.devRef .tc main_v68)) (fin V (Proc.devRef .tc main_v69)))
    (hdis : DisTable x (fin V (Proc.devRef .tc main_v76)))
    (hnorm : ∀ (tab : (⟨S10001, .f32⟩ : BufTy).Contents (Elt Ideal)) (src dst : (⟨S1010000, .i32⟩ : BufTy).Contents (Elt Ideal)), Weights tab src dst (edgeNorm tab src dst))
    (hlayer : ∀ (dst src : (⟨S1010000, .i32⟩ : BufTy).Contents (Elt Ideal)) (tab : (⟨S10001, .f32⟩ : BufTy).Contents (Elt Ideal)) (nrm : (⟨S1010000, .f32⟩ : BufTy).Contents (Elt Ideal))
        (h : (⟨S10000x128, .f32⟩ : BufTy).Contents (Elt Ideal)) (W : (⟨S128x128, .f32⟩ : BufTy).Contents (Elt Ideal)) (bias : (⟨S128, .f32⟩ : BufTy).Contents (Elt Ideal))
        (H : Fin 100 → Fin 100 → Fin 128 → ℝ) (Wr : Fin 128 → Fin 128 → ℝ) (br : Fin 128 → ℝ),
        Words x src dst → DisTable x tab → Weights tab src dst nrm → Rows h H → Mat W Wr → Vec1 bias br →
        Rows (gcnLayer dst src h W nrm bias) (layer x H Wr br))
    (hin : Rows (fin V (Proc.devRef .tc main_v81)) (h0 x Win bin))
    (hend : ∀ H : Fin 100 → Fin 100 → Fin 128 → ℝ, Rows (fin V (Proc.devRef .tc main_v165)) H → ∀ b : Fin 100,
        (fin V (Proc.devRef .tc main_v178) : (⟨S100x1, .f32⟩ : BufTy).Contents (Elt Ideal)) (ix2 b (0 : Fin 1)) = ((readoutOf Wo1 bo1 Wo2 bo2 H b : ℝ) : EReal)) :
    (fin V (Proc.devRef .tc main_v178) : (⟨S100x1, .f32⟩ : BufTy).Contents (Elt Ideal))
      = fun i => ((out x Win bin Wg0 bg0 Wg1 bg1 Wg2 bg2 Wo1 bo1 Wo2 bo2 (i 0) : ℝ) : EReal) := by
  -- the three edge-weight computations are one function of the same three buffers
  have hw : Weights (fin V (Proc.devRef .tc main_v76)) (fin V (Proc.devRef .tc main_v68)) (fin V (Proc.devRef .tc main_v69))
      (edgeNorm (fin V (Proc.devRef .tc main_v76)) (fin V (Proc.devRef .tc main_v68)) (fin V (Proc.devRef .tc main_v69))) := hnorm _ _ _
  -- layer by layer
  have hL1 : Rows (fin V (Proc.devRef .tc main_v109)) (layer x (h0 x Win bin) Wg0 bg0) := by
    rw [stage_main_v109 V, stage_main_v97 V, fin_main_arg3 V, fin_main_arg4 V]
    exact hlayer _ _ _ _ _ _ _ _ _ _ hwords hdis hw hin hWg0 hbg0
  have hL2 : Rows (fin V (Proc.devRef .tc main_v137)) (layer x (layer x (h0 x Win bin) Wg0 bg0) Wg1 bg1) := by
    rw [stage_main_v137 V, stage_main_v125 V, fin_main_arg5 V, fin_main_arg6 V]
    exact hlayer _ _ _ _ _ _ _ _ _ _ hwords hdis hw hL1 hWg1 hbg1
  have hL3 : Rows (fin V (Proc.devRef .tc main_v165)) (h3 x Win bin Wg0 bg0 Wg1 bg1 Wg2 bg2) := by
    rw [stage_main_v165 V, stage_main_v153 V, fin_main_arg7 V, fin_main_arg8 V]
    exact hlayer _ _ _ _ _ _ _ _ _ _ hwords hdis hw hL2 hWg2 hbg2
  -- the readout, read at every index of the [100, 1] result
  funext i
  have h1 : (i 1).val < 1 := (i 1).isLt
  have e1 : i 1 = (0 : Fin 1) := Fin.ext (by show (i 1).val = 0; omega)
  have hi : i = ix2 (i 0) (0 : Fin 1) := (eq_ix2 i).trans (congrArg (fun t => ix2 (i 0) t) e1)
  exact (congrArg (fin V (Proc.devRef .tc main_v178) : (⟨S100x1, .f32⟩ : BufTy).Contents (Elt Ideal)) hi).trans (hend _ hL3 (i 0))

/-- THE RUN, with the result read: every weakly fair execution of @main at the ideal instance terminates with the
    result buffer at the casts of the network's outputs and the arguments unchanged, when on every device what the
    program's operations leave in the result buffer is that (`result_spec`). -/
theorem run_spec (m : (ℓ : Loc nD τ sig) → Buf (Elt Ideal) ℓ) (ρ : Dev nD → PrngReg)
    (hres : ∀ c : Dev nD, (fin (launchContents m c) (Proc.devRef .tc main_v178) : (⟨S100x1, .f32⟩ : BufTy).Contents (Elt Ideal))
      = fun i => ((out x Win bin Wg0 bg0 Wg1 bg1 Wg2 bg2 Wo1 bo1 Wo2 bo2 (i 0) : ℝ) : EReal)) :
    θ_run defs (onTc (τ := τ) (main (F := Ideal))) ⟨m, fun _ => 0, ρ⟩ fun r => ∀ c : Dev nD,
      (r.2.mem ((c.tc : Thread nD τ).loc main_v178) : (⟨S100x1, .f32⟩ : BufTy).Contents (Elt Ideal))
        = (fun i => ((out x Win bin Wg0 bg0 Wg1 bg1 Wg2 bg2 Wo1 bo1 Wo2 bo2 (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (hres c), (h c).2⟩) (run (F := Ideal) m ρ)

end Cert.ReferenceIdeal.RefRun

end
-- ==== Proof.RefMask.lean ====
/-
  The reference program's edge mask, read one element at a time.

  For graph b and nodes i, j the program forms A = the longitude of node i and NB = the negated longitude of node j
  (both laid out over the cube of all (b, i, j) by broadcasts), their sum s = A + NB, the error term e of the exact
  two-sum of A and NB, hi = the absolute value of s and lo = e carrying the sign of s, and tests
  hi < 10, or hi = 10 and lo < 0, or hi > 350, or hi = 350 and lo > 0. At real longitudes the error term is zero, so
  the bit is 1 exactly when the circular distance of the two longitudes is below 10 degrees. The bit of "i ≠ j" is the
  complement of the comparison of two coordinate tables, laid over every graph. The mask is the conjunction of the two.
-/
import proofs.«176687_g19121194402273_cont_sun_m_853_29_alg».proof.Proof.RefEqs0
import proofs.«176687_g19121194402273_cont_sun_m_853_29_alg».proof.Proof.Spec
import proofs.«176687_g19121194402273_cont_sun_m_853_29_alg».proof.Proof.LibTwoSumMask
import proofs.«176687_g19121194402273_cont_sun_m_853_29_alg».proof.Proof.LibAdjBits
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.GraphNet

variable (x : Fin 100 → Fin 100 → Fin 128 → ℝ) (V : Valuation τ sig (Elt Ideal))

/-! ## The two longitudes over the cube of pairs -/

/-- The first feature of node i of graph b, cut out of the input. -/
theorem v0_at (hX : ∀ b i k, (V (Proc.devRef .tc main_arg0) : S100x100x128.Idx → EReal) (ix3 b i k) = ((x b i k : ℝ) : EReal))
    (b i : Fin 100) (o : Fin 1) :
    (fin V (Proc.devRef .tc main_v0) : S100x100x1.Idx → EReal) (ix3 b i o) = ((x b i 0 : ℝ) : EReal) := by
  rw [fin_main_v0 V, fin_main_arg0 V]
  refine (extractStridedSlice_apply _ _ _ _ (ix3 b i (0 : Fin 128)) (fun a => match a with
      | ⟨0, _⟩ => by show b.val = 0 + b.val; omega
      | ⟨1, _⟩ => by show i.val = 0 + i.val; omega
      | ⟨2, _⟩ => by show (0 : ℕ) = 0 + o.val; omega)).trans ?_
  exact hX b i 0

/-- … as a table of graphs by nodes. -/
theorem v1_at (hX : ∀ b i k, (V (Proc.devRef .tc main_arg0) : S100x100x128.Idx → EReal) (ix3 b i k) = ((x b i k : ℝ) : EReal)) (b i : Fin 100) :
    (fin V (Proc.devRef .tc main_v1) : S100x100.Idx → EReal) (ix2 b i) = ((x b i 0 : ℝ) : EReal) := by
  rw [fin_main_v1 V]
  refine (shapeCast_apply _ _ _ (ix3 b i (0 : Fin 1)) (by
    rw [Shape.rowMajor_val_two, Shape.rowMajor_val_three]
    show (b.val * 100 + i.val) * 1 + 0 = b.val * 100 + i.val
    omega)).trans ?_
  exact v0_at x V hX b i 0

/-- The longitude of node i, as a column. -/
theorem v2_at (hX : ∀ b i k, (V (Proc.devRef .tc main_arg0) : S100x100x128.Idx → EReal) (ix3 b i k) = ((x b i k : ℝ) : EReal)) (b i : Fin 100) (o : Fin 1) :
    (fin V (Proc.devRef .tc main_v2) : S100x100x1.Idx → EReal) (ix3 b i o) = ((x b i 0 : ℝ) : EReal) := by
  rw [fin_main_v2 V]
  refine (broadcastInDim_apply _ _ _ _ (ix2 b i) (fun a => match a with
      | ⟨0, _⟩ => rfl
      | ⟨1, _⟩ => rfl)).trans ?_
  exact v1_at x V hX b i

/-- The longitude of node j, as a row. -/
theorem v3_at (hX : ∀ b i k, (V (Proc.devRef .tc main_arg0) : S100x100x128.Idx → EReal) (ix3 b i k) = ((x b i k : ℝ) : EReal)) (b j : Fin 100) (o : Fin 1) :
    (fin V (Proc.devRef .tc main_v3) : S100x1x100.Idx → EReal) (ix3 b o j) = ((x b j 0 : ℝ) : EReal) := by
  rw [fin_main_v3 V]
  refine (broadcastInDim_apply _ _ _ _ (ix2 b j) (fun a => match a with
      | ⟨0, _⟩ => rfl
      | ⟨1, _⟩ => rfl)).trans ?_
  exact v1_at x V hX b j

/-- The negated longitude of node j, as a row. -/
theorem v4_at (hX : ∀ b i k, (V (Proc.devRef .tc main_arg0) : S100x100x128.Idx → EReal) (ix3 b i k) = ((x b i k : ℝ) : EReal)) (b j : Fin 100) (o : Fin 1) :
    (fin V (Proc.devRef .tc main_v4) : S100x1x100.Idx → EReal) (ix3 b o j) = ((-(x b j 0) : ℝ) : EReal) := by
  rw [fin_main_v4 V]
  exact (congrArg (fun t : EReal => -t) (v3_at x V hX b j o)).trans (Cert.TwoSumMask.neg_coe (x b j 0))

/-- The longitude of node i over the cube of pairs. -/
theorem v5_at (hX : ∀ b i k, (V (Proc.devRef .tc main_arg0) : S100x100x128.Idx → EReal) (ix3 b i k) = ((x b i k : ℝ) : EReal)) (b i j : Fin 100) :
    (fin V (Proc.devRef .tc main_v5) : S100x100x100.Idx → EReal) (ix3 b i j) = ((x b i 0 : ℝ) : EReal) := by
  rw [fin_main_v5 V]
  refine (broadcastInDim_apply _ _ _ _ (ix3 b i (0 : Fin 1)) (fun a => match a with
      | ⟨0, _⟩ => rfl
      | ⟨1, _⟩ => rfl
      | ⟨2, _⟩ => rfl)).trans ?_
  exact v2_at x V hX b i 0

/-- The negated longitude of node j over the cube of pairs. -/
theorem v6_at (hX : ∀ b i k, (V (Proc.devRef .tc main_arg0) : S100x100x128.Idx → EReal) (ix3 b i k) = ((x b i k : ℝ) : EReal)) (b i j : Fin 100) :
    (fin V (Proc.devRef .tc main_v6) : S100x100x100.Idx → EReal) (ix3 b i j) = ((-(x b j 0) : ℝ) : EReal) := by
  rw [fin_main_v6 V]
  refine (broadcastInDim_apply _ _ _ _ (ix3 b (0 : Fin 1) j) (fun a => match a with
      | ⟨0, _⟩ => rfl
      | ⟨1, _⟩ => rfl
      | ⟨2, _⟩ => rfl)).trans ?_
  exact v4_at x V hX b j 0

/-! ## The two-sum and its error term -/

/-- The sum s of the longitude of i and the negated longitude of j. -/
theorem v7_at (hX : ∀ b i k, (V (Proc.devRef .tc main_arg0) : S100x100x128.Idx → EReal) (ix3 b i k) = ((x b i k : ℝ) : EReal)) (b i j : Fin 100) :
    (fin V (Proc.devRef .tc main_v7) : S100x100x100.Idx → EReal) (ix3 b i j) = (((x b i 0 : ℝ) : EReal) + ((-(x b j 0) : ℝ) : EReal)) := by
  rw [fin_main_v7 V]
  exact congrArg₂ (fun s t : EReal => s + t) (v5_at x V hX b i j) (v6_at x V hX b i j)

/-- The longitude of node i over the cube of pairs, again. -/
theorem v8_at (hX : ∀ b i k, (V (Proc.devRef .tc main_arg0) : S100x100x128.Idx → EReal) (ix3 b i k) = ((x b i k : ℝ) : EReal)) (b i j : Fin 100) :
    (fin V (Proc.devRef .tc main_v8) : S100x100x100.Idx → EReal) (ix3 b i j) = ((x b i 0 : ℝ) : EReal) := by
  rw [fin_main_v8 V]
  refine (broadcastInDim_apply _ _ _ _ (ix3 b i (0 : Fin 1)) (fun a => match a with
      | ⟨0, _⟩ => rfl
      | ⟨1, _⟩ => rfl
      | ⟨2, _⟩ => rfl)).trans ?_
  exact v2_at x V hX b i 0

/-- t = s - A. -/
theorem v9_at (hX : ∀ b i k, (V (Proc.devRef .tc main_arg0) : S100x100x128.Idx → EReal) (ix3 b i k) = ((x b i k : ℝ) : EReal)) (b i j : Fin 100) :
    (fin V (Proc.devRef .tc main_v9) : S100x100x100.Idx → EReal) (ix3 b i j) = ((((x b i 0 : ℝ) : EReal) + ((-(x b j 0) : ℝ) : EReal)) - ((x b i 0 : ℝ) : EReal)) := by
  rw [fin_main_v9 V]
  exact congrArg₂ (fun s t : EReal => s - t) (v7_at x V hX b i j) (v8_at x V hX b i j)

/-- s - t. -/
theorem v10_at (hX : ∀ b i k, (V (Proc.devRef .tc main_arg0) : S100x100x128.Idx → EReal) (ix3 b i k) = ((x b i k : ℝ) : EReal)) (b i j : Fin 100) :
    (fin V (Proc.devRef .tc main_v10) : S100x100x100.Idx → EReal) (ix3 b i j) = ((((x b i 0 : ℝ) : EReal) + ((-(x b j 0) : ℝ) : EReal)) - ((((x b i 0 : ℝ) : EReal) + ((-(x b j 0) : ℝ) : EReal)) - ((x b i 0 : ℝ) : EReal))) := by
  rw [fin_main_v10 V]
  exact congrArg₂ (fun s t : EReal => s - t) (v7_at x V hX b i j) (v9_at x V hX b i j)

/-- The longitude of node i over the cube of pairs, a third time. -/
theorem v11_at (hX : ∀ b i k, (V (Proc.devRef .tc main_arg0) : S100x100x128.Idx → EReal) (ix3 b i k) = ((x b i k : ℝ) : EReal)) (b i j : Fin 100) :
    (fin V (Proc.devRef .tc main_v11) : S100x100x100.Idx → EReal) (ix3 b i j) = ((x b i 0 : ℝ) : EReal) := by
  rw [fin_main_v11 V]
  refine (broadcastInDim_apply _ _ _ _ (ix3 b i (0 : Fin 1)) (fun a => match a with
      | ⟨0, _⟩ => rfl
      | ⟨1, _⟩ => rfl
      | ⟨2, _⟩ => rfl)).trans ?_
  exact v2_at x V hX b i 0

/-- A - (s - t). -/
theorem v12_at (hX : ∀ b i k, (V (Proc.devRef .tc main_arg0) : S100x100x128.Idx → EReal) (ix3 b i k) = ((x b i k : ℝ) : EReal)) (b i j : Fin 100) :
    (fin V (Proc.devRef .tc main_v12) : S100x100x100.Idx → EReal) (ix3 b i j) = (((x b i 0 : ℝ) : EReal) - ((((x b i 0 : ℝ) : EReal) + ((-(x b j 0) : ℝ) : EReal)) - ((((x b i 0 : ℝ) : EReal) + ((-(x b j 0) : ℝ) : EReal)) - ((x b i 0 : ℝ) : EReal)))) := by
  rw [fin_main_v12 V]
  exact congrArg₂ (fun s t : EReal => s - t) (v11_at x V hX b i j) (v10_at x V hX b i j)

/-- The negated longitude of node j over the cube of pairs, again. -/
theorem v13_at (hX : ∀ b i k, (V (Proc.devRef .tc main_arg0) : S100x100x128.Idx → EReal) (ix3 b i k) = ((x b i k : ℝ) : EReal)) (b i j : Fin 100) :
    (fin V (Proc.devRef .tc main_v13) : S100x100x100.Idx → EReal) (ix3 b i j) = ((-(x b j 0) : ℝ) : EReal) := by
  rw [fin_main_v13 V]
  refine (broadcastInDim_apply _ _ _ _ (ix3 b (0 : Fin 1) j) (fun a => match a with
      | ⟨0, _⟩ => rfl
      | ⟨1, _⟩ => rfl
      | ⟨2, _⟩ => rfl)).trans ?_
  exact v4_at x V hX b j 0

/-- NB - t. -/
theorem v14_at (hX : ∀ b i k, (V (Proc.devRef .tc main_arg0) : S100x100x128.Idx → EReal) (ix3 b i k) = ((x b i k : ℝ) : EReal)) (b i j : Fin 100) :
    (fin V (Proc.devRef .tc main_v14) : S100x100x100.Idx → EReal) (ix3 b i j) = (((-(x b j 0) : ℝ) : EReal) - ((((x b i 0 : ℝ) : EReal) + ((-(x b j 0) : ℝ) : EReal)) - ((x b i 0 : ℝ) : EReal))) := by
  rw [fin_main_v14 V]
  exact congrArg₂ (fun s t : EReal => s - t) (v13_at x V hX b i j) (v9_at x V hX b i j)

/-- The error term of the two-sum is zero: the longitudes are real numbers. -/
theorem v15_at (hX : ∀ b i k, (V (Proc.devRef .tc main_arg0) : S100x100x128.Idx → EReal) (ix3 b i k) = ((x b i k : ℝ) : EReal)) (b i j : Fin 100) :
    (fin V (Proc.devRef .tc main_v15) : S100x100x100.Idx → EReal) (ix3 b i j) = (0 : EReal) := by
  rw [fin_main_v15 V]
  exact (congrArg₂ (fun s t : EReal => s + t) (v12_at x V hX b i j) (v14_at x V hX b i j)).trans
    (Cert.TwoSumMask.twoSum_err_coe (x b i 0) (-(x b j 0)))

/-- hi, the absolute value of the sum. -/
theorem v16_at (hX : ∀ b i k, (V (Proc.devRef .tc main_arg0) : S100x100x128.Idx → EReal) (ix3 b i k) = ((x b i k : ℝ) : EReal)) (b i j : Fin 100) :
    (fin V (Proc.devRef .tc main_v16) : S100x100x100.Idx → EReal) (ix3 b i j) = ((|x b i 0 + -(x b j 0)| : ℝ) : EReal) := by
  rw [fin_main_v16 V]
  exact (congrArg (fun t : EReal => max t (-t)) (v7_at x V hX b i j)).trans
    (Cert.TwoSumMask.hi_add_coe (x b i 0) (-(x b j 0)))

/-- The zero the sum's sign is tested against. -/
theorem v17_at (b i j : Fin 100) :
    (fin V (Proc.devRef .tc main_v17) : S100x100x100.Idx → EReal) (ix3 b i j) = (0 : EReal) := by
  rw [fin_main_v17 V]
  refine (broadcastInDim_scalar_apply _ _ _).trans ?_
  rw [fin_main_cst V]
  exact Cert.TwoSumMask.ofBits_f32_zero

/-- lo, the error term carrying the sign of the sum, is zero. -/
theorem v20_at (hX : ∀ b i k, (V (Proc.devRef .tc main_arg0) : S100x100x128.Idx → EReal) (ix3 b i k) = ((x b i k : ℝ) : EReal)) (b i j : Fin 100) :
    (fin V (Proc.devRef .tc main_v20) : S100x100x100.Idx → EReal) (ix3 b i j) = (0 : EReal) := by
  rw [fin_main_v20 V, fin_main_v19 V]
  exact Cert.TwoSumMask.lo_neg_eq_zero _ (v15_at x V hX b i j)

/-! ## The four-way test -/

/-- The lower threshold. -/
theorem v21_at (b i j : Fin 100) :
    (fin V (Proc.devRef .tc main_v21) : S100x100x100.Idx → EReal) (ix3 b i j) = ((10 : ℝ) : EReal) := by
  rw [fin_main_v21 V]
  refine (broadcastInDim_scalar_apply _ _ _).trans ?_
  rw [fin_main_cst_0 V]
  exact Cert.TwoSumMask.ofBits_f32_ten

/-- The lower threshold, again. -/
theorem v23_at (b i j : Fin 100) :
    (fin V (Proc.devRef .tc main_v23) : S100x100x100.Idx → EReal) (ix3 b i j) = ((10 : ℝ) : EReal) := by
  rw [fin_main_v23 V]
  refine (broadcastInDim_scalar_apply _ _ _).trans ?_
  rw [fin_main_cst_1 V]
  exact Cert.TwoSumMask.ofBits_f32_ten

/-- Zero. -/
theorem v25_at (b i j : Fin 100) :
    (fin V (Proc.devRef .tc main_v25) : S100x100x100.Idx → EReal) (ix3 b i j) = (0 : EReal) := by
  rw [fin_main_v25 V]
  refine (broadcastInDim_scalar_apply _ _ _).trans ?_
  rw [fin_main_cst_2 V]
  exact Cert.TwoSumMask.ofBits_f32_zero

/-- The upper threshold. -/
theorem v29_at (b i j : Fin 100) :
    (fin V (Proc.devRef .tc main_v29) : S100x100x100.Idx → EReal) (ix3 b i j) = ((350 : ℝ) : EReal) := by
  rw [fin_main_v29 V]
  refine (broadcastInDim_scalar_apply _ _ _).trans ?_
  rw [fin_main_cst_3 V]
  exact Cert.TwoSumMask.ofBits_f32_350

/-- The upper threshold, again. -/
theorem v32_at (b i j : Fin 100) :
    (fin V (Proc.devRef .tc main_v32) : S100x100x100.Idx → EReal) (ix3 b i j) = ((350 : ℝ) : EReal) := by
  rw [fin_main_v32 V]
  refine (broadcastInDim_scalar_apply _ _ _).trans ?_
  rw [fin_main_cst_4 V]
  exact Cert.TwoSumMask.ofBits_f32_350

/-- Zero, again. -/
theorem v34_at (b i j : Fin 100) :
    (fin V (Proc.devRef .tc main_v34) : S100x100x100.Idx → EReal) (ix3 b i j) = (0 : EReal) := by
  rw [fin_main_v34 V]
  refine (broadcastInDim_scalar_apply _ _ _).trans ?_
  rw [fin_main_cst_5 V]
  exact Cert.TwoSumMask.ofBits_f32_zero

/-- hi < 10. -/
theorem v22_at (hX : ∀ b i k, (V (Proc.devRef .tc main_arg0) : S100x100x128.Idx → EReal) (ix3 b i k) = ((x b i k : ℝ) : EReal)) (b i j : Fin 100) :
    (fin V (Proc.devRef .tc main_v22) : S100x100x100.Idx → BitVec 1) (ix3 b i j) = Ideal.cmp .olt ((|x b i 0 + -(x b j 0)| : ℝ) : EReal) ((10 : ℝ) : EReal) := by
  rw [fin_main_v22 V]
  exact congrArg₂ (Ideal.cmp .olt) (v16_at x V hX b i j) (v21_at V b i j)

/-- hi = 10. -/
theorem v24_at (hX : ∀ b i k, (V (Proc.devRef .tc main_arg0) : S100x100x128.Idx → EReal) (ix3 b i k) = ((x b i k : ℝ) : EReal)) (b i j : Fin 100) :
    (fin V (Proc.devRef .tc main_v24) : S100x100x100.Idx → BitVec 1) (ix3 b i j) = Ideal.cmp .oeq ((|x b i 0 + -(x b j 0)| : ℝ) : EReal) ((10 : ℝ) : EReal) := by
  rw [fin_main_v24 V]
  exact congrArg₂ (Ideal.cmp .oeq) (v16_at x V hX b i j) (v23_at V b i j)

/-- lo < 0. -/
theorem v26_at (hX : ∀ b i k, (V (Proc.devRef .tc main_arg0) : S100x100x128.Idx → EReal) (ix3 b i k) = ((x b i k : ℝ) : EReal)) (b i j : Fin 100) :
    (fin V (Proc.devRef .tc main_v26) : S100x100x100.Idx → BitVec 1) (ix3 b i j) = Ideal.cmp .olt (0 : EReal) (0 : EReal) := by
  rw [fin_main_v26 V]
  exact congrArg₂ (Ideal.cmp .olt) (v20_at x V hX b i j) (v25_at V b i j)

/-- hi > 350. -/
theorem v30_at (hX : ∀ b i k, (V (Proc.devRef .tc main_arg0) : S100x100x128.Idx → EReal) (ix3 b i k) = ((x b i k : ℝ) : EReal)) (b i j : Fin 100) :
    (fin V (Proc.devRef .tc main_v30) : S100x100x100.Idx → BitVec 1) (ix3 b i j) = Ideal.cmp .ogt ((|x b i 0 + -(x b j 0)| : ℝ) : EReal) ((350 : ℝ) : EReal) := by
  rw [fin_main_v30 V]
  exact congrArg₂ (Ideal.cmp .ogt) (v16_at x V hX b i j) (v29_at V b i j)

/-- hi = 350. -/
theorem v33_at (hX : ∀ b i k, (V (Proc.devRef .tc main_arg0) : S100x100x128.Idx → EReal) (ix3 b i k) = ((x b i k : ℝ) : EReal)) (b i j : Fin 100) :
    (fin V (Proc.devRef .tc main_v33) : S100x100x100.Idx → BitVec 1) (ix3 b i j) = Ideal.cmp .oeq ((|x b i 0 + -(x b j 0)| : ℝ) : EReal) ((350 : ℝ) : EReal) := by
  rw [fin_main_v33 V]
  exact congrArg₂ (Ideal.cmp .oeq) (v16_at x V hX b i j) (v32_at V b i j)

/-- lo > 0. -/
theorem v35_at (hX : ∀ b i k, (V (Proc.devRef .tc main_arg0) : S100x100x128.Idx → EReal) (ix3 b i k) = ((x b i k : ℝ) : EReal)) (b i j : Fin 100) :
    (fin V (Proc.devRef .tc main_v35) : S100x100x100.Idx → BitVec 1) (ix3 b i j) = Ideal.cmp .ogt (0 : EReal) (0 : EReal) := by
  rw [fin_main_v35 V]
  exact congrArg₂ (Ideal.cmp .ogt) (v20_at x V hX b i j) (v34_at V b i j)

/-- hi = 10 and lo < 0. -/
theorem v27_at (hX : ∀ b i k, (V (Proc.devRef .tc main_arg0) : S100x100x128.Idx → EReal) (ix3 b i k) = ((x b i k : ℝ) : EReal)) (b i j : Fin 100) :
    (fin V (Proc.devRef .tc main_v27) : S100x100x100.Idx → BitVec 1) (ix3 b i j) = (IntOp.andi (Ideal.cmp .oeq ((|x b i 0 + -(x b j 0)| : ℝ) : EReal) ((10 : ℝ) : EReal)) (Ideal.cmp .olt (0 : EReal) (0 : EReal))) := by
  rw [fin_main_v27 V]
  exact congrArg₂ IntOp.andi (v24_at x V hX b i j) (v26_at x V hX b i j)

/-- hi < 10, or hi = 10 and lo < 0. -/
theorem v28_at (hX : ∀ b i k, (V (Proc.devRef .tc main_arg0) : S100x100x128.Idx → EReal) (ix3 b i k) = ((x b i k : ℝ) : EReal)) (b i j : Fin 100) :
    (fin V (Proc.devRef .tc main_v28) : S100x100x100.Idx → BitVec 1) (ix3 b i j) = (IntOp.ori (Ideal.cmp .olt ((|x b i 0 + -(x b j 0)| : ℝ) : EReal) ((10 : ℝ) : EReal)) (IntOp.andi (Ideal.cmp .oeq ((|x b i 0 + -(x b j 0)| : ℝ) : EReal) ((10 : ℝ) : EReal)) (Ideal.cmp .olt (0 : EReal) (0 : EReal)))) := by
  rw [fin_main_v28 V]
  exact congrArg₂ IntOp.ori (v22_at x V hX b i j) (v27_at x V hX b i j)

/-- … or hi > 350. -/
theorem v31_at (hX : ∀ b i k, (V (Proc.devRef .tc main_arg0) : S100x100x128.Idx → EReal) (ix3 b i k) = ((x b i k : ℝ) : EReal)) (b i j : Fin 100) :
    (fin V (Proc.devRef .tc main_v31) : S100x100x100.Idx → BitVec 1) (ix3 b i j) = (IntOp.ori (IntOp.ori (Ideal.cmp .olt ((|x b i 0 + -(x b j 0)| : ℝ) : EReal) ((10 : ℝ) : EReal)) (IntOp.andi (Ideal.cmp .oeq ((|x b i 0 + -(x b j 0)| : ℝ) : EReal) ((10 : ℝ) : EReal)) (Ideal.cmp .olt (0 : EReal) (0 : EReal)))) (Ideal.cmp .ogt ((|x b i 0 + -(x b j 0)| : ℝ) : EReal) ((350 : ℝ) : EReal))) := by
  rw [fin_main_v31 V]
  exact congrArg₂ IntOp.ori (v28_at x V hX b i j) (v30_at x V hX b i j)

/-- hi = 350 and lo > 0. -/
theorem v36_at (hX : ∀ b i k, (V (Proc.devRef .tc main_arg0) : S100x100x128.Idx → EReal) (ix3 b i k) = ((x b i k : ℝ) : EReal)) (b i j : Fin 100) :
    (fin V (Proc.devRef .tc main_v36) : S100x100x100.Idx → BitVec 1) (ix3 b i j) = (IntOp.andi (Ideal.cmp .oeq ((|x b i 0 + -(x b j 0)| : ℝ) : EReal) ((350 : ℝ) : EReal)) (Ideal.cmp .ogt (0 : EReal) (0 : EReal))) := by
  rw [fin_main_v36 V]
  exact congrArg₂ IntOp.andi (v33_at x V hX b i j) (v35_at x V hX b i j)

/-- The four-way test. -/
theorem v37_at (hX : ∀ b i k, (V (Proc.devRef .tc main_arg0) : S100x100x128.Idx → EReal) (ix3 b i k) = ((x b i k : ℝ) : EReal)) (b i j : Fin 100) :
    (fin V (Proc.devRef .tc main_v37) : S100x100x100.Idx → BitVec 1) (ix3 b i j) = (IntOp.ori (IntOp.ori (IntOp.ori (Ideal.cmp .olt ((|x b i 0 + -(x b j 0)| : ℝ) : EReal) ((10 : ℝ) : EReal)) (IntOp.andi (Ideal.cmp .oeq ((|x b i 0 + -(x b j 0)| : ℝ) : EReal) ((10 : ℝ) : EReal)) (Ideal.cmp .olt (0 : EReal) (0 : EReal)))) (Ideal.cmp .ogt ((|x b i 0 + -(x b j 0)| : ℝ) : EReal) ((350 : ℝ) : EReal))) (IntOp.andi (Ideal.cmp .oeq ((|x b i 0 + -(x b j 0)| : ℝ) : EReal) ((350 : ℝ) : EReal)) (Ideal.cmp .ogt (0 : EReal) (0 : EReal)))) := by
  rw [fin_main_v37 V]
  exact congrArg₂ IntOp.ori (v31_at x V hX b i j) (v36_at x V hX b i j)

/-- THE EDGE TEST'S BIT is 1 exactly when the two longitudes are close on the circle. -/
theorem v37_iff_near (hX : ∀ b i k, (V (Proc.devRef .tc main_arg0) : S100x100x128.Idx → EReal) (ix3 b i k) = ((x b i k : ℝ) : EReal)) (b i j : Fin 100) :
    (fin V (Proc.devRef .tc main_v37) : S100x100x100.Idx → BitVec 1) (ix3 b i j) = 1#1 ↔ near (x b i 0) (x b j 0) := by
  rw [v37_at x V hX b i j, Cert.TwoSumMask.mask_word_eq_one_iff _ _ _ _ _ rfl rfl, EReal.coe_lt_coe_iff,
    EReal.coe_lt_coe_iff, Cert.TwoSumMask.abs_add_neg]
  rfl

/-! ## The bit of "i ≠ j" -/

/-- The table of row numbers. -/
theorem v38_at (i j : Fin 100) :
    (fin V (Proc.devRef .tc main_v38) : S100x100.Idx → BitVec 32) (ix2 i j) = BitVec.ofNat 32 i.val := by
  rw [fin_main_v38 V]; rfl

/-- The table of column numbers. -/
theorem v39_at (i j : Fin 100) :
    (fin V (Proc.devRef .tc main_v39) : S100x100.Idx → BitVec 32) (ix2 i j) = BitVec.ofNat 32 j.val := by
  rw [fin_main_v39 V]; rfl

/-- The diagonal's offset, zero. -/
theorem v40_at (i j : Fin 100) :
    (fin V (Proc.devRef .tc main_v40) : S100x100.Idx → BitVec 32) (ix2 i j) = 0#32 := by
  rw [fin_main_v40 V]
  refine (broadcastInDim_scalar_apply _ _ _).trans ?_
  rw [fin_main_c V]; rfl

/-- The row number plus the offset is the row number. -/
theorem v41_at (i j : Fin 100) :
    (fin V (Proc.devRef .tc main_v41) : S100x100.Idx → BitVec 32) (ix2 i j) = BitVec.ofNat 32 i.val := by
  rw [fin_main_v41 V]
  exact (congrArg₂ (fun s t : BitVec 32 => s + t) (v38_at V i j) (v40_at V i j)).trans (BitVec.add_zero _)

/-- The bit of "row = column". -/
theorem v42_at (i j : Fin 100) :
    (fin V (Proc.devRef .tc main_v42) : S100x100.Idx → BitVec 1) (ix2 i j) = (IntOp.cmpi .eq (BitVec.ofNat 32 i.val) (BitVec.ofNat 32 j.val)) := by
  rw [fin_main_v42 V]
  exact congrArg₂ (IntOp.cmpi .eq) (v41_at V i j) (v39_at V i j)

/-- … with a leading unit axis. -/
theorem v43_at (o : Fin 1) (i j : Fin 100) :
    (fin V (Proc.devRef .tc main_v43) : S1x100x100.Idx → BitVec 1) (ix3 o i j) = (IntOp.cmpi .eq (BitVec.ofNat 32 i.val) (BitVec.ofNat 32 j.val)) := by
  rw [fin_main_v43 V]
  refine (broadcastInDim_apply _ _ _ _ (ix2 i j) (fun a => match a with
      | ⟨0, _⟩ => rfl
      | ⟨1, _⟩ => rfl)).trans ?_
  exact v42_at V i j

/-- Its complement, the bit of "row ≠ column". -/
theorem v44_at (o : Fin 1) (i j : Fin 100) :
    (fin V (Proc.devRef .tc main_v44) : S1x100x100.Idx → BitVec 1) (ix3 o i j) = ~~~(IntOp.cmpi .eq (BitVec.ofNat 32 i.val) (BitVec.ofNat 32 j.val)) := by
  rw [fin_main_v44 V]
  exact congrArg (fun t : BitVec 1 => ~~~t) (v43_at V o i j)

/-- … laid over every graph. -/
theorem v45_at (b i j : Fin 100) :
    (fin V (Proc.devRef .tc main_v45) : S100x100x100.Idx → BitVec 1) (ix3 b i j) = ~~~(IntOp.cmpi .eq (BitVec.ofNat 32 i.val) (BitVec.ofNat 32 j.val)) := by
  rw [fin_main_v45 V]
  refine (broadcastInDim_apply _ _ _ _ (ix3 (0 : Fin 1) i j) (fun a => match a with
      | ⟨0, _⟩ => rfl
      | ⟨1, _⟩ => rfl
      | ⟨2, _⟩ => rfl)).trans ?_
  exact v44_at V 0 i j

/-- THE OFF-DIAGONAL BIT is 1 exactly when the two nodes differ. -/
theorem v45_iff (b i j : Fin 100) :
    (fin V (Proc.devRef .tc main_v45) : S100x100x100.Idx → BitVec 1) (ix3 b i j) = 1#1 ↔ i ≠ j := by
  rw [v45_at V b i j, Cert.AdjBits.not_cmpi_eq_ofNat (by have := i.isLt; omega) (by have := j.isLt; omega)]
  exact Fin.val_ne_iff

/-! ## The mask -/

/-- THE EDGE MASK: the bit of the pair (i, j) of graph b is 1 exactly when the two nodes are distinct and their
    longitudes are close on the circle. -/
theorem mask_iff (hX : ∀ b i k, (V (Proc.devRef .tc main_arg0) : S100x100x128.Idx → EReal) (ix3 b i k) = ((x b i k : ℝ) : EReal)) (b i j : Fin 100) :
    (fin V (Proc.devRef .tc main_v46) : S100x100x100.Idx → BitVec 1) (ix3 b i j) = 1#1 ↔ near (x b i 0) (x b j 0) ∧ i ≠ j := by
  rw [fin_main_v46 V]
  exact IntOp.andi_eq_one.trans (and_congr (v37_iff_near x V hX b i j) (v45_iff V b i j))

end Cert.ReferenceIdeal.RefValue

end
-- ==== Proof.RefEdgeWords.lean ====
/-
  The reference program's edge list, read one entry at a time.

  Node i of graph b has number b · 100 + i. Three coordinate tables (graph, row node, column node) are laid over the
  cube of all triples (b, i, j); the source table is b · 100 + i, the destination table is b · 100 + j where the edge
  mask holds and the dump bucket 100 · 100 elsewhere. Both are flattened row-major, entry (b · 100 + i) · 100 + j, and
  followed by the numbers 0 … 100 · 100 - 1, one self loop per node. Every number is far below 2^31, so the 32-bit
  words read as signed integers are the numbers themselves.
-/
import proofs.«176687_g19121194402273_cont_sun_m_853_29_alg».proof.Proof.RefMask
import proofs.«176687_g19121194402273_cont_sun_m_853_29_alg».proof.Proof.RefEqs1

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.GraphNet

variable (x : Fin 100 → Fin 100 → Fin 128 → ℝ) (V : Valuation τ sig (Elt Ideal))

/-! ## The coordinate tables -/

/-- The graph's number, along the first axis. -/
theorem v48_at (b : Fin 100) (o o' : Fin 1) :
    (fin V (Proc.devRef .tc main_v48) : S100x1x1.Idx → BitVec 32) (ix3 b o o') = BitVec.ofNat 32 b.val := by
  rw [fin_main_v48 V]
  refine (broadcastInDim_apply _ _ _ _ (ix1 b) (fun a => match a with
      | ⟨0, _⟩ => rfl)).trans ?_
  rw [fin_main_v47 V]; rfl

/-- The row node's number, along the second axis. -/
theorem v50_at (o : Fin 1) (i : Fin 100) (o' : Fin 1) :
    (fin V (Proc.devRef .tc main_v50) : S1x100x1.Idx → BitVec 32) (ix3 o i o') = BitVec.ofNat 32 i.val := by
  rw [fin_main_v50 V]
  refine (broadcastInDim_apply _ _ _ _ (ix1 i) (fun a => match a with
      | ⟨0, _⟩ => rfl)).trans ?_
  rw [fin_main_v49 V]; rfl

/-- The column node's number, along the third axis. -/
theorem v52_at (o o' : Fin 1) (j : Fin 100) :
    (fin V (Proc.devRef .tc main_v52) : S1x1x100.Idx → BitVec 32) (ix3 o o' j) = BitVec.ofNat 32 j.val := by
  rw [fin_main_v52 V]
  refine (broadcastInDim_apply _ _ _ _ (ix1 j) (fun a => match a with
      | ⟨0, _⟩ => rfl)).trans ?_
  rw [fin_main_v51 V]; rfl

/-- The number of nodes per graph. -/
theorem v53_at (b : Fin 100) (o o' : Fin 1) :
    (fin V (Proc.devRef .tc main_v53) : S100x1x1.Idx → BitVec 32) (ix3 b o o') = BitVec.ofNat 32 100 := by
  rw [fin_main_v53 V]
  refine (broadcastInDim_scalar_apply _ _ _).trans ?_
  rw [fin_main_c_6 V]; rfl

/-- The number of nodes per graph, again. -/
theorem v60_at (b : Fin 100) (o o' : Fin 1) :
    (fin V (Proc.devRef .tc main_v60) : S100x1x1.Idx → BitVec 32) (ix3 b o o') = BitVec.ofNat 32 100 := by
  rw [fin_main_v60 V]
  refine (broadcastInDim_scalar_apply _ _ _).trans ?_
  rw [fin_main_c_7 V]; rfl

/-! ## The source table b · 100 + i -/

/-- The graph's first node number. -/
theorem v54_at (b : Fin 100) (o o' : Fin 1) :
    (fin V (Proc.devRef .tc main_v54) : S100x1x1.Idx → BitVec 32) (ix3 b o o') = BitVec.ofNat 32 (b.val * 100) := by
  rw [fin_main_v54 V]
  exact (congrArg₂ (fun s t : BitVec 32 => s * t) (v48_at V b o o') (v53_at V b o o')).trans
    (BitVec.ofNat_mul_ofNat b.val 100)

theorem v55_at (b i : Fin 100) (o : Fin 1) :
    (fin V (Proc.devRef .tc main_v55) : S100x100x1.Idx → BitVec 32) (ix3 b i o) = BitVec.ofNat 32 (b.val * 100) := by
  rw [fin_main_v55 V]
  refine (broadcastInDim_apply _ _ _ _ (ix3 b (0 : Fin 1) (0 : Fin 1)) (fun a => match a with
      | ⟨0, _⟩ => rfl
      | ⟨1, _⟩ => rfl
      | ⟨2, _⟩ => rfl)).trans ?_
  exact v54_at V b 0 0

theorem v56_at (b i : Fin 100) (o : Fin 1) :
    (fin V (Proc.devRef .tc main_v56) : S100x100x1.Idx → BitVec 32) (ix3 b i o) = BitVec.ofNat 32 i.val := by
  rw [fin_main_v56 V]
  refine (broadcastInDim_apply _ _ _ _ (ix3 (0 : Fin 1) i (0 : Fin 1)) (fun a => match a with
      | ⟨0, _⟩ => rfl
      | ⟨1, _⟩ => rfl
      | ⟨2, _⟩ => rfl)).trans ?_
  exact v50_at V 0 i 0

/-- The source node's number. -/
theorem v57_at (b i : Fin 100) (o : Fin 1) :
    (fin V (Proc.devRef .tc main_v57) : S100x100x1.Idx → BitVec 32) (ix3 b i o) = BitVec.ofNat 32 (b.val * 100 + i.val) := by
  rw [fin_main_v57 V]
  exact (congrArg₂ (fun s t : BitVec 32 => s + t) (v55_at V b i o) (v56_at V b i o)).trans
    (BitVec.ofNat_add_ofNat (b.val * 100) i.val)

/-- … over the cube of triples. -/
theorem v58_at (b i j : Fin 100) :
    (fin V (Proc.devRef .tc main_v58) : S100x100x100.Idx → BitVec 32) (ix3 b i j) = BitVec.ofNat 32 (b.val * 100 + i.val) := by
  rw [fin_main_v58 V]
  refine (broadcastInDim_apply _ _ _ _ (ix3 b i (0 : Fin 1)) (fun a => match a with
      | ⟨0, _⟩ => rfl
      | ⟨1, _⟩ => rfl
      | ⟨2, _⟩ => rfl)).trans ?_
  exact v57_at V b i 0

/-- … flattened row-major. -/
theorem v59_at (e : Fin 1000000) (b i j : Fin 100) (he : e.val = (b.val * 100 + i.val) * 100 + j.val) :
    (fin V (Proc.devRef .tc main_v59) : S1000000.Idx → BitVec 32) (ix1 e) = BitVec.ofNat 32 (b.val * 100 + i.val) := by
  rw [fin_main_v59 V]
  refine (shapeCast_apply _ _ _ (ix3 b i j) (by
    rw [Shape.rowMajor_val_three, Shape.rowMajor_val_one]
    show (b.val * 100 + i.val) * 100 + j.val = e.val
    omega)).trans ?_
  exact v58_at V b i j

/-! ## The destination table: b · 100 + j under the mask, the dump bucket elsewhere -/

theorem v61_at (b : Fin 100) (o o' : Fin 1) :
    (fin V (Proc.devRef .tc main_v61) : S100x1x1.Idx → BitVec 32) (ix3 b o o') = BitVec.ofNat 32 (b.val * 100) := by
  rw [fin_main_v61 V]
  exact (congrArg₂ (fun s t : BitVec 32 => s * t) (v48_at V b o o') (v60_at V b o o')).trans
    (BitVec.ofNat_mul_ofNat b.val 100)

theorem v62_at (b : Fin 100) (o : Fin 1) (j : Fin 100) :
    (fin V (Proc.devRef .tc main_v62) : S100x1x100.Idx → BitVec 32) (ix3 b o j) = BitVec.ofNat 32 (b.val * 100) := by
  rw [fin_main_v62 V]
  refine (broadcastInDim_apply _ _ _ _ (ix3 b (0 : Fin 1) (0 : Fin 1)) (fun a => match a with
      | ⟨0, _⟩ => rfl
      | ⟨1, _⟩ => rfl
      | ⟨2, _⟩ => rfl)).trans ?_
  exact v61_at V b 0 0

theorem v63_at (b : Fin 100) (o : Fin 1) (j : Fin 100) :
    (fin V (Proc.devRef .tc main_v63) : S100x1x100.Idx → BitVec 32) (ix3 b o j) = BitVec.ofNat 32 j.val := by
  rw [fin_main_v63 V]
  refine (broadcastInDim_apply _ _ _ _ (ix3 (0 : Fin 1) (0 : Fin 1) j) (fun a => match a with
      | ⟨0, _⟩ => rfl
      | ⟨1, _⟩ => rfl
      | ⟨2, _⟩ => rfl)).trans ?_
  exact v52_at V 0 0 j

/-- The destination node's number. -/
theorem v64_at (b : Fin 100) (o : Fin 1) (j : Fin 100) :
    (fin V (Proc.devRef .tc main_v64) : S100x1x100.Idx → BitVec 32) (ix3 b o j) = BitVec.ofNat 32 (b.val * 100 + j.val) := by
  rw [fin_main_v64 V]
  exact (congrArg₂ (fun s t : BitVec 32 => s + t) (v62_at V b o j) (v63_at V b o j)).trans
    (BitVec.ofNat_add_ofNat (b.val * 100) j.val)

/-- … over the cube of triples. -/
theorem call1_v0_at (b i j : Fin 100) :
    (fin V (Proc.devRef .tc main_call1_v0) : S100x100x100.Idx → BitVec 32) (ix3 b i j) = BitVec.ofNat 32 (b.val * 100 + j.val) := by
  rw [fin_main_call1_v0 V]
  refine (broadcastInDim_apply _ _ _ _ (ix3 b (0 : Fin 1) j) (fun a => match a with
      | ⟨0, _⟩ => rfl
      | ⟨1, _⟩ => rfl
      | ⟨2, _⟩ => rfl)).trans ?_
  exact v64_at V b 0 j

/-- The dump bucket's number over the cube of triples. -/
theorem call1_v1_at (b i j : Fin 100) :
    (fin V (Proc.devRef .tc main_call1_v1) : S100x100x100.Idx → BitVec 32) (ix3 b i j) = BitVec.ofNat 32 (100 * 100) := by
  rw [fin_main_call1_v1 V]
  refine (broadcastInDim_scalar_apply _ _ _).trans ?_
  rw [fin_main_c_8 V]; rfl

/-- The destination word of the triple (b, i, j): the select on the mask's bit. -/
theorem v65_at (b i j : Fin 100) :
    (fin V (Proc.devRef .tc main_v65) : S100x100x100.Idx → BitVec 32) (ix3 b i j)
      = Scalar.select ((fin V (Proc.devRef .tc main_v46) : S100x100x100.Idx → BitVec 1) (ix3 b i j)) (BitVec.ofNat 32 (b.val * 100 + j.val)) (BitVec.ofNat 32 (100 * 100)) := by
  rw [fin_main_v65 V]
  exact congrArg₂ (Scalar.select ((fin V (Proc.devRef .tc main_v46) : S100x100x100.Idx → BitVec 1) (ix3 b i j))) (call1_v0_at V b i j) (call1_v1_at V b i j)

/-- … flattened row-major. -/
theorem v66_at (e : Fin 1000000) (b i j : Fin 100) (he : e.val = (b.val * 100 + i.val) * 100 + j.val) :
    (fin V (Proc.devRef .tc main_v66) : S1000000.Idx → BitVec 32) (ix1 e)
      = Scalar.select ((fin V (Proc.devRef .tc main_v46) : S100x100x100.Idx → BitVec 1) (ix3 b i j)) (BitVec.ofNat 32 (b.val * 100 + j.val)) (BitVec.ofNat 32 (100 * 100)) := by
  rw [fin_main_v66 V]
  refine (shapeCast_apply _ _ _ (ix3 b i j) (by
    rw [Shape.rowMajor_val_three, Shape.rowMajor_val_one]
    show (b.val * 100 + i.val) * 100 + j.val = e.val
    omega)).trans ?_
  exact v65_at V b i j

/-! ## The self loops and the two concatenations -/

/-- The node numbers in order. -/
theorem v67_at (n : Fin 10000) :
    (fin V (Proc.devRef .tc main_v67) : S10000.Idx → BitVec 32) (ix1 n) = BitVec.ofNat 32 n.val := by
  rw [fin_main_v67 V]; rfl

/-- A pair entry of the source list. -/
theorem v68_pair (e : Fin 1010000) (b i j : Fin 100) (he : e.val = (b.val * 100 + i.val) * 100 + j.val) :
    (fin V (Proc.devRef .tc main_v68) : S1010000.Idx → BitVec 32) (ix1 e) = BitVec.ofNat 32 (b.val * 100 + i.val) := by
  have hlt : e.val < 1000000 := by have := b.isLt; have := i.isLt; have := j.isLt; omega
  rw [fin_main_v68 V]
  refine (concatenate_pair_apply_left (s₁ := S1000000) (s₂ := S10000) _ _ _ _ (ix1 e) rfl (ix1 (⟨e.val, hlt⟩ : Fin 1000000)) (fun a => match a with
      | ⟨0, _⟩ => rfl)).trans ?_
  exact v59_at V ⟨e.val, hlt⟩ b i j he

/-- A self-loop entry of the source list. -/
theorem v68_loop (e : Fin 1010000) (n : ℕ) (hn : n < 100 * 100) (he : e.val = 100 * 100 * 100 + n) :
    (fin V (Proc.devRef .tc main_v68) : S1010000.Idx → BitVec 32) (ix1 e) = BitVec.ofNat 32 n := by
  rw [fin_main_v68 V]
  refine (concatenate_pair_apply_right (s₁ := S1000000) (s₂ := S10000) _ _ _ _ (ix1 e) rfl rfl (ix1 (⟨n, hn⟩ : Fin 10000))
    (fun a ha => absurd (Subsingleton.elim _ _) ha) (by show n + 1000000 = e.val; omega)).trans ?_
  exact v67_at V ⟨n, hn⟩

/-- A pair entry of the destination list. -/
theorem v69_pair (e : Fin 1010000) (b i j : Fin 100) (he : e.val = (b.val * 100 + i.val) * 100 + j.val) :
    (fin V (Proc.devRef .tc main_v69) : S1010000.Idx → BitVec 32) (ix1 e)
      = Scalar.select ((fin V (Proc.devRef .tc main_v46) : S100x100x100.Idx → BitVec 1) (ix3 b i j)) (BitVec.ofNat 32 (b.val * 100 + j.val)) (BitVec.ofNat 32 (100 * 100)) := by
  have hlt : e.val < 1000000 := by have := b.isLt; have := i.isLt; have := j.isLt; omega
  rw [fin_main_v69 V]
  refine (concatenate_pair_apply_left (s₁ := S1000000) (s₂ := S10000) _ _ _ _ (ix1 e) rfl (ix1 (⟨e.val, hlt⟩ : Fin 1000000)) (fun a => match a with
      | ⟨0, _⟩ => rfl)).trans ?_
  exact v66_at V ⟨e.val, hlt⟩ b i j he

/-- A self-loop entry of the destination list. -/
theorem v69_loop (e : Fin 1010000) (n : ℕ) (hn : n < 100 * 100) (he : e.val = 100 * 100 * 100 + n) :
    (fin V (Proc.devRef .tc main_v69) : S1010000.Idx → BitVec 32) (ix1 e) = BitVec.ofNat 32 n := by
  rw [fin_main_v69 V]
  refine (concatenate_pair_apply_right (s₁ := S1000000) (s₂ := S10000) _ _ _ _ (ix1 e) rfl rfl (ix1 (⟨n, hn⟩ : Fin 10000))
    (fun a ha => absurd (Subsingleton.elim _ _) ha) (by show n + 1000000 = e.val; omega)).trans ?_
  exact v67_at V ⟨n, hn⟩

/-! ## The words read as signed integers -/

/-- A node number as a signed integer. -/
abbrev nodeInt : ℕ → ℤ := fun n => (n : ℤ)

theorem nodeInt_injective : Function.Injective nodeInt := fun _ _ h => Int.ofNat.inj h

/-- The source word of entry e of the edge list, read signed. -/
def srcInt (e : Fin 1010000) : ℤ := ((fin V (Proc.devRef .tc main_v68) : S1010000.Idx → BitVec 32) (ix1 e)).toInt

/-- The destination word of entry e of the edge list, read signed. -/
def dstInt (e : Fin 1010000) : ℤ := ((fin V (Proc.devRef .tc main_v69) : S1010000.Idx → BitVec 32) (ix1 e)).toInt

/-- THE SOURCE OF A PAIR ENTRY is node i of graph b. -/
theorem srcInt_pair : ∀ (e : Fin 1010000) (b i j : Fin 100), e.val = (b.val * 100 + i.val) * 100 + j.val →
    srcInt V e = nodeInt (b.val * 100 + i.val) := by
  intro e b i j he
  unfold srcInt
  rw [v68_pair V e b i j he]
  exact Cert.AdjBits.toInt_ofNat (by have := b.isLt; have := i.isLt; omega)

/-- THE SOURCE OF A SELF-LOOP ENTRY is the node itself. -/
theorem srcInt_loop : ∀ (e : Fin 1010000) (n : ℕ), n < 100 * 100 → e.val = 100 * 100 * 100 + n →
    srcInt V e = nodeInt n := by
  intro e n hn he
  unfold srcInt
  rw [v68_loop V e n hn he]
  exact Cert.AdjBits.toInt_ofNat (by omega)

/-- Every source is a node's number. -/
theorem srcInt_range (e : Fin 1010000) : 0 ≤ srcInt V e ∧ srcInt V e ≤ 9999 := by
  by_cases hlt : e.val < 1000000
  · have h := srcInt_pair V e ⟨e.val / 10000, by omega⟩ ⟨e.val / 100 % 100, by omega⟩ ⟨e.val % 100, by omega⟩
      (by show e.val = (e.val / 10000 * 100 + e.val / 100 % 100) * 100 + e.val % 100; omega)
    rw [h]
    show (0 : ℤ) ≤ ((e.val / 10000 * 100 + e.val / 100 % 100 : ℕ) : ℤ) ∧ ((e.val / 10000 * 100 + e.val / 100 % 100 : ℕ) : ℤ) ≤ 9999
    omega
  · have hE := e.isLt
    have h := srcInt_loop V e (e.val - 1000000) (by omega) (by omega)
    rw [h]
    show (0 : ℤ) ≤ ((e.val - 1000000 : ℕ) : ℤ) ∧ ((e.val - 1000000 : ℕ) : ℤ) ≤ 9999
    omega

/-- THE DESTINATION OF A PAIR ENTRY is node j of graph b when the two nodes are distinct and their longitudes are
    close on the circle, and the dump bucket otherwise. -/
theorem dstInt_pair (hX : ∀ b i k, (V (Proc.devRef .tc main_arg0) : S100x100x128.Idx → EReal) (ix3 b i k) = ((x b i k : ℝ) : EReal)) :
    ∀ (e : Fin 1010000) (b i j : Fin 100), e.val = (b.val * 100 + i.val) * 100 + j.val →
      dstInt V e = if near (x b i 0) (x b j 0) ∧ i ≠ j then nodeInt (b.val * 100 + j.val) else nodeInt (100 * 100) := by
  intro e b i j he
  unfold dstInt
  rw [v69_pair V e b i j he]
  exact Cert.AdjBits.dst_word (mask_iff x V hX b i j) (by have := b.isLt; have := j.isLt; omega) (by omega)

/-- THE DESTINATION OF A SELF-LOOP ENTRY is the node itself. -/
theorem dstInt_loop : ∀ (e : Fin 1010000) (n : ℕ), n < 100 * 100 → e.val = 100 * 100 * 100 + n →
    dstInt V e = nodeInt n := by
  intro e n hn he
  unfold dstInt
  rw [v69_loop V e n hn he]
  exact Cert.AdjBits.toInt_ofNat (by omega)

end Cert.ReferenceIdeal.RefValue

end
-- ==== Proof.RefWords.lean ====
/-
  The reference program's edge list, in the words the assembly of the result is stated in: the two index tables hold
  the list of all ordered pairs of nodes of every graph followed by one self loop per node.
-/
import proofs.«176687_g19121194402273_cont_sun_m_853_29_alg».proof.Proof.RefEdgeWords
import proofs.«176687_g19121194402273_cont_sun_m_853_29_alg».proof.Proof.RefIface

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx Cert.GraphNet

variable (x : Fin 100 → Fin 100 → Fin 128 → ℝ) (V : Valuation τ sig (Elt Ideal))

/-- THE EDGE LIST: when the input array holds the node features, the source and destination tables the program
    leaves hold the list of all ordered pairs of every graph followed by the self loops. -/
theorem words (hX : Feat (V (Proc.devRef .tc main_arg0)) x) :
    Words x (fin V (Proc.devRef .tc main_v68)) (fin V (Proc.devRef .tc main_v69)) :=
  ⟨fun e b i j he => ⟨srcInt_pair V e b i j he, dstInt_pair x V hX e b i j he⟩,
    fun e n hn he => ⟨srcInt_loop V e n hn he, dstInt_loop V e n hn he⟩⟩

end Cert.ReferenceIdeal.RefValue

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibDegreeFactor.lean ====
/-
  Two facts about a graph given by row numbers, used to normalise a neighbourhood sum by degrees.

  The factor of a node is the reciprocal square root of one plus the number of edges arriving at it. One plus a count
  is a positive real, so at the ideal values the factor is a nonnegative real: in particular it is not +∞, which is
  what lets it be moved across sums of arbitrary extended reals.

  A row number read as a signed word names the node n exactly when its signed value is n. Such a word is not negative,
  so the usual adjustment of negative row numbers (add the node count to a negative number, keep the others) leaves it
  alone, and clamping it into the nodes gives n back. So an edge counted at node n by its destination number also reads
  node n when that number is used, adjusted and clamped, to look a value up.
-/
import Idealize.ShloMosaic.PureOps.Ideal.Laws
import Idealize.ShloMosaic.Lib.ValueIdx

noncomputable section

namespace Cert.DegreeFactor

open Idealize.ShloMosaic
open scoped BigOperators

/-- The reciprocal square root of one plus a count is a nonnegative extended real other than +∞. -/
theorem rsqrt_succ_count {ι : Type*} (t : Finset ι) :
    0 ≤ Ideal.rsqrt ((0 + ∑ _i ∈ t, (1 : EReal)) + 1) ∧ Ideal.rsqrt ((0 + ∑ _i ∈ t, (1 : EReal)) + 1) ≠ ⊤ := by
  have hsum : ((0 : EReal) + ∑ _i ∈ t, (1 : EReal)) + 1 = (((t.card : ℝ) + 1 : ℝ) : EReal) := by
    rw [zero_add, Finset.sum_const, nsmul_one, EReal.coe_add, EReal.coe_one, EReal.coe_natCast]
  have hpos : (0 : ℝ) < (t.card : ℝ) + 1 := by positivity
  rw [hsum, Ideal.rsqrt_coe, if_neg (not_lt.mpr hpos.le), if_neg hpos.ne']
  exact ⟨EReal.coe_nonneg.mpr (inv_nonneg.mpr (Real.sqrt_nonneg _)), EReal.coe_ne_top _⟩

/-- A negative row number moved up by `K`, the others kept. -/
def wrapWord (K w : BitVec 32) : BitVec 32 :=
  Scalar.select (IntOp.cmpi .slt w 0#32) (IntOp.addi w K) w

/-- A row number that is not negative is kept. -/
theorem wrapWord_of_nonneg (K w : BitVec 32) (h : 0 ≤ w.toInt) : wrapWord K w = w := by
  unfold wrapWord
  have hs : IntOp.cmpi .slt w 0#32 = 0#1 := by
    unfold IntOp.cmpi
    have : w.slt 0#32 = false := by
      rw [BitVec.slt]
      simp only [BitVec.toInt_zero, decide_eq_false_iff_not, not_lt]
      exact h
    simp only [this]
    rfl
  rw [hs]
  exact ValueIdx.select_zero _ _

end Cert.DegreeFactor
-- ==== Proof.RefDegreeOps.lean ====
/-
  Two stages of the reference program read at an index, at the ideal values.

  The inverse square-root degrees. The stage adds a one, for every entry of the list of destinations, into the entry's
  destination among 10001 zeros, takes square roots and divides one by them. Read at a node s it is one over the
  square root of zero plus the sum of ones over the entries whose destination word, read signed, is s.

  The edge weights. The stage looks the vector of inverse square-root degrees up at every entry's source and at its
  destination and multiplies the two. A look-up first moves a negative node number up by the vector's length and
  then clamps it into the vector; a node number that is not negative is only clamped.
-/
import proofs.«176687_g19121194402273_cont_sun_m_853_29_alg».proof.Proof.RefStages
import proofs.«176687_g19121194402273_cont_sun_m_853_29_alg».proof.Proof.LibSegmentSum
import proofs.«176687_g19121194402273_cont_sun_m_853_29_alg».proof.Proof.LibSegmentDims
import proofs.«176687_g19121194402273_cont_sun_m_853_29_alg».proof.Proof.LibGatherRows
import proofs.«176687_g19121194402273_cont_sun_m_853_29_alg».proof.Proof.LibDegreeFactor
import Idealize.ShloMosaic.Lib.IdealHost
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Layout: a scalar spread over a vector, a vector laid out as a column -/

/-- A scalar spread over the 10001 node slots reads the scalar everywhere. -/
theorem scalar_nodes_apply {α : Type} (c : S_.Idx → α) (s : Fin 10001) :
    broadcastInDim S10001 ![] bcast_S_S10001 c (ix1 s) = c ix0 :=
  broadcastInDim_apply _ _ c _ ix0 fun a => a.elim0

/-- A scalar spread over the 1010000 entries reads the scalar everywhere. -/
theorem scalar_entries_apply {α : Type} (c : S_.Idx → α) (e : Fin 1010000) :
    broadcastInDim S1010000 ![] bcast_S_S1010000 c (ix1 e) = c ix0 :=
  broadcastInDim_apply _ _ c _ ix0 fun a => a.elim0

/-- The entries laid out as a column read, in row e, entry e. -/
theorem column_apply {α : Type} (v : S1010000.Idx → α) (e : Fin 1010000) :
    broadcastInDim S1010000x1 ![0] bcast_S1010000_S1010000x1_0 v (ix2 e (0 : Fin 1)) = v (ix1 e) := by
  refine broadcastInDim_apply _ _ v _ (ix1 e) fun a => ?_
  match a with
  | ⟨0, _⟩ => rfl

/-! ## The inverse square-root degrees -/

/-- The program's dimension numbers of the sum of entries into node slots are the segment sum's. -/
theorem scatter_nodes_eq :
    scatter_S10001_S1010000x1_S1010000_n_0_0_1
      = Cert.SegmentDims.vecDims 10001 1010000 scatter_S10001_S1010000x1_S1010000_n_0_0_1_wf := rfl

/-- One over the square root of a segment sum, at node s, over any operands. -/
theorem div_sqrt_scatter_apply (one zero : FVec Ideal S10001 .f32) (col : IVec S1010000x1 32)
    (upd : FVec Ideal S1010000 .f32) (s : Fin 10001) :
    Host.divf one (Host.sqrt (Host.scatterAdd scatter_S10001_S1010000x1_S1010000_n_0_0_1 zero col upd)) (ix1 s)
      = Ideal.div (one (ix1 s)) (Ideal.sqrt (zero (ix1 s)
          + ∑ e ∈ Finset.univ.filter (fun e : Fin 1010000 => (col (ix2 e (0 : Fin 1))).toInt = (s.val : ℤ)),
              upd (ix1 e))) := by
  show Ideal.div (one (ix1 s))
    (Ideal.sqrt (Host.scatterAdd scatter_S10001_S1010000x1_S1010000_n_0_0_1 zero col upd (ix1 s))) = _
  rw [scatter_nodes_eq, Cert.SegmentSum.scatterAdd_vec_apply _ (Cert.SegmentDims.vec_start0 _)
    (Cert.SegmentDims.vec_window0 _)]

/-- The spread one reads 1 at every node, the spread zero 0, and the spread one reads 1 at every entry. -/
theorem one_nodes_apply (s : Fin 10001) :
    broadcastInDim S10001 ![] bcast_S_S10001 (constant (F := Ideal) S_ .f32 0x3F800000#32) (ix1 s) = 1 :=
  (scalar_nodes_apply _ s).trans Ideal.ofBits_one_f32

theorem zero_nodes_apply (s : Fin 10001) :
    broadcastInDim S10001 ![] bcast_S_S10001 (constant (F := Ideal) S_ .f32 0x00000000#32) (ix1 s) = 0 :=
  (scalar_nodes_apply _ s).trans Ideal.ofBits_zero_f32

theorem one_entries_apply (e : Fin 1010000) :
    broadcastInDim S1010000 ![] bcast_S_S1010000 (constant (F := Ideal) S_ .f32 0x3F800000#32) (ix1 e) = 1 :=
  (scalar_entries_apply _ e).trans Ideal.ofBits_one_f32

/-- THE INVERSE SQUARE-ROOT DEGREES AT A NODE: one over the square root of the number of entries whose destination
    word, read signed, is the node. -/
theorem degInvSqrt_apply (dst : IVec S1010000 32) (s : Fin 10001) :
    degInvSqrt (F := Ideal) dst (ix1 s)
      = Ideal.div 1 (Ideal.sqrt (0
          + ∑ e ∈ Finset.univ.filter (fun e : Fin 1010000 => (dst (ix1 e)).toInt = (s.val : ℤ)), (1 : EReal))) := by
  have hf : ∀ e : Fin 1010000,
      (broadcastInDim S1010000x1 ![0] bcast_S1010000_S1010000x1_0 dst (ix2 e (0 : Fin 1))).toInt = (s.val : ℤ)
        ↔ (dst (ix1 e)).toInt = (s.val : ℤ) := fun e => by rw [column_apply]
  unfold degInvSqrt
  refine (div_sqrt_scatter_apply _ _ _ _ s).trans ?_
  rw [one_nodes_apply, zero_nodes_apply, Finset.sum_congr rfl fun e _ => one_entries_apply e,
    Finset.filter_congr fun e _ => hf e]

/-! ## The edge weights -/

/-- The program's dimension numbers of the look-up of node slots at a column of entries are the vector gather's. -/
theorem gather_nodes_eq :
    gather_S10001_S1010000x1_S1010000_n_0_n_n_0_1_1
      = Cert.GatherRows.vecDims 10001 1010000 gather_S10001_S1010000x1_S1010000_n_0_n_n_0_1_1_wf := rfl

/-- The adjusted node numbers at entry e: the entry's word, moved up by 10001 when it is negative. -/
theorem wrap_apply (w : IVec S1010000 32) (e : Fin 1010000) :
    select (cmpi .slt w (broadcastInDim S1010000 ![] bcast_S_S1010000 (constantI S_ 32 0#32)))
        (addi w (broadcastInDim S1010000 ![] bcast_S_S1010000 (constantI S_ 32 10001#32))) w (ix1 e)
      = Cert.DegreeFactor.wrapWord 10001#32 (w (ix1 e)) := by
  show Scalar.select (IntOp.cmpi .slt (w (ix1 e))
      (broadcastInDim S1010000 ![] bcast_S_S1010000 (constantI S_ 32 0#32) (ix1 e)))
    (IntOp.addi (w (ix1 e)) (broadcastInDim S1010000 ![] bcast_S_S1010000 (constantI S_ 32 10001#32) (ix1 e)))
    (w (ix1 e)) = _
  rw [scalar_entries_apply, scalar_entries_apply]
  rfl

/-- The table looked up at the adjusted node numbers, at an entry whose word is not negative: the table at the word
    clamped into the table. -/
theorem gather_wrap_apply (tab : FVec Ideal S10001 .f32) (w : IVec S1010000 32) (e : Fin 1010000)
    (h : 0 ≤ (w (ix1 e)).toInt) :
    Host.gather gather_S10001_S1010000x1_S1010000_n_0_n_n_0_1_1 tab
        (broadcastInDim S1010000x1 ![0] bcast_S1010000_S1010000x1_0
          (select (cmpi .slt w (broadcastInDim S1010000 ![] bcast_S_S1010000 (constantI S_ 32 0#32)))
            (addi w (broadcastInDim S1010000 ![] bcast_S_S1010000 (constantI S_ 32 10001#32))) w)) (ix1 e)
      = tab (ix1 (Cert.GatherRows.clampRow 10001 (by decide) (w (ix1 e)))) := by
  rw [gather_nodes_eq, Cert.GatherRows.gather_vec_apply (by decide), column_apply, wrap_apply,
    Cert.DegreeFactor.wrapWord_of_nonneg _ _ h]

/-- THE EDGE WEIGHTS AT AN ENTRY whose two words are not negative: the table at the clamped source word times the
    table at the clamped destination word. -/
theorem edgeNorm_apply (tab : FVec Ideal S10001 .f32) (src dst : IVec S1010000 32) (e : Fin 1010000)
    (hs : 0 ≤ (src (ix1 e)).toInt) (hd : 0 ≤ (dst (ix1 e)).toInt) :
    edgeNorm (F := Ideal) tab src dst (ix1 e)
      = tab (ix1 (Cert.GatherRows.clampRow 10001 (by decide) (src (ix1 e))))
        * tab (ix1 (Cert.GatherRows.clampRow 10001 (by decide) (dst (ix1 e)))) := by
  unfold edgeNorm
  exact congrArg₂ (· * ·) (gather_wrap_apply tab src e hs) (gather_wrap_apply tab dst e hd)

end Cert.ReferenceIdeal.RefValue

end
-- ==== Proof.LibAllPairsEdges.lean ====
/-
  The edge list "every ordered pair of nodes of every graph, then one self loop per node", read as dense sums.

  There are B graphs of P nodes, N = B * P nodes in all; node j of graph b has number b * P + j. The edge list has
  E + N entries, E = B * P * P: entry (b * P + i) * P + j is the pair (i, j) of graph b, with source b * P + i and
  with destination b * P + j when a given test holds of (b, i, j), and the dump bucket N otherwise; entry E + n is the
  self loop of node n, with source and destination n.

  A segment sum over such a list at a node n = b * P + j, that is the sum of the update values of the entries whose
  destination is n, is then the sum over the sources i of graph b that pass the test with j of the update of the pair
  (i, j), plus the update of the self loop of n: the pairs of other graphs and the pairs with another second
  coordinate point elsewhere, the failing pairs point at the dump bucket, which is no node, and of the self loops only
  the one of n points at n. The index combinatorics only: the values live in any additive commutative monoid, the
  destinations in any type the node numbers embed in (the naturals, or the integers a signed index word is read as).
-/
import Mathlib.Algebra.BigOperators.Fin
import Mathlib.Logic.Equiv.Fin.Basic
import Mathlib.Tactic.Ring

namespace Cert.AllPairsEdges

open scoped BigOperators

variable {B P : ℕ}

/-! ## Positions in the list -/

/-- The node number of node j of graph b is below N. -/
theorem node_lt (b : Fin B) (j : Fin P) : b.val * P + j.val < B * P := by
  have h1 : b.val * P + P ≤ B * P := by
    have := Nat.mul_le_mul_right P (Nat.succ_le_of_lt b.isLt)
    rwa [Nat.succ_mul] at this
  have := j.isLt
  omega

/-- Node j of graph b as one of the N nodes: number b * P + j. -/
def node (b : Fin B) (j : Fin P) : Fin (B * P) := ⟨b.val * P + j.val, node_lt b j⟩

@[simp] theorem node_val (b : Fin B) (j : Fin P) : (node b j).val = b.val * P + j.val := rfl

/-- The position of the pair (i, j) of graph b: (b * P + i) * P + j, below E. -/
def pairPos (b : Fin B) (i j : Fin P) : Fin (B * P * P + B * P) :=
  Fin.castAdd (B * P) ⟨(b.val * P + i.val) * P + j.val, node_lt (node b i) j⟩

@[simp] theorem pairPos_val (b : Fin B) (i j : Fin P) : (pairPos b i j).val = (b.val * P + i.val) * P + j.val := rfl

/-- The position of the self loop of node n: E + n. -/
def loopPos (n : Fin (B * P)) : Fin (B * P * P + B * P) := Fin.natAdd (B * P * P) n

@[simp] theorem loopPos_val (n : Fin (B * P)) : (loopPos n).val = B * P * P + n.val := rfl

/-- A node number determines the graph and the node in it. -/
theorem node_inj {b b' j j' : ℕ} (hj : j < P) (hj' : j' < P) (h : b' * P + j' = b * P + j) : b' = b ∧ j' = j := by
  have hP : 0 < P := by omega
  have hd : ∀ x y : ℕ, y < P → (x * P + y) / P = x := fun x y hy => by
    rw [Nat.add_comm, Nat.add_mul_div_right _ _ hP, Nat.div_eq_of_lt hy, Nat.zero_add]
  have hb : b' = b := by
    have := congrArg (· / P) h
    simpa [hd _ _ hj, hd _ _ hj'] using this
  subst hb
  exact ⟨rfl, by omega⟩

/-! ## The list as pairs and self loops -/

/-- The entries of the list are the triples (graph, source, destination) and the nodes: the bijection behind the
    splitting of a sum over the list. -/
def edgeEquiv : (Fin B × Fin P × Fin P) ⊕ Fin (B * P) ≃ Fin (B * P * P + B * P) :=
  (Equiv.sumCongr
      (((Equiv.prodAssoc (Fin B) (Fin P) (Fin P)).symm.trans
        (Equiv.prodCongr finProdFinEquiv (Equiv.refl (Fin P)))).trans finProdFinEquiv)
      (Equiv.refl (Fin (B * P)))).trans finSumFinEquiv

theorem edgeEquiv_inl (b : Fin B) (i j : Fin P) : edgeEquiv (Sum.inl (b, i, j)) = pairPos b i j := by
  apply Fin.ext
  simp [edgeEquiv, finProdFinEquiv, pairPos]
  ring

theorem edgeEquiv_inr (n : Fin (B * P)) : edgeEquiv (Sum.inr n : (Fin B × Fin P × Fin P) ⊕ Fin (B * P)) = loopPos n := by
  apply Fin.ext
  simp [edgeEquiv, loopPos]

/-- A sum over the list is the sum over the pairs of every graph plus the sum over the self loops. -/
theorem sum_list {M : Type*} [AddCommMonoid M] (f : Fin (B * P * P + B * P) → M) :
    ∑ e, f e = (∑ b : Fin B, ∑ i : Fin P, ∑ j : Fin P, f (pairPos b i j)) + ∑ n : Fin (B * P), f (loopPos n) := by
  rw [← Equiv.sum_comp edgeEquiv f, Fintype.sum_sum_type]
  simp only [Fintype.sum_prod_type, edgeEquiv_inl, edgeEquiv_inr]

/-! ## The segment sum at a node -/

section SegmentSum

variable {M : Type*} [AddCommMonoid M] {α : Type*} [DecidableEq α]

/-- THE SEGMENT SUM AT A NODE. The destinations take their values in a type α in which node number n is nd n (nd
    injective); a pair (b, i, j) points at node b * P + j when it passes the test and at the dump bucket N otherwise, a
    self loop at its node. Then the sum of upd over the entries that point at node b * P + j is the sum over the
    sources i that pass the test with j of the pair's update, plus the self loop's. -/
theorem sum_filter_dst (nd : ℕ → α) (hnd : Function.Injective nd)
    (mask : Fin B → Fin P → Fin P → Prop) [∀ b i j, Decidable (mask b i j)]
    (dst : Fin (B * P * P + B * P) → α)
    (hpair : ∀ b i j, dst (pairPos b i j) = if mask b i j then nd (b.val * P + j.val) else nd (B * P))
    (hloop : ∀ n : Fin (B * P), dst (loopPos n) = nd n.val)
    (upd : Fin (B * P * P + B * P) → M) (b : Fin B) (j : Fin P) :
    ∑ e ∈ Finset.univ.filter (fun e => dst e = nd (b.val * P + j.val)), upd e
      = (∑ i : Fin P, if mask b i j then upd (pairPos b i j) else 0) + upd (loopPos (node b j)) := by
  rw [Finset.sum_filter, sum_list]
  congr 1
  · -- the pairs: only graph b and second coordinate j can point at the node
    rw [Finset.sum_eq_single b]
    · refine Finset.sum_congr rfl fun i _ => ?_
      rw [Finset.sum_eq_single j]
      · rw [hpair]
        by_cases hm : mask b i j
        · rw [if_pos hm, if_pos hm, if_pos rfl]
        · rw [if_neg hm, if_neg hm, if_neg]
          intro h
          have := hnd h
          have := node_lt b j
          omega
      · intro j' _ hj'
        rw [hpair, if_neg]
        by_cases hm : mask b i j'
        · rw [if_pos hm]
          intro h
          exact hj' (Fin.ext (node_inj j.isLt j'.isLt (hnd h)).2)
        · rw [if_neg hm]
          intro h
          have := hnd h
          have := node_lt b j
          omega
      · intro h; exact absurd (Finset.mem_univ _) h
    · intro b' _ hb'
      refine Finset.sum_eq_zero fun i _ => Finset.sum_eq_zero fun j' _ => ?_
      rw [hpair, if_neg]
      by_cases hm : mask b' i j'
      · rw [if_pos hm]
        intro h
        exact hb' (Fin.ext (node_inj j.isLt j'.isLt (hnd h)).1)
      · rw [if_neg hm]
        intro h
        have := hnd h
        have := node_lt b j
        omega
    · intro h; exact absurd (Finset.mem_univ _) h
  · -- the self loops: only the node's own
    rw [Finset.sum_eq_single (node b j)]
    · rw [hloop, node_val, if_pos rfl]
    · intro n _ hn
      rw [hloop, if_neg]
      intro h
      exact hn (Fin.ext (hnd h))
    · intro h; exact absurd (Finset.mem_univ _) h

/-- The same for a list whose length T is given as a number equal to E + N, the entries known by their positions'
    values: what a program's index vector of a literal length offers. -/
theorem sum_filter_dst_of_val {T : ℕ} (hT : T = B * P * P + B * P) (nd : ℕ → α) (hnd : Function.Injective nd)
    (mask : Fin B → Fin P → Fin P → Prop) [∀ b i j, Decidable (mask b i j)]
    (dst : Fin T → α)
    (hpair : ∀ (e : Fin T) (b : Fin B) (i j : Fin P), e.val = (b.val * P + i.val) * P + j.val →
      dst e = if mask b i j then nd (b.val * P + j.val) else nd (B * P))
    (hloop : ∀ (e : Fin T) (n : ℕ), n < B * P → e.val = B * P * P + n → dst e = nd n)
    (upd : Fin T → M) (b : Fin B) (j : Fin P) :
    ∑ e ∈ Finset.univ.filter (fun e => dst e = nd (b.val * P + j.val)), upd e
      = (∑ i : Fin P, if mask b i j then upd (Fin.cast hT.symm (pairPos b i j)) else 0)
        + upd (Fin.cast hT.symm (loopPos (node b j))) := by
  subst hT
  exact sum_filter_dst nd hnd mask dst (fun b i j => hpair _ b i j rfl) (fun n => hloop _ n.val n.isLt rfl) upd b j

/-- The same with the sources read along: when the update of an entry is a function of its source and its
    destination (a gathered row times a factor looked up at both ends), the source of the pair (b, i, j) being node
    b * P + i and the source of a self loop its node. -/
theorem sum_filter_dst_gather {T : ℕ} (hT : T = B * P * P + B * P) (nd : ℕ → α) (hnd : Function.Injective nd)
    (mask : Fin B → Fin P → Fin P → Prop) [∀ b i j, Decidable (mask b i j)]
    (dst : Fin T → α)
    (hpair : ∀ (e : Fin T) (b : Fin B) (i j : Fin P), e.val = (b.val * P + i.val) * P + j.val →
      dst e = if mask b i j then nd (b.val * P + j.val) else nd (B * P))
    (hloop : ∀ (e : Fin T) (n : ℕ), n < B * P → e.val = B * P * P + n → dst e = nd n)
    {σ : Type*} (sn : ℕ → σ) (src : Fin T → σ)
    (hsrc_pair : ∀ (e : Fin T) (b : Fin B) (i j : Fin P), e.val = (b.val * P + i.val) * P + j.val →
      src e = sn (b.val * P + i.val))
    (hsrc_loop : ∀ (e : Fin T) (n : ℕ), n < B * P → e.val = B * P * P + n → src e = sn n)
    (f : σ → α → M) (b : Fin B) (j : Fin P) :
    ∑ e ∈ Finset.univ.filter (fun e => dst e = nd (b.val * P + j.val)), f (src e) (dst e)
      = (∑ i : Fin P, if mask b i j then f (sn (b.val * P + i.val)) (nd (b.val * P + j.val)) else 0)
        + f (sn (b.val * P + j.val)) (nd (b.val * P + j.val)) := by
  rw [sum_filter_dst_of_val hT nd hnd mask dst hpair hloop (fun e => f (src e) (dst e)) b j]
  congr 1
  · refine Finset.sum_congr rfl fun i _ => ?_
    by_cases hm : mask b i j
    · rw [if_pos hm, if_pos hm, hsrc_pair _ b i j rfl, hpair _ b i j rfl, if_pos hm]
    · rw [if_neg hm, if_neg hm]
  · rw [hsrc_loop _ _ (node_lt b j) rfl, hloop _ _ (node_lt b j) rfl]

/-- The count of the entries that point at a node, each counted as c: the number of sources that pass the test with
    j, plus one, times c — the degree a segment sum of ones computes. -/
theorem sum_filter_dst_const {T : ℕ} (hT : T = B * P * P + B * P) (nd : ℕ → α) (hnd : Function.Injective nd)
    (mask : Fin B → Fin P → Fin P → Prop) [∀ b i j, Decidable (mask b i j)]
    (dst : Fin T → α)
    (hpair : ∀ (e : Fin T) (b : Fin B) (i j : Fin P), e.val = (b.val * P + i.val) * P + j.val →
      dst e = if mask b i j then nd (b.val * P + j.val) else nd (B * P))
    (hloop : ∀ (e : Fin T) (n : ℕ), n < B * P → e.val = B * P * P + n → dst e = nd n)
    (c : M) (b : Fin B) (j : Fin P) :
    ∑ _e ∈ Finset.univ.filter (fun e => dst e = nd (b.val * P + j.val)), c
      = (∑ i : Fin P, if mask b i j then c else 0) + c :=
  sum_filter_dst_of_val hT nd hnd mask dst hpair hloop (fun _ => c) b j

end SegmentSum

end Cert.AllPairsEdges
-- ==== Proof.SpecRefEdges.lean ====
/-
  The degree, the normalisation and one layer's neighbourhood sum, computed as SEGMENT SUMS over the list of all ordered
  pairs of nodes of every graph followed by one self loop per node, land on the specification's degree, normalisation
  and layer.

  One hundred graphs of one hundred nodes; node j of graph b has number b · 100 + j. The list has 100 · 100 · 100 pair
  entries, entry (b · 100 + i) · 100 + j with source b · 100 + i and with destination b · 100 + j when the longitudes of i
  and j are close and i ≠ j, the dump bucket 100 · 100 otherwise, followed by 100 · 100 self loops. Summing ones over the
  entries that point at a node counts the sources close to it, plus one: by the symmetry of closeness that is the
  node's degree. Summing, over the entries that point at node j, the source's row scaled by the normalisation at
  both ends gives the edge-list arrangement of the layer, which is the specification's layer.
-/
import proofs.«176687_g19121194402273_cont_sun_m_853_29_alg».proof.Proof.SpecRef
import proofs.«176687_g19121194402273_cont_sun_m_853_29_alg».proof.Proof.LibAllPairsEdges

noncomputable section

namespace Cert.GraphNet

open scoped BigOperators
open Idealize.ShloMosaic Cert.AllPairsEdges

section
variable (x : Fin 100 → Fin 100 → Fin 128 → ℝ) {T : ℕ} {α : Type*} [DecidableEq α]

/-- THE DEGREE THROUGH THE EDGE LIST. Node numbers are read in a type α through an injective nd; the destinations are
    as described above; every entry carries the value 1, and the sum starts from z = 0. The segment sum at node
    b · 100 + j is the specification's degree of node j of graph b. -/
theorem edges_deg (hT : T = 100 * 100 * 100 + 100 * 100) (nd : ℕ → α) (hnd : Function.Injective nd) (dst : Fin T → α)
    (hpair : ∀ (e : Fin T) (b i j : Fin 100), e.val = (b.val * 100 + i.val) * 100 + j.val →
      dst e = if near (x b i 0) (x b j 0) ∧ i ≠ j then nd (b.val * 100 + j.val) else nd (100 * 100))
    (hloop : ∀ (e : Fin T) (n : ℕ), n < 100 * 100 → e.val = 100 * 100 * 100 + n → dst e = nd n)
    (ones : Fin T → EReal) (hones : ∀ e, ones e = 1) {z : EReal} (hz : z = 0) (b j : Fin 100) :
    z + ∑ e ∈ Finset.univ.filter (fun e => dst e = nd (b.val * 100 + j.val)), ones e = ((deg x b j : ℝ) : EReal) := by
  subst hz
  rw [zero_add, Finset.sum_congr rfl fun e _ => hones e,
    sum_filter_dst_const hT nd hnd (fun b i j => near (x b i 0) (x b j 0) ∧ i ≠ j) dst hpair hloop (1 : EReal) b j,
    coe_deg_col]

/-- THE NORMALISATION THROUGH THE EDGE LIST: one over the square root of that segment sum, with the ideal values'
    division and square root, is the specification's factor. -/
theorem edges_dis (hT : T = 100 * 100 * 100 + 100 * 100) (nd : ℕ → α) (hnd : Function.Injective nd) (dst : Fin T → α)
    (hpair : ∀ (e : Fin T) (b i j : Fin 100), e.val = (b.val * 100 + i.val) * 100 + j.val →
      dst e = if near (x b i 0) (x b j 0) ∧ i ≠ j then nd (b.val * 100 + j.val) else nd (100 * 100))
    (hloop : ∀ (e : Fin T) (n : ℕ), n < 100 * 100 → e.val = 100 * 100 * 100 + n → dst e = nd n)
    (ones : Fin T → EReal) (hones : ∀ e, ones e = 1) {z : EReal} (hz : z = 0) (b j : Fin 100) :
    Ideal.div 1 (Ideal.sqrt (z + ∑ e ∈ Finset.univ.filter (fun e => dst e = nd (b.val * 100 + j.val)), ones e))
      = ((dis x b j : ℝ) : EReal) := by
  rw [edges_deg x hT nd hnd dst hpair hloop ones hones hz b j, coe_dis]

/-- THE NEIGHBOURHOOD SUM THROUGH THE EDGE LIST. The sources are read in a type σ through sn; an entry's update is the
    value hv looked up at its source times the factor dv at its source times the factor dv' at its destination; hv at
    node i of graph b is the real number L b i, dv and dv' at a node are the specification's factor. The segment sum at
    node b · 100 + j, started from z = 0, is the edge-list arrangement's sum. -/
theorem edges_layer_sum (hT : T = 100 * 100 * 100 + 100 * 100) (nd : ℕ → α) (hnd : Function.Injective nd)
    (dst : Fin T → α)
    (hpair : ∀ (e : Fin T) (b i j : Fin 100), e.val = (b.val * 100 + i.val) * 100 + j.val →
      dst e = if near (x b i 0) (x b j 0) ∧ i ≠ j then nd (b.val * 100 + j.val) else nd (100 * 100))
    (hloop : ∀ (e : Fin T) (n : ℕ), n < 100 * 100 → e.val = 100 * 100 * 100 + n → dst e = nd n)
    {σ : Type*} (sn : ℕ → σ) (src : Fin T → σ)
    (hsrc_pair : ∀ (e : Fin T) (b i j : Fin 100), e.val = (b.val * 100 + i.val) * 100 + j.val →
      src e = sn (b.val * 100 + i.val))
    (hsrc_loop : ∀ (e : Fin T) (n : ℕ), n < 100 * 100 → e.val = 100 * 100 * 100 + n → src e = sn n)
    (hv dv : σ → EReal) (dv' : α → EReal) (L : Fin 100 → Fin 100 → ℝ)
    (hhv : ∀ b i : Fin 100, hv (sn (b.val * 100 + i.val)) = ((L b i : ℝ) : EReal))
    (hdv : ∀ b i : Fin 100, dv (sn (b.val * 100 + i.val)) = ((dis x b i : ℝ) : EReal))
    (hdv' : ∀ b j : Fin 100, dv' (nd (b.val * 100 + j.val)) = ((dis x b j : ℝ) : EReal))
    (upd : Fin T → EReal) (hupd : ∀ e, upd e = hv (src e) * (dv (src e) * dv' (dst e)))
    {z : EReal} (hz : z = 0) (b j : Fin 100) :
    z + ∑ e ∈ Finset.univ.filter (fun e => dst e = nd (b.val * 100 + j.val)), upd e
      = (∑ i, if near (x b i 0) (x b j 0) ∧ i ≠ j
          then ((L b i : ℝ) : EReal) * (((dis x b i : ℝ) : EReal) * ((dis x b j : ℝ) : EReal)) else 0)
        + ((L b j : ℝ) : EReal) * (((dis x b j : ℝ) : EReal) * ((dis x b j : ℝ) : EReal)) := by
  subst hz
  rw [zero_add, Finset.sum_congr rfl fun e _ => hupd e,
    sum_filter_dst_gather hT nd hnd (fun b i j => near (x b i 0) (x b j 0) ∧ i ≠ j) dst hpair hloop sn src hsrc_pair
      hsrc_loop (fun s t => hv s * (dv s * dv' t)) b j]
  simp only [hhv, hdv, hdv']

/-- THE LAYER THROUGH THE EDGE LIST: that segment sum of the rows of lin h W, plus the bias, clamped at 0, is the
    specification's layer. -/
theorem edges_layer (hT : T = 100 * 100 * 100 + 100 * 100) (nd : ℕ → α) (hnd : Function.Injective nd)
    (dst : Fin T → α)
    (hpair : ∀ (e : Fin T) (b i j : Fin 100), e.val = (b.val * 100 + i.val) * 100 + j.val →
      dst e = if near (x b i 0) (x b j 0) ∧ i ≠ j then nd (b.val * 100 + j.val) else nd (100 * 100))
    (hloop : ∀ (e : Fin T) (n : ℕ), n < 100 * 100 → e.val = 100 * 100 * 100 + n → dst e = nd n)
    {σ : Type*} (sn : ℕ → σ) (src : Fin T → σ)
    (hsrc_pair : ∀ (e : Fin T) (b i j : Fin 100), e.val = (b.val * 100 + i.val) * 100 + j.val →
      src e = sn (b.val * 100 + i.val))
    (hsrc_loop : ∀ (e : Fin T) (n : ℕ), n < 100 * 100 → e.val = 100 * 100 * 100 + n → src e = sn n)
    (h : Fin 100 → Fin 100 → Fin 128 → ℝ) (W : Fin 128 → Fin 128 → ℝ) (bias : Fin 128 → ℝ) (c : Fin 128)
    (hv dv : σ → EReal) (dv' : α → EReal)
    (hhv : ∀ b i : Fin 100, hv (sn (b.val * 100 + i.val)) = ((lin h W b i c : ℝ) : EReal))
    (hdv : ∀ b i : Fin 100, dv (sn (b.val * 100 + i.val)) = ((dis x b i : ℝ) : EReal))
    (hdv' : ∀ b j : Fin 100, dv' (nd (b.val * 100 + j.val)) = ((dis x b j : ℝ) : EReal))
    (upd : Fin T → EReal) (hupd : ∀ e, upd e = hv (src e) * (dv (src e) * dv' (dst e)))
    {z : EReal} (hz : z = 0) (b j : Fin 100) :
    max ((z + ∑ e ∈ Finset.univ.filter (fun e => dst e = nd (b.val * 100 + j.val)), upd e) + ((bias c : ℝ) : EReal)) 0
      = ((layer x h W bias b j c : ℝ) : EReal) := by
  rw [edges_layer_sum x hT nd hnd dst hpair hloop sn src hsrc_pair hsrc_loop hv dv dv' (fun b i => lin h W b i c) hhv hdv
    hdv' upd hupd hz b j]
  exact coe_refLayer x h W bias b j c

end

end Cert.GraphNet

end
-- ==== Proof.RefDegree.lean ====
/-
  The reference program's table of inverse square-root degrees and its edge weights, in the words that tie the
  program's buffers to the network over the reals.

  The table. Its stage is one over the square root of a segment sum of ones over the list of destinations. When the
  two index tables hold the list of all ordered pairs of nodes of every graph followed by one self loop per node, that
  segment sum at node j of graph b counts the nodes close to j, plus one: the table holds the specification's
  inverse square-root degree at every node's slot.

  The weights. Their stage reads the table at each entry's source word and at its destination word, adjusted and
  clamped, and multiplies. A word whose signed value is a slot of the table is not negative, so the adjustment keeps
  it, and clamping it gives the slot back: the weight is the table at the source slot times the table at the
  destination slot, whatever the tables hold.
-/
import proofs.«176687_g19121194402273_cont_sun_m_853_29_alg».proof.Proof.RefDegreeOps
import proofs.«176687_g19121194402273_cont_sun_m_853_29_alg».proof.Proof.RefIface
import proofs.«176687_g19121194402273_cont_sun_m_853_29_alg».proof.Proof.SpecRefEdges

noncomputable section

namespace Cert.ReferenceIdeal.RefValue

open Cert.ReferenceIdeal Cert.ReferenceIdeal.Gen Cert.ReferenceIdeal.RefRun Idealize.ShloMosaic Idealize.ShloMosaic.ValueIdx
  Cert.GraphNet
open scoped BigOperators

/-- THE TABLE OF INVERSE SQUARE-ROOT DEGREES: over index tables that hold the edge list, the stage's table holds the
    specification's factor at every node's slot. -/
theorem disTable_degInvSqrt (x : Fin 100 → Fin 100 → Fin 128 → ℝ)
    (src dst : (⟨S1010000, .i32⟩ : BufTy).Contents (Elt Ideal)) (h : Words x src dst) :
    DisTable x (degInvSqrt dst) := by
  intro b j
  rw [degInvSqrt_apply]
  exact edges_dis x (by norm_num) (fun n : ℕ => (n : ℤ)) Nat.cast_injective (fun e => (dst (ix1 e)).toInt)
    (fun e b i j he => (h.1 e b i j he).2) (fun e n hn he => (h.2 e n hn he).2) (fun _ => 1) (fun _ => rfl) rfl b j

/-- THE EDGE WEIGHTS: over any table and any index tables, the stage's array holds, at an entry whose words are the
    slots s and d, the table at s times the table at d. -/
theorem weights_edgeNorm (tab : (⟨S10001, .f32⟩ : BufTy).Contents (Elt Ideal))
    (src dst : (⟨S1010000, .i32⟩ : BufTy).Contents (Elt Ideal)) :
    Weights tab src dst (edgeNorm tab src dst) := by
  intro e s d hs hd
  have h0s : 0 ≤ (src (ix1 e)).toInt := by rw [hs]; exact Int.natCast_nonneg _
  have h0d : 0 ≤ (dst (ix1 e)).toInt := by rw [hd]; exact Int.natCast_nonneg _
  rw [edgeNorm_apply tab src dst e h0s h0d, Cert.GatherRows.clampRow_of_toInt _ _ s hs,
    Cert.GatherRows.clampRow_of_toInt _ _ d hd]

/-! ## The same, for what the program's operations leave -/

section
variable (V : Valuation τ sig (Elt Ideal))

/-- The table left in its buffer holds the specification's factors, when the two index tables left hold the edge
    list. -/
theorem disTable_main_v76 (x : Fin 100 → Fin 100 → Fin 128 → ℝ)
    (h : Words x (fin V (Proc.devRef .tc main_v68)) (fin V (Proc.devRef .tc main_v69))) :
    DisTable x (fin V (Proc.devRef .tc main_v76)) := by
  rw [stage_main_v76 V]
  exact disTable_degInvSqrt x _ _ h

/-- The three layers' edge weights left in their buffers are the table's products. -/
theorem weights_main_v97 :
    Weights (fin V (Proc.devRef .tc main_v76)) (fin V (Proc.devRef .tc main_v68)) (fin V (Proc.devRef .tc main_v69))
      (fin V (Proc.devRef .tc main_v97)) := by
  rw [stage_main_v97 V]
  exact weights_edgeNorm _ _ _

theorem weights_main_v125 :
    Weights (fin V (Proc.devRef .tc main_v76)) (fin V (Proc.devRef .tc main_v68)) (fin V (Proc.devRef .tc main_v69))
      (fin V (Proc.devRef .tc main_v125)) := by
  rw [stage_main_v125 V]
  exact weights_edgeNorm _ _ _

theorem weights_main_v153 :
    Weights (fin V (Proc.devRef .tc main_v76)) (fin V (Proc.devRef .tc main_v68)) (fin V (Proc.devRef .tc main_v69))
      (fin V (Proc.devRef .tc main_v153)) := by
  rw [stage_main_v153 V]
  exact weights_edgeNorm _ _ _

end

end Cert.ReferenceIdeal.RefValue

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.RefEndsIn.lean ====
/-
  The input map of the network, read off the host operations: the node features `[100, 100, 128]` flattened to one row
  per node (row `b·100 + i`), times the weight matrix `[128, 128]`, plus the bias vector laid along every row. At real
  inputs the entry at row `b·100 + i`, column `c` is the input map `h0` of the specification.
-/
import proofs.«176687_g19121194402273_cont_sun_m_853_29_alg».proof.Proof.Gen.ReferenceIdeal
import proofs.«176687_g19121194402273_cont_sun_m_853_29_alg».proof.Proof.LibDenseRows
import proofs.«176687_g19121194402273_cont_sun_m_853_29_alg».proof.Proof.LibRank3Layout
import proofs.«176687_g19121194402273_cont_sun_m_853_29_alg».proof.Proof.SpecRef

noncomputable section

namespace Cert.ReferenceIdeal.RefValue

open Cert.ReferenceIdeal Cert.ReferenceIdeal.Gen Idealize.ShloMosaic Idealize.ShloMosaic.ValueIdx Cert.GraphNet
open scoped BigOperators

/-- The flattened features times the weights plus the bias row, at row `r = b·100 + i` and column `c`: the
    specification's input map at node `i` of graph `b`. -/
theorem embed_apply
    (feat : FVec Ideal S100x100x128 .f32) (W : FVec Ideal S128x128 .f32) (bias : FVec Ideal S128 .f32)
    (x : Fin 100 → Fin 100 → Fin 128 → ℝ) (Win : Fin 128 → Fin 128 → ℝ) (bin : Fin 128 → ℝ)
    (hX : ∀ b i k, feat (ix3 b i k) = ((x b i k : ℝ) : EReal))
    (hW : ∀ k c, W (ix2 k c) = ((Win k c : ℝ) : EReal))
    (hb : ∀ c, bias (ix1 c) = ((bin c : ℝ) : EReal))
    (b i : Fin 100) (c : Fin 128) (r : Fin 10000) (hr : r.val = b.val * 100 + i.val) :
    addf (Host.dotGeneral dot_S10000x128_S128x128_S10000x128_1_0_0_1_n_n none
            (shapeCast S10000x128 feat shapeCasts_S100x100x128_S10000x128) W)
         (broadcastInDim S10000x128 ![0, 1] bcast_S1x128_S10000x128_0_1
            (broadcastInDim S1x128 ![1] bcast_S128_S1x128_1 bias)) (ix2 r c)
      = ((h0 x Win bin b i c : ℝ) : EReal) := by
  rw [addf_apply]
  rw [Cert.DenseRows.dotGeneral_plain_apply _ rfl rfl rfl rfl (fun _ _ => rfl) (fun _ _ => rfl)]
  rw [Cert.DenseRows.rowBias_inDim_apply]
  unfold h0
  rw [EReal.coe_add, coe_lin, hb]
  congr 1
  refine Finset.sum_congr rfl fun k _ => ?_
  rw [Cert.Rank3Layout.shapeCast_abc_flat_apply feat _ b i k r hr, hX, hW]

end Cert.ReferenceIdeal.RefValue

end
-- ==== Proof.LibPairLayout.lean ====
/-
  Rank-3 layout operations read at an index given by coordinates, for a pairwise difference `u[p, d] − v[d, q]` laid out
  as `[a, c, n]`: a middle unit axis dropped (`[a, 1, c]` to `[a, c]`), a trailing unit axis added (`[a, c]` to `[a, c, 1]`),
  that trailing axis broadcast (`[a, c, 1]` to `[a, c, n]`), a leading unit axis broadcast (`[1, c, n]` to `[a, c, n]`),
  the index a reduction over the middle axis inserts (`[a, c, n]` to `[a, n]`), the one a reduction over the last axis of
  a matrix inserts (`[a, n]` to `[a]`), and a rank-3 transpose that brings the leading axis last.
-/
import Idealize.ShloMosaic.Lib.ValueLayout
import Idealize.ShloMosaic.PureOps.Ideal.Laws

namespace Cert.PairLayout

open Idealize.ShloMosaic Idealize.ShloMosaic.ValueIdx

variable {α : Type}

/-- An `[a, 1, c]` array cast to `[a, c]` reads, at `(p, d)`, the operand at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- An `[a, c]` array cast to `[a, c, 1]` reads, at `(p, d, u)`, the operand at `(p, d)`. -/
theorem shapeCast_ac_ac1_apply {a c : ℕ} (x : (⟨2, ![a, c]⟩ : Shape).Idx → α)
    (h : (⟨2, ![a, c]⟩ : Shape).ShapeCasts ⟨3, ![a, c, 1]⟩) (p : Fin a) (d : Fin c) (u : Fin 1) :
    shapeCast ⟨3, ![a, c, 1]⟩ x h (ix3 p d u) = x (ix2 p d) :=
  shapeCast_apply x h _ _ (by
    have hu : u.val = 0 := by omega
    rw [Shape.rowMajor_val_three, Shape.rowMajor_val_two]
    show p.val * c + d.val = (p.val * c + d.val) * 1 + u.val
    rw [hu, Nat.mul_one, Nat.add_zero])

/-- An `[a, c, 1]` array broadcast to `[a, c, n]` reads, at `(p, d, q)`, the operand at `(p, d, 0)`. -/
theorem broadcastTo_ac1_acn_apply {a c n : ℕ} (v : (⟨3, ![a, c, 1]⟩ : Shape).Idx → α)
    (h : (⟨3, ![a, c, 1]⟩ : Shape).Broadcasts ⟨3, ![a, c, n]⟩) (p : Fin a) (d : Fin c) (q : Fin n) :
    broadcastTo ⟨3, ![a, c, n]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl
  | ⟨2, _⟩ => rfl

/-- A `[1, c, n]` array broadcast to `[a, c, n]` reads, at `(p, d, q)`, the operand at `(0, d, q)`. -/
theorem broadcastTo_1cn_acn_apply {a c n : ℕ} (v : (⟨3, ![1, c, n]⟩ : Shape).Idx → α)
    (h : (⟨3, ![1, c, n]⟩ : Shape).Broadcasts ⟨3, ![a, c, n]⟩) (p : Fin a) (d : Fin c) (q : Fin n) :
    broadcastTo ⟨3, ![a, c, n]⟩ v h (ix3 p d q) = v (ix3 (0 : Fin 1) d q) := by
  refine broadcastTo_apply v h (ix3 p d q) (ix3 (0 : Fin 1) d q) fun ax => ?_
  match ax with
  | ⟨0, _⟩ => rfl
  | ⟨1, _⟩ =>
    show d.val = if c = 1 then 0 else d.val
    split
    · have := d.isLt; omega
    · rfl
  | ⟨2, _⟩ =>
    show q.val = if n = 1 then 0 else q.val
    split
    · have := q.isLt; omega
    · rfl

/-- The source index a reduction of `[a, c, n]` over its middle axis visits for result index `(p, q)` and
    coordinate `d` is `(p, d, q)`. -/
theorem lift_middle {a c n : ℕ} (h : (⟨3, ![a, c, n]⟩ : Shape).Reduces [(1 : Fin 3)] ⟨2, ![a, n]⟩)
    (p : Fin a) (q : Fin n) (d : Fin c) : h.lift (ix2 p q) d = ix3 p d q :=
  funext fun ax => Fin.ext (by
    match ax with
    | ⟨0, _⟩ => rfl
    | ⟨1, _⟩ => rfl
    | ⟨2, _⟩ => rfl)

/-- The source index a reduction of `[a, n]` over its columns visits for row `p` and coordinate `q` is `(p, q)`. -/
theorem lift_cols {a n : ℕ} (h : (⟨2, ![a, n]⟩ : Shape).Reduces [(1 : Fin 2)] ⟨1, ![a]⟩)
    (p : Fin a) (q : Fin n) : h.lift (ix1 p) q = ix2 p q :=
  funext fun ax => Fin.ext (by
    match ax with
    | ⟨0, _⟩ => rfl
    | ⟨1, _⟩ => rfl)

/-- The lane reduction of `[a, c, n]` over its middle axis from the zero word, at `(p, q)`: the sum over `d` of the
    source at `(p, d, q)`. -/
theorem middleSum_apply {a c n : ℕ} (src : FVec Ideal ⟨3, ![a, c, n]⟩ .f32)
    (h : (⟨3, ![a, c, n]⟩ : Shape).Reduces [(1 : Fin 3)] ⟨2, ![a, n]⟩)
    (hφ : FKind.Formats .f32) (hacc : (0x00000000#32 : BitVec 32) = FKind.add.neutral .f32 hφ) (p : Fin a) (q : Fin n) :
    multiReduction .add [(1 : Fin 3)] ⟨2, ![a, n]⟩ src 0x00000000#32 h hφ hacc (ix2 p q) = ∑ d : Fin c, src (ix3 p d q) :=
  (Ideal.multiReduction_add_single src 0x00000000#32 h hφ hacc (ix2 p q)).trans
    (Finset.sum_congr rfl fun d _ => congrArg src (lift_middle h p q d))

/-- An `[m, a, b]` array transposed by the permutation `[1, 2, 0]` (result axes are source axes 1, 2, 0) reads, at
    `(i, j, k)`, the operand at `(k, i, j)`. -/
theorem transpose_ix3_120_apply {m a b : ℕ} (x : (⟨3, ![m, a, b]⟩ : Shape).Idx → α)
    (h : (⟨3, ![m, a, b]⟩ : Shape).Transposes [1, 2, 0] ⟨3, ![a, b, m]⟩) (i : Fin a) (j : Fin b) (k : Fin m) :
    transpose ⟨3, ![a, b, m]⟩ [1, 2, 0] x h (ix3 i j k) = x (ix3 k i j) :=
  transpose_apply _ x h _ _ fun c => match c with | ⟨0, _⟩ => rfl | ⟨1, _⟩ => rfl | ⟨2, _⟩ => rfl

end Cert.PairLayout
-- ==== Proof.RefEndsOut.lean ====
/-
  The pooling and the head of the network, read off the host operations: the node features `[10000, 128]` (row
  `b·100 + i` for node `i` of graph `b`) unflattened to `[100, 100, 128]`, summed over the nodes of each graph from the
  initial value zero, divided by the constant one hundred; then a dense layer `[128, 64]` with its bias row clamped at
  zero, and a dense layer `[64, 1]` with its bias. At real inputs every stage is the cast of the real expression.
-/
import proofs.«176687_g19121194402273_cont_sun_m_853_29_alg».proof.Proof.Gen.ReferenceIdeal
import proofs.«176687_g19121194402273_cont_sun_m_853_29_alg».proof.Proof.LibDenseRows
import proofs.«176687_g19121194402273_cont_sun_m_853_29_alg».proof.Proof.LibRank3Layout
import proofs.«176687_g19121194402273_cont_sun_m_853_29_alg».proof.Proof.LibPairLayout
import proofs.«176687_g19121194402273_cont_sun_m_853_29_alg».proof.Proof.LibDenseLayer

noncomputable section

namespace Cert.ReferenceIdeal.RefValue

open Cert.ReferenceIdeal Cert.ReferenceIdeal.Gen Idealize.ShloMosaic Idealize.ShloMosaic.ValueIdx
open scoped BigOperators

/-! ## General steps -/

/-- The host's `reduce` with `add` over the middle axis of `[a, c, n]` from an initial scalar, at `(p, q)`: the initial
    value plus the sum over `d` of the operand at `(p, d, q)`. -/
theorem hostMiddleSum_apply {a c n : ℕ} (x : FVec Ideal ⟨3, ![a, c, n]⟩ .f32) (init : (⟨0, ![]⟩ : Shape).Idx → Ideal .f32)
    (h' : (⟨3, ![a, c, n]⟩ : Shape).ReducesTo [(1 : Fin 3)] ⟨2, ![a, n]⟩) (hu : 0 < (⟨0, ![]⟩ : Shape).numel)
    (h : (⟨3, ![a, c, n]⟩ : Shape).Reduces [(1 : Fin 3)] ⟨2, ![a, n]⟩) (p : Fin a) (q : Fin n) :
    Host.reduceAdd x init h' hu (ix2 p q) = init (Shape.Idx.first hu) + ∑ d : Fin c, x (ix3 p d q) :=
  (hostReduceAdd_apply x init h' hu (ix2 p q)).trans
    ((Ideal.hostReduceAdd_single h' h x _ (ix2 p q)).trans
      (congrArg (init (Shape.Idx.first hu) + ·)
        (Finset.sum_congr rfl fun d _ => congrArg x (Cert.PairLayout.lift_middle h p q d))))

/-- The binary32 pattern `0x42C80000` is the real number one hundred. -/
theorem ofBits_hundred_f32 : Ideal.ofBits .f32 0x42C80000#32 = ((100 : ℝ) : EReal) := by
  simp [Ideal.ofBits, Ideal.ieee, -EReal.coe_mul]; norm_num

/-- A dense layer on rows: a matrix `[M, K]` of real entries times a matrix `[K, N]` of real entries, plus a real bias
    vector `[N]` laid along every row, at `(r, c)`: the cast of the real sum of products plus the bias. -/
theorem dense_apply {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (h1 : (⟨1, ![N]⟩ : Shape).BroadcastsInDim ⟨2, ![1, N]⟩ ![1])
    (h2 : (⟨2, ![1, N]⟩ : Shape).BroadcastsInDim ⟨2, ![M, N]⟩ ![0, 1])
    (A : FVec Ideal ⟨2, ![M, K]⟩ .f32) (W : FVec Ideal ⟨2, ![K, N]⟩ .f32) (bias : FVec Ideal ⟨1, ![N]⟩ .f32)
    (Ar : Fin M → Fin K → ℝ) (Wr : Fin K → Fin N → ℝ) (br : Fin N → ℝ)
    (hA : ∀ r k, A (ix2 r k) = ((Ar r k : ℝ) : EReal))
    (hW : ∀ k c, W (ix2 k c) = ((Wr k c : ℝ) : EReal))
    (hb : ∀ c, bias (ix1 c) = ((br c : ℝ) : EReal)) (r : Fin M) (c : Fin N) :
    addf (Host.dotGeneral D none A W)
        (broadcastInDim ⟨2, ![M, N]⟩ ![0, 1] h2 (broadcastInDim ⟨2, ![1, N]⟩ ![1] h1 bias)) (ix2 r c)
      = (((∑ k, Ar r k * Wr k c) + br c : ℝ) : EReal) := by
  rw [addf_apply, Cert.DenseRows.dotGeneral_plain_apply D hl hr hrank hsize hl0 hr1,
    Cert.DenseRows.rowBias_inDim_apply, hb, EReal.coe_add, Cert.DenseLayer.coe_sum]
  congr 1
  refine Finset.sum_congr rfl fun k _ => ?_
  rw [hA, hW, EReal.coe_mul]

/-! ## The mean over a graph's nodes -/

/-- The node features unflattened, summed over each graph's nodes from zero and divided by one hundred, at graph `b` and
    column `c`: the real sum times one hundredth. -/
theorem pool_apply (h : FVec Ideal S10000x128 .f32) (H : Fin 100 → Fin 100 → Fin 128 → ℝ)
    (hh : ∀ (b i : Fin 100) (c : Fin 128) (r : Fin 10000), r.val = b.val * 100 + i.val →
      h (ix2 r c) = ((H b i c : ℝ) : EReal)) (b : Fin 100) (c : Fin 128) :
    Host.divf
        (Host.reduceAdd (shapeCast S100x100x128 h shapeCasts_S10000x128_S100x100x128)
          (constant (F := Ideal) S_ .f32 0x00000000#32) reducesTo_S100x100x128_S100x128_d1 h_S_)
        (broadcastInDim S100x128 ![] bcast_S_S100x128 (constant (F := Ideal) S_ .f32 0x42C80000#32)) (ix2 b c)
      = (((∑ i, H b i c) * (1 / 100) : ℝ) : EReal) := by
  rw [hostDivf_apply, hostMiddleSum_apply _ _ _ _ (by decide) b c, broadcastInDim_scalar_apply, constant_apply,
    constant_apply, Ideal.ofBits_zero_f32, ofBits_hundred_f32, zero_add,
    Ideal.div_coe (by norm_num : (100 : ℝ) ≠ 0), EReal.coe_mul, Cert.DenseLayer.coe_sum]
  congr 1
  refine Finset.sum_congr rfl fun i _ => ?_
  rw [Cert.Rank3Layout.shapeCast_flat_abc_apply h _ b i c ⟨b.val * 100 + i.val, by have := b.isLt; have := i.isLt; omega⟩ rfl]
  exact hh b i c _ rfl

/-! ## The head -/

/-- The two dense layers of the head on a pooled matrix `[100, 128]` of real entries, the first clamped at zero, at
    `(b, 0)`. -/
theorem head_apply (P : FVec Ideal S100x128 .f32) (W1 : FVec Ideal S128x64 .f32) (b1 : FVec Ideal S64 .f32)
    (W2 : FVec Ideal S64x1 .f32) (b2 : FVec Ideal S1 .f32)
    (Pr : Fin 100 → Fin 128 → ℝ) (Wo1 : Fin 128 → Fin 64 → ℝ) (bo1 : Fin 64 → ℝ) (Wo2 : Fin 64 → Fin 1 → ℝ)
    (bo2 : Fin 1 → ℝ)
    (hP : ∀ b c, P (ix2 b c) = ((Pr b c : ℝ) : EReal))
    (hW1 : ∀ c d, W1 (ix2 c d) = ((Wo1 c d : ℝ) : EReal)) (hb1 : ∀ d, b1 (ix1 d) = ((bo1 d : ℝ) : EReal))
    (hW2 : ∀ d e, W2 (ix2 d e) = ((Wo2 d e : ℝ) : EReal)) (hb2 : ∀ e, b2 (ix1 e) = ((bo2 e : ℝ) : EReal))
    (b : Fin 100) :
    addf
        (Host.dotGeneral dot_S100x64_S64x1_S100x1_1_0_0_1_n_n none
          (maximumf
            (addf (Host.dotGeneral dot_S100x128_S128x64_S100x64_1_0_0_1_n_n none P W1)
              (broadcastInDim S100x64 ![0, 1] bcast_S1x64_S100x64_0_1 (broadcastInDim S1x64 ![1] bcast_S64_S1x64_1 b1)))
            (broadcastInDim S100x64 ![] bcast_S_S100x64 (constant (F := Ideal) S_ .f32 0x00000000#32)))
          W2)
        (broadcastInDim S100x1 ![0, 1] bcast_S1x1_S100x1_0_1 (broadcastInDim S1x1 ![1] bcast_S1_S1x1_1 b2))
        (ix2 b (0 : Fin 1))
      = (((∑ d, max ((∑ c, Pr b c * Wo1 c d) + bo1 d) 0 * Wo2 d 0) + bo2 0 : ℝ) : EReal) := by
  refine dense_apply dot_S100x64_S64x1_S100x1_1_0_0_1_n_n rfl rfl rfl rfl (fun _ _ => rfl) (fun _ _ => rfl)
    bcast_S1_S1x1_1 bcast_S1x1_S100x1_0_1 _ W2 b2 (fun b d => max ((∑ c, Pr b c * Wo1 c d) + bo1 d) 0) Wo2 bo2
    (fun r k => ?_) hW2 hb2 b (0 : Fin 1)
  rw [maximumf_apply,
    dense_apply dot_S100x128_S128x64_S100x64_1_0_0_1_n_n rfl rfl rfl rfl (fun _ _ => rfl) (fun _ _ => rfl)
      bcast_S64_S1x64_1 bcast_S1x64_S100x64_0_1 P W1 b1 Pr Wo1 bo1 hP hW1 hb1 r k,
    broadcastInDim_scalar_apply, constant_apply, Ideal.ofBits_zero_f32, Cert.DenseLayer.max_coe_zero]

/-- The whole readout on node features of real entries, at `(b, 0)`. -/
theorem readout_apply (h : FVec Ideal S10000x128 .f32) (W1 : FVec Ideal S128x64 .f32) (b1 : FVec Ideal S64 .f32)
    (W2 : FVec Ideal S64x1 .f32) (b2 : FVec Ideal S1 .f32)
    (H : Fin 100 → Fin 100 → Fin 128 → ℝ) (Wo1 : Fin 128 → Fin 64 → ℝ) (bo1 : Fin 64 → ℝ) (Wo2 : Fin 64 → Fin 1 → ℝ)
    (bo2 : Fin 1 → ℝ)
    (hh : ∀ (b i : Fin 100) (c : Fin 128) (r : Fin 10000), r.val = b.val * 100 + i.val →
      h (ix2 r c) = ((H b i c : ℝ) : EReal))
    (hW1 : ∀ c d, W1 (ix2 c d) = ((Wo1 c d : ℝ) : EReal)) (hb1 : ∀ d, b1 (ix1 d) = ((bo1 d : ℝ) : EReal))
    (hW2 : ∀ d e, W2 (ix2 d e) = ((Wo2 d e : ℝ) : EReal)) (hb2 : ∀ e, b2 (ix1 e) = ((bo2 e : ℝ) : EReal))
    (b : Fin 100) :
    addf
        (Host.dotGeneral dot_S100x64_S64x1_S100x1_1_0_0_1_n_n none
          (maximumf
            (addf
              (Host.dotGeneral dot_S100x128_S128x64_S100x64_1_0_0_1_n_n none
                (Host.divf
                  (Host.reduceAdd (shapeCast S100x100x128 h shapeCasts_S10000x128_S100x100x128)
                    (constant (F := Ideal) S_ .f32 0x00000000#32) reducesTo_S100x100x128_S100x128_d1 h_S_)
                  (broadcastInDim S100x128 ![] bcast_S_S100x128 (constant (F := Ideal) S_ .f32 0x42C80000#32)))
                W1)
              (broadcastInDim S100x64 ![0, 1] bcast_S1x64_S100x64_0_1 (broadcastInDim S1x64 ![1] bcast_S64_S1x64_1 b1)))
            (broadcastInDim S100x64 ![] bcast_S_S100x64 (constant (F := Ideal) S_ .f32 0x00000000#32)))
          W2)
        (broadcastInDim S100x1 ![0, 1] bcast_S1x1_S100x1_0_1 (broadcastInDim S1x1 ![1] bcast_S1_S1x1_1 b2))
        (ix2 b (0 : Fin 1))
      = (((∑ d, max ((∑ c, ((∑ i, H b i c) * (1 / 100)) * Wo1 c d) + bo1 d) 0 * Wo2 d 0) + bo2 0 : ℝ) : EReal) :=
  head_apply _ W1 b1 W2 b2 (fun b c => (∑ i, H b i c) * (1 / 100)) Wo1 bo1 Wo2 bo2
    (fun b c => pool_apply h H hh b c) hW1 hb1 hW2 hb2 b

end Cert.ReferenceIdeal.RefValue

end
-- ==== Proof.RefEnds.lean ====
/-
  The two plain ends of the reference program, for what its operations leave from any contents of the buffers: the
  buffer after the input map holds, row by node number, the casts of the specification's input map of the real inputs;
  and, whatever real node features the buffer after the third layer holds, the result buffer holds the cast of the
  readout of those features (the mean over each graph's nodes, the hidden layer clamped at zero, the output layer). Each
  is the corresponding statement about the pure host functions, carried over by the per-operation equations.
-/
import proofs.«176687_g19121194402273_cont_sun_m_853_29_alg».proof.Proof.RefIface
import proofs.«176687_g19121194402273_cont_sun_m_853_29_alg».proof.Proof.RefEqs0
import proofs.«176687_g19121194402273_cont_sun_m_853_29_alg».proof.Proof.RefEqs1
import proofs.«176687_g19121194402273_cont_sun_m_853_29_alg».proof.Proof.RefEqs3
import proofs.«176687_g19121194402273_cont_sun_m_853_29_alg».proof.Proof.RefEndsIn
import proofs.«176687_g19121194402273_cont_sun_m_853_29_alg».proof.Proof.RefEndsOut

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx Cert.GraphNet
open scoped BigOperators

/-- The buffer after the input map holds the specification's input map of the real inputs. -/
theorem fin_v81_rows (V : Valuation τ sig (Elt Ideal))
    (x : Fin 100 → Fin 100 → Fin 128 → ℝ) (Win : Fin 128 → Fin 128 → ℝ) (bin : Fin 128 → ℝ)
    (hX : Feat (V (Proc.devRef .tc main_arg0)) x) (hW : Mat (V (Proc.devRef .tc main_arg1)) Win)
    (hb : Vec1 (V (Proc.devRef .tc main_arg2)) bin) :
    Rows (fin V (Proc.devRef .tc main_v81)) (h0 x Win bin) := by
  intro b i c
  rw [fin_main_v81 V, fin_main_v80 V, fin_main_v79 V, fin_main_v78 V, fin_main_v77 V, fin_main_arg0 V, fin_main_arg1 V,
    fin_main_arg2 V]
  exact embed_apply _ _ _ x Win bin hX hW hb b i c (node b i) rfl

/-- The same, at an entry. -/
theorem fin_v81_apply (V : Valuation τ sig (Elt Ideal))
    (x : Fin 100 → Fin 100 → Fin 128 → ℝ) (Win : Fin 128 → Fin 128 → ℝ) (bin : Fin 128 → ℝ)
    (hX : ∀ b i k, (V (Proc.devRef .tc main_arg0) : S100x100x128.Idx → EReal) (ix3 b i k) = ((x b i k : ℝ) : EReal))
    (hW : ∀ k c, (V (Proc.devRef .tc main_arg1) : S128x128.Idx → EReal) (ix2 k c) = ((Win k c : ℝ) : EReal))
    (hb : ∀ c, (V (Proc.devRef .tc main_arg2) : S128.Idx → EReal) (ix1 c) = ((bin c : ℝ) : EReal))
    (b i : Fin 100) (c : Fin 128) :
    (fin V (Proc.devRef .tc main_v81) : S10000x128.Idx → EReal) (ix2 (node b i) c) = ((h0 x Win bin b i c : ℝ) : EReal) :=
  fin_v81_rows V x Win bin hX hW hb b i c

/-- Whatever real node features the buffer after the third layer holds, the result buffer holds their readout. -/
theorem fin_v178_apply (V : Valuation τ sig (Elt Ideal))
    (Wo1 : Fin 128 → Fin 64 → ℝ) (bo1 : Fin 64 → ℝ) (Wo2 : Fin 64 → Fin 1 → ℝ) (bo2 : Fin 1 → ℝ)
    (hW1 : Mat (V (Proc.devRef .tc main_arg9)) Wo1) (hb1 : Vec1 (V (Proc.devRef .tc main_arg10)) bo1)
    (hW2 : Mat (V (Proc.devRef .tc main_arg11)) Wo2) (hb2 : Vec1 (V (Proc.devRef .tc main_arg12)) bo2)
    (H : Fin 100 → Fin 100 → Fin 128 → ℝ) (hH : Rows (fin V (Proc.devRef .tc main_v165)) H) (b : Fin 100) :
    (fin V (Proc.devRef .tc main_v178) : (⟨S100x1, .f32⟩ : BufTy).Contents (Elt Ideal)) (ix2 b (0 : Fin 1))
      = (((∑ d, max ((∑ c, ((∑ i, H b i c) * (1 / 100)) * Wo1 c d) + bo1 d) 0 * Wo2 d 0) + bo2 0 : ℝ) : EReal) := by
  rw [fin_main_v178 V, fin_main_v177 V, fin_main_v176 V, fin_main_v175 V, fin_main_v174 V, fin_main_call8_v0 V,
    fin_main_call8_cst V, fin_main_v173 V, fin_main_v172 V, fin_main_v171 V, fin_main_v170 V, fin_main_v169 V,
    fin_main_v168 V, fin_main_cst_28 V, fin_main_v167 V, fin_main_cst_27 V, fin_main_v166 V, fin_main_arg9 V,
    fin_main_arg10 V, fin_main_arg11 V, fin_main_arg12 V]
  exact readout_apply _ _ _ _ _ H Wo1 bo1 Wo2 bo2
    (fun b i c r hr => (Fin.ext hr : r = node b i) ▸ hH b i c) hW1 hb1 hW2 hb2 b

/-- With the features after the three layers, the result buffer holds the network's output. -/
theorem fin_v178_out (V : Valuation τ sig (Elt Ideal))
    (x : Fin 100 → Fin 100 → Fin 128 → ℝ) (Win : Fin 128 → Fin 128 → ℝ) (bin : Fin 128 → ℝ)
    (Wg0 : Fin 128 → Fin 128 → ℝ) (bg0 : Fin 128 → ℝ) (Wg1 : Fin 128 → Fin 128 → ℝ) (bg1 : Fin 128 → ℝ)
    (Wg2 : Fin 128 → Fin 128 → ℝ) (bg2 : Fin 128 → ℝ)
    (Wo1 : Fin 128 → Fin 64 → ℝ) (bo1 : Fin 64 → ℝ) (Wo2 : Fin 64 → Fin 1 → ℝ) (bo2 : Fin 1 → ℝ)
    (hW1 : Mat (V (Proc.devRef .tc main_arg9)) Wo1) (hb1 : Vec1 (V (Proc.devRef .tc main_arg10)) bo1)
    (hW2 : Mat (V (Proc.devRef .tc main_arg11)) Wo2) (hb2 : Vec1 (V (Proc.devRef .tc main_arg12)) bo2)
    (hH : Rows (fin V (Proc.devRef .tc main_v165)) (h3 x Win bin Wg0 bg0 Wg1 bg1 Wg2 bg2)) (b : Fin 100) :
    (fin V (Proc.devRef .tc main_v178) : (⟨S100x1, .f32⟩ : BufTy).Contents (Elt Ideal)) (ix2 b (0 : Fin 1))
      = ((out x Win bin Wg0 bg0 Wg1 bg1 Wg2 bg2 Wo1 bo1 Wo2 bo2 b : ℝ) : EReal) :=
  fin_v178_apply V Wo1 bo1 Wo2 bo2 hW1 hb1 hW2 hb2 _ hH b

end Cert.ReferenceIdeal.RefValue

end
-- ==== Proof.RefLayerWords.lean ====
/-
  Words and bits met when rows of a table are looked up by row number.

  A row number is a 32-bit word read signed. Before a lookup the program moves a negative row number up by the row
  count and tests that the result lies between 0 and the last row; the test is a conjunction of two signed
  comparisons, folded with "and" from the bit 1 along an axis of length one. For a row number that is a row, the
  adjustment keeps the word, both comparisons give the bit 1, and a fold with "and" from 1 over bits that are all 1
  is 1. A scalar laid over a whole shape reads its one value everywhere.
-/
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Idealize.ShloMosaic Idealize.ShloMosaic.ValueIdx

variable {α : Type}

/-- A scalar laid over any shape reads its one value at every index. -/
theorem broadcastInDim_scalar_apply {t : Shape} (h : (⟨0, ![]⟩ : Shape).BroadcastsInDim t ![])
    (v : (⟨0, ![]⟩ : Shape).Idx → α) (j : t.Idx) (k : (⟨0, ![]⟩ : Shape).Idx) :
    broadcastInDim t ![] h v j = v k :=
  broadcastInDim_apply _ h v j k fun a => a.elim0

/-- A word whose signed value is not negative passes the signed test "at least 0". -/
theorem cmpi_sge_zero (w : BitVec 32) (h : 0 ≤ w.toInt) : IntOp.cmpi .sge w 0#32 = 1#1 :=
  Affine.sge_holds (Affine.word w) (Affine.ofNat 0 ⟨rfl, by norm_num⟩) (by exact_mod_cast h)

/-- A word whose signed value is at most n passes the signed test "at most n". -/
theorem cmpi_sle_ofNat (w : BitVec 32) (n : ℕ) (hn : n < 2 ^ 31) (h : w.toInt ≤ (n : ℤ)) :
    IntOp.cmpi .sle w (BitVec.ofNat 32 n) = 1#1 :=
  Affine.sle_holds (Affine.word w) (Affine.ofNat n ⟨rfl, hn⟩) h

/-- A word whose signed value is not negative fails the signed test "below 0". -/
theorem cmpi_slt_zero (w : BitVec 32) (h : 0 ≤ w.toInt) : IntOp.cmpi .slt w 0#32 = 0#1 :=
  eq_zero_of_ne_one (Affine.slt_fails (Affine.word w) (Affine.ofNat 0 ⟨rfl, by norm_num⟩) (by
    have : ¬ w.toInt < 0 := not_lt.mpr h
    exact_mod_cast this))

/-- The adjustment of negative row numbers, "move a negative word up by K, keep the others", keeps a word whose
    signed value is not negative. -/
theorem select_slt_zero_of_nonneg (K w : BitVec 32) (h : 0 ≤ w.toInt) :
    Scalar.select (IntOp.cmpi .slt w 0#32) (IntOp.addi w K) w = w := by
  rw [cmpi_slt_zero w h]
  exact select_zero _ _

/-- A left fold with "and" from the bit 1 over bits that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    have h11 : IntOp.andi (1#1 : BitVec 1) 1#1 = 1#1 := by decide
    rw [h11]
    exact foldl_andi_of_all_one f l fun n hn => h n (List.mem_cons_of_mem _ hn)

/-- The host's reduction with "and" from an initial 1 over an array of bits that are all 1 is 1 everywhere. -/
theorem reduce_andi_of_all_one {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_of_all_one x _ fun n _ => hx n

end Cert.ReferenceIdeal.RefValue

end
-- ==== Proof.RefLayer.lean ====
/-
  One graph-convolution layer of the reference, read one element at a time.

  The layer multiplies the node features by a matrix, looks the product's rows up at every candidate edge's source
  number, scales each looked-up row by the edge's weight, adds the scaled rows into the rows named by the edges'
  target numbers (a table with one extra dump row at the end), drops the dump row, adds a bias row and clamps at 0.
  The lookup moves a negative source number up by the row count, tests that the result is a row, and fills the rows
  that fail the test with a not-a-number; when every source number is a row, the adjustment keeps the number, every
  test passes, and the looked-up row is the product's row at the source number. Element (n, c) of the result is then
  the maximum with 0 of: zero, plus the sum over the edges whose target number is n of the product's element at
  (source number, c) times the edge's weight, plus the bias at c.
-/
import proofs.«176687_g19121194402273_cont_sun_m_853_29_alg».proof.Proof.RefStages
import proofs.«176687_g19121194402273_cont_sun_m_853_29_alg».proof.Proof.RefIface
import proofs.«176687_g19121194402273_cont_sun_m_853_29_alg».proof.Proof.SpecRefEdges
import proofs.«176687_g19121194402273_cont_sun_m_853_29_alg».proof.Proof.RefLayerWords
import proofs.«176687_g19121194402273_cont_sun_m_853_29_alg».proof.Proof.LibSegmentSum
import proofs.«176687_g19121194402273_cont_sun_m_853_29_alg».proof.Proof.LibSegmentDims
import proofs.«176687_g19121194402273_cont_sun_m_853_29_alg».proof.Proof.LibGatherRows
import proofs.«176687_g19121194402273_cont_sun_m_853_29_alg».proof.Proof.LibDenseRows

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx
open scoped BigOperators

/-- An array all of whose entries are one value, laid out over any shape, reads that value at every index. -/
theorem broadcastInDim_of_const {α : Type} {s t : Shape} (dims : Fin s.rank → Fin t.rank) (h : s.BroadcastsInDim t dims)
    (x : s.Idx → α) (v : α) (hx : ∀ k, x k = v) (j : t.Idx) : broadcastInDim t dims h x j = v := by
  unfold broadcastInDim
  exact hx _

variable {F : FTy → Type} [FloatOps F]

/-! ## The layer's pieces, named -/

/-- The source numbers as a column of row numbers, a negative number moved up by the row count first. -/
def takeRows (src : (⟨S1010000, .i32⟩ : BufTy).Contents (Elt F)) : (⟨S1010000x1, .i32⟩ : BufTy).Contents (Elt F) :=
  ((broadcastInDim S1010000x1 ![0] bcast_S1010000_S1010000x1_0 : (⟨S1010000, .i32⟩ : BufTy).Contents (Elt F) → (⟨S1010000x1, .i32⟩ : BufTy).Contents (Elt F)) ((select : (⟨S1010000, .i1⟩ : BufTy).Contents (Elt F) → (⟨S1010000, .i32⟩ : BufTy).Contents (Elt F) → (⟨S1010000, .i32⟩ : BufTy).Contents (Elt F) → (⟨S1010000, .i32⟩ : BufTy).Contents (Elt F)) ((cmpi .slt : (⟨S1010000, .i32⟩ : BufTy).Contents (Elt F) → (⟨S1010000, .i32⟩ : BufTy).Contents (Elt F) → (⟨S1010000, .i1⟩ : BufTy).Contents (Elt F)) src ((broadcastInDim S1010000 ![] bcast_S_S1010000 : (⟨S_, .i32⟩ : BufTy).Contents (Elt F) → (⟨S1010000, .i32⟩ : BufTy).Contents (Elt F)) (constantI S_ 32 0#32 : (⟨S_, .i32⟩ : BufTy).Contents (Elt F)))) ((addi : (⟨S1010000, .i32⟩ : BufTy).Contents (Elt F) → (⟨S1010000, .i32⟩ : BufTy).Contents (Elt F) → (⟨S1010000, .i32⟩ : BufTy).Contents (Elt F)) src ((broadcastInDim S1010000 ![] bcast_S_S1010000 : (⟨S_, .i32⟩ : BufTy).Contents (Elt F) → (⟨S1010000, .i32⟩ : BufTy).Contents (Elt F)) (constantI S_ 32 10000#32 : (⟨S_, .i32⟩ : BufTy).Contents (Elt F)))) src))

/-- The lookup's test, one bit per edge: the adjusted source number is at least 0 and at most the last row. -/
def takeOk (src : (⟨S1010000, .i32⟩ : BufTy).Contents (Elt F)) : (⟨S1010000, .i1⟩ : BufTy).Contents (Elt F) :=
  (((fun x v => Host.reduce IntOp.andi x v reducesTo_S1010000x1_S1010000_d1 h_S_) : (⟨S1010000x1, .i1⟩ : BufTy).Contents (Elt F) → (⟨S_, .i1⟩ : BufTy).Contents (Elt F) → (⟨S1010000, .i1⟩ : BufTy).Contents (Elt F)) ((andi : (⟨S1010000x1, .i1⟩ : BufTy).Contents (Elt F) → (⟨S1010000x1, .i1⟩ : BufTy).Contents (Elt F) → (⟨S1010000x1, .i1⟩ : BufTy).Contents (Elt F)) ((cmpi .sge : (⟨S1010000x1, .i32⟩ : BufTy).Contents (Elt F) → (⟨S1010000x1, .i32⟩ : BufTy).Contents (Elt F) → (⟨S1010000x1, .i1⟩ : BufTy).Contents (Elt F)) (takeRows (F := F) src) ((broadcastInDim S1010000x1 ![] bcast_S_S1010000x1 : (⟨S_, .i32⟩ : BufTy).Contents (Elt F) → (⟨S1010000x1, .i32⟩ : BufTy).Contents (Elt F)) (constantI S_ 32 0#32 : (⟨S_, .i32⟩ : BufTy).Contents (Elt F)))) ((cmpi .sle : (⟨S1010000x1, .i32⟩ : BufTy).Contents (Elt F) → (⟨S1010000x1, .i32⟩ : BufTy).Contents (Elt F) → (⟨S1010000x1, .i1⟩ : BufTy).Contents (Elt F)) (takeRows (F := F) src) ((broadcastInDim S1010000x1 ![0, 1] bcast_S1x1_S1010000x1_0_1 : (⟨S1x1, .i32⟩ : BufTy).Contents (Elt F) → (⟨S1010000x1, .i32⟩ : BufTy).Contents (Elt F)) ((broadcastInDim S1x1 ![1] bcast_S1_S1x1_1 : (⟨S1, .i32⟩ : BufTy).Contents (Elt F) → (⟨S1x1, .i32⟩ : BufTy).Contents (Elt F)) (constantI S1 32 9999#32 : (⟨S1, .i32⟩ : BufTy).Contents (Elt F)))))) (constantI S_ 1 1#1 : (⟨S_, .i1⟩ : BufTy).Contents (Elt F)))

/-- The rows of a table looked up at the source numbers, a row that fails the test filled with not-a-number. -/
def taken (hw : (⟨S10000x128, .f32⟩ : BufTy).Contents (Elt F)) (src : (⟨S1010000, .i32⟩ : BufTy).Contents (Elt F)) : (⟨S1010000x128, .f32⟩ : BufTy).Contents (Elt F) :=
  ((select : (⟨S1010000x128, .i1⟩ : BufTy).Contents (Elt F) → (⟨S1010000x128, .f32⟩ : BufTy).Contents (Elt F) → (⟨S1010000x128, .f32⟩ : BufTy).Contents (Elt F) → (⟨S1010000x128, .f32⟩ : BufTy).Contents (Elt F)) ((broadcastInDim S1010000x128 ![0] bcast_S1010000_S1010000x128_0 : (⟨S1010000, .i1⟩ : BufTy).Contents (Elt F) → (⟨S1010000x128, .i1⟩ : BufTy).Contents (Elt F)) (takeOk (F := F) src)) (((fun x i => Host.gather gather_S10000x128_S1010000x1_S1010000x128_1_0_n_n_0_1_1128 x i) : (⟨S10000x128, .f32⟩ : BufTy).Contents (Elt F) → (⟨S1010000x1, .i32⟩ : BufTy).Contents (Elt F) → (⟨S1010000x128, .f32⟩ : BufTy).Contents (Elt F)) hw (takeRows (F := F) src)) ((broadcastInDim S1010000x128 ![] bcast_S_S1010000x128 : (⟨S_, .f32⟩ : BufTy).Contents (Elt F) → (⟨S1010000x128, .f32⟩ : BufTy).Contents (Elt F)) (constant S_ .f32 0x7FC00000#32 : (⟨S_, .f32⟩ : BufTy).Contents (Elt F))))

/-- The looked-up rows, each scaled by its edge's weight. -/
def msgs (hw : (⟨S10000x128, .f32⟩ : BufTy).Contents (Elt F)) (src : (⟨S1010000, .i32⟩ : BufTy).Contents (Elt F)) (nrm : (⟨S1010000, .f32⟩ : BufTy).Contents (Elt F)) : (⟨S1010000x128, .f32⟩ : BufTy).Contents (Elt F) :=
  ((mulf : (⟨S1010000x128, .f32⟩ : BufTy).Contents (Elt F) → (⟨S1010000x128, .f32⟩ : BufTy).Contents (Elt F) → (⟨S1010000x128, .f32⟩ : BufTy).Contents (Elt F)) (taken hw src) ((broadcastInDim S1010000x128 ![0, 1] bcast_S1010000x1_S1010000x128_0_1 : (⟨S1010000x1, .f32⟩ : BufTy).Contents (Elt F) → (⟨S1010000x128, .f32⟩ : BufTy).Contents (Elt F)) ((broadcastInDim S1010000x1 ![0] bcast_S1010000_S1010000x1_0 : (⟨S1010000, .f32⟩ : BufTy).Contents (Elt F) → (⟨S1010000x1, .f32⟩ : BufTy).Contents (Elt F)) nrm)))

/-- The scaled rows added into a zero table at the target numbers. -/
def agg (dst : (⟨S1010000, .i32⟩ : BufTy).Contents (Elt F)) (m : (⟨S1010000x128, .f32⟩ : BufTy).Contents (Elt F)) : (⟨S10001x128, .f32⟩ : BufTy).Contents (Elt F) :=
  (((fun x i u => Host.scatterAdd scatter_S10001x128_S1010000x1_S1010000x128_1_0_0_1 x i u) : (⟨S10001x128, .f32⟩ : BufTy).Contents (Elt F) → (⟨S1010000x1, .i32⟩ : BufTy).Contents (Elt F) → (⟨S1010000x128, .f32⟩ : BufTy).Contents (Elt F) → (⟨S10001x128, .f32⟩ : BufTy).Contents (Elt F)) ((broadcastInDim S10001x128 ![] bcast_S_S10001x128 : (⟨S_, .f32⟩ : BufTy).Contents (Elt F) → (⟨S10001x128, .f32⟩ : BufTy).Contents (Elt F)) (constant S_ .f32 0x00000000#32 : (⟨S_, .f32⟩ : BufTy).Contents (Elt F))) ((broadcastInDim S1010000x1 ![0] bcast_S1010000_S1010000x1_0 : (⟨S1010000, .i32⟩ : BufTy).Contents (Elt F) → (⟨S1010000x1, .i32⟩ : BufTy).Contents (Elt F)) dst) m)

/-- The layer is the composition of its pieces. -/
theorem gcnLayer_eq (dst src : (⟨S1010000, .i32⟩ : BufTy).Contents (Elt F)) (h : (⟨S10000x128, .f32⟩ : BufTy).Contents (Elt F)) (W : (⟨S128x128, .f32⟩ : BufTy).Contents (Elt F))
    (nrm : (⟨S1010000, .f32⟩ : BufTy).Contents (Elt F)) (bias : (⟨S128, .f32⟩ : BufTy).Contents (Elt F)) :
    gcnLayer dst src h W nrm bias =
      ((maximumf : (⟨S10000x128, .f32⟩ : BufTy).Contents (Elt F) → (⟨S10000x128, .f32⟩ : BufTy).Contents (Elt F) → (⟨S10000x128, .f32⟩ : BufTy).Contents (Elt F)) ((addf : (⟨S10000x128, .f32⟩ : BufTy).Contents (Elt F) → (⟨S10000x128, .f32⟩ : BufTy).Contents (Elt F) → (⟨S10000x128, .f32⟩ : BufTy).Contents (Elt F)) (((extractStridedSlice S10000x128 ![0, 0] · slices_S10001x128_S10000x128_0_0) : (⟨S10001x128, .f32⟩ : BufTy).Contents (Elt F) → (⟨S10000x128, .f32⟩ : BufTy).Contents (Elt F)) (agg dst (msgs (((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)) h W) src nrm))) ((broadcastInDim S10000x128 ![0, 1] bcast_S1x128_S10000x128_0_1 : (⟨S1x128, .f32⟩ : BufTy).Contents (Elt F) → (⟨S10000x128, .f32⟩ : BufTy).Contents (Elt F)) ((broadcastInDim S1x128 ![1] bcast_S128_S1x128_1 : (⟨S128, .f32⟩ : BufTy).Contents (Elt F) → (⟨S1x128, .f32⟩ : BufTy).Contents (Elt F)) bias))) ((broadcastInDim S10000x128 ![] bcast_S_S10000x128 : (⟨S_, .f32⟩ : BufTy).Contents (Elt F) → (⟨S10000x128, .f32⟩ : BufTy).Contents (Elt F)) (constant S_ .f32 0x00000000#32 : (⟨S_, .f32⟩ : BufTy).Contents (Elt F)))) := rfl

/-! ## The pieces at an index, at the ideal values -/

/-- The column of row numbers at edge e is the source number itself when that number is not negative. -/
theorem takeRows_apply (src : IVec S1010000 32) (e : Fin 1010000) (u : Fin 1) (h0 : 0 ≤ (src (ix1 e)).toInt) :
    takeRows (F := Ideal) src (ix2 e u) = src (ix1 e) := by
  unfold takeRows
  refine (Cert.DenseRows.broadcastInDim_a_a1_apply _ _ e u).trans ?_
  show Scalar.select
      (IntOp.cmpi .slt (src (ix1 e)) (broadcastInDim S1010000 ![] bcast_S_S1010000 (constantI S_ 32 0#32) (ix1 e)))
      (IntOp.addi (src (ix1 e)) (broadcastInDim S1010000 ![] bcast_S_S1010000 (constantI S_ 32 10000#32) (ix1 e)))
      (src (ix1 e)) = src (ix1 e)
  rw [broadcastInDim_of_const _ bcast_S_S1010000 (constantI S_ 32 0#32) 0#32 (fun _ => rfl) (ix1 e)]
  exact select_slt_zero_of_nonneg _ _ h0

/-- When every source number is a row, the lookup's test passes at every edge. -/
theorem takeOk_apply (src : IVec S1010000 32)
    (hr : ∀ e : Fin 1010000, 0 ≤ (src (ix1 e)).toInt ∧ (src (ix1 e)).toInt ≤ 9999) (k : S1010000.Idx) :
    takeOk (F := Ideal) src k = 1#1 := by
  unfold takeOk
  show Host.reduce IntOp.andi _ _ _ _ k = 1#1
  refine reduce_andi_of_all_one _ _ _ _ (fun _ => rfl) (fun i => ?_) k
  obtain ⟨e, u, rfl⟩ : ∃ (e : Fin 1010000) (u : Fin 1), i = ix2 e u := ⟨i 0, i 1, eq_ix2 i⟩
  show IntOp.andi
      (IntOp.cmpi .sge (takeRows (F := Ideal) src (ix2 e u))
        (broadcastInDim S1010000x1 ![] bcast_S_S1010000x1 (constantI S_ 32 0#32) (ix2 e u)))
      (IntOp.cmpi .sle (takeRows (F := Ideal) src (ix2 e u))
        (broadcastInDim S1010000x1 ![0, 1] bcast_S1x1_S1010000x1_0_1
          (broadcastInDim S1x1 ![1] bcast_S1_S1x1_1 (constantI S1 32 9999#32)) (ix2 e u))) = 1#1
  rw [takeRows_apply src e u (hr e).1,
    broadcastInDim_of_const _ bcast_S_S1010000x1 (constantI S_ 32 0#32) 0#32 (fun _ => rfl) (ix2 e u),
    broadcastInDim_of_const _ bcast_S1x1_S1010000x1_0_1 _ 9999#32
      (fun k => broadcastInDim_of_const _ bcast_S1_S1x1_1 (constantI S1 32 9999#32) 9999#32 (fun _ => rfl) k) (ix2 e u),
    cmpi_sge_zero _ (hr e).1, cmpi_sle_ofNat _ 9999 (by norm_num) (by exact_mod_cast (hr e).2)]
  decide

/-- When every source number is a row, the looked-up row at edge e is the table's row at e's source number. -/
theorem taken_apply (hw : FVec Ideal S10000x128 .f32) (src : IVec S1010000 32)
    (hr : ∀ e : Fin 1010000, 0 ≤ (src (ix1 e)).toInt ∧ (src (ix1 e)).toInt ≤ 9999) (e : Fin 1010000) (c : Fin 128) :
    taken (F := Ideal) hw src (ix2 e c)
      = hw (ix2 (Cert.GatherRows.clampRow 10000 (by norm_num) (src (ix1 e))) c) := by
  unfold taken
  show Scalar.select
      (broadcastInDim S1010000x128 ![0] bcast_S1010000_S1010000x128_0 (takeOk (F := Ideal) src) (ix2 e c))
      (Host.gather (Cert.GatherRows.rowDims 10000 128 1010000
        gather_S10000x128_S1010000x1_S1010000x128_1_0_n_n_0_1_1128_wf) hw (takeRows (F := Ideal) src) (ix2 e c))
      (broadcastInDim S1010000x128 ![] bcast_S_S1010000x128 (constant (F := Ideal) S_ .f32 0x7FC00000#32) (ix2 e c)) = _
  rw [broadcastInDim_of_const _ bcast_S1010000_S1010000x128_0 (takeOk (F := Ideal) src) 1#1 (takeOk_apply src hr) (ix2 e c),
    select_one, Cert.GatherRows.gather_rows_apply (by norm_num) _ hw (takeRows (F := Ideal) src) e c,
    takeRows_apply src e 0 (hr e).1]

/-- The scaled row at edge e: the table's row at e's source number times e's weight. -/
theorem msgs_apply (hw : FVec Ideal S10000x128 .f32) (src : IVec S1010000 32) (nrm : FVec Ideal S1010000 .f32)
    (hr : ∀ e : Fin 1010000, 0 ≤ (src (ix1 e)).toInt ∧ (src (ix1 e)).toInt ≤ 9999) (e : Fin 1010000) (c : Fin 128) :
    msgs (F := Ideal) hw src nrm (ix2 e c)
      = hw (ix2 (Cert.GatherRows.clampRow 10000 (by norm_num) (src (ix1 e))) c) * nrm (ix1 e) := by
  unfold msgs
  refine (mulf_apply _ _ _).trans ?_
  rw [taken_apply hw src hr e c, Cert.DenseRows.broadcastInDim_a1_ab_apply _ _ e c,
    Cert.DenseRows.broadcastInDim_a_a1_apply _ _ e 0]

/-- The table of sums at row n and column c: zero plus the sum, over the edges whose target number is n, of the
    scaled rows' elements in column c. -/
theorem agg_apply (dst : IVec S1010000 32) (m : FVec Ideal S1010000x128 .f32) (n : Fin 10001) (c : Fin 128) :
    agg (F := Ideal) dst m (ix2 n c)
      = 0 + ∑ e ∈ Finset.univ.filter (fun e : Fin 1010000 => (dst (ix1 e)).toInt = (n.val : ℤ)), m (ix2 e c) := by
  unfold agg
  show Host.scatterAdd (Cert.SegmentDims.rowsDims 10001 128 1010000 scatter_S10001x128_S1010000x1_S1010000x128_1_0_0_1_wf)
      (broadcastInDim S10001x128 ![] bcast_S_S10001x128 (constant (F := Ideal) S_ .f32 0x00000000#32))
      (broadcastInDim S1010000x1 ![0] bcast_S1010000_S1010000x1_0 dst) m (ix2 n c) = _
  rw [Cert.SegmentSum.scatterAdd_rows_apply _ (Cert.SegmentDims.rows_start0 _) (Cert.SegmentDims.rows_start1 _)
    (Cert.SegmentDims.rows_window0 _) (Cert.SegmentDims.rows_window1 _) _ _ m n c,
    broadcastInDim_of_const _ bcast_S_S10001x128 (constant (F := Ideal) S_ .f32 0x00000000#32) 0
      (fun _ => Ideal.ofBits_zero_f32) (ix2 n c)]
  refine congrArg (0 + ·) (Finset.sum_congr (Finset.filter_congr fun i _ => ?_) fun _ _ => rfl)
  rw [Cert.DenseRows.broadcastInDim_a_a1_apply _ _ i 0]

/-- The first ten thousand rows of a table with one more row: row n of the slice is row n of the table. -/
theorem dropLast_apply {α : Type} (y : S10001x128.Idx → α) (hs : S10001x128.Slices ![0, 0] S10000x128)
    (n : Fin 10000) (c : Fin 128) :
    extractStridedSlice S10000x128 ![0, 0] y hs (ix2 n c)
      = y (ix2 (⟨n.val, Nat.lt_succ_of_lt n.isLt⟩ : Fin 10001) c) :=
  extractStridedSlice_apply ![0, 0] y hs (ix2 n c) (ix2 (⟨n.val, Nat.lt_succ_of_lt n.isLt⟩ : Fin 10001) c) fun a => by
    match a with
    | ⟨0, _⟩ => exact (Nat.zero_add _).symm
    | ⟨1, _⟩ => exact (Nat.zero_add _).symm

/-- THE LAYER AT ROW n AND COLUMN c, when every source number is a row: the maximum with 0 of zero, plus the sum over
    the edges whose target number is n of (features times matrix at the edge's source row, column c) times the
    edge's weight, plus the bias at c. -/
theorem gcnLayer_apply (dst src : IVec S1010000 32) (h : FVec Ideal S10000x128 .f32) (W : FVec Ideal S128x128 .f32)
    (nrm : FVec Ideal S1010000 .f32) (bias : FVec Ideal S128 .f32)
    (hr : ∀ e : Fin 1010000, 0 ≤ (src (ix1 e)).toInt ∧ (src (ix1 e)).toInt ≤ 9999) (n : Fin 10000) (c : Fin 128) :
    gcnLayer (F := Ideal) dst src h W nrm bias (ix2 n c)
      = max ((0 + ∑ e ∈ Finset.univ.filter (fun e : Fin 1010000 => (dst (ix1 e)).toInt = (n.val : ℤ)),
            (∑ k : Fin 128, h (ix2 (Cert.GatherRows.clampRow 10000 (by norm_num) (src (ix1 e))) k) * W (ix2 k c))
              * nrm (ix1 e))
          + bias (ix1 c)) 0 := by
  rw [gcnLayer_eq]
  refine (maximumf_apply _ _ _).trans ?_
  show max _ (broadcastInDim S10000x128 ![] bcast_S_S10000x128 (constant (F := Ideal) S_ .f32 0x00000000#32) (ix2 n c)) = _
  rw [broadcastInDim_of_const _ bcast_S_S10000x128 (constant (F := Ideal) S_ .f32 0x00000000#32) 0
    (fun _ => Ideal.ofBits_zero_f32) (ix2 n c)]
  refine congrArg (max · 0) ?_
  refine (addf_apply _ _ _).trans ?_
  rw [Cert.DenseRows.rowBias_inDim_apply bias _ _ n c]
  refine congrArg (· + bias (ix1 c)) ?_
  refine (dropLast_apply _ _ n c).trans ?_
  rw [agg_apply]
  refine congrArg (0 + ·) (Finset.sum_congr rfl fun e _ => ?_)
  rw [msgs_apply _ src nrm hr e c]
  refine congrArg (· * nrm (ix1 e)) ?_
  exact Cert.DenseRows.dotGeneral_plain_apply dot_S10000x128_S128x128_S10000x128_1_0_0_1_n_n rfl rfl rfl rfl
    (fun _ _ => rfl) (fun _ _ => rfl) h W _ c

/-! ## The layer lands on the network's layer -/

open Cert.GraphNet

/-- Every source word names a node and every target word a node or the dump slot. -/
theorem words_range (x : Fin 100 → Fin 100 → Fin 128 → ℝ) (src dst : (⟨S1010000, .i32⟩ : BufTy).Contents (Elt Ideal))
    (hw : Words x src dst) (e : Fin 1010000) :
    (0 ≤ (src (ix1 e)).toInt ∧ (src (ix1 e)).toInt ≤ 9999) ∧ (0 ≤ (dst (ix1 e)).toInt ∧ (dst (ix1 e)).toInt ≤ 10000) := by
  obtain ⟨hp, hl⟩ := hw
  have hlt : e.val < 1010000 := e.isLt
  by_cases he : e.val < 1000000
  · have hb : e.val / 10000 < 100 := by omega
    have hi : e.val / 100 % 100 < 100 := Nat.mod_lt _ (by decide)
    have hj : e.val % 100 < 100 := Nat.mod_lt _ (by decide)
    obtain ⟨hs, hd⟩ := hp e ⟨e.val / 10000, hb⟩ ⟨e.val / 100 % 100, hi⟩ ⟨e.val % 100, hj⟩
      (by show e.val = (e.val / 10000 * 100 + e.val / 100 % 100) * 100 + e.val % 100; omega)
    rw [hs, hd]
    have hbv : (⟨e.val / 10000, hb⟩ : Fin 100).val = e.val / 10000 := rfl
    have hiv : (⟨e.val / 100 % 100, hi⟩ : Fin 100).val = e.val / 100 % 100 := rfl
    have hjv : (⟨e.val % 100, hj⟩ : Fin 100).val = e.val % 100 := rfl
    rw [hbv, hiv, hjv]
    refine ⟨⟨by omega, by omega⟩, ?_⟩
    split
    · exact ⟨by omega, by omega⟩
    · exact ⟨by omega, by omega⟩
  · obtain ⟨hs, hd⟩ := hl e (e.val - 1000000) (by omega) (by omega)
    rw [hs, hd]
    exact ⟨⟨by omega, by omega⟩, ⟨by omega, by omega⟩⟩

/-- ONE LAYER OF THE REFERENCE IS THE NETWORK'S LAYER. The two index tables hold the edge list of the graphs the
    longitudes define, the table holds every node's inverse square-root degree, the weights are the table at both ends
    of every edge, and the features, matrix and bias hold real arrays: then the layer's output holds, row by node,
    the network's layer of those real arrays. The layer read at a node's row is the segment sum over the edge list
    of the source row of features-times-matrix scaled by the weights, plus the bias, clamped at 0. -/
theorem gcnLayer_rows (x : Fin 100 → Fin 100 → Fin 128 → ℝ)
    (dst src : (⟨S1010000, .i32⟩ : BufTy).Contents (Elt Ideal)) (tab : (⟨S10001, .f32⟩ : BufTy).Contents (Elt Ideal))
    (nrm : (⟨S1010000, .f32⟩ : BufTy).Contents (Elt Ideal)) (h : (⟨S10000x128, .f32⟩ : BufTy).Contents (Elt Ideal))
    (W : (⟨S128x128, .f32⟩ : BufTy).Contents (Elt Ideal)) (bias : (⟨S128, .f32⟩ : BufTy).Contents (Elt Ideal))
    (H : Fin 100 → Fin 100 → Fin 128 → ℝ) (Wr : Fin 128 → Fin 128 → ℝ) (br : Fin 128 → ℝ)
    (hw : Words x src dst) (ht : DisTable x tab) (hn : Weights tab src dst nrm) (hh : Rows h H) (hW : Mat W Wr)
    (hb : Vec1 bias br) : Rows (gcnLayer dst src h W nrm bias) (layer x H Wr br) := by
  intro b j c
  have hrange := words_range x src dst hw
  have hr : ∀ e : Fin 1010000, 0 ≤ (src (ix1 e)).toInt ∧ (src (ix1 e)).toInt ≤ 9999 := fun e => (hrange e).1
  rw [gcnLayer_apply dst src h W nrm bias hr (node b j) c, hb c]
  refine edges_layer x (T := 1010000) (by norm_num) (fun n : ℕ => (n : ℤ)) Nat.cast_injective
    (fun e => (dst (ix1 e)).toInt) (fun e b i j he => (hw.1 e b i j he).2)
    (fun e n hn' he => (hw.2 e n hn' he).2)
    (fun n : ℕ => (n : ℤ)) (fun e => (src (ix1 e)).toInt) (fun e b i j he => (hw.1 e b i j he).1)
    (fun e n hn' he => (hw.2 e n hn' he).1) H Wr br c
    (fun z : ℤ => ∑ k : Fin 128, h (ix2 (⟨min z.toNat (10000 - 1), by omega⟩ : Fin 10000) k) * W (ix2 k c))
    (fun z : ℤ => tab (ix1 (⟨min z.toNat 10000, by omega⟩ : Fin 10001)))
    (fun z : ℤ => tab (ix1 (⟨min z.toNat 10000, by omega⟩ : Fin 10001)))
    (fun b i => ?hhv) (fun b i => ?hdv) (fun b i => ?hdv') _ (fun e => ?hupd) (z := 0) rfl b j
  case hhv =>
    have hnode : (⟨min (((b.val * 100 + i.val : ℕ) : ℤ)).toNat (10000 - 1), by omega⟩ : Fin 10000) = node b i :=
      Fin.ext (by
        show min (((b.val * 100 + i.val : ℕ) : ℤ)).toNat (10000 - 1) = b.val * 100 + i.val
        rw [Int.toNat_natCast]; have := b.isLt; have := i.isLt; omega)
    show ∑ k : Fin 128, h (ix2 (⟨min (((b.val * 100 + i.val : ℕ) : ℤ)).toNat (10000 - 1), by omega⟩ : Fin 10000) k) * W (ix2 k c) = _
    rw [hnode, coe_lin]
    exact Finset.sum_congr rfl fun k _ => by rw [hh b i k, hW k c]
  case hdv =>
    have hslot : (⟨min (((b.val * 100 + i.val : ℕ) : ℤ)).toNat 10000, by omega⟩ : Fin 10001) = slot b i :=
      Fin.ext (by
        show min (((b.val * 100 + i.val : ℕ) : ℤ)).toNat 10000 = b.val * 100 + i.val
        rw [Int.toNat_natCast]; have := b.isLt; have := i.isLt; omega)
    show tab (ix1 (⟨min (((b.val * 100 + i.val : ℕ) : ℤ)).toNat 10000, by omega⟩ : Fin 10001)) = _
    rw [hslot, ht b i]
  case hdv' =>
    have hslot : (⟨min (((b.val * 100 + i.val : ℕ) : ℤ)).toNat 10000, by omega⟩ : Fin 10001) = slot b i :=
      Fin.ext (by
        show min (((b.val * 100 + i.val : ℕ) : ℤ)).toNat 10000 = b.val * 100 + i.val
        rw [Int.toNat_natCast]; have := b.isLt; have := i.isLt; omega)
    show tab (ix1 (⟨min (((b.val * 100 + i.val : ℕ) : ℤ)).toNat 10000, by omega⟩ : Fin 10001)) = _
    rw [hslot, ht b i]
  case hupd =>
    obtain ⟨⟨hs0, hs1⟩, ⟨hd0, hd1⟩⟩ := hrange e
    have hsl : (src (ix1 e)).toInt = (((⟨(src (ix1 e)).toInt.toNat, by omega⟩ : Fin 10001).val : ℕ) : ℤ) :=
      (Int.toNat_of_nonneg hs0).symm
    have hdl : (dst (ix1 e)).toInt = (((⟨(dst (ix1 e)).toInt.toNat, by omega⟩ : Fin 10001).val : ℕ) : ℤ) :=
      (Int.toNat_of_nonneg hd0).symm
    have hs' : (⟨min (src (ix1 e)).toInt.toNat 10000, by omega⟩ : Fin 10001) = ⟨(src (ix1 e)).toInt.toNat, by omega⟩ :=
      Fin.ext (by show min (src (ix1 e)).toInt.toNat 10000 = (src (ix1 e)).toInt.toNat; omega)
    have hd' : (⟨min (dst (ix1 e)).toInt.toNat 10000, by omega⟩ : Fin 10001) = ⟨(dst (ix1 e)).toInt.toNat, by omega⟩ :=
      Fin.ext (by show min (dst (ix1 e)).toInt.toNat 10000 = (dst (ix1 e)).toInt.toNat; omega)
    show (∑ k : Fin 128, h (ix2 (Cert.GatherRows.clampRow 10000 (by norm_num) (src (ix1 e))) k) * W (ix2 k c)) * nrm (ix1 e)
      = (∑ k : Fin 128, h (ix2 (⟨min (src (ix1 e)).toInt.toNat (10000 - 1), by omega⟩ : Fin 10000) k) * W (ix2 k c))
        * (tab (ix1 (⟨min (src (ix1 e)).toInt.toNat 10000, by omega⟩ : Fin 10001))
          * tab (ix1 (⟨min (dst (ix1 e)).toInt.toNat 10000, by omega⟩ : Fin 10001)))
    rw [hs', hd', hn e _ _ hsl hdl]
    rfl

end Cert.ReferenceIdeal.RefValue

end
-- ==== Proof.RefFinal.lean ====
/- The reference program's result, from contents whose thirteen argument buffers hold the casts of real arrays: the
   result buffer holds, graph by graph, the cast of the network's output. The assembly of the result from its stages,
   with the stages' facts supplied: the index tables hold the edge list, the degree table the inverse square-root
   degrees, the edge-weight stage the weights, the layer stage a layer of the network, the two ends the input map and
   the readout. -/
import proofs.«176687_g19121194402273_cont_sun_m_853_29_alg».proof.Proof.RefResult
import proofs.«176687_g19121194402273_cont_sun_m_853_29_alg».proof.Proof.RefWords
import proofs.«176687_g19121194402273_cont_sun_m_853_29_alg».proof.Proof.RefDegree
import proofs.«176687_g19121194402273_cont_sun_m_853_29_alg».proof.Proof.RefEnds
import proofs.«176687_g19121194402273_cont_sun_m_853_29_alg».proof.Proof.RefLayer

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx Cert.GraphNet

variable (V : Valuation τ sig (Elt Ideal))
  (x : Fin 100 → Fin 100 → Fin 128 → ℝ) (Win : Fin 128 → Fin 128 → ℝ) (bin : Fin 128 → ℝ)
  (Wg0 : Fin 128 → Fin 128 → ℝ) (bg0 : Fin 128 → ℝ) (Wg1 : Fin 128 → Fin 128 → ℝ) (bg1 : Fin 128 → ℝ)
  (Wg2 : Fin 128 → Fin 128 → ℝ) (bg2 : Fin 128 → ℝ)
  (Wo1 : Fin 128 → Fin 64 → ℝ) (bo1 : Fin 64 → ℝ) (Wo2 : Fin 64 → Fin 1 → ℝ) (bo2 : Fin 1 → ℝ)

/-- The result from coerced real arguments, given that the layer stage computes a layer of the network. -/
theorem fin_out_of_layer
    (hX : Feat (V (Proc.devRef .tc main_arg0)) x) (hWin : Mat (V (Proc.devRef .tc main_arg1)) Win)
    (hbin : Vec1 (V (Proc.devRef .tc main_arg2)) bin)
    (hWg0 : Mat (V (Proc.devRef .tc main_arg3)) Wg0) (hbg0 : Vec1 (V (Proc.devRef .tc main_arg4)) bg0)
    (hWg1 : Mat (V (Proc.devRef .tc main_arg5)) Wg1) (hbg1 : Vec1 (V (Proc.devRef .tc main_arg6)) bg1)
    (hWg2 : Mat (V (Proc.devRef .tc main_arg7)) Wg2) (hbg2 : Vec1 (V (Proc.devRef .tc main_arg8)) bg2)
    (hWo1 : Mat (V (Proc.devRef .tc main_arg9)) Wo1) (hbo1 : Vec1 (V (Proc.devRef .tc main_arg10)) bo1)
    (hWo2 : Mat (V (Proc.devRef .tc main_arg11)) Wo2) (hbo2 : Vec1 (V (Proc.devRef .tc main_arg12)) bo2)
    (hlayer : ∀ (dst src : (⟨S1010000, .i32⟩ : BufTy).Contents (Elt Ideal)) (tab : (⟨S10001, .f32⟩ : BufTy).Contents (Elt Ideal)) (nrm : (⟨S1010000, .f32⟩ : BufTy).Contents (Elt Ideal))
        (h : (⟨S10000x128, .f32⟩ : BufTy).Contents (Elt Ideal)) (W : (⟨S128x128, .f32⟩ : BufTy).Contents (Elt Ideal)) (bias : (⟨S128, .f32⟩ : BufTy).Contents (Elt Ideal))
        (H : Fin 100 → Fin 100 → Fin 128 → ℝ) (Wr : Fin 128 → Fin 128 → ℝ) (br : Fin 128 → ℝ),
        Words x src dst → DisTable x tab → Weights tab src dst nrm → Rows h H → Mat W Wr → Vec1 bias br →
        Rows (gcnLayer dst src h W nrm bias) (layer x H Wr br)) :
    (fin V (Proc.devRef .tc main_v178) : (⟨S100x1, .f32⟩ : BufTy).Contents (Elt Ideal))
      = fun i => ((out x Win bin Wg0 bg0 Wg1 bg1 Wg2 bg2 Wo1 bo1 Wo2 bo2 (i 0) : ℝ) : EReal) :=
  have hwords := Cert.ReferenceIdeal.RefValue.words x V hX
  result_spec x Win bin Wg0 bg0 Wg1 bg1 Wg2 bg2 Wo1 bo1 Wo2 bo2 V hWg0 hbg0 hWg1 hbg1 hWg2 hbg2 hwords
    (Cert.ReferenceIdeal.RefValue.disTable_main_v76 V x hwords) Cert.ReferenceIdeal.RefValue.weights_edgeNorm hlayer
    (Cert.ReferenceIdeal.RefValue.fin_v81_rows V x Win bin hX hWin hbin)
    (fun H hH b => Cert.ReferenceIdeal.RefValue.fin_v178_apply V Wo1 bo1 Wo2 bo2 hWo1 hbo1 hWo2 hbo2 H hH b)

/-- THE RESULT, from contents whose argument buffers hold the casts of real arrays. -/
theorem fin_out
    (hX : Feat (V (Proc.devRef .tc main_arg0)) x) (hWin : Mat (V (Proc.devRef .tc main_arg1)) Win)
    (hbin : Vec1 (V (Proc.devRef .tc main_arg2)) bin)
    (hWg0 : Mat (V (Proc.devRef .tc main_arg3)) Wg0) (hbg0 : Vec1 (V (Proc.devRef .tc main_arg4)) bg0)
    (hWg1 : Mat (V (Proc.devRef .tc main_arg5)) Wg1) (hbg1 : Vec1 (V (Proc.devRef .tc main_arg6)) bg1)
    (hWg2 : Mat (V (Proc.devRef .tc main_arg7)) Wg2) (hbg2 : Vec1 (V (Proc.devRef .tc main_arg8)) bg2)
    (hWo1 : Mat (V (Proc.devRef .tc main_arg9)) Wo1) (hbo1 : Vec1 (V (Proc.devRef .tc main_arg10)) bo1)
    (hWo2 : Mat (V (Proc.devRef .tc main_arg11)) Wo2) (hbo2 : Vec1 (V (Proc.devRef .tc main_arg12)) bo2) :
    (fin V (Proc.devRef .tc main_v178) : (⟨S100x1, .f32⟩ : BufTy).Contents (Elt Ideal))
      = fun i => ((out x Win bin Wg0 bg0 Wg1 bg1 Wg2 bg2 Wo1 bo1 Wo2 bo2 (i 0) : ℝ) : EReal) :=
  fin_out_of_layer V x Win bin Wg0 bg0 Wg1 bg1 Wg2 bg2 Wo1 bo1 Wo2 bo2 hX hWin hbin hWg0 hbg0 hWg1 hbg1 hWg2 hbg2 hWo1 hbo1 hWo2 hbo2
    (Cert.ReferenceIdeal.RefValue.gcnLayer_rows x)

end Cert.ReferenceIdeal.RefRun

end
-- ==== Proof.lean ====
/-
  The certificate of the graph network kernel against its reference. Both programs compute, for each of one hundred
  graphs of one hundred nodes, three graph-convolution layers over the graph whose edges join nodes of circular
  longitude distance below ten degrees, a mean over the nodes and a two-layer head (Proof/Spec.lean, over the reals).
  The kernel handles fifty graphs per grid point with the adjacency as a dense 0/1 matrix scaled by the inverse
  square-root degrees; the reference lists all pairs as edges (non-edges sent to a dump slot) and sums by scatter.
  At real inputs the two-sum's error term vanishes, so the edge test is symmetric and both degree counts agree; the
  kernel's three-way split of the scaled features collapses because q − q = 0 for real q; and moving the real factor
  dis j across the neighbourhood sum joins the two arrangements. The mean's factor is the named constant 1/100.
  Frames: the kernel's two programs by their generated frame certificates, the reference's by its run read as a line
  of host operations in single-assignment form. The rewrites of the ideal pass: Proof/Preserves.lean.
-/
import proofs.«176687_g19121194402273_cont_sun_m_853_29_alg».proof.Defs
import proofs.«176687_g19121194402273_cont_sun_m_853_29_alg».proof.Proof.Gen.Kernel
import proofs.«176687_g19121194402273_cont_sun_m_853_29_alg».proof.Proof.Gen.Kernel.Skeleton
import proofs.«176687_g19121194402273_cont_sun_m_853_29_alg».proof.Proof.Gen.Kernel.Launch
import proofs.«176687_g19121194402273_cont_sun_m_853_29_alg».proof.Proof.Gen.Kernel.Points
import proofs.«176687_g19121194402273_cont_sun_m_853_29_alg».proof.Proof.Gen.Kernel.Frame
import proofs.«176687_g19121194402273_cont_sun_m_853_29_alg».proof.Proof.Gen.KernelIdeal
import proofs.«176687_g19121194402273_cont_sun_m_853_29_alg».proof.Proof.Gen.KernelIdeal.Skeleton
import proofs.«176687_g19121194402273_cont_sun_m_853_29_alg».proof.Proof.Gen.KernelIdeal.Launch
import proofs.«176687_g19121194402273_cont_sun_m_853_29_alg».proof.Proof.Gen.KernelIdeal.Points
import proofs.«176687_g19121194402273_cont_sun_m_853_29_alg».proof.Proof.Gen.KernelIdeal.Frame
import proofs.«176687_g19121194402273_cont_sun_m_853_29_alg».proof.Proof.Gen.ReferenceIdeal
import proofs.«176687_g19121194402273_cont_sun_m_853_29_alg».proof.Proof.Gen.Pre_finite_inputs
import proofs.«176687_g19121194402273_cont_sun_m_853_29_alg».proof.Proof.Preserves
import proofs.«176687_g19121194402273_cont_sun_m_853_29_alg».proof.Proof.Finite
import proofs.«176687_g19121194402273_cont_sun_m_853_29_alg».proof.Proof.KernelRun
import proofs.«176687_g19121194402273_cont_sun_m_853_29_alg».proof.Proof.KernelValue
import proofs.«176687_g19121194402273_cont_sun_m_853_29_alg».proof.Proof.RefRun
import proofs.«176687_g19121194402273_cont_sun_m_853_29_alg».proof.Proof.RefFrame
import proofs.«176687_g19121194402273_cont_sun_m_853_29_alg».proof.Proof.RefFinal
import Idealize.ShloMosaic.Adequacy
import Idealize.ShloMosaic.Init

noncomputable section

namespace Cert.Proof

open Idealize.ShloMosaic Idealize.ShloMosaic.ValueIdx Idealize.SL.Sem Cert.GraphNet

/-- At real inputs both idealized programs end with the network's output in their result buffer: the kernel's launch
    writes it along each row of its result array and the host keeps lane 0; the reference's line of host operations
    computes it through the edge list. The inputs are real by the precondition, device by device. -/
theorem algebraic : Cert.algebraic_KernelIdeal_ReferenceIdeal := by
  intro m ρ m' ρ' hpre hagree
  have hreal := fun c => Cert.Proof.Finite.real_arrays m hpre c
  choose x Win bin Wg0 bg0 Wg1 bg1 Wg2 bg2 Wo1 bo1 Wo2 bo2 hall using hreal
  refine ⟨fun c => fun i => ((out (x c) (Win c) (bin c) (Wg0 c) (bg0 c) (Wg1 c) (bg1 c) (Wg2 c) (bg2 c) (Wo1 c) (bo1 c) (Wo2 c) (bo2 c) (i 0) : ℝ) : EReal), ?_, ?_⟩
  · refine (θ_run Cert.KernelIdeal.defs _ _).mono (fun r h c => ⟨(h c).1.trans ?_, (h c).2⟩)
      (Cert.KernelIdeal.RunValue.run (F := Ideal) m ρ
        (fun c => Cert.KernelIdeal.Final.G (x c) (Win c) (bin c) (Wg0 c) (bg0 c) (Wg1 c) (bg1 c) (Wg2 c) (bg2 c) (Wo1 c) (bo1 c) (Wo2 c) (bo2 c))
        (fun c t => by
          obtain ⟨h0, h1, h2, h3, h4, h5, h6, h7, h8, h9, h10, h11, h12⟩ := hall c
          exact Cert.KernelIdeal.Final.flushed_eq m (x c) (Win c) (bin c) (Wg0 c) (bg0 c) (Wg1 c) (bg1 c) (Wg2 c) (bg2 c) (Wo1 c) (bo1 c) (Wo2 c) (bo2 c)
            c h0 h1 h2 h3 h4 h5 h6 h7 h8 h9 h10 h11 h12 t))
    funext i
    obtain ⟨b, u, rfl⟩ : ∃ (b : Fin 100) (u : Fin 1), i = ix2 b u := ⟨i 0, i 1, eq_ix2 i⟩
    obtain rfl : u = 0 := Subsingleton.elim _ _
    exact Cert.KernelIdeal.RunValue.tail_apply _ b
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12⟩ := hall c
    obtain ⟨a0, a1, a2, a3, a4, a5, a6, a7, a8, a9, a10, a11, a12⟩ := hagree c
    exact Cert.ReferenceIdeal.RefRun.fin_out _ (x c) (Win c) (bin c) (Wg0 c) (bg0 c) (Wg1 c) (bg1 c) (Wg2 c) (bg2 c) (Wo1 c) (bo1 c) (Wo2 c) (bo2 c)
      (fun b i k => (congrFun a0 _).trans (h0 b i k)) (fun k c' => (congrFun a1 _).trans (h1 k c')) (fun c' => (congrFun a2 _).trans (h2 c'))
      (fun k c' => (congrFun a3 _).trans (h3 k c')) (fun c' => (congrFun a4 _).trans (h4 c'))
      (fun k c' => (congrFun a5 _).trans (h5 k c')) (fun c' => (congrFun a6 _).trans (h6 c'))
      (fun k c' => (congrFun a7 _).trans (h7 k c')) (fun c' => (congrFun a8 _).trans (h8 c'))
      (fun k d => (congrFun a9 _).trans (h9 k d)) (fun d => (congrFun a10 _).trans (h10 d))
      (fun d u => (congrFun a11 _).trans (h11 d u)) (fun u => (congrFun a12 _).trans (h12 u))

/-- The five claims: the three frames, the ideal pass's rewrites, and the equality of the two idealized programs'
    results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.RefRun.frame_ri,
  Cert.Proof.Rewrites.preserves,
  algebraic⟩

end Cert.Proof

end
